-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v190)) (v1 : (c : Dev Cert.KernelIdeal.nD) → Buf (Elt Ideal) ((c.tc : Thread Cert.KernelIdeal.nD Cert.KernelIdeal.τ).loc Cert.KernelIdeal.main_v203)) (v2 : (c : Dev Cert.KernelIdeal.nD) → Buf (Elt Ideal) ((c.tc : Thread Cert.KernelIdeal.nD Cert.KernelIdeal.τ).loc Cert.KernelIdeal.main_v161)) (v3 : (c : Dev Cert.KernelIdeal.nD) → Buf (Elt Ideal) ((c.tc : Thread Cert.KernelIdeal.nD Cert.KernelIdeal.τ).loc Cert.KernelIdeal.main_v156)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v190) = v0 c
          ∧ r.2.mem ((c.tc : Thread Cert.KernelIdeal.nD Cert.KernelIdeal.τ).loc Cert.KernelIdeal.main_v203) = v1 c
          ∧ r.2.mem ((c.tc : Thread Cert.KernelIdeal.nD Cert.KernelIdeal.τ).loc Cert.KernelIdeal.main_v161) = v2 c
          ∧ r.2.mem ((c.tc : Thread Cert.KernelIdeal.nD Cert.KernelIdeal.τ).loc Cert.KernelIdeal.main_v156) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_v269) = v1 c
          ∧ r.2.mem ((c.tc : Thread Cert.ReferenceIdeal.nD Cert.ReferenceIdeal.τ).loc Cert.ReferenceIdeal.main_v227) = v2 c
          ∧ r.2.mem ((c.tc : Thread Cert.ReferenceIdeal.nD Cert.ReferenceIdeal.τ).loc Cert.ReferenceIdeal.main_v222) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S90000x128 : Shape := ⟨2, ![90000, 128]⟩
abbrev S2x1440000 : Shape := ⟨2, ![2, 1440000]⟩
abbrev S90000 : Shape := ⟨1, ![90000]⟩
abbrev S3000 : Shape := ⟨1, ![3000]⟩
abbrev S2x675000 : Shape := ⟨2, ![2, 675000]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S128x1 : Shape := ⟨2, ![128, 1]⟩
abbrev S1 : Shape := ⟨1, ![1]⟩
abbrev S256x1 : Shape := ⟨2, ![256, 1]⟩
abbrev S_ : Shape := ⟨0, ![]⟩

class Facts : Prop where
  bcast_S_S90000x128 : S_.BroadcastsInDim S90000x128 (![] : Fin 0 → Fin S90000x128.rank)
  reducesTo_S90000x128_S_d0_1 : S90000x128.ReducesTo [0, 1] S_
  h_S_ : 0 < S_.numel
  bcast_S_S3000 : S_.BroadcastsInDim S3000 (![] : Fin 0 → Fin S3000.rank)
  reducesTo_S3000_S_d0 : S3000.ReducesTo [0] S_
  bcast_S_S4x128x256 : S_.BroadcastsInDim S4x128x256 (![] : Fin 0 → Fin S4x128x256.rank)
  reducesTo_S4x128x256_S_d0_1_2 : S4x128x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x1 : S_.BroadcastsInDim S256x1 (![] : Fin 0 → Fin S256x1.rank)
  reducesTo_S256x1_S_d0_1 : S256x1.ReducesTo [0, 1] S_

variable [Facts]

def fn_part3 {F : FTy → Type} [FloatOps F] (main_arg14 : FVec F S256x1 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S256x1 .f32 := Host.absf main_arg14
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S4x256x128 .f32) (main_arg11 : FVec F S4x128 .f32) (main_arg12 : FVec F S128x1 .f32) (main_arg13 : FVec F S1 .f32) (main_arg14 : FVec F S256x1 .f32) (main_arg15 : FVec F S1 .f32) (main_v33 : IVec S_ 1) : IVec S_ 1 :=
  let main_v34 : FVec F S4x256x128 .f32 := Host.absf main_arg10
  let main_cst_12 : FVec F S_ .f32 := constant S_ .f32 0x7F800000#32
  let main_v35 : FVec F S4x256x128 .f32 := broadcastInDim S4x256x128 ![] bcast_S_S4x256x128 main_cst_12
  let main_v36 : IVec S4x256x128 1 := cmpf .olt main_v34 main_v35
  let main_c_13 : IVec S_ 1 := constantI S_ 1 1#1
  let main_v37 : IVec S_ 1 := (fun x v => Host.reduce IntOp.andi x v reducesTo_S4x256x128_S_d0_1_2 h_S_) main_v36 main_c_13
  let main_v38 : IVec S_ 1 := andi main_v33 main_v37
  let main_v39 : FVec F S4x128 .f32 := Host.absf main_arg11
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S128x1 .f32 := Host.absf main_arg12
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg14 main_arg15 main_v48 main_v49 main_v50

def fn_part1 {F : FTy → Type} [FloatOps F] (main_arg7 : FVec F S4x256 .f32) (main_arg8 : FVec F S4x256 .f32) (main_arg9 : FVec F S4x256 .f32) (main_arg10 : FVec F S4x256x128 .f32) (main_arg11 : FVec F S4x128 .f32) (main_arg12 : FVec F S128x1 .f32) (main_arg13 : FVec F S1 .f32) (main_arg14 : FVec F S256x1 .f32) (main_arg15 : FVec F S1 .f32) (main_v13 : IVec S_ 1) (main_v16 : IVec S4x128x256 1) : IVec S_ 1 :=
  let main_c_5 : IVec S_ 1 := constantI S_ 1 1#1
  let main_v17 : IVec S_ 1 := (fun x v => Host.reduce IntOp.andi x v reducesTo_S4x128x256_S_d0_1_2 h_S_) main_v16 main_c_5
  let main_v18 : IVec S_ 1 := andi main_v13 main_v17
  let main_v19 : FVec F S4x256 .f32 := Host.absf main_arg7
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256 .f32 := Host.absf main_arg8
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256 .f32 := Host.absf main_arg9
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S90000x128 .f32) (main_arg1 : IVec S2x1440000 32) (main_arg2 : IVec S90000 32) (main_arg3 : FVec F S3000 .f32) (main_arg4 : IVec S2x675000 32) (main_arg5 : FVec F S90000x128 .f32) (main_arg6 : FVec F S4x128x256 .f32) (main_arg7 : FVec F S4x256 .f32) (main_arg8 : FVec F S4x256 .f32) (main_arg9 : FVec F S4x256 .f32) (main_arg10 : FVec F S4x256x128 .f32) (main_arg11 : FVec F S4x128 .f32) (main_arg12 : FVec F S128x1 .f32) (main_arg13 : FVec F S1 .f32) (main_arg14 : FVec F S256x1 .f32) (main_arg15 : FVec F S1 .f32) : IVec S_ 1 :=
  let main_v0 : FVec F S90000x128 .f32 := Host.absf main_arg0
  let main_cst : FVec F S_ .f32 := constant S_ .f32 0x7F800000#32
  let main_v1 : FVec F S90000x128 .f32 := broadcastInDim S90000x128 ![] bcast_S_S90000x128 main_cst
  let main_v2 : IVec S90000x128 1 := cmpf .olt main_v0 main_v1
  let main_c : IVec S_ 1 := constantI S_ 1 1#1
  let main_v3 : IVec S_ 1 := (fun x v => Host.reduce IntOp.andi x v reducesTo_S90000x128_S_d0_1 h_S_) main_v2 main_c
  let main_v4 : FVec F S3000 .f32 := Host.absf main_arg3
  let main_cst_0 : FVec F S_ .f32 := constant S_ .f32 0x7F800000#32
  let main_v5 : FVec F S3000 .f32 := broadcastInDim S3000 ![] bcast_S_S3000 main_cst_0
  let main_v6 : IVec S3000 1 := cmpf .olt main_v4 main_v5
  let main_c_1 : IVec S_ 1 := constantI S_ 1 1#1
  let main_v7 : IVec S_ 1 := (fun x v => Host.reduce IntOp.andi x v reducesTo_S3000_S_d0 h_S_) main_v6 main_c_1
  let main_v8 : IVec S_ 1 := andi main_v3 main_v7
  let main_v9 : FVec F S90000x128 .f32 := Host.absf main_arg5
  let main_cst_2 : FVec F S_ .f32 := constant S_ .f32 0x7F800000#32
  let main_v10 : FVec F S90000x128 .f32 := broadcastInDim S90000x128 ![] bcast_S_S90000x128 main_cst_2
  let main_v11 : IVec S90000x128 1 := cmpf .olt main_v9 main_v10
  let main_c_3 : IVec S_ 1 := constantI S_ 1 1#1
  let main_v12 : IVec S_ 1 := (fun x v => Host.reduce IntOp.andi x v reducesTo_S90000x128_S_d0_1 h_S_) main_v11 main_c_3
  let main_v13 : IVec S_ 1 := andi main_v8 main_v12
  let main_v14 : FVec F S4x128x256 .f32 := Host.absf main_arg6
  let main_cst_4 : FVec F S_ .f32 := constant S_ .f32 0x7F800000#32
  let main_v15 : FVec F S4x128x256 .f32 := broadcastInDim S4x128x256 ![] bcast_S_S4x128x256 main_cst_4
  let main_v16 : IVec S4x128x256 1 := cmpf .olt main_v14 main_v15
  fn_part1 (F := F) main_arg7 main_arg8 main_arg9 main_arg10 main_arg11 main_arg12 main_arg13 main_arg14 main_arg15 main_v13 main_v16
-- ==== Kernel.lean ====
abbrev S90000x128 : Shape := ⟨2, ![90000, 128]⟩
abbrev S2x1440000 : Shape := ⟨2, ![2, 1440000]⟩
abbrev S90000 : Shape := ⟨1, ![90000]⟩
abbrev S3000 : Shape := ⟨1, ![3000]⟩
abbrev S2x675000 : Shape := ⟨2, ![2, 675000]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S128x1 : Shape := ⟨2, ![128, 1]⟩
abbrev S1 : Shape := ⟨1, ![1]⟩
abbrev S256x1 : Shape := ⟨2, ![256, 1]⟩
abbrev S1x1440000 : Shape := ⟨2, ![1, 1440000]⟩
abbrev S1440000 : Shape := ⟨1, ![1440000]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S_ : Shape := ⟨0, ![]⟩
abbrev S1440000x1 : Shape := ⟨2, ![1440000, 1]⟩
abbrev S1440000x128 : Shape := ⟨2, ![1440000, 128]⟩
abbrev S90000x256 : Shape := ⟨2, ![90000, 256]⟩
abbrev S3600x128 : Shape := ⟨2, ![3600, 128]⟩
abbrev S3600x256 : Shape := ⟨2, ![3600, 256]⟩
abbrev S90000x1 : Shape := ⟨2, ![90000, 1]⟩
abbrev S3000x128 : Shape := ⟨2, ![3000, 128]⟩
abbrev S3000x1 : Shape := ⟨2, ![3000, 1]⟩
abbrev S1x1 : Shape := ⟨2, ![1, 1]⟩
abbrev S1x675000 : Shape := ⟨2, ![1, 675000]⟩
abbrev S675000 : Shape := ⟨1, ![675000]⟩
abbrev S675000x1 : Shape := ⟨2, ![675000, 1]⟩
abbrev S675000x128 : Shape := ⟨2, ![675000, 128]⟩
abbrev S675000x256 : Shape := ⟨2, ![675000, 256]⟩

abbrev nBuf : Space → Nat
  | .hbm => 265
  | .vmem => 80
  | .smem => 0
  | _ => 0

abbrev hbmTy0_0 (i : Nat) : BufTy := match i % 128 with
  | 0 => ⟨S90000x128, .f32⟩
  | 1 => ⟨S2x1440000, .i32⟩
  | 2 => ⟨S90000, .i32⟩
  | 3 => ⟨S3000, .f32⟩
  | 4 => ⟨S2x675000, .i32⟩
  | 5 => ⟨S90000x128, .f32⟩
  | 6 => ⟨S4x128x256, .f32⟩
  | 7 => ⟨S4x256, .f32⟩
  | 8 => ⟨S4x256, .f32⟩
  | 9 => ⟨S4x256, .f32⟩
  | 10 => ⟨S4x256x128, .f32⟩
  | 11 => ⟨S4x128, .f32⟩
  | 12 => ⟨S128x1, .f32⟩
  | 13 => ⟨S1, .f32⟩
  | 14 => ⟨S256x1, .f32⟩
  | 15 => ⟨S1, .f32⟩
  | 16 => ⟨S1x1440000, .i32⟩
  | 17 => ⟨S1440000, .i32⟩
  | 18 => ⟨S1x1440000, .i32⟩
  | 19 => ⟨S1440000, .i32⟩
  | 20 => ⟨S1x128x256, .f32⟩
  | 21 => ⟨S128x256, .f32⟩
  | 22 => ⟨S1x256, .f32⟩
  | 23 => ⟨S256, .f32⟩
  | 24 => ⟨S1x256, .f32⟩
  | 25 => ⟨S256, .f32⟩
  | 26 => ⟨S1x256, .f32⟩
  | 27 => ⟨S256, .f32⟩
  | 28 => ⟨S1x256x128, .f32⟩
  | 29 => ⟨S256x128, .f32⟩
  | 30 => ⟨S1x128, .f32⟩
  | 31 => ⟨S128, .f32⟩
  | 32 => ⟨S_, .i32⟩
  | 33 => ⟨S1440000, .i32⟩
  | 34 => ⟨S1440000, .i1⟩
  | 35 => ⟨S_, .i32⟩
  | 36 => ⟨S1440000, .i32⟩
  | 37 => ⟨S1440000, .i32⟩
  | 38 => ⟨S1440000, .i32⟩
  | 39 => ⟨S1440000x1, .i32⟩
  | 40 => ⟨S1440000x128, .f32⟩
  | 41 => ⟨S_, .f32⟩
  | 42 => ⟨S90000x128, .f32⟩
  | 43 => ⟨S1440000x1, .i32⟩
  | 44 => ⟨S90000x128, .f32⟩
  | 45 => ⟨S1x256, .f32⟩
  | 46 => ⟨S90000x256, .f32⟩
  | 47 => ⟨S1x256, .f32⟩
  | 48 => ⟨S1x256, .f32⟩
  | 49 => ⟨S_, .f32⟩
  | 50 => ⟨S1x256, .f32⟩
  | 51 => ⟨S1x256, .f32⟩
  | 52 => ⟨S_, .f32⟩
  | 53 => ⟨S1x256, .f32⟩
  | 54 => ⟨S1x256, .f32⟩
  | 55 => ⟨S1x256, .f32⟩
  | 56 => ⟨S1x256, .f32⟩
  | 57 => ⟨S1x256, .f32⟩
  | 58 => ⟨S1x256, .f32⟩
  | 59 => ⟨S1x128, .f32⟩
  | 60 => ⟨S90000x128, .f32⟩
  | 61 => ⟨S1x128x256, .f32⟩
  | 62 => ⟨S128x256, .f32⟩
  | 63 => ⟨S1x256, .f32⟩
  | 64 => ⟨S256, .f32⟩
  | 65 => ⟨S1x256, .f32⟩
  | 66 => ⟨S256, .f32⟩
  | 67 => ⟨S1x256, .f32⟩
  | 68 => ⟨S256, .f32⟩
  | 69 => ⟨S1x256x128, .f32⟩
  | 70 => ⟨S256x128, .f32⟩
  | 71 => ⟨S1x128, .f32⟩
  | 72 => ⟨S128, .f32⟩
  | 73 => ⟨S_, .i32⟩
  | 74 => ⟨S1440000, .i32⟩
  | 75 => ⟨S1440000, .i1⟩
  | 76 => ⟨S_, .i32⟩
  | 77 => ⟨S1440000, .i32⟩
  | 78 => ⟨S1440000, .i32⟩
  | 79 => ⟨S1440000, .i32⟩
  | 80 => ⟨S1440000x1, .i32⟩
  | 81 => ⟨S1440000x128, .f32⟩
  | 82 => ⟨S_, .f32⟩
  | 83 => ⟨S90000x128, .f32⟩
  | 84 => ⟨S1440000x1, .i32⟩
  | 85 => ⟨S90000x128, .f32⟩
  | 86 => ⟨S1x256, .f32⟩
  | 87 => ⟨S90000x256, .f32⟩
  | 88 => ⟨S1x256, .f32⟩
  | 89 => ⟨S1x256, .f32⟩
  | 90 => ⟨S_, .f32⟩
  | 91 => ⟨S1x256, .f32⟩
  | 92 => ⟨S1x256, .f32⟩
  | 93 => ⟨S_, .f32⟩
  | 94 => ⟨S1x256, .f32⟩
  | 95 => ⟨S1x256, .f32⟩
  | 96 => ⟨S1x256, .f32⟩
  | 97 => ⟨S1x256, .f32⟩
  | 98 => ⟨S1x256, .f32⟩
  | 99 => ⟨S1x256, .f32⟩
  | 100 => ⟨S1x128, .f32⟩
  | 101 => ⟨S90000x128, .f32⟩
  | 102 => ⟨S1x128x256, .f32⟩
  | 103 => ⟨S128x256, .f32⟩
  | 104 => ⟨S1x256, .f32⟩
  | 105 => ⟨S256, .f32⟩
  | 106 => ⟨S1x256, .f32⟩
  | 107 => ⟨S256, .f32⟩
  | 108 => ⟨S1x256, .f32⟩
  | 109 => ⟨S256, .f32⟩
  | 110 => ⟨S1x256x128, .f32⟩
  | 111 => ⟨S256x128, .f32⟩
  | 112 => ⟨S1x128, .f32⟩
  | 113 => ⟨S128, .f32⟩
  | 114 => ⟨S_, .i32⟩
  | 115 => ⟨S1440000, .i32⟩
  | 116 => ⟨S1440000, .i1⟩
  | 117 => ⟨S_, .i32⟩
  | 118 => ⟨S1440000, .i32⟩
  | 119 => ⟨S1440000, .i32⟩
  | 120 => ⟨S1440000, .i32⟩
  | 121 => ⟨S1440000x1, .i32⟩
  | 122 => ⟨S1440000x128, .f32⟩
  | 123 => ⟨S_, .f32⟩
  | 124 => ⟨S90000x128, .f32⟩
  | 125 => ⟨S1440000x1, .i32⟩
  | 126 => ⟨S90000x128, .f32⟩
  | 127 => ⟨S1x256, .f32⟩
  | _ => ⟨S90000x128, .f32⟩

abbrev hbmTy0_1 (i : Nat) : BufTy := match i % 128 with
  | 0 => ⟨S90000x256, .f32⟩
  | 1 => ⟨S1x256, .f32⟩
  | 2 => ⟨S1x256, .f32⟩
  | 3 => ⟨S_, .f32⟩
  | 4 => ⟨S1x256, .f32⟩
  | 5 => ⟨S1x256, .f32⟩
  | 6 => ⟨S_, .f32⟩
  | 7 => ⟨S1x256, .f32⟩
  | 8 => ⟨S1x256, .f32⟩
  | 9 => ⟨S1x256, .f32⟩
  | 10 => ⟨S1x256, .f32⟩
  | 11 => ⟨S1x256, .f32⟩
  | 12 => ⟨S1x256, .f32⟩
  | 13 => ⟨S1x128, .f32⟩
  | 14 => ⟨S90000x128, .f32⟩
  | 15 => ⟨S1x128x256, .f32⟩
  | 16 => ⟨S128x256, .f32⟩
  | 17 => ⟨S1x256, .f32⟩
  | 18 => ⟨S256, .f32⟩
  | 19 => ⟨S1x256, .f32⟩
  | 20 => ⟨S256, .f32⟩
  | 21 => ⟨S1x256, .f32⟩
  | 22 => ⟨S256, .f32⟩
  | 23 => ⟨S1x256x128, .f32⟩
  | 24 => ⟨S256x128, .f32⟩
  | 25 => ⟨S1x128, .f32⟩
  | 26 => ⟨S128, .f32⟩
  | 27 => ⟨S_, .i32⟩
  | 28 => ⟨S1440000, .i32⟩
  | 29 => ⟨S1440000, .i1⟩
  | 30 => ⟨S_, .i32⟩
  | 31 => ⟨S1440000, .i32⟩
  | 32 => ⟨S1440000, .i32⟩
  | 33 => ⟨S1440000, .i32⟩
  | 34 => ⟨S1440000x1, .i32⟩
  | 35 => ⟨S1440000x128, .f32⟩
  | 36 => ⟨S_, .f32⟩
  | 37 => ⟨S90000x128, .f32⟩
  | 38 => ⟨S1440000x1, .i32⟩
  | 39 => ⟨S90000x128, .f32⟩
  | 40 => ⟨S1x256, .f32⟩
  | 41 => ⟨S90000x256, .f32⟩
  | 42 => ⟨S1x256, .f32⟩
  | 43 => ⟨S1x256, .f32⟩
  | 44 => ⟨S_, .f32⟩
  | 45 => ⟨S1x256, .f32⟩
  | 46 => ⟨S1x256, .f32⟩
  | 47 => ⟨S_, .f32⟩
  | 48 => ⟨S1x256, .f32⟩
  | 49 => ⟨S1x256, .f32⟩
  | 50 => ⟨S1x256, .f32⟩
  | 51 => ⟨S1x256, .f32⟩
  | 52 => ⟨S1x256, .f32⟩
  | 53 => ⟨S1x256, .f32⟩
  | 54 => ⟨S1x128, .f32⟩
  | 55 => ⟨S90000x128, .f32⟩
  | 56 => ⟨S90000x128, .f32⟩
  | 57 => ⟨S90000x128, .f32⟩
  | 58 => ⟨S90000x128, .f32⟩
  | 59 => ⟨S_, .f32⟩
  | 60 => ⟨S90000, .f32⟩
  | 61 => ⟨S_, .f32⟩
  | 62 => ⟨S3000, .f32⟩
  | 63 => ⟨S90000x1, .i32⟩
  | 64 => ⟨S3000, .f32⟩
  | 65 => ⟨S_, .f32⟩
  | 66 => ⟨S3000x128, .f32⟩
  | 67 => ⟨S90000x1, .i32⟩
  | 68 => ⟨S3000x128, .f32⟩
  | 69 => ⟨S3000x1, .f32⟩
  | 70 => ⟨S3000x128, .f32⟩
  | 71 => ⟨S3000x128, .f32⟩
  | 72 => ⟨S3000x1, .f32⟩
  | 73 => ⟨S1x1, .f32⟩
  | 74 => ⟨S3000x1, .f32⟩
  | 75 => ⟨S3000x1, .f32⟩
  | 76 => ⟨S3000, .f32⟩
  | 77 => ⟨S3000, .f32⟩
  | 78 => ⟨S3000, .f32⟩
  | 79 => ⟨S_, .f32⟩
  | 80 => ⟨S_, .f32⟩
  | 81 => ⟨S_, .f32⟩
  | 82 => ⟨S_, .f32⟩
  | 83 => ⟨S1x675000, .i32⟩
  | 84 => ⟨S675000, .i32⟩
  | 85 => ⟨S_, .i32⟩
  | 86 => ⟨S675000, .i32⟩
  | 87 => ⟨S675000, .i1⟩
  | 88 => ⟨S_, .i32⟩
  | 89 => ⟨S675000, .i32⟩
  | 90 => ⟨S675000, .i32⟩
  | 91 => ⟨S675000, .i32⟩
  | 92 => ⟨S675000x1, .i32⟩
  | 93 => ⟨S675000x128, .f32⟩
  | 94 => ⟨S1x675000, .i32⟩
  | 95 => ⟨S675000, .i32⟩
  | 96 => ⟨S_, .i32⟩
  | 97 => ⟨S675000, .i32⟩
  | 98 => ⟨S675000, .i1⟩
  | 99 => ⟨S_, .i32⟩
  | 100 => ⟨S675000, .i32⟩
  | 101 => ⟨S675000, .i32⟩
  | 102 => ⟨S675000, .i32⟩
  | 103 => ⟨S675000x1, .i32⟩
  | 104 => ⟨S675000x128, .f32⟩
  | 105 => ⟨S675000x256, .f32⟩
  | 106 => ⟨S675000x1, .f32⟩
  | 107 => ⟨S1x1, .f32⟩
  | 108 => ⟨S675000x1, .f32⟩
  | 109 => ⟨S675000x1, .f32⟩
  | 110 => ⟨S675000x1, .f32⟩
  | 111 => ⟨S675000x1, .f32⟩
  | 112 => ⟨S_, .f32⟩
  | 113 => ⟨S675000x1, .f32⟩
  | 114 => ⟨S675000x1, .f32⟩
  | 115 => ⟨S_, .f32⟩
  | 116 => ⟨S675000x1, .f32⟩
  | 117 => ⟨S675000x1, .f32⟩
  | 118 => ⟨S_, .f32⟩
  | 119 => ⟨S90000x128, .f32⟩
  | 120 => ⟨S90000x128, .f32⟩
  | 121 => ⟨S_, .f32⟩
  | 122 => ⟨S90000x128, .f32⟩
  | 123 => ⟨S90000x128, .f32⟩
  | 124 => ⟨S90000x128, .f32⟩
  | 125 => ⟨S90000x128, .f32⟩
  | 126 => ⟨S90000x128, .f32⟩
  | 127 => ⟨S90000x128, .f32⟩
  | _ => ⟨S90000x128, .f32⟩

abbrev hbmTy0_2 (i : Nat) : BufTy := match i % 128 with
  | 0 => ⟨S90000x128, .f32⟩
  | 1 => ⟨S_, .f32⟩
  | 2 => ⟨S90000, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S90000x128, .f32⟩

abbrev hbmTy (i : Nat) : BufTy := match i / 128 with
  | 0 => hbmTy0_0 i
  | 1 => hbmTy0_1 i
  | 2 => hbmTy0_2 i
  | _ => ⟨S90000x128, .f32⟩

abbrev bufTy : (tb : Table) → Fin (tcTables nBuf tb) → BufTy
  | .hbm, ⟨i, _⟩ => hbmTy i
  | .local _ .vmem, ⟨0, _⟩ => ⟨S3600x128, .f32⟩
  | .local _ .vmem, ⟨1, _⟩ => ⟨S3600x128, .f32⟩
  | .local _ .vmem, ⟨2, _⟩ => ⟨S3600x128, .f32⟩
  | .local _ .vmem, ⟨3, _⟩ => ⟨S3600x128, .f32⟩
  | .local _ .vmem, ⟨4, _⟩ => ⟨S128x256, .f32⟩
  | .local _ .vmem, ⟨5, _⟩ => ⟨S1x256, .f32⟩
  | .local _ .vmem, ⟨6, _⟩ => ⟨S3600x256, .f32⟩
  | .local _ .vmem, ⟨7, _⟩ => ⟨S3600x256, .f32⟩
  | .local _ .vmem, ⟨8, _⟩ => ⟨S1x256, .f32⟩
  | .local _ .vmem, ⟨9, _⟩ => ⟨S1x256, .f32⟩
  | .local _ .vmem, ⟨10, _⟩ => ⟨S3600x256, .f32⟩
  | .local _ .vmem, ⟨11, _⟩ => ⟨S3600x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S3600x128, .f32⟩
  | .local _ .vmem, ⟨19, _⟩ => ⟨S3600x128, .f32⟩
  | .local _ .vmem, ⟨20, _⟩ => ⟨S3600x128, .f32⟩
  | .local _ .vmem, ⟨21, _⟩ => ⟨S3600x128, .f32⟩
  | .local _ .vmem, ⟨22, _⟩ => ⟨S3600x128, .f32⟩
  | .local _ .vmem, ⟨23, _⟩ => ⟨S3600x128, .f32⟩
  | .local _ .vmem, ⟨24, _⟩ => ⟨S128x256, .f32⟩
  | .local _ .vmem, ⟨25, _⟩ => ⟨S1x256, .f32⟩
  | .local _ .vmem, ⟨26, _⟩ => ⟨S3600x256, .f32⟩
  | .local _ .vmem, ⟨27, _⟩ => ⟨S3600x256, .f32⟩
  | .local _ .vmem, ⟨28, _⟩ => ⟨S1x256, .f32⟩
  | .local _ .vmem, ⟨29, _⟩ => ⟨S1x256, .f32⟩
  | .local _ .vmem, ⟨30, _⟩ => ⟨S3600x256, .f32⟩
  | .local _ .vmem, ⟨31, _⟩ => ⟨S3600x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S256x128, .f32⟩
  | .local _ .vmem, ⟨37, _⟩ => ⟨S1x128, .f32⟩
  | .local _ .vmem, ⟨38, _⟩ => ⟨S3600x128, .f32⟩
  | .local _ .vmem, ⟨39, _⟩ => ⟨S3600x128, .f32⟩
  | .local _ .vmem, ⟨40, _⟩ => ⟨S3600x128, .f32⟩
  | .local _ .vmem, ⟨41, _⟩ => ⟨S3600x128, .f32⟩
  | .local _ .vmem, ⟨42, _⟩ => ⟨S3600x128, .f32⟩
  | .local _ .vmem, ⟨43, _⟩ => ⟨S3600x128, .f32⟩
  | .local _ .vmem, ⟨44, _⟩ => ⟨S128x256, .f32⟩
  | .local _ .vmem, ⟨45, _⟩ => ⟨S1x256, .f32⟩
  | .local _ .vmem, ⟨46, _⟩ => ⟨S3600x256, .f32⟩
  | .local _ .vmem, ⟨47, _⟩ => ⟨S3600x256, .f32⟩
  | .local _ .vmem, ⟨48, _⟩ => ⟨S1x256, .f32⟩
  | .local _ .vmem, ⟨49, _⟩ => ⟨S1x256, .f32⟩
  | .local _ .vmem, ⟨50, _⟩ => ⟨S3600x256, .f32⟩
  | .local _ .vmem, ⟨51, _⟩ => ⟨S3600x256, .f32⟩
  | .local _ .vmem, ⟨52, _⟩ => ⟨S1x256, .f32⟩
  | .local _ .vmem, ⟨53, _⟩ => ⟨S1x256, .f32⟩
  | .local _ .vmem, ⟨54, _⟩ => ⟨S1x256, .f32⟩
  | .local _ .vmem, ⟨55, _⟩ => ⟨S1x256, .f32⟩
  | .local _ .vmem, ⟨56, _⟩ => ⟨S256x128, .f32⟩
  | .local _ .vmem, ⟨57, _⟩ => ⟨S1x128, .f32⟩
  | .local _ .vmem, ⟨58, _⟩ => ⟨S3600x128, .f32⟩
  | .local _ .vmem, ⟨59, _⟩ => ⟨S3600x128, .f32⟩
  | .local _ .vmem, ⟨60, _⟩ => ⟨S3600x128, .f32⟩
  | .local _ .vmem, ⟨61, _⟩ => ⟨S3600x128, .f32⟩
  | .local _ .vmem, ⟨62, _⟩ => ⟨S3600x128, .f32⟩
  | .local _ .vmem, ⟨63, _⟩ => ⟨S3600x128, .f32⟩
  | .local _ .vmem, ⟨64, _⟩ => ⟨S128x256, .f32⟩
  | .local _ .vmem, ⟨65, _⟩ => ⟨S1x256, .f32⟩
  | .local _ .vmem, ⟨66, _⟩ => ⟨S3600x256, .f32⟩
  | .local _ .vmem, ⟨67, _⟩ => ⟨S3600x256, .f32⟩
  | .local _ .vmem, ⟨68, _⟩ => ⟨S1x256, .f32⟩
  | .local _ .vmem, ⟨69, _⟩ => ⟨S1x256, .f32⟩
  | .local _ .vmem, ⟨70, _⟩ => ⟨S3600x256, .f32⟩
  | .local _ .vmem, ⟨71, _⟩ => ⟨S3600x256, .f32⟩
  | .local _ .vmem, ⟨72, _⟩ => ⟨S1x256, .f32⟩
  | .local _ .vmem, ⟨73, _⟩ => ⟨S1x256, .f32⟩
  | .local _ .vmem, ⟨74, _⟩ => ⟨S1x256, .f32⟩
  | .local _ .vmem, ⟨75, _⟩ => ⟨S1x256, .f32⟩
  | .local _ .vmem, ⟨76, _⟩ => ⟨S256x128, .f32⟩
  | .local _ .vmem, ⟨77, _⟩ => ⟨S1x128, .f32⟩
  | .local _ .vmem, ⟨78, _⟩ => ⟨S3600x128, .f32⟩
  | .local _ .vmem, ⟨79, _⟩ => ⟨S3600x128, .f32⟩
  | _, _ => ⟨S90000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_3 : Ref sig .tc := ⟨.hbm, 73, rfl⟩
abbrev main_v50 : Ref sig .tc := ⟨.hbm, 74, rfl⟩
abbrev main_v51 : Ref sig .tc := ⟨.hbm, 75, rfl⟩
abbrev main_c_4 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_5 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61_0 : Ref sig .tc := ⟨.hbm, 87, rfl⟩
abbrev main_v61_1 : Ref sig .tc := ⟨.hbm, 88, rfl⟩
abbrev main_v61_2 : Ref sig .tc := ⟨.hbm, 89, rfl⟩
abbrev main_cst_6 : Ref sig .tc := ⟨.hbm, 90, rfl⟩
abbrev main_v62 : Ref sig .tc := ⟨.hbm, 91, rfl⟩
abbrev main_v63 : Ref sig .tc := ⟨.hbm, 92, rfl⟩
abbrev main_cst_7 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_8 : Ref sig .tc := ⟨.hbm, 114, rfl⟩
abbrev main_v84 : Ref sig .tc := ⟨.hbm, 115, rfl⟩
abbrev main_v85 : Ref sig .tc := ⟨.hbm, 116, rfl⟩
abbrev main_c_9 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_10 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95_0 : Ref sig .tc := ⟨.hbm, 128, rfl⟩
abbrev main_v95_1 : Ref sig .tc := ⟨.hbm, 129, rfl⟩
abbrev main_v95_2 : Ref sig .tc := ⟨.hbm, 130, rfl⟩
abbrev main_cst_11 : Ref sig .tc := ⟨.hbm, 131, rfl⟩
abbrev main_v96 : Ref sig .tc := ⟨.hbm, 132, rfl⟩
abbrev main_v97 : Ref sig .tc := ⟨.hbm, 133, rfl⟩
abbrev main_cst_12 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_13 : Ref sig .tc := ⟨.hbm, 155, rfl⟩
abbrev main_v118 : Ref sig .tc := ⟨.hbm, 156, rfl⟩
abbrev main_v119 : Ref sig .tc := ⟨.hbm, 157, rfl⟩
abbrev main_c_14 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_15 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129_0 : Ref sig .tc := ⟨.hbm, 169, rfl⟩
abbrev main_v129_1 : Ref sig .tc := ⟨.hbm, 170, rfl⟩
abbrev main_v129_2 : Ref sig .tc := ⟨.hbm, 171, rfl⟩
abbrev main_cst_16 : Ref sig .tc := ⟨.hbm, 172, rfl⟩
abbrev main_v130 : Ref sig .tc := ⟨.hbm, 173, rfl⟩
abbrev main_v131 : Ref sig .tc := ⟨.hbm, 174, rfl⟩
abbrev main_cst_17 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_18 : Ref sig .tc := ⟨.hbm, 187, rfl⟩
abbrev main_v143 : Ref sig .tc := ⟨.hbm, 188, rfl⟩
abbrev main_cst_19 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_20 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_21 : Ref sig .tc := ⟨.hbm, 207, rfl⟩
abbrev main_v160 : Ref sig .tc := ⟨.hbm, 208, rfl⟩
abbrev main_cst_22 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_c_23 : Ref sig .tc := ⟨.hbm, 213, rfl⟩
abbrev main_v164 : Ref sig .tc := ⟨.hbm, 214, rfl⟩
abbrev main_v165 : Ref sig .tc := ⟨.hbm, 215, rfl⟩
abbrev main_c_24 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_c_25 : Ref sig .tc := ⟨.hbm, 224, rfl⟩
abbrev main_v173 : Ref sig .tc := ⟨.hbm, 225, rfl⟩
abbrev main_v174 : Ref sig .tc := ⟨.hbm, 226, rfl⟩
abbrev main_c_26 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_cst_27 : Ref sig .tc := ⟨.hbm, 240, rfl⟩
abbrev main_v187 : Ref sig .tc := ⟨.hbm, 241, rfl⟩
abbrev main_v188 : Ref sig .tc := ⟨.hbm, 242, rfl⟩
abbrev main_cst_28 : Ref sig .tc := ⟨.hbm, 243, rfl⟩
abbrev main_v189 : Ref sig .tc := ⟨.hbm, 244, rfl⟩
abbrev main_v190 : Ref sig .tc := ⟨.hbm, 245, rfl⟩
abbrev main_cst_29 : Ref sig .tc := ⟨.hbm, 246, rfl⟩
abbrev main_v191 : Ref sig .tc := ⟨.hbm, 247, rfl⟩
abbrev main_v192 : Ref sig .tc := ⟨.hbm, 248, rfl⟩
abbrev main_cst_30 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_cst_31 : Ref sig .tc := ⟨.hbm, 257, rfl⟩
abbrev main_v200 : Ref sig .tc := ⟨.hbm, 258, rfl⟩
abbrev main_cst_32 : Ref sig .tc := ⟨.hbm, 259, rfl⟩
abbrev main_v201 : Ref sig .tc := ⟨.hbm, 260, rfl⟩
abbrev main_cst_33 : Ref sig .tc := ⟨.hbm, 261, rfl⟩
abbrev main_v202 : Ref sig .tc := ⟨.hbm, 262, rfl⟩
abbrev main_cst_34 : Ref sig .tc := ⟨.hbm, 263, rfl⟩
abbrev main_v203 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg6_0 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg6_0 : Ref sig .tc := ⟨.vmem, 77, rfl⟩
abbrev cc7_stg7_0 : Ref sig .tc := ⟨.vmem, 78, rfl⟩
abbrev cc7_stg7_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem6_0 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem6_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc7_sem7_1 : DmaSem sig := 79

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3600x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3600x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3600x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3600x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3600x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S3600x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3600x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S3600x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S3600x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3600x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S3600x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3600x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S3600x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S3600x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S3600x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S3600x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S3600x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S3600x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x1440000_S1x1440000_0_0 : S2x1440000.Slices ![0, 0] S1x1440000
  shapeCasts_S1x1440000_S1440000 : S1x1440000.ShapeCasts S1440000
  slices_S2x1440000_S1x1440000_1_0 : S2x1440000.Slices ![1, 0] S1x1440000
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S_S1440000 : S_.BroadcastsInDim S1440000 (![] : Fin 0 → Fin S1440000.rank)
  bcast_S1440000_S1440000x1_0 : S1440000.BroadcastsInDim S1440000x1 (![0] : Fin 1 → Fin S1440000x1.rank)
  bcast_S_S90000x128 : S_.BroadcastsInDim S90000x128 (![] : Fin 0 → Fin S90000x128.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S3600x128_S3600x128_0_0 : ∀ a, (![0, 0] : Fin 2 → Nat) a + S3600x128.size a ≤ S3600x128.size a
  h_S3600x128 : 0 < S3600x128.numel
  shapeCasts_S3600x128_S3600x128 : S3600x128.ShapeCasts S3600x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S1x256_S1x256 : S1x256.ShapeCasts S1x256
  broadcasts_S1x256_S3600x256 : S1x256.Broadcasts S3600x256
  inb_S3600x256_S3600x256_0_0 : ∀ a, (![0, 0] : Fin 2 → Nat) a + S3600x256.size a ≤ S3600x256.size a
  h_S3600x256 : 0 < S3600x256.numel
  reduces_S3600x256_S256 : S3600x256.Reduces [0] S256
  bcast_S_S1x256 : S_.BroadcastsInDim S1x256 (![] : Fin 0 → Fin S1x256.rank)
  shapeCasts_S128_S1x128 : S128.ShapeCasts S1x128
  shapeCasts_S3600x256_S3600x256 : S3600x256.ShapeCasts S3600x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3600x128 : S1x128.Broadcasts S3600x128
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  bcast_S_S90000 : S_.BroadcastsInDim S90000 (![] : Fin 0 → Fin S90000.rank)
  bcast_S_S3000 : S_.BroadcastsInDim S3000 (![] : Fin 0 → Fin S3000.rank)
  bcast_S90000_S90000x1_0 : S90000.BroadcastsInDim S90000x1 (![0] : Fin 1 → Fin S90000x1.rank)
  bcast_S_S3000x128 : S_.BroadcastsInDim S3000x128 (![] : Fin 0 → Fin S3000x128.rank)
  bcast_S3000_S3000x1_0 : S3000.BroadcastsInDim S3000x1 (![0] : Fin 1 → Fin S3000x1.rank)
  bcast_S3000x1_S3000x128_0_1 : S3000x1.BroadcastsInDim S3000x128 (![0, 1] : Fin 2 → Fin S3000x128.rank)
  bcast_S1_S1x1_1 : S1.BroadcastsInDim S1x1 (![1] : Fin 1 → Fin S1x1.rank)
  bcast_S1x1_S3000x1_0_1 : S1x1.BroadcastsInDim S3000x1 (![0, 1] : Fin 2 → Fin S3000x1.rank)
  shapeCasts_S3000x1_S3000 : S3000x1.ShapeCasts S3000
  reducesTo_S3000_S_d0 : S3000.ReducesTo [0] S_
  h_S_ : 0 < S_.numel
  slices_S2x675000_S1x675000_0_0 : S2x675000.Slices ![0, 0] S1x675000
  shapeCasts_S1x675000_S675000 : S1x675000.ShapeCasts S675000
  bcast_S_S675000 : S_.BroadcastsInDim S675000 (![] : Fin 0 → Fin S675000.rank)
  bcast_S675000_S675000x1_0 : S675000.BroadcastsInDim S675000x1 (![0] : Fin 1 → Fin S675000x1.rank)
  slices_S2x675000_S1x675000_1_0 : S2x675000.Slices ![1, 0] S1x675000
  concatenates_S675000x128_S675000x128_S675000x256_d1 : Shape.Concatenates [S675000x128, S675000x128] S675000x256 1
  bcast_S1x1_S675000x1_0_1 : S1x1.BroadcastsInDim S675000x1 (![0, 1] : Fin 2 → Fin S675000x1.rank)
  bcast_S_S675000x1 : S_.BroadcastsInDim S675000x1 (![] : Fin 0 → Fin S675000x1.rank)
  reducesTo_S90000x128_S90000_d1 : S90000x128.ReducesTo [1] S90000
  reducesTo_S90000_S_d0 : S90000.ReducesTo [0] S_
  gather_S90000x128_S1440000x1_S1440000x128_1_0_n_n_0_1_1128_wf : GatherDims.WF S90000x128 S1440000x1 S1440000x128 [1] [0] [] [0] [] 1 ![1, 128]
  scatter_S90000x128_S1440000x1_S1440000x128_1_0_0_1_wf : ScatterDims.WF S90000x128 S1440000x1 S1440000x128 [1] [0] [0] 1
  dot_S3600x128_S128x256_S3600x256_1_0_0_1_n_n_wf : DotDims.WF S3600x128 S128x256 S3600x256 [1] [0] [0] [1] [] []
  dot_S3600x256_S256x128_S3600x128_1_0_0_1_n_n_wf : DotDims.WF S3600x256 S256x128 S3600x128 [1] [0] [0] [1] [] []
  scatter_S3000_S90000x1_S90000_n_0_0_1_wf : ScatterDims.WF S3000 S90000x1 S90000 [] [0] [0] 1
  scatter_S3000x128_S90000x1_S90000x128_1_0_0_1_wf : ScatterDims.WF S3000x128 S90000x1 S90000x128 [1] [0] [0] 1
  dot_S3000x128_S128x1_S3000x1_1_0_0_1_n_n_wf : DotDims.WF S3000x128 S128x1 S3000x1 [1] [0] [0] [1] [] []
  gather_S90000x128_S675000x1_S675000x128_1_0_n_n_0_1_1128_wf : GatherDims.WF S90000x128 S675000x1 S675000x128 [1] [0] [] [0] [] 1 ![1, 128]
  dot_S675000x256_S256x1_S675000x1_1_0_0_1_n_n_wf : DotDims.WF S675000x256 S256x1 S675000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3600x128.size a ≤ S90000x128.size a
  hwx0_0 : ∀ i : grid0.Coords, EltTy.bits .f32 = 32 ∨ (Rect.block (s := S90000x128) S3600x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3600x128.size a ≤ S90000x128.size a
  hwx0_1 : ∀ i : grid0.Coords, EltTy.bits .f32 = 32 ∨ (Rect.block (s := S90000x128) S3600x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3600x256.size a ≤ S90000x256.size a
  hwx0_4 : ∀ i : grid0.Coords, EltTy.bits .f32 = 32 ∨ (Rect.block (s := S90000x256) S3600x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3600x256.size a ≤ S90000x256.size a
  hwx1_0 : ∀ i : grid1.Coords, EltTy.bits .f32 = 32 ∨ (Rect.block (s := S90000x256) S3600x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3600x128.size a ≤ S90000x128.size a
  hwx1_7 : ∀ i : grid1.Coords, EltTy.bits .f32 = 32 ∨ (Rect.block (s := S90000x128) S3600x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3600x128.size a ≤ S90000x128.size a
  hwx2_0 : ∀ i : grid2.Coords, EltTy.bits .f32 = 32 ∨ (Rect.block (s := S90000x128) S3600x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3600x128.size a ≤ S90000x128.size a
  hwx2_1 : ∀ i : grid2.Coords, EltTy.bits .f32 = 32 ∨ (Rect.block (s := S90000x128) S3600x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3600x256.size a ≤ S90000x256.size a
  hwx2_4 : ∀ i : grid2.Coords, EltTy.bits .f32 = 32 ∨ (Rect.block (s := S90000x256) S3600x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3600x256.size a ≤ S90000x256.size a
  hwx3_0 : ∀ i : grid3.Coords, EltTy.bits .f32 = 32 ∨ (Rect.block (s := S90000x256) S3600x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S3600x128.size a ≤ S90000x128.size a
  hwx3_7 : ∀ i : grid3.Coords, EltTy.bits .f32 = 32 ∨ (Rect.block (s := S90000x128) S3600x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3600x128.size a ≤ S90000x128.size a
  hwx4_0 : ∀ i : grid4.Coords, EltTy.bits .f32 = 32 ∨ (Rect.block (s := S90000x128) S3600x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3600x128.size a ≤ S90000x128.size a
  hwx4_1 : ∀ i : grid4.Coords, EltTy.bits .f32 = 32 ∨ (Rect.block (s := S90000x128) S3600x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S3600x256.size a ≤ S90000x256.size a
  hwx4_4 : ∀ i : grid4.Coords, EltTy.bits .f32 = 32 ∨ (Rect.block (s := S90000x256) S3600x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3600x256.size a ≤ S90000x256.size a
  hwx5_0 : ∀ i : grid5.Coords, EltTy.bits .f32 = 32 ∨ (Rect.block (s := S90000x256) S3600x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S256x128.size a
  hwx5_5 : ∀ i : grid5.Coords, EltTy.bits .f32 = 32 ∨ (Rect.block (s := S256x128) S256x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S3600x128.size a ≤ S90000x128.size a
  hwx5_7 : ∀ i : grid5.Coords, EltTy.bits .f32 = 32 ∨ (Rect.block (s := S90000x128) S3600x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S3600x128.size a ≤ S90000x128.size a
  hwx6_0 : ∀ i : grid6.Coords, EltTy.bits .f32 = 32 ∨ (Rect.block (s := S90000x128) S3600x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S3600x128.size a ≤ S90000x128.size a
  hwx6_1 : ∀ i : grid6.Coords, EltTy.bits .f32 = 32 ∨ (Rect.block (s := S90000x128) S3600x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x256.size a ≤ S128x256.size a
  hwx6_2 : ∀ i : grid6.Coords, EltTy.bits .f32 = 32 ∨ (Rect.block (s := S128x256) S128x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S3600x256.size a ≤ S90000x256.size a
  hwx6_4 : ∀ i : grid6.Coords, EltTy.bits .f32 = 32 ∨ (Rect.block (s := S90000x256) S3600x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S3600x256.size a ≤ S90000x256.size a
  hwx7_0 : ∀ i : grid7.Coords, EltTy.bits .f32 = 32 ∨ (Rect.block (s := S90000x256) S3600x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x128.size a ≤ S256x128.size a
  hwx7_5 : ∀ i : grid7.Coords, EltTy.bits .f32 = 32 ∨ (Rect.block (s := S256x128) S256x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S3600x128.size a ≤ S90000x128.size a
  hwx7_7 : ∀ i : grid7.Coords, EltTy.bits .f32 = 32 ∨ (Rect.block (s := S90000x128) S3600x128.size (cc7_transform_7 i) (hinb7_7 i)).WholeWords (EltTy.packing .f32)

variable [Facts₀]

def gather_S90000x128_S1440000x1_S1440000x128_1_0_n_n_0_1_1128 : GatherDims S90000x128 S1440000x1 S1440000x128 where
  offsetDims := [1]
  collapsedSliceDims := [0]
  operandBatchingDims := []
  startIndicesBatchingDims := []
  startIndexMap := [0]
  indexVectorDim := 1
  sliceSizes := ![1, 128]
  wf := gather_S90000x128_S1440000x1_S1440000x128_1_0_n_n_0_1_1128_wf
def scatter_S90000x128_S1440000x1_S1440000x128_1_0_0_1 : ScatterDims S90000x128 S1440000x1 S1440000x128 where
  updateWindowDims := [1]
  insertedWindowDims := [0]
  scatterDimsToOperandDims := [0]
  indexVectorDim := 1
  wf := scatter_S90000x128_S1440000x1_S1440000x128_1_0_0_1_wf
def dot_S3600x128_S128x256_S3600x256_1_0_0_1_n_n : DotDims S3600x128 S128x256 S3600x256 where
  lhsContracting := [1]
  rhsContracting := [0]
  lhsNonContracting := [0]
  rhsNonContracting := [1]
  lhsBatch := []
  rhsBatch := []
  wf := dot_S3600x128_S128x256_S3600x256_1_0_0_1_n_n_wf
def dot_S3600x256_S256x128_S3600x128_1_0_0_1_n_n : DotDims S3600x256 S256x128 S3600x128 where
  lhsContracting := [1]
  rhsContracting := [0]
  lhsNonContracting := [0]
  rhsNonContracting := [1]
  lhsBatch := []
  rhsBatch := []
  wf := dot_S3600x256_S256x128_S3600x128_1_0_0_1_n_n_wf
def scatter_S3000_S90000x1_S90000_n_0_0_1 : ScatterDims S3000 S90000x1 S90000 where
  updateWindowDims := []
  insertedWindowDims := [0]
  scatterDimsToOperandDims := [0]
  indexVectorDim := 1
  wf := scatter_S3000_S90000x1_S90000_n_0_0_1_wf
def scatter_S3000x128_S90000x1_S90000x128_1_0_0_1 : ScatterDims S3000x128 S90000x1 S90000x128 where
  updateWindowDims := [1]
  insertedWindowDims := [0]
  scatterDimsToOperandDims := [0]
  indexVectorDim := 1
  wf := scatter_S3000x128_S90000x1_S90000x128_1_0_0_1_wf
def dot_S3000x128_S128x1_S3000x1_1_0_0_1_n_n : DotDims S3000x128 S128x1 S3000x1 where
  lhsContracting := [1]
  rhsContracting := [0]
  lhsNonContracting := [0]
  rhsNonContracting := [1]
  lhsBatch := []
  rhsBatch := []
  wf := dot_S3000x128_S128x1_S3000x1_1_0_0_1_n_n_wf
def gather_S90000x128_S675000x1_S675000x128_1_0_n_n_0_1_1128 : GatherDims S90000x128 S675000x1 S675000x128 where
  offsetDims := [1]
  collapsedSliceDims := [0]
  operandBatchingDims := []
  startIndicesBatchingDims := []
  startIndexMap := [0]
  indexVectorDim := 1
  sliceSizes := ![1, 128]
  wf := gather_S90000x128_S675000x1_S675000x128_1_0_n_n_0_1_1128_wf
def dot_S675000x256_S256x1_S675000x1_1_0_0_1_n_n : DotDims S675000x256 S256x1 S675000x1 where
  lhsContracting := [1]
  rhsContracting := [0]
  lhsNonContracting := [0]
  rhsNonContracting := [1]
  lhsBatch := []
  rhsBatch := []
  wf := dot_S675000x256_S256x1_S675000x1_1_0_0_1_n_n_wf

abbrev win0_0 : Pipeline.Window sig grid0 :=
  Pipeline.Window.ofSpec (Memref.whole main_arg0) S3600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S3600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27_0) S3600x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27_1) S1x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27_2) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27_0) S3600x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S3600x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S3600x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S3600x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61_0) S3600x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v61_1) S1x256.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61_2) S1x256.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v61_0) S3600x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v71) S3600x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v71) S3600x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S3600x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95_0) S3600x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v95_1) S1x256.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95_2) S1x256.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v95_0) S3600x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S256x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v104) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v105) S3600x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v71) S3600x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v127) S3600x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v107) S128x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v128) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v129_0) S3600x256.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v129_1) S1x256.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v129_2) S1x256.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v129_0) S3600x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v131) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v135) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v136) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v137) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v115) S256x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v138) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v139) S3600x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S90000x128 : Shape := ⟨2, ![90000, 128]⟩
abbrev S2x1440000 : Shape := ⟨2, ![2, 1440000]⟩
abbrev S90000 : Shape := ⟨1, ![90000]⟩
abbrev S3000 : Shape := ⟨1, ![3000]⟩
abbrev S2x675000 : Shape := ⟨2, ![2, 675000]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S128x1 : Shape := ⟨2, ![128, 1]⟩
abbrev S1 : Shape := ⟨1, ![1]⟩
abbrev S256x1 : Shape := ⟨2, ![256, 1]⟩
abbrev S1x1440000 : Shape := ⟨2, ![1, 1440000]⟩
abbrev S1440000 : Shape := ⟨1, ![1440000]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S_ : Shape := ⟨0, ![]⟩
abbrev S1440000x1 : Shape := ⟨2, ![1440000, 1]⟩
abbrev S1440000x128 : Shape := ⟨2, ![1440000, 128]⟩
abbrev S90000x256 : Shape := ⟨2, ![90000, 256]⟩
abbrev S90000x1 : Shape := ⟨2, ![90000, 1]⟩
abbrev S3000x128 : Shape := ⟨2, ![3000, 128]⟩
abbrev S3000x1 : Shape := ⟨2, ![3000, 1]⟩
abbrev S1x1 : Shape := ⟨2, ![1, 1]⟩
abbrev S1x675000 : Shape := ⟨2, ![1, 675000]⟩
abbrev S675000 : Shape := ⟨1, ![675000]⟩
abbrev S675000x1 : Shape := ⟨2, ![675000, 1]⟩
abbrev S675000x128 : Shape := ⟨2, ![675000, 128]⟩
abbrev S675000x256 : Shape := ⟨2, ![675000, 256]⟩

abbrev nBuf : Space → Nat
  | .hbm => 419
  | .vmem => 0
  | .smem => 0
  | _ => 0

abbrev hbmTy0_0 (i : Nat) : BufTy := match i % 128 with
  | 0 => ⟨S90000x128, .f32⟩
  | 1 => ⟨S2x1440000, .i32⟩
  | 2 => ⟨S90000, .i32⟩
  | 3 => ⟨S3000, .f32⟩
  | 4 => ⟨S2x675000, .i32⟩
  | 5 => ⟨S90000x128, .f32⟩
  | 6 => ⟨S4x128x256, .f32⟩
  | 7 => ⟨S4x256, .f32⟩
  | 8 => ⟨S4x256, .f32⟩
  | 9 => ⟨S4x256, .f32⟩
  | 10 => ⟨S4x256x128, .f32⟩
  | 11 => ⟨S4x128, .f32⟩
  | 12 => ⟨S128x1, .f32⟩
  | 13 => ⟨S1, .f32⟩
  | 14 => ⟨S256x1, .f32⟩
  | 15 => ⟨S1, .f32⟩
  | 16 => ⟨S1x1440000, .i32⟩
  | 17 => ⟨S1440000, .i32⟩
  | 18 => ⟨S1x1440000, .i32⟩
  | 19 => ⟨S1440000, .i32⟩
  | 20 => ⟨S1x128x256, .f32⟩
  | 21 => ⟨S128x256, .f32⟩
  | 22 => ⟨S1x256, .f32⟩
  | 23 => ⟨S256, .f32⟩
  | 24 => ⟨S1x256, .f32⟩
  | 25 => ⟨S256, .f32⟩
  | 26 => ⟨S1x256, .f32⟩
  | 27 => ⟨S256, .f32⟩
  | 28 => ⟨S1x256x128, .f32⟩
  | 29 => ⟨S256x128, .f32⟩
  | 30 => ⟨S1x128, .f32⟩
  | 31 => ⟨S128, .f32⟩
  | 32 => ⟨S_, .i32⟩
  | 33 => ⟨S1440000, .i32⟩
  | 34 => ⟨S1440000, .i1⟩
  | 35 => ⟨S_, .i32⟩
  | 36 => ⟨S1440000, .i32⟩
  | 37 => ⟨S1440000, .i32⟩
  | 38 => ⟨S1440000, .i32⟩
  | 39 => ⟨S1440000x1, .i32⟩
  | 40 => ⟨S1440000x128, .f32⟩
  | 41 => ⟨S_, .f32⟩
  | 42 => ⟨S90000x128, .f32⟩
  | 43 => ⟨S1440000x1, .i32⟩
  | 44 => ⟨S90000x128, .f32⟩
  | 45 => ⟨S90000x128, .f32⟩
  | 46 => ⟨S90000x256, .f32⟩
  | 47 => ⟨S1x256, .f32⟩
  | 48 => ⟨S90000x256, .f32⟩
  | 49 => ⟨S90000x256, .f32⟩
  | 50 => ⟨S_, .f32⟩
  | 51 => ⟨S256, .f32⟩
  | 52 => ⟨S_, .f32⟩
  | 53 => ⟨S256, .f32⟩
  | 54 => ⟨S256, .f32⟩
  | 55 => ⟨S_, .i32⟩
  | 56 => ⟨S_, .f32⟩
  | 57 => ⟨S256, .f32⟩
  | 58 => ⟨S1x256, .f32⟩
  | 59 => ⟨S_, .f32⟩
  | 60 => ⟨S1x256, .f32⟩
  | 61 => ⟨S1x256, .f32⟩
  | 62 => ⟨S90000x256, .f32⟩
  | 63 => ⟨S90000x256, .f32⟩
  | 64 => ⟨S90000x256, .f32⟩
  | 65 => ⟨S_, .f32⟩
  | 66 => ⟨S_, .f32⟩
  | 67 => ⟨S_, .f32⟩
  | 68 => ⟨S_, .f32⟩
  | 69 => ⟨S256, .f32⟩
  | 70 => ⟨S256, .f32⟩
  | 71 => ⟨S256, .f32⟩
  | 72 => ⟨S_, .f32⟩
  | 73 => ⟨S_, .i1⟩
  | 74 => ⟨S_, .f32⟩
  | 75 => ⟨S_, .f32⟩
  | 76 => ⟨S256, .f32⟩
  | 77 => ⟨S256, .f32⟩
  | 78 => ⟨S1x256, .f32⟩
  | 79 => ⟨S90000x256, .f32⟩
  | 80 => ⟨S90000x256, .f32⟩
  | 81 => ⟨S_, .f32⟩
  | 82 => ⟨S256, .f32⟩
  | 83 => ⟨S256, .f32⟩
  | 84 => ⟨S256, .f32⟩
  | 85 => ⟨S1x256, .f32⟩
  | 86 => ⟨S90000x256, .f32⟩
  | 87 => ⟨S90000x256, .f32⟩
  | 88 => ⟨S1x256, .f32⟩
  | 89 => ⟨S90000x256, .f32⟩
  | 90 => ⟨S90000x256, .f32⟩
  | 91 => ⟨S1x256, .f32⟩
  | 92 => ⟨S90000x256, .f32⟩
  | 93 => ⟨S90000x256, .f32⟩
  | 94 => ⟨S_, .f32⟩
  | 95 => ⟨S90000x256, .f32⟩
  | 96 => ⟨S90000x256, .f32⟩
  | 97 => ⟨S90000x128, .f32⟩
  | 98 => ⟨S1x128, .f32⟩
  | 99 => ⟨S90000x128, .f32⟩
  | 100 => ⟨S90000x128, .f32⟩
  | 101 => ⟨S1x128x256, .f32⟩
  | 102 => ⟨S128x256, .f32⟩
  | 103 => ⟨S1x256, .f32⟩
  | 104 => ⟨S256, .f32⟩
  | 105 => ⟨S1x256, .f32⟩
  | 106 => ⟨S256, .f32⟩
  | 107 => ⟨S1x256, .f32⟩
  | 108 => ⟨S256, .f32⟩
  | 109 => ⟨S1x256x128, .f32⟩
  | 110 => ⟨S256x128, .f32⟩
  | 111 => ⟨S1x128, .f32⟩
  | 112 => ⟨S128, .f32⟩
  | 113 => ⟨S_, .i32⟩
  | 114 => ⟨S1440000, .i32⟩
  | 115 => ⟨S1440000, .i1⟩
  | 116 => ⟨S_, .i32⟩
  | 117 => ⟨S1440000, .i32⟩
  | 118 => ⟨S1440000, .i32⟩
  | 119 => ⟨S1440000, .i32⟩
  | 120 => ⟨S1440000x1, .i32⟩
  | 121 => ⟨S1440000x128, .f32⟩
  | 122 => ⟨S_, .f32⟩
  | 123 => ⟨S90000x128, .f32⟩
  | 124 => ⟨S1440000x1, .i32⟩
  | 125 => ⟨S90000x128, .f32⟩
  | 126 => ⟨S90000x128, .f32⟩
  | 127 => ⟨S90000x256, .f32⟩
  | _ => ⟨S90000x128, .f32⟩

abbrev hbmTy0_1 (i : Nat) : BufTy := match i % 128 with
  | 0 => ⟨S1x256, .f32⟩
  | 1 => ⟨S90000x256, .f32⟩
  | 2 => ⟨S90000x256, .f32⟩
  | 3 => ⟨S_, .f32⟩
  | 4 => ⟨S256, .f32⟩
  | 5 => ⟨S_, .f32⟩
  | 6 => ⟨S256, .f32⟩
  | 7 => ⟨S256, .f32⟩
  | 8 => ⟨S_, .i32⟩
  | 9 => ⟨S_, .f32⟩
  | 10 => ⟨S256, .f32⟩
  | 11 => ⟨S1x256, .f32⟩
  | 12 => ⟨S_, .f32⟩
  | 13 => ⟨S1x256, .f32⟩
  | 14 => ⟨S1x256, .f32⟩
  | 15 => ⟨S90000x256, .f32⟩
  | 16 => ⟨S90000x256, .f32⟩
  | 17 => ⟨S90000x256, .f32⟩
  | 18 => ⟨S_, .f32⟩
  | 19 => ⟨S_, .f32⟩
  | 20 => ⟨S_, .f32⟩
  | 21 => ⟨S_, .f32⟩
  | 22 => ⟨S256, .f32⟩
  | 23 => ⟨S256, .f32⟩
  | 24 => ⟨S256, .f32⟩
  | 25 => ⟨S_, .f32⟩
  | 26 => ⟨S_, .i1⟩
  | 27 => ⟨S_, .f32⟩
  | 28 => ⟨S_, .f32⟩
  | 29 => ⟨S256, .f32⟩
  | 30 => ⟨S256, .f32⟩
  | 31 => ⟨S1x256, .f32⟩
  | 32 => ⟨S90000x256, .f32⟩
  | 33 => ⟨S90000x256, .f32⟩
  | 34 => ⟨S_, .f32⟩
  | 35 => ⟨S256, .f32⟩
  | 36 => ⟨S256, .f32⟩
  | 37 => ⟨S256, .f32⟩
  | 38 => ⟨S1x256, .f32⟩
  | 39 => ⟨S90000x256, .f32⟩
  | 40 => ⟨S90000x256, .f32⟩
  | 41 => ⟨S1x256, .f32⟩
  | 42 => ⟨S90000x256, .f32⟩
  | 43 => ⟨S90000x256, .f32⟩
  | 44 => ⟨S1x256, .f32⟩
  | 45 => ⟨S90000x256, .f32⟩
  | 46 => ⟨S90000x256, .f32⟩
  | 47 => ⟨S_, .f32⟩
  | 48 => ⟨S90000x256, .f32⟩
  | 49 => ⟨S90000x256, .f32⟩
  | 50 => ⟨S90000x128, .f32⟩
  | 51 => ⟨S1x128, .f32⟩
  | 52 => ⟨S90000x128, .f32⟩
  | 53 => ⟨S90000x128, .f32⟩
  | 54 => ⟨S1x128x256, .f32⟩
  | 55 => ⟨S128x256, .f32⟩
  | 56 => ⟨S1x256, .f32⟩
  | 57 => ⟨S256, .f32⟩
  | 58 => ⟨S1x256, .f32⟩
  | 59 => ⟨S256, .f32⟩
  | 60 => ⟨S1x256, .f32⟩
  | 61 => ⟨S256, .f32⟩
  | 62 => ⟨S1x256x128, .f32⟩
  | 63 => ⟨S256x128, .f32⟩
  | 64 => ⟨S1x128, .f32⟩
  | 65 => ⟨S128, .f32⟩
  | 66 => ⟨S_, .i32⟩
  | 67 => ⟨S1440000, .i32⟩
  | 68 => ⟨S1440000, .i1⟩
  | 69 => ⟨S_, .i32⟩
  | 70 => ⟨S1440000, .i32⟩
  | 71 => ⟨S1440000, .i32⟩
  | 72 => ⟨S1440000, .i32⟩
  | 73 => ⟨S1440000x1, .i32⟩
  | 74 => ⟨S1440000x128, .f32⟩
  | 75 => ⟨S_, .f32⟩
  | 76 => ⟨S90000x128, .f32⟩
  | 77 => ⟨S1440000x1, .i32⟩
  | 78 => ⟨S90000x128, .f32⟩
  | 79 => ⟨S90000x128, .f32⟩
  | 80 => ⟨S90000x256, .f32⟩
  | 81 => ⟨S1x256, .f32⟩
  | 82 => ⟨S90000x256, .f32⟩
  | 83 => ⟨S90000x256, .f32⟩
  | 84 => ⟨S_, .f32⟩
  | 85 => ⟨S256, .f32⟩
  | 86 => ⟨S_, .f32⟩
  | 87 => ⟨S256, .f32⟩
  | 88 => ⟨S256, .f32⟩
  | 89 => ⟨S_, .i32⟩
  | 90 => ⟨S_, .f32⟩
  | 91 => ⟨S256, .f32⟩
  | 92 => ⟨S1x256, .f32⟩
  | 93 => ⟨S_, .f32⟩
  | 94 => ⟨S1x256, .f32⟩
  | 95 => ⟨S1x256, .f32⟩
  | 96 => ⟨S90000x256, .f32⟩
  | 97 => ⟨S90000x256, .f32⟩
  | 98 => ⟨S90000x256, .f32⟩
  | 99 => ⟨S_, .f32⟩
  | 100 => ⟨S_, .f32⟩
  | 101 => ⟨S_, .f32⟩
  | 102 => ⟨S_, .f32⟩
  | 103 => ⟨S256, .f32⟩
  | 104 => ⟨S256, .f32⟩
  | 105 => ⟨S256, .f32⟩
  | 106 => ⟨S_, .f32⟩
  | 107 => ⟨S_, .i1⟩
  | 108 => ⟨S_, .f32⟩
  | 109 => ⟨S_, .f32⟩
  | 110 => ⟨S256, .f32⟩
  | 111 => ⟨S256, .f32⟩
  | 112 => ⟨S1x256, .f32⟩
  | 113 => ⟨S90000x256, .f32⟩
  | 114 => ⟨S90000x256, .f32⟩
  | 115 => ⟨S_, .f32⟩
  | 116 => ⟨S256, .f32⟩
  | 117 => ⟨S256, .f32⟩
  | 118 => ⟨S256, .f32⟩
  | 119 => ⟨S1x256, .f32⟩
  | 120 => ⟨S90000x256, .f32⟩
  | 121 => ⟨S90000x256, .f32⟩
  | 122 => ⟨S1x256, .f32⟩
  | 123 => ⟨S90000x256, .f32⟩
  | 124 => ⟨S90000x256, .f32⟩
  | 125 => ⟨S1x256, .f32⟩
  | 126 => ⟨S90000x256, .f32⟩
  | 127 => ⟨S90000x256, .f32⟩
  | _ => ⟨S90000x128, .f32⟩

abbrev hbmTy0_2 (i : Nat) : BufTy := match i % 128 with
  | 0 => ⟨S90000x128, .f32⟩
  | 1 => ⟨S1x128, .f32⟩
  | 2 => ⟨S90000x128, .f32⟩
  | 3 => ⟨S90000x128, .f32⟩
  | 4 => ⟨S1x128x256, .f32⟩
  | 5 => ⟨S128x256, .f32⟩
  | 6 => ⟨S1x256, .f32⟩
  | 7 => ⟨S256, .f32⟩
  | 8 => ⟨S1x256, .f32⟩
  | 9 => ⟨S256, .f32⟩
  | 10 => ⟨S1x256, .f32⟩
  | 11 => ⟨S256, .f32⟩
  | 12 => ⟨S1x256x128, .f32⟩
  | 13 => ⟨S256x128, .f32⟩
  | 14 => ⟨S1x128, .f32⟩
  | 15 => ⟨S128, .f32⟩
  | 16 => ⟨S_, .i32⟩
  | 17 => ⟨S1440000, .i32⟩
  | 18 => ⟨S1440000, .i1⟩
  | 19 => ⟨S_, .i32⟩
  | 20 => ⟨S1440000, .i32⟩
  | 21 => ⟨S1440000, .i32⟩
  | 22 => ⟨S1440000, .i32⟩
  | 23 => ⟨S1440000x1, .i32⟩
  | 24 => ⟨S1440000x128, .f32⟩
  | 25 => ⟨S_, .f32⟩
  | 26 => ⟨S90000x128, .f32⟩
  | 27 => ⟨S1440000x1, .i32⟩
  | 28 => ⟨S90000x128, .f32⟩
  | 29 => ⟨S90000x128, .f32⟩
  | 30 => ⟨S90000x256, .f32⟩
  | 31 => ⟨S1x256, .f32⟩
  | 32 => ⟨S90000x256, .f32⟩
  | 33 => ⟨S90000x256, .f32⟩
  | 34 => ⟨S_, .f32⟩
  | 35 => ⟨S256, .f32⟩
  | 36 => ⟨S_, .f32⟩
  | 37 => ⟨S256, .f32⟩
  | 38 => ⟨S256, .f32⟩
  | 39 => ⟨S_, .i32⟩
  | 40 => ⟨S_, .f32⟩
  | 41 => ⟨S256, .f32⟩
  | 42 => ⟨S1x256, .f32⟩
  | 43 => ⟨S_, .f32⟩
  | 44 => ⟨S1x256, .f32⟩
  | 45 => ⟨S1x256, .f32⟩
  | 46 => ⟨S90000x256, .f32⟩
  | 47 => ⟨S90000x256, .f32⟩
  | 48 => ⟨S90000x256, .f32⟩
  | 49 => ⟨S_, .f32⟩
  | 50 => ⟨S_, .f32⟩
  | 51 => ⟨S_, .f32⟩
  | 52 => ⟨S_, .f32⟩
  | 53 => ⟨S256, .f32⟩
  | 54 => ⟨S256, .f32⟩
  | 55 => ⟨S256, .f32⟩
  | 56 => ⟨S_, .f32⟩
  | 57 => ⟨S_, .i1⟩
  | 58 => ⟨S_, .f32⟩
  | 59 => ⟨S_, .f32⟩
  | 60 => ⟨S256, .f32⟩
  | 61 => ⟨S256, .f32⟩
  | 62 => ⟨S1x256, .f32⟩
  | 63 => ⟨S90000x256, .f32⟩
  | 64 => ⟨S90000x256, .f32⟩
  | 65 => ⟨S_, .f32⟩
  | 66 => ⟨S256, .f32⟩
  | 67 => ⟨S256, .f32⟩
  | 68 => ⟨S256, .f32⟩
  | 69 => ⟨S1x256, .f32⟩
  | 70 => ⟨S90000x256, .f32⟩
  | 71 => ⟨S90000x256, .f32⟩
  | 72 => ⟨S1x256, .f32⟩
  | 73 => ⟨S90000x256, .f32⟩
  | 74 => ⟨S90000x256, .f32⟩
  | 75 => ⟨S1x256, .f32⟩
  | 76 => ⟨S90000x256, .f32⟩
  | 77 => ⟨S90000x256, .f32⟩
  | 78 => ⟨S90000x128, .f32⟩
  | 79 => ⟨S1x128, .f32⟩
  | 80 => ⟨S90000x128, .f32⟩
  | 81 => ⟨S90000x128, .f32⟩
  | 82 => ⟨S90000x128, .f32⟩
  | 83 => ⟨S90000x128, .f32⟩
  | 84 => ⟨S90000x128, .f32⟩
  | 85 => ⟨S_, .f32⟩
  | 86 => ⟨S90000, .f32⟩
  | 87 => ⟨S_, .f32⟩
  | 88 => ⟨S3000, .f32⟩
  | 89 => ⟨S90000x1, .i32⟩
  | 90 => ⟨S3000, .f32⟩
  | 91 => ⟨S_, .f32⟩
  | 92 => ⟨S3000x128, .f32⟩
  | 93 => ⟨S90000x1, .i32⟩
  | 94 => ⟨S3000x128, .f32⟩
  | 95 => ⟨S3000x1, .f32⟩
  | 96 => ⟨S3000x128, .f32⟩
  | 97 => ⟨S3000x128, .f32⟩
  | 98 => ⟨S3000x1, .f32⟩
  | 99 => ⟨S1x1, .f32⟩
  | 100 => ⟨S3000x1, .f32⟩
  | 101 => ⟨S3000x1, .f32⟩
  | 102 => ⟨S3000, .f32⟩
  | 103 => ⟨S3000, .f32⟩
  | 104 => ⟨S3000, .f32⟩
  | 105 => ⟨S_, .f32⟩
  | 106 => ⟨S_, .f32⟩
  | 107 => ⟨S_, .f32⟩
  | 108 => ⟨S_, .f32⟩
  | 109 => ⟨S1x675000, .i32⟩
  | 110 => ⟨S675000, .i32⟩
  | 111 => ⟨S_, .i32⟩
  | 112 => ⟨S675000, .i32⟩
  | 113 => ⟨S675000, .i1⟩
  | 114 => ⟨S_, .i32⟩
  | 115 => ⟨S675000, .i32⟩
  | 116 => ⟨S675000, .i32⟩
  | 117 => ⟨S675000, .i32⟩
  | 118 => ⟨S675000x1, .i32⟩
  | 119 => ⟨S675000x128, .f32⟩
  | 120 => ⟨S1x675000, .i32⟩
  | 121 => ⟨S675000, .i32⟩
  | 122 => ⟨S_, .i32⟩
  | 123 => ⟨S675000, .i32⟩
  | 124 => ⟨S675000, .i1⟩
  | 125 => ⟨S_, .i32⟩
  | 126 => ⟨S675000, .i32⟩
  | 127 => ⟨S675000, .i32⟩
  | _ => ⟨S90000x128, .f32⟩

abbrev hbmTy0_3 (i : Nat) : BufTy := match i % 128 with
  | 0 => ⟨S675000, .i32⟩
  | 1 => ⟨S675000x1, .i32⟩
  | 2 => ⟨S675000x128, .f32⟩
  | 3 => ⟨S675000x256, .f32⟩
  | 4 => ⟨S675000x1, .f32⟩
  | 5 => ⟨S1x1, .f32⟩
  | 6 => ⟨S675000x1, .f32⟩
  | 7 => ⟨S675000x1, .f32⟩
  | 8 => ⟨S675000x1, .f32⟩
  | 9 => ⟨S675000x1, .f32⟩
  | 10 => ⟨S_, .f32⟩
  | 11 => ⟨S675000x1, .f32⟩
  | 12 => ⟨S675000x1, .f32⟩
  | 13 => ⟨S_, .f32⟩
  | 14 => ⟨S675000x1, .f32⟩
  | 15 => ⟨S675000x1, .f32⟩
  | 16 => ⟨S_, .f32⟩
  | 17 => ⟨S90000x128, .f32⟩
  | 18 => ⟨S90000x128, .f32⟩
  | 19 => ⟨S_, .f32⟩
  | 20 => ⟨S90000x128, .f32⟩
  | 21 => ⟨S90000x128, .f32⟩
  | 22 => ⟨S90000x128, .f32⟩
  | 23 => ⟨S90000x128, .f32⟩
  | 24 => ⟨S90000x128, .f32⟩
  | 25 => ⟨S90000x128, .f32⟩
  | 26 => ⟨S90000x128, .f32⟩
  | 27 => ⟨S_, .f32⟩
  | 28 => ⟨S90000, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | _ => ⟨S90000x128, .f32⟩

abbrev hbmTy (i : Nat) : BufTy := match i / 128 with
  | 0 => hbmTy0_0 i
  | 1 => hbmTy0_1 i
  | 2 => hbmTy0_2 i
  | 3 => hbmTy0_3 i
  | _ => ⟨S90000x128, .f32⟩

abbrev bufTy : (tb : Table) → Fin (tcTables nBuf tb) → BufTy
  | .hbm, ⟨i, _⟩ => hbmTy i
  | _, _ => ⟨S90000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_c_3 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_4 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_call1_cst : Ref sig .tc := ⟨.hbm, 94, rfl⟩
abbrev main_call1_v0 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_5 : Ref sig .tc := ⟨.hbm, 113, rfl⟩
abbrev main_v67 : Ref sig .tc := ⟨.hbm, 114, rfl⟩
abbrev main_v68 : Ref sig .tc := ⟨.hbm, 115, rfl⟩
abbrev main_c_6 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_7 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_8 : Ref sig .tc := ⟨.hbm, 131, rfl⟩
abbrev main_v82 : Ref sig .tc := ⟨.hbm, 132, rfl⟩
abbrev main_cst_9 : Ref sig .tc := ⟨.hbm, 133, rfl⟩
abbrev main_v83 : Ref sig .tc := ⟨.hbm, 134, rfl⟩
abbrev main_v84 : Ref sig .tc := ⟨.hbm, 135, rfl⟩
abbrev main_c_10 : Ref sig .tc := ⟨.hbm, 136, rfl⟩
abbrev main_call2_cst : Ref sig .tc := ⟨.hbm, 137, rfl⟩
abbrev main_call2_v0 : Ref sig .tc := ⟨.hbm, 138, rfl⟩
abbrev main_call2_v1 : Ref sig .tc := ⟨.hbm, 139, rfl⟩
abbrev main_call2_cst_0 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_v6 : Ref sig .tc := ⟨.hbm, 145, rfl⟩
abbrev main_call2_v7 : Ref sig .tc := ⟨.hbm, 146, rfl⟩
abbrev main_call2_cst_1 : Ref sig .tc := ⟨.hbm, 147, rfl⟩
abbrev main_call2_v8 : Ref sig .tc := ⟨.hbm, 148, rfl⟩
abbrev main_call2_cst_2 : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_cst_3 : Ref sig .tc := ⟨.hbm, 153, rfl⟩
abbrev main_call2_v12 : Ref sig .tc := ⟨.hbm, 154, rfl⟩
abbrev main_call2_cst_4 : Ref sig .tc := ⟨.hbm, 155, rfl⟩
abbrev main_call2_call0_v0 : Ref sig .tc := ⟨.hbm, 156, rfl⟩
abbrev main_call2_call0_v1 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_cst_11 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_call3_cst : Ref sig .tc := ⟨.hbm, 175, rfl⟩
abbrev main_call3_v0 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_c_12 : Ref sig .tc := ⟨.hbm, 194, rfl⟩
abbrev main_v118 : Ref sig .tc := ⟨.hbm, 195, rfl⟩
abbrev main_v119 : Ref sig .tc := ⟨.hbm, 196, rfl⟩
abbrev main_c_13 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_cst_14 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_cst_15 : Ref sig .tc := ⟨.hbm, 212, rfl⟩
abbrev main_v133 : Ref sig .tc := ⟨.hbm, 213, rfl⟩
abbrev main_cst_16 : Ref sig .tc := ⟨.hbm, 214, rfl⟩
abbrev main_v134 : Ref sig .tc := ⟨.hbm, 215, rfl⟩
abbrev main_v135 : Ref sig .tc := ⟨.hbm, 216, rfl⟩
abbrev main_c_17 : Ref sig .tc := ⟨.hbm, 217, rfl⟩
abbrev main_call4_cst : Ref sig .tc := ⟨.hbm, 218, rfl⟩
abbrev main_call4_v0 : Ref sig .tc := ⟨.hbm, 219, rfl⟩
abbrev main_call4_v1 : Ref sig .tc := ⟨.hbm, 220, rfl⟩
abbrev main_call4_cst_0 : Ref sig .tc := ⟨.hbm, 221, rfl⟩
abbrev main_call4_v2 : Ref sig .tc := ⟨.hbm, 222, rfl⟩
abbrev main_call4_v3 : Ref sig .tc := ⟨.hbm, 223, rfl⟩
abbrev main_call4_v4 : Ref sig .tc := ⟨.hbm, 224, rfl⟩
abbrev main_call4_v5 : Ref sig .tc := ⟨.hbm, 225, rfl⟩
abbrev main_call4_v6 : Ref sig .tc := ⟨.hbm, 226, rfl⟩
abbrev main_call4_v7 : Ref sig .tc := ⟨.hbm, 227, rfl⟩
abbrev main_call4_cst_1 : Ref sig .tc := ⟨.hbm, 228, rfl⟩
abbrev main_call4_v8 : Ref sig .tc := ⟨.hbm, 229, rfl⟩
abbrev main_call4_cst_2 : Ref sig .tc := ⟨.hbm, 230, rfl⟩
abbrev main_call4_v9 : Ref sig .tc := ⟨.hbm, 231, rfl⟩
abbrev main_call4_v10 : Ref sig .tc := ⟨.hbm, 232, rfl⟩
abbrev main_call4_v11 : Ref sig .tc := ⟨.hbm, 233, rfl⟩
abbrev main_call4_cst_3 : Ref sig .tc := ⟨.hbm, 234, rfl⟩
abbrev main_call4_v12 : Ref sig .tc := ⟨.hbm, 235, rfl⟩
abbrev main_call4_cst_4 : Ref sig .tc := ⟨.hbm, 236, rfl⟩
abbrev main_call4_call0_v0 : Ref sig .tc := ⟨.hbm, 237, rfl⟩
abbrev main_call4_call0_v1 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_cst_18 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_c_19 : Ref sig .tc := ⟨.hbm, 272, rfl⟩
abbrev main_v168 : Ref sig .tc := ⟨.hbm, 273, rfl⟩
abbrev main_v169 : Ref sig .tc := ⟨.hbm, 274, rfl⟩
abbrev main_c_20 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_cst_21 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_cst_22 : Ref sig .tc := ⟨.hbm, 290, rfl⟩
abbrev main_v183 : Ref sig .tc := ⟨.hbm, 291, rfl⟩
abbrev main_cst_23 : Ref sig .tc := ⟨.hbm, 292, rfl⟩
abbrev main_v184 : Ref sig .tc := ⟨.hbm, 293, rfl⟩
abbrev main_v185 : Ref sig .tc := ⟨.hbm, 294, rfl⟩
abbrev main_c_24 : Ref sig .tc := ⟨.hbm, 295, rfl⟩
abbrev main_call5_cst : Ref sig .tc := ⟨.hbm, 296, rfl⟩
abbrev main_call5_v0 : Ref sig .tc := ⟨.hbm, 297, rfl⟩
abbrev main_call5_v1 : Ref sig .tc := ⟨.hbm, 298, rfl⟩
abbrev main_call5_cst_0 : Ref sig .tc := ⟨.hbm, 299, rfl⟩
abbrev main_call5_v2 : Ref sig .tc := ⟨.hbm, 300, rfl⟩
abbrev main_call5_v3 : Ref sig .tc := ⟨.hbm, 301, rfl⟩
abbrev main_call5_v4 : Ref sig .tc := ⟨.hbm, 302, rfl⟩
abbrev main_call5_v5 : Ref sig .tc := ⟨.hbm, 303, rfl⟩
abbrev main_call5_v6 : Ref sig .tc := ⟨.hbm, 304, rfl⟩
abbrev main_call5_v7 : Ref sig .tc := ⟨.hbm, 305, rfl⟩
abbrev main_call5_cst_1 : Ref sig .tc := ⟨.hbm, 306, rfl⟩
abbrev main_call5_v8 : Ref sig .tc := ⟨.hbm, 307, rfl⟩
abbrev main_call5_cst_2 : Ref sig .tc := ⟨.hbm, 308, rfl⟩
abbrev main_call5_v9 : Ref sig .tc := ⟨.hbm, 309, rfl⟩
abbrev main_call5_v10 : Ref sig .tc := ⟨.hbm, 310, rfl⟩
abbrev main_call5_v11 : Ref sig .tc := ⟨.hbm, 311, rfl⟩
abbrev main_call5_cst_3 : Ref sig .tc := ⟨.hbm, 312, rfl⟩
abbrev main_call5_v12 : Ref sig .tc := ⟨.hbm, 313, rfl⟩
abbrev main_call5_cst_4 : Ref sig .tc := ⟨.hbm, 314, rfl⟩
abbrev main_call5_call0_v0 : Ref sig .tc := ⟨.hbm, 315, rfl⟩
abbrev main_call5_call0_v1 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_cst_25 : Ref sig .tc := ⟨.hbm, 321, rfl⟩
abbrev main_v190 : Ref sig .tc := ⟨.hbm, 322, rfl⟩
abbrev main_v191 : Ref sig .tc := ⟨.hbm, 323, rfl⟩
abbrev main_v192 : Ref sig .tc := ⟨.hbm, 324, rfl⟩
abbrev main_v193 : Ref sig .tc := ⟨.hbm, 325, rfl⟩
abbrev main_v194 : Ref sig .tc := ⟨.hbm, 326, rfl⟩
abbrev main_v195 : Ref sig .tc := ⟨.hbm, 327, rfl⟩
abbrev main_v196 : Ref sig .tc := ⟨.hbm, 328, rfl⟩
abbrev main_v197 : Ref sig .tc := ⟨.hbm, 329, rfl⟩
abbrev main_v198 : Ref sig .tc := ⟨.hbm, 330, rfl⟩
abbrev main_v199 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_v203 : Ref sig .tc := ⟨.hbm, 335, rfl⟩
abbrev main_v204 : Ref sig .tc := ⟨.hbm, 336, rfl⟩
abbrev main_v205 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_cst_26 : Ref sig .tc := ⟨.hbm, 341, rfl⟩
abbrev main_v209 : Ref sig .tc := ⟨.hbm, 342, rfl⟩
abbrev main_cst_27 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_cst_28 : Ref sig .tc := ⟨.hbm, 347, rfl⟩
abbrev main_v213 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_v224 : Ref sig .tc := ⟨.hbm, 359, rfl⟩
abbrev main_v225 : Ref sig .tc := ⟨.hbm, 360, rfl⟩
abbrev main_cst_29 : Ref sig .tc := ⟨.hbm, 361, rfl⟩
abbrev main_v226 : Ref sig .tc := ⟨.hbm, 362, rfl⟩
abbrev main_cst_30 : Ref sig .tc := ⟨.hbm, 363, rfl⟩
abbrev main_v227 : Ref sig .tc := ⟨.hbm, 364, rfl⟩
abbrev main_v228 : Ref sig .tc := ⟨.hbm, 365, rfl⟩
abbrev main_v229 : Ref sig .tc := ⟨.hbm, 366, rfl⟩
abbrev main_c_31 : Ref sig .tc := ⟨.hbm, 367, rfl⟩
abbrev main_v230 : Ref sig .tc := ⟨.hbm, 368, rfl⟩
abbrev main_v231 : Ref sig .tc := ⟨.hbm, 369, rfl⟩
abbrev main_c_32 : Ref sig .tc := ⟨.hbm, 370, rfl⟩
abbrev main_v232 : Ref sig .tc := ⟨.hbm, 371, rfl⟩
abbrev main_v233 : Ref sig .tc := ⟨.hbm, 372, rfl⟩
abbrev main_v234 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_v238 : Ref sig .tc := ⟨.hbm, 377, rfl⟩
abbrev main_c_33 : Ref sig .tc := ⟨.hbm, 378, rfl⟩
abbrev main_v239 : Ref sig .tc := ⟨.hbm, 379, rfl⟩
abbrev main_v240 : Ref sig .tc := ⟨.hbm, 380, rfl⟩
abbrev main_c_34 : Ref sig .tc := ⟨.hbm, 381, rfl⟩
abbrev main_v241 : Ref sig .tc := ⟨.hbm, 382, rfl⟩
abbrev main_v242 : Ref sig .tc := ⟨.hbm, 383, rfl⟩
abbrev main_v243 : Ref sig .tc := ⟨.hbm, 384, rfl⟩
abbrev main_v244 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_v248 : Ref sig .tc := ⟨.hbm, 389, rfl⟩
abbrev main_v249 : Ref sig .tc := ⟨.hbm, 390, rfl⟩
abbrev main_v250 : Ref sig .tc := ⟨.hbm, 391, rfl⟩
abbrev main_v251 : Ref sig .tc := ⟨.hbm, 392, rfl⟩
abbrev main_v252 : Ref sig .tc := ⟨.hbm, 393, rfl⟩
abbrev main_cst_35 : Ref sig .tc := ⟨.hbm, 394, rfl⟩
abbrev main_v253 : Ref sig .tc := ⟨.hbm, 395, rfl⟩
abbrev main_v254 : Ref sig .tc := ⟨.hbm, 396, rfl⟩
abbrev main_cst_36 : Ref sig .tc := ⟨.hbm, 397, rfl⟩
abbrev main_v255 : Ref sig .tc := ⟨.hbm, 398, rfl⟩
abbrev main_v256 : Ref sig .tc := ⟨.hbm, 399, rfl⟩
abbrev main_cst_37 : Ref sig .tc := ⟨.hbm, 400, rfl⟩
abbrev main_v257 : Ref sig .tc := ⟨.hbm, 401, rfl⟩
abbrev main_v258 : Ref sig .tc := ⟨.hbm, 402, rfl⟩
abbrev main_cst_38 : Ref sig .tc := ⟨.hbm, 403, rfl⟩
abbrev main_v259 : Ref sig .tc := ⟨.hbm, 404, rfl⟩
abbrev main_v260 : Ref sig .tc := ⟨.hbm, 405, rfl⟩
abbrev main_v261 : Ref sig .tc := ⟨.hbm, 406, rfl⟩
abbrev main_v262 : Ref sig .tc := ⟨.hbm, 407, rfl⟩
abbrev main_v263 : Ref sig .tc := ⟨.hbm, 408, rfl⟩
abbrev main_v264 : Ref sig .tc := ⟨.hbm, 409, rfl⟩
abbrev main_v265 : Ref sig .tc := ⟨.hbm, 410, rfl⟩
abbrev main_cst_39 : Ref sig .tc := ⟨.hbm, 411, rfl⟩
abbrev main_v266 : Ref sig .tc := ⟨.hbm, 412, rfl⟩
abbrev main_cst_40 : Ref sig .tc := ⟨.hbm, 413, rfl⟩
abbrev main_v267 : Ref sig .tc := ⟨.hbm, 414, rfl⟩
abbrev main_cst_41 : Ref sig .tc := ⟨.hbm, 415, rfl⟩
abbrev main_v268 : Ref sig .tc := ⟨.hbm, 416, rfl⟩
abbrev main_cst_42 : Ref sig .tc := ⟨.hbm, 417, rfl⟩
abbrev main_v269 : Ref sig .tc := ⟨.hbm, 418, rfl⟩

abbrev nD : Nat := 1
abbrev τ : Topo := Topo.v7x

variable {F : FTy → Type} [FloatOps F]

class Facts₀ : Prop where
  slices_S2x1440000_S1x1440000_0_0 : S2x1440000.Slices ![0, 0] S1x1440000
  shapeCasts_S1x1440000_S1440000 : S1x1440000.ShapeCasts S1440000
  slices_S2x1440000_S1x1440000_1_0 : S2x1440000.Slices ![1, 0] S1x1440000
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S_S1440000 : S_.BroadcastsInDim S1440000 (![] : Fin 0 → Fin S1440000.rank)
  bcast_S1440000_S1440000x1_0 : S1440000.BroadcastsInDim S1440000x1 (![0] : Fin 1 → Fin S1440000x1.rank)
  bcast_S_S90000x128 : S_.BroadcastsInDim S90000x128 (![] : Fin 0 → Fin S90000x128.rank)
  bcast_S256_S1x256_1 : S256.BroadcastsInDim S1x256 (![1] : Fin 1 → Fin S1x256.rank)
  bcast_S1x256_S90000x256_0_1 : S1x256.BroadcastsInDim S90000x256 (![0, 1] : Fin 2 → Fin S90000x256.rank)
  reducesTo_S90000x256_S256_d0 : S90000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S90000x256 : S_.BroadcastsInDim S90000x256 (![] : Fin 0 → Fin S90000x256.rank)
  bcast_S128_S1x128_1 : S128.BroadcastsInDim S1x128 (![1] : Fin 1 → Fin S1x128.rank)
  bcast_S1x128_S90000x128_0_1 : S1x128.BroadcastsInDim S90000x128 (![0, 1] : Fin 2 → Fin S90000x128.rank)
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  bcast_S_S90000 : S_.BroadcastsInDim S90000 (![] : Fin 0 → Fin S90000.rank)
  bcast_S_S3000 : S_.BroadcastsInDim S3000 (![] : Fin 0 → Fin S3000.rank)
  bcast_S90000_S90000x1_0 : S90000.BroadcastsInDim S90000x1 (![0] : Fin 1 → Fin S90000x1.rank)
  bcast_S_S3000x128 : S_.BroadcastsInDim S3000x128 (![] : Fin 0 → Fin S3000x128.rank)
  bcast_S3000_S3000x1_0 : S3000.BroadcastsInDim S3000x1 (![0] : Fin 1 → Fin S3000x1.rank)
  bcast_S3000x1_S3000x128_0_1 : S3000x1.BroadcastsInDim S3000x128 (![0, 1] : Fin 2 → Fin S3000x128.rank)
  bcast_S1_S1x1_1 : S1.BroadcastsInDim S1x1 (![1] : Fin 1 → Fin S1x1.rank)
  bcast_S1x1_S3000x1_0_1 : S1x1.BroadcastsInDim S3000x1 (![0, 1] : Fin 2 → Fin S3000x1.rank)
  shapeCasts_S3000x1_S3000 : S3000x1.ShapeCasts S3000
  reducesTo_S3000_S_d0 : S3000.ReducesTo [0] S_
  slices_S2x675000_S1x675000_0_0 : S2x675000.Slices ![0, 0] S1x675000
  shapeCasts_S1x675000_S675000 : S1x675000.ShapeCasts S675000
  bcast_S_S675000 : S_.BroadcastsInDim S675000 (![] : Fin 0 → Fin S675000.rank)
  bcast_S675000_S675000x1_0 : S675000.BroadcastsInDim S675000x1 (![0] : Fin 1 → Fin S675000x1.rank)
  slices_S2x675000_S1x675000_1_0 : S2x675000.Slices ![1, 0] S1x675000
  concatenates_S675000x128_S675000x128_S675000x256_d1 : Shape.Concatenates [S675000x128, S675000x128] S675000x256 1
  bcast_S1x1_S675000x1_0_1 : S1x1.BroadcastsInDim S675000x1 (![0, 1] : Fin 2 → Fin S675000x1.rank)
  bcast_S_S675000x1 : S_.BroadcastsInDim S675000x1 (![] : Fin 0 → Fin S675000x1.rank)
  reducesTo_S90000x128_S90000_d1 : S90000x128.ReducesTo [1] S90000
  reducesTo_S90000_S_d0 : S90000.ReducesTo [0] S_
  gather_S90000x128_S1440000x1_S1440000x128_1_0_n_n_0_1_1128_wf : GatherDims.WF S90000x128 S1440000x1 S1440000x128 [1] [0] [] [0] [] 1 ![1, 128]
  scatter_S90000x128_S1440000x1_S1440000x128_1_0_0_1_wf : ScatterDims.WF S90000x128 S1440000x1 S1440000x128 [1] [0] [0] 1
  dot_S90000x128_S128x256_S90000x256_1_0_0_1_n_n_wf : DotDims.WF S90000x128 S128x256 S90000x256 [1] [0] [0] [1] [] []
  dot_S90000x256_S256x128_S90000x128_1_0_0_1_n_n_wf : DotDims.WF S90000x256 S256x128 S90000x128 [1] [0] [0] [1] [] []
  scatter_S3000_S90000x1_S90000_n_0_0_1_wf : ScatterDims.WF S3000 S90000x1 S90000 [] [0] [0] 1
  scatter_S3000x128_S90000x1_S90000x128_1_0_0_1_wf : ScatterDims.WF S3000x128 S90000x1 S90000x128 [1] [0] [0] 1
  dot_S3000x128_S128x1_S3000x1_1_0_0_1_n_n_wf : DotDims.WF S3000x128 S128x1 S3000x1 [1] [0] [0] [1] [] []
  gather_S90000x128_S675000x1_S675000x128_1_0_n_n_0_1_1128_wf : GatherDims.WF S90000x128 S675000x1 S675000x128 [1] [0] [] [0] [] 1 ![1, 128]
  dot_S675000x256_S256x1_S675000x1_1_0_0_1_n_n_wf : DotDims.WF S675000x256 S256x1 S675000x1 [1] [0] [0] [1] [] []

variable [Facts₀]

def gather_S90000x128_S1440000x1_S1440000x128_1_0_n_n_0_1_1128 : GatherDims S90000x128 S1440000x1 S1440000x128 where
  offsetDims := [1]
  collapsedSliceDims := [0]
  operandBatchingDims := []
  startIndicesBatchingDims := []
  startIndexMap := [0]
  indexVectorDim := 1
  sliceSizes := ![1, 128]
  wf := gather_S90000x128_S1440000x1_S1440000x128_1_0_n_n_0_1_1128_wf
def scatter_S90000x128_S1440000x1_S1440000x128_1_0_0_1 : ScatterDims S90000x128 S1440000x1 S1440000x128 where
  updateWindowDims := [1]
  insertedWindowDims := [0]
  scatterDimsToOperandDims := [0]
  indexVectorDim := 1
  wf := scatter_S90000x128_S1440000x1_S1440000x128_1_0_0_1_wf
def dot_S90000x128_S128x256_S90000x256_1_0_0_1_n_n : DotDims S90000x128 S128x256 S90000x256 where
  lhsContracting := [1]
  rhsContracting := [0]
  lhsNonContracting := [0]
  rhsNonContracting := [1]
  lhsBatch := []
  rhsBatch := []
  wf := dot_S90000x128_S128x256_S90000x256_1_0_0_1_n_n_wf
def dot_S90000x256_S256x128_S90000x128_1_0_0_1_n_n : DotDims S90000x256 S256x128 S90000x128 where
  lhsContracting := [1]
  rhsContracting := [0]
  lhsNonContracting := [0]
  rhsNonContracting := [1]
  lhsBatch := []
  rhsBatch := []
  wf := dot_S90000x256_S256x128_S90000x128_1_0_0_1_n_n_wf
def scatter_S3000_S90000x1_S90000_n_0_0_1 : ScatterDims S3000 S90000x1 S90000 where
  updateWindowDims := []
  insertedWindowDims := [0]
  scatterDimsToOperandDims := [0]
  indexVectorDim := 1
  wf := scatter_S3000_S90000x1_S90000_n_0_0_1_wf
def scatter_S3000x128_S90000x1_S90000x128_1_0_0_1 : ScatterDims S3000x128 S90000x1 S90000x128 where
  updateWindowDims := [1]
  insertedWindowDims := [0]
  scatterDimsToOperandDims := [0]
  indexVectorDim := 1
  wf := scatter_S3000x128_S90000x1_S90000x128_1_0_0_1_wf
def dot_S3000x128_S128x1_S3000x1_1_0_0_1_n_n : DotDims S3000x128 S128x1 S3000x1 where
  lhsContracting := [1]
  rhsContracting := [0]
  lhsNonContracting := [0]
  rhsNonContracting := [1]
  lhsBatch := []
  rhsBatch := []
  wf := dot_S3000x128_S128x1_S3000x1_1_0_0_1_n_n_wf
def gather_S90000x128_S675000x1_S675000x128_1_0_n_n_0_1_1128 : GatherDims S90000x128 S675000x1 S675000x128 where
  offsetDims := [1]
  collapsedSliceDims := [0]
  operandBatchingDims := []
  startIndicesBatchingDims := []
  startIndexMap := [0]
  indexVectorDim := 1
  sliceSizes := ![1, 128]
  wf := gather_S90000x128_S675000x1_S675000x128_1_0_n_n_0_1_1128_wf
def dot_S675000x256_S256x1_S675000x1_1_0_0_1_n_n : DotDims S675000x256 S256x1 S675000x1 where
  lhsContracting := [1]
  rhsContracting := [0]
  lhsNonContracting := [0]
  rhsNonContracting := [1]
  lhsBatch := []
  rhsBatch := []
  wf := dot_S675000x256_S256x1_S675000x1_1_0_0_1_n_n_wf

class Facts : Prop extends Facts₀ where

variable [Facts]
-- ==== Proof.RefRunFold.lean ====
import Idealize.ShloMosaic.Lib.StableHlo.Run

/-! # The fold of two lines run one after the other

`StableHlo.after ops V` is what the buffers hold once the operations `ops` have run in order from contents `V`. Running
`l₁ ++ l₂` is running `l₂` from what `l₁` leaves. -/

namespace Cert.ReferenceIdeal.RefRun

open Idealize.ShloMosaic Idealize.ShloMosaic.StableHlo

/-- Two lines run one after the other fold as the second over the first's fold. -/
theorem after_append {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => exact ih _

end Cert.ReferenceIdeal.RefRun
-- ==== Proof.RefRunBase.lean ====
import Idealize.ShloMosaic.Lib.StableHlo.Run

/-! # Lists of operations: what a line writes

A straight line of StableHLO operations is handled window by window. For each window the references its operations
write are listed once; an operation of the window writes the one buffer of the reference at its own position of that
list (`writes_sub_at`), so a reference outside every list keeps its contents through the whole line
(`StableHlo.after_of_writes_sub`). The lemmas here glue the windows: writing inside a list is writing inside a longer
one, and two lines one after the other write inside the two lists appended. -/

namespace Cert.ReferenceIdeal.RefRun

open Idealize.ShloMosaic Idealize.SL.Sem Idealize.ShloMosaic.StableHlo

variable {τ' : Topo} {sig' : RefSig} {Val : EltTy → Type}

/-- An operation whose written buffers are the one buffer of the `i`-th reference of a list writes inside the list. -/
theorem writes_sub_at {op : HloOp τ' sig' Val} (W : List (Ref sig' .tc)) (i : Nat) {y : Ref sig' .tc}
    (hy : W[i]? = some y) (hw : op.writes = {Proc.devRef .tc y}) :
    op.writes ⊆ ((W.map (Proc.devRef (τ := τ') .tc)).toFinset : Finset (DevRef τ' sig')) := by
  rw [hw, Finset.singleton_subset_iff, List.mem_toFinset]
  exact List.mem_map_of_mem (List.mem_of_getElem? hy)

/-- Writing inside a list is writing inside any list that holds it. -/
theorem writes_sub_mono {W W' : List (Ref sig' .tc)} (hWW : W ⊆ W') {l : List (HloOp τ' sig' Val)}
    (h : l.Forall fun op => op.writes ⊆ ((W.map (Proc.devRef (τ := τ') .tc)).toFinset : Finset (DevRef τ' sig'))) :
    l.Forall fun op => op.writes ⊆ ((W'.map (Proc.devRef (τ := τ') .tc)).toFinset : Finset (DevRef τ' sig')) :=
  h.imp fun op hop b hb => by
    have hb' := hop hb
    rw [List.mem_toFinset] at hb' ⊢
    obtain ⟨y, hy, rfl⟩ := List.mem_map.1 hb'
    exact List.mem_map_of_mem (hWW hy)

/-- Two lines one after the other write inside their two lists appended. -/
theorem writes_sub_append {W₁ W₂ : List (Ref sig' .tc)} {l₁ l₂ : List (HloOp τ' sig' Val)}
    (h₁ : l₁.Forall fun op => op.writes ⊆ ((W₁.map (Proc.devRef (τ := τ') .tc)).toFinset : Finset (DevRef τ' sig')))
    (h₂ : l₂.Forall fun op => op.writes ⊆ ((W₂.map (Proc.devRef (τ := τ') .tc)).toFinset : Finset (DevRef τ' sig'))) :
    (l₁ ++ l₂).Forall fun op => op.writes ⊆ (((W₁ ++ W₂).map (Proc.devRef (τ := τ') .tc)).toFinset : Finset (DevRef τ' sig')) :=
  List.forall_append.2 ⟨writes_sub_mono (List.subset_append_left _ _) h₁, writes_sub_mono (List.subset_append_right _ _) h₂⟩

end Cert.ReferenceIdeal.RefRun
-- ==== Proof.RefRun0.lean ====
import proofs.«117235_j17583596110491_1_alg».proof.Proof.Gen.ReferenceIdeal
import proofs.«117235_j17583596110491_1_alg».proof.Proof.RefRunBase

/-! # The reference program's statements 1 … 60 as a list of operations

`main_part0` is a straight line of StableHLO operations: its own, and at each call of a module-local function the
callee's operations over that call's buffer record (a call is the callee's body applied, so unfolding the body is the
inlining). `ops0` lists the 83 operations in program order; `main_part0_eq` says the window is `seq ops0`;
`ops0_sub` that every operation touches TensorCore references only; `ops0_writes` that every operation writes a
reference of the list `W0` (the result references, in program order); `ops0_fresh` that every operation determines
its results. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 83 operations, in order. -/
abbrev ops0 : List (HloOp τ sig (Elt F)) :=
  [ StableHlo.unary main_arg1 main_v0 ((extractStridedSlice S1x1440000 ![0, 0] · slices_S2x1440000_S1x1440000_0_0) : (⟨S2x1440000, .i32⟩ : BufTy).Contents (Elt F) → (⟨S1x1440000, .i32⟩ : BufTy).Contents (Elt F)),
    StableHlo.reshape main_v0 main_v1 rfl shapeCasts_S1x1440000_S1440000,
    StableHlo.unary main_arg1 main_v2 ((extractStridedSlice S1x1440000 ![1, 0] · slices_S2x1440000_S1x1440000_1_0) : (⟨S2x1440000, .i32⟩ : BufTy).Contents (Elt F) → (⟨S1x1440000, .i32⟩ : BufTy).Contents (Elt F)),
    StableHlo.reshape main_v2 main_v3 rfl shapeCasts_S1x1440000_S1440000,
    StableHlo.unary main_arg6 main_v4 ((extractStridedSlice S1x128x256 ![0, 0, 0] · slices_S4x128x256_S1x128x256_0_0_0) : (⟨S4x128x256, .f32⟩ : BufTy).Contents (Elt F) → (⟨S1x128x256, .f32⟩ : BufTy).Contents (Elt F)),
    StableHlo.reshape main_v4 main_v5 rfl shapeCasts_S1x128x256_S128x256,
    StableHlo.unary main_arg7 main_v6 ((extractStridedSlice S1x256 ![0, 0] · slices_S4x256_S1x256_0_0) : (⟨S4x256, .f32⟩ : BufTy).Contents (Elt F) → (⟨S1x256, .f32⟩ : BufTy).Contents (Elt F)),
    StableHlo.reshape main_v6 main_v7 rfl shapeCasts_S1x256_S256,
    StableHlo.unary main_arg8 main_v8 ((extractStridedSlice S1x256 ![0, 0] · slices_S4x256_S1x256_0_0) : (⟨S4x256, .f32⟩ : BufTy).Contents (Elt F) → (⟨S1x256, .f32⟩ : BufTy).Contents (Elt F)),
    StableHlo.reshape main_v8 main_v9 rfl shapeCasts_S1x256_S256,
    StableHlo.unary main_arg9 main_v10 ((extractStridedSlice S1x256 ![0, 0] · slices_S4x256_S1x256_0_0) : (⟨S4x256, .f32⟩ : BufTy).Contents (Elt F) → (⟨S1x256, .f32⟩ : BufTy).Contents (Elt F)),
    StableHlo.reshape main_v10 main_v11 rfl shapeCasts_S1x256_S256,
    StableHlo.unary main_arg10 main_v12 ((extractStridedSlice S1x256x128 ![0, 0, 0] · slices_S4x256x128_S1x256x128_0_0_0) : (⟨S4x256x128, .f32⟩ : BufTy).Contents (Elt F) → (⟨S1x256x128, .f32⟩ : BufTy).Contents (Elt F)),
    StableHlo.reshape main_v12 main_v13 rfl shapeCasts_S1x256x128_S256x128,
    StableHlo.unary main_arg11 main_v14 ((extractStridedSlice S1x128 ![0, 0] · slices_S4x128_S1x128_0_0) : (⟨S4x128, .f32⟩ : BufTy).Contents (Elt F) → (⟨S1x128, .f32⟩ : BufTy).Contents (Elt F)),
    StableHlo.reshape main_v14 main_v15 rfl shapeCasts_S1x128_S128,
    StableHlo.nullary main_c (constantI S_ 32 0#32),
    StableHlo.unary main_c main_v16 (broadcastInDim S1440000 ![] bcast_S_S1440000 : (⟨S_, .i32⟩ : BufTy).Contents (Elt F) → (⟨S1440000, .i32⟩ : BufTy).Contents (Elt F)),
    StableHlo.binary main_v1 main_v16 main_v17 (cmpi .slt : (⟨S1440000, .i32⟩ : BufTy).Contents (Elt F) → (⟨S1440000, .i32⟩ : BufTy).Contents (Elt F) → (⟨S1440000, .i1⟩ : BufTy).Contents (Elt F)),
    StableHlo.nullary main_c_0 (constantI S_ 32 90000#32),
    StableHlo.unary main_c_0 main_v18 (broadcastInDim S1440000 ![] bcast_S_S1440000 : (⟨S_, .i32⟩ : BufTy).Contents (Elt F) → (⟨S1440000, .i32⟩ : BufTy).Contents (Elt F)),
    StableHlo.binary main_v1 main_v18 main_v19 (addi : (⟨S1440000, .i32⟩ : BufTy).Contents (Elt F) → (⟨S1440000, .i32⟩ : BufTy).Contents (Elt F) → (⟨S1440000, .i32⟩ : BufTy).Contents (Elt F)),
    StableHlo.ternary main_v17 main_v19 main_v1 main_v20 (select : (⟨S1440000, .i1⟩ : BufTy).Contents (Elt F) → (⟨S1440000, .i32⟩ : BufTy).Contents (Elt F) → (⟨S1440000, .i32⟩ : BufTy).Contents (Elt F) → (⟨S1440000, .i32⟩ : BufTy).Contents (Elt F)),
    StableHlo.unary main_v20 main_v21 (broadcastInDim S1440000x1 ![0] bcast_S1440000_S1440000x1_0 : (⟨S1440000, .i32⟩ : BufTy).Contents (Elt F) → (⟨S1440000x1, .i32⟩ : BufTy).Contents (Elt F)),
    StableHlo.binary main_arg0 main_v21 main_v22 ((fun x i => Host.gather gather_S90000x128_S1440000x1_S1440000x128_1_0_n_n_0_1_1128 x i) : (⟨S90000x128, .f32⟩ : BufTy).Contents (Elt F) → (⟨S1440000x1, .i32⟩ : BufTy).Contents (Elt F) → (⟨S1440000x128, .f32⟩ : BufTy).Contents (Elt F)),
    StableHlo.nullary main_cst (constant S_ .f32 0x00000000#32),
    StableHlo.unary main_cst main_v23 (broadcastInDim S90000x128 ![] bcast_S_S90000x128 : (⟨S_, .f32⟩ : BufTy).Contents (Elt F) → (⟨S90000x128, .f32⟩ : BufTy).Contents (Elt F)),
    StableHlo.unary main_v3 main_v24 (broadcastInDim S1440000x1 ![0] bcast_S1440000_S1440000x1_0 : (⟨S1440000, .i32⟩ : BufTy).Contents (Elt F) → (⟨S1440000x1, .i32⟩ : BufTy).Contents (Elt F)),
    StableHlo.ternary main_v23 main_v24 main_v22 main_v25 ((fun x i u => Host.scatterAdd scatter_S90000x128_S1440000x1_S1440000x128_1_0_0_1 x i u) : (⟨S90000x128, .f32⟩ : BufTy).Contents (Elt F) → (⟨S1440000x1, .i32⟩ : BufTy).Contents (Elt F) → (⟨S1440000x128, .f32⟩ : BufTy).Contents (Elt F) → (⟨S90000x128, .f32⟩ : BufTy).Contents (Elt F)),
    StableHlo.binary main_arg0 main_v25 main_v26 (addf : (⟨S90000x128, .f32⟩ : BufTy).Contents (Elt F) → (⟨S90000x128, .f32⟩ : BufTy).Contents (Elt F) → (⟨S90000x128, .f32⟩ : BufTy).Contents (Elt F)),
    StableHlo.binary main_v26 main_v5 main_v27 ((fun l r => Host.dotGeneral dot_S90000x128_S128x256_S90000x256_1_0_0_1_n_n none l r) : (⟨S90000x128, .f32⟩ : BufTy).Contents (Elt F) → (⟨S128x256, .f32⟩ : BufTy).Contents (Elt F) → (⟨S90000x256, .f32⟩ : BufTy).Contents (Elt F)),
    StableHlo.unary main_v7 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S90000x256 ![0, 1] bcast_S1x256_S90000x256_0_1 : (⟨S1x256, .f32⟩ : BufTy).Contents (Elt F) → (⟨S90000x256, .f32⟩ : BufTy).Contents (Elt F)),
    StableHlo.binary main_v27 main_v29 main_v30 (addf : (⟨S90000x256, .f32⟩ : BufTy).Contents (Elt F) → (⟨S90000x256, .f32⟩ : BufTy).Contents (Elt F) → (⟨S90000x256, .f32⟩ : BufTy).Contents (Elt F)),
    StableHlo.nullary main_cst_1 (constant S_ .f32 0x00000000#32),
    StableHlo.binary main_v30 main_cst_1 main_v31 ((fun x v => Host.reduceAdd x v reducesTo_S90000x256_S256_d0 h_S_) : (⟨S90000x256, .f32⟩ : BufTy).Contents (Elt F) → (⟨S_, .f32⟩ : BufTy).Contents (Elt F) → (⟨S256, .f32⟩ : BufTy).Contents (Elt F)),
    StableHlo.nullary main_cst_2 (constant S_ .f32 0x47AFC800#32),
    StableHlo.unary main_cst_2 main_v32 (broadcastInDim S256 ![] bcast_S_S256 : (⟨S_, .f32⟩ : BufTy).Contents (Elt F) → (⟨S256, .f32⟩ : BufTy).Contents (Elt F)),
    StableHlo.binary main_v31 main_v32 main_v33 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v30 : StableHlo.TRef sig ⟨S90000x256, .f32⟩) main_call0.cst main_call0.v0 (fun x v => Host.reduceAdd x v reducesTo_S90000x256_S256_d0 h_S_),
    StableHlo.TRef.unary main_call0.v0 main_call0.v1 (broadcastInDim S1x256 ![1] bcast_S256_S1x256_1),
    StableHlo.TRef.nullary main_call0.cst_0 (constant S_ .f32 0x47AFC800#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S90000x256 ![0, 1] bcast_S1x256_S90000x256_0_1),
    StableHlo.TRef.binary (.of main_v30 : StableHlo.TRef sig ⟨S90000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47AFC800#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S90000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v33 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S90000x256 ![0, 1] bcast_S1x256_S90000x256_0_1 : (⟨S1x256, .f32⟩ : BufTy).Contents (Elt F) → (⟨S90000x256, .f32⟩ : BufTy).Contents (Elt F)),
    StableHlo.binary main_v30 main_v36 main_v37 (subf : (⟨S90000x256, .f32⟩ : BufTy).Contents (Elt F) → (⟨S90000x256, .f32⟩ : BufTy).Contents (Elt F) → (⟨S90000x256, .f32⟩ : BufTy).Contents (Elt F)),
    StableHlo.nullary main_cst_4 (constant S_ .f32 0x3727C5AC#32),
    StableHlo.unary main_cst_4 main_v38 (broadcastInDim S256 ![] bcast_S_S256 : (⟨S_, .f32⟩ : BufTy).Contents (Elt F) → (⟨S256, .f32⟩ : BufTy).Contents (Elt F)),
    StableHlo.binary main_v34 main_v38 main_v39 (addf : (⟨S256, .f32⟩ : BufTy).Contents (Elt F) → (⟨S256, .f32⟩ : BufTy).Contents (Elt F) → (⟨S256, .f32⟩ : BufTy).Contents (Elt F)),
    StableHlo.unary main_v39 main_v40 (Host.rsqrt : (⟨S256, .f32⟩ : BufTy).Contents (Elt F) → (⟨S256, .f32⟩ : BufTy).Contents (Elt F)),
    StableHlo.unary main_v40 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S90000x256 ![0, 1] bcast_S1x256_S90000x256_0_1 : (⟨S1x256, .f32⟩ : BufTy).Contents (Elt F) → (⟨S90000x256, .f32⟩ : BufTy).Contents (Elt F)),
    StableHlo.binary main_v37 main_v42 main_v43 (mulf : (⟨S90000x256, .f32⟩ : BufTy).Contents (Elt F) → (⟨S90000x256, .f32⟩ : BufTy).Contents (Elt F) → (⟨S90000x256, .f32⟩ : BufTy).Contents (Elt F)),
    StableHlo.unary main_v9 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S90000x256 ![0, 1] bcast_S1x256_S90000x256_0_1 : (⟨S1x256, .f32⟩ : BufTy).Contents (Elt F) → (⟨S90000x256, .f32⟩ : BufTy).Contents (Elt F)),
    StableHlo.binary main_v43 main_v45 main_v46 (mulf : (⟨S90000x256, .f32⟩ : BufTy).Contents (Elt F) → (⟨S90000x256, .f32⟩ : BufTy).Contents (Elt F) → (⟨S90000x256, .f32⟩ : BufTy).Contents (Elt F)),
    StableHlo.unary main_v11 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S90000x256 ![0, 1] bcast_S1x256_S90000x256_0_1 : (⟨S1x256, .f32⟩ : BufTy).Contents (Elt F) → (⟨S90000x256, .f32⟩ : BufTy).Contents (Elt F)),
    StableHlo.binary main_v46 main_v48 main_v49 (addf : (⟨S90000x256, .f32⟩ : BufTy).Contents (Elt F) → (⟨S90000x256, .f32⟩ : BufTy).Contents (Elt F) → (⟨S90000x256, .f32⟩ : BufTy).Contents (Elt F)),
    StableHlo.TRef.nullary main_call1.cst (constant S_ .f32 0x00000000#32),
    StableHlo.TRef.unary main_call1.cst main_call1.v0 (broadcastInDim S90000x256 ![] bcast_S_S90000x256),
    StableHlo.TRef.binary (.of main_v49 : StableHlo.TRef sig ⟨S90000x256, .f32⟩) main_call1.v0 main_call1.v1 maximumf,
    StableHlo.binary main_v50 main_v13 main_v51 ((fun l r => Host.dotGeneral dot_S90000x256_S256x128_S90000x128_1_0_0_1_n_n none l r) : (⟨S90000x256, .f32⟩ : BufTy).Contents (Elt F) → (⟨S256x128, .f32⟩ : BufTy).Contents (Elt F) → (⟨S90000x128, .f32⟩ : BufTy).Contents (Elt F)),
    StableHlo.unary main_v15 main_v52 (broadcastInDim S1x128 ![1] bcast_S128_S1x128_1 : (⟨S128, .f32⟩ : BufTy).Contents (Elt F) → (⟨S1x128, .f32⟩ : BufTy).Contents (Elt F)) ]

/-- The references the window's operations write, in order. -/
abbrev W0 : List (Ref sig .tc) :=
  [ main_v0, main_v1, main_v2, main_v3, main_v4, main_v5, main_v6, main_v7,
    main_v8, main_v9, main_v10, main_v11, main_v12, main_v13, main_v14, main_v15,
    main_c, main_v16, main_v17, main_c_0, main_v18, main_v19, main_v20, main_v21,
    main_v22, main_cst, main_v23, main_v24, main_v25, main_v26, main_v27, main_v28,
    main_v29, main_v30, main_cst_1, main_v31, main_cst_2, main_v32, main_v33, main_c_3,
    main_call0.cst.ref, main_call0.v0.ref, main_call0.v1.ref, main_call0.cst_0.ref, main_call0.v2.ref, main_call0.v3.ref, main_call0.v4.ref, main_call0.v5.ref,
    main_call0.v6.ref, main_call0.v7.ref, main_call0.cst_1.ref, main_call0.v8.ref, main_call0.cst_2.ref, main_call0.v9.ref, main_call0.v10.ref, main_call0.v11.ref,
    main_call0.cst_3.ref, main_call0.v12.ref, main_call0.cst_4.ref, main_call0.call0.v0.ref, main_call0.call0.v1.ref, main_call0.call0.v2.ref, main_v35, main_v36,
    main_v37, main_cst_4, main_v38, main_v39, main_v40, main_v41, main_v42, main_v43,
    main_v44, main_v45, main_v46, main_v47, main_v48, main_v49, main_call1.cst.ref, main_call1.v0.ref,
    main_call1.v1.ref, main_v51, main_v52 ]

set_option maxRecDepth 65536 in
/-- The window is that straight line: the functions' bodies unfolded at their calls and the records at their fields, both
    sides are one chain of `hlo` steps once sequencing is reassociated. -/
theorem main_part0_eq (c : Dev nD) : main_part0 (F := F) c = seq ops0 := by
  simp only [main_part0, fn_var.body, fn_where.body, fn_relu.body, seq, bind_assoc, pure_bind] <;> rfl

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub ..⟩

theorem ops0_writes : (ops0 : List (HloOp τ sig (Elt F))).Forall fun op =>
    op.writes ⊆ ((W0.map (Proc.devRef (τ := τ) .tc)).toFinset : Finset (DevRef τ sig)) :=
  ⟨writes_sub_at W0 0 rfl rfl, writes_sub_at W0 1 rfl rfl, writes_sub_at W0 2 rfl rfl, writes_sub_at W0 3 rfl rfl, writes_sub_at W0 4 rfl rfl, writes_sub_at W0 5 rfl rfl,
    writes_sub_at W0 6 rfl rfl, writes_sub_at W0 7 rfl rfl, writes_sub_at W0 8 rfl rfl, writes_sub_at W0 9 rfl rfl, writes_sub_at W0 10 rfl rfl, writes_sub_at W0 11 rfl rfl,
    writes_sub_at W0 12 rfl rfl, writes_sub_at W0 13 rfl rfl, writes_sub_at W0 14 rfl rfl, writes_sub_at W0 15 rfl rfl, writes_sub_at W0 16 rfl rfl, writes_sub_at W0 17 rfl rfl,
    writes_sub_at W0 18 rfl rfl, writes_sub_at W0 19 rfl rfl, writes_sub_at W0 20 rfl rfl, writes_sub_at W0 21 rfl rfl, writes_sub_at W0 22 rfl rfl, writes_sub_at W0 23 rfl rfl,
    writes_sub_at W0 24 rfl rfl, writes_sub_at W0 25 rfl rfl, writes_sub_at W0 26 rfl rfl, writes_sub_at W0 27 rfl rfl, writes_sub_at W0 28 rfl rfl, writes_sub_at W0 29 rfl rfl,
    writes_sub_at W0 30 rfl rfl, writes_sub_at W0 31 rfl rfl, writes_sub_at W0 32 rfl rfl, writes_sub_at W0 33 rfl rfl, writes_sub_at W0 34 rfl rfl, writes_sub_at W0 35 rfl rfl,
    writes_sub_at W0 36 rfl rfl, writes_sub_at W0 37 rfl rfl, writes_sub_at W0 38 rfl rfl, writes_sub_at W0 39 rfl rfl, writes_sub_at W0 40 rfl rfl, writes_sub_at W0 41 rfl rfl,
    writes_sub_at W0 42 rfl rfl, writes_sub_at W0 43 rfl rfl, writes_sub_at W0 44 rfl rfl, writes_sub_at W0 45 rfl rfl, writes_sub_at W0 46 rfl rfl, writes_sub_at W0 47 rfl rfl,
    writes_sub_at W0 48 rfl rfl, writes_sub_at W0 49 rfl rfl, writes_sub_at W0 50 rfl rfl, writes_sub_at W0 51 rfl rfl, writes_sub_at W0 52 rfl rfl, writes_sub_at W0 53 rfl rfl,
    writes_sub_at W0 54 rfl rfl, writes_sub_at W0 55 rfl rfl, writes_sub_at W0 56 rfl rfl, writes_sub_at W0 57 rfl rfl, writes_sub_at W0 58 rfl rfl, writes_sub_at W0 59 rfl rfl,
    writes_sub_at W0 60 rfl rfl, writes_sub_at W0 61 rfl rfl, writes_sub_at W0 62 rfl rfl, writes_sub_at W0 63 rfl rfl, writes_sub_at W0 64 rfl rfl, writes_sub_at W0 65 rfl rfl,
    writes_sub_at W0 66 rfl rfl, writes_sub_at W0 67 rfl rfl, writes_sub_at W0 68 rfl rfl, writes_sub_at W0 69 rfl rfl, writes_sub_at W0 70 rfl rfl, writes_sub_at W0 71 rfl rfl,
    writes_sub_at W0 72 rfl rfl, writes_sub_at W0 73 rfl rfl, writes_sub_at W0 74 rfl rfl, writes_sub_at W0 75 rfl rfl, writes_sub_at W0 76 rfl rfl, writes_sub_at W0 77 rfl rfl,
    writes_sub_at W0 78 rfl rfl, writes_sub_at W0 79 rfl rfl, writes_sub_at W0 80 rfl rfl, writes_sub_at W0 81 rfl rfl, writes_sub_at W0 82 rfl rfl⟩

/-- Every operation of the window determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

end Cert.ReferenceIdeal.RefRun

end
-- ==== Proof.RefRun1.lean ====
import proofs.«117235_j17583596110491_1_alg».proof.Proof.Gen.ReferenceIdeal
import proofs.«117235_j17583596110491_1_alg».proof.Proof.RefRunBase

/-! # The reference program's statements 61 … 120 as a list of operations

`main_part1` is a straight line of StableHLO operations: its own, and at each call of a module-local function the
callee's operations over that call's buffer record (a call is the callee's body applied, so unfolding the body is the
inlining). `ops1` lists the 83 operations in program order; `main_part1_eq` says the window is `seq ops1`;
`ops1_sub` that every operation touches TensorCore references only; `ops1_writes` that every operation writes a
reference of the list `W1` (the result references, in program order); `ops1_fresh` that every operation determines
its results. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 83 operations, in order. -/
abbrev ops1 : List (HloOp τ sig (Elt F)) :=
  [ StableHlo.unary main_v52 main_v53 (broadcastInDim S90000x128 ![0, 1] bcast_S1x128_S90000x128_0_1 : (⟨S1x128, .f32⟩ : BufTy).Contents (Elt F) → (⟨S90000x128, .f32⟩ : BufTy).Contents (Elt F)),
    StableHlo.binary main_v51 main_v53 main_v54 (addf : (⟨S90000x128, .f32⟩ : BufTy).Contents (Elt F) → (⟨S90000x128, .f32⟩ : BufTy).Contents (Elt F) → (⟨S90000x128, .f32⟩ : BufTy).Contents (Elt F)),
    StableHlo.unary main_arg6 main_v55 ((extractStridedSlice S1x128x256 ![1, 0, 0] · slices_S4x128x256_S1x128x256_1_0_0) : (⟨S4x128x256, .f32⟩ : BufTy).Contents (Elt F) → (⟨S1x128x256, .f32⟩ : BufTy).Contents (Elt F)),
    StableHlo.reshape main_v55 main_v56 rfl shapeCasts_S1x128x256_S128x256,
    StableHlo.unary main_arg7 main_v57 ((extractStridedSlice S1x256 ![1, 0] · slices_S4x256_S1x256_1_0) : (⟨S4x256, .f32⟩ : BufTy).Contents (Elt F) → (⟨S1x256, .f32⟩ : BufTy).Contents (Elt F)),
    StableHlo.reshape main_v57 main_v58 rfl shapeCasts_S1x256_S256,
    StableHlo.unary main_arg8 main_v59 ((extractStridedSlice S1x256 ![1, 0] · slices_S4x256_S1x256_1_0) : (⟨S4x256, .f32⟩ : BufTy).Contents (Elt F) → (⟨S1x256, .f32⟩ : BufTy).Contents (Elt F)),
    StableHlo.reshape main_v59 main_v60 rfl shapeCasts_S1x256_S256,
    StableHlo.unary main_arg9 main_v61 ((extractStridedSlice S1x256 ![1, 0] · slices_S4x256_S1x256_1_0) : (⟨S4x256, .f32⟩ : BufTy).Contents (Elt F) → (⟨S1x256, .f32⟩ : BufTy).Contents (Elt F)),
    StableHlo.reshape main_v61 main_v62 rfl shapeCasts_S1x256_S256,
    StableHlo.unary main_arg10 main_v63 ((extractStridedSlice S1x256x128 ![1, 0, 0] · slices_S4x256x128_S1x256x128_1_0_0) : (⟨S4x256x128, .f32⟩ : BufTy).Contents (Elt F) → (⟨S1x256x128, .f32⟩ : BufTy).Contents (Elt F)),
    StableHlo.reshape main_v63 main_v64 rfl shapeCasts_S1x256x128_S256x128,
    StableHlo.unary main_arg11 main_v65 ((extractStridedSlice S1x128 ![1, 0] · slices_S4x128_S1x128_1_0) : (⟨S4x128, .f32⟩ : BufTy).Contents (Elt F) → (⟨S1x128, .f32⟩ : BufTy).Contents (Elt F)),
    StableHlo.reshape main_v65 main_v66 rfl shapeCasts_S1x128_S128,
    StableHlo.nullary main_c_5 (constantI S_ 32 0#32),
    StableHlo.unary main_c_5 main_v67 (broadcastInDim S1440000 ![] bcast_S_S1440000 : (⟨S_, .i32⟩ : BufTy).Contents (Elt F) → (⟨S1440000, .i32⟩ : BufTy).Contents (Elt F)),
    StableHlo.binary main_v1 main_v67 main_v68 (cmpi .slt : (⟨S1440000, .i32⟩ : BufTy).Contents (Elt F) → (⟨S1440000, .i32⟩ : BufTy).Contents (Elt F) → (⟨S1440000, .i1⟩ : BufTy).Contents (Elt F)),
    StableHlo.nullary main_c_6 (constantI S_ 32 90000#32),
    StableHlo.unary main_c_6 main_v69 (broadcastInDim S1440000 ![] bcast_S_S1440000 : (⟨S_, .i32⟩ : BufTy).Contents (Elt F) → (⟨S1440000, .i32⟩ : BufTy).Contents (Elt F)),
    StableHlo.binary main_v1 main_v69 main_v70 (addi : (⟨S1440000, .i32⟩ : BufTy).Contents (Elt F) → (⟨S1440000, .i32⟩ : BufTy).Contents (Elt F) → (⟨S1440000, .i32⟩ : BufTy).Contents (Elt F)),
    StableHlo.ternary main_v68 main_v70 main_v1 main_v71 (select : (⟨S1440000, .i1⟩ : BufTy).Contents (Elt F) → (⟨S1440000, .i32⟩ : BufTy).Contents (Elt F) → (⟨S1440000, .i32⟩ : BufTy).Contents (Elt F) → (⟨S1440000, .i32⟩ : BufTy).Contents (Elt F)),
    StableHlo.unary main_v71 main_v72 (broadcastInDim S1440000x1 ![0] bcast_S1440000_S1440000x1_0 : (⟨S1440000, .i32⟩ : BufTy).Contents (Elt F) → (⟨S1440000x1, .i32⟩ : BufTy).Contents (Elt F)),
    StableHlo.binary main_v54 main_v72 main_v73 ((fun x i => Host.gather gather_S90000x128_S1440000x1_S1440000x128_1_0_n_n_0_1_1128 x i) : (⟨S90000x128, .f32⟩ : BufTy).Contents (Elt F) → (⟨S1440000x1, .i32⟩ : BufTy).Contents (Elt F) → (⟨S1440000x128, .f32⟩ : BufTy).Contents (Elt F)),
    StableHlo.nullary main_cst_7 (constant S_ .f32 0x00000000#32),
    StableHlo.unary main_cst_7 main_v74 (broadcastInDim S90000x128 ![] bcast_S_S90000x128 : (⟨S_, .f32⟩ : BufTy).Contents (Elt F) → (⟨S90000x128, .f32⟩ : BufTy).Contents (Elt F)),
    StableHlo.unary main_v3 main_v75 (broadcastInDim S1440000x1 ![0] bcast_S1440000_S1440000x1_0 : (⟨S1440000, .i32⟩ : BufTy).Contents (Elt F) → (⟨S1440000x1, .i32⟩ : BufTy).Contents (Elt F)),
    StableHlo.ternary main_v74 main_v75 main_v73 main_v76 ((fun x i u => Host.scatterAdd scatter_S90000x128_S1440000x1_S1440000x128_1_0_0_1 x i u) : (⟨S90000x128, .f32⟩ : BufTy).Contents (Elt F) → (⟨S1440000x1, .i32⟩ : BufTy).Contents (Elt F) → (⟨S1440000x128, .f32⟩ : BufTy).Contents (Elt F) → (⟨S90000x128, .f32⟩ : BufTy).Contents (Elt F)),
    StableHlo.binary main_v54 main_v76 main_v77 (addf : (⟨S90000x128, .f32⟩ : BufTy).Contents (Elt F) → (⟨S90000x128, .f32⟩ : BufTy).Contents (Elt F) → (⟨S90000x128, .f32⟩ : BufTy).Contents (Elt F)),
    StableHlo.binary main_v77 main_v56 main_v78 ((fun l r => Host.dotGeneral dot_S90000x128_S128x256_S90000x256_1_0_0_1_n_n none l r) : (⟨S90000x128, .f32⟩ : BufTy).Contents (Elt F) → (⟨S128x256, .f32⟩ : BufTy).Contents (Elt F) → (⟨S90000x256, .f32⟩ : BufTy).Contents (Elt F)),
    StableHlo.unary main_v58 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S90000x256 ![0, 1] bcast_S1x256_S90000x256_0_1 : (⟨S1x256, .f32⟩ : BufTy).Contents (Elt F) → (⟨S90000x256, .f32⟩ : BufTy).Contents (Elt F)),
    StableHlo.binary main_v78 main_v80 main_v81 (addf : (⟨S90000x256, .f32⟩ : BufTy).Contents (Elt F) → (⟨S90000x256, .f32⟩ : BufTy).Contents (Elt F) → (⟨S90000x256, .f32⟩ : BufTy).Contents (Elt F)),
    StableHlo.nullary main_cst_8 (constant S_ .f32 0x00000000#32),
    StableHlo.binary main_v81 main_cst_8 main_v82 ((fun x v => Host.reduceAdd x v reducesTo_S90000x256_S256_d0 h_S_) : (⟨S90000x256, .f32⟩ : BufTy).Contents (Elt F) → (⟨S_, .f32⟩ : BufTy).Contents (Elt F) → (⟨S256, .f32⟩ : BufTy).Contents (Elt F)),
    StableHlo.nullary main_cst_9 (constant S_ .f32 0x47AFC800#32),
    StableHlo.unary main_cst_9 main_v83 (broadcastInDim S256 ![] bcast_S_S256 : (⟨S_, .f32⟩ : BufTy).Contents (Elt F) → (⟨S256, .f32⟩ : BufTy).Contents (Elt F)),
    StableHlo.binary main_v82 main_v83 main_v84 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32),
    StableHlo.TRef.nullary main_call2.cst (constant S_ .f32 0x00000000#32),
    StableHlo.TRef.binary (.of main_v81 : StableHlo.TRef sig ⟨S90000x256, .f32⟩) main_call2.cst main_call2.v0 (fun x v => Host.reduceAdd x v reducesTo_S90000x256_S256_d0 h_S_),
    StableHlo.TRef.unary main_call2.v0 main_call2.v1 (broadcastInDim S1x256 ![1] bcast_S256_S1x256_1),
    StableHlo.TRef.nullary main_call2.cst_0 (constant S_ .f32 0x47AFC800#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S90000x256 ![0, 1] bcast_S1x256_S90000x256_0_1),
    StableHlo.TRef.binary (.of main_v81 : StableHlo.TRef sig ⟨S90000x256, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47AFC800#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S90000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v84 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S90000x256 ![0, 1] bcast_S1x256_S90000x256_0_1 : (⟨S1x256, .f32⟩ : BufTy).Contents (Elt F) → (⟨S90000x256, .f32⟩ : BufTy).Contents (Elt F)),
    StableHlo.binary main_v81 main_v87 main_v88 (subf : (⟨S90000x256, .f32⟩ : BufTy).Contents (Elt F) → (⟨S90000x256, .f32⟩ : BufTy).Contents (Elt F) → (⟨S90000x256, .f32⟩ : BufTy).Contents (Elt F)),
    StableHlo.nullary main_cst_11 (constant S_ .f32 0x3727C5AC#32),
    StableHlo.unary main_cst_11 main_v89 (broadcastInDim S256 ![] bcast_S_S256 : (⟨S_, .f32⟩ : BufTy).Contents (Elt F) → (⟨S256, .f32⟩ : BufTy).Contents (Elt F)),
    StableHlo.binary main_v85 main_v89 main_v90 (addf : (⟨S256, .f32⟩ : BufTy).Contents (Elt F) → (⟨S256, .f32⟩ : BufTy).Contents (Elt F) → (⟨S256, .f32⟩ : BufTy).Contents (Elt F)),
    StableHlo.unary main_v90 main_v91 (Host.rsqrt : (⟨S256, .f32⟩ : BufTy).Contents (Elt F) → (⟨S256, .f32⟩ : BufTy).Contents (Elt F)),
    StableHlo.unary main_v91 main_v92 (broadcastInDim S1x256 ![1] bcast_S256_S1x256_1 : (⟨S256, .f32⟩ : BufTy).Contents (Elt F) → (⟨S1x256, .f32⟩ : BufTy).Contents (Elt F)),
    StableHlo.unary main_v92 main_v93 (broadcastInDim S90000x256 ![0, 1] bcast_S1x256_S90000x256_0_1 : (⟨S1x256, .f32⟩ : BufTy).Contents (Elt F) → (⟨S90000x256, .f32⟩ : BufTy).Contents (Elt F)),
    StableHlo.binary main_v88 main_v93 main_v94 (mulf : (⟨S90000x256, .f32⟩ : BufTy).Contents (Elt F) → (⟨S90000x256, .f32⟩ : BufTy).Contents (Elt F) → (⟨S90000x256, .f32⟩ : BufTy).Contents (Elt F)),
    StableHlo.unary main_v60 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S90000x256 ![0, 1] bcast_S1x256_S90000x256_0_1 : (⟨S1x256, .f32⟩ : BufTy).Contents (Elt F) → (⟨S90000x256, .f32⟩ : BufTy).Contents (Elt F)),
    StableHlo.binary main_v94 main_v96 main_v97 (mulf : (⟨S90000x256, .f32⟩ : BufTy).Contents (Elt F) → (⟨S90000x256, .f32⟩ : BufTy).Contents (Elt F) → (⟨S90000x256, .f32⟩ : BufTy).Contents (Elt F)),
    StableHlo.unary main_v62 main_v98 (broadcastInDim S1x256 ![1] bcast_S256_S1x256_1 : (⟨S256, .f32⟩ : BufTy).Contents (Elt F) → (⟨S1x256, .f32⟩ : BufTy).Contents (Elt F)),
    StableHlo.unary main_v98 main_v99 (broadcastInDim S90000x256 ![0, 1] bcast_S1x256_S90000x256_0_1 : (⟨S1x256, .f32⟩ : BufTy).Contents (Elt F) → (⟨S90000x256, .f32⟩ : BufTy).Contents (Elt F)),
    StableHlo.binary main_v97 main_v99 main_v100 (addf : (⟨S90000x256, .f32⟩ : BufTy).Contents (Elt F) → (⟨S90000x256, .f32⟩ : BufTy).Contents (Elt F) → (⟨S90000x256, .f32⟩ : BufTy).Contents (Elt F)),
    StableHlo.TRef.nullary main_call3.cst (constant S_ .f32 0x00000000#32),
    StableHlo.TRef.unary main_call3.cst main_call3.v0 (broadcastInDim S90000x256 ![] bcast_S_S90000x256),
    StableHlo.TRef.binary (.of main_v100 : StableHlo.TRef sig ⟨S90000x256, .f32⟩) main_call3.v0 main_call3.v1 maximumf,
    StableHlo.binary main_v101 main_v64 main_v102 ((fun l r => Host.dotGeneral dot_S90000x256_S256x128_S90000x128_1_0_0_1_n_n none l r) : (⟨S90000x256, .f32⟩ : BufTy).Contents (Elt F) → (⟨S256x128, .f32⟩ : BufTy).Contents (Elt F) → (⟨S90000x128, .f32⟩ : BufTy).Contents (Elt F)),
    StableHlo.unary main_v66 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S90000x128 ![0, 1] bcast_S1x128_S90000x128_0_1 : (⟨S1x128, .f32⟩ : BufTy).Contents (Elt F) → (⟨S90000x128, .f32⟩ : BufTy).Contents (Elt F)),
    StableHlo.binary main_v102 main_v104 main_v105 (addf : (⟨S90000x128, .f32⟩ : BufTy).Contents (Elt F) → (⟨S90000x128, .f32⟩ : BufTy).Contents (Elt F) → (⟨S90000x128, .f32⟩ : BufTy).Contents (Elt F)) ]

/-- The references the window's operations write, in order. -/
abbrev W1 : List (Ref sig .tc) :=
  [ main_v53, main_v54, main_v55, main_v56, main_v57, main_v58, main_v59, main_v60,
    main_v61, main_v62, main_v63, main_v64, main_v65, main_v66, main_c_5, main_v67,
    main_v68, main_c_6, main_v69, main_v70, main_v71, main_v72, main_v73, main_cst_7,
    main_v74, main_v75, main_v76, main_v77, main_v78, main_v79, main_v80, main_v81,
    main_cst_8, main_v82, main_cst_9, main_v83, main_v84, main_c_10, main_call2.cst.ref, main_call2.v0.ref,
    main_call2.v1.ref, main_call2.cst_0.ref, main_call2.v2.ref, main_call2.v3.ref, main_call2.v4.ref, main_call2.v5.ref, main_call2.v6.ref, main_call2.v7.ref,
    main_call2.cst_1.ref, main_call2.v8.ref, main_call2.cst_2.ref, main_call2.v9.ref, main_call2.v10.ref, main_call2.v11.ref, main_call2.cst_3.ref, main_call2.v12.ref,
    main_call2.cst_4.ref, main_call2.call0.v0.ref, main_call2.call0.v1.ref, main_call2.call0.v2.ref, main_v86, main_v87, main_v88, main_cst_11,
    main_v89, main_v90, main_v91, main_v92, main_v93, main_v94, main_v95, main_v96,
    main_v97, main_v98, main_v99, main_v100, main_call3.cst.ref, main_call3.v0.ref, main_call3.v1.ref, main_v102,
    main_v103, main_v104, main_v105 ]

set_option maxRecDepth 65536 in
/-- The window is that straight line: the functions' bodies unfolded at their calls and the records at their fields, both
    sides are one chain of `hlo` steps once sequencing is reassociated. -/
theorem main_part1_eq (c : Dev nD) : main_part1 (F := F) c = seq ops1 := by
  simp only [main_part1, fn_var.body, fn_where.body, fn_relu.body, seq, bind_assoc, pure_bind] <;> rfl

theorem ops1_sub : (ops1 : List (HloOp τ sig (Elt F))).Forall fun op => op.bufs ⊆ tcRefs τ sig :=
  ⟨unary_bufs_sub .., binary_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub ..⟩

theorem ops1_writes : (ops1 : List (HloOp τ sig (Elt F))).Forall fun op =>
    op.writes ⊆ ((W1.map (Proc.devRef (τ := τ) .tc)).toFinset : Finset (DevRef τ sig)) :=
  ⟨writes_sub_at W1 0 rfl rfl, writes_sub_at W1 1 rfl rfl, writes_sub_at W1 2 rfl rfl, writes_sub_at W1 3 rfl rfl, writes_sub_at W1 4 rfl rfl, writes_sub_at W1 5 rfl rfl,
    writes_sub_at W1 6 rfl rfl, writes_sub_at W1 7 rfl rfl, writes_sub_at W1 8 rfl rfl, writes_sub_at W1 9 rfl rfl, writes_sub_at W1 10 rfl rfl, writes_sub_at W1 11 rfl rfl,
    writes_sub_at W1 12 rfl rfl, writes_sub_at W1 13 rfl rfl, writes_sub_at W1 14 rfl rfl, writes_sub_at W1 15 rfl rfl, writes_sub_at W1 16 rfl rfl, writes_sub_at W1 17 rfl rfl,
    writes_sub_at W1 18 rfl rfl, writes_sub_at W1 19 rfl rfl, writes_sub_at W1 20 rfl rfl, writes_sub_at W1 21 rfl rfl, writes_sub_at W1 22 rfl rfl, writes_sub_at W1 23 rfl rfl,
    writes_sub_at W1 24 rfl rfl, writes_sub_at W1 25 rfl rfl, writes_sub_at W1 26 rfl rfl, writes_sub_at W1 27 rfl rfl, writes_sub_at W1 28 rfl rfl, writes_sub_at W1 29 rfl rfl,
    writes_sub_at W1 30 rfl rfl, writes_sub_at W1 31 rfl rfl, writes_sub_at W1 32 rfl rfl, writes_sub_at W1 33 rfl rfl, writes_sub_at W1 34 rfl rfl, writes_sub_at W1 35 rfl rfl,
    writes_sub_at W1 36 rfl rfl, writes_sub_at W1 37 rfl rfl, writes_sub_at W1 38 rfl rfl, writes_sub_at W1 39 rfl rfl, writes_sub_at W1 40 rfl rfl, writes_sub_at W1 41 rfl rfl,
    writes_sub_at W1 42 rfl rfl, writes_sub_at W1 43 rfl rfl, writes_sub_at W1 44 rfl rfl, writes_sub_at W1 45 rfl rfl, writes_sub_at W1 46 rfl rfl, writes_sub_at W1 47 rfl rfl,
    writes_sub_at W1 48 rfl rfl, writes_sub_at W1 49 rfl rfl, writes_sub_at W1 50 rfl rfl, writes_sub_at W1 51 rfl rfl, writes_sub_at W1 52 rfl rfl, writes_sub_at W1 53 rfl rfl,
    writes_sub_at W1 54 rfl rfl, writes_sub_at W1 55 rfl rfl, writes_sub_at W1 56 rfl rfl, writes_sub_at W1 57 rfl rfl, writes_sub_at W1 58 rfl rfl, writes_sub_at W1 59 rfl rfl,
    writes_sub_at W1 60 rfl rfl, writes_sub_at W1 61 rfl rfl, writes_sub_at W1 62 rfl rfl, writes_sub_at W1 63 rfl rfl, writes_sub_at W1 64 rfl rfl, writes_sub_at W1 65 rfl rfl,
    writes_sub_at W1 66 rfl rfl, writes_sub_at W1 67 rfl rfl, writes_sub_at W1 68 rfl rfl, writes_sub_at W1 69 rfl rfl, writes_sub_at W1 70 rfl rfl, writes_sub_at W1 71 rfl rfl,
    writes_sub_at W1 72 rfl rfl, writes_sub_at W1 73 rfl rfl, writes_sub_at W1 74 rfl rfl, writes_sub_at W1 75 rfl rfl, writes_sub_at W1 76 rfl rfl, writes_sub_at W1 77 rfl rfl,
    writes_sub_at W1 78 rfl rfl, writes_sub_at W1 79 rfl rfl, writes_sub_at W1 80 rfl rfl, writes_sub_at W1 81 rfl rfl, writes_sub_at W1 82 rfl rfl⟩

/-- Every operation of the window determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

end Cert.ReferenceIdeal.RefRun

end
-- ==== Proof.RefRun2.lean ====
import proofs.«117235_j17583596110491_1_alg».proof.Proof.Gen.ReferenceIdeal
import proofs.«117235_j17583596110491_1_alg».proof.Proof.RefRunBase

/-! # The reference program's statements 121 … 180 as a list of operations

`main_part2` is a straight line of StableHLO operations: its own, and at each call of a module-local function the
callee's operations over that call's buffer record (a call is the callee's body applied, so unfolding the body is the
inlining). `ops2` lists the 81 operations in program order; `main_part2_eq` says the window is `seq ops2`;
`ops2_sub` that every operation touches TensorCore references only; `ops2_writes` that every operation writes a
reference of the list `W2` (the result references, in program order); `ops2_fresh` that every operation determines
its results. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 81 operations, in order. -/
abbrev ops2 : List (HloOp τ sig (Elt F)) :=
  [ StableHlo.unary main_arg6 main_v106 ((extractStridedSlice S1x128x256 ![2, 0, 0] · slices_S4x128x256_S1x128x256_2_0_0) : (⟨S4x128x256, .f32⟩ : BufTy).Contents (Elt F) → (⟨S1x128x256, .f32⟩ : BufTy).Contents (Elt F)),
    StableHlo.reshape main_v106 main_v107 rfl shapeCasts_S1x128x256_S128x256,
    StableHlo.unary main_arg7 main_v108 ((extractStridedSlice S1x256 ![2, 0] · slices_S4x256_S1x256_2_0) : (⟨S4x256, .f32⟩ : BufTy).Contents (Elt F) → (⟨S1x256, .f32⟩ : BufTy).Contents (Elt F)),
    StableHlo.reshape main_v108 main_v109 rfl shapeCasts_S1x256_S256,
    StableHlo.unary main_arg8 main_v110 ((extractStridedSlice S1x256 ![2, 0] · slices_S4x256_S1x256_2_0) : (⟨S4x256, .f32⟩ : BufTy).Contents (Elt F) → (⟨S1x256, .f32⟩ : BufTy).Contents (Elt F)),
    StableHlo.reshape main_v110 main_v111 rfl shapeCasts_S1x256_S256,
    StableHlo.unary main_arg9 main_v112 ((extractStridedSlice S1x256 ![2, 0] · slices_S4x256_S1x256_2_0) : (⟨S4x256, .f32⟩ : BufTy).Contents (Elt F) → (⟨S1x256, .f32⟩ : BufTy).Contents (Elt F)),
    StableHlo.reshape main_v112 main_v113 rfl shapeCasts_S1x256_S256,
    StableHlo.unary main_arg10 main_v114 ((extractStridedSlice S1x256x128 ![2, 0, 0] · slices_S4x256x128_S1x256x128_2_0_0) : (⟨S4x256x128, .f32⟩ : BufTy).Contents (Elt F) → (⟨S1x256x128, .f32⟩ : BufTy).Contents (Elt F)),
    StableHlo.reshape main_v114 main_v115 rfl shapeCasts_S1x256x128_S256x128,
    StableHlo.unary main_arg11 main_v116 ((extractStridedSlice S1x128 ![2, 0] · slices_S4x128_S1x128_2_0) : (⟨S4x128, .f32⟩ : BufTy).Contents (Elt F) → (⟨S1x128, .f32⟩ : BufTy).Contents (Elt F)),
    StableHlo.reshape main_v116 main_v117 rfl shapeCasts_S1x128_S128,
    StableHlo.nullary main_c_12 (constantI S_ 32 0#32),
    StableHlo.unary main_c_12 main_v118 (broadcastInDim S1440000 ![] bcast_S_S1440000 : (⟨S_, .i32⟩ : BufTy).Contents (Elt F) → (⟨S1440000, .i32⟩ : BufTy).Contents (Elt F)),
    StableHlo.binary main_v1 main_v118 main_v119 (cmpi .slt : (⟨S1440000, .i32⟩ : BufTy).Contents (Elt F) → (⟨S1440000, .i32⟩ : BufTy).Contents (Elt F) → (⟨S1440000, .i1⟩ : BufTy).Contents (Elt F)),
    StableHlo.nullary main_c_13 (constantI S_ 32 90000#32),
    StableHlo.unary main_c_13 main_v120 (broadcastInDim S1440000 ![] bcast_S_S1440000 : (⟨S_, .i32⟩ : BufTy).Contents (Elt F) → (⟨S1440000, .i32⟩ : BufTy).Contents (Elt F)),
    StableHlo.binary main_v1 main_v120 main_v121 (addi : (⟨S1440000, .i32⟩ : BufTy).Contents (Elt F) → (⟨S1440000, .i32⟩ : BufTy).Contents (Elt F) → (⟨S1440000, .i32⟩ : BufTy).Contents (Elt F)),
    StableHlo.ternary main_v119 main_v121 main_v1 main_v122 (select : (⟨S1440000, .i1⟩ : BufTy).Contents (Elt F) → (⟨S1440000, .i32⟩ : BufTy).Contents (Elt F) → (⟨S1440000, .i32⟩ : BufTy).Contents (Elt F) → (⟨S1440000, .i32⟩ : BufTy).Contents (Elt F)),
    StableHlo.unary main_v122 main_v123 (broadcastInDim S1440000x1 ![0] bcast_S1440000_S1440000x1_0 : (⟨S1440000, .i32⟩ : BufTy).Contents (Elt F) → (⟨S1440000x1, .i32⟩ : BufTy).Contents (Elt F)),
    StableHlo.binary main_v105 main_v123 main_v124 ((fun x i => Host.gather gather_S90000x128_S1440000x1_S1440000x128_1_0_n_n_0_1_1128 x i) : (⟨S90000x128, .f32⟩ : BufTy).Contents (Elt F) → (⟨S1440000x1, .i32⟩ : BufTy).Contents (Elt F) → (⟨S1440000x128, .f32⟩ : BufTy).Contents (Elt F)),
    StableHlo.nullary main_cst_14 (constant S_ .f32 0x00000000#32),
    StableHlo.unary main_cst_14 main_v125 (broadcastInDim S90000x128 ![] bcast_S_S90000x128 : (⟨S_, .f32⟩ : BufTy).Contents (Elt F) → (⟨S90000x128, .f32⟩ : BufTy).Contents (Elt F)),
    StableHlo.unary main_v3 main_v126 (broadcastInDim S1440000x1 ![0] bcast_S1440000_S1440000x1_0 : (⟨S1440000, .i32⟩ : BufTy).Contents (Elt F) → (⟨S1440000x1, .i32⟩ : BufTy).Contents (Elt F)),
    StableHlo.ternary main_v125 main_v126 main_v124 main_v127 ((fun x i u => Host.scatterAdd scatter_S90000x128_S1440000x1_S1440000x128_1_0_0_1 x i u) : (⟨S90000x128, .f32⟩ : BufTy).Contents (Elt F) → (⟨S1440000x1, .i32⟩ : BufTy).Contents (Elt F) → (⟨S1440000x128, .f32⟩ : BufTy).Contents (Elt F) → (⟨S90000x128, .f32⟩ : BufTy).Contents (Elt F)),
    StableHlo.binary main_v105 main_v127 main_v128 (addf : (⟨S90000x128, .f32⟩ : BufTy).Contents (Elt F) → (⟨S90000x128, .f32⟩ : BufTy).Contents (Elt F) → (⟨S90000x128, .f32⟩ : BufTy).Contents (Elt F)),
    StableHlo.binary main_v128 main_v107 main_v129 ((fun l r => Host.dotGeneral dot_S90000x128_S128x256_S90000x256_1_0_0_1_n_n none l r) : (⟨S90000x128, .f32⟩ : BufTy).Contents (Elt F) → (⟨S128x256, .f32⟩ : BufTy).Contents (Elt F) → (⟨S90000x256, .f32⟩ : BufTy).Contents (Elt F)),
    StableHlo.unary main_v109 main_v130 (broadcastInDim S1x256 ![1] bcast_S256_S1x256_1 : (⟨S256, .f32⟩ : BufTy).Contents (Elt F) → (⟨S1x256, .f32⟩ : BufTy).Contents (Elt F)),
    StableHlo.unary main_v130 main_v131 (broadcastInDim S90000x256 ![0, 1] bcast_S1x256_S90000x256_0_1 : (⟨S1x256, .f32⟩ : BufTy).Contents (Elt F) → (⟨S90000x256, .f32⟩ : BufTy).Contents (Elt F)),
    StableHlo.binary main_v129 main_v131 main_v132 (addf : (⟨S90000x256, .f32⟩ : BufTy).Contents (Elt F) → (⟨S90000x256, .f32⟩ : BufTy).Contents (Elt F) → (⟨S90000x256, .f32⟩ : BufTy).Contents (Elt F)),
    StableHlo.nullary main_cst_15 (constant S_ .f32 0x00000000#32),
    StableHlo.binary main_v132 main_cst_15 main_v133 ((fun x v => Host.reduceAdd x v reducesTo_S90000x256_S256_d0 h_S_) : (⟨S90000x256, .f32⟩ : BufTy).Contents (Elt F) → (⟨S_, .f32⟩ : BufTy).Contents (Elt F) → (⟨S256, .f32⟩ : BufTy).Contents (Elt F)),
    StableHlo.nullary main_cst_16 (constant S_ .f32 0x47AFC800#32),
    StableHlo.unary main_cst_16 main_v134 (broadcastInDim S256 ![] bcast_S_S256 : (⟨S_, .f32⟩ : BufTy).Contents (Elt F) → (⟨S256, .f32⟩ : BufTy).Contents (Elt F)),
    StableHlo.binary main_v133 main_v134 main_v135 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call4.cst (constant S_ .f32 0x00000000#32),
    StableHlo.TRef.binary (.of main_v132 : StableHlo.TRef sig ⟨S90000x256, .f32⟩) main_call4.cst main_call4.v0 (fun x v => Host.reduceAdd x v reducesTo_S90000x256_S256_d0 h_S_),
    StableHlo.TRef.unary main_call4.v0 main_call4.v1 (broadcastInDim S1x256 ![1] bcast_S256_S1x256_1),
    StableHlo.TRef.nullary main_call4.cst_0 (constant S_ .f32 0x47AFC800#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S90000x256 ![0, 1] bcast_S1x256_S90000x256_0_1),
    StableHlo.TRef.binary (.of main_v132 : StableHlo.TRef sig ⟨S90000x256, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47AFC800#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S90000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v135 main_v137 (broadcastInDim S1x256 ![1] bcast_S256_S1x256_1 : (⟨S256, .f32⟩ : BufTy).Contents (Elt F) → (⟨S1x256, .f32⟩ : BufTy).Contents (Elt F)),
    StableHlo.unary main_v137 main_v138 (broadcastInDim S90000x256 ![0, 1] bcast_S1x256_S90000x256_0_1 : (⟨S1x256, .f32⟩ : BufTy).Contents (Elt F) → (⟨S90000x256, .f32⟩ : BufTy).Contents (Elt F)),
    StableHlo.binary main_v132 main_v138 main_v139 (subf : (⟨S90000x256, .f32⟩ : BufTy).Contents (Elt F) → (⟨S90000x256, .f32⟩ : BufTy).Contents (Elt F) → (⟨S90000x256, .f32⟩ : BufTy).Contents (Elt F)),
    StableHlo.nullary main_cst_18 (constant S_ .f32 0x3727C5AC#32),
    StableHlo.unary main_cst_18 main_v140 (broadcastInDim S256 ![] bcast_S_S256 : (⟨S_, .f32⟩ : BufTy).Contents (Elt F) → (⟨S256, .f32⟩ : BufTy).Contents (Elt F)),
    StableHlo.binary main_v136 main_v140 main_v141 (addf : (⟨S256, .f32⟩ : BufTy).Contents (Elt F) → (⟨S256, .f32⟩ : BufTy).Contents (Elt F) → (⟨S256, .f32⟩ : BufTy).Contents (Elt F)),
    StableHlo.unary main_v141 main_v142 (Host.rsqrt : (⟨S256, .f32⟩ : BufTy).Contents (Elt F) → (⟨S256, .f32⟩ : BufTy).Contents (Elt F)),
    StableHlo.unary main_v142 main_v143 (broadcastInDim S1x256 ![1] bcast_S256_S1x256_1 : (⟨S256, .f32⟩ : BufTy).Contents (Elt F) → (⟨S1x256, .f32⟩ : BufTy).Contents (Elt F)),
    StableHlo.unary main_v143 main_v144 (broadcastInDim S90000x256 ![0, 1] bcast_S1x256_S90000x256_0_1 : (⟨S1x256, .f32⟩ : BufTy).Contents (Elt F) → (⟨S90000x256, .f32⟩ : BufTy).Contents (Elt F)),
    StableHlo.binary main_v139 main_v144 main_v145 (mulf : (⟨S90000x256, .f32⟩ : BufTy).Contents (Elt F) → (⟨S90000x256, .f32⟩ : BufTy).Contents (Elt F) → (⟨S90000x256, .f32⟩ : BufTy).Contents (Elt F)),
    StableHlo.unary main_v111 main_v146 (broadcastInDim S1x256 ![1] bcast_S256_S1x256_1 : (⟨S256, .f32⟩ : BufTy).Contents (Elt F) → (⟨S1x256, .f32⟩ : BufTy).Contents (Elt F)),
    StableHlo.unary main_v146 main_v147 (broadcastInDim S90000x256 ![0, 1] bcast_S1x256_S90000x256_0_1 : (⟨S1x256, .f32⟩ : BufTy).Contents (Elt F) → (⟨S90000x256, .f32⟩ : BufTy).Contents (Elt F)),
    StableHlo.binary main_v145 main_v147 main_v148 (mulf : (⟨S90000x256, .f32⟩ : BufTy).Contents (Elt F) → (⟨S90000x256, .f32⟩ : BufTy).Contents (Elt F) → (⟨S90000x256, .f32⟩ : BufTy).Contents (Elt F)),
    StableHlo.unary main_v113 main_v149 (broadcastInDim S1x256 ![1] bcast_S256_S1x256_1 : (⟨S256, .f32⟩ : BufTy).Contents (Elt F) → (⟨S1x256, .f32⟩ : BufTy).Contents (Elt F)),
    StableHlo.unary main_v149 main_v150 (broadcastInDim S90000x256 ![0, 1] bcast_S1x256_S90000x256_0_1 : (⟨S1x256, .f32⟩ : BufTy).Contents (Elt F) → (⟨S90000x256, .f32⟩ : BufTy).Contents (Elt F)),
    StableHlo.binary main_v148 main_v150 main_v151 (addf : (⟨S90000x256, .f32⟩ : BufTy).Contents (Elt F) → (⟨S90000x256, .f32⟩ : BufTy).Contents (Elt F) → (⟨S90000x256, .f32⟩ : BufTy).Contents (Elt F)),
    StableHlo.binary main_v151 main_v115 main_v152 ((fun l r => Host.dotGeneral dot_S90000x256_S256x128_S90000x128_1_0_0_1_n_n none l r) : (⟨S90000x256, .f32⟩ : BufTy).Contents (Elt F) → (⟨S256x128, .f32⟩ : BufTy).Contents (Elt F) → (⟨S90000x128, .f32⟩ : BufTy).Contents (Elt F)),
    StableHlo.unary main_v117 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S90000x128 ![0, 1] bcast_S1x128_S90000x128_0_1 : (⟨S1x128, .f32⟩ : BufTy).Contents (Elt F) → (⟨S90000x128, .f32⟩ : BufTy).Contents (Elt F)),
    StableHlo.binary main_v152 main_v154 main_v155 (addf : (⟨S90000x128, .f32⟩ : BufTy).Contents (Elt F) → (⟨S90000x128, .f32⟩ : BufTy).Contents (Elt F) → (⟨S90000x128, .f32⟩ : BufTy).Contents (Elt F)),
    StableHlo.unary main_arg6 main_v156 ((extractStridedSlice S1x128x256 ![3, 0, 0] · slices_S4x128x256_S1x128x256_3_0_0) : (⟨S4x128x256, .f32⟩ : BufTy).Contents (Elt F) → (⟨S1x128x256, .f32⟩ : BufTy).Contents (Elt F)),
    StableHlo.reshape main_v156 main_v157 rfl shapeCasts_S1x128x256_S128x256,
    StableHlo.unary main_arg7 main_v158 ((extractStridedSlice S1x256 ![3, 0] · slices_S4x256_S1x256_3_0) : (⟨S4x256, .f32⟩ : BufTy).Contents (Elt F) → (⟨S1x256, .f32⟩ : BufTy).Contents (Elt F)) ]

/-- The references the window's operations write, in order. -/
abbrev W2 : List (Ref sig .tc) :=
  [ main_v106, main_v107, main_v108, main_v109, main_v110, main_v111, main_v112, main_v113,
    main_v114, main_v115, main_v116, main_v117, main_c_12, main_v118, main_v119, main_c_13,
    main_v120, main_v121, main_v122, main_v123, main_v124, main_cst_14, main_v125, main_v126,
    main_v127, main_v128, main_v129, main_v130, main_v131, main_v132, main_cst_15, main_v133,
    main_cst_16, main_v134, main_v135, main_c_17, main_call4.cst.ref, main_call4.v0.ref, main_call4.v1.ref, main_call4.cst_0.ref,
    main_call4.v2.ref, main_call4.v3.ref, main_call4.v4.ref, main_call4.v5.ref, main_call4.v6.ref, main_call4.v7.ref, main_call4.cst_1.ref, main_call4.v8.ref,
    main_call4.cst_2.ref, main_call4.v9.ref, main_call4.v10.ref, main_call4.v11.ref, main_call4.cst_3.ref, main_call4.v12.ref, main_call4.cst_4.ref, main_call4.call0.v0.ref,
    main_call4.call0.v1.ref, main_call4.call0.v2.ref, main_v137, main_v138, main_v139, main_cst_18, main_v140, main_v141,
    main_v142, main_v143, main_v144, main_v145, main_v146, main_v147, main_v148, main_v149,
    main_v150, main_v151, main_v152, main_v153, main_v154, main_v155, main_v156, main_v157,
    main_v158 ]

set_option maxRecDepth 65536 in
/-- The window is that straight line: the functions' bodies unfolded at their calls and the records at their fields, both
    sides are one chain of `hlo` steps once sequencing is reassociated. -/
theorem main_part2_eq (c : Dev nD) : main_part2 (F := F) c = seq ops2 := by
  simp only [main_part2, fn_var.body, fn_where.body, fn_relu.body, seq, bind_assoc, pure_bind] <;> rfl

theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    unary_bufs_sub .., reshape_bufs_sub .., unary_bufs_sub ..⟩

theorem ops2_writes : (ops2 : List (HloOp τ sig (Elt F))).Forall fun op =>
    op.writes ⊆ ((W2.map (Proc.devRef (τ := τ) .tc)).toFinset : Finset (DevRef τ sig)) :=
  ⟨writes_sub_at W2 0 rfl rfl, writes_sub_at W2 1 rfl rfl, writes_sub_at W2 2 rfl rfl, writes_sub_at W2 3 rfl rfl, writes_sub_at W2 4 rfl rfl, writes_sub_at W2 5 rfl rfl,
    writes_sub_at W2 6 rfl rfl, writes_sub_at W2 7 rfl rfl, writes_sub_at W2 8 rfl rfl, writes_sub_at W2 9 rfl rfl, writes_sub_at W2 10 rfl rfl, writes_sub_at W2 11 rfl rfl,
    writes_sub_at W2 12 rfl rfl, writes_sub_at W2 13 rfl rfl, writes_sub_at W2 14 rfl rfl, writes_sub_at W2 15 rfl rfl, writes_sub_at W2 16 rfl rfl, writes_sub_at W2 17 rfl rfl,
    writes_sub_at W2 18 rfl rfl, writes_sub_at W2 19 rfl rfl, writes_sub_at W2 20 rfl rfl, writes_sub_at W2 21 rfl rfl, writes_sub_at W2 22 rfl rfl, writes_sub_at W2 23 rfl rfl,
    writes_sub_at W2 24 rfl rfl, writes_sub_at W2 25 rfl rfl, writes_sub_at W2 26 rfl rfl, writes_sub_at W2 27 rfl rfl, writes_sub_at W2 28 rfl rfl, writes_sub_at W2 29 rfl rfl,
    writes_sub_at W2 30 rfl rfl, writes_sub_at W2 31 rfl rfl, writes_sub_at W2 32 rfl rfl, writes_sub_at W2 33 rfl rfl, writes_sub_at W2 34 rfl rfl, writes_sub_at W2 35 rfl rfl,
    writes_sub_at W2 36 rfl rfl, writes_sub_at W2 37 rfl rfl, writes_sub_at W2 38 rfl rfl, writes_sub_at W2 39 rfl rfl, writes_sub_at W2 40 rfl rfl, writes_sub_at W2 41 rfl rfl,
    writes_sub_at W2 42 rfl rfl, writes_sub_at W2 43 rfl rfl, writes_sub_at W2 44 rfl rfl, writes_sub_at W2 45 rfl rfl, writes_sub_at W2 46 rfl rfl, writes_sub_at W2 47 rfl rfl,
    writes_sub_at W2 48 rfl rfl, writes_sub_at W2 49 rfl rfl, writes_sub_at W2 50 rfl rfl, writes_sub_at W2 51 rfl rfl, writes_sub_at W2 52 rfl rfl, writes_sub_at W2 53 rfl rfl,
    writes_sub_at W2 54 rfl rfl, writes_sub_at W2 55 rfl rfl, writes_sub_at W2 56 rfl rfl, writes_sub_at W2 57 rfl rfl, writes_sub_at W2 58 rfl rfl, writes_sub_at W2 59 rfl rfl,
    writes_sub_at W2 60 rfl rfl, writes_sub_at W2 61 rfl rfl, writes_sub_at W2 62 rfl rfl, writes_sub_at W2 63 rfl rfl, writes_sub_at W2 64 rfl rfl, writes_sub_at W2 65 rfl rfl,
    writes_sub_at W2 66 rfl rfl, writes_sub_at W2 67 rfl rfl, writes_sub_at W2 68 rfl rfl, writes_sub_at W2 69 rfl rfl, writes_sub_at W2 70 rfl rfl, writes_sub_at W2 71 rfl rfl,
    writes_sub_at W2 72 rfl rfl, writes_sub_at W2 73 rfl rfl, writes_sub_at W2 74 rfl rfl, writes_sub_at W2 75 rfl rfl, writes_sub_at W2 76 rfl rfl, writes_sub_at W2 77 rfl rfl,
    writes_sub_at W2 78 rfl rfl, writes_sub_at W2 79 rfl rfl, writes_sub_at W2 80 rfl rfl⟩

/-- Every operation of the window determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

end Cert.ReferenceIdeal.RefRun

end
-- ==== Proof.RefRun3.lean ====
import proofs.«117235_j17583596110491_1_alg».proof.Proof.Gen.ReferenceIdeal
import proofs.«117235_j17583596110491_1_alg».proof.Proof.RefRunBase

/-! # The reference program's statements 181 … 240 as a list of operations

`main_part3` is a straight line of StableHLO operations: its own, and at each call of a module-local function the
callee's operations over that call's buffer record (a call is the callee's body applied, so unfolding the body is the
inlining). `ops3` lists the 81 operations in program order; `main_part3_eq` says the window is `seq ops3`;
`ops3_sub` that every operation touches TensorCore references only; `ops3_writes` that every operation writes a
reference of the list `W3` (the result references, in program order); `ops3_fresh` that every operation determines
its results. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 81 operations, in order. -/
abbrev ops3 : List (HloOp τ sig (Elt F)) :=
  [ StableHlo.reshape main_v158 main_v159 rfl shapeCasts_S1x256_S256,
    StableHlo.unary main_arg8 main_v160 ((extractStridedSlice S1x256 ![3, 0] · slices_S4x256_S1x256_3_0) : (⟨S4x256, .f32⟩ : BufTy).Contents (Elt F) → (⟨S1x256, .f32⟩ : BufTy).Contents (Elt F)),
    StableHlo.reshape main_v160 main_v161 rfl shapeCasts_S1x256_S256,
    StableHlo.unary main_arg9 main_v162 ((extractStridedSlice S1x256 ![3, 0] · slices_S4x256_S1x256_3_0) : (⟨S4x256, .f32⟩ : BufTy).Contents (Elt F) → (⟨S1x256, .f32⟩ : BufTy).Contents (Elt F)),
    StableHlo.reshape main_v162 main_v163 rfl shapeCasts_S1x256_S256,
    StableHlo.unary main_arg10 main_v164 ((extractStridedSlice S1x256x128 ![3, 0, 0] · slices_S4x256x128_S1x256x128_3_0_0) : (⟨S4x256x128, .f32⟩ : BufTy).Contents (Elt F) → (⟨S1x256x128, .f32⟩ : BufTy).Contents (Elt F)),
    StableHlo.reshape main_v164 main_v165 rfl shapeCasts_S1x256x128_S256x128,
    StableHlo.unary main_arg11 main_v166 ((extractStridedSlice S1x128 ![3, 0] · slices_S4x128_S1x128_3_0) : (⟨S4x128, .f32⟩ : BufTy).Contents (Elt F) → (⟨S1x128, .f32⟩ : BufTy).Contents (Elt F)),
    StableHlo.reshape main_v166 main_v167 rfl shapeCasts_S1x128_S128,
    StableHlo.nullary main_c_19 (constantI S_ 32 0#32),
    StableHlo.unary main_c_19 main_v168 (broadcastInDim S1440000 ![] bcast_S_S1440000 : (⟨S_, .i32⟩ : BufTy).Contents (Elt F) → (⟨S1440000, .i32⟩ : BufTy).Contents (Elt F)),
    StableHlo.binary main_v1 main_v168 main_v169 (cmpi .slt : (⟨S1440000, .i32⟩ : BufTy).Contents (Elt F) → (⟨S1440000, .i32⟩ : BufTy).Contents (Elt F) → (⟨S1440000, .i1⟩ : BufTy).Contents (Elt F)),
    StableHlo.nullary main_c_20 (constantI S_ 32 90000#32),
    StableHlo.unary main_c_20 main_v170 (broadcastInDim S1440000 ![] bcast_S_S1440000 : (⟨S_, .i32⟩ : BufTy).Contents (Elt F) → (⟨S1440000, .i32⟩ : BufTy).Contents (Elt F)),
    StableHlo.binary main_v1 main_v170 main_v171 (addi : (⟨S1440000, .i32⟩ : BufTy).Contents (Elt F) → (⟨S1440000, .i32⟩ : BufTy).Contents (Elt F) → (⟨S1440000, .i32⟩ : BufTy).Contents (Elt F)),
    StableHlo.ternary main_v169 main_v171 main_v1 main_v172 (select : (⟨S1440000, .i1⟩ : BufTy).Contents (Elt F) → (⟨S1440000, .i32⟩ : BufTy).Contents (Elt F) → (⟨S1440000, .i32⟩ : BufTy).Contents (Elt F) → (⟨S1440000, .i32⟩ : BufTy).Contents (Elt F)),
    StableHlo.unary main_v172 main_v173 (broadcastInDim S1440000x1 ![0] bcast_S1440000_S1440000x1_0 : (⟨S1440000, .i32⟩ : BufTy).Contents (Elt F) → (⟨S1440000x1, .i32⟩ : BufTy).Contents (Elt F)),
    StableHlo.binary main_v105 main_v173 main_v174 ((fun x i => Host.gather gather_S90000x128_S1440000x1_S1440000x128_1_0_n_n_0_1_1128 x i) : (⟨S90000x128, .f32⟩ : BufTy).Contents (Elt F) → (⟨S1440000x1, .i32⟩ : BufTy).Contents (Elt F) → (⟨S1440000x128, .f32⟩ : BufTy).Contents (Elt F)),
    StableHlo.nullary main_cst_21 (constant S_ .f32 0x00000000#32),
    StableHlo.unary main_cst_21 main_v175 (broadcastInDim S90000x128 ![] bcast_S_S90000x128 : (⟨S_, .f32⟩ : BufTy).Contents (Elt F) → (⟨S90000x128, .f32⟩ : BufTy).Contents (Elt F)),
    StableHlo.unary main_v3 main_v176 (broadcastInDim S1440000x1 ![0] bcast_S1440000_S1440000x1_0 : (⟨S1440000, .i32⟩ : BufTy).Contents (Elt F) → (⟨S1440000x1, .i32⟩ : BufTy).Contents (Elt F)),
    StableHlo.ternary main_v175 main_v176 main_v174 main_v177 ((fun x i u => Host.scatterAdd scatter_S90000x128_S1440000x1_S1440000x128_1_0_0_1 x i u) : (⟨S90000x128, .f32⟩ : BufTy).Contents (Elt F) → (⟨S1440000x1, .i32⟩ : BufTy).Contents (Elt F) → (⟨S1440000x128, .f32⟩ : BufTy).Contents (Elt F) → (⟨S90000x128, .f32⟩ : BufTy).Contents (Elt F)),
    StableHlo.binary main_v105 main_v177 main_v178 (addf : (⟨S90000x128, .f32⟩ : BufTy).Contents (Elt F) → (⟨S90000x128, .f32⟩ : BufTy).Contents (Elt F) → (⟨S90000x128, .f32⟩ : BufTy).Contents (Elt F)),
    StableHlo.binary main_v178 main_v157 main_v179 ((fun l r => Host.dotGeneral dot_S90000x128_S128x256_S90000x256_1_0_0_1_n_n none l r) : (⟨S90000x128, .f32⟩ : BufTy).Contents (Elt F) → (⟨S128x256, .f32⟩ : BufTy).Contents (Elt F) → (⟨S90000x256, .f32⟩ : BufTy).Contents (Elt F)),
    StableHlo.unary main_v159 main_v180 (broadcastInDim S1x256 ![1] bcast_S256_S1x256_1 : (⟨S256, .f32⟩ : BufTy).Contents (Elt F) → (⟨S1x256, .f32⟩ : BufTy).Contents (Elt F)),
    StableHlo.unary main_v180 main_v181 (broadcastInDim S90000x256 ![0, 1] bcast_S1x256_S90000x256_0_1 : (⟨S1x256, .f32⟩ : BufTy).Contents (Elt F) → (⟨S90000x256, .f32⟩ : BufTy).Contents (Elt F)),
    StableHlo.binary main_v179 main_v181 main_v182 (addf : (⟨S90000x256, .f32⟩ : BufTy).Contents (Elt F) → (⟨S90000x256, .f32⟩ : BufTy).Contents (Elt F) → (⟨S90000x256, .f32⟩ : BufTy).Contents (Elt F)),
    StableHlo.nullary main_cst_22 (constant S_ .f32 0x00000000#32),
    StableHlo.binary main_v182 main_cst_22 main_v183 ((fun x v => Host.reduceAdd x v reducesTo_S90000x256_S256_d0 h_S_) : (⟨S90000x256, .f32⟩ : BufTy).Contents (Elt F) → (⟨S_, .f32⟩ : BufTy).Contents (Elt F) → (⟨S256, .f32⟩ : BufTy).Contents (Elt F)),
    StableHlo.nullary main_cst_23 (constant S_ .f32 0x47AFC800#32),
    StableHlo.unary main_cst_23 main_v184 (broadcastInDim S256 ![] bcast_S_S256 : (⟨S_, .f32⟩ : BufTy).Contents (Elt F) → (⟨S256, .f32⟩ : BufTy).Contents (Elt F)),
    StableHlo.binary main_v183 main_v184 main_v185 (Host.divf : (⟨S256, .f32⟩ : BufTy).Contents (Elt F) → (⟨S256, .f32⟩ : BufTy).Contents (Elt F) → (⟨S256, .f32⟩ : BufTy).Contents (Elt F)),
    StableHlo.nullary main_c_24 (constantI S_ 32 0#32),
    StableHlo.TRef.nullary main_call5.cst (constant S_ .f32 0x00000000#32),
    StableHlo.TRef.binary (.of main_v182 : StableHlo.TRef sig ⟨S90000x256, .f32⟩) main_call5.cst main_call5.v0 (fun x v => Host.reduceAdd x v reducesTo_S90000x256_S256_d0 h_S_),
    StableHlo.TRef.unary main_call5.v0 main_call5.v1 (broadcastInDim S1x256 ![1] bcast_S256_S1x256_1),
    StableHlo.TRef.nullary main_call5.cst_0 (constant S_ .f32 0x47AFC800#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S90000x256 ![0, 1] bcast_S1x256_S90000x256_0_1),
    StableHlo.TRef.binary (.of main_v182 : StableHlo.TRef sig ⟨S90000x256, .f32⟩) main_call5.v4 main_call5.v5 subf,
    StableHlo.TRef.binary main_call5.v5 main_call5.v5 main_call5.v6 mulf,
    StableHlo.TRef.unary (.of main_c_24 : StableHlo.TRef sig ⟨S_, .i32⟩) main_call5.v7 (sitofp .f32),
    StableHlo.TRef.nullary main_call5.cst_1 (constant S_ .f32 0x47AFC800#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S90000x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b),
    StableHlo.unary main_v185 main_v187 (broadcastInDim S1x256 ![1] bcast_S256_S1x256_1 : (⟨S256, .f32⟩ : BufTy).Contents (Elt F) → (⟨S1x256, .f32⟩ : BufTy).Contents (Elt F)),
    StableHlo.unary main_v187 main_v188 (broadcastInDim S90000x256 ![0, 1] bcast_S1x256_S90000x256_0_1 : (⟨S1x256, .f32⟩ : BufTy).Contents (Elt F) → (⟨S90000x256, .f32⟩ : BufTy).Contents (Elt F)),
    StableHlo.binary main_v182 main_v188 main_v189 (subf : (⟨S90000x256, .f32⟩ : BufTy).Contents (Elt F) → (⟨S90000x256, .f32⟩ : BufTy).Contents (Elt F) → (⟨S90000x256, .f32⟩ : BufTy).Contents (Elt F)),
    StableHlo.nullary main_cst_25 (constant S_ .f32 0x3727C5AC#32),
    StableHlo.unary main_cst_25 main_v190 (broadcastInDim S256 ![] bcast_S_S256 : (⟨S_, .f32⟩ : BufTy).Contents (Elt F) → (⟨S256, .f32⟩ : BufTy).Contents (Elt F)),
    StableHlo.binary main_v186 main_v190 main_v191 (addf : (⟨S256, .f32⟩ : BufTy).Contents (Elt F) → (⟨S256, .f32⟩ : BufTy).Contents (Elt F) → (⟨S256, .f32⟩ : BufTy).Contents (Elt F)),
    StableHlo.unary main_v191 main_v192 (Host.rsqrt : (⟨S256, .f32⟩ : BufTy).Contents (Elt F) → (⟨S256, .f32⟩ : BufTy).Contents (Elt F)),
    StableHlo.unary main_v192 main_v193 (broadcastInDim S1x256 ![1] bcast_S256_S1x256_1 : (⟨S256, .f32⟩ : BufTy).Contents (Elt F) → (⟨S1x256, .f32⟩ : BufTy).Contents (Elt F)),
    StableHlo.unary main_v193 main_v194 (broadcastInDim S90000x256 ![0, 1] bcast_S1x256_S90000x256_0_1 : (⟨S1x256, .f32⟩ : BufTy).Contents (Elt F) → (⟨S90000x256, .f32⟩ : BufTy).Contents (Elt F)),
    StableHlo.binary main_v189 main_v194 main_v195 (mulf : (⟨S90000x256, .f32⟩ : BufTy).Contents (Elt F) → (⟨S90000x256, .f32⟩ : BufTy).Contents (Elt F) → (⟨S90000x256, .f32⟩ : BufTy).Contents (Elt F)),
    StableHlo.unary main_v161 main_v196 (broadcastInDim S1x256 ![1] bcast_S256_S1x256_1 : (⟨S256, .f32⟩ : BufTy).Contents (Elt F) → (⟨S1x256, .f32⟩ : BufTy).Contents (Elt F)),
    StableHlo.unary main_v196 main_v197 (broadcastInDim S90000x256 ![0, 1] bcast_S1x256_S90000x256_0_1 : (⟨S1x256, .f32⟩ : BufTy).Contents (Elt F) → (⟨S90000x256, .f32⟩ : BufTy).Contents (Elt F)),
    StableHlo.binary main_v195 main_v197 main_v198 (mulf : (⟨S90000x256, .f32⟩ : BufTy).Contents (Elt F) → (⟨S90000x256, .f32⟩ : BufTy).Contents (Elt F) → (⟨S90000x256, .f32⟩ : BufTy).Contents (Elt F)),
    StableHlo.unary main_v163 main_v199 (broadcastInDim S1x256 ![1] bcast_S256_S1x256_1 : (⟨S256, .f32⟩ : BufTy).Contents (Elt F) → (⟨S1x256, .f32⟩ : BufTy).Contents (Elt F)),
    StableHlo.unary main_v199 main_v200 (broadcastInDim S90000x256 ![0, 1] bcast_S1x256_S90000x256_0_1 : (⟨S1x256, .f32⟩ : BufTy).Contents (Elt F) → (⟨S90000x256, .f32⟩ : BufTy).Contents (Elt F)),
    StableHlo.binary main_v198 main_v200 main_v201 (addf : (⟨S90000x256, .f32⟩ : BufTy).Contents (Elt F) → (⟨S90000x256, .f32⟩ : BufTy).Contents (Elt F) → (⟨S90000x256, .f32⟩ : BufTy).Contents (Elt F)),
    StableHlo.binary main_v201 main_v165 main_v202 ((fun l r => Host.dotGeneral dot_S90000x256_S256x128_S90000x128_1_0_0_1_n_n none l r) : (⟨S90000x256, .f32⟩ : BufTy).Contents (Elt F) → (⟨S256x128, .f32⟩ : BufTy).Contents (Elt F) → (⟨S90000x128, .f32⟩ : BufTy).Contents (Elt F)),
    StableHlo.unary main_v167 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S90000x128 ![0, 1] bcast_S1x128_S90000x128_0_1 : (⟨S1x128, .f32⟩ : BufTy).Contents (Elt F) → (⟨S90000x128, .f32⟩ : BufTy).Contents (Elt F)),
    StableHlo.binary main_v202 main_v204 main_v205 (addf : (⟨S90000x128, .f32⟩ : BufTy).Contents (Elt F) → (⟨S90000x128, .f32⟩ : BufTy).Contents (Elt F) → (⟨S90000x128, .f32⟩ : BufTy).Contents (Elt F)),
    StableHlo.unary main_v205 main_v206 (Host.exp : (⟨S90000x128, .f32⟩ : BufTy).Contents (Elt F) → (⟨S90000x128, .f32⟩ : BufTy).Contents (Elt F)),
    StableHlo.binary main_arg5 main_v206 main_v207 (mulf : (⟨S90000x128, .f32⟩ : BufTy).Contents (Elt F) → (⟨S90000x128, .f32⟩ : BufTy).Contents (Elt F) → (⟨S90000x128, .f32⟩ : BufTy).Contents (Elt F)),
    StableHlo.binary main_v207 main_v155 main_v208 (addf : (⟨S90000x128, .f32⟩ : BufTy).Contents (Elt F) → (⟨S90000x128, .f32⟩ : BufTy).Contents (Elt F) → (⟨S90000x128, .f32⟩ : BufTy).Contents (Elt F)),
    StableHlo.nullary main_cst_26 (constant S_ .f32 0x3F800000#32),
    StableHlo.unary main_cst_26 main_v209 (broadcastInDim S90000 ![] bcast_S_S90000 : (⟨S_, .f32⟩ : BufTy).Contents (Elt F) → (⟨S90000, .f32⟩ : BufTy).Contents (Elt F)),
    StableHlo.nullary main_cst_27 (constant S_ .f32 0x00000000#32) ]

/-- The references the window's operations write, in order. -/
abbrev W3 : List (Ref sig .tc) :=
  [ main_v159, main_v160, main_v161, main_v162, main_v163, main_v164, main_v165, main_v166,
    main_v167, main_c_19, main_v168, main_v169, main_c_20, main_v170, main_v171, main_v172,
    main_v173, main_v174, main_cst_21, main_v175, main_v176, main_v177, main_v178, main_v179,
    main_v180, main_v181, main_v182, main_cst_22, main_v183, main_cst_23, main_v184, main_v185,
    main_c_24, main_call5.cst.ref, main_call5.v0.ref, main_call5.v1.ref, main_call5.cst_0.ref, main_call5.v2.ref, main_call5.v3.ref, main_call5.v4.ref,
    main_call5.v5.ref, main_call5.v6.ref, main_call5.v7.ref, main_call5.cst_1.ref, main_call5.v8.ref, main_call5.cst_2.ref, main_call5.v9.ref, main_call5.v10.ref,
    main_call5.v11.ref, main_call5.cst_3.ref, main_call5.v12.ref, main_call5.cst_4.ref, main_call5.call0.v0.ref, main_call5.call0.v1.ref, main_call5.call0.v2.ref, main_v187,
    main_v188, main_v189, main_cst_25, main_v190, main_v191, main_v192, main_v193, main_v194,
    main_v195, main_v196, main_v197, main_v198, main_v199, main_v200, main_v201, main_v202,
    main_v203, main_v204, main_v205, main_v206, main_v207, main_v208, main_cst_26, main_v209,
    main_cst_27 ]

set_option maxRecDepth 65536 in
/-- The window is that straight line: the functions' bodies unfolded at their calls and the records at their fields, both
    sides are one chain of `hlo` steps once sequencing is reassociated. -/
theorem main_part3_eq (c : Dev nD) : main_part3 (F := F) c = seq ops3 := by
  simp only [main_part3, fn_var.body, fn_where.body, fn_relu.body, seq, bind_assoc, pure_bind] <;> rfl

theorem ops3_sub : (ops3 : List (HloOp τ sig (Elt F))).Forall fun op => op.bufs ⊆ tcRefs τ sig :=
  ⟨reshape_bufs_sub .., unary_bufs_sub .., reshape_bufs_sub .., unary_bufs_sub .., reshape_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., unary_bufs_sub .., binary_bufs_sub .., binary_bufs_sub ..,
    nullary_bufs_sub .., unary_bufs_sub .., nullary_bufs_sub ..⟩

theorem ops3_writes : (ops3 : List (HloOp τ sig (Elt F))).Forall fun op =>
    op.writes ⊆ ((W3.map (Proc.devRef (τ := τ) .tc)).toFinset : Finset (DevRef τ sig)) :=
  ⟨writes_sub_at W3 0 rfl rfl, writes_sub_at W3 1 rfl rfl, writes_sub_at W3 2 rfl rfl, writes_sub_at W3 3 rfl rfl, writes_sub_at W3 4 rfl rfl, writes_sub_at W3 5 rfl rfl,
    writes_sub_at W3 6 rfl rfl, writes_sub_at W3 7 rfl rfl, writes_sub_at W3 8 rfl rfl, writes_sub_at W3 9 rfl rfl, writes_sub_at W3 10 rfl rfl, writes_sub_at W3 11 rfl rfl,
    writes_sub_at W3 12 rfl rfl, writes_sub_at W3 13 rfl rfl, writes_sub_at W3 14 rfl rfl, writes_sub_at W3 15 rfl rfl, writes_sub_at W3 16 rfl rfl, writes_sub_at W3 17 rfl rfl,
    writes_sub_at W3 18 rfl rfl, writes_sub_at W3 19 rfl rfl, writes_sub_at W3 20 rfl rfl, writes_sub_at W3 21 rfl rfl, writes_sub_at W3 22 rfl rfl, writes_sub_at W3 23 rfl rfl,
    writes_sub_at W3 24 rfl rfl, writes_sub_at W3 25 rfl rfl, writes_sub_at W3 26 rfl rfl, writes_sub_at W3 27 rfl rfl, writes_sub_at W3 28 rfl rfl, writes_sub_at W3 29 rfl rfl,
    writes_sub_at W3 30 rfl rfl, writes_sub_at W3 31 rfl rfl, writes_sub_at W3 32 rfl rfl, writes_sub_at W3 33 rfl rfl, writes_sub_at W3 34 rfl rfl, writes_sub_at W3 35 rfl rfl,
    writes_sub_at W3 36 rfl rfl, writes_sub_at W3 37 rfl rfl, writes_sub_at W3 38 rfl rfl, writes_sub_at W3 39 rfl rfl, writes_sub_at W3 40 rfl rfl, writes_sub_at W3 41 rfl rfl,
    writes_sub_at W3 42 rfl rfl, writes_sub_at W3 43 rfl rfl, writes_sub_at W3 44 rfl rfl, writes_sub_at W3 45 rfl rfl, writes_sub_at W3 46 rfl rfl, writes_sub_at W3 47 rfl rfl,
    writes_sub_at W3 48 rfl rfl, writes_sub_at W3 49 rfl rfl, writes_sub_at W3 50 rfl rfl, writes_sub_at W3 51 rfl rfl, writes_sub_at W3 52 rfl rfl, writes_sub_at W3 53 rfl rfl,
    writes_sub_at W3 54 rfl rfl, writes_sub_at W3 55 rfl rfl, writes_sub_at W3 56 rfl rfl, writes_sub_at W3 57 rfl rfl, writes_sub_at W3 58 rfl rfl, writes_sub_at W3 59 rfl rfl,
    writes_sub_at W3 60 rfl rfl, writes_sub_at W3 61 rfl rfl, writes_sub_at W3 62 rfl rfl, writes_sub_at W3 63 rfl rfl, writes_sub_at W3 64 rfl rfl, writes_sub_at W3 65 rfl rfl,
    writes_sub_at W3 66 rfl rfl, writes_sub_at W3 67 rfl rfl, writes_sub_at W3 68 rfl rfl, writes_sub_at W3 69 rfl rfl, writes_sub_at W3 70 rfl rfl, writes_sub_at W3 71 rfl rfl,
    writes_sub_at W3 72 rfl rfl, writes_sub_at W3 73 rfl rfl, writes_sub_at W3 74 rfl rfl, writes_sub_at W3 75 rfl rfl, writes_sub_at W3 76 rfl rfl, writes_sub_at W3 77 rfl rfl,
    writes_sub_at W3 78 rfl rfl, writes_sub_at W3 79 rfl rfl, writes_sub_at W3 80 rfl rfl⟩

/-- Every operation of the window determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

end Cert.ReferenceIdeal.RefRun

end
-- ==== Proof.RefRun4.lean ====
import proofs.«117235_j17583596110491_1_alg».proof.Proof.Gen.ReferenceIdeal
import proofs.«117235_j17583596110491_1_alg».proof.Proof.RefRunBase

/-! # The reference program's statements 241 … 300 as a list of operations

`main_part4` is a straight line of StableHLO operations: its own, and at each call of a module-local function the
callee's operations over that call's buffer record (a call is the callee's body applied, so unfolding the body is the
inlining). `ops4` lists the 60 operations in program order; `main_part4_eq` says the window is `seq ops4`;
`ops4_sub` that every operation touches TensorCore references only; `ops4_writes` that every operation writes a
reference of the list `W4` (the result references, in program order); `ops4_fresh` that every operation determines
its results. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev ops4 : List (HloOp τ sig (Elt F)) :=
  [ StableHlo.unary main_cst_27 main_v210 (broadcastInDim S3000 ![] bcast_S_S3000 : (⟨S_, .f32⟩ : BufTy).Contents (Elt F) → (⟨S3000, .f32⟩ : BufTy).Contents (Elt F)),
    StableHlo.unary main_arg2 main_v211 (broadcastInDim S90000x1 ![0] bcast_S90000_S90000x1_0 : (⟨S90000, .i32⟩ : BufTy).Contents (Elt F) → (⟨S90000x1, .i32⟩ : BufTy).Contents (Elt F)),
    StableHlo.ternary main_v210 main_v211 main_v209 main_v212 ((fun x i u => Host.scatterAdd scatter_S3000_S90000x1_S90000_n_0_0_1 x i u) : (⟨S3000, .f32⟩ : BufTy).Contents (Elt F) → (⟨S90000x1, .i32⟩ : BufTy).Contents (Elt F) → (⟨S90000, .f32⟩ : BufTy).Contents (Elt F) → (⟨S3000, .f32⟩ : BufTy).Contents (Elt F)),
    StableHlo.nullary main_cst_28 (constant S_ .f32 0x00000000#32),
    StableHlo.unary main_cst_28 main_v213 (broadcastInDim S3000x128 ![] bcast_S_S3000x128 : (⟨S_, .f32⟩ : BufTy).Contents (Elt F) → (⟨S3000x128, .f32⟩ : BufTy).Contents (Elt F)),
    StableHlo.unary main_arg2 main_v214 (broadcastInDim S90000x1 ![0] bcast_S90000_S90000x1_0 : (⟨S90000, .i32⟩ : BufTy).Contents (Elt F) → (⟨S90000x1, .i32⟩ : BufTy).Contents (Elt F)),
    StableHlo.ternary main_v213 main_v214 main_v208 main_v215 ((fun x i u => Host.scatterAdd scatter_S3000x128_S90000x1_S90000x128_1_0_0_1 x i u) : (⟨S3000x128, .f32⟩ : BufTy).Contents (Elt F) → (⟨S90000x1, .i32⟩ : BufTy).Contents (Elt F) → (⟨S90000x128, .f32⟩ : BufTy).Contents (Elt F) → (⟨S3000x128, .f32⟩ : BufTy).Contents (Elt F)),
    StableHlo.unary main_v212 main_v216 (broadcastInDim S3000x1 ![0] bcast_S3000_S3000x1_0 : (⟨S3000, .f32⟩ : BufTy).Contents (Elt F) → (⟨S3000x1, .f32⟩ : BufTy).Contents (Elt F)),
    StableHlo.unary main_v216 main_v217 (broadcastInDim S3000x128 ![0, 1] bcast_S3000x1_S3000x128_0_1 : (⟨S3000x1, .f32⟩ : BufTy).Contents (Elt F) → (⟨S3000x128, .f32⟩ : BufTy).Contents (Elt F)),
    StableHlo.binary main_v215 main_v217 main_v218 (Host.divf : (⟨S3000x128, .f32⟩ : BufTy).Contents (Elt F) → (⟨S3000x128, .f32⟩ : BufTy).Contents (Elt F) → (⟨S3000x128, .f32⟩ : BufTy).Contents (Elt F)),
    StableHlo.binary main_v218 main_arg12 main_v219 ((fun l r => Host.dotGeneral dot_S3000x128_S128x1_S3000x1_1_0_0_1_n_n none l r) : (⟨S3000x128, .f32⟩ : BufTy).Contents (Elt F) → (⟨S128x1, .f32⟩ : BufTy).Contents (Elt F) → (⟨S3000x1, .f32⟩ : BufTy).Contents (Elt F)),
    StableHlo.unary main_arg13 main_v220 (broadcastInDim S1x1 ![1] bcast_S1_S1x1_1 : (⟨S1, .f32⟩ : BufTy).Contents (Elt F) → (⟨S1x1, .f32⟩ : BufTy).Contents (Elt F)),
    StableHlo.unary main_v220 main_v221 (broadcastInDim S3000x1 ![0, 1] bcast_S1x1_S3000x1_0_1 : (⟨S1x1, .f32⟩ : BufTy).Contents (Elt F) → (⟨S3000x1, .f32⟩ : BufTy).Contents (Elt F)),
    StableHlo.binary main_v219 main_v221 main_v222 (addf : (⟨S3000x1, .f32⟩ : BufTy).Contents (Elt F) → (⟨S3000x1, .f32⟩ : BufTy).Contents (Elt F) → (⟨S3000x1, .f32⟩ : BufTy).Contents (Elt F)),
    StableHlo.reshape main_v222 main_v223 rfl shapeCasts_S3000x1_S3000,
    StableHlo.binary main_v223 main_arg3 main_v224 (subf : (⟨S3000, .f32⟩ : BufTy).Contents (Elt F) → (⟨S3000, .f32⟩ : BufTy).Contents (Elt F) → (⟨S3000, .f32⟩ : BufTy).Contents (Elt F)),
    StableHlo.unary main_v224 main_v225 (Host.absf : (⟨S3000, .f32⟩ : BufTy).Contents (Elt F) → (⟨S3000, .f32⟩ : BufTy).Contents (Elt F)),
    StableHlo.nullary main_cst_29 (constant S_ .f32 0x00000000#32),
    StableHlo.binary main_v225 main_cst_29 main_v226 ((fun x v => Host.reduceAdd x v reducesTo_S3000_S_d0 h_S_) : (⟨S3000, .f32⟩ : BufTy).Contents (Elt F) → (⟨S_, .f32⟩ : BufTy).Contents (Elt F) → (⟨S_, .f32⟩ : BufTy).Contents (Elt F)),
    StableHlo.nullary main_cst_30 (constant S_ .f32 0x453B8000#32),
    StableHlo.binary main_v226 main_cst_30 main_v227 (Host.divf : (⟨S_, .f32⟩ : BufTy).Contents (Elt F) → (⟨S_, .f32⟩ : BufTy).Contents (Elt F) → (⟨S_, .f32⟩ : BufTy).Contents (Elt F)),
    StableHlo.unary main_arg4 main_v228 ((extractStridedSlice S1x675000 ![0, 0] · slices_S2x675000_S1x675000_0_0) : (⟨S2x675000, .i32⟩ : BufTy).Contents (Elt F) → (⟨S1x675000, .i32⟩ : BufTy).Contents (Elt F)),
    StableHlo.reshape main_v228 main_v229 rfl shapeCasts_S1x675000_S675000,
    StableHlo.nullary main_c_31 (constantI S_ 32 0#32),
    StableHlo.unary main_c_31 main_v230 (broadcastInDim S675000 ![] bcast_S_S675000 : (⟨S_, .i32⟩ : BufTy).Contents (Elt F) → (⟨S675000, .i32⟩ : BufTy).Contents (Elt F)),
    StableHlo.binary main_v229 main_v230 main_v231 (cmpi .slt : (⟨S675000, .i32⟩ : BufTy).Contents (Elt F) → (⟨S675000, .i32⟩ : BufTy).Contents (Elt F) → (⟨S675000, .i1⟩ : BufTy).Contents (Elt F)),
    StableHlo.nullary main_c_32 (constantI S_ 32 90000#32),
    StableHlo.unary main_c_32 main_v232 (broadcastInDim S675000 ![] bcast_S_S675000 : (⟨S_, .i32⟩ : BufTy).Contents (Elt F) → (⟨S675000, .i32⟩ : BufTy).Contents (Elt F)),
    StableHlo.binary main_v229 main_v232 main_v233 (addi : (⟨S675000, .i32⟩ : BufTy).Contents (Elt F) → (⟨S675000, .i32⟩ : BufTy).Contents (Elt F) → (⟨S675000, .i32⟩ : BufTy).Contents (Elt F)),
    StableHlo.ternary main_v231 main_v233 main_v229 main_v234 (select : (⟨S675000, .i1⟩ : BufTy).Contents (Elt F) → (⟨S675000, .i32⟩ : BufTy).Contents (Elt F) → (⟨S675000, .i32⟩ : BufTy).Contents (Elt F) → (⟨S675000, .i32⟩ : BufTy).Contents (Elt F)),
    StableHlo.unary main_v234 main_v235 (broadcastInDim S675000x1 ![0] bcast_S675000_S675000x1_0 : (⟨S675000, .i32⟩ : BufTy).Contents (Elt F) → (⟨S675000x1, .i32⟩ : BufTy).Contents (Elt F)),
    StableHlo.binary main_v208 main_v235 main_v236 ((fun x i => Host.gather gather_S90000x128_S675000x1_S675000x128_1_0_n_n_0_1_1128 x i) : (⟨S90000x128, .f32⟩ : BufTy).Contents (Elt F) → (⟨S675000x1, .i32⟩ : BufTy).Contents (Elt F) → (⟨S675000x128, .f32⟩ : BufTy).Contents (Elt F)),
    StableHlo.unary main_arg4 main_v237 ((extractStridedSlice S1x675000 ![1, 0] · slices_S2x675000_S1x675000_1_0) : (⟨S2x675000, .i32⟩ : BufTy).Contents (Elt F) → (⟨S1x675000, .i32⟩ : BufTy).Contents (Elt F)),
    StableHlo.reshape main_v237 main_v238 rfl shapeCasts_S1x675000_S675000,
    StableHlo.nullary main_c_33 (constantI S_ 32 0#32),
    StableHlo.unary main_c_33 main_v239 (broadcastInDim S675000 ![] bcast_S_S675000 : (⟨S_, .i32⟩ : BufTy).Contents (Elt F) → (⟨S675000, .i32⟩ : BufTy).Contents (Elt F)),
    StableHlo.binary main_v238 main_v239 main_v240 (cmpi .slt : (⟨S675000, .i32⟩ : BufTy).Contents (Elt F) → (⟨S675000, .i32⟩ : BufTy).Contents (Elt F) → (⟨S675000, .i1⟩ : BufTy).Contents (Elt F)),
    StableHlo.nullary main_c_34 (constantI S_ 32 90000#32),
    StableHlo.unary main_c_34 main_v241 (broadcastInDim S675000 ![] bcast_S_S675000 : (⟨S_, .i32⟩ : BufTy).Contents (Elt F) → (⟨S675000, .i32⟩ : BufTy).Contents (Elt F)),
    StableHlo.binary main_v238 main_v241 main_v242 (addi : (⟨S675000, .i32⟩ : BufTy).Contents (Elt F) → (⟨S675000, .i32⟩ : BufTy).Contents (Elt F) → (⟨S675000, .i32⟩ : BufTy).Contents (Elt F)),
    StableHlo.ternary main_v240 main_v242 main_v238 main_v243 (select : (⟨S675000, .i1⟩ : BufTy).Contents (Elt F) → (⟨S675000, .i32⟩ : BufTy).Contents (Elt F) → (⟨S675000, .i32⟩ : BufTy).Contents (Elt F) → (⟨S675000, .i32⟩ : BufTy).Contents (Elt F)),
    StableHlo.unary main_v243 main_v244 (broadcastInDim S675000x1 ![0] bcast_S675000_S675000x1_0 : (⟨S675000, .i32⟩ : BufTy).Contents (Elt F) → (⟨S675000x1, .i32⟩ : BufTy).Contents (Elt F)),
    StableHlo.binary main_v208 main_v244 main_v245 ((fun x i => Host.gather gather_S90000x128_S675000x1_S675000x128_1_0_n_n_0_1_1128 x i) : (⟨S90000x128, .f32⟩ : BufTy).Contents (Elt F) → (⟨S675000x1, .i32⟩ : BufTy).Contents (Elt F) → (⟨S675000x128, .f32⟩ : BufTy).Contents (Elt F)),
    StableHlo.binary main_v236 main_v245 main_v246 ((fun a b => concatenate S675000x256 1 [⟨S675000x128, a⟩, ⟨S675000x128, b⟩] concatenates_S675000x128_S675000x128_S675000x256_d1) : (⟨S675000x128, .f32⟩ : BufTy).Contents (Elt F) → (⟨S675000x128, .f32⟩ : BufTy).Contents (Elt F) → (⟨S675000x256, .f32⟩ : BufTy).Contents (Elt F)),
    StableHlo.binary main_v246 main_arg14 main_v247 ((fun l r => Host.dotGeneral dot_S675000x256_S256x1_S675000x1_1_0_0_1_n_n none l r) : (⟨S675000x256, .f32⟩ : BufTy).Contents (Elt F) → (⟨S256x1, .f32⟩ : BufTy).Contents (Elt F) → (⟨S675000x1, .f32⟩ : BufTy).Contents (Elt F)),
    StableHlo.unary main_arg15 main_v248 (broadcastInDim S1x1 ![1] bcast_S1_S1x1_1 : (⟨S1, .f32⟩ : BufTy).Contents (Elt F) → (⟨S1x1, .f32⟩ : BufTy).Contents (Elt F)),
    StableHlo.unary main_v248 main_v249 (broadcastInDim S675000x1 ![0, 1] bcast_S1x1_S675000x1_0_1 : (⟨S1x1, .f32⟩ : BufTy).Contents (Elt F) → (⟨S675000x1, .f32⟩ : BufTy).Contents (Elt F)),
    StableHlo.binary main_v247 main_v249 main_v250 (addf : (⟨S675000x1, .f32⟩ : BufTy).Contents (Elt F) → (⟨S675000x1, .f32⟩ : BufTy).Contents (Elt F) → (⟨S675000x1, .f32⟩ : BufTy).Contents (Elt F)),
    StableHlo.unary main_v250 main_v251 (Host.negf : (⟨S675000x1, .f32⟩ : BufTy).Contents (Elt F) → (⟨S675000x1, .f32⟩ : BufTy).Contents (Elt F)),
    StableHlo.unary main_v251 main_v252 (Host.exp : (⟨S675000x1, .f32⟩ : BufTy).Contents (Elt F) → (⟨S675000x1, .f32⟩ : BufTy).Contents (Elt F)),
    StableHlo.nullary main_cst_35 (constant S_ .f32 0x3F800000#32),
    StableHlo.unary main_cst_35 main_v253 (broadcastInDim S675000x1 ![] bcast_S_S675000x1 : (⟨S_, .f32⟩ : BufTy).Contents (Elt F) → (⟨S675000x1, .f32⟩ : BufTy).Contents (Elt F)),
    StableHlo.binary main_v253 main_v252 main_v254 (addf : (⟨S675000x1, .f32⟩ : BufTy).Contents (Elt F) → (⟨S675000x1, .f32⟩ : BufTy).Contents (Elt F) → (⟨S675000x1, .f32⟩ : BufTy).Contents (Elt F)),
    StableHlo.nullary main_cst_36 (constant S_ .f32 0x3F800000#32),
    StableHlo.unary main_cst_36 main_v255 (broadcastInDim S675000x1 ![] bcast_S_S675000x1 : (⟨S_, .f32⟩ : BufTy).Contents (Elt F) → (⟨S675000x1, .f32⟩ : BufTy).Contents (Elt F)),
    StableHlo.binary main_v255 main_v254 main_v256 (Host.divf : (⟨S675000x1, .f32⟩ : BufTy).Contents (Elt F) → (⟨S675000x1, .f32⟩ : BufTy).Contents (Elt F) → (⟨S675000x1, .f32⟩ : BufTy).Contents (Elt F)),
    StableHlo.nullary main_cst_37 (constant S_ .f32 0x40000000#32),
    StableHlo.unary main_cst_37 main_v257 (broadcastInDim S90000x128 ![] bcast_S_S90000x128 : (⟨S_, .f32⟩ : BufTy).Contents (Elt F) → (⟨S90000x128, .f32⟩ : BufTy).Contents (Elt F)),
    StableHlo.binary main_v257 main_v205 main_v258 (mulf : (⟨S90000x128, .f32⟩ : BufTy).Contents (Elt F) → (⟨S90000x128, .f32⟩ : BufTy).Contents (Elt F) → (⟨S90000x128, .f32⟩ : BufTy).Contents (Elt F)),
    StableHlo.nullary main_cst_38 (constant S_ .f32 0x3F800000#32) ]

/-- The references the window's operations write, in order. -/
abbrev W4 : List (Ref sig .tc) :=
  [ main_v210, main_v211, main_v212, main_cst_28, main_v213, main_v214, main_v215, main_v216,
    main_v217, main_v218, main_v219, main_v220, main_v221, main_v222, main_v223, main_v224,
    main_v225, main_cst_29, main_v226, main_cst_30, main_v227, main_v228, main_v229, main_c_31,
    main_v230, main_v231, main_c_32, main_v232, main_v233, main_v234, main_v235, main_v236,
    main_v237, main_v238, main_c_33, main_v239, main_v240, main_c_34, main_v241, main_v242,
    main_v243, main_v244, main_v245, main_v246, main_v247, main_v248, main_v249, main_v250,
    main_v251, main_v252, main_cst_35, main_v253, main_v254, main_cst_36, main_v255, main_v256,
    main_cst_37, main_v257, main_v258, main_cst_38 ]

set_option maxRecDepth 65536 in
/-- The window is that straight line: the functions' bodies unfolded at their calls and the records at their fields, both
    sides are one chain of `hlo` steps once sequencing is reassociated. -/
theorem main_part4_eq (c : Dev nD) : main_part4 (F := F) c = seq ops4 := by
  simp only [main_part4, fn_var.body, fn_where.body, fn_relu.body, seq, bind_assoc, pure_bind] <;> rfl

theorem ops4_sub : (ops4 : List (HloOp τ sig (Elt F))).Forall fun op => op.bufs ⊆ tcRefs τ sig :=
  ⟨unary_bufs_sub .., unary_bufs_sub .., ternary_bufs_sub .., nullary_bufs_sub .., unary_bufs_sub .., unary_bufs_sub ..,
    ternary_bufs_sub .., unary_bufs_sub .., unary_bufs_sub .., binary_bufs_sub .., binary_bufs_sub .., unary_bufs_sub ..,
    unary_bufs_sub .., binary_bufs_sub .., reshape_bufs_sub .., binary_bufs_sub .., unary_bufs_sub .., nullary_bufs_sub ..,
    binary_bufs_sub .., nullary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..⟩

theorem ops4_writes : (ops4 : List (HloOp τ sig (Elt F))).Forall fun op =>
    op.writes ⊆ ((W4.map (Proc.devRef (τ := τ) .tc)).toFinset : Finset (DevRef τ sig)) :=
  ⟨writes_sub_at W4 0 rfl rfl, writes_sub_at W4 1 rfl rfl, writes_sub_at W4 2 rfl rfl, writes_sub_at W4 3 rfl rfl, writes_sub_at W4 4 rfl rfl, writes_sub_at W4 5 rfl rfl,
    writes_sub_at W4 6 rfl rfl, writes_sub_at W4 7 rfl rfl, writes_sub_at W4 8 rfl rfl, writes_sub_at W4 9 rfl rfl, writes_sub_at W4 10 rfl rfl, writes_sub_at W4 11 rfl rfl,
    writes_sub_at W4 12 rfl rfl, writes_sub_at W4 13 rfl rfl, writes_sub_at W4 14 rfl rfl, writes_sub_at W4 15 rfl rfl, writes_sub_at W4 16 rfl rfl, writes_sub_at W4 17 rfl rfl,
    writes_sub_at W4 18 rfl rfl, writes_sub_at W4 19 rfl rfl, writes_sub_at W4 20 rfl rfl, writes_sub_at W4 21 rfl rfl, writes_sub_at W4 22 rfl rfl, writes_sub_at W4 23 rfl rfl,
    writes_sub_at W4 24 rfl rfl, writes_sub_at W4 25 rfl rfl, writes_sub_at W4 26 rfl rfl, writes_sub_at W4 27 rfl rfl, writes_sub_at W4 28 rfl rfl, writes_sub_at W4 29 rfl rfl,
    writes_sub_at W4 30 rfl rfl, writes_sub_at W4 31 rfl rfl, writes_sub_at W4 32 rfl rfl, writes_sub_at W4 33 rfl rfl, writes_sub_at W4 34 rfl rfl, writes_sub_at W4 35 rfl rfl,
    writes_sub_at W4 36 rfl rfl, writes_sub_at W4 37 rfl rfl, writes_sub_at W4 38 rfl rfl, writes_sub_at W4 39 rfl rfl, writes_sub_at W4 40 rfl rfl, writes_sub_at W4 41 rfl rfl,
    writes_sub_at W4 42 rfl rfl, writes_sub_at W4 43 rfl rfl, writes_sub_at W4 44 rfl rfl, writes_sub_at W4 45 rfl rfl, writes_sub_at W4 46 rfl rfl, writes_sub_at W4 47 rfl rfl,
    writes_sub_at W4 48 rfl rfl, writes_sub_at W4 49 rfl rfl, writes_sub_at W4 50 rfl rfl, writes_sub_at W4 51 rfl rfl, writes_sub_at W4 52 rfl rfl, writes_sub_at W4 53 rfl rfl,
    writes_sub_at W4 54 rfl rfl, writes_sub_at W4 55 rfl rfl, writes_sub_at W4 56 rfl rfl, writes_sub_at W4 57 rfl rfl, writes_sub_at W4 58 rfl rfl, writes_sub_at W4 59 rfl rfl⟩

/-- Every operation of the window determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

end Cert.ReferenceIdeal.RefRun

end
-- ==== Proof.RefRun5.lean ====
import proofs.«117235_j17583596110491_1_alg».proof.Proof.Gen.ReferenceIdeal
import proofs.«117235_j17583596110491_1_alg».proof.Proof.RefRunBase

/-! # The reference program's statements 301 … 316 as a list of operations

`main_part5` is a straight line of StableHLO operations: its own, and at each call of a module-local function the
callee's operations over that call's buffer record (a call is the callee's body applied, so unfolding the body is the
inlining). `ops5` lists the 15 operations in program order; `main_part5_eq` says the window is `seq ops5`;
`ops5_sub` that every operation touches TensorCore references only; `ops5_writes` that every operation writes a
reference of the list `W5` (the result references, in program order); `ops5_fresh` that every operation determines
its results. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 15 operations, in order. -/
abbrev ops5 : List (HloOp τ sig (Elt F)) :=
  [ StableHlo.unary main_cst_38 main_v259 (broadcastInDim S90000x128 ![] bcast_S_S90000x128 : (⟨S_, .f32⟩ : BufTy).Contents (Elt F) → (⟨S90000x128, .f32⟩ : BufTy).Contents (Elt F)),
    StableHlo.binary main_v259 main_v258 main_v260 (addf : (⟨S90000x128, .f32⟩ : BufTy).Contents (Elt F) → (⟨S90000x128, .f32⟩ : BufTy).Contents (Elt F) → (⟨S90000x128, .f32⟩ : BufTy).Contents (Elt F)),
    StableHlo.binary main_v155 main_v155 main_v261 (mulf : (⟨S90000x128, .f32⟩ : BufTy).Contents (Elt F) → (⟨S90000x128, .f32⟩ : BufTy).Contents (Elt F) → (⟨S90000x128, .f32⟩ : BufTy).Contents (Elt F)),
    StableHlo.binary main_v260 main_v261 main_v262 (subf : (⟨S90000x128, .f32⟩ : BufTy).Contents (Elt F) → (⟨S90000x128, .f32⟩ : BufTy).Contents (Elt F) → (⟨S90000x128, .f32⟩ : BufTy).Contents (Elt F)),
    StableHlo.unary main_v205 main_v263 (Host.exp : (⟨S90000x128, .f32⟩ : BufTy).Contents (Elt F) → (⟨S90000x128, .f32⟩ : BufTy).Contents (Elt F)),
    StableHlo.binary main_v263 main_v263 main_v264 (mulf : (⟨S90000x128, .f32⟩ : BufTy).Contents (Elt F) → (⟨S90000x128, .f32⟩ : BufTy).Contents (Elt F) → (⟨S90000x128, .f32⟩ : BufTy).Contents (Elt F)),
    StableHlo.binary main_v262 main_v264 main_v265 (subf : (⟨S90000x128, .f32⟩ : BufTy).Contents (Elt F) → (⟨S90000x128, .f32⟩ : BufTy).Contents (Elt F) → (⟨S90000x128, .f32⟩ : BufTy).Contents (Elt F)),
    StableHlo.nullary main_cst_39 (constant S_ .f32 0x00000000#32),
    StableHlo.binary main_v265 main_cst_39 main_v266 ((fun x v => Host.reduceAdd x v reducesTo_S90000x128_S90000_d1 h_S_) : (⟨S90000x128, .f32⟩ : BufTy).Contents (Elt F) → (⟨S_, .f32⟩ : BufTy).Contents (Elt F) → (⟨S90000, .f32⟩ : BufTy).Contents (Elt F)),
    StableHlo.nullary main_cst_40 (constant S_ .f32 0x00000000#32),
    StableHlo.binary main_v266 main_cst_40 main_v267 ((fun x v => Host.reduceAdd x v reducesTo_S90000_S_d0 h_S_) : (⟨S90000, .f32⟩ : BufTy).Contents (Elt F) → (⟨S_, .f32⟩ : BufTy).Contents (Elt F) → (⟨S_, .f32⟩ : BufTy).Contents (Elt F)),
    StableHlo.nullary main_cst_41 (constant S_ .f32 0x47AFC800#32),
    StableHlo.binary main_v267 main_cst_41 main_v268 (Host.divf : (⟨S_, .f32⟩ : BufTy).Contents (Elt F) → (⟨S_, .f32⟩ : BufTy).Contents (Elt F) → (⟨S_, .f32⟩ : BufTy).Contents (Elt F)),
    StableHlo.nullary main_cst_42 (constant S_ .f32 0x36BA69DC#32),
    StableHlo.binary main_cst_42 main_v268 main_v269 (mulf : (⟨S_, .f32⟩ : BufTy).Contents (Elt F) → (⟨S_, .f32⟩ : BufTy).Contents (Elt F) → (⟨S_, .f32⟩ : BufTy).Contents (Elt F)) ]

/-- The references the window's operations write, in order. -/
abbrev W5 : List (Ref sig .tc) :=
  [ main_v259, main_v260, main_v261, main_v262, main_v263, main_v264, main_v265, main_cst_39,
    main_v266, main_cst_40, main_v267, main_cst_41, main_v268, main_cst_42, main_v269 ]

set_option maxRecDepth 65536 in
/-- The window is that straight line: the functions' bodies unfolded at their calls and the records at their fields, both
    sides are one chain of `hlo` steps once sequencing is reassociated. -/
theorem main_part5_eq (c : Dev nD) : main_part5 (F := F) c = seq ops5 := by
  simp only [main_part5, fn_var.body, fn_where.body, fn_relu.body, seq, bind_assoc, pure_bind] <;> rfl

theorem ops5_sub : (ops5 : List (HloOp τ sig (Elt F))).Forall fun op => op.bufs ⊆ tcRefs τ sig :=
  ⟨unary_bufs_sub .., binary_bufs_sub .., binary_bufs_sub .., binary_bufs_sub .., unary_bufs_sub .., binary_bufs_sub ..,
    binary_bufs_sub .., nullary_bufs_sub .., binary_bufs_sub .., nullary_bufs_sub .., binary_bufs_sub .., nullary_bufs_sub ..,
    binary_bufs_sub .., nullary_bufs_sub .., binary_bufs_sub ..⟩

theorem ops5_writes : (ops5 : List (HloOp τ sig (Elt F))).Forall fun op =>
    op.writes ⊆ ((W5.map (Proc.devRef (τ := τ) .tc)).toFinset : Finset (DevRef τ sig)) :=
  ⟨writes_sub_at W5 0 rfl rfl, writes_sub_at W5 1 rfl rfl, writes_sub_at W5 2 rfl rfl, writes_sub_at W5 3 rfl rfl, writes_sub_at W5 4 rfl rfl, writes_sub_at W5 5 rfl rfl,
    writes_sub_at W5 6 rfl rfl, writes_sub_at W5 7 rfl rfl, writes_sub_at W5 8 rfl rfl, writes_sub_at W5 9 rfl rfl, writes_sub_at W5 10 rfl rfl, writes_sub_at W5 11 rfl rfl,
    writes_sub_at W5 12 rfl rfl, writes_sub_at W5 13 rfl rfl, writes_sub_at W5 14 rfl rfl⟩

/-- Every operation of the window determines its results. -/
theorem ops5_fresh : (ops5 : List (HloOp τ sig (Elt F))).Forall fun op => op.fresh = ∅ :=
  ⟨rfl, rfl, rfl, rfl, rfl, rfl, rfl, rfl, rfl, rfl, rfl, rfl, rfl, rfl, rfl⟩

end Cert.ReferenceIdeal.RefRun

end
-- ==== Proof.RefRun.lean ====
import proofs.«117235_j17583596110491_1_alg».proof.Proof.RefRunFold
import proofs.«117235_j17583596110491_1_alg».proof.Proof.RefRun0
import proofs.«117235_j17583596110491_1_alg».proof.Proof.RefRun1
import proofs.«117235_j17583596110491_1_alg».proof.Proof.RefRun2
import proofs.«117235_j17583596110491_1_alg».proof.Proof.RefRun3
import proofs.«117235_j17583596110491_1_alg».proof.Proof.RefRun4
import proofs.«117235_j17583596110491_1_alg».proof.Proof.RefRun5

/-! # The reference program's run

@main runs its six windows in order, and each window is the straight line of its operations (`main_partK_eq`), so @main
is the straight line `seq ops` of the six lists appended (`StableHlo.seq_append`). A straight line of operations that
touch TensorCore references only, on a signature that scopes nothing, runs to its end from any memory with zero counters,
and every TensorCore buffer then holds the fold `after ops` of the operations' results over its launch contents
(`StableHlo.run_seq`). No operation writes an argument's buffer — the written references are listed window by window,
and no argument is in a list — so the fold leaves the arguments' contents as they were. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 403 operations, in order: the six windows' lists appended. -/
abbrev ops : List (HloOp τ sig (Elt F)) := ops0 ++ (ops1 ++ (ops2 ++ (ops3 ++ (ops4 ++ ops5))))

/-- The references @main's operations write, in order. -/
abbrev W : List (Ref sig .tc) := W0 ++ (W1 ++ (W2 ++ (W3 ++ (W4 ++ W5))))

/-- @main is the straight line of its operations: it runs the windows in order, each window is the line of its own
    list, and lines run one after the other are their concatenation run as one. -/
theorem main_eq (c : Dev nD) : main (F := F) c = seq ops := by
  show main (F := F) c = seq (ops0 ++ (ops1 ++ (ops2 ++ (ops3 ++ (ops4 ++ ops5)))))
  rw [seq_append, seq_append, seq_append, seq_append, seq_append, ← main_part0_eq c, ← main_part1_eq c, ← main_part2_eq c,
    ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.2 ⟨ops0_sub, List.forall_append.2 ⟨ops1_sub, List.forall_append.2 ⟨ops2_sub,
    List.forall_append.2 ⟨ops3_sub, List.forall_append.2 ⟨ops4_sub, ops5_sub⟩⟩⟩⟩⟩

/-- Every operation determines its results. -/
theorem ops_fresh : (ops : List (HloOp τ sig (Elt F))).Forall fun op => op.fresh = ∅ :=
  List.forall_append.2 ⟨ops0_fresh, List.forall_append.2 ⟨ops1_fresh, List.forall_append.2 ⟨ops2_fresh,
    List.forall_append.2 ⟨ops3_fresh, List.forall_append.2 ⟨ops4_fresh, ops5_fresh⟩⟩⟩⟩⟩

/-- Every operation writes a reference of `W`. -/
theorem ops_writes : (ops : List (HloOp τ sig (Elt F))).Forall fun op =>
    op.writes ⊆ ((W.map (Proc.devRef (τ := τ) .tc)).toFinset : Finset (DevRef τ sig)) :=
  writes_sub_append ops0_writes (writes_sub_append ops1_writes (writes_sub_append ops2_writes
    (writes_sub_append ops3_writes (writes_sub_append ops4_writes ops5_writes))))

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

/-! ## The fold, window by window -/

/-- The fold of @main's operations is the six windows' folds, one over the other. -/
theorem after_ops (V : Valuation τ sig (Elt F)) :
    after ops V = after ops5 (after ops4 (after ops3 (after ops2 (after ops1 (after ops0 V))))) := by
  show after (ops0 ++ (ops1 ++ (ops2 ++ (ops3 ++ (ops4 ++ ops5))))) V = _
  rw [after_append, after_append, after_append, after_append, after_append]

/-! ## The arguments are kept

No argument's reference is among the written ones (decided over the references), so the fold leaves its contents. -/

theorem arg0_kept (V : Valuation τ sig (Elt F)) :
    after ops V (main_arg0 : DevRef τ sig) = V (main_arg0 : DevRef τ sig) :=
  after_of_writes_sub ops V ops_writes (by decide)

theorem arg1_kept (V : Valuation τ sig (Elt F)) :
    after ops V (main_arg1 : DevRef τ sig) = V (main_arg1 : DevRef τ sig) :=
  after_of_writes_sub ops V ops_writes (by decide)

theorem arg2_kept (V : Valuation τ sig (Elt F)) :
    after ops V (main_arg2 : DevRef τ sig) = V (main_arg2 : DevRef τ sig) :=
  after_of_writes_sub ops V ops_writes (by decide)

theorem arg3_kept (V : Valuation τ sig (Elt F)) :
    after ops V (main_arg3 : DevRef τ sig) = V (main_arg3 : DevRef τ sig) :=
  after_of_writes_sub ops V ops_writes (by decide)

theorem arg4_kept (V : Valuation τ sig (Elt F)) :
    after ops V (main_arg4 : DevRef τ sig) = V (main_arg4 : DevRef τ sig) :=
  after_of_writes_sub ops V ops_writes (by decide)

theorem arg5_kept (V : Valuation τ sig (Elt F)) :
    after ops V (main_arg5 : DevRef τ sig) = V (main_arg5 : DevRef τ sig) :=
  after_of_writes_sub ops V ops_writes (by decide)

theorem arg6_kept (V : Valuation τ sig (Elt F)) :
    after ops V (main_arg6 : DevRef τ sig) = V (main_arg6 : DevRef τ sig) :=
  after_of_writes_sub ops V ops_writes (by decide)

theorem arg7_kept (V : Valuation τ sig (Elt F)) :
    after ops V (main_arg7 : DevRef τ sig) = V (main_arg7 : DevRef τ sig) :=
  after_of_writes_sub ops V ops_writes (by decide)

theorem arg8_kept (V : Valuation τ sig (Elt F)) :
    after ops V (main_arg8 : DevRef τ sig) = V (main_arg8 : DevRef τ sig) :=
  after_of_writes_sub ops V ops_writes (by decide)

theorem arg9_kept (V : Valuation τ sig (Elt F)) :
    after ops V (main_arg9 : DevRef τ sig) = V (main_arg9 : DevRef τ sig) :=
  after_of_writes_sub ops V ops_writes (by decide)

theorem arg10_kept (V : Valuation τ sig (Elt F)) :
    after ops V (main_arg10 : DevRef τ sig) = V (main_arg10 : DevRef τ sig) :=
  after_of_writes_sub ops V ops_writes (by decide)

theorem arg11_kept (V : Valuation τ sig (Elt F)) :
    after ops V (main_arg11 : DevRef τ sig) = V (main_arg11 : DevRef τ sig) :=
  after_of_writes_sub ops V ops_writes (by decide)

theorem arg12_kept (V : Valuation τ sig (Elt F)) :
    after ops V (main_arg12 : DevRef τ sig) = V (main_arg12 : DevRef τ sig) :=
  after_of_writes_sub ops V ops_writes (by decide)

theorem arg13_kept (V : Valuation τ sig (Elt F)) :
    after ops V (main_arg13 : DevRef τ sig) = V (main_arg13 : DevRef τ sig) :=
  after_of_writes_sub ops V ops_writes (by decide)

theorem arg14_kept (V : Valuation τ sig (Elt F)) :
    after ops V (main_arg14 : DevRef τ sig) = V (main_arg14 : DevRef τ sig) :=
  after_of_writes_sub ops V ops_writes (by decide)

theorem arg15_kept (V : Valuation τ sig (Elt F)) :
    after ops V (main_arg15 : DevRef τ sig) = V (main_arg15 : DevRef τ sig) :=
  after_of_writes_sub ops V ops_writes (by decide)

end Cert.ReferenceIdeal.RefRun

end
-- ==== Proof.KernelRun.lean ====
/-
  The idealized kernel program's run with its four results named.

  The program is eight kernel regions among nine stretches of host operations.  Its generated frame proof runs
  the segments one after the other and keeps, at every boundary, the contents of every buffer as a fold from
  the launch memory; the last fold is W17.  The frame theorem itself only reads the sixteen argument arrays off
  that last fold.  Here the same run is read at the four result buffers as well: every weakly fair execution
  terminates, the arguments end as launched, and each result buffer ends at the last fold's value there.
-/
import proofs.«117235_j17583596110491_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with each result buffer at the last boundary's contents and the
    argument arrays as launched. -/
theorem run_values : θ_run defs (onTc (τ := τ) (main (F := F))) ⟨m, fun _ => 0, ρ⟩ (fun r => ∀ c : Dev nD,
      r.2.mem ((c.tc : Thread nD τ).loc main_v190) = W17 m ρ c (Proc.devRef .tc main_v190)
      ∧ r.2.mem ((c.tc : Thread nD τ).loc main_v203) = W17 m ρ c (Proc.devRef .tc main_v203)
      ∧ r.2.mem ((c.tc : Thread nD τ).loc main_v161) = W17 m ρ c (Proc.devRef .tc main_v161)
      ∧ r.2.mem ((c.tc : Thread nD τ).loc main_v156) = W17 m ρ c (Proc.devRef .tc main_v156)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨(h c _ (mem_uc main_v190 (by decide))),
       (h c _ (mem_uc main_v203 (by decide))),
       (h c _ (mem_uc main_v161 (by decide))),
       (h c _ (mem_uc main_v156 (by decide))),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c)⟩)

end Cert.KernelIdeal.KRun

end
-- ==== Proof.LayerSpec.lean ====
/-
  The two closed forms of one layer, as whole-array functions of the arrays a kernel region finds.

  lin1     h[n, k]   = Σ_j (x[n, j] + agg[n, j]) · W₁[j, k] + b₁[0, k]          (N = 90000 rows)
  colSum   s[0, k]   = Σ_n h[n, k]            colSumSq  ss[0, k] = Σ_n h[n, k] · h[n, k]
  norm2    out[n, j] = Σ_k act(((h[n, k] − mean[0, k]) · rsqrt(var[0, k] + ε)) · γ[0, k] + β[0, k]) · W₂[k, j] + b₂[0, j]
  with act = max(·, 0) for the first two layers and the identity for the last two.
  Row n of h, and of out, depends on row n of the inputs only: this is why a row-tiled grid computes them.
-/
import Idealize.ShloMosaic.PureOps.Ideal
import Idealize.ShloMosaic.Lib.ValueIdx

noncomputable section

open scoped BigOperators

namespace Cert.LayerSpec

open Idealize.ShloMosaic Idealize.ShloMosaic.ValueIdx

/-- A rank-two array of extended reals with literal extents. -/
abbrev Arr (a b : ℕ) : Type := (⟨2, ![a, b]⟩ : Shape).Idx → EReal

/-- One entry of the first affine map. -/
def lin1At (x agg : Arr 90000 128) (W : Arr 128 256) (b : Arr 1 256) (n : Fin 90000) (k : Fin 256) : EReal :=
  (∑ j : Fin 128, (x (ix2 n j) + agg (ix2 n j)) * W (ix2 j k)) + b (ix2 0 k)

/-- The first affine map, (x + agg)·W₁ + b₁. -/
def lin1 (x agg : Arr 90000 128) (W : Arr 128 256) (b : Arr 1 256) : Arr 90000 256 :=
  fun i => lin1At x agg W b (i 0) (i 1)

theorem lin1_apply (x agg : Arr 90000 128) (W : Arr 128 256) (b : Arr 1 256) (n : Fin 90000) (k : Fin 256) :
    lin1 x agg W b (ix2 n k) = lin1At x agg W b n k := rfl

/-- The column sums over all rows. -/
def colSum (h : Arr 90000 256) : Arr 1 256 := fun i => ∑ n : Fin 90000, h (ix2 n (i 1))

theorem colSum_apply (h : Arr 90000 256) (z : Fin 1) (k : Fin 256) : colSum h (ix2 z k) = ∑ n : Fin 90000, h (ix2 n k) := rfl

/-- The column sums of squares over all rows. -/
def colSumSq (h : Arr 90000 256) : Arr 1 256 := fun i => ∑ n : Fin 90000, h (ix2 n (i 1)) * h (ix2 n (i 1))

theorem colSumSq_apply (h : Arr 90000 256) (z : Fin 1) (k : Fin 256) :
    colSumSq h (ix2 z k) = ∑ n : Fin 90000, h (ix2 n k) * h (ix2 n k) := rfl

/-- The activation: max(·, 0) or the identity. -/
def act (relu : Bool) (y : EReal) : EReal := if relu then max y 0 else y

/-- One entry of the normalised second affine map. -/
def norm2At (relu : Bool) (h : Arr 90000 256) (mean var γ β : Arr 1 256) (W : Arr 256 128) (b : Arr 1 128)
    (n : Fin 90000) (j : Fin 128) : EReal :=
  (∑ k : Fin 256, act relu (((h (ix2 n k) - mean (ix2 0 k)) * Ideal.rsqrt (var (ix2 0 k) + Ideal.ofBits .f32 0x3727C5AC#32))
      * γ (ix2 0 k) + β (ix2 0 k)) * W (ix2 k j)) + b (ix2 0 j)

/-- Normalise every column of h by its mean and variance, scale, shift, activate, then the second affine map. -/
def norm2 (relu : Bool) (h : Arr 90000 256) (mean var γ β : Arr 1 256) (W : Arr 256 128) (b : Arr 1 128) : Arr 90000 128 :=
  fun i => norm2At relu h mean var γ β W b (i 0) (i 1)

theorem norm2_apply (relu : Bool) (h : Arr 90000 256) (mean var γ β : Arr 1 256) (W : Arr 256 128) (b : Arr 1 128)
    (n : Fin 90000) (j : Fin 128) : norm2 relu h mean var γ β W b (ix2 n j) = norm2At relu h mean var γ β W b n j := rfl

end Cert.LayerSpec

end
-- ==== Proof.LibERealMatmul.lean ====
import Mathlib.Data.EReal.Basic
import Mathlib.Data.EReal.Operations
import Mathlib.Algebra.BigOperators.Fin
import Mathlib.Data.Fintype.BigOperators
import Mathlib.Logic.Equiv.Fin.Basic

/-!
# Finite extended reals, reassociation of a triple matrix product, blocked sums

Multiplication does not distribute over addition on all of `EReal` (for instance
`(1 + -1) * ⊤ = 0` while `1 * ⊤ + -1 * ⊤ = ⊤ + ⊥ = ⊥`), so the identity
`a · (h · w) = (a · h) · w` for matrices over `EReal` needs every entry to be finite.
Addition alone is commutative and associative on `EReal`, so splitting a sum over an
index range into consecutive blocks needs no hypothesis.
-/

namespace Cert.LibERealMatmul

open Finset

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih =>
    rw [Finset.sum_insert ha, Finset.sum_insert ha, EReal.coe_add, ih]

/-- An extended real is finite when it is the coercion of a real number. -/
def IsFin (x : EReal) : Prop := ∃ r : ℝ, x = (r : EReal)

/-- Finite means different from both infinities. -/
theorem isFin_iff (x : EReal) : IsFin x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

/-- Zero is finite. -/
theorem isFin_zero : IsFin 0 := ⟨0, EReal.coe_zero.symm⟩

/-- One is finite. -/
theorem isFin_one : IsFin 1 := ⟨1, rfl⟩

/-- The coercion of a real number is finite. -/
theorem isFin_coe (r : ℝ) : IsFin (r : EReal) := ⟨r, rfl⟩

/-- The sum of two finite extended reals is finite. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The product of two finite extended reals is finite. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- The difference of two finite extended reals is finite. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The maximum of two finite extended reals is finite. -/
theorem IsFin.max {x y : EReal} (hx : IsFin x) (hy : IsFin y) : IsFin (x ⊔ y) := by
  obtain ⟨a, rfl⟩ := hx
  obtain ⟨b, rfl⟩ := hy
  exact ⟨a ⊔ b, (EReal.coe_strictMono.monotone.map_max).symm⟩

/-- The minimum of two finite extended reals is finite. -/
theorem IsFin.min {x y : EReal} (hx : IsFin x) (hy : IsFin y) : IsFin (x ⊓ y) := by
  obtain ⟨a, rfl⟩ := hx
  obtain ⟨b, rfl⟩ := hy
  exact ⟨a ⊓ b, (EReal.coe_strictMono.monotone.map_min).symm⟩

/-- A finite sum of finite extended reals is finite. -/
theorem IsFin.sum {ι : Type*} (s : Finset ι) (f : ι → EReal) (hf : ∀ i ∈ s, IsFin (f i)) :
    IsFin (∑ i ∈ s, f i) := by
  classical
  induction s using Finset.induction_on with
  | empty => simpa using isFin_zero
  | insert a s ha ih =>
    rw [Finset.sum_insert ha]
    exact (hf a (Finset.mem_insert_self a s)).add
      (ih fun i hi => hf i (Finset.mem_insert_of_mem hi))

/-- A sum over a whole finite type of finite extended reals is finite. -/
theorem IsFin.sum_univ {ι : Type*} [Fintype ι] (f : ι → EReal) (hf : ∀ i, IsFin (f i)) :
    IsFin (∑ i, f i) :=
  IsFin.sum Finset.univ f fun i _ => hf i

/-- Reassociation of a vector–matrix–vector product over finite extended reals:
`∑ i, a i * (∑ j, h i j * w j) = ∑ j, (∑ i, a i * h i j) * w j` when every `a i`,
`h i j` and `w j` is finite.  (Read with `a` a fixed row of the left matrix and `w` a
fixed column of the right matrix, this is `A · (H · W) = (A · H) · W` entry by entry.) -/
theorem matmul_assoc {ι κ : Type*} [Fintype ι] [Fintype κ]
    (a : ι → EReal) (h : ι → κ → EReal) (w : κ → EReal)
    (ha : ∀ i, IsFin (a i)) (hh : ∀ i j, IsFin (h i j)) (hw : ∀ j, IsFin (w j)) :
    ∑ i, a i * (∑ j, h i j * w j) = ∑ j, (∑ i, a i * h i j) * w j := by
  choose a' ha' using ha
  choose h' hh' using hh
  choose w' hw' using hw
  obtain rfl : a = fun i => ((a' i : ℝ) : EReal) := funext ha'
  obtain rfl : h = fun i j => ((h' i j : ℝ) : EReal) := funext fun i => funext (hh' i)
  obtain rfl : w = fun j => ((w' j : ℝ) : EReal) := funext hw'
  simp only [← EReal.coe_mul, ← coe_sum]
  congr 1
  simp only [Finset.mul_sum, Finset.sum_mul]
  rw [Finset.sum_comm]
  simp only [mul_assoc]

/-- One block: adding a sum to a zero accumulator gives the sum. -/
theorem blocked_sum1 {n : ℕ} (f : Fin n → EReal) : 0 + ∑ k, f k = ∑ k, f k :=
  zero_add _

/-- Three blocks: accumulating the three block sums `∑ k, f 0 k`, `∑ k, f 1 k`, `∑ k, f 2 k`
one after the other onto a zero accumulator gives the sum over all pairs
`(block, position in block)`. -/
theorem blocked_sum3 (n : ℕ) (f : Fin 3 → Fin n → EReal) :
    ((0 + ∑ k, f 0 k) + ∑ k, f 1 k) + ∑ k, f 2 k = ∑ p : Fin 3 × Fin n, f p.1 p.2 := by
  rw [Fintype.sum_prod_type', Fin.sum_univ_three, zero_add]

/-- Any number `m` of blocks of length `n`: the sum over `Fin (m * n)` is the sum over blocks
`i : Fin m` of the sum over positions `k : Fin n`, where block `i`, position `k` is the flat
index `i * n + k`. -/
theorem blocked_sum_fin (m n : ℕ) (g : Fin (m * n) → EReal)
    (hlt : ∀ (i : Fin m) (k : Fin n), (i : ℕ) * n + (k : ℕ) < m * n) :
    ∑ i : Fin m, ∑ k : Fin n, g ⟨(i : ℕ) * n + (k : ℕ), hlt i k⟩ = ∑ j : Fin (m * n), g j := by
  rw [← (finProdFinEquiv (m := m) (n := n)).sum_comp g, Fintype.sum_prod_type]
  refine Finset.sum_congr rfl fun i _ => Finset.sum_congr rfl fun k _ => ?_
  congr 1
  apply Fin.ext
  simp [finProdFinEquiv, Nat.mul_comm, Nat.add_comm]

/-- Three blocks of length `n` over the flat index range `Fin (3 * n)`: block `b`
(`b = 0, 1, 2`), position `k : Fin n` is the flat index `b * n + k`, written literally as
`0 * n + k`, `1 * n + k`, `2 * n + k`.  Accumulating the three block sums one after the other
onto a zero accumulator gives the sum over the whole range. -/
theorem blocked_sum3_fin (n : ℕ) (g : Fin (3 * n) → EReal) :
    ((0 + ∑ k : Fin n, g ⟨0 * n + (k : ℕ), by omega⟩)
        + ∑ k : Fin n, g ⟨1 * n + (k : ℕ), by omega⟩)
        + ∑ k : Fin n, g ⟨2 * n + (k : ℕ), by omega⟩ = ∑ j : Fin (3 * n), g j := by
  have hlt : ∀ (i : Fin 3) (k : Fin n), (i : ℕ) * n + (k : ℕ) < 3 * n := by
    intro i k
    have hi : (i : ℕ) ≤ 2 := by omega
    have := Nat.mul_le_mul_right n hi
    omega
  rw [← blocked_sum_fin 3 n g hlt, Fin.sum_univ_three, zero_add]
  rfl

end Cert.LibERealMatmul
-- ==== Proof.LayerMath.lean ====
/-
  The mathematics of one batch-normalised layer, on the extended reals.

  A layer forms h = (x + agg)·W₁ + b₁ (N = 90000 rows, 256 columns), normalises every column of h by the
  column's mean and variance over the N rows, and multiplies by W₂.  One program computes the variance of a
  column as  (Σ h²)/N − ((Σ h)/N)²,  the other as  (Σ (h − (Σ h)/N)²)/N.  Over the reals these are one
  number: expanding the square,  Σ (h − μ)² = Σ h² − 2μ Σ h + N μ²  and with μ = (Σ h)/N this is
  Σ h² − (Σ h)²/N.  On the extended reals the identity needs every entry of the column to be a real
  (distributivity and cancellation fail at ±∞), so it is stated for finite columns; the common value is a
  non-negative real, hence the variance plus a positive ε has a finite reciprocal square root.
-/
import Idealize.ShloMosaic.PureOps.Ideal
import proofs.«117235_j17583596110491_1_alg».proof.Proof.LibERealMatmul

noncomputable section

open scoped BigOperators

namespace Cert.LayerMath

open Idealize.ShloMosaic Cert.LibERealMatmul

/-! ## The literal words of the two programs, as the reals they denote -/

/-- The word of 0.0 denotes 0. -/
theorem ofBits_zero : Ideal.ofBits .f32 0x00000000#32 = 0 := by
  simp [Ideal.ofBits, Ideal.ieee]

/-- The word of 90000.0 (the number of rows) denotes the real 90000. -/
theorem ofBits_rows : Ideal.ofBits .f32 0x47AFC800#32 = ((90000 : ℝ) : EReal) := by
  simp [Ideal.ofBits, Ideal.ieee, -EReal.coe_mul]; norm_num

/-- The ε of the normalisation (the binary32 nearest 1e-5) denotes a positive real. -/
theorem ofBits_eps : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

/-! ## The variance identity over the reals -/

/-- Mean of squares minus square of the mean is the mean of the squared deviations. -/
theorem var_identity_real (n : ℕ) (hn : (n : ℝ) ≠ 0) (h : Fin n → ℝ) :
    (∑ i, h i * h i) / n - (∑ i, h i) / n * ((∑ i, h i) / n)
      = (∑ i, (h i - (∑ j, h j) / n) * (h i - (∑ j, h j) / n)) / n := by
  set S := ∑ j, h j with hS
  have e : ∀ i, (h i - S / n) * (h i - S / n) = h i * h i - 2 * (S / n) * h i + S / n * (S / n) := fun i => by ring
  simp only [e, Finset.sum_add_distrib, Finset.sum_sub_distrib, ← Finset.mul_sum, Finset.sum_const, Finset.card_univ,
    Fintype.card_fin, nsmul_eq_mul, ← hS]
  field_simp
  ring

/-- The mean of squared deviations is non-negative. -/
theorem var_nonneg_real (n : ℕ) (h : Fin n → ℝ) (μ : ℝ) : 0 ≤ (∑ i, (h i - μ) * (h i - μ)) / n :=
  div_nonneg (Finset.sum_nonneg fun i _ => mul_self_nonneg _) (Nat.cast_nonneg n)

/-! ## The same on finite extended reals -/

/-- Division of an extended real by the real 90000 is multiplication by its reciprocal. -/
theorem div_rows (x : EReal) : Ideal.div x ((90000 : ℝ) : EReal) = x * ((1 / 90000 : ℝ) : EReal) :=
  Ideal.div_coe (by norm_num) x

/-- A finite column's mean is finite. -/
theorem isFin_div_rows {x : EReal} (hx : IsFin x) : IsFin (Ideal.div x ((90000 : ℝ) : EReal)) := by
  rw [div_rows]; exact hx.mul (isFin_coe _)

/-- THE BRIDGE: on a column of finite entries the two variance formulas are one non-negative real. -/
theorem var_bridge (H : Fin 90000 → EReal) (hH : ∀ i, IsFin (H i)) :
    ∃ v : ℝ, 0 ≤ v
      ∧ Ideal.div (∑ i, H i * H i) ((90000 : ℝ) : EReal)
          - Ideal.div (∑ i, H i) ((90000 : ℝ) : EReal) * Ideal.div (∑ i, H i) ((90000 : ℝ) : EReal) = (v : EReal)
      ∧ Ideal.div (∑ i, (H i - Ideal.div (∑ j, H j) ((90000 : ℝ) : EReal))
            * (H i - Ideal.div (∑ j, H j) ((90000 : ℝ) : EReal))) ((90000 : ℝ) : EReal) = (v : EReal) := by
  choose h hh using hH
  have hfun : H = fun i => ((h i : ℝ) : EReal) := funext hh
  subst hfun
  refine ⟨(∑ i, (h i - (∑ j, h j) / (90000 : ℕ)) * (h i - (∑ j, h j) / (90000 : ℕ))) / (90000 : ℕ),
    var_nonneg_real 90000 h _, ?_, ?_⟩
  · rw [← var_identity_real 90000 (by norm_num) h]
    simp only [div_rows, ← EReal.coe_mul, ← coe_sum, ← EReal.coe_sub]
    exact EReal.coe_eq_coe_iff.mpr (by push_cast; ring)
  · simp only [div_rows, ← EReal.coe_mul, ← coe_sum, ← EReal.coe_sub]
    refine EReal.coe_eq_coe_iff.mpr ?_
    have e : ∀ i, (h i - (∑ j, h j) * (1 / 90000)) * (h i - (∑ j, h j) * (1 / 90000))
        = (h i - (∑ j, h j) / ((90000 : ℕ) : ℝ)) * (h i - (∑ j, h j) / ((90000 : ℕ) : ℝ)) := fun i => by
      push_cast; ring
    simp only [e]
    push_cast
    ring

/-- The reciprocal square root of a positive real is a real. -/
theorem isFin_rsqrt_pos {r : ℝ} (hr : 0 < r) : IsFin (Ideal.rsqrt (r : EReal)) := by
  rw [Ideal.rsqrt_coe, if_neg (not_lt.mpr hr.le), if_neg hr.ne']
  exact isFin_coe _

/-- A non-negative real plus the normalisation's ε has a finite reciprocal square root. -/
theorem isFin_rsqrt_var_eps {v : ℝ} (hv : 0 ≤ v) :
    IsFin (Ideal.rsqrt ((v : EReal) + Ideal.ofBits .f32 0x3727C5AC#32)) := by
  obtain ⟨e, he, hw⟩ := ofBits_eps
  rw [hw, ← EReal.coe_add]
  exact isFin_rsqrt_pos (by linarith)

end Cert.LayerMath

end
-- ==== Proof.LayerBridge.lean ====
/-
  One layer, two ways: the bridge between the two programs' normalisation, and finiteness carried through a layer.

  The kernel program divides the column sums s and ss by N and forms  mean = s/N,  var = ss/N − mean·mean;  the
  reference forms  μ = (Σ h)/N  and  var = (Σ (h − μ)²)/N.  For a finite h both pairs are the same rows (LayerMath's
  variance identity, column by column), so the normalised second affine map is the same array.  Finiteness is kept by
  every step of a layer: a clamped gather reads the operand at some index; a scatter-add adds finitely many updates to
  an operand entry; sums, products, differences and maxima of reals are reals; and  var + ε  is a positive real, whose
  reciprocal square root is a real.
-/
import Idealize.ShloMosaic.PureOps.Ideal
import Idealize.ShloMosaic.Lib.ValueIdx
import proofs.«117235_j17583596110491_1_alg».proof.Proof.LibERealMatmul
import proofs.«117235_j17583596110491_1_alg».proof.Proof.LayerMath
import proofs.«117235_j17583596110491_1_alg».proof.Proof.LayerSpec

noncomputable section

open scoped BigOperators

namespace Cert.LayerBridge

open Idealize.ShloMosaic Idealize.ShloMosaic.ValueIdx Cert.LibERealMatmul Cert.LayerMath Cert.LayerSpec

/-- Every entry of the array is a real. -/
def FinArr {S : Shape} (A : S.Idx → EReal) : Prop := ∀ i, IsFin (A i)

/-! ## The two programs' mean and variance rows -/

/-- The kernel program's mean row: the column sums over the number of rows. -/
def meanK (s : Arr 1 256) : Arr 1 256 := fun i => Ideal.div (s i) (Ideal.ofBits .f32 0x47AFC800#32)

/-- The kernel program's variance row: mean of squares minus square of the mean. -/
def varK (s ss : Arr 1 256) : Arr 1 256 :=
  fun i => Ideal.div (ss i) (Ideal.ofBits .f32 0x47AFC800#32) - meanK s i * meanK s i

/-- The reference's mean, column k. -/
def meanR (h : Arr 90000 256) (k : Fin 256) : EReal := Ideal.div (∑ n : Fin 90000, h (ix2 n k)) ((90000 : ℝ) : EReal)

/-- The reference's variance, column k: the mean of the squared deviations from the mean. -/
def varR (h : Arr 90000 256) (k : Fin 256) : EReal :=
  Ideal.div (∑ n : Fin 90000, (h (ix2 n k) - meanR h k) * (h (ix2 n k) - meanR h k)) ((90000 : ℝ) : EReal)

theorem meanK_colSum (h : Arr 90000 256) (k : Fin 256) : meanK (colSum h) (ix2 0 k) = meanR h k := by
  unfold meanK meanR
  rw [ofBits_rows]
  rfl

/-- On a finite h the two variance rows agree, and the common value is a non-negative real. -/
theorem varK_colSums (h : Arr 90000 256) (hh : FinArr h) (k : Fin 256) :
    ∃ v : ℝ, 0 ≤ v ∧ varK (colSum h) (colSumSq h) (ix2 0 k) = (v : EReal) ∧ varR h k = (v : EReal) := by
  obtain ⟨v, hv, h1, h2⟩ := var_bridge (fun n => h (ix2 n k)) (fun n => hh _)
  refine ⟨v, hv, ?_, h2⟩
  unfold varK meanK
  rw [ofBits_rows]
  exact h1

/-- THE LAYER BRIDGE: on a finite h, normalising by the kernel program's rows or by the reference's is one array. -/
theorem norm2_rows_eq (relu : Bool) (h : Arr 90000 256) (hh : FinArr h) (mean var γ β : Arr 1 256) (W : Arr 256 128)
    (b : Arr 1 128) (hmean : ∀ k, mean (ix2 0 k) = meanR h k) (hvar : ∀ k, var (ix2 0 k) = varR h k) :
    norm2 relu h (meanK (colSum h)) (varK (colSum h) (colSumSq h)) γ β W b = norm2 relu h mean var γ β W b := by
  funext i
  unfold norm2 norm2At
  refine congrArg (· + b (ix2 0 (i 1))) (Finset.sum_congr rfl fun k _ => ?_)
  obtain ⟨v, -, h1, h2⟩ := varK_colSums h hh k
  rw [meanK_colSum, h1, hmean k, hvar k, h2]

/-! ## Finiteness through a layer -/

/-- A gather reads the operand somewhere: finite operand, finite result. -/
theorem gather_fin {s si t : Shape} {w : Nat} (d : GatherDims s si t) (x : s.Idx → EReal) (idx : IVec si w)
    (hx : FinArr x) : FinArr (Host.gather d x idx) := fun _ => hx _

/-- A scatter-add adds finitely many finite updates to a finite operand entry. -/
theorem scatterAdd_fin {s si u : Shape} {w : Nat} (d : ScatterDims s si u) (x : FVec Ideal s .f32) (idx : IVec si w)
    (upd : FVec Ideal u .f32) (hx : FinArr (S := s) x) (hu : FinArr (S := u) upd) :
    FinArr (S := s) (Host.scatterAdd d x idx upd) := fun i => by
  show IsFin (x i + ∑ j ∈ Finset.univ.filter (fun j => d.resultIdx? j idx = some i), upd j)
  exact (hx i).add (IsFin.sum _ _ fun j _ => hu j)

/-- The first affine map of finite arrays is finite. -/
theorem lin1_fin (x agg : Arr 90000 128) (W : Arr 128 256) (b : Arr 1 256) (hx : FinArr x) (hagg : FinArr agg)
    (hW : FinArr W) (hb : FinArr b) : FinArr (lin1 x agg W b) := fun i => by
  unfold lin1 lin1At
  exact (IsFin.sum_univ _ fun j => ((hx _).add (hagg _)).mul (hW _)).add (hb _)

/-- The activation keeps finiteness. -/
theorem act_fin (relu : Bool) {y : EReal} (hy : IsFin y) : IsFin (act relu y) := by
  unfold act
  cases relu
  · simpa using hy
  · simpa using hy.max isFin_zero

/-- The normalised second affine map of finite arrays, at the reference's rows, is finite. -/
theorem norm2_fin (relu : Bool) (h : Arr 90000 256) (hh : FinArr h) (mean var γ β : Arr 1 256) (W : Arr 256 128)
    (b : Arr 1 128) (hmean : ∀ k, mean (ix2 0 k) = meanR h k) (hvar : ∀ k, var (ix2 0 k) = varR h k)
    (hγ : FinArr γ) (hβ : FinArr β) (hW : FinArr W) (hb : FinArr b) : FinArr (norm2 relu h mean var γ β W b) := fun i => by
  unfold norm2 norm2At
  refine (IsFin.sum_univ _ fun k => ?_).add (hb _)
  obtain ⟨v, hv, -, h2⟩ := varK_colSums h hh k
  have hm : IsFin (meanR h k) := isFin_div_rows (IsFin.sum_univ _ fun n => hh _)
  rw [hmean k, hvar k, h2]
  exact (act_fin relu ((((hh _).sub hm).mul (isFin_rsqrt_var_eps hv)).mul (hγ _) |>.add (hβ _))).mul (hW _)

end Cert.LayerBridge

end
-- ==== Proof.HostRead.lean ====
/-
  Host operations read at an index, on the extended reals.

  A vector laid along every row of a matrix (first as one row, then down the rows) reads, at (n, k), the
  vector's entry k.  The host's sum over the rows reads, at column k, the initial value plus the sum of the
  column's entries.  The host's plain matrix product reads, at (a, b), the sum over the contracted coordinate
  of the products of the entries.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

open scoped BigOperators

namespace Cert.HostRead

open Idealize.ShloMosaic Idealize.ShloMosaic.ValueIdx

/-- A vector laid along every row of a matrix, as the host does it (first to one row, then down the rows),
    read at (n, k), is the vector's entry k. -/
theorem rowBcast_apply {α : Type} {r c : ℕ} (hc : c ≠ 1) (v : (⟨1, ![c]⟩ : Shape).Idx → α)
    (hb1 : (⟨1, ![c]⟩ : Shape).BroadcastsInDim ⟨2, ![1, c]⟩ ![1])
    (hb2 : (⟨2, ![1, c]⟩ : Shape).BroadcastsInDim ⟨2, ![r, c]⟩ ![0, 1]) (n : Fin r) (k : Fin c) :
    broadcastInDim ⟨2, ![r, c]⟩ ![0, 1] hb2 (broadcastInDim ⟨2, ![1, c]⟩ ![1] hb1 v) (ix2 n k) = v (ix1 k) := by
  refine (broadcastInDim_apply ![0, 1] hb2 _ (ix2 n k) (ix2 (0 : Fin 1) k) ?_).trans
    (broadcastInDim_apply ![1] hb1 v (ix2 (0 : Fin 1) k) (ix1 k) ?_)
  · intro a
    match a with
    | ⟨0, _⟩ => simp
    | ⟨1, _⟩ => (simp [hc]; rfl)
  · intro a
    match a with
    | ⟨0, _⟩ => (simp [hc]; rfl)

/-- A one-row matrix laid down the rows, read at (n, k), is the row's entry k. -/
theorem downRows_apply {α : Type} {r c : ℕ} (hc : c ≠ 1) (M : (⟨2, ![1, c]⟩ : Shape).Idx → α)
    (hb2 : (⟨2, ![1, c]⟩ : Shape).BroadcastsInDim ⟨2, ![r, c]⟩ ![0, 1]) (n : Fin r) (k : Fin c) :
    broadcastInDim ⟨2, ![r, c]⟩ ![0, 1] hb2 M (ix2 n k) = M (ix2 (0 : Fin 1) k) := by
  refine broadcastInDim_apply ![0, 1] hb2 M (ix2 n k) (ix2 (0 : Fin 1) k) ?_
  intro a
  match a with
  | ⟨0, _⟩ => simp
  | ⟨1, _⟩ => (simp [hc]; rfl)

/-- The one-row form alone, read at (0, k). -/
theorem oneRow_apply {α : Type} {c : ℕ} (hc : c ≠ 1) (v : (⟨1, ![c]⟩ : Shape).Idx → α)
    (hb1 : (⟨1, ![c]⟩ : Shape).BroadcastsInDim ⟨2, ![1, c]⟩ ![1]) (k : Fin c) :
    broadcastInDim ⟨2, ![1, c]⟩ ![1] hb1 v (ix2 (0 : Fin 1) k) = v (ix1 k) := by
  refine broadcastInDim_apply ![1] hb1 v (ix2 (0 : Fin 1) k) (ix1 k) ?_
  intro a
  match a with
  | ⟨0, _⟩ => (simp [hc]; rfl)

/-- The host's sum over the rows of a matrix, read at column k: the initial value plus the sum over the rows. -/
theorem hostColSum_apply {r c : ℕ} (x : FVec Ideal ⟨2, ![r, c]⟩ .f32) (init : (⟨0, ![]⟩ : Shape).Idx → Ideal .f32)
    (h' : (⟨2, ![r, c]⟩ : Shape).ReducesTo [0] ⟨1, ![c]⟩) (h : (⟨2, ![r, c]⟩ : Shape).Reduces [0] ⟨1, ![c]⟩)
    (hu : 0 < (⟨0, ![]⟩ : Shape).numel) (k : Fin c) :
    Host.reduceAdd x init h' hu (ix1 k) = init (Shape.Idx.first hu) + ∑ n : Fin r, x (ix2 n k) := by
  rw [hostReduceAdd_apply, Ideal.hostReduceAdd_single h' h]
  refine congrArg (init (Shape.Idx.first hu) + ·) (Finset.sum_congr rfl fun n _ => congrArg x ?_)
  funext a
  match a with
  | ⟨0, _⟩ => exact Fin.ext rfl
  | ⟨1, _⟩ => exact Fin.ext rfl

/-- The host's plain matrix product read at (a, b). -/
theorem dot_apply {m k n : ℕ} (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) :=
  StackMember.dotGeneral_plain_apply prec A B a b

end Cert.HostRead

end
-- ==== Proof.RefLayer.lean ====
/-
  The reference's layer, read at an index.

  The reference forms h = A·W₁ + b₁ with the host's matrix product, the column means μ = (Σ h)/N with the host's
  sum over the rows, the column variances with its outlined variance function — the deviations h − μ, squared,
  summed over the rows, divided by the row count less an integer correction that is 0, and kept when that divisor
  is positive, which it is —, and the output Σ_k act(((h − μ)·rsqrt(var + ε))·γ + β)·W₂ + b₂.  Each is read at an
  index as the specification's entry: broadcasts of a vector along the rows read the vector, the host's sums and
  products read as finite sums, and the selection's condition is decided by the literal 90000 > 0.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import proofs.«117235_j17583596110491_1_alg».proof.Proof.LibERealMatmul
import proofs.«117235_j17583596110491_1_alg».proof.Proof.LayerMath
import proofs.«117235_j17583596110491_1_alg».proof.Proof.LayerSpec
import proofs.«117235_j17583596110491_1_alg».proof.Proof.LayerBridge
import proofs.«117235_j17583596110491_1_alg».proof.Proof.HostRead

noncomputable section

open scoped BigOperators

namespace Cert.RefLayer

open Idealize.ShloMosaic Idealize.ShloMosaic.ValueIdx Cert.LibERealMatmul Cert.LayerMath Cert.LayerSpec Cert.LayerBridge Cert.HostRead

/-- A vector of length c as the one-row array the specification takes. -/
def rowOf {c : ℕ} (v : (⟨1, ![c]⟩ : Shape).Idx → EReal) : Arr 1 c := fun i => v (ix1 (i 1))

theorem rowOf_apply {c : ℕ} (v : (⟨1, ![c]⟩ : Shape).Idx → EReal) (z : Fin 1) (k : Fin c) : rowOf v (ix2 z k) = v (ix1 k) := rfl

section Layer

variable (A : FVec Ideal ⟨2, ![90000, 128]⟩ .f32) (W1 : FVec Ideal ⟨2, ![128, 256]⟩ .f32) (b1 : FVec Ideal ⟨1, ![256]⟩ .f32)
  (w1 : DotDims.WF ⟨2, ![90000, 128]⟩ ⟨2, ![128, 256]⟩ ⟨2, ![90000, 256]⟩ [1] [0] [0] [1] [] [])
  (hbv : (⟨1, ![256]⟩ : Shape).BroadcastsInDim ⟨2, ![1, 256]⟩ ![1])
  (hbr : (⟨2, ![1, 256]⟩ : Shape).BroadcastsInDim ⟨2, ![90000, 256]⟩ ![0, 1])

/-- The reference's first affine map, as it prints it. -/
def refLin : FVec Ideal ⟨2, ![90000, 256]⟩ .f32 :=
  addf (Host.dotGeneral (⟨[1], [0], [0], [1], [], [], w1⟩ : DotDims ⟨2, ![90000, 128]⟩ ⟨2, ![128, 256]⟩ ⟨2, ![90000, 256]⟩) none A W1)
    (broadcastInDim ⟨2, ![90000, 256]⟩ ![0, 1] hbr (broadcastInDim ⟨2, ![1, 256]⟩ ![1] hbv b1))

theorem refLin_apply (n : Fin 90000) (k : Fin 256) :
    refLin A W1 b1 w1 hbv hbr (ix2 n k) = (∑ j : Fin 128, A (ix2 n j) * W1 (ix2 j k)) + b1 (ix1 k) := by
  unfold refLin
  rw [addf_apply, dot_apply, rowBcast_apply (by decide)]

end Layer

section Stats

variable (h : FVec Ideal ⟨2, ![90000, 256]⟩ .f32)
  (hr' : (⟨2, ![90000, 256]⟩ : Shape).ReducesTo [0] ⟨1, ![256]⟩)
  (hu : 0 < (⟨0, ![]⟩ : Shape).numel)
  (hb0 : (⟨0, ![]⟩ : Shape).BroadcastsInDim ⟨1, ![256]⟩ ![])
  (hb01 : (⟨0, ![]⟩ : Shape).BroadcastsInDim ⟨2, ![1, 256]⟩ ![])
  (hbv : (⟨1, ![256]⟩ : Shape).BroadcastsInDim ⟨2, ![1, 256]⟩ ![1])
  (hbr : (⟨2, ![1, 256]⟩ : Shape).BroadcastsInDim ⟨2, ![90000, 256]⟩ ![0, 1])

/-- The column sums, from a zero initial value. -/
def refSum : FVec Ideal ⟨1, ![256]⟩ .f32 := Host.reduceAdd h (constant (F := Ideal) ⟨0, ![]⟩ .f32 0x00000000#32) hr' hu

theorem refSum_apply (hr : (⟨2, ![90000, 256]⟩ : Shape).Reduces [0] ⟨1, ![256]⟩) (k : Fin 256) :
    refSum h hr' hu (ix1 k) = ∑ n : Fin 90000, h (ix2 n k) := by
  unfold refSum
  rw [hostColSum_apply h _ hr' hr hu k, constant_apply, ofBits_zero, zero_add]

/-- The reference's mean vector. -/
def refMean : FVec Ideal ⟨1, ![256]⟩ .f32 :=
  Host.divf (refSum h hr' hu) (broadcastInDim ⟨1, ![256]⟩ ![] hb0 (constant (F := Ideal) ⟨0, ![]⟩ .f32 0x47AFC800#32))

theorem refMean_apply (hr : (⟨2, ![90000, 256]⟩ : Shape).Reduces [0] ⟨1, ![256]⟩) (k : Fin 256) :
    refMean h hr' hu hb0 (ix1 k) = meanR h k := by
  unfold refMean
  rw [hostDivf_apply, refSum_apply h hr' hu hr k, broadcastInDim_scalar_apply, constant_apply, ofBits_rows]
  rfl

/-- The mean as a one-row matrix, as the variance function forms it again. -/
def refMeanRow : FVec Ideal ⟨2, ![1, 256]⟩ .f32 :=
  Host.divf (broadcastInDim ⟨2, ![1, 256]⟩ ![1] hbv (refSum h hr' hu))
    (broadcastInDim ⟨2, ![1, 256]⟩ ![] hb01 (constant (F := Ideal) ⟨0, ![]⟩ .f32 0x47AFC800#32))

theorem refMeanRow_apply (hr : (⟨2, ![90000, 256]⟩ : Shape).Reduces [0] ⟨1, ![256]⟩) (k : Fin 256) :
    refMeanRow h hr' hu hb01 hbv (ix2 (0 : Fin 1) k) = meanR h k := by
  unfold refMeanRow
  rw [hostDivf_apply, oneRow_apply (by decide), refSum_apply h hr' hu hr k, broadcastInDim_scalar_apply, constant_apply, ofBits_rows]
  rfl

/-- The deviations from the column means. -/
def refDev : FVec Ideal ⟨2, ![90000, 256]⟩ .f32 :=
  subf h (broadcastInDim ⟨2, ![90000, 256]⟩ ![0, 1] hbr (refMeanRow h hr' hu hb01 hbv))

theorem refDev_apply (hr : (⟨2, ![90000, 256]⟩ : Shape).Reduces [0] ⟨1, ![256]⟩) (n : Fin 90000) (k : Fin 256) :
    refDev h hr' hu hb01 hbv hbr (ix2 n k) = h (ix2 n k) - meanR h k := by
  unfold refDev
  rw [subf_apply, downRows_apply (by decide), refMeanRow_apply h hr' hu hb01 hbv hr k]

/-- The divisor: the row count less the integer correction 0. -/
def refCnt : FVec Ideal ⟨0, ![]⟩ .f32 :=
  subf (constant (F := Ideal) ⟨0, ![]⟩ .f32 0x47AFC800#32) (sitofp .f32 (constantI ⟨0, ![]⟩ 32 0#32))

theorem refCnt_apply : refCnt ix0 = ((90000 : ℝ) : EReal) := by
  unfold refCnt
  rw [subf_apply, constant_apply, sitofp_apply, constantI_apply, ofBits_rows]
  show ((90000 : ℝ) : EReal) - (((0#32 : BitVec 32).toInt : ℝ) : EReal) = _
  simp

/-- The reference's variance vector: the squared deviations summed over the rows, over the divisor, kept
    when the divisor is positive. -/
def refVar : FVec Ideal ⟨1, ![256]⟩ .f32 :=
  (fun (p : IVec ⟨0, ![]⟩ 1) (a b : FVec Ideal ⟨1, ![256]⟩ .f32) => select (broadcastInDim ⟨1, ![256]⟩ ![] hb0 p) a b)
    (cmpf .ogt refCnt (constant (F := Ideal) ⟨0, ![]⟩ .f32 0x00000000#32))
    (Host.divf (Host.reduceAdd (mulf (refDev h hr' hu hb01 hbv hbr) (refDev h hr' hu hb01 hbv hbr))
        (constant (F := Ideal) ⟨0, ![]⟩ .f32 0x00000000#32) hr' hu)
      (broadcastInDim ⟨1, ![256]⟩ ![] hb0 refCnt))
    (broadcastInDim ⟨1, ![256]⟩ ![] hb0 (id (constant (F := Ideal) ⟨0, ![]⟩ .f32 0x7FC00000#32)))

theorem refVar_apply (hr : (⟨2, ![90000, 256]⟩ : Shape).Reduces [0] ⟨1, ![256]⟩) (k : Fin 256) :
    refVar h hr' hu hb0 hb01 hbv hbr (ix1 k) = varR h k := by
  unfold refVar
  beta_reduce
  have hsel : FloatOps.cmpf (F := Ideal) (φ := .f32) .ogt ((90000 : ℝ) : EReal) (0 : EReal) = 1#1 := by
    show Ideal.cmp .ogt ((90000 : ℝ) : EReal) 0 = 1#1
    have : (0 : EReal) < ((90000 : ℝ) : EReal) := by exact_mod_cast (by norm_num : (0 : ℝ) < 90000)
    simp [Ideal.cmp, this]
  rw [select_apply, broadcastInDim_scalar_apply, cmpf_apply, refCnt_apply, constant_apply, ofBits_zero, hsel, select_one,
    hostDivf_apply, hostColSum_apply _ _ hr' hr hu k, broadcastInDim_scalar_apply, refCnt_apply, constant_apply, ofBits_zero, zero_add]
  unfold varR
  exact congrArg (fun x => Ideal.div x ((90000 : ℝ) : EReal)) (Finset.sum_congr rfl fun n _ => by
    rw [mulf_apply, refDev_apply h hr' hu hb01 hbv hbr hr n k])

end Stats

/-- The host's reciprocal square root at an index. -/
theorem hostRsqrt_apply {s : Shape} (x : FVec Ideal s .f32) (i : s.Idx) : Host.rsqrt x i = Ideal.rsqrt (x i) := rfl

section Out

variable (h : FVec Ideal ⟨2, ![90000, 256]⟩ .f32) (μ var γ β : FVec Ideal ⟨1, ![256]⟩ .f32)
  (W2 : FVec Ideal ⟨2, ![256, 128]⟩ .f32) (b2 : FVec Ideal ⟨1, ![128]⟩ .f32)
  (w2 : DotDims.WF ⟨2, ![90000, 256]⟩ ⟨2, ![256, 128]⟩ ⟨2, ![90000, 128]⟩ [1] [0] [0] [1] [] [])
  (hb0 : (⟨0, ![]⟩ : Shape).BroadcastsInDim ⟨1, ![256]⟩ ![])
  (hbz : (⟨0, ![]⟩ : Shape).BroadcastsInDim ⟨2, ![90000, 256]⟩ ![])
  (hbv : (⟨1, ![256]⟩ : Shape).BroadcastsInDim ⟨2, ![1, 256]⟩ ![1])
  (hbr : (⟨2, ![1, 256]⟩ : Shape).BroadcastsInDim ⟨2, ![90000, 256]⟩ ![0, 1])
  (hbv' : (⟨1, ![128]⟩ : Shape).BroadcastsInDim ⟨2, ![1, 128]⟩ ![1])
  (hbr' : (⟨2, ![1, 128]⟩ : Shape).BroadcastsInDim ⟨2, ![90000, 128]⟩ ![0, 1])

/-- The reference's normalised, scaled and shifted array, before the activation. -/
def refPre : FVec Ideal ⟨2, ![90000, 256]⟩ .f32 :=
  addf (mulf (mulf (subf h (broadcastInDim ⟨2, ![90000, 256]⟩ ![0, 1] hbr (broadcastInDim ⟨2, ![1, 256]⟩ ![1] hbv μ)))
      (broadcastInDim ⟨2, ![90000, 256]⟩ ![0, 1] hbr (broadcastInDim ⟨2, ![1, 256]⟩ ![1] hbv
        (Host.rsqrt (addf var (broadcastInDim ⟨1, ![256]⟩ ![] hb0 (constant (F := Ideal) ⟨0, ![]⟩ .f32 0x3727C5AC#32)))))))
      (broadcastInDim ⟨2, ![90000, 256]⟩ ![0, 1] hbr (broadcastInDim ⟨2, ![1, 256]⟩ ![1] hbv γ)))
    (broadcastInDim ⟨2, ![90000, 256]⟩ ![0, 1] hbr (broadcastInDim ⟨2, ![1, 256]⟩ ![1] hbv β))

theorem refPre_apply (n : Fin 90000) (k : Fin 256) :
    refPre h μ var γ β hb0 hbv hbr (ix2 n k)
      = ((h (ix2 n k) - μ (ix1 k)) * Ideal.rsqrt (var (ix1 k) + Ideal.ofBits .f32 0x3727C5AC#32)) * γ (ix1 k) + β (ix1 k) := by
  unfold refPre
  rw [addf_apply, mulf_apply, mulf_apply, subf_apply, rowBcast_apply (by decide) μ, rowBcast_apply (by decide) γ,
    rowBcast_apply (by decide) β, rowBcast_apply (by decide), hostRsqrt_apply, addf_apply, broadcastInDim_scalar_apply,
    constant_apply]

/-- The reference's layer output with the activation max(·, 0). -/
def refOutRelu : FVec Ideal ⟨2, ![90000, 128]⟩ .f32 :=
  addf (Host.dotGeneral (⟨[1], [0], [0], [1], [], [], w2⟩ : DotDims ⟨2, ![90000, 256]⟩ ⟨2, ![256, 128]⟩ ⟨2, ![90000, 128]⟩) none
      (maximumf (refPre h μ var γ β hb0 hbv hbr) (broadcastInDim ⟨2, ![90000, 256]⟩ ![] hbz (constant (F := Ideal) ⟨0, ![]⟩ .f32 0x00000000#32))) W2)
    (broadcastInDim ⟨2, ![90000, 128]⟩ ![0, 1] hbr' (broadcastInDim ⟨2, ![1, 128]⟩ ![1] hbv' b2))

theorem refOutRelu_apply (n : Fin 90000) (j : Fin 128) :
    refOutRelu h μ var γ β W2 b2 w2 hb0 hbz hbv hbr hbv' hbr' (ix2 n j)
      = norm2At true h (rowOf μ) (rowOf var) (rowOf γ) (rowOf β) W2 (rowOf b2) n j := by
  unfold refOutRelu norm2At
  rw [addf_apply, dot_apply, rowBcast_apply (by decide)]
  refine congrArg (· + b2 (ix1 j)) (Finset.sum_congr rfl fun k _ => congrArg (· * W2 (ix2 k j)) ?_)
  rw [maximumf_apply, refPre_apply, broadcastInDim_scalar_apply, constant_apply, ofBits_zero]
  rfl

/-- The reference's layer output with no activation. -/
def refOutLin : FVec Ideal ⟨2, ![90000, 128]⟩ .f32 :=
  addf (Host.dotGeneral (⟨[1], [0], [0], [1], [], [], w2⟩ : DotDims ⟨2, ![90000, 256]⟩ ⟨2, ![256, 128]⟩ ⟨2, ![90000, 128]⟩) none
      (refPre h μ var γ β hb0 hbv hbr) W2)
    (broadcastInDim ⟨2, ![90000, 128]⟩ ![0, 1] hbr' (broadcastInDim ⟨2, ![1, 128]⟩ ![1] hbv' b2))

theorem refOutLin_apply (n : Fin 90000) (j : Fin 128) :
    refOutLin h μ var γ β W2 b2 w2 hb0 hbv hbr hbv' hbr' (ix2 n j)
      = norm2At false h (rowOf μ) (rowOf var) (rowOf γ) (rowOf β) W2 (rowOf b2) n j := by
  unfold refOutLin norm2At
  rw [addf_apply, dot_apply, rowBcast_apply (by decide)]
  refine congrArg (· + b2 (ix1 j)) (Finset.sum_congr rfl fun k _ => congrArg (· * W2 (ix2 k j)) ?_)
  rw [refPre_apply]
  rfl

end Out

end Cert.RefLayer

end
-- ==== Proof.KernelGlue.lean ====
/-
  The kernel program's host glue between its two kernels of a layer, as the specification's rows.

  Between the statistics kernel and the normalising kernel the host divides the column sums by the row count
  (the mean row), forms mean of squares minus the squared mean (the variance row), and reshapes the scale, shift and
  bias vectors to one row each.
-/
import Idealize.ShloMosaic.PureOps.Ideal
import Idealize.ShloMosaic.Lib.ValueIdx
import Idealize.ShloMosaic.Lib.ValueLayout
import Idealize.ShloMosaic.Lib.IdealHost
import proofs.«117235_j17583596110491_1_alg».proof.Proof.LayerSpec
import proofs.«117235_j17583596110491_1_alg».proof.Proof.LayerBridge
import proofs.«117235_j17583596110491_1_alg».proof.Proof.RefLayer

noncomputable section

namespace Cert.KernelGlue

open Idealize.ShloMosaic Idealize.ShloMosaic.ValueIdx Cert.LayerSpec Cert.LayerBridge Cert.RefLayer

/-- The kernel program's mean row: the column sums divided, entry by entry, by the broadcast row count. -/
theorem meanRow_eq (s : FVec Ideal ⟨2, ![1, 256]⟩ .f32) (hb : (⟨0, ![]⟩ : Shape).BroadcastsInDim ⟨2, ![1, 256]⟩ ![]) :
    Host.divf s (broadcastInDim ⟨2, ![1, 256]⟩ ![] hb (constant (F := Ideal) ⟨0, ![]⟩ .f32 0x47AFC800#32)) = meanK s := by
  funext i
  rw [hostDivf_apply, broadcastInDim_scalar_apply, constant_apply]
  rfl

/-- The kernel program's variance row: mean of squares minus the square of the mean row. -/
theorem varRow_eq (s ss : FVec Ideal ⟨2, ![1, 256]⟩ .f32) (hb hb' : (⟨0, ![]⟩ : Shape).BroadcastsInDim ⟨2, ![1, 256]⟩ ![]) :
    subf (Host.divf ss (broadcastInDim ⟨2, ![1, 256]⟩ ![] hb' (constant (F := Ideal) ⟨0, ![]⟩ .f32 0x47AFC800#32)))
      (mulf (Host.divf s (broadcastInDim ⟨2, ![1, 256]⟩ ![] hb (constant (F := Ideal) ⟨0, ![]⟩ .f32 0x47AFC800#32)))
        (Host.divf s (broadcastInDim ⟨2, ![1, 256]⟩ ![] hb (constant (F := Ideal) ⟨0, ![]⟩ .f32 0x47AFC800#32))))
      = varK s ss := by
  funext i
  rw [subf_apply, mulf_apply, hostDivf_apply, hostDivf_apply, broadcastInDim_scalar_apply, constant_apply]
  rfl

/-- A vector reshaped to one row is the one-row array of the vector. -/
theorem rowCast_eq {c : ℕ} (v : FVec Ideal ⟨1, ![c]⟩ .f32) (h : (⟨1, ![c]⟩ : Shape).ShapeCasts ⟨2, ![1, c]⟩) :
    shapeCast ⟨2, ![1, c]⟩ v h = rowOf v := by
  funext i
  obtain ⟨z, k, rfl⟩ : ∃ (z : Fin 1) (k : Fin c), i = ix2 z k := ⟨i 0, i 1, eq_ix2 i⟩
  rw [shapeCast_a_1a_apply]
  rfl

end Cert.KernelGlue

end
-- ==== Proof.LibStatsOps.lean ====
/-
  Two operations of a row-blocked affine map and its column statistics, read at an entry given by coordinates, on
  the extended reals: the product of an [m, k] block by a [k, n] matrix into a zero accumulator is the sum over the
  contracted coordinate of the products of the entries; a sum over the rows of an [m, n] block is, in column q, the sum
  over the rows p of the entry (p, q). They depend on the library only.
-/
import Idealize.ShloMosaic.PureOps.Ideal.Laws
import Idealize.ShloMosaic.Lib.ValueIdx
import Idealize.ShloMosaic.Lib.ValueLayout

noncomputable section

open scoped BigOperators

namespace Cert.LibStatsOps

open Idealize.ShloMosaic Idealize.ShloMosaic.ValueIdx

/-- The product of an [m, k] matrix by a [k, n] matrix (contracting the left operand's columns against the right
    operand's rows, no batch axis) accumulated into zero, at the entry (a, b): the sum over c of A(a, c) · B(c, b). -/
theorem matmul_plain_zero_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A sum over the rows of an [m, n] array, in column q: the sum over the rows p of the entry (p, q). -/
theorem rowsum_apply {m n : ℕ} (src : FVec Ideal ⟨2, ![m, n]⟩ .f32)
    (h : Shape.Reduces ⟨2, ![m, n]⟩ [0] ⟨1, ![n]⟩) (hφ : FKind.Formats .f32)
    (hacc : (0x00000000#32 : BitVec 32) = FKind.add.neutral .f32 hφ) (q : Fin n) :
    multiReduction .add [0] ⟨1, ![n]⟩ src 0x00000000#32 h hφ hacc (ix1 q) = ∑ p : Fin m, src (ix2 p q) := by
  refine (Ideal.multiReduction_add_single src 0x00000000#32 h hφ hacc (ix1 q)).trans ?_
  refine Finset.sum_congr rfl fun p _ => congrArg src ?_
  funext ax; apply Fin.ext
  match ax with
  | ⟨0, _⟩ => rfl
  | ⟨1, _⟩ => rfl

end Cert.LibStatsOps

end
-- ==== Proof.Region0Payload.lean ====
/-
  The arithmetic of one grid point of the layer's first kernel, read entry by entry on the extended reals. The point
  holds a block of 3600 rows of x and of agg, the whole of W₁ and of b₁. It computes the block of h = (x + agg)·W₁ + b₁:
  entry (p, q) is Σ_j (x[p, j] + agg[p, j]) · W₁[j, q] + b₁[0, q]. It adds to the running column sums, in column q,
  Σ_p h[p, q] over the block's rows, and to the running column sums of squares Σ_p h[p, q]·h[p, q]. When the blocks of x
  and agg are rows r(p) of the arrays, the block of h is rows r(p) of the affine map of the whole arrays.
-/
import proofs.«117235_j17583596110491_1_alg».proof.Proof.Gen.KernelIdeal.Skeleton
import proofs.«117235_j17583596110491_1_alg».proof.Proof.LayerSpec
import proofs.«117235_j17583596110491_1_alg».proof.Proof.LibStatsOps
import Idealize.ShloMosaic.PureOps.Ideal.Laws
import Idealize.ShloMosaic.Lib.ValueIdx
import Idealize.ShloMosaic.Lib.ValueLayout

noncomputable section

open scoped BigOperators

namespace Cert.KernelIdeal.Region0

open Cert.KernelIdeal Cert.KernelIdeal.Gen Idealize.ShloMosaic Idealize.ShloMosaic.ValueIdx Cert.LayerSpec

/-- The f32 zero word denotes the extended real zero. -/
theorem zeroWord : (FloatOps.ofBits (F := Ideal) .f32 0x00000000#32 : EReal) = 0 := Ideal.ofBits_zero_f32

/-- The block of h a point computes, entry (p, q): the affine map of the point's row p. -/
theorem pay3_apply (v3 v4 : Vec Ideal S3600x128 .f32) (v7 : Vec Ideal S128x256 .f32) (v10 : Vec Ideal S1x256 .f32)
    (p : Fin 3600) (q : Fin 256) :
    k0_pay3 (F := Ideal) v3 v4 v7 v10 (ix2 p q)
      = (∑ j : Fin 128, (v3 (ix2 p j) + v4 (ix2 p j)) * v7 (ix2 j q)) + v10 (ix2 (0 : Fin 1) q) := by
  unfold k0_pay3
  refine (addf_apply _ _ (ix2 p q)).trans ?_
  refine congrArg₂ (· + ·) ?_ ?_
  · refine (Cert.LibStatsOps.matmul_plain_zero_apply _ none _ _ p q).trans ?_
    refine Finset.sum_congr rfl fun j _ => ?_
    repeat rw [shapeCast_self]
    rfl
  · refine (broadcastTo_1b_ab_apply _ _ p q).trans ?_
    rw [shapeCast_self]

/-- When the point's blocks of x and agg are the rows r(p) of the arrays and its blocks of W₁ and b₁ are the arrays, the
    block of h is the rows r(p) of the affine map of the arrays. -/
theorem pay3_rows (X A : Arr 90000 128) (W : Arr 128 256) (B : Arr 1 256)
    (x0 x1 : Vec Ideal S3600x128 .f32) (x2 : Vec Ideal S128x256 .f32) (x3 : Vec Ideal S1x256 .f32)
    (r : Fin 3600 → Fin 90000)
    (h0 : ∀ (p : Fin 3600) (j : Fin 128), x0 (ix2 p j) = X (ix2 (r p) j))
    (h1 : ∀ (p : Fin 3600) (j : Fin 128), x1 (ix2 p j) = A (ix2 (r p) j))
    (h2 : ∀ (j : Fin 128) (q : Fin 256), x2 (ix2 j q) = W (ix2 j q))
    (h3 : ∀ q : Fin 256, x3 (ix2 (0 : Fin 1) q) = B (ix2 (0 : Fin 1) q))
    (p : Fin 3600) (q : Fin 256) :
    k0_pay3 (F := Ideal) x0 x1 x2 x3 (ix2 p q) = lin1 X A W B (ix2 (r p) q) := by
  refine (pay3_apply x0 x1 x2 x3 p q).trans ?_
  rw [lin1_apply]
  unfold lin1At
  refine congrArg₂ (· + ·) (Finset.sum_congr rfl fun j _ => ?_) (h3 q)
  rw [h0, h1, h2]

/-- The running column sums after a point, entry (z, q): what they held plus the sum of the point's block of h over
    its rows. -/
theorem pay4_apply (v3 v4 : Vec Ideal S3600x128 .f32) (v7 : Vec Ideal S128x256 .f32) (v10 v15 : Vec Ideal S1x256 .f32)
    (z : Fin 1) (q : Fin 256) :
    k0_pay4 (F := Ideal) v3 v4 v7 v10 v15 (ix2 z q)
      = v15 (ix2 z q) + ∑ p : Fin 3600, k0_pay3 (F := Ideal) v3 v4 v7 v10 (ix2 p q) := by
  unfold k0_pay4
  refine (addf_apply _ _ (ix2 z q)).trans ?_
  refine congrArg₂ (· + ·) ?_ ?_
  · rw [shapeCast_self]
  · refine (shapeCast_a_1a_apply _ _ z q).trans ?_
    exact Cert.LibStatsOps.rowsum_apply _ _ _ _ q

/-- The running column sums of squares after a point, entry (z, q): what they held plus the sum of the squares of the
    point's block of h over its rows. -/
theorem pay5_apply (v3 v4 : Vec Ideal S3600x128 .f32) (v7 : Vec Ideal S128x256 .f32) (v10 v21 : Vec Ideal S1x256 .f32)
    (z : Fin 1) (q : Fin 256) :
    k0_pay5 (F := Ideal) v3 v4 v7 v10 v21 (ix2 z q)
      = v21 (ix2 z q) + ∑ p : Fin 3600, k0_pay3 (F := Ideal) v3 v4 v7 v10 (ix2 p q) * k0_pay3 (F := Ideal) v3 v4 v7 v10 (ix2 p q) := by
  unfold k0_pay5
  refine (addf_apply _ _ (ix2 z q)).trans ?_
  refine congrArg₂ (· + ·) ?_ ?_
  · rw [shapeCast_self]
  · refine (shapeCast_a_1a_apply _ _ z q).trans ?_
    refine (Cert.LibStatsOps.rowsum_apply _ _ _ _ q).trans ?_
    rfl

/-- The two zero blocks the first point stores, at any entry. -/
theorem pay1_apply (i : S1x256.Idx) : k0_pay1 (F := Ideal) i = 0 := zeroWord
theorem pay2_apply (i : S1x256.Idx) : k0_pay2 (F := Ideal) i = 0 := zeroWord

end Cert.KernelIdeal.Region0

end
-- ==== Proof.Region0Pieces.lean ====
/-
  What one grid point of the layer's first kernel leaves in its three output blocks, as the kernel's arithmetic applied to
  the blocks the point holds. Every load and every store of the body moves a whole block. At the first point the two
  statistics blocks are first set to zero and then read back, so they end at the zero block plus the point's sums; at
  every other point they are read as the point before left them.
-/
import proofs.«117235_j17583596110491_1_alg».proof.Proof.Gen.KernelIdeal.Frame
import Idealize.ShloMosaic.Lib.Pipeline.Value
import Idealize.ShloMosaic.Lib.Tactic

set_option maxRecDepth 16384

noncomputable section

namespace Cert.KernelIdeal.Region0

open Cert.KernelIdeal Cert.KernelIdeal.Gen Idealize.ShloMosaic Idealize.ShloMosaic.TcCoe Idealize.ShloMosaic.Tactic Idealize.SL.Sem

variable {F : FTy → Type} [FloatOps F]

/-- The literal zero offset of a rank-two block is the constant-zero function. -/
theorem hz : (![0, 0] : Fin 2 → Nat) = fun _ => 0 := funext fun a => by fin_cases a <;> rfl

/-- At the first point the block of h is the affine map of the point's blocks. -/
theorem outA4_eq (c : Dev nD) (i : grid0.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S3600x128 .f32) (x1 : Vec F S3600x128 .f32) (x2 : Vec F S128x256 .f32) (x3 : Vec F S1x256 .f32) :
    out0_A_4 c i arg1 harg1 arg2 harg2 arg3 harg3 arg4 harg4 arg5 harg5 arg6 harg6 arg7 harg7 hc0 x0 x1 x2 x3 = k0_pay3 x0 x1 x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  try sl_unfold_words
  rw [View.canon_unit_zero hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At the first point the column sums are the zero block plus the sums of the point's block of h. -/
theorem outA5_eq (c : Dev nD) (i : grid0.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S3600x128 .f32) (x1 : Vec F S3600x128 .f32) (x2 : Vec F S128x256 .f32) (x3 : Vec F S1x256 .f32) :
    out0_A_5 c i arg1 harg1 arg2 harg2 arg3 harg3 arg4 harg4 arg5 harg5 arg6 harg6 arg7 harg7 hc0 x0 x1 x2 x3 = k0_pay4 x0 x1 x2 x3 (k0_pay1 (F := F)) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  try sl_unfold_words
  rw [View.canon_cons_unit_zero (S := S1x256) hz, View.readCov_unit_zero (S := S1x256) _ hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At the first point the column sums of squares are the zero block plus the sums of squares of the point's block of h. -/
theorem outA6_eq (c : Dev nD) (i : grid0.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S3600x128 .f32) (x1 : Vec F S3600x128 .f32) (x2 : Vec F S128x256 .f32) (x3 : Vec F S1x256 .f32) :
    out0_A_6 c i arg1 harg1 arg2 harg2 arg3 harg3 arg4 harg4 arg5 harg5 arg6 harg6 arg7 harg7 hc0 x0 x1 x2 x3 = k0_pay5 x0 x1 x2 x3 (k0_pay2 (F := F)) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  try sl_unfold_words
  rw [View.canon_cons_unit_zero (S := S1x256) hz, View.readCov_unit_zero (S := S1x256) _ hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At a later point the block of h is the affine map of the point's blocks. -/
theorem outB4_eq (c : Dev nD) (i : grid0.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S3600x128 .f32) (x1 : Vec F S3600x128 .f32) (x2 : Vec F S128x256 .f32) (x3 : Vec F S1x256 .f32) (xo5 : Vec F S1x256 .f32) (xo6 : Vec F S1x256 .f32) :
    out0_B_4 c i arg1 harg1 arg2 harg2 arg3 harg3 arg4 harg4 arg5 harg5 arg6 harg6 arg7 harg7 hc0 x0 x1 x2 x3 xo5 xo6 = k0_pay3 x0 x1 x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

/-- At a later point the column sums are what the point before left plus the sums of the point's block of h. -/
theorem outB5_eq (c : Dev nD) (i : grid0.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S3600x128 .f32) (x1 : Vec F S3600x128 .f32) (x2 : Vec F S128x256 .f32) (x3 : Vec F S1x256 .f32) (xo5 : Vec F S1x256 .f32) (xo6 : Vec F S1x256 .f32) :
    out0_B_5 c i arg1 harg1 arg2 harg2 arg3 harg3 arg4 harg4 arg5 harg5 arg6 harg6 arg7 harg7 hc0 x0 x1 x2 x3 xo5 xo6 = k0_pay4 x0 x1 x2 x3 xo5 := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

/-- At a later point the column sums of squares are what the point before left plus the sums of squares of the point's
    block of h. -/
theorem outB6_eq (c : Dev nD) (i : grid0.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S3600x128 .f32) (x1 : Vec F S3600x128 .f32) (x2 : Vec F S128x256 .f32) (x3 : Vec F S1x256 .f32) (xo5 : Vec F S1x256 .f32) (xo6 : Vec F S1x256 .f32) :
    out0_B_6 c i arg1 harg1 arg2 harg2 arg3 harg3 arg4 harg4 arg5 harg5 arg6 harg6 arg7 harg7 hc0 x0 x1 x2 x3 xo5 xo6 = k0_pay5 x0 x1 x2 x3 xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

end Cert.KernelIdeal.Region0

end
-- ==== Proof.LibBlockedRows.lean ====
/-
  A column of 90000 entries cut into 25 consecutive blocks of 3600: block t holds the rows 3600·t … 3600·t + 3599.
  The sum of a function over the 90000 rows is the sum, over the blocks, of its sums over each block's rows. Addition on
  the extended reals is commutative and associative, so no entry has to be finite.
-/
import proofs.«117235_j17583596110491_1_alg».proof.Proof.LibERealMatmul

noncomputable section

open scoped BigOperators

namespace Cert.LibBlockedRows

open Cert.LibERealMatmul

/-- Row p of the block t of 3600 rows, among 90000 rows. -/
def blockRow (t : Fin 25) (p : Fin 3600) : Fin 90000 :=
  ⟨t.val * 3600 + p.val, by have := t.isLt; have := p.isLt; omega⟩

theorem blockRow_val (t : Fin 25) (p : Fin 3600) : (blockRow t p).val = t.val * 3600 + p.val := rfl

/-- The sum of f over the rows of block t; zero when t names no block. -/
def blockSum (f : Fin 90000 → EReal) (t : ℕ) : EReal :=
  if ht : t < 25 then ∑ p : Fin 3600, f (blockRow ⟨t, ht⟩ p) else 0

theorem blockSum_of_lt (f : Fin 90000 → EReal) (t : Fin 25) : blockSum f t.val = ∑ p : Fin 3600, f (blockRow t p) := by
  unfold blockSum
  rw [dif_pos t.isLt]

/-- The sums over the 25 blocks of 3600 rows add up to the sum over the 90000 rows. -/
theorem sum_blockSum (f : Fin 90000 → EReal) : ∑ t ∈ Finset.range 25, blockSum f t = ∑ n : Fin 90000, f n := by
  rw [Finset.sum_range]
  have hlt : ∀ (i : Fin 25) (k : Fin 3600), (i : ℕ) * 3600 + (k : ℕ) < 25 * 3600 := fun i k => by
    have := i.isLt; have := k.isLt; omega
  have e := blocked_sum_fin 25 3600 (fun j => f (Fin.cast (by norm_num) j)) hlt
  refine Eq.trans ?_ (e.trans ?_)
  · refine Finset.sum_congr rfl fun i _ => ?_
    rw [blockSum_of_lt]
    rfl
  · exact Fintype.sum_equiv (finCongr (by norm_num)) _ _ (fun _ => rfl)

end Cert.LibBlockedRows

end
-- ==== Proof.Region0Value.lean ====
/-
  The three arrays the layer's first kernel leaves, as whole-array functions of the four arrays it finds.
  The grid has 25 points; point t holds rows 3600·t … 3600·t + 3599 of x and of agg, the whole of W₁ and of b₁, and writes
  rows 3600·t … 3600·t + 3599 of h. The two statistics arrays are one block each, revisited by every point and written
  back after the last one: after point n they hold the column sums (of h, of h·h) over the rows of blocks 0 … n, so
  after the last point the sums over all 90000 rows.
-/
import proofs.«117235_j17583596110491_1_alg».proof.Proof.Gen.KernelIdeal.Frame
import proofs.«117235_j17583596110491_1_alg».proof.Proof.Region0Payload
import proofs.«117235_j17583596110491_1_alg».proof.Proof.Region0Pieces
import proofs.«117235_j17583596110491_1_alg».proof.Proof.LibBlockedRows
import proofs.«117235_j17583596110491_1_alg».proof.Proof.LayerSpec
import Idealize.ShloMosaic.Lib.Pipeline.Value
import Idealize.ShloMosaic.Lib.Tactic

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.LayerSpec Cert.LibBlockedRows
open Idealize.ShloMosaic.Pipeline (Dat)

variable (V : (c : Dev nD) → (b : Ref sig .tc) → Buf (Elt Ideal) ((c : Thread nD τ).loc b))

/-- The affine map (x + agg)·W₁ + b₁ of the four arrays the region finds. -/
def hOf (c : Dev nD) : Arr 90000 256 :=
  lin1 (V c (Pipeline.arrRef spec0 0)) (V c (Pipeline.arrRef spec0 1)) (V c (Pipeline.arrRef spec0 2)) (V c (Pipeline.arrRef spec0 3))

/-- The three output blocks a point leaves: h's block, the column sums, the column sums of squares. -/
abbrev Outs : Type := Vec Ideal S3600x256 .f32 × Vec Ideal S1x256 .f32 × Vec Ideal S1x256 .f32

/-! ## Where each window's block sits -/

/-- The block indices at point t: the row-blocked windows (x, agg, h) are at block row t, every other window at its one block. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

/-- The grid has 25 points. -/
theorem lt25 (t : Fin cfg0.N) : t.val < 25 := lt_of_lt_of_eq t.isLt (show cfg0.N = 25 from N_0)

/-- Row p of the block of point t, among the 90000 rows. -/
abbrev rowAt (t : Fin cfg0.N) (p : Fin 3600) : Fin 90000 := blockRow ⟨t.val, lt25 t⟩ p

/-- The block of x at point t, entry (p, j), is x at row 3600·t + p. -/
theorem iblk_0_apply (c : Dev nD) (t : Fin cfg0.N) (p : Fin 3600) (j : Fin 128) :
    (iblk0 V c 0 t : Vec Ideal S3600x128 .f32) (ix2 p j)
      = (V c (Pipeline.arrRef spec0 0) : Arr 90000 128) (ix2 (rowAt t p) j) := by
  obtain ⟨e00, e01, e10, e11, e20, e21, e30, e31, e40, e41, e50, e51, e60, e61⟩ := idx_facts t
  unfold iblk0
  rw [View.read_apply]
  show (V c (Pipeline.arrRef spec0 0) : Arr 90000 128) _ = _
  refine congrArg _ (funext fun a => Fin.ext ?_)
  match a with
  | ⟨0, _⟩ => show win0_0.index t (0 : Fin 2) * 3600 + 1 * p.val = t.val * 3600 + p.val; first | omega | (rw [e00] <;> omega)
  | ⟨1, _⟩ => show win0_0.index t (1 : Fin 2) * 128 + 1 * j.val = j.val; first | omega | (rw [e01] <;> omega)

/-- The block of agg at point t, entry (p, j), is agg at row 3600·t + p. -/
theorem iblk_1_apply (c : Dev nD) (t : Fin cfg0.N) (p : Fin 3600) (j : Fin 128) :
    (iblk0 V c 1 t : Vec Ideal S3600x128 .f32) (ix2 p j)
      = (V c (Pipeline.arrRef spec0 1) : Arr 90000 128) (ix2 (rowAt t p) j) := by
  obtain ⟨e00, e01, e10, e11, e20, e21, e30, e31, e40, e41, e50, e51, e60, e61⟩ := idx_facts t
  unfold iblk0
  rw [View.read_apply]
  show (V c (Pipeline.arrRef spec0 1) : Arr 90000 128) _ = _
  refine congrArg _ (funext fun a => Fin.ext ?_)
  match a with
  | ⟨0, _⟩ => show win0_1.index t (0 : Fin 2) * 3600 + 1 * p.val = t.val * 3600 + p.val; first | omega | (rw [e10] <;> omega)
  | ⟨1, _⟩ => show win0_1.index t (1 : Fin 2) * 128 + 1 * j.val = j.val; first | omega | (rw [e11] <;> omega)

/-- The block of W₁ at any point is W₁. -/
theorem iblk_2_apply (c : Dev nD) (t : Fin cfg0.N) (j : Fin 128) (q : Fin 256) :
    (iblk0 V c 2 t : Vec Ideal S128x256 .f32) (ix2 j q)
      = (V c (Pipeline.arrRef spec0 2) : Arr 128 256) (ix2 j q) := by
  obtain ⟨e00, e01, e10, e11, e20, e21, e30, e31, e40, e41, e50, e51, e60, e61⟩ := idx_facts t
  unfold iblk0
  rw [View.read_apply]
  show (V c (Pipeline.arrRef spec0 2) : Arr 128 256) _ = _
  refine congrArg _ (funext fun a => Fin.ext ?_)
  match a with
  | ⟨0, _⟩ => show win0_2.index t (0 : Fin 2) * 128 + 1 * j.val = j.val; first | omega | (rw [e20] <;> omega)
  | ⟨1, _⟩ => show win0_2.index t (1 : Fin 2) * 256 + 1 * q.val = q.val; first | omega | (rw [e21] <;> omega)

/-- The block of b₁ at any point is b₁. -/
theorem iblk_3_apply (c : Dev nD) (t : Fin cfg0.N) (z : Fin 1) (q : Fin 256) :
    (iblk0 V c 3 t : Vec Ideal S1x256 .f32) (ix2 z q)
      = (V c (Pipeline.arrRef spec0 3) : Arr 1 256) (ix2 z q) := by
  obtain ⟨e00, e01, e10, e11, e20, e21, e30, e31, e40, e41, e50, e51, e60, e61⟩ := idx_facts t
  unfold iblk0
  rw [View.read_apply]
  show (V c (Pipeline.arrRef spec0 3) : Arr 1 256) _ = _
  refine congrArg _ (funext fun a => Fin.ext ?_)
  match a with
  | ⟨0, _⟩ => show win0_3.index t (0 : Fin 2) * 1 + 1 * z.val = z.val; first | omega | (rw [e30] <;> omega)
  | ⟨1, _⟩ => show win0_3.index t (1 : Fin 2) * 256 + 1 * q.val = q.val; first | omega | (rw [e31] <;> omega)

/-! ## The block of h a point computes -/

/-- The affine map of the blocks of point t, entry (p, q), is h at row 3600·t + p. -/
theorem hblock_apply (c : Dev nD) (t : Fin cfg0.N) (p : Fin 3600) (q : Fin 256) :
    k0_pay3 (F := Ideal) (iblk0 V c 0 t) (iblk0 V c 1 t) (iblk0 V c 2 t) (iblk0 V c 3 t) (ix2 p q) = hOf V c (ix2 (rowAt t p) q) :=
  pay3_rows (V c (Pipeline.arrRef spec0 0)) (V c (Pipeline.arrRef spec0 1)) (V c (Pipeline.arrRef spec0 2)) (V c (Pipeline.arrRef spec0 3))
    (iblk0 V c 0 t) (iblk0 V c 1 t) (iblk0 V c 2 t) (iblk0 V c 3 t) (rowAt t)
    (iblk_0_apply V c t) (iblk_1_apply V c t) (iblk_2_apply V c t) (fun q => iblk_3_apply V c t 0 q) p q

/-- Summed over the rows of the block, column q: the block's share of the column sum of h. -/
theorem block_colsum (c : Dev nD) (t : Fin cfg0.N) (q : Fin 256) :
    ∑ p : Fin 3600, k0_pay3 (F := Ideal) (iblk0 V c 0 t) (iblk0 V c 1 t) (iblk0 V c 2 t) (iblk0 V c 3 t) (ix2 p q)
      = blockSum (fun r => hOf V c (ix2 r q)) t.val :=
  Eq.trans (Finset.sum_congr rfl fun p _ => hblock_apply V c t p q)
    (blockSum_of_lt (fun r => hOf V c (ix2 r q)) ⟨t.val, lt25 t⟩).symm

/-- The same for the squares. -/
theorem block_colsumsq (c : Dev nD) (t : Fin cfg0.N) (q : Fin 256) :
    ∑ p : Fin 3600, k0_pay3 (F := Ideal) (iblk0 V c 0 t) (iblk0 V c 1 t) (iblk0 V c 2 t) (iblk0 V c 3 t) (ix2 p q)
        * k0_pay3 (F := Ideal) (iblk0 V c 0 t) (iblk0 V c 1 t) (iblk0 V c 2 t) (iblk0 V c 3 t) (ix2 p q)
      = blockSum (fun r => hOf V c (ix2 r q) * hOf V c (ix2 r q)) t.val :=
  Eq.trans (Finset.sum_congr rfl fun p _ => by rw [hblock_apply V c t p q])
    (blockSum_of_lt (fun r => hOf V c (ix2 r q) * hOf V c (ix2 r q)) ⟨t.val, lt25 t⟩).symm

/-! ## What the outputs hold after each point -/

/-- After any point the block of h is the affine map of the point's blocks. -/
theorem outs4_eq (c : Dev nD) (t : Fin cfg0.N) :
    (outsAt0 V c t.val t.isLt).1 = k0_pay3 (F := Ideal) (iblk0 V c 0 t) (iblk0 V c 1 t) (iblk0 V c 2 t) (iblk0 V c 3 t) := by
  by_cases h0 : t.val % 25 = 0
  · rw [outsAt0_A V c t h0]
    dsimp only
    exact outA4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact outB4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

/-- After the point n, column q of the running column sums holds the sum, over the blocks 0 … n, of the block's sums of h in column q:
    at the first point the zero block plus the first block's, at a later point what the point before left plus this block's. -/
theorem outs5_inv (c : Dev nD) : ∀ (n : ℕ) (hn : n < cfg0.N) (z : Fin 1) (q : Fin 256),
    (outsAt0 V c n hn).2.1 (ix2 z q) = ∑ s ∈ Finset.range (n + 1), blockSum (fun r => hOf V c (ix2 r q)) s
  | 0, hn, z, q => by
    have h0 : (⟨0, hn⟩ : Fin cfg0.N).val % 25 = 0 := rfl
    refine (congrArg (fun o : Outs => o.2.1 (ix2 z q)) (outsAt0_A V c ⟨0, hn⟩ h0)).trans ?_
    dsimp only
    refine (congrFun (outA5_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr h0) (iblk0 V c 0 ⟨0, hn⟩) (iblk0 V c 1 ⟨0, hn⟩) (iblk0 V c 2 ⟨0, hn⟩) (iblk0 V c 3 ⟨0, hn⟩)) (ix2 z q)).trans ?_
    refine (pay4_apply (iblk0 V c 0 ⟨0, hn⟩) (iblk0 V c 1 ⟨0, hn⟩) (iblk0 V c 2 ⟨0, hn⟩) (iblk0 V c 3 ⟨0, hn⟩) _ z q).trans ?_
    rw [pay1_apply]
    refine (zero_add _).trans ?_
    refine (block_colsum V c ⟨0, hn⟩ q).trans ?_
    exact (Finset.sum_range_one (blockSum (fun r => hOf V c (ix2 r q)))).symm
  | n + 1, hn, z, q => by
    have hN : cfg0.N = 25 := N_0
    have hB : ¬(⟨n + 1, hn⟩ : Fin cfg0.N).val % 25 = 0 := by dsimp only; omega
    refine (congrArg (fun o : Outs => o.2.1 (ix2 z q)) (outsAt0_B V c ⟨n + 1, hn⟩ hB)).trans ?_
    dsimp only
    refine (congrFun (outB5_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (fun h => hB ((hcond0_0 (⟨n + 1, hn⟩ : Fin cfg0.N)).mp h)) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.1 (outsAt0 V c ((⟨n + 1, hn⟩ : Fin cfg0.N).val - 1) (Nat.lt_of_le_of_lt (Nat.sub_le _ _) (⟨n + 1, hn⟩ : Fin cfg0.N).isLt)).2.2) (ix2 z q)).trans ?_
    refine (pay4_apply (iblk0 V c 0 ⟨n + 1, hn⟩) (iblk0 V c 1 ⟨n + 1, hn⟩) (iblk0 V c 2 ⟨n + 1, hn⟩) (iblk0 V c 3 ⟨n + 1, hn⟩) _ z q).trans ?_
    rw [Finset.sum_range_succ]
    exact congrArg₂ (· + ·) (outs5_inv c n (Nat.lt_of_succ_lt hn) z q) (block_colsum V c ⟨n + 1, hn⟩ q)

/-- After the point n, column q of the running column sums of squares holds the sum, over the blocks 0 … n, of the block's sums of squares of h in column q:
    at the first point the zero block plus the first block's, at a later point what the point before left plus this block's. -/
theorem outs6_inv (c : Dev nD) : ∀ (n : ℕ) (hn : n < cfg0.N) (z : Fin 1) (q : Fin 256),
    (outsAt0 V c n hn).2.2 (ix2 z q) = ∑ s ∈ Finset.range (n + 1), blockSum (fun r => hOf V c (ix2 r q) * hOf V c (ix2 r q)) s
  | 0, hn, z, q => by
    have h0 : (⟨0, hn⟩ : Fin cfg0.N).val % 25 = 0 := rfl
    refine (congrArg (fun o : Outs => o.2.2 (ix2 z q)) (outsAt0_A V c ⟨0, hn⟩ h0)).trans ?_
    dsimp only
    refine (congrFun (outA6_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr h0) (iblk0 V c 0 ⟨0, hn⟩) (iblk0 V c 1 ⟨0, hn⟩) (iblk0 V c 2 ⟨0, hn⟩) (iblk0 V c 3 ⟨0, hn⟩)) (ix2 z q)).trans ?_
    refine (pay5_apply (iblk0 V c 0 ⟨0, hn⟩) (iblk0 V c 1 ⟨0, hn⟩) (iblk0 V c 2 ⟨0, hn⟩) (iblk0 V c 3 ⟨0, hn⟩) _ z q).trans ?_
    rw [pay2_apply]
    refine (zero_add _).trans ?_
    refine (block_colsumsq V c ⟨0, hn⟩ q).trans ?_
    exact (Finset.sum_range_one (blockSum (fun r => hOf V c (ix2 r q) * hOf V c (ix2 r q)))).symm
  | n + 1, hn, z, q => by
    have hN : cfg0.N = 25 := N_0
    have hB : ¬(⟨n + 1, hn⟩ : Fin cfg0.N).val % 25 = 0 := by dsimp only; omega
    refine (congrArg (fun o : Outs => o.2.2 (ix2 z q)) (outsAt0_B V c ⟨n + 1, hn⟩ hB)).trans ?_
    dsimp only
    refine (congrFun (outB6_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (fun h => hB ((hcond0_0 (⟨n + 1, hn⟩ : Fin cfg0.N)).mp h)) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.1 (outsAt0 V c ((⟨n + 1, hn⟩ : Fin cfg0.N).val - 1) (Nat.lt_of_le_of_lt (Nat.sub_le _ _) (⟨n + 1, hn⟩ : Fin cfg0.N).isLt)).2.2) (ix2 z q)).trans ?_
    refine (pay5_apply (iblk0 V c 0 ⟨n + 1, hn⟩) (iblk0 V c 1 ⟨n + 1, hn⟩) (iblk0 V c 2 ⟨n + 1, hn⟩) (iblk0 V c 3 ⟨n + 1, hn⟩) _ z q).trans ?_
    rw [Finset.sum_range_succ]
    exact congrArg₂ (· + ·) (outs6_inv c n (Nat.lt_of_succ_lt hn) z q) (block_colsumsq V c ⟨n + 1, hn⟩ q)

/-! ## The array of h: every point writes its own block of rows -/

/-- What point t writes back to the array of h is block t of the affine map of the arrays. -/
theorem flushed4_eq (c : Dev nD) (t : Fin cfg0.N) :
    (dat0 V c).flushed 4 t = ((cfg0.win 4).blk t).view.read (Elt Ideal) (hOf V c) := by
  show (cfg0.win 4).cut (grid0.coords t) ((dat0 V c).after 4 t) = _
  rw [after0_4, outs4_eq V c t]
  obtain ⟨e00, e01, e10, e11, e20, e21, e30, e31, e40, e41, e50, e51, e60, e61⟩ := idx_facts t
  funext y
  show k0_pay3 (F := Ideal) (iblk0 V c 0 t) (iblk0 V c 1 t) (iblk0 V c 2 t) (iblk0 V c 3 t) y = hOf V c (((cfg0.win 4).blk t).view.emb y)
  have hy : (y : S3600x256.Idx) = ix2 (y 0) (y 1) := eq_ix2 (n0 := 3600) (n1 := 256) y
  have he : (((cfg0.win 4).blk t).view.emb y : S90000x256.Idx) = ix2 (rowAt t (y 0)) (y 1) := by
    funext a; apply Fin.ext
    match a with
    | ⟨0, _⟩ => show win0_4.index t (0 : Fin 2) * 3600 + 1 * (y 0).val = t.val * 3600 + (y 0).val; first | omega | (rw [e40] <;> omega)
    | ⟨1, _⟩ => show win0_4.index t (1 : Fin 2) * 256 + 1 * (y 1).val = (y 1).val; first | omega | (rw [e41] <;> omega)
  exact (congrArg (k0_pay3 (F := Ideal) (iblk0 V c 0 t) (iblk0 V c 1 t) (iblk0 V c 2 t) (iblk0 V c 3 t)) hy).trans
    ((hblock_apply V c t (y 0) (y 1)).trans (congrArg (hOf V c) he.symm))

/-- A row index is in point t's block of h iff each coordinate is in the block's range on its axis. -/
theorem mem_blk4 (t : Fin cfg0.N) (i : S90000x256.Idx) :
    i ∈ ((cfg0.win 4).blk t).view.set ↔ ∀ a : Fin 2, win0_4.index t a * S3600x256.size a ≤ (i a).val ∧ (i a).val < win0_4.index t a * S3600x256.size a + S3600x256.size a := by
  show i ∈ ((View.whole main_v27_0).slice (win0_4.rect t)).set ↔ _
  rw [View.set_slice_whole, Rect.mem_set_unit]
  exact Iff.rfl

/-- Row r of h is in the block of point r / 3600. -/
theorem cover4 (i : S90000x256.Idx) :
    ∃ t : Fin cfg0.N, (cfg0.win 4).flush t = true ∧ i ∈ ((cfg0.win 4).blk t).view.set := by
  have hi0 : (i 0).val < 90000 := (i 0).isLt
  have hi1 : (i 1).val < 256 := (i 1).isLt
  have hN : cfg0.N = 25 := N_0
  obtain ⟨t, ht⟩ : ∃ t : Fin cfg0.N, t.val = (i 0).val / 3600 := ⟨⟨(i 0).val / 3600, by rw [hN]; omega⟩, rfl⟩
  obtain ⟨e00, e01, e10, e11, e20, e21, e30, e31, e40, e41, e50, e51, e60, e61⟩ := idx_facts t
  refine ⟨t, flush0_4 t, ?_⟩
  rw [mem_blk4]
  intro a
  match a with
  | ⟨0, _⟩ => show win0_4.index t (0 : Fin 2) * 3600 ≤ (i 0).val ∧ (i 0).val < win0_4.index t (0 : Fin 2) * 3600 + 3600; first | omega | (rw [e40, ht] <;> omega)
  | ⟨1, _⟩ => show win0_4.index t (1 : Fin 2) * 256 ≤ (i 1).val ∧ (i 1).val < win0_4.index t (1 : Fin 2) * 256 + 256; first | omega | (rw [e41] <;> omega)

/-- The array of h after the run is the affine map of the four arrays the region finds. -/
theorem final0_4 (c : Dev nD) : (dat0 V c).arrAt 4 cfg0.N
    = lin1 (V c (Pipeline.arrRef spec0 0)) (V c (Pipeline.arrRef spec0 1)) (V c (Pipeline.arrRef spec0 2)) (V c (Pipeline.arrRef spec0 3)) :=
  (dat0 V c).arrAt_eq_of_cover 4 (hOf V c) (fun t _ => flushed4_eq V c t) cover4

/-! ## The two statistics arrays: one block, written back after the last point -/

/-- The last point. -/
abbrev tLast : Fin cfg0.N := ⟨24, by rw [show cfg0.N = 25 from N_0]; decide⟩

/-- What the column sums' block holds after the last point, as contents of its array (the block is the whole array). -/
abbrev result5 (c : Dev nD) : Buf (Elt Ideal) ((c : Thread nD τ).loc main_v27_1) := (outsAt0 V c tLast.val tLast.isLt).2.1

/-- What the column sums of squares' block holds after the last point, as contents of its array. -/
abbrev result6 (c : Dev nD) : Buf (Elt Ideal) ((c : Thread nD τ).loc main_v27_2) := (outsAt0 V c tLast.val tLast.isLt).2.2

/-- The one write-back of the column sums, after the last point, writes that block: block (0, 0) of the [1, 256] array
    read through zero offsets is the array. -/
theorem flushed5_eq (c : Dev nD) (t : Fin cfg0.N) (hf : (cfg0.win 5).flush t = true) :
    (dat0 V c).flushed 5 t = ((cfg0.win 5).blk t).view.read (Elt Ideal) (result5 V c) := by
  have hN : cfg0.N = 25 := N_0
  have h24 : t.val = 24 := by have := (flush0_5 t).mp hf; have := t.isLt; omega
  obtain rfl : t = tLast := Fin.ext h24
  show (cfg0.win 5).cut (grid0.coords tLast) ((dat0 V c).after 5 tLast) = _
  rw [after0_5]
  have hz' : (fun a => win0_5.index tLast a * main_v27_1.ty.shape.size a) = fun _ => 0 := funext fun a => by fin_cases a <;> decide +kernel
  exact (Memref.read_access_unit_zero (Elt Ideal) main_v27_1 hz' (fun a => by rw [congrFun hz' a]; simp) (result5 V c)).symm

/-- The same for the column sums of squares. -/
theorem flushed6_eq (c : Dev nD) (t : Fin cfg0.N) (hf : (cfg0.win 6).flush t = true) :
    (dat0 V c).flushed 6 t = ((cfg0.win 6).blk t).view.read (Elt Ideal) (result6 V c) := by
  have hN : cfg0.N = 25 := N_0
  have h24 : t.val = 24 := by have := (flush0_6 t).mp hf; have := t.isLt; omega
  obtain rfl : t = tLast := Fin.ext h24
  show (cfg0.win 6).cut (grid0.coords tLast) ((dat0 V c).after 6 tLast) = _
  rw [after0_6]
  have hz' : (fun a => win0_6.index tLast a * main_v27_2.ty.shape.size a) = fun _ => 0 := funext fun a => by fin_cases a <;> decide +kernel
  exact (Memref.read_access_unit_zero (Elt Ideal) main_v27_2 hz' (fun a => by rw [congrFun hz' a]; simp) (result6 V c)).symm

/-- So the array of column sums ends holding the block the last point left (the last point's block covers it). -/
theorem final5_block (c : Dev nD) : (dat0 V c).arrAt 5 cfg0.N = result5 V c :=
  (dat0 V c).arrAt_eq_of_cover 5 (result5 V c) (flushed5_eq V c) fun i =>
    ⟨tLast, (flush0_5 tLast).mpr rfl, by
      show i ∈ ((View.whole main_v27_1).slice (win0_5.rect tLast)).set
      rw [View.set_slice_whole, Rect.mem_set_unit]
      intro a
      have h0 : (i 0 : Nat) < 1 := (i 0).isLt
      have h1 : (i 1 : Nat) < 256 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 256 from by decide +kernel]; omega⟩

/-- The same for the column sums of squares. -/
theorem final6_block (c : Dev nD) : (dat0 V c).arrAt 6 cfg0.N = result6 V c :=
  (dat0 V c).arrAt_eq_of_cover 6 (result6 V c) (flushed6_eq V c) fun i =>
    ⟨tLast, (flush0_6 tLast).mpr rfl, by
      show i ∈ ((View.whole main_v27_2).slice (win0_6.rect tLast)).set
      rw [View.set_slice_whole, Rect.mem_set_unit]
      intro a
      have h0 : (i 0 : Nat) < 1 := (i 0).isLt
      have h1 : (i 1 : Nat) < 256 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 256 from by decide +kernel]; omega⟩

/-- The array of column sums after the run: the sums of h over all 90000 rows. -/
theorem final0_5 (c : Dev nD) : (dat0 V c).arrAt 5 cfg0.N
    = colSum (lin1 (V c (Pipeline.arrRef spec0 0)) (V c (Pipeline.arrRef spec0 1)) (V c (Pipeline.arrRef spec0 2)) (V c (Pipeline.arrRef spec0 3))) := by
  refine (final5_block V c).trans ?_
  funext i
  obtain ⟨z, q, rfl⟩ : ∃ (z : Fin 1) (q : Fin 256), i = ix2 z q := ⟨i 0, i 1, eq_ix2 (n0 := 1) (n1 := 256) i⟩
  refine Eq.trans ?_ (colSum_apply (hOf V c) z q).symm
  exact (outs5_inv V c 24 tLast.isLt z q).trans (sum_blockSum (fun r => hOf V c (ix2 r q)))

/-- The array of column sums of squares after the run: the sums of h·h over all 90000 rows. -/
theorem final0_6 (c : Dev nD) : (dat0 V c).arrAt 6 cfg0.N
    = colSumSq (lin1 (V c (Pipeline.arrRef spec0 0)) (V c (Pipeline.arrRef spec0 1)) (V c (Pipeline.arrRef spec0 2)) (V c (Pipeline.arrRef spec0 3))) := by
  refine (final6_block V c).trans ?_
  funext i
  obtain ⟨z, q, rfl⟩ : ∃ (z : Fin 1) (q : Fin 256), i = ix2 z q := ⟨i 0, i 1, eq_ix2 (n0 := 1) (n1 := 256) i⟩
  refine Eq.trans ?_ (colSumSq_apply (hOf V c) z q).symm
  exact (outs6_inv V c 24 tLast.isLt z q).trans (sum_blockSum (fun r => hOf V c (ix2 r q) * hOf V c (ix2 r q)))

end Cert.KernelIdeal.Region0

end
-- ==== Proof.LibNormMatmul.lean ====
/-
  Two readings at an index given by coordinates, on the extended reals, for arrays of rank two with literal extents.
  (1) A plain matrix product  A · B  (A of extents [m, k], B of extents [k, n], contracting the second axis of A with the
      first of B) accumulated into the zero array: the entry (r, j) is  Σ_c A[r, c] · B[c, j].
  (2) A row-wise affine normalisation  ((X − μ) · rsqrt(v + ε)) · γ + β  of an [a, b] array X by four [1, b] rows
      broadcast down the rows: the entry (r, k) is  ((X[r, k] − μ[0, k]) · rsqrt(v[0, k] + ε)) · γ[0, k] + β[0, k].
  They depend on nothing but the library: any certificate whose body normalises rows and multiplies by a weight matrix
  can use them.
-/
import Idealize.ShloMosaic.PureOps.Ideal.Laws
import Idealize.ShloMosaic.Lib.ValueLayout
import Idealize.ShloMosaic.Lib.ValueIdx

noncomputable section

open scoped BigOperators

namespace Cert.LibNormMatmul

open Idealize.ShloMosaic Idealize.ShloMosaic.ValueIdx

/-- The plain product of an [m, k] by a [k, n] matrix into the zero accumulator, read at (r, j), is the sum over the
    contracted coordinate of the products of the entries. `w` is the record's well-formedness, which a program states. -/
theorem matmul_zero_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (r : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 r j)
      = ∑ c : Fin k, A (ix2 r c) * B (ix2 c j) := by
  show FloatOps.matmul _ prec A B _ (ix2 r j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 r j)
      ((contrEquiv1 _ k rfl rfl).symm c) = ix2 r c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- The row-wise affine normalisation read at (r, k): every broadcast row is read at its one row, column k. -/
theorem norm_affine_apply {a b : ℕ} (X : FVec Ideal ⟨2, ![a, b]⟩ .f32) (μ v γ β : FVec Ideal ⟨2, ![1, b]⟩ .f32)
    (h : (⟨2, ![1, b]⟩ : Shape).Broadcasts ⟨2, ![a, b]⟩) (ε : EReal) (r : Fin a) (k : Fin b) :
    addf (mulf (mulf (subf X (broadcastTo ⟨2, ![a, b]⟩ μ h))
          (broadcastTo ⟨2, ![a, b]⟩ (rsqrt (addf v (broadcast ⟨2, ![1, b]⟩ ε))) h))
        (broadcastTo ⟨2, ![a, b]⟩ γ h)) (broadcastTo ⟨2, ![a, b]⟩ β h) (ix2 r k)
      = ((X (ix2 r k) - μ (ix2 (0 : Fin 1) k)) * Ideal.rsqrt (v (ix2 (0 : Fin 1) k) + ε)) * γ (ix2 (0 : Fin 1) k)
          + β (ix2 (0 : Fin 1) k) := by
  rw [addf_apply, mulf_apply, mulf_apply, subf_apply, broadcastTo_1b_ab_apply, broadcastTo_1b_ab_apply,
    broadcastTo_1b_ab_apply, broadcastTo_1b_ab_apply]
  rfl

end Cert.LibNormMatmul

end
-- ==== Proof.Region1Payload.lean ====
/-
  One entry of what the body of kernel region 1 computes from the blocks it loads, and the same for a block of rows of
  the whole arrays.

  The body takes a block X of 3600 rows of h (256 columns), the rows μ, v, γ, β (one row of 256 columns each), the
  weights W (256 × 128) and the row b (128 columns), and forms
      out[r, j] = Σ_k act(((X[r, k] − μ[0, k]) · rsqrt(v[0, k] + ε)) · γ[0, k] + β[0, k]) · W[k, j] + b[0, j],
  with act = max(·, 0): the normalisation is pointwise in (r, k) once the four rows are read at their one row, the
  product with W accumulates into the zero array, so it is the bare sum over k, and b is added at column j.
  Row r of the result depends on row r of X only. Hence, when X is rows q·3600 … q·3600 + 3599 of a 90000-row array A,
  entry (r, j) of the result is entry (q·3600 + r, j) of the closed form `Cert.LayerSpec.norm2 true` of A.
-/
import proofs.«117235_j17583596110491_1_alg».proof.Proof.Gen.KernelIdeal.Skeleton
import proofs.«117235_j17583596110491_1_alg».proof.Proof.LayerSpec
import proofs.«117235_j17583596110491_1_alg».proof.Proof.LibNormMatmul

noncomputable section

open scoped BigOperators

namespace Cert.KernelIdeal.Region1

open Idealize.ShloMosaic Idealize.ShloMosaic.ValueIdx
open Cert.KernelIdeal Cert.KernelIdeal.Gen Cert.LibNormMatmul Cert.LayerSpec

/-- The body's result at entry (r, j), as a sum over the 256 columns of the loaded block of h. -/
theorem pay_apply (x0 : Vec Ideal S3600x256 .f32) (x1 x2 x3 x4 : Vec Ideal S1x256 .f32) (x5 : Vec Ideal S256x128 .f32)
    (x6 : Vec Ideal S1x128 .f32) (r : Fin 3600) (j : Fin 128) :
    k1_pay1 (F := Ideal) x0 x1 x2 x3 x4 x5 x6 (ix2 r j)
      = (∑ k : Fin 256, max (((x0 (ix2 r k) - x1 (ix2 (0 : Fin 1) k)) * Ideal.rsqrt (x2 (ix2 (0 : Fin 1) k) + Ideal.ofBits .f32 0x3727C5AC#32))
            * x3 (ix2 (0 : Fin 1) k) + x4 (ix2 (0 : Fin 1) k)) 0 * x5 (ix2 k j)) + x6 (ix2 (0 : Fin 1) j) := by
  unfold k1_pay1
  simp only [shapeCast_self]
  refine (addf_apply _ _ _).trans ?_
  refine congrArg₂ (· + ·) ?_ (broadcastTo_1b_ab_apply x6 _ r j)
  refine (matmul_zero_apply _ none _ x5 r j).trans ?_
  refine Finset.sum_congr rfl fun k _ => ?_
  refine congrArg (· * x5 (ix2 k j)) ?_
  refine (maximumf_apply _ _ _).trans ?_
  exact congrArg₂ max (norm_affine_apply x0 x1 x2 x3 x4 _ _ r k) Ideal.ofBits_zero_f32

/-- Row r of the result computed from rows q·3600 … of A is row q·3600 + r of the closed form of A. -/
theorem pay_rows (A0 : Arr 90000 256) (A1 A2 A3 A4 : Arr 1 256) (A5 : Arr 256 128) (A6 : Arr 1 128)
    (x0 : Vec Ideal S3600x256 .f32) (q : ℕ)
    (h0 : ∀ (r : Fin 3600) (k : Fin 256) (n : Fin 90000), n.val = q * 3600 + r.val → x0 (ix2 r k) = A0 (ix2 n k))
    (r : Fin 3600) (j : Fin 128) (n : Fin 90000) (hn : n.val = q * 3600 + r.val) :
    k1_pay1 (F := Ideal) x0 A1 A2 A3 A4 A5 A6 (ix2 r j) = norm2 true A0 A1 A2 A3 A4 A5 A6 (ix2 n j) := by
  rw [pay_apply, norm2_apply]
  unfold norm2At
  refine congrArg (· + A6 (ix2 0 j)) (Finset.sum_congr rfl fun k _ => ?_)
  rw [h0 r k n hn]
  rfl

/-- The same at any index y of the block and any index i of the array with i = (q·3600 + y₀, y₁), the six whole-array
    inputs given by equations. -/
theorem pay_block (A0 : Arr 90000 256) (A1 A2 A3 A4 : Arr 1 256) (A5 : Arr 256 128) (A6 : Arr 1 128)
    (x0 : Vec Ideal S3600x256 .f32) (x1 x2 x3 x4 : Vec Ideal S1x256 .f32) (x5 : Vec Ideal S256x128 .f32)
    (x6 : Vec Ideal S1x128 .f32) (q : ℕ)
    (h0 : ∀ (r : Fin 3600) (k : Fin 256) (n : Fin 90000), n.val = q * 3600 + r.val → x0 (ix2 r k) = A0 (ix2 n k))
    (h1 : x1 = A1) (h2 : x2 = A2) (h3 : x3 = A3) (h4 : x4 = A4) (h5 : x5 = A5) (h6 : x6 = A6)
    (y : S3600x128.Idx) (i : S90000x128.Idx)
    (hi0 : (i 0).val = q * 3600 + (y 0).val) (hi1 : (i 1).val = (y 1).val) :
    k1_pay1 (F := Ideal) x0 x1 x2 x3 x4 x5 x6 y = norm2 true A0 A1 A2 A3 A4 A5 A6 i := by
  subst h1 h2 h3 h4 h5 h6
  obtain ⟨r, j, rfl⟩ : ∃ (r : Fin 3600) (j : Fin 128), y = ix2 r j := ⟨y 0, y 1, eq_ix2 y⟩
  obtain ⟨n, j', rfl⟩ : ∃ (n : Fin 90000) (j' : Fin 128), i = ix2 n j' := ⟨i 0, i 1, eq_ix2 i⟩
  obtain rfl : j' = j := Fin.ext hi1
  exact pay_rows A0 x1 x2 x3 x4 x5 x6 x0 q h0 r j' n hi0

end Cert.KernelIdeal.Region1

end
-- ==== Proof.LibWholeRect.lean ====
/- Two facts about a rectangle that starts at the origin of a shape and has the shape's own extents: it is the
   whole shape. Stores and loads of whole blocks go through such rectangles, spelt with the literal offset `![0, 0]`. -/
import Idealize.ShloMosaic.Lib.Pipeline.Value

namespace Cert.LibWholeRect

open Idealize.ShloMosaic

/-- The literal zero offset of a rank-two rectangle is the constant-zero function. -/
theorem hz2 : (![0, 0] : Fin 2 → Nat) = fun _ => 0 := by funext a; fin_cases a <;> rfl

/-- Every index of a shape lies in the rectangle that starts at the origin and has the shape's own extents. -/
theorem mem_unit_zero {S : Shape} {off : Fin S.rank → Nat} (h : off = fun _ => 0)
    (inb : ∀ a, off a + S.size a ≤ S.size a) (y : S.Idx) : y ∈ (Rect.unit off S.size inb).set := by
  subst h; show y ∈ (Rect.whole S).set; rw [Rect.set_whole]; exact Finset.mem_univ y

end Cert.LibWholeRect
-- ==== Proof.Region1.lean ====
/-
  Kernel region 1 read as one array: after its 25 grid points the region's output array is the closed form
  `Cert.LayerSpec.norm2 true` of the seven arrays the region finds.

  Point t of the grid loads rows 3600·t … 3600·t + 3599 of h (window 0, block index (t, 0)) and the whole of the six
  small arrays μ, v, γ, β, W, b (windows 1–6, block index (0, 0), blocks of the arrays' own extents), and writes back rows
  3600·t … 3600·t + 3599 of the output (window 7, block index (t, 0)). A block's element with coordinates (y₀, y₁) sits in
  its array at (block index₀ · block rows + y₀, block index₁ · block columns + y₁). What point t writes back is the
  body's result on those blocks, and that is rows 3600·t … of the closed form, because row n of the closed form depends on
  row n of h only. Row n of the output is covered by point n / 3600, so the 25 write-backs fill the array.
-/
import proofs.«117235_j17583596110491_1_alg».proof.Proof.Gen.KernelIdeal.Frame
import proofs.«117235_j17583596110491_1_alg».proof.Proof.Region1Payload
import proofs.«117235_j17583596110491_1_alg».proof.Proof.LibWholeRect
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.LayerSpec Cert.LibWholeRect

variable (V : (c : Dev nD) → (b : Ref sig .tc) → Buf (Elt Ideal) ((c : Thread nD τ).loc b))

/-- The closed form of the region's output: the normalised second affine map of the seven arrays the region finds. -/
abbrev closed (c : Dev nD) : Arr 90000 128 :=
  norm2 true (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))

/-- The block indices at every point of the grid: windows 0 and 7 are at block (t, 0), windows 1–6 at block (0, 0). -/
theorem idx_facts : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Window 0's block at point t is rows (block index of the output)·3600 … of h: entry (r, k) of the block is entry
    (n, k) of the array for n = index · 3600 + r. -/
theorem iblk0_apply (c : Dev nD) (t : Fin cfg1.N) (r : Fin 3600) (k : Fin 256) (n : Fin 90000)
    (hn : n.val = win1_7.index t (0 : Fin 2) * 3600 + r.val) :
    (iblk1 V c 0 t : Vec Ideal S3600x256 .f32) (ix2 r k) = (V c (Pipeline.arrRef spec1 0) : Arr 90000 256) (ix2 n k) := by
  obtain ⟨e00, e01, e70, e71, e10, e11, e20, e21, e30, e31, e40, e41, e50, e51, e60, e61⟩ := idx_facts t
  unfold iblk1
  rw [View.read_apply]
  show (V c (Pipeline.arrRef spec1 0) : Arr 90000 256) (((cfg1.win 0).blk t).view.emb (ix2 r k)) = _
  have h : ((cfg1.win 0).blk t).view.emb (ix2 r k) = (ix2 n k : S90000x256.Idx) := by
    funext a; apply Fin.ext
    match a with
    | ⟨0, _⟩ => show win1_0.index t (0 : Fin 2) * 3600 + 1 * r.val = n.val; omega
    | ⟨1, _⟩ => show win1_0.index t (1 : Fin 2) * 256 + 1 * k.val = k.val; omega
  rw [h]

/-- Window 1's block at every point is its whole array: the block index is (0, 0) and the block has the array's extents. -/
theorem iblk_whole1 (c : Dev nD) (t : Fin cfg1.N) :
    (iblk1 V c 1 t : Vec Ideal S1x256 .f32) = (V c (Pipeline.arrRef spec1 1) : Arr 1 256) := by
  obtain ⟨e00, e01, e70, e71, e10, e11, e20, e21, e30, e31, e40, e41, e50, e51, e60, e61⟩ := idx_facts t
  funext y
  unfold iblk1
  rw [View.read_apply]
  show (V c (Pipeline.arrRef spec1 1) : Arr 1 256) (((cfg1.win 1).blk t).view.emb y) = _
  have h : ((cfg1.win 1).blk t).view.emb y = y := by
    funext a; apply Fin.ext
    match a with
    | ⟨0, _⟩ => show win1_1.index t (0 : Fin 2) * 1 + 1 * (y 0).val = (y 0).val; omega
    | ⟨1, _⟩ => show win1_1.index t (1 : Fin 2) * 256 + 1 * (y 1).val = (y 1).val; omega
  rw [h]

/-- Window 2's block at every point is its whole array: the block index is (0, 0) and the block has the array's extents. -/
theorem iblk_whole2 (c : Dev nD) (t : Fin cfg1.N) :
    (iblk1 V c 2 t : Vec Ideal S1x256 .f32) = (V c (Pipeline.arrRef spec1 2) : Arr 1 256) := by
  obtain ⟨e00, e01, e70, e71, e10, e11, e20, e21, e30, e31, e40, e41, e50, e51, e60, e61⟩ := idx_facts t
  funext y
  unfold iblk1
  rw [View.read_apply]
  show (V c (Pipeline.arrRef spec1 2) : Arr 1 256) (((cfg1.win 2).blk t).view.emb y) = _
  have h : ((cfg1.win 2).blk t).view.emb y = y := by
    funext a; apply Fin.ext
    match a with
    | ⟨0, _⟩ => show win1_2.index t (0 : Fin 2) * 1 + 1 * (y 0).val = (y 0).val; omega
    | ⟨1, _⟩ => show win1_2.index t (1 : Fin 2) * 256 + 1 * (y 1).val = (y 1).val; omega
  rw [h]

/-- Window 3's block at every point is its whole array: the block index is (0, 0) and the block has the array's extents. -/
theorem iblk_whole3 (c : Dev nD) (t : Fin cfg1.N) :
    (iblk1 V c 3 t : Vec Ideal S1x256 .f32) = (V c (Pipeline.arrRef spec1 3) : Arr 1 256) := by
  obtain ⟨e00, e01, e70, e71, e10, e11, e20, e21, e30, e31, e40, e41, e50, e51, e60, e61⟩ := idx_facts t
  funext y
  unfold iblk1
  rw [View.read_apply]
  show (V c (Pipeline.arrRef spec1 3) : Arr 1 256) (((cfg1.win 3).blk t).view.emb y) = _
  have h : ((cfg1.win 3).blk t).view.emb y = y := by
    funext a; apply Fin.ext
    match a with
    | ⟨0, _⟩ => show win1_3.index t (0 : Fin 2) * 1 + 1 * (y 0).val = (y 0).val; omega
    | ⟨1, _⟩ => show win1_3.index t (1 : Fin 2) * 256 + 1 * (y 1).val = (y 1).val; omega
  rw [h]

/-- Window 4's block at every point is its whole array: the block index is (0, 0) and the block has the array's extents. -/
theorem iblk_whole4 (c : Dev nD) (t : Fin cfg1.N) :
    (iblk1 V c 4 t : Vec Ideal S1x256 .f32) = (V c (Pipeline.arrRef spec1 4) : Arr 1 256) := by
  obtain ⟨e00, e01, e70, e71, e10, e11, e20, e21, e30, e31, e40, e41, e50, e51, e60, e61⟩ := idx_facts t
  funext y
  unfold iblk1
  rw [View.read_apply]
  show (V c (Pipeline.arrRef spec1 4) : Arr 1 256) (((cfg1.win 4).blk t).view.emb y) = _
  have h : ((cfg1.win 4).blk t).view.emb y = y := by
    funext a; apply Fin.ext
    match a with
    | ⟨0, _⟩ => show win1_4.index t (0 : Fin 2) * 1 + 1 * (y 0).val = (y 0).val; omega
    | ⟨1, _⟩ => show win1_4.index t (1 : Fin 2) * 256 + 1 * (y 1).val = (y 1).val; omega
  rw [h]

/-- Window 5's block at every point is its whole array: the block index is (0, 0) and the block has the array's extents. -/
theorem iblk_whole5 (c : Dev nD) (t : Fin cfg1.N) :
    (iblk1 V c 5 t : Vec Ideal S256x128 .f32) = (V c (Pipeline.arrRef spec1 5) : Arr 256 128) := by
  obtain ⟨e00, e01, e70, e71, e10, e11, e20, e21, e30, e31, e40, e41, e50, e51, e60, e61⟩ := idx_facts t
  funext y
  unfold iblk1
  rw [View.read_apply]
  show (V c (Pipeline.arrRef spec1 5) : Arr 256 128) (((cfg1.win 5).blk t).view.emb y) = _
  have h : ((cfg1.win 5).blk t).view.emb y = y := by
    funext a; apply Fin.ext
    match a with
    | ⟨0, _⟩ => show win1_5.index t (0 : Fin 2) * 256 + 1 * (y 0).val = (y 0).val; omega
    | ⟨1, _⟩ => show win1_5.index t (1 : Fin 2) * 128 + 1 * (y 1).val = (y 1).val; omega
  rw [h]

/-- Window 6's block at every point is its whole array: the block index is (0, 0) and the block has the array's extents. -/
theorem iblk_whole6 (c : Dev nD) (t : Fin cfg1.N) :
    (iblk1 V c 6 t : Vec Ideal S1x128 .f32) = (V c (Pipeline.arrRef spec1 6) : Arr 1 128) := by
  obtain ⟨e00, e01, e70, e71, e10, e11, e20, e21, e30, e31, e40, e41, e50, e51, e60, e61⟩ := idx_facts t
  funext y
  unfold iblk1
  rw [View.read_apply]
  show (V c (Pipeline.arrRef spec1 6) : Arr 1 128) (((cfg1.win 6).blk t).view.emb y) = _
  have h : ((cfg1.win 6).blk t).view.emb y = y := by
    funext a; apply Fin.ext
    match a with
    | ⟨0, _⟩ => show win1_6.index t (0 : Fin 2) * 1 + 1 * (y 0).val = (y 0).val; omega
    | ⟨1, _⟩ => show win1_6.index t (1 : Fin 2) * 128 + 1 * (y 1).val = (y 1).val; omega
  rw [h]

/-- WHAT POINT t WRITES BACK is block t of the closed form: the body's result on the blocks point t loads is rows
    3600·t … 3600·t + 3599 of the closed form. -/
theorem flushed7_eq (c : Dev nD) (t : Fin cfg1.N) :
    (dat1 V c).flushed 7 t = ((cfg1.win 7).blk t).view.read (Elt Ideal) (closed V c) := by
  show (cfg1.win 7).cut (grid1.coords t) ((dat1 V c).after 7 t) = _
  rw [after1_7]
  unfold out1_7
  rw [View.canon_unit_zero hz2]
  simp only [View.ld_unit_zero (S := S3600x256) hz2, View.ld_unit_zero (S := S1x256) hz2,
    View.ld_unit_zero (S := S256x128) hz2, View.ld_unit_zero (S := S1x128) hz2]
  obtain ⟨e00, e01, e70, e71, e10, e11, e20, e21, e30, e31, e40, e41, e50, e51, e60, e61⟩ := idx_facts t
  refine funext fun (y : S3600x128.Idx) => ?_
  refine pay_block (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))
    (iblk1 V c 0 t) (iblk1 V c 1 t) (iblk1 V c 2 t) (iblk1 V c 3 t) (iblk1 V c 4 t) (iblk1 V c 5 t) (iblk1 V c 6 t)
    (win1_7.index t (0 : Fin 2)) (fun r k n hn => iblk0_apply V c t r k n hn)
    (iblk_whole1 V c t) (iblk_whole2 V c t) (iblk_whole3 V c t) (iblk_whole4 V c t) (iblk_whole5 V c t) (iblk_whole6 V c t)
    y (((cfg1.win 7).blk t).view.emb y) ?_ ?_
  · show win1_7.index t (0 : Fin 2) * 3600 + 1 * (y 0).val = win1_7.index t (0 : Fin 2) * 3600 + (y 0).val
    omega
  · show win1_7.index t (1 : Fin 2) * 128 + 1 * (y 1).val = (y 1).val
    omega

/-- An index of the output array is in point t's block iff each coordinate is in the block's range on its axis. -/
theorem mem_blk7 (t : Fin cfg1.N) (i : S90000x128.Idx) :
    i ∈ ((cfg1.win 7).blk t).view.set ↔ ∀ a : Fin 2, win1_7.index t a * S3600x128.size a ≤ (i a).val
      ∧ (i a).val < win1_7.index t a * S3600x128.size a + S3600x128.size a := by
  show i ∈ ((View.whole main_v37).slice (win1_7.rect t)).set ↔ _
  rw [View.set_slice_whole, Rect.mem_set_unit]
  exact Iff.rfl

/-- Every index of the output array is in the block of a point that writes back: row n is in point n / 3600's. -/
theorem cover7 (i : S90000x128.Idx) :
    ∃ t : Fin cfg1.N, (cfg1.win 7).flush t = true ∧ i ∈ ((cfg1.win 7).blk t).view.set := by
  have hi0 : (i 0).val < 90000 := (i 0).isLt
  have hi1 : (i 1).val < 128 := (i 1).isLt
  have hlt : (i 0).val / 3600 < cfg1.N := Nat.lt_of_lt_of_eq (by omega : (i 0).val / 3600 < 25) N_1.symm
  obtain ⟨t, ht⟩ : ∃ t : Fin cfg1.N, t.val = (i 0).val / 3600 := ⟨⟨(i 0).val / 3600, hlt⟩, rfl⟩
  obtain ⟨e00, e01, e70, e71, e10, e11, e20, e21, e30, e31, e40, e41, e50, e51, e60, e61⟩ := idx_facts t
  refine ⟨t, flush1_7 t, ?_⟩
  rw [mem_blk7]
  intro a
  match a with
  | ⟨0, _⟩ =>
    show win1_7.index t (0 : Fin 2) * 3600 ≤ (i 0).val ∧ (i 0).val < win1_7.index t (0 : Fin 2) * 3600 + 3600
    omega
  | ⟨1, _⟩ =>
    show win1_7.index t (1 : Fin 2) * 128 ≤ (i 1).val ∧ (i 1).val < win1_7.index t (1 : Fin 2) * 128 + 128
    omega

/-- THE OUTPUT ARRAY after the region's 25 points is the closed form of the arrays the region finds. -/
theorem final1_7 (c : Dev nD) :
    (dat1 V c).arrAt 7 cfg1.N = norm2 true (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) :=
  (dat1 V c).arrAt_eq_of_cover 7 (closed V c) (fun t _ => flushed7_eq V c t) (cover7)

end Cert.KernelIdeal.Region1

end
-- ==== Proof.KernelLayer1b.lean ====
/-
  The idealized kernel program's first layer, second half, read through its run.

  After region 0 the host divides the column sums by the row count (the mean row), forms mean of squares minus the
  squared mean (the variance row), and reshapes the scale, shift and second bias to one row each.  Region 1 finds
  these with h and the second weight, and leaves the normalised second affine map: so the layer's output buffer holds
  the specification's norm2 of what region 0 and the first host stretch left.
-/
import proofs.«117235_j17583596110491_1_alg».proof.Proof.Gen.KernelIdeal.Frame
import proofs.«117235_j17583596110491_1_alg».proof.Proof.LayerSpec
import proofs.«117235_j17583596110491_1_alg».proof.Proof.LayerBridge
import proofs.«117235_j17583596110491_1_alg».proof.Proof.RefLayer
import proofs.«117235_j17583596110491_1_alg».proof.Proof.KernelGlue
import proofs.«117235_j17583596110491_1_alg».proof.Proof.Region1
import Idealize.ShloMosaic.Lib.StableHlo.Run

set_option maxRecDepth 16384

noncomputable section

namespace Cert.KernelIdeal.KLayer1

open Cert.KernelIdeal Cert.KernelIdeal.Gen
open Idealize.ShloMosaic Idealize.ShloMosaic.TcCoe Idealize.ShloMosaic.ValueIdx Idealize.SL.Sem Idealize.ShloMosaic.StableHlo
open Cert.LayerSpec Cert.LayerBridge Cert.RefLayer Cert.KernelGlue

variable (m : (ℓ : Loc nD τ sig) → Buf (Elt Ideal) ℓ) (ρ : Dev nD → PrngReg)

/-- A buffer that no operation of a host stretch writes keeps its contents through the stretch. -/
macro "kept_by " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

theorem in0 (c : Dev nD) : W3 m ρ c (Proc.devRef .tc main_v27_0) = W2 m ρ c (Proc.devRef .tc main_v27_0) := by
  kept_by hostOps1

theorem in5 (c : Dev nD) : W3 m ρ c (Proc.devRef .tc main_v13) = W2 m ρ c (Proc.devRef .tc main_v13) := by
  kept_by hostOps1

theorem in1 (c : Dev nD) : W3 m ρ c (Proc.devRef .tc main_v29) = meanK (W2 m ρ c (Proc.devRef .tc main_v27_1)) := by
  show StableHlo.after hostOps1 (W2 m ρ c) (Proc.devRef .tc main_v29) = _
  after_results
  exact meanRow_eq _ _

theorem in2 (c : Dev nD) :
    W3 m ρ c (Proc.devRef .tc main_v33) = varK (W2 m ρ c (Proc.devRef .tc main_v27_1)) (W2 m ρ c (Proc.devRef .tc main_v27_2)) := by
  show StableHlo.after hostOps1 (W2 m ρ c) (Proc.devRef .tc main_v33) = _
  after_results
  exact varRow_eq _ _ _ _

theorem in3 (c : Dev nD) : W3 m ρ c (Proc.devRef .tc main_v34) = rowOf (W2 m ρ c (Proc.devRef .tc main_v9)) := by
  show StableHlo.after hostOps1 (W2 m ρ c) (Proc.devRef .tc main_v34) = _
  after_results
  exact rowCast_eq _ _

theorem in4 (c : Dev nD) : W3 m ρ c (Proc.devRef .tc main_v35) = rowOf (W2 m ρ c (Proc.devRef .tc main_v11)) := by
  show StableHlo.after hostOps1 (W2 m ρ c) (Proc.devRef .tc main_v35) = _
  after_results
  exact rowCast_eq _ _

theorem in6 (c : Dev nD) : W3 m ρ c (Proc.devRef .tc main_v36) = rowOf (W2 m ρ c (Proc.devRef .tc main_v15)) := by
  show StableHlo.after hostOps1 (W2 m ρ c) (Proc.devRef .tc main_v36) = _
  after_results
  exact rowCast_eq _ _

/-- The first layer's output buffer after region 1. -/
theorem out_eq (c : Dev nD) :
    W4 m ρ c (Proc.devRef .tc main_v37)
      = norm2 true (W2 m ρ c (Proc.devRef .tc main_v27_0)) (meanK (W2 m ρ c (Proc.devRef .tc main_v27_1)))
          (varK (W2 m ρ c (Proc.devRef .tc main_v27_1)) (W2 m ρ c (Proc.devRef .tc main_v27_2)))
          (rowOf (W2 m ρ c (Proc.devRef .tc main_v9))) (rowOf (W2 m ρ c (Proc.devRef .tc main_v11)))
          (W2 m ρ c (Proc.devRef .tc main_v13)) (rowOf (W2 m ρ c (Proc.devRef .tc main_v15))) := by
  refine ((W4_arr m ρ c 7).trans (Cert.KernelIdeal.Region1.final1_7 (V3 m ρ) c)).trans ?_
  show norm2 true (W3 m ρ c (Proc.devRef .tc main_v27_0)) (W3 m ρ c (Proc.devRef .tc main_v29)) (W3 m ρ c (Proc.devRef .tc main_v33))
    (W3 m ρ c (Proc.devRef .tc main_v34)) (W3 m ρ c (Proc.devRef .tc main_v35)) (W3 m ρ c (Proc.devRef .tc main_v13))
    (W3 m ρ c (Proc.devRef .tc main_v36)) = _
  rw [in0, in1, in2, in3, in4, in5, in6]

end Cert.KernelIdeal.KLayer1

end
-- ==== Proof.KernelLayer1a.lean ====
/-
  The idealized kernel program's first layer, read through its run.

  Region 0 finds x, the aggregated neighbours, the first weight and the bias row, and leaves h = (x + agg)·W₁ + b₁
  with its column sums and column sums of squares.  The host then divides the sums by the row count (the mean row
  and the variance row) and reshapes the scale, shift and second bias to one row each.  Region 1 finds these and
  leaves the normalised second affine map.  So the layer's output buffer holds the specification's layer of the
  buffers the first host stretch computed.
-/
import proofs.«117235_j17583596110491_1_alg».proof.Proof.Gen.KernelIdeal.Frame
import proofs.«117235_j17583596110491_1_alg».proof.Proof.LayerSpec
import proofs.«117235_j17583596110491_1_alg».proof.Proof.LayerBridge
import proofs.«117235_j17583596110491_1_alg».proof.Proof.RefLayer
import proofs.«117235_j17583596110491_1_alg».proof.Proof.KernelGlue
import proofs.«117235_j17583596110491_1_alg».proof.Proof.Region0Value
import proofs.«117235_j17583596110491_1_alg».proof.Proof.KernelLayer1b
import Idealize.ShloMosaic.Lib.StableHlo.Run

set_option maxRecDepth 16384

noncomputable section

namespace Cert.KernelIdeal.KLayer1

open Cert.KernelIdeal Cert.KernelIdeal.Gen
open Idealize.ShloMosaic Idealize.ShloMosaic.TcCoe Idealize.ShloMosaic.ValueIdx Idealize.SL.Sem Idealize.ShloMosaic.StableHlo
open Cert.LayerSpec Cert.LayerBridge Cert.RefLayer Cert.KernelGlue

variable (m : (ℓ : Loc nD τ sig) → Buf (Elt Ideal) ℓ) (ρ : Dev nD → PrngReg)

/-- h after region 0: the first affine map of what the first host stretch left. -/
theorem h_eq (c : Dev nD) :
    W2 m ρ c (Proc.devRef .tc main_v27_0)
      = lin1 (W1 m ρ c (Proc.devRef .tc main_arg0)) (W1 m ρ c (Proc.devRef .tc main_v25)) (W1 m ρ c (Proc.devRef .tc main_v5))
          (W1 m ρ c (Proc.devRef .tc main_v26)) :=
  (W2_arr m ρ c 4).trans (Cert.KernelIdeal.Region0.final0_4 (V1 m ρ) c)

/-- The column sums after region 0. -/
theorem s_eq (c : Dev nD) :
    W2 m ρ c (Proc.devRef .tc main_v27_1)
      = colSum (lin1 (W1 m ρ c (Proc.devRef .tc main_arg0)) (W1 m ρ c (Proc.devRef .tc main_v25)) (W1 m ρ c (Proc.devRef .tc main_v5))
          (W1 m ρ c (Proc.devRef .tc main_v26))) :=
  (W2_arr m ρ c 5).trans (Cert.KernelIdeal.Region0.final0_5 (V1 m ρ) c)

/-- The column sums of squares after region 0. -/
theorem ss_eq (c : Dev nD) :
    W2 m ρ c (Proc.devRef .tc main_v27_2)
      = colSumSq (lin1 (W1 m ρ c (Proc.devRef .tc main_arg0)) (W1 m ρ c (Proc.devRef .tc main_v25)) (W1 m ρ c (Proc.devRef .tc main_v5))
          (W1 m ρ c (Proc.devRef .tc main_v26))) :=
  (W2_arr m ρ c 6).trans (Cert.KernelIdeal.Region0.final0_6 (V1 m ρ) c)

/-- Buffers region 0 does not touch keep their contents through it. -/
theorem keep9 (c : Dev nD) : W2 m ρ c (Proc.devRef .tc main_v9) = W1 m ρ c (Proc.devRef .tc main_v9) := W2_of_ne m ρ c main_v9 (by decide)
theorem keep11 (c : Dev nD) : W2 m ρ c (Proc.devRef .tc main_v11) = W1 m ρ c (Proc.devRef .tc main_v11) := W2_of_ne m ρ c main_v11 (by decide)
theorem keep13 (c : Dev nD) : W2 m ρ c (Proc.devRef .tc main_v13) = W1 m ρ c (Proc.devRef .tc main_v13) := W2_of_ne m ρ c main_v13 (by decide)
theorem keep15 (c : Dev nD) : W2 m ρ c (Proc.devRef .tc main_v15) = W1 m ρ c (Proc.devRef .tc main_v15) := W2_of_ne m ρ c main_v15 (by decide)

set_option maxHeartbeats 2000000 in
/-- The first bias as region 0 finds it is the bias vector as one row. -/
theorem b1row (c : Dev nD) : W1 m ρ c (Proc.devRef .tc main_v26) = rowOf (W1 m ρ c (Proc.devRef .tc main_v7)) := by
  show StableHlo.after hostOps0 (W0 m ρ c) (Proc.devRef .tc main_v26) = rowOf (StableHlo.after hostOps0 (W0 m ρ c) (Proc.devRef .tc main_v7))
  after_results_simp
  exact rowCast_eq _ _

/-- THE KERNEL PROGRAM'S FIRST LAYER: its output buffer holds the specification's layer of what the first host
    stretch left. -/
theorem layer1 (c : Dev nD) :
    W4 m ρ c (Proc.devRef .tc main_v37)
      = norm2 true
          (lin1 (W1 m ρ c (Proc.devRef .tc main_arg0)) (W1 m ρ c (Proc.devRef .tc main_v25)) (W1 m ρ c (Proc.devRef .tc main_v5))
            (rowOf (W1 m ρ c (Proc.devRef .tc main_v7))))
          (meanK (colSum (lin1 (W1 m ρ c (Proc.devRef .tc main_arg0)) (W1 m ρ c (Proc.devRef .tc main_v25)) (W1 m ρ c (Proc.devRef .tc main_v5))
            (rowOf (W1 m ρ c (Proc.devRef .tc main_v7))))))
          (varK (colSum (lin1 (W1 m ρ c (Proc.devRef .tc main_arg0)) (W1 m ρ c (Proc.devRef .tc main_v25)) (W1 m ρ c (Proc.devRef .tc main_v5))
              (rowOf (W1 m ρ c (Proc.devRef .tc main_v7)))))
            (colSumSq (lin1 (W1 m ρ c (Proc.devRef .tc main_arg0)) (W1 m ρ c (Proc.devRef .tc main_v25)) (W1 m ρ c (Proc.devRef .tc main_v5))
              (rowOf (W1 m ρ c (Proc.devRef .tc main_v7))))))
          (rowOf (W1 m ρ c (Proc.devRef .tc main_v9))) (rowOf (W1 m ρ c (Proc.devRef .tc main_v11)))
          (W1 m ρ c (Proc.devRef .tc main_v13)) (rowOf (W1 m ρ c (Proc.devRef .tc main_v15))) := by
  rw [out_eq, h_eq, s_eq, ss_eq, keep9, keep11, keep13, keep15, b1row]

end Cert.KernelIdeal.KLayer1

end
-- ==== Proof.RefLayer1.lean ====
/-
  The reference's first layer, read through its run.

  The reference's first 29 operations slice the edge list and the first layer's parameters and aggregate the
  neighbours (a clamped gather and a scatter-add); the next 56 are the layer itself: x + agg, the first affine map,
  the column means, the variance function, the normalisation, the activation and the second affine map.  So the
  layer's output buffer holds the printed layer of what the first 29 operations left.
-/
import proofs.«117235_j17583596110491_1_alg».proof.Proof.RefRun
import proofs.«117235_j17583596110491_1_alg».proof.Proof.RefLayer
import Idealize.ShloMosaic.Lib.StableHlo.Run

set_option maxRecDepth 65536

noncomputable section

namespace Cert.ReferenceIdeal.RLayer1

open Cert.ReferenceIdeal Cert.ReferenceIdeal.Gen Cert.ReferenceIdeal.RefRun
open Idealize.ShloMosaic Idealize.ShloMosaic.TcCoe Idealize.SL.Sem Idealize.ShloMosaic.StableHlo
open Cert.RefLayer

/-- The operations before the first layer proper: the slices and the aggregation. -/
abbrev chain1 : List (HloOp τ sig (Elt Ideal)) := (ops0 (F := Ideal)).take 29
/-- The first layer's own operations inside the first window. -/
abbrev core1 : List (HloOp τ sig (Elt Ideal)) := (ops0 (F := Ideal)).drop 29

theorem after_ops0 (V : Valuation τ sig (Elt Ideal)) : after (ops0 (F := Ideal)) V = after core1 (after chain1 V) := by
  rw [← StableHlo.after_append, List.take_append_drop]

/-- The layer's output is written by the second window's second operation and by nothing later. -/
theorem out_eq (V : Valuation τ sig (Elt Ideal)) :
    after (ops (F := Ideal)) V (main_v54 : DevRef τ sig) = after (ops1 (F := Ideal)) (after core1 (after chain1 V)) (main_v54 : DevRef τ sig) := by
  rw [after_ops, ← after_ops0]
  rw [StableHlo.after_of_writes_sub ops5 _ ops5_writes (by decide), StableHlo.after_of_writes_sub ops4 _ ops4_writes (by decide),
    StableHlo.after_of_writes_sub ops3 _ ops3_writes (by decide), StableHlo.after_of_writes_sub ops2 _ ops2_writes (by decide)]

/-- The first layer's h, as the reference prints it, of what the first 29 operations left. -/
abbrev H1 (W : Valuation τ sig (Elt Ideal)) : FVec Ideal ⟨2, ![90000, 256]⟩ .f32 :=
  refLin (addf (W (main_arg0 : DevRef τ sig)) (W (main_v25 : DevRef τ sig))) (W (main_v5 : DevRef τ sig)) (W (main_v7 : DevRef τ sig))
    dot_S90000x128_S128x256_S90000x256_1_0_0_1_n_n_wf bcast_S256_S1x256_1 bcast_S1x256_S90000x256_0_1

set_option maxHeartbeats 4000000 in
/-- THE REFERENCE'S FIRST LAYER: its output buffer holds the printed layer of what the first 29 operations left. -/
theorem layer1 (W : Valuation τ sig (Elt Ideal)) :
    after (ops1 (F := Ideal)) (after core1 W) (main_v54 : DevRef τ sig)
      = refOutRelu (H1 W) (refMean (H1 W) reducesTo_S90000x256_S256_d0 h_S_ bcast_S_S256)
          (refVar (H1 W) reducesTo_S90000x256_S256_d0 h_S_ bcast_S_S256 bcast_S_S1x256 bcast_S256_S1x256_1 bcast_S1x256_S90000x256_0_1)
          (W (main_v9 : DevRef τ sig)) (W (main_v11 : DevRef τ sig)) (W (main_v13 : DevRef τ sig)) (W (main_v15 : DevRef τ sig))
          dot_S90000x256_S256x128_S90000x128_1_0_0_1_n_n_wf bcast_S_S256 bcast_S_S90000x256 bcast_S256_S1x256_1
          bcast_S1x256_S90000x256_0_1 bcast_S128_S1x128_1 bcast_S1x128_S90000x128_0_1 := by
  after_results_simp
  simp only [core1, List.drop_succ_cons, List.drop_zero]
  after_results_simp
  rfl

end Cert.ReferenceIdeal.RLayer1

end
-- ==== Proof.Chain1.lean ====
/-
  The two programs' first stretches agree.

  Before its first kernel the kernel program slices the edge list and the first layer's parameters and aggregates the
  neighbours; the reference's first 29 operations are the same operations in the same order.  From memories that
  agree on the arguments, each buffer these operations write holds the same array in both programs.
-/
import proofs.«117235_j17583596110491_1_alg».proof.Proof.Gen.KernelIdeal.Frame
import proofs.«117235_j17583596110491_1_alg».proof.Proof.RefLayer1
import Idealize.ShloMosaic.Lib.StableHlo.Run

set_option maxRecDepth 65536

noncomputable section

namespace Cert.Chain1

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 1000000 in
theorem x_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    StableHlo.after Cert.ReferenceIdeal.RLayer1.chain1 (StableHlo.launchContents m' c) (Proc.devRef .tc Cert.ReferenceIdeal.main_arg0)
      = Cert.KernelIdeal.Gen.W1 m ρ c (Proc.devRef .tc Cert.KernelIdeal.main_arg0) := by
  show StableHlo.after Cert.ReferenceIdeal.RLayer1.chain1 (StableHlo.launchContents m' c) (Proc.devRef .tc Cert.ReferenceIdeal.main_arg0)
      = StableHlo.after Cert.KernelIdeal.Gen.hostOps0 (Cert.KernelIdeal.Gen.W0 m ρ c) (Proc.devRef .tc Cert.KernelIdeal.main_arg0)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg0) = m ((c : Dev Cert.KernelIdeal.nD), Proc.devRef .tc Cert.KernelIdeal.main_arg0) from h0]
  all_goals rfl

set_option maxHeartbeats 1000000 in
theorem agg_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    StableHlo.after Cert.ReferenceIdeal.RLayer1.chain1 (StableHlo.launchContents m' c) (Proc.devRef .tc Cert.ReferenceIdeal.main_v25)
      = Cert.KernelIdeal.Gen.W1 m ρ c (Proc.devRef .tc Cert.KernelIdeal.main_v25) := by
  show StableHlo.after Cert.ReferenceIdeal.RLayer1.chain1 (StableHlo.launchContents m' c) (Proc.devRef .tc Cert.ReferenceIdeal.main_v25)
      = StableHlo.after Cert.KernelIdeal.Gen.hostOps0 (Cert.KernelIdeal.Gen.W0 m ρ c) (Proc.devRef .tc Cert.KernelIdeal.main_v25)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg0) = m ((c : Dev Cert.KernelIdeal.nD), Proc.devRef .tc Cert.KernelIdeal.main_arg0) from h0, show m' ((c : Dev Cert.ReferenceIdeal.nD), Proc.devRef .tc Cert.ReferenceIdeal.main_arg1) = m ((c : Dev Cert.KernelIdeal.nD), Proc.devRef .tc Cert.KernelIdeal.main_arg1) from h1]
  all_goals rfl

set_option maxHeartbeats 1000000 in
theorem w1_eq (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    StableHlo.after Cert.ReferenceIdeal.RLayer1.chain1 (StableHlo.launchContents m' c) (Proc.devRef .tc Cert.ReferenceIdeal.main_v5)
      = Cert.KernelIdeal.Gen.W1 m ρ c (Proc.devRef .tc Cert.KernelIdeal.main_v5) := by
  show StableHlo.after Cert.ReferenceIdeal.RLayer1.chain1 (StableHlo.launchContents m' c) (Proc.devRef .tc Cert.ReferenceIdeal.main_v5)
      = StableHlo.after Cert.KernelIdeal.Gen.hostOps0 (Cert.KernelIdeal.Gen.W0 m ρ c) (Proc.devRef .tc Cert.KernelIdeal.main_v5)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg6) = m ((c : Dev Cert.KernelIdeal.nD), Proc.devRef .tc Cert.KernelIdeal.main_arg6) from h6]
  all_goals rfl

set_option maxHeartbeats 1000000 in
theorem b1_eq (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    StableHlo.after Cert.ReferenceIdeal.RLayer1.chain1 (StableHlo.launchContents m' c) (Proc.devRef .tc Cert.ReferenceIdeal.main_v7)
      = Cert.KernelIdeal.Gen.W1 m ρ c (Proc.devRef .tc Cert.KernelIdeal.main_v7) := by
  show StableHlo.after Cert.ReferenceIdeal.RLayer1.chain1 (StableHlo.launchContents m' c) (Proc.devRef .tc Cert.ReferenceIdeal.main_v7)
      = StableHlo.after Cert.KernelIdeal.Gen.hostOps0 (Cert.KernelIdeal.Gen.W0 m ρ c) (Proc.devRef .tc Cert.KernelIdeal.main_v7)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg7) = m ((c : Dev Cert.KernelIdeal.nD), Proc.devRef .tc Cert.KernelIdeal.main_arg7) from h7]
  all_goals rfl

set_option maxHeartbeats 1000000 in
theorem gamma_eq (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    StableHlo.after Cert.ReferenceIdeal.RLayer1.chain1 (StableHlo.launchContents m' c) (Proc.devRef .tc Cert.ReferenceIdeal.main_v9)
      = Cert.KernelIdeal.Gen.W1 m ρ c (Proc.devRef .tc Cert.KernelIdeal.main_v9) := by
  show StableHlo.after Cert.ReferenceIdeal.RLayer1.chain1 (StableHlo.launchContents m' c) (Proc.devRef .tc Cert.ReferenceIdeal.main_v9)
      = StableHlo.after Cert.KernelIdeal.Gen.hostOps0 (Cert.KernelIdeal.Gen.W0 m ρ c) (Proc.devRef .tc Cert.KernelIdeal.main_v9)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg8) = m ((c : Dev Cert.KernelIdeal.nD), Proc.devRef .tc Cert.KernelIdeal.main_arg8) from h8]
  all_goals rfl

set_option maxHeartbeats 1000000 in
theorem beta_eq (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    StableHlo.after Cert.ReferenceIdeal.RLayer1.chain1 (StableHlo.launchContents m' c) (Proc.devRef .tc Cert.ReferenceIdeal.main_v11)
      = Cert.KernelIdeal.Gen.W1 m ρ c (Proc.devRef .tc Cert.KernelIdeal.main_v11) := by
  show StableHlo.after Cert.ReferenceIdeal.RLayer1.chain1 (StableHlo.launchContents m' c) (Proc.devRef .tc Cert.ReferenceIdeal.main_v11)
      = StableHlo.after Cert.KernelIdeal.Gen.hostOps0 (Cert.KernelIdeal.Gen.W0 m ρ c) (Proc.devRef .tc Cert.KernelIdeal.main_v11)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg9) = m ((c : Dev Cert.KernelIdeal.nD), Proc.devRef .tc Cert.KernelIdeal.main_arg9) from h9]
  all_goals rfl

set_option maxHeartbeats 1000000 in
theorem w2_eq (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    StableHlo.after Cert.ReferenceIdeal.RLayer1.chain1 (StableHlo.launchContents m' c) (Proc.devRef .tc Cert.ReferenceIdeal.main_v13)
      = Cert.KernelIdeal.Gen.W1 m ρ c (Proc.devRef .tc Cert.KernelIdeal.main_v13) := by
  show StableHlo.after Cert.ReferenceIdeal.RLayer1.chain1 (StableHlo.launchContents m' c) (Proc.devRef .tc Cert.ReferenceIdeal.main_v13)
      = StableHlo.after Cert.KernelIdeal.Gen.hostOps0 (Cert.KernelIdeal.Gen.W0 m ρ c) (Proc.devRef .tc Cert.KernelIdeal.main_v13)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg10) = m ((c : Dev Cert.KernelIdeal.nD), Proc.devRef .tc Cert.KernelIdeal.main_arg10) from h10]
  all_goals rfl

set_option maxHeartbeats 1000000 in
theorem b2_eq (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    StableHlo.after Cert.ReferenceIdeal.RLayer1.chain1 (StableHlo.launchContents m' c) (Proc.devRef .tc Cert.ReferenceIdeal.main_v15)
      = Cert.KernelIdeal.Gen.W1 m ρ c (Proc.devRef .tc Cert.KernelIdeal.main_v15) := by
  show StableHlo.after Cert.ReferenceIdeal.RLayer1.chain1 (StableHlo.launchContents m' c) (Proc.devRef .tc Cert.ReferenceIdeal.main_v15)
      = StableHlo.after Cert.KernelIdeal.Gen.hostOps0 (Cert.KernelIdeal.Gen.W0 m ρ c) (Proc.devRef .tc Cert.KernelIdeal.main_v15)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg11) = m ((c : Dev Cert.KernelIdeal.nD), Proc.devRef .tc Cert.KernelIdeal.main_arg11) from h11]
  all_goals rfl

set_option maxHeartbeats 1000000 in
theorem src_eq (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    StableHlo.after Cert.ReferenceIdeal.RLayer1.chain1 (StableHlo.launchContents m' c) (Proc.devRef .tc Cert.ReferenceIdeal.main_v1)
      = Cert.KernelIdeal.Gen.W1 m ρ c (Proc.devRef .tc Cert.KernelIdeal.main_v1) := by
  show StableHlo.after Cert.ReferenceIdeal.RLayer1.chain1 (StableHlo.launchContents m' c) (Proc.devRef .tc Cert.ReferenceIdeal.main_v1)
      = StableHlo.after Cert.KernelIdeal.Gen.hostOps0 (Cert.KernelIdeal.Gen.W0 m ρ c) (Proc.devRef .tc Cert.KernelIdeal.main_v1)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg1) = m ((c : Dev Cert.KernelIdeal.nD), Proc.devRef .tc Cert.KernelIdeal.main_arg1) from h1]
  all_goals rfl

set_option maxHeartbeats 1000000 in
theorem dst_eq (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    StableHlo.after Cert.ReferenceIdeal.RLayer1.chain1 (StableHlo.launchContents m' c) (Proc.devRef .tc Cert.ReferenceIdeal.main_v3)
      = Cert.KernelIdeal.Gen.W1 m ρ c (Proc.devRef .tc Cert.KernelIdeal.main_v3) := by
  show StableHlo.after Cert.ReferenceIdeal.RLayer1.chain1 (StableHlo.launchContents m' c) (Proc.devRef .tc Cert.ReferenceIdeal.main_v3)
      = StableHlo.after Cert.KernelIdeal.Gen.hostOps0 (Cert.KernelIdeal.Gen.W0 m ρ c) (Proc.devRef .tc Cert.KernelIdeal.main_v3)
  simp only [Cert.ReferenceIdeal.RLayer1.chain1, List.take_succ_cons, List.take_zero]
  after_results_simp
  simp only [StableHlo.launchContents, Cert.KernelIdeal.Gen.W0]
  rw [show m' ((c : Dev Cert.ReferenceIdeal.nD), Proc.devRef .tc Cert.ReferenceIdeal.main_arg1) = m ((c : Dev Cert.KernelIdeal.nD), Proc.devRef .tc Cert.KernelIdeal.main_arg1) from h1]
  all_goals rfl

end Cert.Chain1

end
-- ==== Proof.ChainFin1.lean ====
/-
  What the reference's first stretch leaves is finite when the arguments are.

  A slice and a reshape read their operand at some index, so they keep finiteness; the aggregation adds, to a zero
  array, finitely many rows gathered from x, so it is finite when x is.
-/
import proofs.«117235_j17583596110491_1_alg».proof.Proof.RefLayer1
import proofs.«117235_j17583596110491_1_alg».proof.Proof.LayerBridge
import Idealize.ShloMosaic.Lib.StableHlo.Run
import Idealize.ShloMosaic.Lib.IdealHost

set_option maxRecDepth 65536

noncomputable section

namespace Cert.ChainFin

open Idealize.ShloMosaic Idealize.ShloMosaic.ValueIdx Cert.LibERealMatmul Cert.LayerMath Cert.LayerBridge

/-- A reshape reads its operand somewhere. -/
theorem shapeCast_fin {s t : Shape} (x : s.Idx → EReal) (h : s.ShapeCasts t) (hx : FinArr x) : FinArr (shapeCast t x h) := by
  intro j; unfold shapeCast; exact hx _

/-- A slice reads its operand somewhere. -/
theorem slice_fin {s t : Shape} (off : Fin s.rank → Nat) (x : s.Idx → EReal) (h : s.Slices off t) (hx : FinArr x) :
    FinArr (extractStridedSlice t off x h) := by
  intro j; unfold extractStridedSlice; exact hx _

/-- The zero array is finite. -/
theorem zeros_fin {t : Shape} (hb : (⟨0, ![]⟩ : Shape).BroadcastsInDim t ![]) :
    FinArr (S := t) (broadcastInDim t ![] hb (constant (F := Ideal) ⟨0, ![]⟩ .f32 0x00000000#32)) := by
  intro j
  rw [broadcastInDim_scalar_apply, constant_apply, ofBits_zero]
  exact isFin_zero

end Cert.ChainFin

namespace Cert.ReferenceIdeal.RLayer1

open Cert.ReferenceIdeal Cert.ReferenceIdeal.Gen Cert.ReferenceIdeal.RefRun
open Idealize.ShloMosaic Idealize.ShloMosaic.TcCoe Idealize.SL.Sem Idealize.ShloMosaic.StableHlo
open Cert.LayerBridge Cert.ChainFin

variable (V : Valuation τ sig (Elt Ideal))

theorem fin_x (hx : FinArr (S := S90000x128) (V (main_arg0 : DevRef τ sig))) :
    FinArr (S := S90000x128) (after chain1 V (main_arg0 : DevRef τ sig)) := by
  simp only [chain1, List.take_succ_cons, List.take_zero]
  after_results_simp
  exact hx

set_option maxHeartbeats 1000000 in
theorem fin_agg (hx : FinArr (S := S90000x128) (V (main_arg0 : DevRef τ sig))) :
    FinArr (S := S90000x128) (after chain1 V (main_v25 : DevRef τ sig)) := by
  simp only [chain1, List.take_succ_cons, List.take_zero]
  after_results_simp
  exact scatterAdd_fin _ _ _ _ (zeros_fin _) (gather_fin _ _ _ hx)

theorem fin_w1 (h : FinArr (S := S4x128x256) (V (main_arg6 : DevRef τ sig))) :
    FinArr (S := S128x256) (after chain1 V (main_v5 : DevRef τ sig)) := by
  simp only [chain1, List.take_succ_cons, List.take_zero]
  after_results_simp
  exact shapeCast_fin _ _ (slice_fin _ _ _ h)

theorem fin_b1 (h : FinArr (S := S4x256) (V (main_arg7 : DevRef τ sig))) :
    FinArr (S := S256) (after chain1 V (main_v7 : DevRef τ sig)) := by
  simp only [chain1, List.take_succ_cons, List.take_zero]
  after_results_simp
  exact shapeCast_fin _ _ (slice_fin _ _ _ h)

theorem fin_gamma (h : FinArr (S := S4x256) (V (main_arg8 : DevRef τ sig))) :
    FinArr (S := S256) (after chain1 V (main_v9 : DevRef τ sig)) := by
  simp only [chain1, List.take_succ_cons, List.take_zero]
  after_results_simp
  exact shapeCast_fin _ _ (slice_fin _ _ _ h)

theorem fin_beta (h : FinArr (S := S4x256) (V (main_arg9 : DevRef τ sig))) :
    FinArr (S := S256) (after chain1 V (main_v11 : DevRef τ sig)) := by
  simp only [chain1, List.take_succ_cons, List.take_zero]
  after_results_simp
  exact shapeCast_fin _ _ (slice_fin _ _ _ h)

theorem fin_w2 (h : FinArr (S := S4x256x128) (V (main_arg10 : DevRef τ sig))) :
    FinArr (S := S256x128) (after chain1 V (main_v13 : DevRef τ sig)) := by
  simp only [chain1, List.take_succ_cons, List.take_zero]
  after_results_simp
  exact shapeCast_fin _ _ (slice_fin _ _ _ h)

theorem fin_b2 (h : FinArr (S := S4x128) (V (main_arg11 : DevRef τ sig))) :
    FinArr (S := S128) (after chain1 V (main_v15 : DevRef τ sig)) := by
  simp only [chain1, List.take_succ_cons, List.take_zero]
  after_results_simp
  exact shapeCast_fin _ _ (slice_fin _ _ _ h)

end Cert.ReferenceIdeal.RLayer1

end
-- ==== Proof.LayerEq.lean ====
/-
  One layer of the reference is the specification's layer at the kernel program's rows.

  The reference's first affine map of x + agg is lin1.  On a finite h, the reference's printed normalisation and
  second affine map — with its own mean and variance vectors — is norm2 at the rows the kernel program forms from
  the column sums (mean of squares minus squared mean): the two pairs of rows agree column by column (the variance
  identity), and everything else in a layer is the same arithmetic read at an index.  The output is finite again.
-/
import Idealize.ShloMosaic.PureOps.Ideal
import Idealize.ShloMosaic.Lib.ValueIdx
import proofs.«117235_j17583596110491_1_alg».proof.Proof.LibERealMatmul
import proofs.«117235_j17583596110491_1_alg».proof.Proof.LayerMath
import proofs.«117235_j17583596110491_1_alg».proof.Proof.LayerSpec
import proofs.«117235_j17583596110491_1_alg».proof.Proof.LayerBridge
import proofs.«117235_j17583596110491_1_alg».proof.Proof.HostRead
import proofs.«117235_j17583596110491_1_alg».proof.Proof.RefLayer

noncomputable section

open scoped BigOperators

namespace Cert.LayerEq

open Idealize.ShloMosaic Idealize.ShloMosaic.ValueIdx Cert.LibERealMatmul Cert.LayerMath Cert.LayerSpec Cert.LayerBridge Cert.HostRead
  Cert.RefLayer

section

variable (x agg : FVec Ideal ⟨2, ![90000, 128]⟩ .f32) (W1 : FVec Ideal ⟨2, ![128, 256]⟩ .f32) (b1 : FVec Ideal ⟨1, ![256]⟩ .f32)
  (w1 : DotDims.WF ⟨2, ![90000, 128]⟩ ⟨2, ![128, 256]⟩ ⟨2, ![90000, 256]⟩ [1] [0] [0] [1] [] [])
  (hbv : (⟨1, ![256]⟩ : Shape).BroadcastsInDim ⟨2, ![1, 256]⟩ ![1])
  (hbr : (⟨2, ![1, 256]⟩ : Shape).BroadcastsInDim ⟨2, ![90000, 256]⟩ ![0, 1])

/-- The reference's first affine map of x + agg is the specification's. -/
theorem refLin_eq_lin1 : refLin (addf x agg) W1 b1 w1 hbv hbr = lin1 x agg W1 (rowOf b1) := by
  funext i
  obtain ⟨n, k, rfl⟩ : ∃ (n : Fin 90000) (k : Fin 256), i = ix2 n k := ⟨i 0, i 1, eq_ix2 i⟩
  rw [refLin_apply]
  rfl

end

section

variable (h : FVec Ideal ⟨2, ![90000, 256]⟩ .f32) (γ β : FVec Ideal ⟨1, ![256]⟩ .f32)
  (W2 : FVec Ideal ⟨2, ![256, 128]⟩ .f32) (b2 : FVec Ideal ⟨1, ![128]⟩ .f32)
  (w2 : DotDims.WF ⟨2, ![90000, 256]⟩ ⟨2, ![256, 128]⟩ ⟨2, ![90000, 128]⟩ [1] [0] [0] [1] [] [])
  (hr' : (⟨2, ![90000, 256]⟩ : Shape).ReducesTo [0] ⟨1, ![256]⟩)
  (hu : 0 < (⟨0, ![]⟩ : Shape).numel)
  (hb0 : (⟨0, ![]⟩ : Shape).BroadcastsInDim ⟨1, ![256]⟩ ![])
  (hb01 : (⟨0, ![]⟩ : Shape).BroadcastsInDim ⟨2, ![1, 256]⟩ ![])
  (hbz : (⟨0, ![]⟩ : Shape).BroadcastsInDim ⟨2, ![90000, 256]⟩ ![])
  (hbv : (⟨1, ![256]⟩ : Shape).BroadcastsInDim ⟨2, ![1, 256]⟩ ![1])
  (hbr : (⟨2, ![1, 256]⟩ : Shape).BroadcastsInDim ⟨2, ![90000, 256]⟩ ![0, 1])
  (hbv' : (⟨1, ![128]⟩ : Shape).BroadcastsInDim ⟨2, ![1, 128]⟩ ![1])
  (hbr' : (⟨2, ![1, 128]⟩ : Shape).BroadcastsInDim ⟨2, ![90000, 128]⟩ ![0, 1])

/-- THE LAYER, with the activation: on a finite h the reference's printed normalisation and second affine map is the
    specification's at the kernel program's rows. -/
theorem refOutRelu_eq (hr : (⟨2, ![90000, 256]⟩ : Shape).Reduces [0] ⟨1, ![256]⟩) (hh : FinArr (S := ⟨2, ![90000, 256]⟩) h) :
    refOutRelu h (refMean h hr' hu hb0) (refVar h hr' hu hb0 hb01 hbv hbr) γ β W2 b2 w2 hb0 hbz hbv hbr hbv' hbr'
      = norm2 true h (meanK (colSum h)) (varK (colSum h) (colSumSq h)) (rowOf γ) (rowOf β) W2 (rowOf b2) := by
  rw [norm2_rows_eq true h hh (rowOf (refMean h hr' hu hb0)) (rowOf (refVar h hr' hu hb0 hb01 hbv hbr)) (rowOf γ) (rowOf β) W2 (rowOf b2)
    (fun k => refMean_apply h hr' hu hb0 hr k) (fun k => refVar_apply h hr' hu hb0 hb01 hbv hbr hr k)]
  funext i
  obtain ⟨n, j, rfl⟩ : ∃ (n : Fin 90000) (j : Fin 128), i = ix2 n j := ⟨i 0, i 1, eq_ix2 i⟩
  rw [refOutRelu_apply]
  rfl

/-- THE LAYER, without activation. -/
theorem refOutLin_eq (hr : (⟨2, ![90000, 256]⟩ : Shape).Reduces [0] ⟨1, ![256]⟩) (hh : FinArr (S := ⟨2, ![90000, 256]⟩) h) :
    refOutLin h (refMean h hr' hu hb0) (refVar h hr' hu hb0 hb01 hbv hbr) γ β W2 b2 w2 hb0 hbv hbr hbv' hbr'
      = norm2 false h (meanK (colSum h)) (varK (colSum h) (colSumSq h)) (rowOf γ) (rowOf β) W2 (rowOf b2) := by
  rw [norm2_rows_eq false h hh (rowOf (refMean h hr' hu hb0)) (rowOf (refVar h hr' hu hb0 hb01 hbv hbr)) (rowOf γ) (rowOf β) W2 (rowOf b2)
    (fun k => refMean_apply h hr' hu hb0 hr k) (fun k => refVar_apply h hr' hu hb0 hb01 hbv hbr hr k)]
  funext i
  obtain ⟨n, j, rfl⟩ : ∃ (n : Fin 90000) (j : Fin 128), i = ix2 n j := ⟨i 0, i 1, eq_ix2 i⟩
  rw [refOutLin_apply]
  rfl

/-- A layer's output is finite when its h, scale, shift, second weight and bias are. -/
theorem layer_fin (relu : Bool) (hh : FinArr (S := ⟨2, ![90000, 256]⟩) h) (hγ : FinArr (S := ⟨1, ![256]⟩) γ)
    (hβ : FinArr (S := ⟨1, ![256]⟩) β) (hW : FinArr (S := ⟨2, ![256, 128]⟩) W2) (hb : FinArr (S := ⟨1, ![128]⟩) b2) :
    FinArr (norm2 relu h (meanK (colSum h)) (varK (colSum h) (colSumSq h)) (rowOf γ) (rowOf β) W2 (rowOf b2)) := by
  rw [norm2_rows_eq relu h hh (fun i => meanR h (i 1)) (fun i => varR h (i 1)) (rowOf γ) (rowOf β) W2 (rowOf b2)
    (fun _ => rfl) (fun _ => rfl)]
  exact norm2_fin relu h hh _ _ _ _ W2 _ (fun _ => rfl) (fun _ => rfl) (fun i => hγ _) (fun i => hβ _) hW (fun i => hb _)

end

end Cert.LayerEq

end
-- ==== Proof.Layer1Sim.lean ====
/-
  The first layer: the two programs' outputs agree, and the output is finite.

  The reference's output buffer holds its printed layer of what its first stretch left; on a finite h that is the
  specification's layer at the rows the kernel program forms (the variance identity).  The kernel program's output
  buffer holds the specification's layer of what its first stretch left.  The two first stretches agree buffer by
  buffer.  Finiteness: x and the parameters are finite by the precondition, the aggregation of finite rows is finite,
  hence h, hence the layer's output.
-/
import proofs.«117235_j17583596110491_1_alg».proof.Proof.KernelLayer1a
import proofs.«117235_j17583596110491_1_alg».proof.Proof.RefLayer1
import proofs.«117235_j17583596110491_1_alg».proof.Proof.Chain1
import proofs.«117235_j17583596110491_1_alg».proof.Proof.ChainFin1
import proofs.«117235_j17583596110491_1_alg».proof.Proof.LayerEq

set_option maxRecDepth 65536

noncomputable section

namespace Cert.Layer1Sim

open Idealize.ShloMosaic Idealize.ShloMosaic.TcCoe Idealize.SL.Sem Idealize.ShloMosaic.StableHlo
open Cert.LayerSpec Cert.LayerBridge Cert.RefLayer Cert.LayerEq

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 2000000 in
theorem sim (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (f0 : FinArr (S := Cert.ReferenceIdeal.S90000x128) (StableHlo.launchContents m' c (Proc.devRef .tc Cert.ReferenceIdeal.main_arg0)))
    (f6 : FinArr (S := Cert.ReferenceIdeal.S4x128x256) (StableHlo.launchContents m' c (Proc.devRef .tc Cert.ReferenceIdeal.main_arg6)))
    (f7 : FinArr (S := Cert.ReferenceIdeal.S4x256) (StableHlo.launchContents m' c (Proc.devRef .tc Cert.ReferenceIdeal.main_arg7)))
    (f8 : FinArr (S := Cert.ReferenceIdeal.S4x256) (StableHlo.launchContents m' c (Proc.devRef .tc Cert.ReferenceIdeal.main_arg8)))
    (f9 : FinArr (S := Cert.ReferenceIdeal.S4x256) (StableHlo.launchContents m' c (Proc.devRef .tc Cert.ReferenceIdeal.main_arg9)))
    (f10 : FinArr (S := Cert.ReferenceIdeal.S4x256x128) (StableHlo.launchContents m' c (Proc.devRef .tc Cert.ReferenceIdeal.main_arg10)))
    (f11 : FinArr (S := Cert.ReferenceIdeal.S4x128) (StableHlo.launchContents m' c (Proc.devRef .tc Cert.ReferenceIdeal.main_arg11))) :
    StableHlo.after Cert.ReferenceIdeal.RefRun.ops (StableHlo.launchContents m' c) (Proc.devRef .tc Cert.ReferenceIdeal.main_v54)
        = Cert.KernelIdeal.Gen.W4 m ρ c (Proc.devRef .tc Cert.KernelIdeal.main_v37)
      ∧ FinArr (S := Cert.KernelIdeal.S90000x128) (Cert.KernelIdeal.Gen.W4 m ρ c (Proc.devRef .tc Cert.KernelIdeal.main_v37)) := by
  have hr : (⟨2, ![90000, 256]⟩ : Shape).Reduces [0] ⟨1, ![256]⟩ := by decide
  have fx := Cert.ReferenceIdeal.RLayer1.fin_x _ f0
  have fagg := Cert.ReferenceIdeal.RLayer1.fin_agg _ f0
  have fw1 := Cert.ReferenceIdeal.RLayer1.fin_w1 _ f6
  have fb1 := Cert.ReferenceIdeal.RLayer1.fin_b1 _ f7
  have fg := Cert.ReferenceIdeal.RLayer1.fin_gamma _ f8
  have fb := Cert.ReferenceIdeal.RLayer1.fin_beta _ f9
  have fw2 := Cert.ReferenceIdeal.RLayer1.fin_w2 _ f10
  have fb2 := Cert.ReferenceIdeal.RLayer1.fin_b2 _ f11
  have eH : Cert.ReferenceIdeal.RLayer1.H1 (StableHlo.after Cert.ReferenceIdeal.RLayer1.chain1 (StableHlo.launchContents m' c))
      = lin1 ((StableHlo.after Cert.ReferenceIdeal.RLayer1.chain1 (StableHlo.launchContents m' c)) (Proc.devRef .tc Cert.ReferenceIdeal.main_arg0)) ((StableHlo.after Cert.ReferenceIdeal.RLayer1.chain1 (StableHlo.launchContents m' c)) (Proc.devRef .tc Cert.ReferenceIdeal.main_v25))
          ((StableHlo.after Cert.ReferenceIdeal.RLayer1.chain1 (StableHlo.launchContents m' c)) (Proc.devRef .tc Cert.ReferenceIdeal.main_v5)) (rowOf ((StableHlo.after Cert.ReferenceIdeal.RLayer1.chain1 (StableHlo.launchContents m' c)) (Proc.devRef .tc Cert.ReferenceIdeal.main_v7))) :=
    refLin_eq_lin1 _ _ _ _ _ _ _
  have fH : FinArr (S := ⟨2, ![90000, 256]⟩) (Cert.ReferenceIdeal.RLayer1.H1 (StableHlo.after Cert.ReferenceIdeal.RLayer1.chain1 (StableHlo.launchContents m' c))) := by
    rw [eH]
    exact lin1_fin _ _ _ _ fx fagg fw1 (fun i => fb1 _)
  have eR : StableHlo.after Cert.ReferenceIdeal.RefRun.ops (StableHlo.launchContents m' c) (Proc.devRef .tc Cert.ReferenceIdeal.main_v54)
      = norm2 true (Cert.ReferenceIdeal.RLayer1.H1 (StableHlo.after Cert.ReferenceIdeal.RLayer1.chain1 (StableHlo.launchContents m' c))) (meanK (colSum (Cert.ReferenceIdeal.RLayer1.H1 (StableHlo.after Cert.ReferenceIdeal.RLayer1.chain1 (StableHlo.launchContents m' c)))))
          (varK (colSum (Cert.ReferenceIdeal.RLayer1.H1 (StableHlo.after Cert.ReferenceIdeal.RLayer1.chain1 (StableHlo.launchContents m' c)))) (colSumSq (Cert.ReferenceIdeal.RLayer1.H1 (StableHlo.after Cert.ReferenceIdeal.RLayer1.chain1 (StableHlo.launchContents m' c)))))
          (rowOf ((StableHlo.after Cert.ReferenceIdeal.RLayer1.chain1 (StableHlo.launchContents m' c)) (Proc.devRef .tc Cert.ReferenceIdeal.main_v9))) (rowOf ((StableHlo.after Cert.ReferenceIdeal.RLayer1.chain1 (StableHlo.launchContents m' c)) (Proc.devRef .tc Cert.ReferenceIdeal.main_v11)))
          ((StableHlo.after Cert.ReferenceIdeal.RLayer1.chain1 (StableHlo.launchContents m' c)) (Proc.devRef .tc Cert.ReferenceIdeal.main_v13)) (rowOf ((StableHlo.after Cert.ReferenceIdeal.RLayer1.chain1 (StableHlo.launchContents m' c)) (Proc.devRef .tc Cert.ReferenceIdeal.main_v15))) := by
    rw [Cert.ReferenceIdeal.RLayer1.out_eq, Cert.ReferenceIdeal.RLayer1.layer1]
    exact refOutRelu_eq _ _ _ _ _ _ _ _ _ _ _ _ _ _ _ hr fH
  have fout : FinArr (norm2 true (Cert.ReferenceIdeal.RLayer1.H1 (StableHlo.after Cert.ReferenceIdeal.RLayer1.chain1 (StableHlo.launchContents m' c))) (meanK (colSum (Cert.ReferenceIdeal.RLayer1.H1 (StableHlo.after Cert.ReferenceIdeal.RLayer1.chain1 (StableHlo.launchContents m' c)))))
          (varK (colSum (Cert.ReferenceIdeal.RLayer1.H1 (StableHlo.after Cert.ReferenceIdeal.RLayer1.chain1 (StableHlo.launchContents m' c)))) (colSumSq (Cert.ReferenceIdeal.RLayer1.H1 (StableHlo.after Cert.ReferenceIdeal.RLayer1.chain1 (StableHlo.launchContents m' c)))))
          (rowOf ((StableHlo.after Cert.ReferenceIdeal.RLayer1.chain1 (StableHlo.launchContents m' c)) (Proc.devRef .tc Cert.ReferenceIdeal.main_v9))) (rowOf ((StableHlo.after Cert.ReferenceIdeal.RLayer1.chain1 (StableHlo.launchContents m' c)) (Proc.devRef .tc Cert.ReferenceIdeal.main_v11)))
          ((StableHlo.after Cert.ReferenceIdeal.RLayer1.chain1 (StableHlo.launchContents m' c)) (Proc.devRef .tc Cert.ReferenceIdeal.main_v13)) (rowOf ((StableHlo.after Cert.ReferenceIdeal.RLayer1.chain1 (StableHlo.launchContents m' c)) (Proc.devRef .tc Cert.ReferenceIdeal.main_v15)))) :=
    layer_fin _ _ _ _ _ true fH fg fb fw2 fb2
  have eK : norm2 true (Cert.ReferenceIdeal.RLayer1.H1 (StableHlo.after Cert.ReferenceIdeal.RLayer1.chain1 (StableHlo.launchContents m' c))) (meanK (colSum (Cert.ReferenceIdeal.RLayer1.H1 (StableHlo.after Cert.ReferenceIdeal.RLayer1.chain1 (StableHlo.launchContents m' c)))))
          (varK (colSum (Cert.ReferenceIdeal.RLayer1.H1 (StableHlo.after Cert.ReferenceIdeal.RLayer1.chain1 (StableHlo.launchContents m' c)))) (colSumSq (Cert.ReferenceIdeal.RLayer1.H1 (StableHlo.after Cert.ReferenceIdeal.RLayer1.chain1 (StableHlo.launchContents m' c)))))
          (rowOf ((StableHlo.after Cert.ReferenceIdeal.RLayer1.chain1 (StableHlo.launchContents m' c)) (Proc.devRef .tc Cert.ReferenceIdeal.main_v9))) (rowOf ((StableHlo.after Cert.ReferenceIdeal.RLayer1.chain1 (StableHlo.launchContents m' c)) (Proc.devRef .tc Cert.ReferenceIdeal.main_v11)))
          ((StableHlo.after Cert.ReferenceIdeal.RLayer1.chain1 (StableHlo.launchContents m' c)) (Proc.devRef .tc Cert.ReferenceIdeal.main_v13)) (rowOf ((StableHlo.after Cert.ReferenceIdeal.RLayer1.chain1 (StableHlo.launchContents m' c)) (Proc.devRef .tc Cert.ReferenceIdeal.main_v15)))
      = Cert.KernelIdeal.Gen.W4 m ρ c (Proc.devRef .tc Cert.KernelIdeal.main_v37) := by
    rw [Cert.KernelIdeal.KLayer1.layer1, eH, Cert.Chain1.x_eq m ρ m' c h0, Cert.Chain1.agg_eq m ρ m' c h0 h1, Cert.Chain1.w1_eq m ρ m' c h6,
      Cert.Chain1.b1_eq m ρ m' c h7, Cert.Chain1.gamma_eq m ρ m' c h8, Cert.Chain1.beta_eq m ρ m' c h9,
      Cert.Chain1.w2_eq m ρ m' c h10, Cert.Chain1.b2_eq m ρ m' c h11]
  exact ⟨eR.trans eK, eK ▸ fout⟩

end Cert.Layer1Sim

end
-- ==== Proof.Region2Payload.lean ====
/-
  The arithmetic of one grid point of the layer's first kernel, read entry by entry on the extended reals. The point
  holds a block of 3600 rows of x and of agg, the whole of W₁ and of b₁. It computes the block of h = (x + agg)·W₁ + b₁:
  entry (p, q) is Σ_j (x[p, j] + agg[p, j]) · W₁[j, q] + b₁[0, q]. It adds to the running column sums, in column q,
  Σ_p h[p, q] over the block's rows, and to the running column sums of squares Σ_p h[p, q]·h[p, q]. When the blocks of x
  and agg are rows r(p) of the arrays, the block of h is rows r(p) of the affine map of the whole arrays.
-/
import proofs.«117235_j17583596110491_1_alg».proof.Proof.Gen.KernelIdeal.Skeleton
import proofs.«117235_j17583596110491_1_alg».proof.Proof.LayerSpec
import proofs.«117235_j17583596110491_1_alg».proof.Proof.LibStatsOps
import Idealize.ShloMosaic.PureOps.Ideal.Laws
import Idealize.ShloMosaic.Lib.ValueIdx
import Idealize.ShloMosaic.Lib.ValueLayout

noncomputable section

open scoped BigOperators

namespace Cert.KernelIdeal.Region2

open Cert.KernelIdeal Cert.KernelIdeal.Gen Idealize.ShloMosaic Idealize.ShloMosaic.ValueIdx Cert.LayerSpec

/-- The f32 zero word denotes the extended real zero. -/
theorem zeroWord : (FloatOps.ofBits (F := Ideal) .f32 0x00000000#32 : EReal) = 0 := Ideal.ofBits_zero_f32

/-- The block of h a point computes, entry (p, q): the affine map of the point's row p. -/
theorem pay3_apply (v3 v4 : Vec Ideal S3600x128 .f32) (v7 : Vec Ideal S128x256 .f32) (v10 : Vec Ideal S1x256 .f32)
    (p : Fin 3600) (q : Fin 256) :
    k2_pay3 (F := Ideal) v3 v4 v7 v10 (ix2 p q)
      = (∑ j : Fin 128, (v3 (ix2 p j) + v4 (ix2 p j)) * v7 (ix2 j q)) + v10 (ix2 (0 : Fin 1) q) := by
  unfold k2_pay3
  refine (addf_apply _ _ (ix2 p q)).trans ?_
  refine congrArg₂ (· + ·) ?_ ?_
  · refine (Cert.LibStatsOps.matmul_plain_zero_apply _ none _ _ p q).trans ?_
    refine Finset.sum_congr rfl fun j _ => ?_
    repeat rw [shapeCast_self]
    rfl
  · refine (broadcastTo_1b_ab_apply _ _ p q).trans ?_
    rw [shapeCast_self]

/-- When the point's blocks of x and agg are the rows r(p) of the arrays and its blocks of W₁ and b₁ are the arrays, the
    block of h is the rows r(p) of the affine map of the arrays. -/
theorem pay3_rows (X A : Arr 90000 128) (W : Arr 128 256) (B : Arr 1 256)
    (x0 x1 : Vec Ideal S3600x128 .f32) (x2 : Vec Ideal S128x256 .f32) (x3 : Vec Ideal S1x256 .f32)
    (r : Fin 3600 → Fin 90000)
    (h0 : ∀ (p : Fin 3600) (j : Fin 128), x0 (ix2 p j) = X (ix2 (r p) j))
    (h1 : ∀ (p : Fin 3600) (j : Fin 128), x1 (ix2 p j) = A (ix2 (r p) j))
    (h2 : ∀ (j : Fin 128) (q : Fin 256), x2 (ix2 j q) = W (ix2 j q))
    (h3 : ∀ q : Fin 256, x3 (ix2 (0 : Fin 1) q) = B (ix2 (0 : Fin 1) q))
    (p : Fin 3600) (q : Fin 256) :
    k2_pay3 (F := Ideal) x0 x1 x2 x3 (ix2 p q) = lin1 X A W B (ix2 (r p) q) := by
  refine (pay3_apply x0 x1 x2 x3 p q).trans ?_
  rw [lin1_apply]
  unfold lin1At
  refine congrArg₂ (· + ·) (Finset.sum_congr rfl fun j _ => ?_) (h3 q)
  rw [h0, h1, h2]

/-- The running column sums after a point, entry (z, q): what they held plus the sum of the point's block of h over
    its rows. -/
theorem pay4_apply (v3 v4 : Vec Ideal S3600x128 .f32) (v7 : Vec Ideal S128x256 .f32) (v10 v15 : Vec Ideal S1x256 .f32)
    (z : Fin 1) (q : Fin 256) :
    k2_pay4 (F := Ideal) v3 v4 v7 v10 v15 (ix2 z q)
      = v15 (ix2 z q) + ∑ p : Fin 3600, k2_pay3 (F := Ideal) v3 v4 v7 v10 (ix2 p q) := by
  unfold k2_pay4
  refine (addf_apply _ _ (ix2 z q)).trans ?_
  refine congrArg₂ (· + ·) ?_ ?_
  · rw [shapeCast_self]
  · refine (shapeCast_a_1a_apply _ _ z q).trans ?_
    exact Cert.LibStatsOps.rowsum_apply _ _ _ _ q

/-- The running column sums of squares after a point, entry (z, q): what they held plus the sum of the squares of the
    point's block of h over its rows. -/
theorem pay5_apply (v3 v4 : Vec Ideal S3600x128 .f32) (v7 : Vec Ideal S128x256 .f32) (v10 v21 : Vec Ideal S1x256 .f32)
    (z : Fin 1) (q : Fin 256) :
    k2_pay5 (F := Ideal) v3 v4 v7 v10 v21 (ix2 z q)
      = v21 (ix2 z q) + ∑ p : Fin 3600, k2_pay3 (F := Ideal) v3 v4 v7 v10 (ix2 p q) * k2_pay3 (F := Ideal) v3 v4 v7 v10 (ix2 p q) := by
  unfold k2_pay5
  refine (addf_apply _ _ (ix2 z q)).trans ?_
  refine congrArg₂ (· + ·) ?_ ?_
  · rw [shapeCast_self]
  · refine (shapeCast_a_1a_apply _ _ z q).trans ?_
    refine (Cert.LibStatsOps.rowsum_apply _ _ _ _ q).trans ?_
    rfl

/-- The two zero blocks the first point stores, at any entry. -/
theorem pay1_apply (i : S1x256.Idx) : k2_pay1 (F := Ideal) i = 0 := zeroWord
theorem pay2_apply (i : S1x256.Idx) : k2_pay2 (F := Ideal) i = 0 := zeroWord

end Cert.KernelIdeal.Region2

end
-- ==== Proof.Region2Pieces.lean ====
/-
  What one grid point of the layer's first kernel leaves in its three output blocks, as the kernel's arithmetic applied to
  the blocks the point holds. Every load and every store of the body moves a whole block. At the first point the two
  statistics blocks are first set to zero and then read back, so they end at the zero block plus the point's sums; at
  every other point they are read as the point before left them.
-/
import proofs.«117235_j17583596110491_1_alg».proof.Proof.Gen.KernelIdeal.Frame
import Idealize.ShloMosaic.Lib.Pipeline.Value
import Idealize.ShloMosaic.Lib.Tactic

set_option maxRecDepth 16384

noncomputable section

namespace Cert.KernelIdeal.Region2

open Cert.KernelIdeal Cert.KernelIdeal.Gen Idealize.ShloMosaic Idealize.ShloMosaic.TcCoe Idealize.ShloMosaic.Tactic Idealize.SL.Sem

variable {F : FTy → Type} [FloatOps F]

/-- The literal zero offset of a rank-two block is the constant-zero function. -/
theorem hz : (![0, 0] : Fin 2 → Nat) = fun _ => 0 := funext fun a => by fin_cases a <;> rfl

/-- At the first point the block of h is the affine map of the point's blocks. -/
theorem outA4_eq (c : Dev nD) (i : grid2.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond2_0 i)
    (x0 : Vec F S3600x128 .f32) (x1 : Vec F S3600x128 .f32) (x2 : Vec F S128x256 .f32) (x3 : Vec F S1x256 .f32) :
    out2_A_4 c i arg1 harg1 arg2 harg2 arg3 harg3 arg4 harg4 arg5 harg5 arg6 harg6 arg7 harg7 hc0 x0 x1 x2 x3 = k2_pay3 x0 x1 x2 x3 := by
  unfold out2_A_4
  rw [View.read_writes_eq_canon _ _ _ (cover2_A_4 c i arg1 harg1 arg2 harg2 arg3 harg3 arg4 harg4 arg5 harg5 arg6 harg6 arg7 harg7 hc0 x0 x1 x2 x3)]
  unfold kernelRun2_A
  dsimp only
  try sl_unfold_words
  rw [View.canon_unit_zero hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At the first point the column sums are the zero block plus the sums of the point's block of h. -/
theorem outA5_eq (c : Dev nD) (i : grid2.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond2_0 i)
    (x0 : Vec F S3600x128 .f32) (x1 : Vec F S3600x128 .f32) (x2 : Vec F S128x256 .f32) (x3 : Vec F S1x256 .f32) :
    out2_A_5 c i arg1 harg1 arg2 harg2 arg3 harg3 arg4 harg4 arg5 harg5 arg6 harg6 arg7 harg7 hc0 x0 x1 x2 x3 = k2_pay4 x0 x1 x2 x3 (k2_pay1 (F := F)) := by
  unfold out2_A_5
  rw [View.read_writes_eq_canon _ _ _ (cover2_A_5 c i arg1 harg1 arg2 harg2 arg3 harg3 arg4 harg4 arg5 harg5 arg6 harg6 arg7 harg7 hc0 x0 x1 x2 x3)]
  unfold kernelRun2_A
  dsimp only
  try sl_unfold_words
  rw [View.canon_cons_unit_zero (S := S1x256) hz, View.readCov_unit_zero (S := S1x256) _ hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At the first point the column sums of squares are the zero block plus the sums of squares of the point's block of h. -/
theorem outA6_eq (c : Dev nD) (i : grid2.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond2_0 i)
    (x0 : Vec F S3600x128 .f32) (x1 : Vec F S3600x128 .f32) (x2 : Vec F S128x256 .f32) (x3 : Vec F S1x256 .f32) :
    out2_A_6 c i arg1 harg1 arg2 harg2 arg3 harg3 arg4 harg4 arg5 harg5 arg6 harg6 arg7 harg7 hc0 x0 x1 x2 x3 = k2_pay5 x0 x1 x2 x3 (k2_pay2 (F := F)) := by
  unfold out2_A_6
  rw [View.read_writes_eq_canon _ _ _ (cover2_A_6 c i arg1 harg1 arg2 harg2 arg3 harg3 arg4 harg4 arg5 harg5 arg6 harg6 arg7 harg7 hc0 x0 x1 x2 x3)]
  unfold kernelRun2_A
  dsimp only
  try sl_unfold_words
  rw [View.canon_cons_unit_zero (S := S1x256) hz, View.readCov_unit_zero (S := S1x256) _ hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At a later point the block of h is the affine map of the point's blocks. -/
theorem outB4_eq (c : Dev nD) (i : grid2.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond2_0 i)
    (x0 : Vec F S3600x128 .f32) (x1 : Vec F S3600x128 .f32) (x2 : Vec F S128x256 .f32) (x3 : Vec F S1x256 .f32) (xo5 : Vec F S1x256 .f32) (xo6 : Vec F S1x256 .f32) :
    out2_B_4 c i arg1 harg1 arg2 harg2 arg3 harg3 arg4 harg4 arg5 harg5 arg6 harg6 arg7 harg7 hc0 x0 x1 x2 x3 xo5 xo6 = k2_pay3 x0 x1 x2 x3 := by
  unfold out2_B_4
  rw [View.read_writes_eq_canon _ _ _ (cover2_B_4 c i arg1 harg1 arg2 harg2 arg3 harg3 arg4 harg4 arg5 harg5 arg6 harg6 arg7 harg7 hc0 x0 x1 x2 x3 xo5 xo6)]
  unfold kernelRun2_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

/-- At a later point the column sums are what the point before left plus the sums of the point's block of h. -/
theorem outB5_eq (c : Dev nD) (i : grid2.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond2_0 i)
    (x0 : Vec F S3600x128 .f32) (x1 : Vec F S3600x128 .f32) (x2 : Vec F S128x256 .f32) (x3 : Vec F S1x256 .f32) (xo5 : Vec F S1x256 .f32) (xo6 : Vec F S1x256 .f32) :
    out2_B_5 c i arg1 harg1 arg2 harg2 arg3 harg3 arg4 harg4 arg5 harg5 arg6 harg6 arg7 harg7 hc0 x0 x1 x2 x3 xo5 xo6 = k2_pay4 x0 x1 x2 x3 xo5 := by
  unfold out2_B_5
  rw [View.read_writes_eq_canon _ _ _ (cover2_B_5 c i arg1 harg1 arg2 harg2 arg3 harg3 arg4 harg4 arg5 harg5 arg6 harg6 arg7 harg7 hc0 x0 x1 x2 x3 xo5 xo6)]
  unfold kernelRun2_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

/-- At a later point the column sums of squares are what the point before left plus the sums of squares of the point's
    block of h. -/
theorem outB6_eq (c : Dev nD) (i : grid2.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond2_0 i)
    (x0 : Vec F S3600x128 .f32) (x1 : Vec F S3600x128 .f32) (x2 : Vec F S128x256 .f32) (x3 : Vec F S1x256 .f32) (xo5 : Vec F S1x256 .f32) (xo6 : Vec F S1x256 .f32) :
    out2_B_6 c i arg1 harg1 arg2 harg2 arg3 harg3 arg4 harg4 arg5 harg5 arg6 harg6 arg7 harg7 hc0 x0 x1 x2 x3 xo5 xo6 = k2_pay5 x0 x1 x2 x3 xo6 := by
  unfold out2_B_6
  rw [View.read_writes_eq_canon _ _ _ (cover2_B_6 c i arg1 harg1 arg2 harg2 arg3 harg3 arg4 harg4 arg5 harg5 arg6 harg6 arg7 harg7 hc0 x0 x1 x2 x3 xo5 xo6)]
  unfold kernelRun2_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

end Cert.KernelIdeal.Region2

end
-- ==== Proof.Region2Value.lean ====
/-
  The three arrays the layer's first kernel leaves, as whole-array functions of the four arrays it finds.
  The grid has 25 points; point t holds rows 3600·t … 3600·t + 3599 of x and of agg, the whole of W₁ and of b₁, and writes
  rows 3600·t … 3600·t + 3599 of h. The two statistics arrays are one block each, revisited by every point and written
  back after the last one: after point n they hold the column sums (of h, of h·h) over the rows of blocks 0 … n, so
  after the last point the sums over all 90000 rows.
-/
import proofs.«117235_j17583596110491_1_alg».proof.Proof.Gen.KernelIdeal.Frame
import proofs.«117235_j17583596110491_1_alg».proof.Proof.Region2Payload
import proofs.«117235_j17583596110491_1_alg».proof.Proof.Region2Pieces
import proofs.«117235_j17583596110491_1_alg».proof.Proof.LibBlockedRows
import proofs.«117235_j17583596110491_1_alg».proof.Proof.LayerSpec
import Idealize.ShloMosaic.Lib.Pipeline.Value
import Idealize.ShloMosaic.Lib.Tactic

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx Cert.LayerSpec Cert.LibBlockedRows
open Idealize.ShloMosaic.Pipeline (Dat)

variable (V : (c : Dev nD) → (b : Ref sig .tc) → Buf (Elt Ideal) ((c : Thread nD τ).loc b))

/-- The affine map (x + agg)·W₁ + b₁ of the four arrays the region finds. -/
def hOf (c : Dev nD) : Arr 90000 256 :=
  lin1 (V c (Pipeline.arrRef spec2 0)) (V c (Pipeline.arrRef spec2 1)) (V c (Pipeline.arrRef spec2 2)) (V c (Pipeline.arrRef spec2 3))

/-- The three output blocks a point leaves: h's block, the column sums, the column sums of squares. -/
abbrev Outs : Type := Vec Ideal S3600x256 .f32 × Vec Ideal S1x256 .f32 × Vec Ideal S1x256 .f32

/-! ## Where each window's block sits -/

/-- The block indices at point t: the row-blocked windows (x, agg, h) are at block row t, every other window at its one block. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0 :=
  (by decide +kernel : ∀ t : Fin grid2.N, _)

/-- The grid has 25 points. -/
theorem lt25 (t : Fin cfg2.N) : t.val < 25 := lt_of_lt_of_eq t.isLt (show cfg2.N = 25 from N_2)

/-- Row p of the block of point t, among the 90000 rows. -/
abbrev rowAt (t : Fin cfg2.N) (p : Fin 3600) : Fin 90000 := blockRow ⟨t.val, lt25 t⟩ p

/-- The block of x at point t, entry (p, j), is x at row 3600·t + p. -/
theorem iblk_0_apply (c : Dev nD) (t : Fin cfg2.N) (p : Fin 3600) (j : Fin 128) :
    (iblk2 V c 0 t : Vec Ideal S3600x128 .f32) (ix2 p j)
      = (V c (Pipeline.arrRef spec2 0) : Arr 90000 128) (ix2 (rowAt t p) j) := by
  obtain ⟨e00, e01, e10, e11, e20, e21, e30, e31, e40, e41, e50, e51, e60, e61⟩ := idx_facts t
  unfold iblk2
  rw [View.read_apply]
  show (V c (Pipeline.arrRef spec2 0) : Arr 90000 128) _ = _
  refine congrArg _ (funext fun a => Fin.ext ?_)
  match a with
  | ⟨0, _⟩ => show win2_0.index t (0 : Fin 2) * 3600 + 1 * p.val = t.val * 3600 + p.val; first | omega | (rw [e00] <;> omega)
  | ⟨1, _⟩ => show win2_0.index t (1 : Fin 2) * 128 + 1 * j.val = j.val; first | omega | (rw [e01] <;> omega)

/-- The block of agg at point t, entry (p, j), is agg at row 3600·t + p. -/
theorem iblk_1_apply (c : Dev nD) (t : Fin cfg2.N) (p : Fin 3600) (j : Fin 128) :
    (iblk2 V c 1 t : Vec Ideal S3600x128 .f32) (ix2 p j)
      = (V c (Pipeline.arrRef spec2 1) : Arr 90000 128) (ix2 (rowAt t p) j) := by
  obtain ⟨e00, e01, e10, e11, e20, e21, e30, e31, e40, e41, e50, e51, e60, e61⟩ := idx_facts t
  unfold iblk2
  rw [View.read_apply]
  show (V c (Pipeline.arrRef spec2 1) : Arr 90000 128) _ = _
  refine congrArg _ (funext fun a => Fin.ext ?_)
  match a with
  | ⟨0, _⟩ => show win2_1.index t (0 : Fin 2) * 3600 + 1 * p.val = t.val * 3600 + p.val; first | omega | (rw [e10] <;> omega)
  | ⟨1, _⟩ => show win2_1.index t (1 : Fin 2) * 128 + 1 * j.val = j.val; first | omega | (rw [e11] <;> omega)

/-- The block of W₁ at any point is W₁. -/
theorem iblk_2_apply (c : Dev nD) (t : Fin cfg2.N) (j : Fin 128) (q : Fin 256) :
    (iblk2 V c 2 t : Vec Ideal S128x256 .f32) (ix2 j q)
      = (V c (Pipeline.arrRef spec2 2) : Arr 128 256) (ix2 j q) := by
  obtain ⟨e00, e01, e10, e11, e20, e21, e30, e31, e40, e41, e50, e51, e60, e61⟩ := idx_facts t
  unfold iblk2
  rw [View.read_apply]
  show (V c (Pipeline.arrRef spec2 2) : Arr 128 256) _ = _
  refine congrArg _ (funext fun a => Fin.ext ?_)
  match a with
  | ⟨0, _⟩ => show win2_2.index t (0 : Fin 2) * 128 + 1 * j.val = j.val; first | omega | (rw [e20] <;> omega)
  | ⟨1, _⟩ => show win2_2.index t (1 : Fin 2) * 256 + 1 * q.val = q.val; first | omega | (rw [e21] <;> omega)

/-- The block of b₁ at any point is b₁. -/
theorem iblk_3_apply (c : Dev nD) (t : Fin cfg2.N) (z : Fin 1) (q : Fin 256) :
    (iblk2 V c 3 t : Vec Ideal S1x256 .f32) (ix2 z q)
      = (V c (Pipeline.arrRef spec2 3) : Arr 1 256) (ix2 z q) := by
  obtain ⟨e00, e01, e10, e11, e20, e21, e30, e31, e40, e41, e50, e51, e60, e61⟩ := idx_facts t
  unfold iblk2
  rw [View.read_apply]
  show (V c (Pipeline.arrRef spec2 3) : Arr 1 256) _ = _
  refine congrArg _ (funext fun a => Fin.ext ?_)
  match a with
  | ⟨0, _⟩ => show win2_3.index t (0 : Fin 2) * 1 + 1 * z.val = z.val; first | omega | (rw [e30] <;> omega)
  | ⟨1, _⟩ => show win2_3.index t (1 : Fin 2) * 256 + 1 * q.val = q.val; first | omega | (rw [e31] <;> omega)

/-! ## The block of h a point computes -/

/-- The affine map of the blocks of point t, entry (p, q), is h at row 3600·t + p. -/
theorem hblock_apply (c : Dev nD) (t : Fin cfg2.N) (p : Fin 3600) (q : Fin 256) :
    k2_pay3 (F := Ideal) (iblk2 V c 0 t) (iblk2 V c 1 t) (iblk2 V c 2 t) (iblk2 V c 3 t) (ix2 p q) = hOf V c (ix2 (rowAt t p) q) :=
  pay3_rows (V c (Pipeline.arrRef spec2 0)) (V c (Pipeline.arrRef spec2 1)) (V c (Pipeline.arrRef spec2 2)) (V c (Pipeline.arrRef spec2 3))
    (iblk2 V c 0 t) (iblk2 V c 1 t) (iblk2 V c 2 t) (iblk2 V c 3 t) (rowAt t)
    (iblk_0_apply V c t) (iblk_1_apply V c t) (iblk_2_apply V c t) (fun q => iblk_3_apply V c t 0 q) p q

/-- Summed over the rows of the block, column q: the block's share of the column sum of h. -/
theorem block_colsum (c : Dev nD) (t : Fin cfg2.N) (q : Fin 256) :
    ∑ p : Fin 3600, k2_pay3 (F := Ideal) (iblk2 V c 0 t) (iblk2 V c 1 t) (iblk2 V c 2 t) (iblk2 V c 3 t) (ix2 p q)
      = blockSum (fun r => hOf V c (ix2 r q)) t.val :=
  Eq.trans (Finset.sum_congr rfl fun p _ => hblock_apply V c t p q)
    (blockSum_of_lt (fun r => hOf V c (ix2 r q)) ⟨t.val, lt25 t⟩).symm

/-- The same for the squares. -/
theorem block_colsumsq (c : Dev nD) (t : Fin cfg2.N) (q : Fin 256) :
    ∑ p : Fin 3600, k2_pay3 (F := Ideal) (iblk2 V c 0 t) (iblk2 V c 1 t) (iblk2 V c 2 t) (iblk2 V c 3 t) (ix2 p q)
        * k2_pay3 (F := Ideal) (iblk2 V c 0 t) (iblk2 V c 1 t) (iblk2 V c 2 t) (iblk2 V c 3 t) (ix2 p q)
      = blockSum (fun r => hOf V c (ix2 r q) * hOf V c (ix2 r q)) t.val :=
  Eq.trans (Finset.sum_congr rfl fun p _ => by rw [hblock_apply V c t p q])
    (blockSum_of_lt (fun r => hOf V c (ix2 r q) * hOf V c (ix2 r q)) ⟨t.val, lt25 t⟩).symm

/-! ## What the outputs hold after each point -/

/-- After any point the block of h is the affine map of the point's blocks. -/
theorem outs4_eq (c : Dev nD) (t : Fin cfg2.N) :
    (outsAt2 V c t.val t.isLt).1 = k2_pay3 (F := Ideal) (iblk2 V c 0 t) (iblk2 V c 1 t) (iblk2 V c 2 t) (iblk2 V c 3 t) := by
  by_cases h0 : t.val % 25 = 0
  · rw [outsAt2_A V c t h0]
    dsimp only
    exact outA4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)
  · rw [outsAt2_B V c t h0]
    dsimp only
    exact outB4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2

/-- After the point n, column q of the running column sums holds the sum, over the blocks 0 … n, of the block's sums of h in column q:
    at the first point the zero block plus the first block's, at a later point what the point before left plus this block's. -/
theorem outs5_inv (c : Dev nD) : ∀ (n : ℕ) (hn : n < cfg2.N) (z : Fin 1) (q : Fin 256),
    (outsAt2 V c n hn).2.1 (ix2 z q) = ∑ s ∈ Finset.range (n + 1), blockSum (fun r => hOf V c (ix2 r q)) s
  | 0, hn, z, q => by
    have h0 : (⟨0, hn⟩ : Fin cfg2.N).val % 25 = 0 := rfl
    refine (congrArg (fun o : Outs => o.2.1 (ix2 z q)) (outsAt2_A V c ⟨0, hn⟩ h0)).trans ?_
    dsimp only
    refine (congrFun (outA5_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr h0) (iblk2 V c 0 ⟨0, hn⟩) (iblk2 V c 1 ⟨0, hn⟩) (iblk2 V c 2 ⟨0, hn⟩) (iblk2 V c 3 ⟨0, hn⟩)) (ix2 z q)).trans ?_
    refine (pay4_apply (iblk2 V c 0 ⟨0, hn⟩) (iblk2 V c 1 ⟨0, hn⟩) (iblk2 V c 2 ⟨0, hn⟩) (iblk2 V c 3 ⟨0, hn⟩) _ z q).trans ?_
    rw [pay1_apply]
    refine (zero_add _).trans ?_
    refine (block_colsum V c ⟨0, hn⟩ q).trans ?_
    exact (Finset.sum_range_one (blockSum (fun r => hOf V c (ix2 r q)))).symm
  | n + 1, hn, z, q => by
    have hN : cfg2.N = 25 := N_2
    have hB : ¬(⟨n + 1, hn⟩ : Fin cfg2.N).val % 25 = 0 := by dsimp only; omega
    refine (congrArg (fun o : Outs => o.2.1 (ix2 z q)) (outsAt2_B V c ⟨n + 1, hn⟩ hB)).trans ?_
    dsimp only
    refine (congrFun (outB5_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (fun h => hB ((hcond2_0 (⟨n + 1, hn⟩ : Fin cfg2.N)).mp h)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.1 (outsAt2 V c ((⟨n + 1, hn⟩ : Fin cfg2.N).val - 1) (Nat.lt_of_le_of_lt (Nat.sub_le _ _) (⟨n + 1, hn⟩ : Fin cfg2.N).isLt)).2.2) (ix2 z q)).trans ?_
    refine (pay4_apply (iblk2 V c 0 ⟨n + 1, hn⟩) (iblk2 V c 1 ⟨n + 1, hn⟩) (iblk2 V c 2 ⟨n + 1, hn⟩) (iblk2 V c 3 ⟨n + 1, hn⟩) _ z q).trans ?_
    rw [Finset.sum_range_succ]
    exact congrArg₂ (· + ·) (outs5_inv c n (Nat.lt_of_succ_lt hn) z q) (block_colsum V c ⟨n + 1, hn⟩ q)

/-- After the point n, column q of the running column sums of squares holds the sum, over the blocks 0 … n, of the block's sums of squares of h in column q:
    at the first point the zero block plus the first block's, at a later point what the point before left plus this block's. -/
theorem outs6_inv (c : Dev nD) : ∀ (n : ℕ) (hn : n < cfg2.N) (z : Fin 1) (q : Fin 256),
    (outsAt2 V c n hn).2.2 (ix2 z q) = ∑ s ∈ Finset.range (n + 1), blockSum (fun r => hOf V c (ix2 r q) * hOf V c (ix2 r q)) s
  | 0, hn, z, q => by
    have h0 : (⟨0, hn⟩ : Fin cfg2.N).val % 25 = 0 := rfl
    refine (congrArg (fun o : Outs => o.2.2 (ix2 z q)) (outsAt2_A V c ⟨0, hn⟩ h0)).trans ?_
    dsimp only
    refine (congrFun (outA6_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr h0) (iblk2 V c 0 ⟨0, hn⟩) (iblk2 V c 1 ⟨0, hn⟩) (iblk2 V c 2 ⟨0, hn⟩) (iblk2 V c 3 ⟨0, hn⟩)) (ix2 z q)).trans ?_
    refine (pay5_apply (iblk2 V c 0 ⟨0, hn⟩) (iblk2 V c 1 ⟨0, hn⟩) (iblk2 V c 2 ⟨0, hn⟩) (iblk2 V c 3 ⟨0, hn⟩) _ z q).trans ?_
    rw [pay2_apply]
    refine (zero_add _).trans ?_
    refine (block_colsumsq V c ⟨0, hn⟩ q).trans ?_
    exact (Finset.sum_range_one (blockSum (fun r => hOf V c (ix2 r q) * hOf V c (ix2 r q)))).symm
  | n + 1, hn, z, q => by
    have hN : cfg2.N = 25 := N_2
    have hB : ¬(⟨n + 1, hn⟩ : Fin cfg2.N).val % 25 = 0 := by dsimp only; omega
    refine (congrArg (fun o : Outs => o.2.2 (ix2 z q)) (outsAt2_B V c ⟨n + 1, hn⟩ hB)).trans ?_
    dsimp only
    refine (congrFun (outB6_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (fun h => hB ((hcond2_0 (⟨n + 1, hn⟩ : Fin cfg2.N)).mp h)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.1 (outsAt2 V c ((⟨n + 1, hn⟩ : Fin cfg2.N).val - 1) (Nat.lt_of_le_of_lt (Nat.sub_le _ _) (⟨n + 1, hn⟩ : Fin cfg2.N).isLt)).2.2) (ix2 z q)).trans ?_
    refine (pay5_apply (iblk2 V c 0 ⟨n + 1, hn⟩) (iblk2 V c 1 ⟨n + 1, hn⟩) (iblk2 V c 2 ⟨n + 1, hn⟩) (iblk2 V c 3 ⟨n + 1, hn⟩) _ z q).trans ?_
    rw [Finset.sum_range_succ]
    exact congrArg₂ (· + ·) (outs6_inv c n (Nat.lt_of_succ_lt hn) z q) (block_colsumsq V c ⟨n + 1, hn⟩ q)

/-! ## The array of h: every point writes its own block of rows -/

/-- What point t writes back to the array of h is block t of the affine map of the arrays. -/
theorem flushed4_eq (c : Dev nD) (t : Fin cfg2.N) :
    (dat2 V c).flushed 4 t = ((cfg2.win 4).blk t).view.read (Elt Ideal) (hOf V c) := by
  show (cfg2.win 4).cut (grid2.coords t) ((dat2 V c).after 4 t) = _
  rw [after2_4, outs4_eq V c t]
  obtain ⟨e00, e01, e10, e11, e20, e21, e30, e31, e40, e41, e50, e51, e60, e61⟩ := idx_facts t
  funext y
  show k2_pay3 (F := Ideal) (iblk2 V c 0 t) (iblk2 V c 1 t) (iblk2 V c 2 t) (iblk2 V c 3 t) y = hOf V c (((cfg2.win 4).blk t).view.emb y)
  have hy : (y : S3600x256.Idx) = ix2 (y 0) (y 1) := eq_ix2 (n0 := 3600) (n1 := 256) y
  have he : (((cfg2.win 4).blk t).view.emb y : S90000x256.Idx) = ix2 (rowAt t (y 0)) (y 1) := by
    funext a; apply Fin.ext
    match a with
    | ⟨0, _⟩ => show win2_4.index t (0 : Fin 2) * 3600 + 1 * (y 0).val = t.val * 3600 + (y 0).val; first | omega | (rw [e40] <;> omega)
    | ⟨1, _⟩ => show win2_4.index t (1 : Fin 2) * 256 + 1 * (y 1).val = (y 1).val; first | omega | (rw [e41] <;> omega)
  exact (congrArg (k2_pay3 (F := Ideal) (iblk2 V c 0 t) (iblk2 V c 1 t) (iblk2 V c 2 t) (iblk2 V c 3 t)) hy).trans
    ((hblock_apply V c t (y 0) (y 1)).trans (congrArg (hOf V c) he.symm))

/-- A row index is in point t's block of h iff each coordinate is in the block's range on its axis. -/
theorem mem_blk4 (t : Fin cfg2.N) (i : S90000x256.Idx) :
    i ∈ ((cfg2.win 4).blk t).view.set ↔ ∀ a : Fin 2, win2_4.index t a * S3600x256.size a ≤ (i a).val ∧ (i a).val < win2_4.index t a * S3600x256.size a + S3600x256.size a := by
  show i ∈ ((View.whole main_v61_0).slice (win2_4.rect t)).set ↔ _
  rw [View.set_slice_whole, Rect.mem_set_unit]
  exact Iff.rfl

/-- Row r of h is in the block of point r / 3600. -/
theorem cover4 (i : S90000x256.Idx) :
    ∃ t : Fin cfg2.N, (cfg2.win 4).flush t = true ∧ i ∈ ((cfg2.win 4).blk t).view.set := by
  have hi0 : (i 0).val < 90000 := (i 0).isLt
  have hi1 : (i 1).val < 256 := (i 1).isLt
  have hN : cfg2.N = 25 := N_2
  obtain ⟨t, ht⟩ : ∃ t : Fin cfg2.N, t.val = (i 0).val / 3600 := ⟨⟨(i 0).val / 3600, by rw [hN]; omega⟩, rfl⟩
  obtain ⟨e00, e01, e10, e11, e20, e21, e30, e31, e40, e41, e50, e51, e60, e61⟩ := idx_facts t
  refine ⟨t, flush2_4 t, ?_⟩
  rw [mem_blk4]
  intro a
  match a with
  | ⟨0, _⟩ => show win2_4.index t (0 : Fin 2) * 3600 ≤ (i 0).val ∧ (i 0).val < win2_4.index t (0 : Fin 2) * 3600 + 3600; first | omega | (rw [e40, ht] <;> omega)
  | ⟨1, _⟩ => show win2_4.index t (1 : Fin 2) * 256 ≤ (i 1).val ∧ (i 1).val < win2_4.index t (1 : Fin 2) * 256 + 256; first | omega | (rw [e41] <;> omega)

/-- The array of h after the run is the affine map of the four arrays the region finds. -/
theorem final2_4 (c : Dev nD) : (dat2 V c).arrAt 4 cfg2.N
    = lin1 (V c (Pipeline.arrRef spec2 0)) (V c (Pipeline.arrRef spec2 1)) (V c (Pipeline.arrRef spec2 2)) (V c (Pipeline.arrRef spec2 3)) :=
  (dat2 V c).arrAt_eq_of_cover 4 (hOf V c) (fun t _ => flushed4_eq V c t) cover4

/-! ## The two statistics arrays: one block, written back after the last point -/

/-- The last point. -/
abbrev tLast : Fin cfg2.N := ⟨24, by rw [show cfg2.N = 25 from N_2]; decide⟩

/-- What the column sums' block holds after the last point, as contents of its array (the block is the whole array). -/
abbrev result5 (c : Dev nD) : Buf (Elt Ideal) ((c : Thread nD τ).loc main_v61_1) := (outsAt2 V c tLast.val tLast.isLt).2.1

/-- What the column sums of squares' block holds after the last point, as contents of its array. -/
abbrev result6 (c : Dev nD) : Buf (Elt Ideal) ((c : Thread nD τ).loc main_v61_2) := (outsAt2 V c tLast.val tLast.isLt).2.2

/-- The one write-back of the column sums, after the last point, writes that block: block (0, 0) of the [1, 256] array
    read through zero offsets is the array. -/
theorem flushed5_eq (c : Dev nD) (t : Fin cfg2.N) (hf : (cfg2.win 5).flush t = true) :
    (dat2 V c).flushed 5 t = ((cfg2.win 5).blk t).view.read (Elt Ideal) (result5 V c) := by
  have hN : cfg2.N = 25 := N_2
  have h24 : t.val = 24 := by have := (flush2_5 t).mp hf; have := t.isLt; omega
  obtain rfl : t = tLast := Fin.ext h24
  show (cfg2.win 5).cut (grid2.coords tLast) ((dat2 V c).after 5 tLast) = _
  rw [after2_5]
  have hz' : (fun a => win2_5.index tLast a * main_v61_1.ty.shape.size a) = fun _ => 0 := funext fun a => by fin_cases a <;> decide +kernel
  exact (Memref.read_access_unit_zero (Elt Ideal) main_v61_1 hz' (fun a => by rw [congrFun hz' a]; simp) (result5 V c)).symm

/-- The same for the column sums of squares. -/
theorem flushed6_eq (c : Dev nD) (t : Fin cfg2.N) (hf : (cfg2.win 6).flush t = true) :
    (dat2 V c).flushed 6 t = ((cfg2.win 6).blk t).view.read (Elt Ideal) (result6 V c) := by
  have hN : cfg2.N = 25 := N_2
  have h24 : t.val = 24 := by have := (flush2_6 t).mp hf; have := t.isLt; omega
  obtain rfl : t = tLast := Fin.ext h24
  show (cfg2.win 6).cut (grid2.coords tLast) ((dat2 V c).after 6 tLast) = _
  rw [after2_6]
  have hz' : (fun a => win2_6.index tLast a * main_v61_2.ty.shape.size a) = fun _ => 0 := funext fun a => by fin_cases a <;> decide +kernel
  exact (Memref.read_access_unit_zero (Elt Ideal) main_v61_2 hz' (fun a => by rw [congrFun hz' a]; simp) (result6 V c)).symm

/-- So the array of column sums ends holding the block the last point left (the last point's block covers it). -/
theorem final5_block (c : Dev nD) : (dat2 V c).arrAt 5 cfg2.N = result5 V c :=
  (dat2 V c).arrAt_eq_of_cover 5 (result5 V c) (flushed5_eq V c) fun i =>
    ⟨tLast, (flush2_5 tLast).mpr rfl, by
      show i ∈ ((View.whole main_v61_1).slice (win2_5.rect tLast)).set
      rw [View.set_slice_whole, Rect.mem_set_unit]
      intro a
      have h0 : (i 0 : Nat) < 1 := (i 0).isLt
      have h1 : (i 1 : Nat) < 256 := (i 1).isLt
      match a with
      | ⟨0, _⟩ => show win2_5.index tLast 0 * win2_5.size 0 ≤ (i 0 : Nat) ∧ (i 0 : Nat) < win2_5.index tLast 0 * win2_5.size 0 + win2_5.xsize (grid2.coords tLast) 0
                  rw [show win2_5.index tLast 0 * win2_5.size 0 = 0 from by decide +kernel, show win2_5.xsize (grid2.coords tLast) 0 = 1 from by decide +kernel]; omega
      | ⟨1, _⟩ => show win2_5.index tLast 1 * win2_5.size 1 ≤ (i 1 : Nat) ∧ (i 1 : Nat) < win2_5.index tLast 1 * win2_5.size 1 + win2_5.xsize (grid2.coords tLast) 1
                  rw [show win2_5.index tLast 1 * win2_5.size 1 = 0 from by decide +kernel, show win2_5.xsize (grid2.coords tLast) 1 = 256 from by decide +kernel]; omega⟩

/-- The same for the column sums of squares. -/
theorem final6_block (c : Dev nD) : (dat2 V c).arrAt 6 cfg2.N = result6 V c :=
  (dat2 V c).arrAt_eq_of_cover 6 (result6 V c) (flushed6_eq V c) fun i =>
    ⟨tLast, (flush2_6 tLast).mpr rfl, by
      show i ∈ ((View.whole main_v61_2).slice (win2_6.rect tLast)).set
      rw [View.set_slice_whole, Rect.mem_set_unit]
      intro a
      have h0 : (i 0 : Nat) < 1 := (i 0).isLt
      have h1 : (i 1 : Nat) < 256 := (i 1).isLt
      match a with
      | ⟨0, _⟩ => show win2_6.index tLast 0 * win2_6.size 0 ≤ (i 0 : Nat) ∧ (i 0 : Nat) < win2_6.index tLast 0 * win2_6.size 0 + win2_6.xsize (grid2.coords tLast) 0
                  rw [show win2_6.index tLast 0 * win2_6.size 0 = 0 from by decide +kernel, show win2_6.xsize (grid2.coords tLast) 0 = 1 from by decide +kernel]; omega
      | ⟨1, _⟩ => show win2_6.index tLast 1 * win2_6.size 1 ≤ (i 1 : Nat) ∧ (i 1 : Nat) < win2_6.index tLast 1 * win2_6.size 1 + win2_6.xsize (grid2.coords tLast) 1
                  rw [show win2_6.index tLast 1 * win2_6.size 1 = 0 from by decide +kernel, show win2_6.xsize (grid2.coords tLast) 1 = 256 from by decide +kernel]; omega⟩

/-- The array of column sums after the run: the sums of h over all 90000 rows. -/
theorem final2_5 (c : Dev nD) : (dat2 V c).arrAt 5 cfg2.N
    = colSum (lin1 (V c (Pipeline.arrRef spec2 0)) (V c (Pipeline.arrRef spec2 1)) (V c (Pipeline.arrRef spec2 2)) (V c (Pipeline.arrRef spec2 3))) := by
  refine (final5_block V c).trans ?_
  funext i
  obtain ⟨z, q, rfl⟩ : ∃ (z : Fin 1) (q : Fin 256), i = ix2 z q := ⟨i 0, i 1, eq_ix2 (n0 := 1) (n1 := 256) i⟩
  refine Eq.trans ?_ (colSum_apply (hOf V c) z q).symm
  exact (outs5_inv V c 24 tLast.isLt z q).trans (sum_blockSum (fun r => hOf V c (ix2 r q)))

/-- The array of column sums of squares after the run: the sums of h·h over all 90000 rows. -/
theorem final2_6 (c : Dev nD) : (dat2 V c).arrAt 6 cfg2.N
    = colSumSq (lin1 (V c (Pipeline.arrRef spec2 0)) (V c (Pipeline.arrRef spec2 1)) (V c (Pipeline.arrRef spec2 2)) (V c (Pipeline.arrRef spec2 3))) := by
  refine (final6_block V c).trans ?_
  funext i
  obtain ⟨z, q, rfl⟩ : ∃ (z : Fin 1) (q : Fin 256), i = ix2 z q := ⟨i 0, i 1, eq_ix2 (n0 := 1) (n1 := 256) i⟩
  refine Eq.trans ?_ (colSumSq_apply (hOf V c) z q).symm
  exact (outs6_inv V c 24 tLast.isLt z q).trans (sum_blockSum (fun r => hOf V c (ix2 r q) * hOf V c (ix2 r q)))

end Cert.KernelIdeal.Region2

end
-- ==== Proof.Region3Payload.lean ====
/-
  One entry of what the body of kernel region 3 computes from the blocks it loads, and the same for a block of rows of
  the whole arrays.

  The body takes a block X of 3600 rows of h (256 columns), the rows μ, v, γ, β (one row of 256 columns each), the
  weights W (256 × 128) and the row b (128 columns), and forms
      out[r, j] = Σ_k act(((X[r, k] − μ[0, k]) · rsqrt(v[0, k] + ε)) · γ[0, k] + β[0, k]) · W[k, j] + b[0, j],
  with act = max(·, 0): the normalisation is pointwise in (r, k) once the four rows are read at their one row, the
  product with W accumulates into the zero array, so it is the bare sum over k, and b is added at column j.
  Row r of the result depends on row r of X only. Hence, when X is rows q·3600 … q·3600 + 3599 of a 90000-row array A,
  entry (r, j) of the result is entry (q·3600 + r, j) of the closed form `Cert.LayerSpec.norm2 true` of A.
-/
import proofs.«117235_j17583596110491_1_alg».proof.Proof.Gen.KernelIdeal.Skeleton
import proofs.«117235_j17583596110491_1_alg».proof.Proof.LayerSpec
import proofs.«117235_j17583596110491_1_alg».proof.Proof.LibNormMatmul

noncomputable section

open scoped BigOperators

namespace Cert.KernelIdeal.Region3

open Idealize.ShloMosaic Idealize.ShloMosaic.ValueIdx
open Cert.KernelIdeal Cert.KernelIdeal.Gen Cert.LibNormMatmul Cert.LayerSpec

/-- The body's result at entry (r, j), as a sum over the 256 columns of the loaded block of h. -/
theorem pay_apply (x0 : Vec Ideal S3600x256 .f32) (x1 x2 x3 x4 : Vec Ideal S1x256 .f32) (x5 : Vec Ideal S256x128 .f32)
    (x6 : Vec Ideal S1x128 .f32) (r : Fin 3600) (j : Fin 128) :
    k3_pay1 (F := Ideal) x0 x1 x2 x3 x4 x5 x6 (ix2 r j)
      = (∑ k : Fin 256, max (((x0 (ix2 r k) - x1 (ix2 (0 : Fin 1) k)) * Ideal.rsqrt (x2 (ix2 (0 : Fin 1) k) + Ideal.ofBits .f32 0x3727C5AC#32))
            * x3 (ix2 (0 : Fin 1) k) + x4 (ix2 (0 : Fin 1) k)) 0 * x5 (ix2 k j)) + x6 (ix2 (0 : Fin 1) j) := by
  unfold k3_pay1
  simp only [shapeCast_self]
  refine (addf_apply _ _ _).trans ?_
  refine congrArg₂ (· + ·) ?_ (broadcastTo_1b_ab_apply x6 _ r j)
  refine (matmul_zero_apply _ none _ x5 r j).trans ?_
  refine Finset.sum_congr rfl fun k _ => ?_
  refine congrArg (· * x5 (ix2 k j)) ?_
  refine (maximumf_apply _ _ _).trans ?_
  exact congrArg₂ max (norm_affine_apply x0 x1 x2 x3 x4 _ _ r k) Ideal.ofBits_zero_f32

/-- Row r of the result computed from rows q·3600 … of A is row q·3600 + r of the closed form of A. -/
theorem pay_rows (A0 : Arr 90000 256) (A1 A2 A3 A4 : Arr 1 256) (A5 : Arr 256 128) (A6 : Arr 1 128)
    (x0 : Vec Ideal S3600x256 .f32) (q : ℕ)
    (h0 : ∀ (r : Fin 3600) (k : Fin 256) (n : Fin 90000), n.val = q * 3600 + r.val → x0 (ix2 r k) = A0 (ix2 n k))
    (r : Fin 3600) (j : Fin 128) (n : Fin 90000) (hn : n.val = q * 3600 + r.val) :
    k3_pay1 (F := Ideal) x0 A1 A2 A3 A4 A5 A6 (ix2 r j) = norm2 true A0 A1 A2 A3 A4 A5 A6 (ix2 n j) := by
  rw [pay_apply, norm2_apply]
  unfold norm2At
  refine congrArg (· + A6 (ix2 0 j)) (Finset.sum_congr rfl fun k _ => ?_)
  rw [h0 r k n hn]
  rfl

/-- The same at any index y of the block and any index i of the array with i = (q·3600 + y₀, y₁), the six whole-array
    inputs given by equations. -/
theorem pay_block (A0 : Arr 90000 256) (A1 A2 A3 A4 : Arr 1 256) (A5 : Arr 256 128) (A6 : Arr 1 128)
    (x0 : Vec Ideal S3600x256 .f32) (x1 x2 x3 x4 : Vec Ideal S1x256 .f32) (x5 : Vec Ideal S256x128 .f32)
    (x6 : Vec Ideal S1x128 .f32) (q : ℕ)
    (h0 : ∀ (r : Fin 3600) (k : Fin 256) (n : Fin 90000), n.val = q * 3600 + r.val → x0 (ix2 r k) = A0 (ix2 n k))
    (h1 : x1 = A1) (h2 : x2 = A2) (h3 : x3 = A3) (h4 : x4 = A4) (h5 : x5 = A5) (h6 : x6 = A6)
    (y : S3600x128.Idx) (i : S90000x128.Idx)
    (hi0 : (i 0).val = q * 3600 + (y 0).val) (hi1 : (i 1).val = (y 1).val) :
    k3_pay1 (F := Ideal) x0 x1 x2 x3 x4 x5 x6 y = norm2 true A0 A1 A2 A3 A4 A5 A6 i := by
  subst h1 h2 h3 h4 h5 h6
  obtain ⟨r, j, rfl⟩ : ∃ (r : Fin 3600) (j : Fin 128), y = ix2 r j := ⟨y 0, y 1, eq_ix2 y⟩
  obtain ⟨n, j', rfl⟩ : ∃ (n : Fin 90000) (j' : Fin 128), i = ix2 n j' := ⟨i 0, i 1, eq_ix2 i⟩
  obtain rfl : j' = j := Fin.ext hi1
  exact pay_rows A0 x1 x2 x3 x4 x5 x6 x0 q h0 r j' n hi0

end Cert.KernelIdeal.Region3

end
-- ==== Proof.Region3.lean ====
/-
  Kernel region 3 read as one array: after its 25 grid points the region's output array is the closed form
  `Cert.LayerSpec.norm2 true` of the seven arrays the region finds.

  Point t of the grid loads rows 3600·t … 3600·t + 3599 of h (window 0, block index (t, 0)) and the whole of the six
  small arrays μ, v, γ, β, W, b (windows 1–6, block index (0, 0), blocks of the arrays' own extents), and writes back rows
  3600·t … 3600·t + 3599 of the output (window 7, block index (t, 0)). A block's element with coordinates (y₀, y₁) sits in
  its array at (block index₀ · block rows + y₀, block index₁ · block columns + y₁). What point t writes back is the
  body's result on those blocks, and that is rows 3600·t … of the closed form, because row n of the closed form depends on
  row n of h only. Row n of the output is covered by point n / 3600, so the 25 write-backs fill the array.
-/
import proofs.«117235_j17583596110491_1_alg».proof.Proof.Gen.KernelIdeal.Frame
import proofs.«117235_j17583596110491_1_alg».proof.Proof.Region3Payload
import proofs.«117235_j17583596110491_1_alg».proof.Proof.LibWholeRect
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.LayerSpec Cert.LibWholeRect

variable (V : (c : Dev nD) → (b : Ref sig .tc) → Buf (Elt Ideal) ((c : Thread nD τ).loc b))

/-- The closed form of the region's output: the normalised second affine map of the seven arrays the region finds. -/
abbrev closed (c : Dev nD) : Arr 90000 128 :=
  norm2 true (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))

/-- The block indices at every point of the grid: windows 0 and 7 are at block (t, 0), windows 1–6 at block (0, 0). -/
theorem idx_facts : ∀ t : Fin cfg3.N,
    win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Window 0's block at point t is rows (block index of the output)·3600 … of h: entry (r, k) of the block is entry
    (n, k) of the array for n = index · 3600 + r. -/
theorem iblk0_apply (c : Dev nD) (t : Fin cfg3.N) (r : Fin 3600) (k : Fin 256) (n : Fin 90000)
    (hn : n.val = win3_7.index t (0 : Fin 2) * 3600 + r.val) :
    (iblk3 V c 0 t : Vec Ideal S3600x256 .f32) (ix2 r k) = (V c (Pipeline.arrRef spec3 0) : Arr 90000 256) (ix2 n k) := by
  obtain ⟨e00, e01, e70, e71, e10, e11, e20, e21, e30, e31, e40, e41, e50, e51, e60, e61⟩ := idx_facts t
  unfold iblk3
  rw [View.read_apply]
  show (V c (Pipeline.arrRef spec3 0) : Arr 90000 256) (((cfg3.win 0).blk t).view.emb (ix2 r k)) = _
  have h : ((cfg3.win 0).blk t).view.emb (ix2 r k) = (ix2 n k : S90000x256.Idx) := by
    funext a; apply Fin.ext
    match a with
    | ⟨0, _⟩ => show win3_0.index t (0 : Fin 2) * 3600 + 1 * r.val = n.val; omega
    | ⟨1, _⟩ => show win3_0.index t (1 : Fin 2) * 256 + 1 * k.val = k.val; omega
  rw [h]

/-- Window 1's block at every point is its whole array: the block index is (0, 0) and the block has the array's extents. -/
theorem iblk_whole1 (c : Dev nD) (t : Fin cfg3.N) :
    (iblk3 V c 1 t : Vec Ideal S1x256 .f32) = (V c (Pipeline.arrRef spec3 1) : Arr 1 256) := by
  obtain ⟨e00, e01, e70, e71, e10, e11, e20, e21, e30, e31, e40, e41, e50, e51, e60, e61⟩ := idx_facts t
  funext y
  unfold iblk3
  rw [View.read_apply]
  show (V c (Pipeline.arrRef spec3 1) : Arr 1 256) (((cfg3.win 1).blk t).view.emb y) = _
  have h : ((cfg3.win 1).blk t).view.emb y = y := by
    funext a; apply Fin.ext
    match a with
    | ⟨0, _⟩ => show win3_1.index t (0 : Fin 2) * 1 + 1 * (y 0).val = (y 0).val; omega
    | ⟨1, _⟩ => show win3_1.index t (1 : Fin 2) * 256 + 1 * (y 1).val = (y 1).val; omega
  rw [h]

/-- Window 2's block at every point is its whole array: the block index is (0, 0) and the block has the array's extents. -/
theorem iblk_whole2 (c : Dev nD) (t : Fin cfg3.N) :
    (iblk3 V c 2 t : Vec Ideal S1x256 .f32) = (V c (Pipeline.arrRef spec3 2) : Arr 1 256) := by
  obtain ⟨e00, e01, e70, e71, e10, e11, e20, e21, e30, e31, e40, e41, e50, e51, e60, e61⟩ := idx_facts t
  funext y
  unfold iblk3
  rw [View.read_apply]
  show (V c (Pipeline.arrRef spec3 2) : Arr 1 256) (((cfg3.win 2).blk t).view.emb y) = _
  have h : ((cfg3.win 2).blk t).view.emb y = y := by
    funext a; apply Fin.ext
    match a with
    | ⟨0, _⟩ => show win3_2.index t (0 : Fin 2) * 1 + 1 * (y 0).val = (y 0).val; omega
    | ⟨1, _⟩ => show win3_2.index t (1 : Fin 2) * 256 + 1 * (y 1).val = (y 1).val; omega
  rw [h]

/-- Window 3's block at every point is its whole array: the block index is (0, 0) and the block has the array's extents. -/
theorem iblk_whole3 (c : Dev nD) (t : Fin cfg3.N) :
    (iblk3 V c 3 t : Vec Ideal S1x256 .f32) = (V c (Pipeline.arrRef spec3 3) : Arr 1 256) := by
  obtain ⟨e00, e01, e70, e71, e10, e11, e20, e21, e30, e31, e40, e41, e50, e51, e60, e61⟩ := idx_facts t
  funext y
  unfold iblk3
  rw [View.read_apply]
  show (V c (Pipeline.arrRef spec3 3) : Arr 1 256) (((cfg3.win 3).blk t).view.emb y) = _
  have h : ((cfg3.win 3).blk t).view.emb y = y := by
    funext a; apply Fin.ext
    match a with
    | ⟨0, _⟩ => show win3_3.index t (0 : Fin 2) * 1 + 1 * (y 0).val = (y 0).val; omega
    | ⟨1, _⟩ => show win3_3.index t (1 : Fin 2) * 256 + 1 * (y 1).val = (y 1).val; omega
  rw [h]

/-- Window 4's block at every point is its whole array: the block index is (0, 0) and the block has the array's extents. -/
theorem iblk_whole4 (c : Dev nD) (t : Fin cfg3.N) :
    (iblk3 V c 4 t : Vec Ideal S1x256 .f32) = (V c (Pipeline.arrRef spec3 4) : Arr 1 256) := by
  obtain ⟨e00, e01, e70, e71, e10, e11, e20, e21, e30, e31, e40, e41, e50, e51, e60, e61⟩ := idx_facts t
  funext y
  unfold iblk3
  rw [View.read_apply]
  show (V c (Pipeline.arrRef spec3 4) : Arr 1 256) (((cfg3.win 4).blk t).view.emb y) = _
  have h : ((cfg3.win 4).blk t).view.emb y = y := by
    funext a; apply Fin.ext
    match a with
    | ⟨0, _⟩ => show win3_4.index t (0 : Fin 2) * 1 + 1 * (y 0).val = (y 0).val; omega
    | ⟨1, _⟩ => show win3_4.index t (1 : Fin 2) * 256 + 1 * (y 1).val = (y 1).val; omega
  rw [h]

/-- Window 5's block at every point is its whole array: the block index is (0, 0) and the block has the array's extents. -/
theorem iblk_whole5 (c : Dev nD) (t : Fin cfg3.N) :
    (iblk3 V c 5 t : Vec Ideal S256x128 .f32) = (V c (Pipeline.arrRef spec3 5) : Arr 256 128) := by
  obtain ⟨e00, e01, e70, e71, e10, e11, e20, e21, e30, e31, e40, e41, e50, e51, e60, e61⟩ := idx_facts t
  funext y
  unfold iblk3
  rw [View.read_apply]
  show (V c (Pipeline.arrRef spec3 5) : Arr 256 128) (((cfg3.win 5).blk t).view.emb y) = _
  have h : ((cfg3.win 5).blk t).view.emb y = y := by
    funext a; apply Fin.ext
    match a with
    | ⟨0, _⟩ => show win3_5.index t (0 : Fin 2) * 256 + 1 * (y 0).val = (y 0).val; omega
    | ⟨1, _⟩ => show win3_5.index t (1 : Fin 2) * 128 + 1 * (y 1).val = (y 1).val; omega
  rw [h]

/-- Window 6's block at every point is its whole array: the block index is (0, 0) and the block has the array's extents. -/
theorem iblk_whole6 (c : Dev nD) (t : Fin cfg3.N) :
    (iblk3 V c 6 t : Vec Ideal S1x128 .f32) = (V c (Pipeline.arrRef spec3 6) : Arr 1 128) := by
  obtain ⟨e00, e01, e70, e71, e10, e11, e20, e21, e30, e31, e40, e41, e50, e51, e60, e61⟩ := idx_facts t
  funext y
  unfold iblk3
  rw [View.read_apply]
  show (V c (Pipeline.arrRef spec3 6) : Arr 1 128) (((cfg3.win 6).blk t).view.emb y) = _
  have h : ((cfg3.win 6).blk t).view.emb y = y := by
    funext a; apply Fin.ext
    match a with
    | ⟨0, _⟩ => show win3_6.index t (0 : Fin 2) * 1 + 1 * (y 0).val = (y 0).val; omega
    | ⟨1, _⟩ => show win3_6.index t (1 : Fin 2) * 128 + 1 * (y 1).val = (y 1).val; omega
  rw [h]

/-- WHAT POINT t WRITES BACK is block t of the closed form: the body's result on the blocks point t loads is rows
    3600·t … 3600·t + 3599 of the closed form. -/
theorem flushed7_eq (c : Dev nD) (t : Fin cfg3.N) :
    (dat3 V c).flushed 7 t = ((cfg3.win 7).blk t).view.read (Elt Ideal) (closed V c) := by
  show (cfg3.win 7).cut (grid3.coords t) ((dat3 V c).after 7 t) = _
  rw [after3_7]
  unfold out3_7
  rw [View.canon_unit_zero hz2]
  simp only [View.ld_unit_zero (S := S3600x256) hz2, View.ld_unit_zero (S := S1x256) hz2,
    View.ld_unit_zero (S := S256x128) hz2, View.ld_unit_zero (S := S1x128) hz2]
  obtain ⟨e00, e01, e70, e71, e10, e11, e20, e21, e30, e31, e40, e41, e50, e51, e60, e61⟩ := idx_facts t
  refine funext fun (y : S3600x128.Idx) => ?_
  refine pay_block (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))
    (iblk3 V c 0 t) (iblk3 V c 1 t) (iblk3 V c 2 t) (iblk3 V c 3 t) (iblk3 V c 4 t) (iblk3 V c 5 t) (iblk3 V c 6 t)
    (win3_7.index t (0 : Fin 2)) (fun r k n hn => iblk0_apply V c t r k n hn)
    (iblk_whole1 V c t) (iblk_whole2 V c t) (iblk_whole3 V c t) (iblk_whole4 V c t) (iblk_whole5 V c t) (iblk_whole6 V c t)
    y (((cfg3.win 7).blk t).view.emb y) ?_ ?_
  · show win3_7.index t (0 : Fin 2) * 3600 + 1 * (y 0).val = win3_7.index t (0 : Fin 2) * 3600 + (y 0).val
    omega
  · show win3_7.index t (1 : Fin 2) * 128 + 1 * (y 1).val = (y 1).val
    omega

/-- An index of the output array is in point t's block iff each coordinate is in the block's range on its axis. -/
theorem mem_blk7 (t : Fin cfg3.N) (i : S90000x128.Idx) :
    i ∈ ((cfg3.win 7).blk t).view.set ↔ ∀ a : Fin 2, win3_7.index t a * S3600x128.size a ≤ (i a).val
      ∧ (i a).val < win3_7.index t a * S3600x128.size a + S3600x128.size a := by
  show i ∈ ((View.whole main_v71).slice (win3_7.rect t)).set ↔ _
  rw [View.set_slice_whole, Rect.mem_set_unit]
  exact Iff.rfl

/-- Every index of the output array is in the block of a point that writes back: row n is in point n / 3600's. -/
theorem cover7 (i : S90000x128.Idx) :
    ∃ t : Fin cfg3.N, (cfg3.win 7).flush t = true ∧ i ∈ ((cfg3.win 7).blk t).view.set := by
  have hi0 : (i 0).val < 90000 := (i 0).isLt
  have hi1 : (i 1).val < 128 := (i 1).isLt
  have hlt : (i 0).val / 3600 < cfg3.N := Nat.lt_of_lt_of_eq (by omega : (i 0).val / 3600 < 25) N_3.symm
  obtain ⟨t, ht⟩ : ∃ t : Fin cfg3.N, t.val = (i 0).val / 3600 := ⟨⟨(i 0).val / 3600, hlt⟩, rfl⟩
  obtain ⟨e00, e01, e70, e71, e10, e11, e20, e21, e30, e31, e40, e41, e50, e51, e60, e61⟩ := idx_facts t
  refine ⟨t, flush3_7 t, ?_⟩
  rw [mem_blk7]
  intro a
  match a with
  | ⟨0, _⟩ =>
    show win3_7.index t (0 : Fin 2) * 3600 ≤ (i 0).val ∧ (i 0).val < win3_7.index t (0 : Fin 2) * 3600 + 3600
    omega
  | ⟨1, _⟩ =>
    show win3_7.index t (1 : Fin 2) * 128 ≤ (i 1).val ∧ (i 1).val < win3_7.index t (1 : Fin 2) * 128 + 128
    omega

/-- THE OUTPUT ARRAY after the region's 25 points is the closed form of the arrays the region finds. -/
theorem final3_7 (c : Dev nD) :
    (dat3 V c).arrAt 7 cfg3.N = norm2 true (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 V c).arrAt_eq_of_cover 7 (closed V c) (fun t _ => flushed7_eq V c t) (cover7)

end Cert.KernelIdeal.Region3

end
-- ==== Proof.KernelLayer2b.lean ====
/-
  The idealized kernel program's second layer, second half, read through its run.

  After the layer's statistics kernel the host divides the column sums by the row count (the mean row), forms mean of
  squares minus the squared mean (the variance row), and reshapes the scale, shift and second bias to one row each.
  The layer's normalising kernel finds these with h and the second weight, and leaves the normalised second affine map with the activation max(·, 0):
  so the layer's output buffer holds the specification's norm2 of what the statistics kernel and the host stretch
  before it left.
-/
import proofs.«117235_j17583596110491_1_alg».proof.Proof.Gen.KernelIdeal.Frame
import proofs.«117235_j17583596110491_1_alg».proof.Proof.LayerSpec
import proofs.«117235_j17583596110491_1_alg».proof.Proof.LayerBridge
import proofs.«117235_j17583596110491_1_alg».proof.Proof.RefLayer
import proofs.«117235_j17583596110491_1_alg».proof.Proof.KernelGlue
import proofs.«117235_j17583596110491_1_alg».proof.Proof.Region3
import Idealize.ShloMosaic.Lib.StableHlo.Run

set_option maxRecDepth 16384

noncomputable section

namespace Cert.KernelIdeal.KLayer2

open Cert.KernelIdeal Cert.KernelIdeal.Gen
open Idealize.ShloMosaic Idealize.ShloMosaic.TcCoe Idealize.ShloMosaic.ValueIdx Idealize.SL.Sem Idealize.ShloMosaic.StableHlo
open Cert.LayerSpec Cert.LayerBridge Cert.RefLayer Cert.KernelGlue

variable (m : (ℓ : Loc nD τ sig) → Buf (Elt Ideal) ℓ) (ρ : Dev nD → PrngReg)

/-- No operation of the host stretch writes h: it keeps its contents through the stretch. -/
theorem in0 (c : Dev nD) : W7 m ρ c (Proc.devRef .tc main_v61_0) = W6 m ρ c (Proc.devRef .tc main_v61_0) := by
  exact StableHlo.after_of_forall_not_mem _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation of the host stretch writes the second weight: it keeps its contents through the stretch. -/
theorem in5 (c : Dev nD) : W7 m ρ c (Proc.devRef .tc main_v47) = W6 m ρ c (Proc.devRef .tc main_v47) := by
  exact StableHlo.after_of_forall_not_mem _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The mean row: the column sums divided by the row count. -/
theorem in1 (c : Dev nD) : W7 m ρ c (Proc.devRef .tc main_v63) = meanK (W6 m ρ c (Proc.devRef .tc main_v61_1)) := by
  show StableHlo.after hostOps3 (W6 m ρ c) (Proc.devRef .tc main_v63) = _
  after_results
  exact meanRow_eq _ _

/-- The variance row: the mean of squares minus the squared mean. -/
theorem in2 (c : Dev nD) :
    W7 m ρ c (Proc.devRef .tc main_v67) = varK (W6 m ρ c (Proc.devRef .tc main_v61_1)) (W6 m ρ c (Proc.devRef .tc main_v61_2)) := by
  show StableHlo.after hostOps3 (W6 m ρ c) (Proc.devRef .tc main_v67) = _
  after_results
  exact varRow_eq _ _ _ _

/-- The scale vector as one row. -/
theorem in3 (c : Dev nD) : W7 m ρ c (Proc.devRef .tc main_v68) = rowOf (W6 m ρ c (Proc.devRef .tc main_v43)) := by
  show StableHlo.after hostOps3 (W6 m ρ c) (Proc.devRef .tc main_v68) = _
  after_results
  exact rowCast_eq _ _

/-- The shift vector as one row. -/
theorem in4 (c : Dev nD) : W7 m ρ c (Proc.devRef .tc main_v69) = rowOf (W6 m ρ c (Proc.devRef .tc main_v45)) := by
  show StableHlo.after hostOps3 (W6 m ρ c) (Proc.devRef .tc main_v69) = _
  after_results
  exact rowCast_eq _ _

/-- The second bias vector as one row. -/
theorem in6 (c : Dev nD) : W7 m ρ c (Proc.devRef .tc main_v70) = rowOf (W6 m ρ c (Proc.devRef .tc main_v49)) := by
  show StableHlo.after hostOps3 (W6 m ρ c) (Proc.devRef .tc main_v70) = _
  after_results
  exact rowCast_eq _ _

/-- The second layer's output buffer after its normalising kernel. -/
theorem out_eq (c : Dev nD) :
    W8 m ρ c (Proc.devRef .tc main_v71)
      = norm2 true (W6 m ρ c (Proc.devRef .tc main_v61_0)) (meanK (W6 m ρ c (Proc.devRef .tc main_v61_1)))
          (varK (W6 m ρ c (Proc.devRef .tc main_v61_1)) (W6 m ρ c (Proc.devRef .tc main_v61_2)))
          (rowOf (W6 m ρ c (Proc.devRef .tc main_v43))) (rowOf (W6 m ρ c (Proc.devRef .tc main_v45)))
          (W6 m ρ c (Proc.devRef .tc main_v47)) (rowOf (W6 m ρ c (Proc.devRef .tc main_v49))) := by
  refine ((W8_arr m ρ c 7).trans (Cert.KernelIdeal.Region3.final3_7 (V7 m ρ) c)).trans ?_
  show norm2 true (W7 m ρ c (Proc.devRef .tc main_v61_0)) (W7 m ρ c (Proc.devRef .tc main_v63)) (W7 m ρ c (Proc.devRef .tc main_v67))
    (W7 m ρ c (Proc.devRef .tc main_v68)) (W7 m ρ c (Proc.devRef .tc main_v69)) (W7 m ρ c (Proc.devRef .tc main_v47))
    (W7 m ρ c (Proc.devRef .tc main_v70)) = _
  rw [in0, in1, in2, in3, in4, in5, in6]

end Cert.KernelIdeal.KLayer2

end
-- ==== Proof.KernelLayer2a.lean ====
/-
  The idealized kernel program's second layer, read through its run.

  The layer's statistics kernel finds x (the layer before's output), the aggregated neighbours, the first weight and the
  bias row, and leaves h = (x + agg)·W₁ + b₁ with its column sums and column sums of squares.  The host then divides
  the sums by the row count (the mean row and the variance row) and reshapes the scale, shift and second bias to one
  row each.  The normalising kernel finds these and leaves the normalised second affine map.  So the layer's output
  buffer holds the specification's layer of the buffers the host stretch before the statistics kernel computed.
-/
import proofs.«117235_j17583596110491_1_alg».proof.Proof.Gen.KernelIdeal.Frame
import proofs.«117235_j17583596110491_1_alg».proof.Proof.LayerSpec
import proofs.«117235_j17583596110491_1_alg».proof.Proof.LayerBridge
import proofs.«117235_j17583596110491_1_alg».proof.Proof.RefLayer
import proofs.«117235_j17583596110491_1_alg».proof.Proof.KernelGlue
import proofs.«117235_j17583596110491_1_alg».proof.Proof.Region2Value
import proofs.«117235_j17583596110491_1_alg».proof.Proof.KernelLayer2b
import Idealize.ShloMosaic.Lib.StableHlo.Run

set_option maxRecDepth 16384

noncomputable section

namespace Cert.KernelIdeal.KLayer2

open Cert.KernelIdeal Cert.KernelIdeal.Gen
open Idealize.ShloMosaic Idealize.ShloMosaic.TcCoe Idealize.ShloMosaic.ValueIdx Idealize.SL.Sem Idealize.ShloMosaic.StableHlo
open Cert.LayerSpec Cert.LayerBridge Cert.RefLayer Cert.KernelGlue

variable (m : (ℓ : Loc nD τ sig) → Buf (Elt Ideal) ℓ) (ρ : Dev nD → PrngReg)

/-- h after the statistics kernel: the first affine map of what the host stretch before it left. -/
theorem h_eq (c : Dev nD) :
    W6 m ρ c (Proc.devRef .tc main_v61_0)
      = lin1 (W5 m ρ c (Proc.devRef .tc main_v37)) (W5 m ρ c (Proc.devRef .tc main_v59)) (W5 m ρ c (Proc.devRef .tc main_v39))
          (W5 m ρ c (Proc.devRef .tc main_v60)) :=
  (W6_arr m ρ c 4).trans (Cert.KernelIdeal.Region2.final2_4 (V5 m ρ) c)

/-- The column sums after the statistics kernel. -/
theorem s_eq (c : Dev nD) :
    W6 m ρ c (Proc.devRef .tc main_v61_1)
      = colSum (lin1 (W5 m ρ c (Proc.devRef .tc main_v37)) (W5 m ρ c (Proc.devRef .tc main_v59)) (W5 m ρ c (Proc.devRef .tc main_v39))
          (W5 m ρ c (Proc.devRef .tc main_v60))) :=
  (W6_arr m ρ c 5).trans (Cert.KernelIdeal.Region2.final2_5 (V5 m ρ) c)

/-- The column sums of squares after the statistics kernel. -/
theorem ss_eq (c : Dev nD) :
    W6 m ρ c (Proc.devRef .tc main_v61_2)
      = colSumSq (lin1 (W5 m ρ c (Proc.devRef .tc main_v37)) (W5 m ρ c (Proc.devRef .tc main_v59)) (W5 m ρ c (Proc.devRef .tc main_v39))
          (W5 m ρ c (Proc.devRef .tc main_v60))) :=
  (W6_arr m ρ c 6).trans (Cert.KernelIdeal.Region2.final2_6 (V5 m ρ) c)

/-- Buffers the statistics kernel does not touch keep their contents through it. -/
theorem keep43 (c : Dev nD) : W6 m ρ c (Proc.devRef .tc main_v43) = W5 m ρ c (Proc.devRef .tc main_v43) := W6_of_ne m ρ c main_v43 (by decide)
theorem keep45 (c : Dev nD) : W6 m ρ c (Proc.devRef .tc main_v45) = W5 m ρ c (Proc.devRef .tc main_v45) := W6_of_ne m ρ c main_v45 (by decide)
theorem keep47 (c : Dev nD) : W6 m ρ c (Proc.devRef .tc main_v47) = W5 m ρ c (Proc.devRef .tc main_v47) := W6_of_ne m ρ c main_v47 (by decide)
theorem keep49 (c : Dev nD) : W6 m ρ c (Proc.devRef .tc main_v49) = W5 m ρ c (Proc.devRef .tc main_v49) := W6_of_ne m ρ c main_v49 (by decide)

set_option maxHeartbeats 2000000 in
/-- The first bias as the statistics kernel finds it is the bias vector as one row. -/
theorem b1row (c : Dev nD) : W5 m ρ c (Proc.devRef .tc main_v60) = rowOf (W5 m ρ c (Proc.devRef .tc main_v41)) := by
  show StableHlo.after hostOps2 (W4 m ρ c) (Proc.devRef .tc main_v60) = rowOf (StableHlo.after hostOps2 (W4 m ρ c) (Proc.devRef .tc main_v41))
  after_results_simp
  exact rowCast_eq _ _

/-- THE KERNEL PROGRAM'S SECOND LAYER: its output buffer holds the specification's layer of what the host stretch
    before the layer's statistics kernel left. -/
theorem layer2 (c : Dev nD) :
    W8 m ρ c (Proc.devRef .tc main_v71)
      = norm2 true
          (lin1 (W5 m ρ c (Proc.devRef .tc main_v37)) (W5 m ρ c (Proc.devRef .tc main_v59)) (W5 m ρ c (Proc.devRef .tc main_v39))
          (rowOf (W5 m ρ c (Proc.devRef .tc main_v41))))
          (meanK (colSum (lin1 (W5 m ρ c (Proc.devRef .tc main_v37)) (W5 m ρ c (Proc.devRef .tc main_v59)) (W5 m ρ c (Proc.devRef .tc main_v39))
          (rowOf (W5 m ρ c (Proc.devRef .tc main_v41))))))
          (varK (colSum (lin1 (W5 m ρ c (Proc.devRef .tc main_v37)) (W5 m ρ c (Proc.devRef .tc main_v59)) (W5 m ρ c (Proc.devRef .tc main_v39))
          (rowOf (W5 m ρ c (Proc.devRef .tc main_v41)))))
            (colSumSq (lin1 (W5 m ρ c (Proc.devRef .tc main_v37)) (W5 m ρ c (Proc.devRef .tc main_v59)) (W5 m ρ c (Proc.devRef .tc main_v39))
          (rowOf (W5 m ρ c (Proc.devRef .tc main_v41))))))
          (rowOf (W5 m ρ c (Proc.devRef .tc main_v43))) (rowOf (W5 m ρ c (Proc.devRef .tc main_v45)))
          (W5 m ρ c (Proc.devRef .tc main_v47)) (rowOf (W5 m ρ c (Proc.devRef .tc main_v49))) := by
  rw [out_eq, h_eq, s_eq, ss_eq, keep43, keep45, keep47, keep49, b1row]

end Cert.KernelIdeal.KLayer2

end
-- ==== Proof.RefLayer2.lean ====
/-
  The reference's second layer, read through its run.

  The second window's first two operations finish the first layer (the broadcast of b₂ down the rows and the sum).
  Its next 25 slice the second layer's parameters out of the stacked arrays and aggregate the neighbours of the first
  layer's output (a clamped gather and a scatter-add); its last 56 are the layer itself: x + agg, the first affine map,
  the column means, the variance function, the normalisation, the activation max(·, 0) and the second affine map.  So
  the layer's output buffer holds the printed layer of what those 25 operations left, and no later window writes it.
-/
import proofs.«117235_j17583596110491_1_alg».proof.Proof.RefRun
import proofs.«117235_j17583596110491_1_alg».proof.Proof.RefLayer
import Idealize.ShloMosaic.Lib.StableHlo.Run

set_option maxRecDepth 65536

noncomputable section

namespace Cert.ReferenceIdeal.RLayer2

open Cert.ReferenceIdeal Cert.ReferenceIdeal.Gen Cert.ReferenceIdeal.RefRun
open Idealize.ShloMosaic Idealize.ShloMosaic.TcCoe Idealize.SL.Sem Idealize.ShloMosaic.StableHlo
open Cert.RefLayer

/-- The end of the first layer inside the second window: its last broadcast and its last sum. -/
abbrev pre2 : List (HloOp τ sig (Elt Ideal)) := (ops1 (F := Ideal)).take 2
/-- The operations before the second layer proper: the slices of its parameters and the aggregation. -/
abbrev chain2 : List (HloOp τ sig (Elt Ideal)) := ((ops1 (F := Ideal)).drop 2).take 25
/-- The second layer's own operations: the rest of the second window. -/
abbrev core2 : List (HloOp τ sig (Elt Ideal)) := (ops1 (F := Ideal)).drop 27

/-- The second window is the three stretches one after the other. -/
theorem ops1_split : (ops1 (F := Ideal)) = pre2 ++ (chain2 ++ core2) := by
  have h : core2 = ((ops1 (F := Ideal)).drop 2).drop 25 := by
    show (ops1 (F := Ideal)).drop 27 = _
    rw [List.drop_drop]
  rw [h, List.take_append_drop, List.take_append_drop]

theorem after_ops1 (V : Valuation τ sig (Elt Ideal)) :
    after (ops1 (F := Ideal)) V = after core2 (after chain2 (after pre2 V)) := by
  rw [← StableHlo.after_append chain2 core2, ← StableHlo.after_append pre2 (chain2 ++ core2), ← ops1_split]

/-- The layer's output is written by the second window's last operation and by nothing later. -/
theorem out_eq2 (V : Valuation τ sig (Elt Ideal)) :
    after (ops (F := Ideal)) V (main_v105 : DevRef τ sig)
      = after core2 (after chain2 (after pre2 (after (ops0 (F := Ideal)) V))) (main_v105 : DevRef τ sig) := by
  rw [after_ops, ← after_ops1]
  rw [StableHlo.after_of_writes_sub ops5 _ ops5_writes (by decide), StableHlo.after_of_writes_sub ops4 _ ops4_writes (by decide),
    StableHlo.after_of_writes_sub ops3 _ ops3_writes (by decide), StableHlo.after_of_writes_sub ops2 _ ops2_writes (by decide)]

/-- The second layer's h, as the reference prints it, of what the slices and the aggregation left. -/
abbrev H2 (W : Valuation τ sig (Elt Ideal)) : FVec Ideal ⟨2, ![90000, 256]⟩ .f32 :=
  refLin (addf (W (main_v54 : DevRef τ sig)) (W (main_v76 : DevRef τ sig))) (W (main_v56 : DevRef τ sig)) (W (main_v58 : DevRef τ sig))
    dot_S90000x128_S128x256_S90000x256_1_0_0_1_n_n_wf bcast_S256_S1x256_1 bcast_S1x256_S90000x256_0_1

set_option maxHeartbeats 4000000 in
/-- THE REFERENCE'S SECOND LAYER: its output buffer holds the printed layer of what the slices and the aggregation left. -/
theorem layer2 (W : Valuation τ sig (Elt Ideal)) :
    after core2 W (main_v105 : DevRef τ sig)
      = refOutRelu (H2 W) (refMean (H2 W) reducesTo_S90000x256_S256_d0 h_S_ bcast_S_S256)
          (refVar (H2 W) reducesTo_S90000x256_S256_d0 h_S_ bcast_S_S256 bcast_S_S1x256 bcast_S256_S1x256_1 bcast_S1x256_S90000x256_0_1)
          (W (main_v60 : DevRef τ sig)) (W (main_v62 : DevRef τ sig)) (W (main_v64 : DevRef τ sig)) (W (main_v66 : DevRef τ sig))
          dot_S90000x256_S256x128_S90000x128_1_0_0_1_n_n_wf bcast_S_S256 bcast_S_S90000x256 bcast_S256_S1x256_1
          bcast_S1x256_S90000x256_0_1 bcast_S128_S1x128_1 bcast_S1x128_S90000x128_0_1 := by
  simp only [core2, List.drop_succ_cons, List.drop_zero]
  after_results_simp
  rfl

end Cert.ReferenceIdeal.RLayer2

end
-- ==== Proof.Chain2.lean ====
/-
  The two programs' stretches before layer 2 agree.

  Before the layer's first kernel the kernel program slices the layer's parameters and aggregates the neighbours of the
  previous layer's output; the reference's corresponding operations are the same operations in the same order.  From
  valuations that agree on the previous layer's output and on the arguments, each buffer these operations write holds
  the same array in both programs.
-/
import proofs.«117235_j17583596110491_1_alg».proof.Proof.Gen.KernelIdeal.Frame
import proofs.«117235_j17583596110491_1_alg».proof.Proof.RefLayer2
import Idealize.ShloMosaic.Lib.StableHlo.Run

set_option maxRecDepth 65536

noncomputable section

namespace Cert.Chain2

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option maxHeartbeats 1000000 in
theorem x_eq (Vp : Valuation Cert.ReferenceIdeal.τ Cert.ReferenceIdeal.sig (Elt Ideal)) (hx : Vp (Proc.devRef .tc Cert.ReferenceIdeal.main_v54) = Cert.KernelIdeal.Gen.W4 m ρ c (Proc.devRef .tc Cert.KernelIdeal.main_v37)) :
    StableHlo.after Cert.ReferenceIdeal.RLayer2.chain2 Vp (Proc.devRef .tc Cert.ReferenceIdeal.main_v54)
      = Cert.KernelIdeal.Gen.W5 m ρ c (Proc.devRef .tc Cert.KernelIdeal.main_v37) := by
  show StableHlo.after Cert.ReferenceIdeal.RLayer2.chain2 Vp (Proc.devRef .tc Cert.ReferenceIdeal.main_v54)
      = StableHlo.after Cert.KernelIdeal.Gen.hostOps2 (Cert.KernelIdeal.Gen.W4 m ρ c) (Proc.devRef .tc Cert.KernelIdeal.main_v37)
  simp only [Cert.ReferenceIdeal.RLayer2.chain2, List.take_succ_cons, List.take_zero, List.drop_succ_cons, List.drop_zero, List.cons_append, List.nil_append]
  after_results_simp
  rw [hx]
  all_goals rfl

set_option maxHeartbeats 1000000 in
theorem agg_eq (Vp : Valuation Cert.ReferenceIdeal.τ Cert.ReferenceIdeal.sig (Elt Ideal)) (hx : Vp (Proc.devRef .tc Cert.ReferenceIdeal.main_v54) = Cert.KernelIdeal.Gen.W4 m ρ c (Proc.devRef .tc Cert.KernelIdeal.main_v37)) (hv1 : Vp (Proc.devRef .tc Cert.ReferenceIdeal.main_v1) = Cert.KernelIdeal.Gen.W4 m ρ c (Proc.devRef .tc Cert.KernelIdeal.main_v1)) (hv3 : Vp (Proc.devRef .tc Cert.ReferenceIdeal.main_v3) = Cert.KernelIdeal.Gen.W4 m ρ c (Proc.devRef .tc Cert.KernelIdeal.main_v3)) :
    StableHlo.after Cert.ReferenceIdeal.RLayer2.chain2 Vp (Proc.devRef .tc Cert.ReferenceIdeal.main_v76)
      = Cert.KernelIdeal.Gen.W5 m ρ c (Proc.devRef .tc Cert.KernelIdeal.main_v59) := by
  show StableHlo.after Cert.ReferenceIdeal.RLayer2.chain2 Vp (Proc.devRef .tc Cert.ReferenceIdeal.main_v76)
      = StableHlo.after Cert.KernelIdeal.Gen.hostOps2 (Cert.KernelIdeal.Gen.W4 m ρ c) (Proc.devRef .tc Cert.KernelIdeal.main_v59)
  simp only [Cert.ReferenceIdeal.RLayer2.chain2, List.take_succ_cons, List.take_zero, List.drop_succ_cons, List.drop_zero, List.cons_append, List.nil_append]
  after_results_simp
  rw [hx, hv1, hv3]
  all_goals rfl

set_option maxHeartbeats 1000000 in
theorem w1_eq (Vp : Valuation Cert.ReferenceIdeal.τ Cert.ReferenceIdeal.sig (Elt Ideal)) (h6 : Vp (Proc.devRef .tc Cert.ReferenceIdeal.main_arg6) = Cert.KernelIdeal.Gen.W4 m ρ c (Proc.devRef .tc Cert.KernelIdeal.main_arg6)) :
    StableHlo.after Cert.ReferenceIdeal.RLayer2.chain2 Vp (Proc.devRef .tc Cert.ReferenceIdeal.main_v56)
      = Cert.KernelIdeal.Gen.W5 m ρ c (Proc.devRef .tc Cert.KernelIdeal.main_v39) := by
  show StableHlo.after Cert.ReferenceIdeal.RLayer2.chain2 Vp (Proc.devRef .tc Cert.ReferenceIdeal.main_v56)
      = StableHlo.after Cert.KernelIdeal.Gen.hostOps2 (Cert.KernelIdeal.Gen.W4 m ρ c) (Proc.devRef .tc Cert.KernelIdeal.main_v39)
  simp only [Cert.ReferenceIdeal.RLayer2.chain2, List.take_succ_cons, List.take_zero, List.drop_succ_cons, List.drop_zero, List.cons_append, List.nil_append]
  after_results_simp
  rw [h6]
  all_goals rfl

set_option maxHeartbeats 1000000 in
theorem b1_eq (Vp : Valuation Cert.ReferenceIdeal.τ Cert.ReferenceIdeal.sig (Elt Ideal)) (h7 : Vp (Proc.devRef .tc Cert.ReferenceIdeal.main_arg7) = Cert.KernelIdeal.Gen.W4 m ρ c (Proc.devRef .tc Cert.KernelIdeal.main_arg7)) :
    StableHlo.after Cert.ReferenceIdeal.RLayer2.chain2 Vp (Proc.devRef .tc Cert.ReferenceIdeal.main_v58)
      = Cert.KernelIdeal.Gen.W5 m ρ c (Proc.devRef .tc Cert.KernelIdeal.main_v41) := by
  show StableHlo.after Cert.ReferenceIdeal.RLayer2.chain2 Vp (Proc.devRef .tc Cert.ReferenceIdeal.main_v58)
      = StableHlo.after Cert.KernelIdeal.Gen.hostOps2 (Cert.KernelIdeal.Gen.W4 m ρ c) (Proc.devRef .tc Cert.KernelIdeal.main_v41)
  simp only [Cert.ReferenceIdeal.RLayer2.chain2, List.take_succ_cons, List.take_zero, List.drop_succ_cons, List.drop_zero, List.cons_append, List.nil_append]
  after_results_simp
  rw [h7]
  all_goals rfl

set_option maxHeartbeats 1000000 in
theorem gamma_eq (Vp : Valuation Cert.ReferenceIdeal.τ Cert.ReferenceIdeal.sig (Elt Ideal)) (h8 : Vp (Proc.devRef .tc Cert.ReferenceIdeal.main_arg8) = Cert.KernelIdeal.Gen.W4 m ρ c (Proc.devRef .tc Cert.KernelIdeal.main_arg8)) :
    StableHlo.after Cert.ReferenceIdeal.RLayer2.chain2 Vp (Proc.devRef .tc Cert.ReferenceIdeal.main_v60)
      = Cert.KernelIdeal.Gen.W5 m ρ c (Proc.devRef .tc Cert.KernelIdeal.main_v43) := by
  show StableHlo.after Cert.ReferenceIdeal.RLayer2.chain2 Vp (Proc.devRef .tc Cert.ReferenceIdeal.main_v60)
      = StableHlo.after Cert.KernelIdeal.Gen.hostOps2 (Cert.KernelIdeal.Gen.W4 m ρ c) (Proc.devRef .tc Cert.KernelIdeal.main_v43)
  simp only [Cert.ReferenceIdeal.RLayer2.chain2, List.take_succ_cons, List.take_zero, List.drop_succ_cons, List.drop_zero, List.cons_append, List.nil_append]
  after_results_simp
  rw [h8]
  all_goals rfl

set_option maxHeartbeats 1000000 in
theorem beta_eq (Vp : Valuation Cert.ReferenceIdeal.τ Cert.ReferenceIdeal.sig (Elt Ideal)) (h9 : Vp (Proc.devRef .tc Cert.ReferenceIdeal.main_arg9) = Cert.KernelIdeal.Gen.W4 m ρ c (Proc.devRef .tc Cert.KernelIdeal.main_arg9)) :
    StableHlo.after Cert.ReferenceIdeal.RLayer2.chain2 Vp (Proc.devRef .tc Cert.ReferenceIdeal.main_v62)
      = Cert.KernelIdeal.Gen.W5 m ρ c (Proc.devRef .tc Cert.KernelIdeal.main_v45) := by
  show StableHlo.after Cert.ReferenceIdeal.RLayer2.chain2 Vp (Proc.devRef .tc Cert.ReferenceIdeal.main_v62)
      = StableHlo.after Cert.KernelIdeal.Gen.hostOps2 (Cert.KernelIdeal.Gen.W4 m ρ c) (Proc.devRef .tc Cert.KernelIdeal.main_v45)
  simp only [Cert.ReferenceIdeal.RLayer2.chain2, List.take_succ_cons, List.take_zero, List.drop_succ_cons, List.drop_zero, List.cons_append, List.nil_append]
  after_results_simp
  rw [h9]
  all_goals rfl

set_option maxHeartbeats 1000000 in
theorem w2_eq (Vp : Valuation Cert.ReferenceIdeal.τ Cert.ReferenceIdeal.sig (Elt Ideal)) (h10 : Vp (Proc.devRef .tc Cert.ReferenceIdeal.main_arg10) = Cert.KernelIdeal.Gen.W4 m ρ c (Proc.devRef .tc Cert.KernelIdeal.main_arg10)) :
    StableHlo.after Cert.ReferenceIdeal.RLayer2.chain2 Vp (Proc.devRef .tc Cert.ReferenceIdeal.main_v64)
      = Cert.KernelIdeal.Gen.W5 m ρ c (Proc.devRef .tc Cert.KernelIdeal.main_v47) := by
  show StableHlo.after Cert.ReferenceIdeal.RLayer2.chain2 Vp (Proc.devRef .tc Cert.ReferenceIdeal.main_v64)
      = StableHlo.after Cert.KernelIdeal.Gen.hostOps2 (Cert.KernelIdeal.Gen.W4 m ρ c) (Proc.devRef .tc Cert.KernelIdeal.main_v47)
  simp only [Cert.ReferenceIdeal.RLayer2.chain2, List.take_succ_cons, List.take_zero, List.drop_succ_cons, List.drop_zero, List.cons_append, List.nil_append]
  after_results_simp
  rw [h10]
  all_goals rfl

set_option maxHeartbeats 1000000 in
theorem b2_eq (Vp : Valuation Cert.ReferenceIdeal.τ Cert.ReferenceIdeal.sig (Elt Ideal)) (h11 : Vp (Proc.devRef .tc Cert.ReferenceIdeal.main_arg11) = Cert.KernelIdeal.Gen.W4 m ρ c (Proc.devRef .tc Cert.KernelIdeal.main_arg11)) :
    StableHlo.after Cert.ReferenceIdeal.RLayer2.chain2 Vp (Proc.devRef .tc Cert.ReferenceIdeal.main_v66)
      = Cert.KernelIdeal.Gen.W5 m ρ c (Proc.devRef .tc Cert.KernelIdeal.main_v49) := by
  show StableHlo.after Cert.ReferenceIdeal.RLayer2.chain2 Vp (Proc.devRef .tc Cert.ReferenceIdeal.main_v66)
      = StableHlo.after Cert.KernelIdeal.Gen.hostOps2 (Cert.KernelIdeal.Gen.W4 m ρ c) (Proc.devRef .tc Cert.KernelIdeal.main_v49)
  simp only [Cert.ReferenceIdeal.RLayer2.chain2, List.take_succ_cons, List.take_zero, List.drop_succ_cons, List.drop_zero, List.cons_append, List.nil_append]
  after_results_simp
  rw [h11]
  all_goals rfl

end Cert.Chain2

end
-- ==== Proof.ChainFin2.lean ====
/-
  What the reference's stretch before layer 2 leaves is finite when the previous layer's output and the arguments are.
-/
import proofs.«117235_j17583596110491_1_alg».proof.Proof.RefLayer2
import proofs.«117235_j17583596110491_1_alg».proof.Proof.ChainFin1

set_option maxRecDepth 65536

noncomputable section

namespace Cert.ChainFin2

open Idealize.ShloMosaic Idealize.ShloMosaic.TcCoe Idealize.SL.Sem Idealize.ShloMosaic.StableHlo
open Cert.LayerBridge Cert.ChainFin

variable (Vp : Valuation Cert.ReferenceIdeal.τ Cert.ReferenceIdeal.sig (Elt Ideal))

theorem fin_x (hx : FinArr (S := Cert.ReferenceIdeal.S90000x128) (Vp (Proc.devRef .tc Cert.ReferenceIdeal.main_v54))) :
    FinArr (S := Cert.ReferenceIdeal.S90000x128) (StableHlo.after Cert.ReferenceIdeal.RLayer2.chain2 Vp (Proc.devRef .tc Cert.ReferenceIdeal.main_v54)) := by
  simp only [Cert.ReferenceIdeal.RLayer2.chain2, List.take_succ_cons, List.take_zero, List.drop_succ_cons, List.drop_zero, List.cons_append, List.nil_append]
  after_results_simp
  exact hx

set_option maxHeartbeats 1000000 in
theorem fin_agg (hx : FinArr (S := Cert.ReferenceIdeal.S90000x128) (Vp (Proc.devRef .tc Cert.ReferenceIdeal.main_v54))) :
    FinArr (S := Cert.ReferenceIdeal.S90000x128) (StableHlo.after Cert.ReferenceIdeal.RLayer2.chain2 Vp (Proc.devRef .tc Cert.ReferenceIdeal.main_v76)) := by
  simp only [Cert.ReferenceIdeal.RLayer2.chain2, List.take_succ_cons, List.take_zero, List.drop_succ_cons, List.drop_zero, List.cons_append, List.nil_append]
  after_results_simp
  exact scatterAdd_fin _ _ _ _ (zeros_fin _) (gather_fin _ _ _ hx)

theorem fin_w1 (h : FinArr (S := Cert.ReferenceIdeal.S4x128x256) (Vp (Proc.devRef .tc Cert.ReferenceIdeal.main_arg6))) :
    FinArr (S := Cert.ReferenceIdeal.S128x256) (StableHlo.after Cert.ReferenceIdeal.RLayer2.chain2 Vp (Proc.devRef .tc Cert.ReferenceIdeal.main_v56)) := by
  simp only [Cert.ReferenceIdeal.RLayer2.chain2, List.take_succ_cons, List.take_zero, List.drop_succ_cons, List.drop_zero, List.cons_append, List.nil_append]
  after_results_simp
  exact shapeCast_fin _ _ (slice_fin _ _ _ h)

theorem fin_b1 (h : FinArr (S := Cert.ReferenceIdeal.S4x256) (Vp (Proc.devRef .tc Cert.ReferenceIdeal.main_arg7))) :
    FinArr (S := Cert.ReferenceIdeal.S256) (StableHlo.after Cert.ReferenceIdeal.RLayer2.chain2 Vp (Proc.devRef .tc Cert.ReferenceIdeal.main_v58)) := by
  simp only [Cert.ReferenceIdeal.RLayer2.chain2, List.take_succ_cons, List.take_zero, List.drop_succ_cons, List.drop_zero, List.cons_append, List.nil_append]
  after_results_simp
  exact shapeCast_fin _ _ (slice_fin _ _ _ h)

theorem fin_gamma (h : FinArr (S := Cert.ReferenceIdeal.S4x256) (Vp (Proc.devRef .tc Cert.ReferenceIdeal.main_arg8))) :
    FinArr (S := Cert.ReferenceIdeal.S256) (StableHlo.after Cert.ReferenceIdeal.RLayer2.chain2 Vp (Proc.devRef .tc Cert.ReferenceIdeal.main_v60)) := by
  simp only [Cert.ReferenceIdeal.RLayer2.chain2, List.take_succ_cons, List.take_zero, List.drop_succ_cons, List.drop_zero, List.cons_append, List.nil_append]
  after_results_simp
  exact shapeCast_fin _ _ (slice_fin _ _ _ h)

theorem fin_beta (h : FinArr (S := Cert.ReferenceIdeal.S4x256) (Vp (Proc.devRef .tc Cert.ReferenceIdeal.main_arg9))) :
    FinArr (S := Cert.ReferenceIdeal.S256) (StableHlo.after Cert.ReferenceIdeal.RLayer2.chain2 Vp (Proc.devRef .tc Cert.ReferenceIdeal.main_v62)) := by
  simp only [Cert.ReferenceIdeal.RLayer2.chain2, List.take_succ_cons, List.take_zero, List.drop_succ_cons, List.drop_zero, List.cons_append, List.nil_append]
  after_results_simp
  exact shapeCast_fin _ _ (slice_fin _ _ _ h)

theorem fin_w2 (h : FinArr (S := Cert.ReferenceIdeal.S4x256x128) (Vp (Proc.devRef .tc Cert.ReferenceIdeal.main_arg10))) :
    FinArr (S := Cert.ReferenceIdeal.S256x128) (StableHlo.after Cert.ReferenceIdeal.RLayer2.chain2 Vp (Proc.devRef .tc Cert.ReferenceIdeal.main_v64)) := by
  simp only [Cert.ReferenceIdeal.RLayer2.chain2, List.take_succ_cons, List.take_zero, List.drop_succ_cons, List.drop_zero, List.cons_append, List.nil_append]
  after_results_simp
  exact shapeCast_fin _ _ (slice_fin _ _ _ h)

theorem fin_b2 (h : FinArr (S := Cert.ReferenceIdeal.S4x128) (Vp (Proc.devRef .tc Cert.ReferenceIdeal.main_arg11))) :
    FinArr (S := Cert.ReferenceIdeal.S128) (StableHlo.after Cert.ReferenceIdeal.RLayer2.chain2 Vp (Proc.devRef .tc Cert.ReferenceIdeal.main_v66)) := by
  simp only [Cert.ReferenceIdeal.RLayer2.chain2, List.take_succ_cons, List.take_zero, List.drop_succ_cons, List.drop_zero, List.cons_append, List.nil_append]
  after_results_simp
  exact shapeCast_fin _ _ (slice_fin _ _ _ h)

end Cert.ChainFin2

end
-- ==== Proof.Layer2Sim.lean ====
/-
  Layer 2: the two programs' outputs agree, and the output is finite.

  From valuations at the previous layer boundary that agree on the previous layer's output, on the edge-index vectors and
  on the parameters, and whose previous output and parameters are finite: the reference's output buffer holds its printed
  layer of what its stretch left, which on a finite h is the specification's layer at the rows the kernel program forms
  (the variance identity); the kernel program's output buffer holds the specification's layer of what its stretch left;
  and the two stretches agree buffer by buffer.
-/
import proofs.«117235_j17583596110491_1_alg».proof.Proof.KernelLayer2a
import proofs.«117235_j17583596110491_1_alg».proof.Proof.RefLayer2
import proofs.«117235_j17583596110491_1_alg».proof.Proof.Chain2
import proofs.«117235_j17583596110491_1_alg».proof.Proof.ChainFin2
import proofs.«117235_j17583596110491_1_alg».proof.Proof.LayerEq

set_option maxRecDepth 65536

noncomputable section

namespace Cert.Layer2Sim

open Idealize.ShloMosaic Idealize.ShloMosaic.TcCoe Idealize.SL.Sem Idealize.ShloMosaic.StableHlo
open Cert.LayerSpec Cert.LayerBridge Cert.RefLayer Cert.LayerEq

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option maxHeartbeats 2000000 in
theorem sim (Vp : Valuation Cert.ReferenceIdeal.τ Cert.ReferenceIdeal.sig (Elt Ideal))
    (hx : Vp (Proc.devRef .tc Cert.ReferenceIdeal.main_v54) = Cert.KernelIdeal.Gen.W4 m ρ c (Proc.devRef .tc Cert.KernelIdeal.main_v37))
    (hv1 : Vp (Proc.devRef .tc Cert.ReferenceIdeal.main_v1) = Cert.KernelIdeal.Gen.W4 m ρ c (Proc.devRef .tc Cert.KernelIdeal.main_v1))
    (hv3 : Vp (Proc.devRef .tc Cert.ReferenceIdeal.main_v3) = Cert.KernelIdeal.Gen.W4 m ρ c (Proc.devRef .tc Cert.KernelIdeal.main_v3))
    (h6 : Vp (Proc.devRef .tc Cert.ReferenceIdeal.main_arg6) = Cert.KernelIdeal.Gen.W4 m ρ c (Proc.devRef .tc Cert.KernelIdeal.main_arg6))
    (h7 : Vp (Proc.devRef .tc Cert.ReferenceIdeal.main_arg7) = Cert.KernelIdeal.Gen.W4 m ρ c (Proc.devRef .tc Cert.KernelIdeal.main_arg7))
    (h8 : Vp (Proc.devRef .tc Cert.ReferenceIdeal.main_arg8) = Cert.KernelIdeal.Gen.W4 m ρ c (Proc.devRef .tc Cert.KernelIdeal.main_arg8))
    (h9 : Vp (Proc.devRef .tc Cert.ReferenceIdeal.main_arg9) = Cert.KernelIdeal.Gen.W4 m ρ c (Proc.devRef .tc Cert.KernelIdeal.main_arg9))
    (h10 : Vp (Proc.devRef .tc Cert.ReferenceIdeal.main_arg10) = Cert.KernelIdeal.Gen.W4 m ρ c (Proc.devRef .tc Cert.KernelIdeal.main_arg10))
    (h11 : Vp (Proc.devRef .tc Cert.ReferenceIdeal.main_arg11) = Cert.KernelIdeal.Gen.W4 m ρ c (Proc.devRef .tc Cert.KernelIdeal.main_arg11))
    (fx : FinArr (S := Cert.ReferenceIdeal.S90000x128) (Vp (Proc.devRef .tc Cert.ReferenceIdeal.main_v54)))
    (f6 : FinArr (S := Cert.ReferenceIdeal.S4x128x256) (Vp (Proc.devRef .tc Cert.ReferenceIdeal.main_arg6)))
    (f7 : FinArr (S := Cert.ReferenceIdeal.S4x256) (Vp (Proc.devRef .tc Cert.ReferenceIdeal.main_arg7)))
    (f8 : FinArr (S := Cert.ReferenceIdeal.S4x256) (Vp (Proc.devRef .tc Cert.ReferenceIdeal.main_arg8)))
    (f9 : FinArr (S := Cert.ReferenceIdeal.S4x256) (Vp (Proc.devRef .tc Cert.ReferenceIdeal.main_arg9)))
    (f10 : FinArr (S := Cert.ReferenceIdeal.S4x256x128) (Vp (Proc.devRef .tc Cert.ReferenceIdeal.main_arg10)))
    (f11 : FinArr (S := Cert.ReferenceIdeal.S4x128) (Vp (Proc.devRef .tc Cert.ReferenceIdeal.main_arg11))) :
    StableHlo.after Cert.ReferenceIdeal.RLayer2.core2 (StableHlo.after Cert.ReferenceIdeal.RLayer2.chain2 Vp) (Proc.devRef .tc Cert.ReferenceIdeal.main_v105)
        = Cert.KernelIdeal.Gen.W8 m ρ c (Proc.devRef .tc Cert.KernelIdeal.main_v71)
      ∧ FinArr (S := Cert.KernelIdeal.S90000x128) (Cert.KernelIdeal.Gen.W8 m ρ c (Proc.devRef .tc Cert.KernelIdeal.main_v71)) := by
  have hr : (⟨2, ![90000, 256]⟩ : Shape).Reduces [0] ⟨1, ![256]⟩ := by decide
  have fx' := Cert.ChainFin2.fin_x Vp fx
  have fagg := Cert.ChainFin2.fin_agg Vp fx
  have fw1 := Cert.ChainFin2.fin_w1 Vp f6
  have fb1 := Cert.ChainFin2.fin_b1 Vp f7
  have fg := Cert.ChainFin2.fin_gamma Vp f8
  have fb := Cert.ChainFin2.fin_beta Vp f9
  have fw2 := Cert.ChainFin2.fin_w2 Vp f10
  have fb2 := Cert.ChainFin2.fin_b2 Vp f11
  have eH : Cert.ReferenceIdeal.RLayer2.H2 (StableHlo.after Cert.ReferenceIdeal.RLayer2.chain2 Vp)
      = lin1 ((StableHlo.after Cert.ReferenceIdeal.RLayer2.chain2 Vp) (Proc.devRef .tc Cert.ReferenceIdeal.main_v54)) ((StableHlo.after Cert.ReferenceIdeal.RLayer2.chain2 Vp) (Proc.devRef .tc Cert.ReferenceIdeal.main_v76))
          ((StableHlo.after Cert.ReferenceIdeal.RLayer2.chain2 Vp) (Proc.devRef .tc Cert.ReferenceIdeal.main_v56)) (rowOf ((StableHlo.after Cert.ReferenceIdeal.RLayer2.chain2 Vp) (Proc.devRef .tc Cert.ReferenceIdeal.main_v58))) :=
    refLin_eq_lin1 _ _ _ _ _ _ _
  have fH : FinArr (S := ⟨2, ![90000, 256]⟩) (Cert.ReferenceIdeal.RLayer2.H2 (StableHlo.after Cert.ReferenceIdeal.RLayer2.chain2 Vp)) := by
    rw [eH]
    exact lin1_fin _ _ _ _ fx' fagg fw1 (fun i => fb1 _)
  have eR : StableHlo.after Cert.ReferenceIdeal.RLayer2.core2 (StableHlo.after Cert.ReferenceIdeal.RLayer2.chain2 Vp) (Proc.devRef .tc Cert.ReferenceIdeal.main_v105)
      = norm2 true (Cert.ReferenceIdeal.RLayer2.H2 (StableHlo.after Cert.ReferenceIdeal.RLayer2.chain2 Vp)) (meanK (colSum (Cert.ReferenceIdeal.RLayer2.H2 (StableHlo.after Cert.ReferenceIdeal.RLayer2.chain2 Vp))))
          (varK (colSum (Cert.ReferenceIdeal.RLayer2.H2 (StableHlo.after Cert.ReferenceIdeal.RLayer2.chain2 Vp))) (colSumSq (Cert.ReferenceIdeal.RLayer2.H2 (StableHlo.after Cert.ReferenceIdeal.RLayer2.chain2 Vp))))
          (rowOf ((StableHlo.after Cert.ReferenceIdeal.RLayer2.chain2 Vp) (Proc.devRef .tc Cert.ReferenceIdeal.main_v60))) (rowOf ((StableHlo.after Cert.ReferenceIdeal.RLayer2.chain2 Vp) (Proc.devRef .tc Cert.ReferenceIdeal.main_v62)))
          ((StableHlo.after Cert.ReferenceIdeal.RLayer2.chain2 Vp) (Proc.devRef .tc Cert.ReferenceIdeal.main_v64)) (rowOf ((StableHlo.after Cert.ReferenceIdeal.RLayer2.chain2 Vp) (Proc.devRef .tc Cert.ReferenceIdeal.main_v66))) := by
    rw [Cert.ReferenceIdeal.RLayer2.layer2]
    exact refOutRelu_eq _ _ _ _ _ _ _ _ _ _ _ _ _ _ _ hr fH
  have fout : FinArr (norm2 true (Cert.ReferenceIdeal.RLayer2.H2 (StableHlo.after Cert.ReferenceIdeal.RLayer2.chain2 Vp)) (meanK (colSum (Cert.ReferenceIdeal.RLayer2.H2 (StableHlo.after Cert.ReferenceIdeal.RLayer2.chain2 Vp))))
          (varK (colSum (Cert.ReferenceIdeal.RLayer2.H2 (StableHlo.after Cert.ReferenceIdeal.RLayer2.chain2 Vp))) (colSumSq (Cert.ReferenceIdeal.RLayer2.H2 (StableHlo.after Cert.ReferenceIdeal.RLayer2.chain2 Vp))))
          (rowOf ((StableHlo.after Cert.ReferenceIdeal.RLayer2.chain2 Vp) (Proc.devRef .tc Cert.ReferenceIdeal.main_v60))) (rowOf ((StableHlo.after Cert.ReferenceIdeal.RLayer2.chain2 Vp) (Proc.devRef .tc Cert.ReferenceIdeal.main_v62)))
          ((StableHlo.after Cert.ReferenceIdeal.RLayer2.chain2 Vp) (Proc.devRef .tc Cert.ReferenceIdeal.main_v64)) (rowOf ((StableHlo.after Cert.ReferenceIdeal.RLayer2.chain2 Vp) (Proc.devRef .tc Cert.ReferenceIdeal.main_v66)))) :=
    layer_fin _ _ _ _ _ true fH fg fb fw2 fb2
  have eK : norm2 true (Cert.ReferenceIdeal.RLayer2.H2 (StableHlo.after Cert.ReferenceIdeal.RLayer2.chain2 Vp)) (meanK (colSum (Cert.ReferenceIdeal.RLayer2.H2 (StableHlo.after Cert.ReferenceIdeal.RLayer2.chain2 Vp))))
          (varK (colSum (Cert.ReferenceIdeal.RLayer2.H2 (StableHlo.after Cert.ReferenceIdeal.RLayer2.chain2 Vp))) (colSumSq (Cert.ReferenceIdeal.RLayer2.H2 (StableHlo.after Cert.ReferenceIdeal.RLayer2.chain2 Vp))))
          (rowOf ((StableHlo.after Cert.ReferenceIdeal.RLayer2.chain2 Vp) (Proc.devRef .tc Cert.ReferenceIdeal.main_v60))) (rowOf ((StableHlo.after Cert.ReferenceIdeal.RLayer2.chain2 Vp) (Proc.devRef .tc Cert.ReferenceIdeal.main_v62)))
          ((StableHlo.after Cert.ReferenceIdeal.RLayer2.chain2 Vp) (Proc.devRef .tc Cert.ReferenceIdeal.main_v64)) (rowOf ((StableHlo.after Cert.ReferenceIdeal.RLayer2.chain2 Vp) (Proc.devRef .tc Cert.ReferenceIdeal.main_v66)))
      = Cert.KernelIdeal.Gen.W8 m ρ c (Proc.devRef .tc Cert.KernelIdeal.main_v71) := by
    rw [Cert.KernelIdeal.KLayer2.layer2, eH, Cert.Chain2.x_eq m ρ c Vp hx, Cert.Chain2.agg_eq m ρ c Vp hx hv1 hv3, Cert.Chain2.w1_eq m ρ c Vp h6,
      Cert.Chain2.b1_eq m ρ c Vp h7, Cert.Chain2.gamma_eq m ρ c Vp h8, Cert.Chain2.beta_eq m ρ c Vp h9,
      Cert.Chain2.w2_eq m ρ c Vp h10, Cert.Chain2.b2_eq m ρ c Vp h11]
  exact ⟨eR.trans eK, eK ▸ fout⟩

end Cert.Layer2Sim

end
-- ==== Proof.Region4Payload.lean ====
/-
  The arithmetic of one grid point of the layer's first kernel, read entry by entry on the extended reals. The point
  holds a block of 3600 rows of x and of agg, the whole of W₁ and of b₁. It computes the block of h = (x + agg)·W₁ + b₁:
  entry (p, q) is Σ_j (x[p, j] + agg[p, j]) · W₁[j, q] + b₁[0, q]. It adds to the running column sums, in column q,
  Σ_p h[p, q] over the block's rows, and to the running column sums of squares Σ_p h[p, q]·h[p, q]. When the blocks of x
  and agg are rows r(p) of the arrays, the block of h is rows r(p) of the affine map of the whole arrays.
-/
import proofs.«117235_j17583596110491_1_alg».proof.Proof.Gen.KernelIdeal.Skeleton
import proofs.«117235_j17583596110491_1_alg».proof.Proof.LayerSpec
import proofs.«117235_j17583596110491_1_alg».proof.Proof.LibStatsOps
import Idealize.ShloMosaic.PureOps.Ideal.Laws
import Idealize.ShloMosaic.Lib.ValueIdx
import Idealize.ShloMosaic.Lib.ValueLayout

noncomputable section

open scoped BigOperators

namespace Cert.KernelIdeal.Region4

open Cert.KernelIdeal Cert.KernelIdeal.Gen Idealize.ShloMosaic Idealize.ShloMosaic.ValueIdx Cert.LayerSpec

/-- The f32 zero word denotes the extended real zero. -/
theorem zeroWord : (FloatOps.ofBits (F := Ideal) .f32 0x00000000#32 : EReal) = 0 := Ideal.ofBits_zero_f32

/-- The block of h a point computes, entry (p, q): the affine map of the point's row p. -/
theorem pay3_apply (v3 v4 : Vec Ideal S3600x128 .f32) (v7 : Vec Ideal S128x256 .f32) (v10 : Vec Ideal S1x256 .f32)
    (p : Fin 3600) (q : Fin 256) :
    k4_pay3 (F := Ideal) v3 v4 v7 v10 (ix2 p q)
      = (∑ j : Fin 128, (v3 (ix2 p j) + v4 (ix2 p j)) * v7 (ix2 j q)) + v10 (ix2 (0 : Fin 1) q) := by
  unfold k4_pay3
  refine (addf_apply _ _ (ix2 p q)).trans ?_
  refine congrArg₂ (· + ·) ?_ ?_
  · refine (Cert.LibStatsOps.matmul_plain_zero_apply _ none _ _ p q).trans ?_
    refine Finset.sum_congr rfl fun j _ => ?_
    repeat rw [shapeCast_self]
    rfl
  · refine (broadcastTo_1b_ab_apply _ _ p q).trans ?_
    rw [shapeCast_self]

/-- When the point's blocks of x and agg are the rows r(p) of the arrays and its blocks of W₁ and b₁ are the arrays, the
    block of h is the rows r(p) of the affine map of the arrays. -/
theorem pay3_rows (X A : Arr 90000 128) (W : Arr 128 256) (B : Arr 1 256)
    (x0 x1 : Vec Ideal S3600x128 .f32) (x2 : Vec Ideal S128x256 .f32) (x3 : Vec Ideal S1x256 .f32)
    (r : Fin 3600 → Fin 90000)
    (h0 : ∀ (p : Fin 3600) (j : Fin 128), x0 (ix2 p j) = X (ix2 (r p) j))
    (h1 : ∀ (p : Fin 3600) (j : Fin 128), x1 (ix2 p j) = A (ix2 (r p) j))
    (h2 : ∀ (j : Fin 128) (q : Fin 256), x2 (ix2 j q) = W (ix2 j q))
    (h3 : ∀ q : Fin 256, x3 (ix2 (0 : Fin 1) q) = B (ix2 (0 : Fin 1) q))
    (p : Fin 3600) (q : Fin 256) :
    k4_pay3 (F := Ideal) x0 x1 x2 x3 (ix2 p q) = lin1 X A W B (ix2 (r p) q) := by
  refine (pay3_apply x0 x1 x2 x3 p q).trans ?_
  rw [lin1_apply]
  unfold lin1At
  refine congrArg₂ (· + ·) (Finset.sum_congr rfl fun j _ => ?_) (h3 q)
  rw [h0, h1, h2]

/-- The running column sums after a point, entry (z, q): what they held plus the sum of the point's block of h over
    its rows. -/
theorem pay4_apply (v3 v4 : Vec Ideal S3600x128 .f32) (v7 : Vec Ideal S128x256 .f32) (v10 v15 : Vec Ideal S1x256 .f32)
    (z : Fin 1) (q : Fin 256) :
    k4_pay4 (F := Ideal) v3 v4 v7 v10 v15 (ix2 z q)
      = v15 (ix2 z q) + ∑ p : Fin 3600, k4_pay3 (F := Ideal) v3 v4 v7 v10 (ix2 p q) := by
  unfold k4_pay4
  refine (addf_apply _ _ (ix2 z q)).trans ?_
  refine congrArg₂ (· + ·) ?_ ?_
  · rw [shapeCast_self]
  · refine (shapeCast_a_1a_apply _ _ z q).trans ?_
    exact Cert.LibStatsOps.rowsum_apply _ _ _ _ q

/-- The running column sums of squares after a point, entry (z, q): what they held plus the sum of the squares of the
    point's block of h over its rows. -/
theorem pay5_apply (v3 v4 : Vec Ideal S3600x128 .f32) (v7 : Vec Ideal S128x256 .f32) (v10 v21 : Vec Ideal S1x256 .f32)
    (z : Fin 1) (q : Fin 256) :
    k4_pay5 (F := Ideal) v3 v4 v7 v10 v21 (ix2 z q)
      = v21 (ix2 z q) + ∑ p : Fin 3600, k4_pay3 (F := Ideal) v3 v4 v7 v10 (ix2 p q) * k4_pay3 (F := Ideal) v3 v4 v7 v10 (ix2 p q) := by
  unfold k4_pay5
  refine (addf_apply _ _ (ix2 z q)).trans ?_
  refine congrArg₂ (· + ·) ?_ ?_
  · rw [shapeCast_self]
  · refine (shapeCast_a_1a_apply _ _ z q).trans ?_
    refine (Cert.LibStatsOps.rowsum_apply _ _ _ _ q).trans ?_
    rfl

/-- The two zero blocks the first point stores, at any entry. -/
theorem pay1_apply (i : S1x256.Idx) : k4_pay1 (F := Ideal) i = 0 := zeroWord
theorem pay2_apply (i : S1x256.Idx) : k4_pay2 (F := Ideal) i = 0 := zeroWord

end Cert.KernelIdeal.Region4

end
-- ==== Proof.Region4Pieces.lean ====
/-
  What one grid point of the layer's first kernel leaves in its three output blocks, as the kernel's arithmetic applied to
  the blocks the point holds. Every load and every store of the body moves a whole block. At the first point the two
  statistics blocks are first set to zero and then read back, so they end at the zero block plus the point's sums; at
  every other point they are read as the point before left them.
-/
import proofs.«117235_j17583596110491_1_alg».proof.Proof.Gen.KernelIdeal.Frame
import Idealize.ShloMosaic.Lib.Pipeline.Value
import Idealize.ShloMosaic.Lib.Tactic

set_option maxRecDepth 16384

noncomputable section

namespace Cert.KernelIdeal.Region4

open Cert.KernelIdeal Cert.KernelIdeal.Gen Idealize.ShloMosaic Idealize.ShloMosaic.TcCoe Idealize.ShloMosaic.Tactic Idealize.SL.Sem

variable {F : FTy → Type} [FloatOps F]

/-- The literal zero offset of a rank-two block is the constant-zero function. -/
theorem hz : (![0, 0] : Fin 2 → Nat) = fun _ => 0 := funext fun a => by fin_cases a <;> rfl

/-- At the first point the block of h is the affine map of the point's blocks. -/
theorem outA4_eq (c : Dev nD) (i : grid4.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond4_0 i)
    (x0 : Vec F S3600x128 .f32) (x1 : Vec F S3600x128 .f32) (x2 : Vec F S128x256 .f32) (x3 : Vec F S1x256 .f32) :
    out4_A_4 c i arg1 harg1 arg2 harg2 arg3 harg3 arg4 harg4 arg5 harg5 arg6 harg6 arg7 harg7 hc0 x0 x1 x2 x3 = k4_pay3 x0 x1 x2 x3 := by
  unfold out4_A_4
  rw [View.read_writes_eq_canon _ _ _ (cover4_A_4 c i arg1 harg1 arg2 harg2 arg3 harg3 arg4 harg4 arg5 harg5 arg6 harg6 arg7 harg7 hc0 x0 x1 x2 x3)]
  unfold kernelRun4_A
  dsimp only
  try sl_unfold_words
  rw [View.canon_unit_zero hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At the first point the column sums are the zero block plus the sums of the point's block of h. -/
theorem outA5_eq (c : Dev nD) (i : grid4.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond4_0 i)
    (x0 : Vec F S3600x128 .f32) (x1 : Vec F S3600x128 .f32) (x2 : Vec F S128x256 .f32) (x3 : Vec F S1x256 .f32) :
    out4_A_5 c i arg1 harg1 arg2 harg2 arg3 harg3 arg4 harg4 arg5 harg5 arg6 harg6 arg7 harg7 hc0 x0 x1 x2 x3 = k4_pay4 x0 x1 x2 x3 (k4_pay1 (F := F)) := by
  unfold out4_A_5
  rw [View.read_writes_eq_canon _ _ _ (cover4_A_5 c i arg1 harg1 arg2 harg2 arg3 harg3 arg4 harg4 arg5 harg5 arg6 harg6 arg7 harg7 hc0 x0 x1 x2 x3)]
  unfold kernelRun4_A
  dsimp only
  try sl_unfold_words
  rw [View.canon_cons_unit_zero (S := S1x256) hz, View.readCov_unit_zero (S := S1x256) _ hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At the first point the column sums of squares are the zero block plus the sums of squares of the point's block of h. -/
theorem outA6_eq (c : Dev nD) (i : grid4.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond4_0 i)
    (x0 : Vec F S3600x128 .f32) (x1 : Vec F S3600x128 .f32) (x2 : Vec F S128x256 .f32) (x3 : Vec F S1x256 .f32) :
    out4_A_6 c i arg1 harg1 arg2 harg2 arg3 harg3 arg4 harg4 arg5 harg5 arg6 harg6 arg7 harg7 hc0 x0 x1 x2 x3 = k4_pay5 x0 x1 x2 x3 (k4_pay2 (F := F)) := by
  unfold out4_A_6
  rw [View.read_writes_eq_canon _ _ _ (cover4_A_6 c i arg1 harg1 arg2 harg2 arg3 harg3 arg4 harg4 arg5 harg5 arg6 harg6 arg7 harg7 hc0 x0 x1 x2 x3)]
  unfold kernelRun4_A
  dsimp only
  try sl_unfold_words
  rw [View.canon_cons_unit_zero (S := S1x256) hz, View.readCov_unit_zero (S := S1x256) _ hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At a later point the block of h is the affine map of the point's blocks. -/
theorem outB4_eq (c : Dev nD) (i : grid4.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond4_0 i)
    (x0 : Vec F S3600x128 .f32) (x1 : Vec F S3600x128 .f32) (x2 : Vec F S128x256 .f32) (x3 : Vec F S1x256 .f32) (xo5 : Vec F S1x256 .f32) (xo6 : Vec F S1x256 .f32) :
    out4_B_4 c i arg1 harg1 arg2 harg2 arg3 harg3 arg4 harg4 arg5 harg5 arg6 harg6 arg7 harg7 hc0 x0 x1 x2 x3 xo5 xo6 = k4_pay3 x0 x1 x2 x3 := by
  unfold out4_B_4
  rw [View.read_writes_eq_canon _ _ _ (cover4_B_4 c i arg1 harg1 arg2 harg2 arg3 harg3 arg4 harg4 arg5 harg5 arg6 harg6 arg7 harg7 hc0 x0 x1 x2 x3 xo5 xo6)]
  unfold kernelRun4_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

/-- At a later point the column sums are what the point before left plus the sums of the point's block of h. -/
theorem outB5_eq (c : Dev nD) (i : grid4.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond4_0 i)
    (x0 : Vec F S3600x128 .f32) (x1 : Vec F S3600x128 .f32) (x2 : Vec F S128x256 .f32) (x3 : Vec F S1x256 .f32) (xo5 : Vec F S1x256 .f32) (xo6 : Vec F S1x256 .f32) :
    out4_B_5 c i arg1 harg1 arg2 harg2 arg3 harg3 arg4 harg4 arg5 harg5 arg6 harg6 arg7 harg7 hc0 x0 x1 x2 x3 xo5 xo6 = k4_pay4 x0 x1 x2 x3 xo5 := by
  unfold out4_B_5
  rw [View.read_writes_eq_canon _ _ _ (cover4_B_5 c i arg1 harg1 arg2 harg2 arg3 harg3 arg4 harg4 arg5 harg5 arg6 harg6 arg7 harg7 hc0 x0 x1 x2 x3 xo5 xo6)]
  unfold kernelRun4_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

/-- At a later point the column sums of squares are what the point before left plus the sums of squares of the point's
    block of h. -/
theorem outB6_eq (c : Dev nD) (i : grid4.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond4_0 i)
    (x0 : Vec F S3600x128 .f32) (x1 : Vec F S3600x128 .f32) (x2 : Vec F S128x256 .f32) (x3 : Vec F S1x256 .f32) (xo5 : Vec F S1x256 .f32) (xo6 : Vec F S1x256 .f32) :
    out4_B_6 c i arg1 harg1 arg2 harg2 arg3 harg3 arg4 harg4 arg5 harg5 arg6 harg6 arg7 harg7 hc0 x0 x1 x2 x3 xo5 xo6 = k4_pay5 x0 x1 x2 x3 xo6 := by
  unfold out4_B_6
  rw [View.read_writes_eq_canon _ _ _ (cover4_B_6 c i arg1 harg1 arg2 harg2 arg3 harg3 arg4 harg4 arg5 harg5 arg6 harg6 arg7 harg7 hc0 x0 x1 x2 x3 xo5 xo6)]
  unfold kernelRun4_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

end Cert.KernelIdeal.Region4

end
-- ==== Proof.Region4Value.lean ====
/-
  The three arrays the layer's first kernel leaves, as whole-array functions of the four arrays it finds.
  The grid has 25 points; point t holds rows 3600·t … 3600·t + 3599 of x and of agg, the whole of W₁ and of b₁, and writes
  rows 3600·t … 3600·t + 3599 of h. The two statistics arrays are one block each, revisited by every point and written
  back after the last one: after point n they hold the column sums (of h, of h·h) over the rows of blocks 0 … n, so
  after the last point the sums over all 90000 rows.
-/
import proofs.«117235_j17583596110491_1_alg».proof.Proof.Gen.KernelIdeal.Frame
import proofs.«117235_j17583596110491_1_alg».proof.Proof.Region4Payload
import proofs.«117235_j17583596110491_1_alg».proof.Proof.Region4Pieces
import proofs.«117235_j17583596110491_1_alg».proof.Proof.LibBlockedRows
import proofs.«117235_j17583596110491_1_alg».proof.Proof.LayerSpec
import Idealize.ShloMosaic.Lib.Pipeline.Value
import Idealize.ShloMosaic.Lib.Tactic

set_option maxRecDepth 16384

noncomputable section

open scoped BigOperators

namespace Cert.KernelIdeal.Region4

open Cert.KernelIdeal Cert.KernelIdeal.Gen Idealize.ShloMosaic Idealize.ShloMosaic.TcCoe Idealize.SL.Sem
open Idealize.ShloMosaic.ValueIdx Cert.LayerSpec Cert.LibBlockedRows
open Idealize.ShloMosaic.Pipeline (Dat)

variable (V : (c : Dev nD) → (b : Ref sig .tc) → Buf (Elt Ideal) ((c : Thread nD τ).loc b))

/-- The affine map (x + agg)·W₁ + b₁ of the four arrays the region finds. -/
def hOf (c : Dev nD) : Arr 90000 256 :=
  lin1 (V c (Pipeline.arrRef spec4 0)) (V c (Pipeline.arrRef spec4 1)) (V c (Pipeline.arrRef spec4 2)) (V c (Pipeline.arrRef spec4 3))

/-- The three output blocks a point leaves: h's block, the column sums, the column sums of squares. -/
abbrev Outs : Type := Vec Ideal S3600x256 .f32 × Vec Ideal S1x256 .f32 × Vec Ideal S1x256 .f32

/-! ## Where each window's block sits -/

/-- The block indices at point t: the row-blocked windows (x, agg, h) are at block row t, every other window at its one block. -/
theorem idx_facts : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0 :=
  (by decide +kernel : ∀ t : Fin grid4.N, _)

/-- The grid has 25 points. -/
theorem lt25 (t : Fin cfg4.N) : t.val < 25 := lt_of_lt_of_eq t.isLt (show cfg4.N = 25 from N_4)

/-- Row p of the block of point t, among the 90000 rows. -/
abbrev rowAt (t : Fin cfg4.N) (p : Fin 3600) : Fin 90000 := blockRow ⟨t.val, lt25 t⟩ p

/-- The block of x at point t, entry (p, j), is x at row 3600·t + p. -/
theorem iblk_0_apply (c : Dev nD) (t : Fin cfg4.N) (p : Fin 3600) (j : Fin 128) :
    (iblk4 V c 0 t : Vec Ideal S3600x128 .f32) (ix2 p j)
      = (V c (Pipeline.arrRef spec4 0) : Arr 90000 128) (ix2 (rowAt t p) j) := by
  obtain ⟨e00, e01, e10, e11, e20, e21, e30, e31, e40, e41, e50, e51, e60, e61⟩ := idx_facts t
  unfold iblk4
  rw [View.read_apply]
  show (V c (Pipeline.arrRef spec4 0) : Arr 90000 128) _ = _
  refine congrArg _ (funext fun a => Fin.ext ?_)
  match a with
  | ⟨0, _⟩ => show win4_0.index t (0 : Fin 2) * 3600 + 1 * p.val = t.val * 3600 + p.val; first | omega | (rw [e00] <;> omega)
  | ⟨1, _⟩ => show win4_0.index t (1 : Fin 2) * 128 + 1 * j.val = j.val; first | omega | (rw [e01] <;> omega)

/-- The block of agg at point t, entry (p, j), is agg at row 3600·t + p. -/
theorem iblk_1_apply (c : Dev nD) (t : Fin cfg4.N) (p : Fin 3600) (j : Fin 128) :
    (iblk4 V c 1 t : Vec Ideal S3600x128 .f32) (ix2 p j)
      = (V c (Pipeline.arrRef spec4 1) : Arr 90000 128) (ix2 (rowAt t p) j) := by
  obtain ⟨e00, e01, e10, e11, e20, e21, e30, e31, e40, e41, e50, e51, e60, e61⟩ := idx_facts t
  unfold iblk4
  rw [View.read_apply]
  show (V c (Pipeline.arrRef spec4 1) : Arr 90000 128) _ = _
  refine congrArg _ (funext fun a => Fin.ext ?_)
  match a with
  | ⟨0, _⟩ => show win4_1.index t (0 : Fin 2) * 3600 + 1 * p.val = t.val * 3600 + p.val; first | omega | (rw [e10] <;> omega)
  | ⟨1, _⟩ => show win4_1.index t (1 : Fin 2) * 128 + 1 * j.val = j.val; first | omega | (rw [e11] <;> omega)

/-- The block of W₁ at any point is W₁. -/
theorem iblk_2_apply (c : Dev nD) (t : Fin cfg4.N) (j : Fin 128) (q : Fin 256) :
    (iblk4 V c 2 t : Vec Ideal S128x256 .f32) (ix2 j q)
      = (V c (Pipeline.arrRef spec4 2) : Arr 128 256) (ix2 j q) := by
  obtain ⟨e00, e01, e10, e11, e20, e21, e30, e31, e40, e41, e50, e51, e60, e61⟩ := idx_facts t
  unfold iblk4
  rw [View.read_apply]
  show (V c (Pipeline.arrRef spec4 2) : Arr 128 256) _ = _
  refine congrArg _ (funext fun a => Fin.ext ?_)
  match a with
  | ⟨0, _⟩ => show win4_2.index t (0 : Fin 2) * 128 + 1 * j.val = j.val; first | omega | (rw [e20] <;> omega)
  | ⟨1, _⟩ => show win4_2.index t (1 : Fin 2) * 256 + 1 * q.val = q.val; first | omega | (rw [e21] <;> omega)

/-- The block of b₁ at any point is b₁. -/
theorem iblk_3_apply (c : Dev nD) (t : Fin cfg4.N) (z : Fin 1) (q : Fin 256) :
    (iblk4 V c 3 t : Vec Ideal S1x256 .f32) (ix2 z q)
      = (V c (Pipeline.arrRef spec4 3) : Arr 1 256) (ix2 z q) := by
  obtain ⟨e00, e01, e10, e11, e20, e21, e30, e31, e40, e41, e50, e51, e60, e61⟩ := idx_facts t
  unfold iblk4
  rw [View.read_apply]
  show (V c (Pipeline.arrRef spec4 3) : Arr 1 256) _ = _
  refine congrArg _ (funext fun a => Fin.ext ?_)
  match a with
  | ⟨0, _⟩ => show win4_3.index t (0 : Fin 2) * 1 + 1 * z.val = z.val; first | omega | (rw [e30] <;> omega)
  | ⟨1, _⟩ => show win4_3.index t (1 : Fin 2) * 256 + 1 * q.val = q.val; first | omega | (rw [e31] <;> omega)

/-! ## The block of h a point computes -/

/-- The affine map of the blocks of point t, entry (p, q), is h at row 3600·t + p. -/
theorem hblock_apply (c : Dev nD) (t : Fin cfg4.N) (p : Fin 3600) (q : Fin 256) :
    k4_pay3 (F := Ideal) (iblk4 V c 0 t) (iblk4 V c 1 t) (iblk4 V c 2 t) (iblk4 V c 3 t) (ix2 p q) = hOf V c (ix2 (rowAt t p) q) :=
  pay3_rows (V c (Pipeline.arrRef spec4 0)) (V c (Pipeline.arrRef spec4 1)) (V c (Pipeline.arrRef spec4 2)) (V c (Pipeline.arrRef spec4 3))
    (iblk4 V c 0 t) (iblk4 V c 1 t) (iblk4 V c 2 t) (iblk4 V c 3 t) (rowAt t)
    (iblk_0_apply V c t) (iblk_1_apply V c t) (iblk_2_apply V c t) (fun q => iblk_3_apply V c t 0 q) p q

/-- Summed over the rows of the block, column q: the block's share of the column sum of h. -/
theorem block_colsum (c : Dev nD) (t : Fin cfg4.N) (q : Fin 256) :
    ∑ p : Fin 3600, k4_pay3 (F := Ideal) (iblk4 V c 0 t) (iblk4 V c 1 t) (iblk4 V c 2 t) (iblk4 V c 3 t) (ix2 p q)
      = blockSum (fun r => hOf V c (ix2 r q)) t.val :=
  Eq.trans (Finset.sum_congr rfl fun p _ => hblock_apply V c t p q)
    (blockSum_of_lt (fun r => hOf V c (ix2 r q)) ⟨t.val, lt25 t⟩).symm

/-- The same for the squares. -/
theorem block_colsumsq (c : Dev nD) (t : Fin cfg4.N) (q : Fin 256) :
    ∑ p : Fin 3600, k4_pay3 (F := Ideal) (iblk4 V c 0 t) (iblk4 V c 1 t) (iblk4 V c 2 t) (iblk4 V c 3 t) (ix2 p q)
        * k4_pay3 (F := Ideal) (iblk4 V c 0 t) (iblk4 V c 1 t) (iblk4 V c 2 t) (iblk4 V c 3 t) (ix2 p q)
      = blockSum (fun r => hOf V c (ix2 r q) * hOf V c (ix2 r q)) t.val :=
  Eq.trans (Finset.sum_congr rfl fun p _ => by rw [hblock_apply V c t p q])
    (blockSum_of_lt (fun r => hOf V c (ix2 r q) * hOf V c (ix2 r q)) ⟨t.val, lt25 t⟩).symm

/-! ## What the outputs hold after each point -/

/-- After any point the block of h is the affine map of the point's blocks. -/
theorem outs4_eq (c : Dev nD) (t : Fin cfg4.N) :
    (outsAt4 V c t.val t.isLt).1 = k4_pay3 (F := Ideal) (iblk4 V c 0 t) (iblk4 V c 1 t) (iblk4 V c 2 t) (iblk4 V c 3 t) := by
  by_cases h0 : t.val % 25 = 0
  · rw [outsAt4_A V c t h0]
    dsimp only
    exact outA4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  · rw [outsAt4_B V c t h0]
    dsimp only
    exact outB4_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2

/-- After the point n, column q of the running column sums holds the sum, over the blocks 0 … n, of the block's sums of h in column q:
    at the first point the zero block plus the first block's, at a later point what the point before left plus this block's. -/
theorem outs5_inv (c : Dev nD) : ∀ (n : ℕ) (hn : n < cfg4.N) (z : Fin 1) (q : Fin 256),
    (outsAt4 V c n hn).2.1 (ix2 z q) = ∑ s ∈ Finset.range (n + 1), blockSum (fun r => hOf V c (ix2 r q)) s
  | 0, hn, z, q => by
    have h0 : (⟨0, hn⟩ : Fin cfg4.N).val % 25 = 0 := rfl
    refine (congrArg (fun o : Outs => o.2.1 (ix2 z q)) (outsAt4_A V c ⟨0, hn⟩ h0)).trans ?_
    dsimp only
    refine (congrFun (outA5_eq (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr h0) (iblk4 V c 0 ⟨0, hn⟩) (iblk4 V c 1 ⟨0, hn⟩) (iblk4 V c 2 ⟨0, hn⟩) (iblk4 V c 3 ⟨0, hn⟩)) (ix2 z q)).trans ?_
    refine (pay4_apply (iblk4 V c 0 ⟨0, hn⟩) (iblk4 V c 1 ⟨0, hn⟩) (iblk4 V c 2 ⟨0, hn⟩) (iblk4 V c 3 ⟨0, hn⟩) _ z q).trans ?_
    rw [pay1_apply]
    refine (zero_add _).trans ?_
    refine (block_colsum V c ⟨0, hn⟩ q).trans ?_
    exact (Finset.sum_range_one (blockSum (fun r => hOf V c (ix2 r q)))).symm
  | n + 1, hn, z, q => by
    have hN : cfg4.N = 25 := N_4
    have hB : ¬(⟨n + 1, hn⟩ : Fin cfg4.N).val % 25 = 0 := by dsimp only; omega
    refine (congrArg (fun o : Outs => o.2.1 (ix2 z q)) (outsAt4_B V c ⟨n + 1, hn⟩ hB)).trans ?_
    dsimp only
    refine (congrFun (outB5_eq (F := Ideal) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (fun h => hB ((hcond4_0 (⟨n + 1, hn⟩ : Fin cfg4.N)).mp h)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.1 (outsAt4 V c ((⟨n + 1, hn⟩ : Fin cfg4.N).val - 1) (Nat.lt_of_le_of_lt (Nat.sub_le _ _) (⟨n + 1, hn⟩ : Fin cfg4.N).isLt)).2.2) (ix2 z q)).trans ?_
    refine (pay4_apply (iblk4 V c 0 ⟨n + 1, hn⟩) (iblk4 V c 1 ⟨n + 1, hn⟩) (iblk4 V c 2 ⟨n + 1, hn⟩) (iblk4 V c 3 ⟨n + 1, hn⟩) _ z q).trans ?_
    rw [Finset.sum_range_succ]
    exact congrArg₂ (· + ·) (outs5_inv c n (Nat.lt_of_succ_lt hn) z q) (block_colsum V c ⟨n + 1, hn⟩ q)

/-- After the point n, column q of the running column sums of squares holds the sum, over the blocks 0 … n, of the block's sums of squares of h in column q:
    at the first point the zero block plus the first block's, at a later point what the point before left plus this block's. -/
theorem outs6_inv (c : Dev nD) : ∀ (n : ℕ) (hn : n < cfg4.N) (z : Fin 1) (q : Fin 256),
    (outsAt4 V c n hn).2.2 (ix2 z q) = ∑ s ∈ Finset.range (n + 1), blockSum (fun r => hOf V c (ix2 r q) * hOf V c (ix2 r q)) s
  | 0, hn, z, q => by
    have h0 : (⟨0, hn⟩ : Fin cfg4.N).val % 25 = 0 := rfl
    refine (congrArg (fun o : Outs => o.2.2 (ix2 z q)) (outsAt4_A V c ⟨0, hn⟩ h0)).trans ?_
    dsimp only
    refine (congrFun (outA6_eq (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr h0) (iblk4 V c 0 ⟨0, hn⟩) (iblk4 V c 1 ⟨0, hn⟩) (iblk4 V c 2 ⟨0, hn⟩) (iblk4 V c 3 ⟨0, hn⟩)) (ix2 z q)).trans ?_
    refine (pay5_apply (iblk4 V c 0 ⟨0, hn⟩) (iblk4 V c 1 ⟨0, hn⟩) (iblk4 V c 2 ⟨0, hn⟩) (iblk4 V c 3 ⟨0, hn⟩) _ z q).trans ?_
    rw [pay2_apply]
    refine (zero_add _).trans ?_
    refine (block_colsumsq V c ⟨0, hn⟩ q).trans ?_
    exact (Finset.sum_range_one (blockSum (fun r => hOf V c (ix2 r q) * hOf V c (ix2 r q)))).symm
  | n + 1, hn, z, q => by
    have hN : cfg4.N = 25 := N_4
    have hB : ¬(⟨n + 1, hn⟩ : Fin cfg4.N).val % 25 = 0 := by dsimp only; omega
    refine (congrArg (fun o : Outs => o.2.2 (ix2 z q)) (outsAt4_B V c ⟨n + 1, hn⟩ hB)).trans ?_
    dsimp only
    refine (congrFun (outB6_eq (F := Ideal) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (fun h => hB ((hcond4_0 (⟨n + 1, hn⟩ : Fin cfg4.N)).mp h)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.1 (outsAt4 V c ((⟨n + 1, hn⟩ : Fin cfg4.N).val - 1) (Nat.lt_of_le_of_lt (Nat.sub_le _ _) (⟨n + 1, hn⟩ : Fin cfg4.N).isLt)).2.2) (ix2 z q)).trans ?_
    refine (pay5_apply (iblk4 V c 0 ⟨n + 1, hn⟩) (iblk4 V c 1 ⟨n + 1, hn⟩) (iblk4 V c 2 ⟨n + 1, hn⟩) (iblk4 V c 3 ⟨n + 1, hn⟩) _ z q).trans ?_
    rw [Finset.sum_range_succ]
    exact congrArg₂ (· + ·) (outs6_inv c n (Nat.lt_of_succ_lt hn) z q) (block_colsumsq V c ⟨n + 1, hn⟩ q)

/-! ## The array of h: every point writes its own block of rows -/

/-- What point t writes back to the array of h is block t of the affine map of the arrays. -/
theorem flushed4_eq (c : Dev nD) (t : Fin cfg4.N) :
    (dat4 V c).flushed 4 t = ((cfg4.win 4).blk t).view.read (Elt Ideal) (hOf V c) := by
  show (cfg4.win 4).cut (grid4.coords t) ((dat4 V c).after 4 t) = _
  rw [after4_4, outs4_eq V c t]
  obtain ⟨e00, e01, e10, e11, e20, e21, e30, e31, e40, e41, e50, e51, e60, e61⟩ := idx_facts t
  funext y
  show k4_pay3 (F := Ideal) (iblk4 V c 0 t) (iblk4 V c 1 t) (iblk4 V c 2 t) (iblk4 V c 3 t) y = hOf V c (((cfg4.win 4).blk t).view.emb y)
  have hy : (y : S3600x256.Idx) = ix2 (y 0) (y 1) := eq_ix2 (n0 := 3600) (n1 := 256) y
  have he : (((cfg4.win 4).blk t).view.emb y : S90000x256.Idx) = ix2 (rowAt t (y 0)) (y 1) := by
    funext a; apply Fin.ext
    match a with
    | ⟨0, _⟩ => show win4_4.index t (0 : Fin 2) * 3600 + 1 * (y 0).val = t.val * 3600 + (y 0).val; first | omega | (rw [e40] <;> omega)
    | ⟨1, _⟩ => show win4_4.index t (1 : Fin 2) * 256 + 1 * (y 1).val = (y 1).val; first | omega | (rw [e41] <;> omega)
  exact (congrArg (k4_pay3 (F := Ideal) (iblk4 V c 0 t) (iblk4 V c 1 t) (iblk4 V c 2 t) (iblk4 V c 3 t)) hy).trans
    ((hblock_apply V c t (y 0) (y 1)).trans (congrArg (hOf V c) he.symm))

/-- A row index is in point t's block of h iff each coordinate is in the block's range on its axis. -/
theorem mem_blk4 (t : Fin cfg4.N) (i : S90000x256.Idx) :
    i ∈ ((cfg4.win 4).blk t).view.set ↔ ∀ a : Fin 2, win4_4.index t a * S3600x256.size a ≤ (i a).val ∧ (i a).val < win4_4.index t a * S3600x256.size a + S3600x256.size a := by
  show i ∈ ((View.whole main_v95_0).slice (win4_4.rect t)).set ↔ _
  rw [View.set_slice_whole, Rect.mem_set_unit]
  exact Iff.rfl

/-- Row r of h is in the block of point r / 3600. -/
theorem cover4 (i : S90000x256.Idx) :
    ∃ t : Fin cfg4.N, (cfg4.win 4).flush t = true ∧ i ∈ ((cfg4.win 4).blk t).view.set := by
  have hi0 : (i 0).val < 90000 := (i 0).isLt
  have hi1 : (i 1).val < 256 := (i 1).isLt
  have hN : cfg4.N = 25 := N_4
  obtain ⟨t, ht⟩ : ∃ t : Fin cfg4.N, t.val = (i 0).val / 3600 := ⟨⟨(i 0).val / 3600, by rw [hN]; omega⟩, rfl⟩
  obtain ⟨e00, e01, e10, e11, e20, e21, e30, e31, e40, e41, e50, e51, e60, e61⟩ := idx_facts t
  refine ⟨t, flush4_4 t, ?_⟩
  rw [mem_blk4]
  intro a
  match a with
  | ⟨0, _⟩ => show win4_4.index t (0 : Fin 2) * 3600 ≤ (i 0).val ∧ (i 0).val < win4_4.index t (0 : Fin 2) * 3600 + 3600; first | omega | (rw [e40, ht] <;> omega)
  | ⟨1, _⟩ => show win4_4.index t (1 : Fin 2) * 256 ≤ (i 1).val ∧ (i 1).val < win4_4.index t (1 : Fin 2) * 256 + 256; first | omega | (rw [e41] <;> omega)

/-- The array of h after the run is the affine map of the four arrays the region finds. -/
theorem final4_4 (c : Dev nD) : (dat4 V c).arrAt 4 cfg4.N
    = lin1 (V c (Pipeline.arrRef spec4 0)) (V c (Pipeline.arrRef spec4 1)) (V c (Pipeline.arrRef spec4 2)) (V c (Pipeline.arrRef spec4 3)) :=
  (dat4 V c).arrAt_eq_of_cover 4 (hOf V c) (fun t _ => flushed4_eq V c t) cover4

/-! ## The two statistics arrays: one block, written back after the last point -/

/-- The last point. -/
abbrev tLast : Fin cfg4.N := ⟨24, by rw [show cfg4.N = 25 from N_4]; decide⟩

/-- What the column sums' block holds after the last point, as contents of its array (the block is the whole array). -/
abbrev result5 (c : Dev nD) : Buf (Elt Ideal) ((c : Thread nD τ).loc main_v95_1) := (outsAt4 V c tLast.val tLast.isLt).2.1

/-- What the column sums of squares' block holds after the last point, as contents of its array. -/
abbrev result6 (c : Dev nD) : Buf (Elt Ideal) ((c : Thread nD τ).loc main_v95_2) := (outsAt4 V c tLast.val tLast.isLt).2.2

/-- The one write-back of the column sums, after the last point, writes that block: block (0, 0) of the [1, 256] array
    read through zero offsets is the array. -/
theorem flushed5_eq (c : Dev nD) (t : Fin cfg4.N) (hf : (cfg4.win 5).flush t = true) :
    (dat4 V c).flushed 5 t = ((cfg4.win 5).blk t).view.read (Elt Ideal) (result5 V c) := by
  have hN : cfg4.N = 25 := N_4
  have h24 : t.val = 24 := by have := (flush4_5 t).mp hf; have := t.isLt; omega
  obtain rfl : t = tLast := Fin.ext h24
  show (cfg4.win 5).cut (grid4.coords tLast) ((dat4 V c).after 5 tLast) = _
  rw [after4_5]
  have hz' : (fun a => win4_5.index tLast a * main_v95_1.ty.shape.size a) = fun _ => 0 := funext fun a => by fin_cases a <;> decide +kernel
  exact (Memref.read_access_unit_zero (Elt Ideal) main_v95_1 hz' (fun a => by rw [congrFun hz' a]; simp) (result5 V c)).symm

/-- The same for the column sums of squares. -/
theorem flushed6_eq (c : Dev nD) (t : Fin cfg4.N) (hf : (cfg4.win 6).flush t = true) :
    (dat4 V c).flushed 6 t = ((cfg4.win 6).blk t).view.read (Elt Ideal) (result6 V c) := by
  have hN : cfg4.N = 25 := N_4
  have h24 : t.val = 24 := by have := (flush4_6 t).mp hf; have := t.isLt; omega
  obtain rfl : t = tLast := Fin.ext h24
  show (cfg4.win 6).cut (grid4.coords tLast) ((dat4 V c).after 6 tLast) = _
  rw [after4_6]
  have hz' : (fun a => win4_6.index tLast a * main_v95_2.ty.shape.size a) = fun _ => 0 := funext fun a => by fin_cases a <;> decide +kernel
  exact (Memref.read_access_unit_zero (Elt Ideal) main_v95_2 hz' (fun a => by rw [congrFun hz' a]; simp) (result6 V c)).symm

/-- So the array of column sums ends holding the block the last point left (the last point's block covers it). -/
theorem final5_block (c : Dev nD) : (dat4 V c).arrAt 5 cfg4.N = result5 V c :=
  (dat4 V c).arrAt_eq_of_cover 5 (result5 V c) (flushed5_eq V c) fun i =>
    ⟨tLast, (flush4_5 tLast).mpr rfl, by
      show i ∈ ((View.whole main_v95_1).slice (win4_5.rect tLast)).set
      rw [View.set_slice_whole, Rect.mem_set_unit]
      intro a
      have h0 : (i 0 : Nat) < 1 := (i 0).isLt
      have h1 : (i 1 : Nat) < 256 := (i 1).isLt
      match a with
      | ⟨0, _⟩ => show win4_5.index tLast 0 * win4_5.size 0 ≤ (i 0 : Nat) ∧ (i 0 : Nat) < win4_5.index tLast 0 * win4_5.size 0 + win4_5.xsize (grid4.coords tLast) 0
                  rw [show win4_5.index tLast 0 * win4_5.size 0 = 0 from by decide +kernel, show win4_5.xsize (grid4.coords tLast) 0 = 1 from by decide +kernel]; omega
      | ⟨1, _⟩ => show win4_5.index tLast 1 * win4_5.size 1 ≤ (i 1 : Nat) ∧ (i 1 : Nat) < win4_5.index tLast 1 * win4_5.size 1 + win4_5.xsize (grid4.coords tLast) 1
                  rw [show win4_5.index tLast 1 * win4_5.size 1 = 0 from by decide +kernel, show win4_5.xsize (grid4.coords tLast) 1 = 256 from by decide +kernel]; omega⟩

/-- The same for the column sums of squares. -/
theorem final6_block (c : Dev nD) : (dat4 V c).arrAt 6 cfg4.N = result6 V c :=
  (dat4 V c).arrAt_eq_of_cover 6 (result6 V c) (flushed6_eq V c) fun i =>
    ⟨tLast, (flush4_6 tLast).mpr rfl, by
      show i ∈ ((View.whole main_v95_2).slice (win4_6.rect tLast)).set
      rw [View.set_slice_whole, Rect.mem_set_unit]
      intro a
      have h0 : (i 0 : Nat) < 1 := (i 0).isLt
      have h1 : (i 1 : Nat) < 256 := (i 1).isLt
      match a with
      | ⟨0, _⟩ => show win4_6.index tLast 0 * win4_6.size 0 ≤ (i 0 : Nat) ∧ (i 0 : Nat) < win4_6.index tLast 0 * win4_6.size 0 + win4_6.xsize (grid4.coords tLast) 0
                  rw [show win4_6.index tLast 0 * win4_6.size 0 = 0 from by decide +kernel, show win4_6.xsize (grid4.coords tLast) 0 = 1 from by decide +kernel]; omega
      | ⟨1, _⟩ => show win4_6.index tLast 1 * win4_6.size 1 ≤ (i 1 : Nat) ∧ (i 1 : Nat) < win4_6.index tLast 1 * win4_6.size 1 + win4_6.xsize (grid4.coords tLast) 1
                  rw [show win4_6.index tLast 1 * win4_6.size 1 = 0 from by decide +kernel, show win4_6.xsize (grid4.coords tLast) 1 = 256 from by decide +kernel]; omega⟩

/-- The array of column sums after the run: the sums of h over all 90000 rows. -/
theorem final4_5 (c : Dev nD) : (dat4 V c).arrAt 5 cfg4.N
    = colSum (lin1 (V c (Pipeline.arrRef spec4 0)) (V c (Pipeline.arrRef spec4 1)) (V c (Pipeline.arrRef spec4 2)) (V c (Pipeline.arrRef spec4 3))) := by
  refine (final5_block V c).trans ?_
  funext i
  obtain ⟨z, q, rfl⟩ : ∃ (z : Fin 1) (q : Fin 256), i = ix2 z q := ⟨i 0, i 1, eq_ix2 (n0 := 1) (n1 := 256) i⟩
  refine Eq.trans ?_ (colSum_apply (hOf V c) z q).symm
  exact (outs5_inv V c 24 tLast.isLt z q).trans (sum_blockSum (fun r => hOf V c (ix2 r q)))

/-- The array of column sums of squares after the run: the sums of h·h over all 90000 rows. -/
theorem final4_6 (c : Dev nD) : (dat4 V c).arrAt 6 cfg4.N
    = colSumSq (lin1 (V c (Pipeline.arrRef spec4 0)) (V c (Pipeline.arrRef spec4 1)) (V c (Pipeline.arrRef spec4 2)) (V c (Pipeline.arrRef spec4 3))) := by
  refine (final6_block V c).trans ?_
  funext i
  obtain ⟨z, q, rfl⟩ : ∃ (z : Fin 1) (q : Fin 256), i = ix2 z q := ⟨i 0, i 1, eq_ix2 (n0 := 1) (n1 := 256) i⟩
  refine Eq.trans ?_ (colSumSq_apply (hOf V c) z q).symm
  exact (outs6_inv V c 24 tLast.isLt z q).trans (sum_blockSum (fun r => hOf V c (ix2 r q) * hOf V c (ix2 r q)))

end Cert.KernelIdeal.Region4

end
-- ==== Proof.Region5Payload.lean ====
/-
  One entry of what the body of kernel region 5 computes from the blocks it loads, and the same for a block of rows of
  the whole arrays.

  The body takes a block X of 3600 rows of h (256 columns), the rows μ, v, γ, β (one row of 256 columns each), the
  weights W (256 × 128) and the row b (128 columns), and forms
      out[r, j] = Σ_k act(((X[r, k] − μ[0, k]) · rsqrt(v[0, k] + ε)) · γ[0, k] + β[0, k]) · W[k, j] + b[0, j],
  with act = the identity: the normalisation is pointwise in (r, k) once the four rows are read at their one row, the
  product with W accumulates into the zero array, so it is the bare sum over k, and b is added at column j.
  Row r of the result depends on row r of X only. Hence, when X is rows q·3600 … q·3600 + 3599 of a 90000-row array A,
  entry (r, j) of the result is entry (q·3600 + r, j) of the closed form `Cert.LayerSpec.norm2 false` of A.
-/
import proofs.«117235_j17583596110491_1_alg».proof.Proof.Gen.KernelIdeal.Skeleton
import proofs.«117235_j17583596110491_1_alg».proof.Proof.LayerSpec
import proofs.«117235_j17583596110491_1_alg».proof.Proof.LibNormMatmul

noncomputable section

open scoped BigOperators

namespace Cert.KernelIdeal.Region5

open Idealize.ShloMosaic Idealize.ShloMosaic.ValueIdx
open Cert.KernelIdeal Cert.KernelIdeal.Gen Cert.LibNormMatmul Cert.LayerSpec

/-- The body's result at entry (r, j), as a sum over the 256 columns of the loaded block of h. -/
theorem pay_apply (x0 : Vec Ideal S3600x256 .f32) (x1 x2 x3 x4 : Vec Ideal S1x256 .f32) (x5 : Vec Ideal S256x128 .f32)
    (x6 : Vec Ideal S1x128 .f32) (r : Fin 3600) (j : Fin 128) :
    k5_pay1 (F := Ideal) x0 x1 x2 x3 x4 x5 x6 (ix2 r j)
      = (∑ k : Fin 256, (((x0 (ix2 r k) - x1 (ix2 (0 : Fin 1) k)) * Ideal.rsqrt (x2 (ix2 (0 : Fin 1) k) + Ideal.ofBits .f32 0x3727C5AC#32))
            * x3 (ix2 (0 : Fin 1) k) + x4 (ix2 (0 : Fin 1) k)) * x5 (ix2 k j)) + x6 (ix2 (0 : Fin 1) j) := by
  unfold k5_pay1
  simp only [shapeCast_self]
  refine (addf_apply _ _ _).trans ?_
  refine congrArg₂ (· + ·) ?_ (broadcastTo_1b_ab_apply x6 _ r j)
  refine (matmul_zero_apply _ none _ x5 r j).trans ?_
  refine Finset.sum_congr rfl fun k _ => ?_
  exact congrArg (· * x5 (ix2 k j)) (norm_affine_apply x0 x1 x2 x3 x4 _ _ r k)

/-- Row r of the result computed from rows q·3600 … of A is row q·3600 + r of the closed form of A. -/
theorem pay_rows (A0 : Arr 90000 256) (A1 A2 A3 A4 : Arr 1 256) (A5 : Arr 256 128) (A6 : Arr 1 128)
    (x0 : Vec Ideal S3600x256 .f32) (q : ℕ)
    (h0 : ∀ (r : Fin 3600) (k : Fin 256) (n : Fin 90000), n.val = q * 3600 + r.val → x0 (ix2 r k) = A0 (ix2 n k))
    (r : Fin 3600) (j : Fin 128) (n : Fin 90000) (hn : n.val = q * 3600 + r.val) :
    k5_pay1 (F := Ideal) x0 A1 A2 A3 A4 A5 A6 (ix2 r j) = norm2 false A0 A1 A2 A3 A4 A5 A6 (ix2 n j) := by
  rw [pay_apply, norm2_apply]
  unfold norm2At
  refine congrArg (· + A6 (ix2 0 j)) (Finset.sum_congr rfl fun k _ => ?_)
  rw [h0 r k n hn]
  rfl

/-- The same at any index y of the block and any index i of the array with i = (q·3600 + y₀, y₁), the six whole-array
    inputs given by equations. -/
theorem pay_block (A0 : Arr 90000 256) (A1 A2 A3 A4 : Arr 1 256) (A5 : Arr 256 128) (A6 : Arr 1 128)
    (x0 : Vec Ideal S3600x256 .f32) (x1 x2 x3 x4 : Vec Ideal S1x256 .f32) (x5 : Vec Ideal S256x128 .f32)
    (x6 : Vec Ideal S1x128 .f32) (q : ℕ)
    (h0 : ∀ (r : Fin 3600) (k : Fin 256) (n : Fin 90000), n.val = q * 3600 + r.val → x0 (ix2 r k) = A0 (ix2 n k))
    (h1 : x1 = A1) (h2 : x2 = A2) (h3 : x3 = A3) (h4 : x4 = A4) (h5 : x5 = A5) (h6 : x6 = A6)
    (y : S3600x128.Idx) (i : S90000x128.Idx)
    (hi0 : (i 0).val = q * 3600 + (y 0).val) (hi1 : (i 1).val = (y 1).val) :
    k5_pay1 (F := Ideal) x0 x1 x2 x3 x4 x5 x6 y = norm2 false A0 A1 A2 A3 A4 A5 A6 i := by
  subst h1 h2 h3 h4 h5 h6
  obtain ⟨r, j, rfl⟩ : ∃ (r : Fin 3600) (j : Fin 128), y = ix2 r j := ⟨y 0, y 1, eq_ix2 y⟩
  obtain ⟨n, j', rfl⟩ : ∃ (n : Fin 90000) (j' : Fin 128), i = ix2 n j' := ⟨i 0, i 1, eq_ix2 i⟩
  obtain rfl : j' = j := Fin.ext hi1
  exact pay_rows A0 x1 x2 x3 x4 x5 x6 x0 q h0 r j' n hi0

end Cert.KernelIdeal.Region5

end
-- ==== Proof.Region5.lean ====
/-
  Kernel region 5 read as one array: after its 25 grid points the region's output array is the closed form
  `Cert.LayerSpec.norm2 false` of the seven arrays the region finds.

  Point t of the grid loads rows 3600·t … 3600·t + 3599 of h (window 0, block index (t, 0)) and the whole of the six
  small arrays μ, v, γ, β, W, b (windows 1–6, block index (0, 0), blocks of the arrays' own extents), and writes back rows
  3600·t … 3600·t + 3599 of the output (window 7, block index (t, 0)). A block's element with coordinates (y₀, y₁) sits in
  its array at (block index₀ · block rows + y₀, block index₁ · block columns + y₁). What point t writes back is the
  body's result on those blocks, and that is rows 3600·t … of the closed form, because row n of the closed form depends on
  row n of h only. Row n of the output is covered by point n / 3600, so the 25 write-backs fill the array.
-/
import proofs.«117235_j17583596110491_1_alg».proof.Proof.Gen.KernelIdeal.Frame
import proofs.«117235_j17583596110491_1_alg».proof.Proof.Region5Payload
import proofs.«117235_j17583596110491_1_alg».proof.Proof.LibWholeRect
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen Cert.LayerSpec Cert.LibWholeRect

variable (V : (c : Dev nD) → (b : Ref sig .tc) → Buf (Elt Ideal) ((c : Thread nD τ).loc b))

/-- The closed form of the region's output: the normalised second affine map of the seven arrays the region finds. -/
abbrev closed (c : Dev nD) : Arr 90000 128 :=
  norm2 false (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))

/-- The block indices at every point of the grid: windows 0 and 7 are at block (t, 0), windows 1–6 at block (0, 0). -/
theorem idx_facts : ∀ t : Fin cfg5.N,
    win5_0.index t (0 : Fin 2) = t.val ∧ win5_0.index t (1 : Fin 2) = 0
    ∧ win5_7.index t (0 : Fin 2) = t.val ∧ win5_7.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

/-- Window 0's block at point t is rows (block index of the output)·3600 … of h: entry (r, k) of the block is entry
    (n, k) of the array for n = index · 3600 + r. -/
theorem iblk0_apply (c : Dev nD) (t : Fin cfg5.N) (r : Fin 3600) (k : Fin 256) (n : Fin 90000)
    (hn : n.val = win5_7.index t (0 : Fin 2) * 3600 + r.val) :
    (iblk5 V c 0 t : Vec Ideal S3600x256 .f32) (ix2 r k) = (V c (Pipeline.arrRef spec5 0) : Arr 90000 256) (ix2 n k) := by
  obtain ⟨e00, e01, e70, e71, e10, e11, e20, e21, e30, e31, e40, e41, e50, e51, e60, e61⟩ := idx_facts t
  unfold iblk5
  rw [View.read_apply]
  show (V c (Pipeline.arrRef spec5 0) : Arr 90000 256) (((cfg5.win 0).blk t).view.emb (ix2 r k)) = _
  have h : ((cfg5.win 0).blk t).view.emb (ix2 r k) = (ix2 n k : S90000x256.Idx) := by
    funext a; apply Fin.ext
    match a with
    | ⟨0, _⟩ => show win5_0.index t (0 : Fin 2) * 3600 + 1 * r.val = n.val; omega
    | ⟨1, _⟩ => show win5_0.index t (1 : Fin 2) * 256 + 1 * k.val = k.val; omega
  rw [h]

/-- Window 1's block at every point is its whole array: the block index is (0, 0) and the block has the array's extents. -/
theorem iblk_whole1 (c : Dev nD) (t : Fin cfg5.N) :
    (iblk5 V c 1 t : Vec Ideal S1x256 .f32) = (V c (Pipeline.arrRef spec5 1) : Arr 1 256) := by
  obtain ⟨e00, e01, e70, e71, e10, e11, e20, e21, e30, e31, e40, e41, e50, e51, e60, e61⟩ := idx_facts t
  funext y
  unfold iblk5
  rw [View.read_apply]
  show (V c (Pipeline.arrRef spec5 1) : Arr 1 256) (((cfg5.win 1).blk t).view.emb y) = _
  have h : ((cfg5.win 1).blk t).view.emb y = y := by
    funext a; apply Fin.ext
    match a with
    | ⟨0, _⟩ => show win5_1.index t (0 : Fin 2) * 1 + 1 * (y 0).val = (y 0).val; omega
    | ⟨1, _⟩ => show win5_1.index t (1 : Fin 2) * 256 + 1 * (y 1).val = (y 1).val; omega
  rw [h]

/-- Window 2's block at every point is its whole array: the block index is (0, 0) and the block has the array's extents. -/
theorem iblk_whole2 (c : Dev nD) (t : Fin cfg5.N) :
    (iblk5 V c 2 t : Vec Ideal S1x256 .f32) = (V c (Pipeline.arrRef spec5 2) : Arr 1 256) := by
  obtain ⟨e00, e01, e70, e71, e10, e11, e20, e21, e30, e31, e40, e41, e50, e51, e60, e61⟩ := idx_facts t
  funext y
  unfold iblk5
  rw [View.read_apply]
  show (V c (Pipeline.arrRef spec5 2) : Arr 1 256) (((cfg5.win 2).blk t).view.emb y) = _
  have h : ((cfg5.win 2).blk t).view.emb y = y := by
    funext a; apply Fin.ext
    match a with
    | ⟨0, _⟩ => show win5_2.index t (0 : Fin 2) * 1 + 1 * (y 0).val = (y 0).val; omega
    | ⟨1, _⟩ => show win5_2.index t (1 : Fin 2) * 256 + 1 * (y 1).val = (y 1).val; omega
  rw [h]

/-- Window 3's block at every point is its whole array: the block index is (0, 0) and the block has the array's extents. -/
theorem iblk_whole3 (c : Dev nD) (t : Fin cfg5.N) :
    (iblk5 V c 3 t : Vec Ideal S1x256 .f32) = (V c (Pipeline.arrRef spec5 3) : Arr 1 256) := by
  obtain ⟨e00, e01, e70, e71, e10, e11, e20, e21, e30, e31, e40, e41, e50, e51, e60, e61⟩ := idx_facts t
  funext y
  unfold iblk5
  rw [View.read_apply]
  show (V c (Pipeline.arrRef spec5 3) : Arr 1 256) (((cfg5.win 3).blk t).view.emb y) = _
  have h : ((cfg5.win 3).blk t).view.emb y = y := by
    funext a; apply Fin.ext
    match a with
    | ⟨0, _⟩ => show win5_3.index t (0 : Fin 2) * 1 + 1 * (y 0).val = (y 0).val; omega
    | ⟨1, _⟩ => show win5_3.index t (1 : Fin 2) * 256 + 1 * (y 1).val = (y 1).val; omega
  rw [h]

/-- Window 4's block at every point is its whole array: the block index is (0, 0) and the block has the array's extents. -/
theorem iblk_whole4 (c : Dev nD) (t : Fin cfg5.N) :
    (iblk5 V c 4 t : Vec Ideal S1x256 .f32) = (V c (Pipeline.arrRef spec5 4) : Arr 1 256) := by
  obtain ⟨e00, e01, e70, e71, e10, e11, e20, e21, e30, e31, e40, e41, e50, e51, e60, e61⟩ := idx_facts t
  funext y
  unfold iblk5
  rw [View.read_apply]
  show (V c (Pipeline.arrRef spec5 4) : Arr 1 256) (((cfg5.win 4).blk t).view.emb y) = _
  have h : ((cfg5.win 4).blk t).view.emb y = y := by
    funext a; apply Fin.ext
    match a with
    | ⟨0, _⟩ => show win5_4.index t (0 : Fin 2) * 1 + 1 * (y 0).val = (y 0).val; omega
    | ⟨1, _⟩ => show win5_4.index t (1 : Fin 2) * 256 + 1 * (y 1).val = (y 1).val; omega
  rw [h]

/-- Window 5's block at every point is its whole array: the block index is (0, 0) and the block has the array's extents. -/
theorem iblk_whole5 (c : Dev nD) (t : Fin cfg5.N) :
    (iblk5 V c 5 t : Vec Ideal S256x128 .f32) = (V c (Pipeline.arrRef spec5 5) : Arr 256 128) := by
  obtain ⟨e00, e01, e70, e71, e10, e11, e20, e21, e30, e31, e40, e41, e50, e51, e60, e61⟩ := idx_facts t
  funext y
  unfold iblk5
  rw [View.read_apply]
  show (V c (Pipeline.arrRef spec5 5) : Arr 256 128) (((cfg5.win 5).blk t).view.emb y) = _
  have h : ((cfg5.win 5).blk t).view.emb y = y := by
    funext a; apply Fin.ext
    match a with
    | ⟨0, _⟩ => show win5_5.index t (0 : Fin 2) * 256 + 1 * (y 0).val = (y 0).val; omega
    | ⟨1, _⟩ => show win5_5.index t (1 : Fin 2) * 128 + 1 * (y 1).val = (y 1).val; omega
  rw [h]

/-- Window 6's block at every point is its whole array: the block index is (0, 0) and the block has the array's extents. -/
theorem iblk_whole6 (c : Dev nD) (t : Fin cfg5.N) :
    (iblk5 V c 6 t : Vec Ideal S1x128 .f32) = (V c (Pipeline.arrRef spec5 6) : Arr 1 128) := by
  obtain ⟨e00, e01, e70, e71, e10, e11, e20, e21, e30, e31, e40, e41, e50, e51, e60, e61⟩ := idx_facts t
  funext y
  unfold iblk5
  rw [View.read_apply]
  show (V c (Pipeline.arrRef spec5 6) : Arr 1 128) (((cfg5.win 6).blk t).view.emb y) = _
  have h : ((cfg5.win 6).blk t).view.emb y = y := by
    funext a; apply Fin.ext
    match a with
    | ⟨0, _⟩ => show win5_6.index t (0 : Fin 2) * 1 + 1 * (y 0).val = (y 0).val; omega
    | ⟨1, _⟩ => show win5_6.index t (1 : Fin 2) * 128 + 1 * (y 1).val = (y 1).val; omega
  rw [h]

/-- WHAT POINT t WRITES BACK is block t of the closed form: the body's result on the blocks point t loads is rows
    3600·t … 3600·t + 3599 of the closed form. -/
theorem flushed7_eq (c : Dev nD) (t : Fin cfg5.N) :
    (dat5 V c).flushed 7 t = ((cfg5.win 7).blk t).view.read (Elt Ideal) (closed V c) := by
  show (cfg5.win 7).cut (grid5.coords t) ((dat5 V c).after 7 t) = _
  rw [after5_7]
  unfold out5_7
  rw [View.canon_unit_zero hz2]
  simp only [View.ld_unit_zero (S := S3600x256) hz2, View.ld_unit_zero (S := S1x256) hz2,
    View.ld_unit_zero (S := S256x128) hz2, View.ld_unit_zero (S := S1x128) hz2]
  obtain ⟨e00, e01, e70, e71, e10, e11, e20, e21, e30, e31, e40, e41, e50, e51, e60, e61⟩ := idx_facts t
  refine funext fun (y : S3600x128.Idx) => ?_
  refine pay_block (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))
    (iblk5 V c 0 t) (iblk5 V c 1 t) (iblk5 V c 2 t) (iblk5 V c 3 t) (iblk5 V c 4 t) (iblk5 V c 5 t) (iblk5 V c 6 t)
    (win5_7.index t (0 : Fin 2)) (fun r k n hn => iblk0_apply V c t r k n hn)
    (iblk_whole1 V c t) (iblk_whole2 V c t) (iblk_whole3 V c t) (iblk_whole4 V c t) (iblk_whole5 V c t) (iblk_whole6 V c t)
    y (((cfg5.win 7).blk t).view.emb y) ?_ ?_
  · show win5_7.index t (0 : Fin 2) * 3600 + 1 * (y 0).val = win5_7.index t (0 : Fin 2) * 3600 + (y 0).val
    omega
  · show win5_7.index t (1 : Fin 2) * 128 + 1 * (y 1).val = (y 1).val
    omega

/-- An index of the output array is in point t's block iff each coordinate is in the block's range on its axis. -/
theorem mem_blk7 (t : Fin cfg5.N) (i : S90000x128.Idx) :
    i ∈ ((cfg5.win 7).blk t).view.set ↔ ∀ a : Fin 2, win5_7.index t a * S3600x128.size a ≤ (i a).val
      ∧ (i a).val < win5_7.index t a * S3600x128.size a + S3600x128.size a := by
  show i ∈ ((View.whole main_v105).slice (win5_7.rect t)).set ↔ _
  rw [View.set_slice_whole, Rect.mem_set_unit]
  exact Iff.rfl

/-- Every index of the output array is in the block of a point that writes back: row n is in point n / 3600's. -/
theorem cover7 (i : S90000x128.Idx) :
    ∃ t : Fin cfg5.N, (cfg5.win 7).flush t = true ∧ i ∈ ((cfg5.win 7).blk t).view.set := by
  have hi0 : (i 0).val < 90000 := (i 0).isLt
  have hi1 : (i 1).val < 128 := (i 1).isLt
  have hlt : (i 0).val / 3600 < cfg5.N := Nat.lt_of_lt_of_eq (by omega : (i 0).val / 3600 < 25) N_5.symm
  obtain ⟨t, ht⟩ : ∃ t : Fin cfg5.N, t.val = (i 0).val / 3600 := ⟨⟨(i 0).val / 3600, hlt⟩, rfl⟩
  obtain ⟨e00, e01, e70, e71, e10, e11, e20, e21, e30, e31, e40, e41, e50, e51, e60, e61⟩ := idx_facts t
  refine ⟨t, flush5_7 t, ?_⟩
  rw [mem_blk7]
  intro a
  match a with
  | ⟨0, _⟩ =>
    show win5_7.index t (0 : Fin 2) * 3600 ≤ (i 0).val ∧ (i 0).val < win5_7.index t (0 : Fin 2) * 3600 + 3600
    omega
  | ⟨1, _⟩ =>
    show win5_7.index t (1 : Fin 2) * 128 ≤ (i 1).val ∧ (i 1).val < win5_7.index t (1 : Fin 2) * 128 + 128
    omega

/-- THE OUTPUT ARRAY after the region's 25 points is the closed form of the arrays the region finds. -/
theorem final5_7 (c : Dev nD) :
    (dat5 V c).arrAt 7 cfg5.N = norm2 false (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) :=
  (dat5 V c).arrAt_eq_of_cover 7 (closed V c) (fun t _ => flushed7_eq V c t) (cover7)

end Cert.KernelIdeal.Region5

end
-- ==== Proof.KernelLayer3b.lean ====
/-
  The idealized kernel program's third layer, second half, read through its run.

  After the layer's statistics kernel the host divides the column sums by the row count (the mean row), forms mean of
  squares minus the squared mean (the variance row), and reshapes the scale, shift and second bias to one row each.
  The layer's normalising kernel finds these with h and the second weight, and leaves the normalised second affine map with no activation:
  so the layer's output buffer holds the specification's norm2 of what the statistics kernel and the host stretch
  before it left.
-/
import proofs.«117235_j17583596110491_1_alg».proof.Proof.Gen.KernelIdeal.Frame
import proofs.«117235_j17583596110491_1_alg».proof.Proof.LayerSpec
import proofs.«117235_j17583596110491_1_alg».proof.Proof.LayerBridge
import proofs.«117235_j17583596110491_1_alg».proof.Proof.RefLayer
import proofs.«117235_j17583596110491_1_alg».proof.Proof.KernelGlue
import proofs.«117235_j17583596110491_1_alg».proof.Proof.Region5
import Idealize.ShloMosaic.Lib.StableHlo.Run

set_option maxRecDepth 16384

noncomputable section

namespace Cert.KernelIdeal.KLayer3

open Cert.KernelIdeal Cert.KernelIdeal.Gen
open Idealize.ShloMosaic Idealize.ShloMosaic.TcCoe Idealize.ShloMosaic.ValueIdx Idealize.SL.Sem Idealize.ShloMosaic.StableHlo
open Cert.LayerSpec Cert.LayerBridge Cert.RefLayer Cert.KernelGlue

variable (m : (ℓ : Loc nD τ sig) → Buf (Elt Ideal) ℓ) (ρ : Dev nD → PrngReg)

/-- No operation of the host stretch writes h: it keeps its contents through the stretch. -/
theorem in0 (c : Dev nD) : W11 m ρ c (Proc.devRef .tc main_v95_0) = W10 m ρ c (Proc.devRef .tc main_v95_0) := by
  exact StableHlo.after_of_forall_not_mem _ _ (List.forall_iff_forall_mem.mp (by
    simp only [hostOps5, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation of the host stretch writes the second weight: it keeps its contents through the stretch. -/
theorem in5 (c : Dev nD) : W11 m ρ c (Proc.devRef .tc main_v81) = W10 m ρ c (Proc.devRef .tc main_v81) := by
  exact StableHlo.after_of_forall_not_mem _ _ (List.forall_iff_forall_mem.mp (by
    simp only [hostOps5, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The mean row: the column sums divided by the row count. -/
theorem in1 (c : Dev nD) : W11 m ρ c (Proc.devRef .tc main_v97) = meanK (W10 m ρ c (Proc.devRef .tc main_v95_1)) := by
  show StableHlo.after hostOps5 (W10 m ρ c) (Proc.devRef .tc main_v97) = _
  after_results
  exact meanRow_eq _ _

/-- The variance row: the mean of squares minus the squared mean. -/
theorem in2 (c : Dev nD) :
    W11 m ρ c (Proc.devRef .tc main_v101) = varK (W10 m ρ c (Proc.devRef .tc main_v95_1)) (W10 m ρ c (Proc.devRef .tc main_v95_2)) := by
  show StableHlo.after hostOps5 (W10 m ρ c) (Proc.devRef .tc main_v101) = _
  after_results
  exact varRow_eq _ _ _ _

/-- The scale vector as one row. -/
theorem in3 (c : Dev nD) : W11 m ρ c (Proc.devRef .tc main_v102) = rowOf (W10 m ρ c (Proc.devRef .tc main_v77)) := by
  show StableHlo.after hostOps5 (W10 m ρ c) (Proc.devRef .tc main_v102) = _
  after_results
  exact rowCast_eq _ _

/-- The shift vector as one row. -/
theorem in4 (c : Dev nD) : W11 m ρ c (Proc.devRef .tc main_v103) = rowOf (W10 m ρ c (Proc.devRef .tc main_v79)) := by
  show StableHlo.after hostOps5 (W10 m ρ c) (Proc.devRef .tc main_v103) = _
  after_results
  exact rowCast_eq _ _

/-- The second bias vector as one row. -/
theorem in6 (c : Dev nD) : W11 m ρ c (Proc.devRef .tc main_v104) = rowOf (W10 m ρ c (Proc.devRef .tc main_v83)) := by
  show StableHlo.after hostOps5 (W10 m ρ c) (Proc.devRef .tc main_v104) = _
  after_results
  exact rowCast_eq _ _

/-- The third layer's output buffer after its normalising kernel. -/
theorem out_eq (c : Dev nD) :
    W12 m ρ c (Proc.devRef .tc main_v105)
      = norm2 false (W10 m ρ c (Proc.devRef .tc main_v95_0)) (meanK (W10 m ρ c (Proc.devRef .tc main_v95_1)))
          (varK (W10 m ρ c (Proc.devRef .tc main_v95_1)) (W10 m ρ c (Proc.devRef .tc main_v95_2)))
          (rowOf (W10 m ρ c (Proc.devRef .tc main_v77))) (rowOf (W10 m ρ c (Proc.devRef .tc main_v79)))
          (W10 m ρ c (Proc.devRef .tc main_v81)) (rowOf (W10 m ρ c (Proc.devRef .tc main_v83))) := by
  refine ((W12_arr m ρ c 7).trans (Cert.KernelIdeal.Region5.final5_7 (V11 m ρ) c)).trans ?_
  show norm2 false (W11 m ρ c (Proc.devRef .tc main_v95_0)) (W11 m ρ c (Proc.devRef .tc main_v97)) (W11 m ρ c (Proc.devRef .tc main_v101))
    (W11 m ρ c (Proc.devRef .tc main_v102)) (W11 m ρ c (Proc.devRef .tc main_v103)) (W11 m ρ c (Proc.devRef .tc main_v81))
    (W11 m ρ c (Proc.devRef .tc main_v104)) = _
  rw [in0, in1, in2, in3, in4, in5, in6]

end Cert.KernelIdeal.KLayer3

end
-- ==== Proof.KernelLayer3a.lean ====
/-
  The idealized kernel program's third layer, read through its run.

  The layer's statistics kernel finds x (the layer before's output), the aggregated neighbours, the first weight and the
  bias row, and leaves h = (x + agg)·W₁ + b₁ with its column sums and column sums of squares.  The host then divides
  the sums by the row count (the mean row and the variance row) and reshapes the scale, shift and second bias to one
  row each.  The normalising kernel finds these and leaves the normalised second affine map.  So the layer's output
  buffer holds the specification's layer of the buffers the host stretch before the statistics kernel computed.
-/
import proofs.«117235_j17583596110491_1_alg».proof.Proof.Gen.KernelIdeal.Frame
import proofs.«117235_j17583596110491_1_alg».proof.Proof.LayerSpec
import proofs.«117235_j17583596110491_1_alg».proof.Proof.LayerBridge
import proofs.«117235_j17583596110491_1_alg».proof.Proof.RefLayer
import proofs.«117235_j17583596110491_1_alg».proof.Proof.KernelGlue
import proofs.«117235_j17583596110491_1_alg».proof.Proof.Region4Value
import proofs.«117235_j17583596110491_1_alg».proof.Proof.KernelLayer3b
import Idealize.ShloMosaic.Lib.StableHlo.Run

set_option maxRecDepth 16384

noncomputable section

namespace Cert.KernelIdeal.KLayer3

open Cert.KernelIdeal Cert.KernelIdeal.Gen
open Idealize.ShloMosaic Idealize.ShloMosaic.TcCoe Idealize.ShloMosaic.ValueIdx Idealize.SL.Sem Idealize.ShloMosaic.StableHlo
open Cert.LayerSpec Cert.LayerBridge Cert.RefLayer Cert.KernelGlue

variable (m : (ℓ : Loc nD τ sig) → Buf (Elt Ideal) ℓ) (ρ : Dev nD → PrngReg)

/-- h after the statistics kernel: the first affine map of what the host stretch before it left. -/
theorem h_eq (c : Dev nD) :
    W10 m ρ c (Proc.devRef .tc main_v95_0)
      = lin1 (W9 m ρ c (Proc.devRef .tc main_v71)) (W9 m ρ c (Proc.devRef .tc main_v93)) (W9 m ρ c (Proc.devRef .tc main_v73))
          (W9 m ρ c (Proc.devRef .tc main_v94)) :=
  (W10_arr m ρ c 4).trans (Cert.KernelIdeal.Region4.final4_4 (V9 m ρ) c)

/-- The column sums after the statistics kernel. -/
theorem s_eq (c : Dev nD) :
    W10 m ρ c (Proc.devRef .tc main_v95_1)
      = colSum (lin1 (W9 m ρ c (Proc.devRef .tc main_v71)) (W9 m ρ c (Proc.devRef .tc main_v93)) (W9 m ρ c (Proc.devRef .tc main_v73))
          (W9 m ρ c (Proc.devRef .tc main_v94))) :=
  (W10_arr m ρ c 5).trans (Cert.KernelIdeal.Region4.final4_5 (V9 m ρ) c)

/-- The column sums of squares after the statistics kernel. -/
theorem ss_eq (c : Dev nD) :
    W10 m ρ c (Proc.devRef .tc main_v95_2)
      = colSumSq (lin1 (W9 m ρ c (Proc.devRef .tc main_v71)) (W9 m ρ c (Proc.devRef .tc main_v93)) (W9 m ρ c (Proc.devRef .tc main_v73))
          (W9 m ρ c (Proc.devRef .tc main_v94))) :=
  (W10_arr m ρ c 6).trans (Cert.KernelIdeal.Region4.final4_6 (V9 m ρ) c)

/-- Buffers the statistics kernel does not touch keep their contents through it. -/
theorem keep77 (c : Dev nD) : W10 m ρ c (Proc.devRef .tc main_v77) = W9 m ρ c (Proc.devRef .tc main_v77) := W10_of_ne m ρ c main_v77 (by decide)
theorem keep79 (c : Dev nD) : W10 m ρ c (Proc.devRef .tc main_v79) = W9 m ρ c (Proc.devRef .tc main_v79) := W10_of_ne m ρ c main_v79 (by decide)
theorem keep81 (c : Dev nD) : W10 m ρ c (Proc.devRef .tc main_v81) = W9 m ρ c (Proc.devRef .tc main_v81) := W10_of_ne m ρ c main_v81 (by decide)
theorem keep83 (c : Dev nD) : W10 m ρ c (Proc.devRef .tc main_v83) = W9 m ρ c (Proc.devRef .tc main_v83) := W10_of_ne m ρ c main_v83 (by decide)

set_option maxHeartbeats 2000000 in
/-- The first bias as the statistics kernel finds it is the bias vector as one row. -/
theorem b1row (c : Dev nD) : W9 m ρ c (Proc.devRef .tc main_v94) = rowOf (W9 m ρ c (Proc.devRef .tc main_v75)) := by
  show StableHlo.after hostOps4 (W8 m ρ c) (Proc.devRef .tc main_v94) = rowOf (StableHlo.after hostOps4 (W8 m ρ c) (Proc.devRef .tc main_v75))
  after_results_simp
  exact rowCast_eq _ _

/-- THE KERNEL PROGRAM'S THIRD LAYER: its output buffer holds the specification's layer of what the host stretch
    before the layer's statistics kernel left. -/
theorem layer3 (c : Dev nD) :
    W12 m ρ c (Proc.devRef .tc main_v105)
      = norm2 false
          (lin1 (W9 m ρ c (Proc.devRef .tc main_v71)) (W9 m ρ c (Proc.devRef .tc main_v93)) (W9 m ρ c (Proc.devRef .tc main_v73))
          (rowOf (W9 m ρ c (Proc.devRef .tc main_v75))))
          (meanK (colSum (lin1 (W9 m ρ c (Proc.devRef .tc main_v71)) (W9 m ρ c (Proc.devRef .tc main_v93)) (W9 m ρ c (Proc.devRef .tc main_v73))
          (rowOf (W9 m ρ c (Proc.devRef .tc main_v75))))))
          (varK (colSum (lin1 (W9 m ρ c (Proc.devRef .tc main_v71)) (W9 m ρ c (Proc.devRef .tc main_v93)) (W9 m ρ c (Proc.devRef .tc main_v73))
          (rowOf (W9 m ρ c (Proc.devRef .tc main_v75)))))
            (colSumSq (lin1 (W9 m ρ c (Proc.devRef .tc main_v71)) (W9 m ρ c (Proc.devRef .tc main_v93)) (W9 m ρ c (Proc.devRef .tc main_v73))
          (rowOf (W9 m ρ c (Proc.devRef .tc main_v75))))))
          (rowOf (W9 m ρ c (Proc.devRef .tc main_v77))) (rowOf (W9 m ρ c (Proc.devRef .tc main_v79)))
          (W9 m ρ c (Proc.devRef .tc main_v81)) (rowOf (W9 m ρ c (Proc.devRef .tc main_v83))) := by
  rw [out_eq, h_eq, s_eq, ss_eq, keep77, keep79, keep81, keep83, b1row]

end Cert.KernelIdeal.KLayer3

end
-- ==== Proof.RefLayer3.lean ====
/-
  The reference's third layer, read through its run.

  The third window's first 25 operations slice the third layer's parameters out of the stacked arrays and aggregate
  the neighbours of the second layer's output (a clamped gather and a scatter-add); its next 53 are the layer itself,
  with no activation: x + agg, the first affine map, the column means, the variance function, the normalisation and
  the second affine map; its last three already slice the fourth layer's parameters.  So the layer's output buffer
  holds the printed layer of what the first 25 operations left, and nothing later writes it.
-/
import proofs.«117235_j17583596110491_1_alg».proof.Proof.RefRun
import proofs.«117235_j17583596110491_1_alg».proof.Proof.RefLayer
import Idealize.ShloMosaic.Lib.StableHlo.Run

set_option maxRecDepth 65536

noncomputable section

namespace Cert.ReferenceIdeal.RLayer3

open Cert.ReferenceIdeal Cert.ReferenceIdeal.Gen Cert.ReferenceIdeal.RefRun
open Idealize.ShloMosaic Idealize.ShloMosaic.TcCoe Idealize.SL.Sem Idealize.ShloMosaic.StableHlo
open Cert.RefLayer

/-- The operations before the third layer proper: the slices of its parameters and the aggregation. -/
abbrev chain3 : List (HloOp τ sig (Elt Ideal)) := (ops2 (F := Ideal)).take 25
/-- The third layer's own operations. -/
abbrev core3 : List (HloOp τ sig (Elt Ideal)) := ((ops2 (F := Ideal)).drop 25).take 53
/-- The rest of the third window: the first three slices of the fourth layer's parameters. -/
abbrev post3 : List (HloOp τ sig (Elt Ideal)) := (ops2 (F := Ideal)).drop 78

/-- The third window is the three stretches one after the other. -/
theorem ops2_split : (ops2 (F := Ideal)) = chain3 ++ (core3 ++ post3) := by
  have h : post3 = ((ops2 (F := Ideal)).drop 25).drop 53 := by
    show (ops2 (F := Ideal)).drop 78 = _
    rw [List.drop_drop]
  rw [h, List.take_append_drop, List.take_append_drop]

theorem after_ops2 (V : Valuation τ sig (Elt Ideal)) :
    after (ops2 (F := Ideal)) V = after post3 (after core3 (after chain3 V)) := by
  rw [← StableHlo.after_append core3 post3, ← StableHlo.after_append chain3 (core3 ++ post3), ← ops2_split]

/-- The references the last three operations of the third window write. -/
abbrev Wpost3 : List (Ref sig .tc) := [main_v156, main_v157, main_v158]

theorem post3_writes : post3.Forall fun op =>
    op.writes ⊆ ((Wpost3.map (Proc.devRef (τ := τ) .tc)).toFinset : Finset (DevRef τ sig)) := by
  simp only [post3, List.drop_succ_cons, List.drop_zero]
  exact ⟨writes_sub_at Wpost3 0 rfl rfl, writes_sub_at Wpost3 1 rfl rfl, writes_sub_at Wpost3 2 rfl rfl⟩

/-- The layer's output is written by the last of its own operations and by nothing later. -/
theorem out_eq3 (V : Valuation τ sig (Elt Ideal)) :
    after (ops (F := Ideal)) V (main_v155 : DevRef τ sig)
      = after core3 (after chain3 (after (ops1 (F := Ideal)) (after (ops0 (F := Ideal)) V))) (main_v155 : DevRef τ sig) := by
  rw [after_ops]
  rw [StableHlo.after_of_writes_sub ops5 _ ops5_writes (by decide), StableHlo.after_of_writes_sub ops4 _ ops4_writes (by decide),
    StableHlo.after_of_writes_sub ops3 _ ops3_writes (by decide), after_ops2,
    StableHlo.after_of_writes_sub post3 _ post3_writes (by decide)]

/-- The third layer's h, as the reference prints it, of what the slices and the aggregation left. -/
abbrev H3 (W : Valuation τ sig (Elt Ideal)) : FVec Ideal ⟨2, ![90000, 256]⟩ .f32 :=
  refLin (addf (W (main_v105 : DevRef τ sig)) (W (main_v127 : DevRef τ sig))) (W (main_v107 : DevRef τ sig)) (W (main_v109 : DevRef τ sig))
    dot_S90000x128_S128x256_S90000x256_1_0_0_1_n_n_wf bcast_S256_S1x256_1 bcast_S1x256_S90000x256_0_1

set_option maxHeartbeats 4000000 in
/-- THE REFERENCE'S THIRD LAYER: its output buffer holds the printed layer of what the slices and the aggregation left. -/
theorem layer3 (W : Valuation τ sig (Elt Ideal)) :
    after core3 W (main_v155 : DevRef τ sig)
      = refOutLin (H3 W) (refMean (H3 W) reducesTo_S90000x256_S256_d0 h_S_ bcast_S_S256)
          (refVar (H3 W) reducesTo_S90000x256_S256_d0 h_S_ bcast_S_S256 bcast_S_S1x256 bcast_S256_S1x256_1 bcast_S1x256_S90000x256_0_1)
          (W (main_v111 : DevRef τ sig)) (W (main_v113 : DevRef τ sig)) (W (main_v115 : DevRef τ sig)) (W (main_v117 : DevRef τ sig))
          dot_S90000x256_S256x128_S90000x128_1_0_0_1_n_n_wf bcast_S_S256 bcast_S256_S1x256_1
          bcast_S1x256_S90000x256_0_1 bcast_S128_S1x128_1 bcast_S1x128_S90000x128_0_1 := by
  simp only [core3, List.drop_succ_cons, List.drop_zero, List.take_succ_cons, List.take_zero]
  after_results_simp
  rfl

end Cert.ReferenceIdeal.RLayer3

end
-- ==== Proof.Chain3.lean ====
/-
  The two programs' stretches before layer 3 agree.

  Before the layer's first kernel the kernel program slices the layer's parameters and aggregates the neighbours of the
  previous layer's output; the reference's corresponding operations are the same operations in the same order.  From
  valuations that agree on the previous layer's output and on the arguments, each buffer these operations write holds
  the same array in both programs.
-/
import proofs.«117235_j17583596110491_1_alg».proof.Proof.Gen.KernelIdeal.Frame
import proofs.«117235_j17583596110491_1_alg».proof.Proof.RefLayer3
import Idealize.ShloMosaic.Lib.StableHlo.Run

set_option maxRecDepth 65536

noncomputable section

namespace Cert.Chain3

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option maxHeartbeats 1000000 in
theorem x_eq (Vp : Valuation Cert.ReferenceIdeal.τ Cert.ReferenceIdeal.sig (Elt Ideal)) (hx : Vp (Proc.devRef .tc Cert.ReferenceIdeal.main_v105) = Cert.KernelIdeal.Gen.W8 m ρ c (Proc.devRef .tc Cert.KernelIdeal.main_v71)) :
    StableHlo.after Cert.ReferenceIdeal.RLayer3.chain3 Vp (Proc.devRef .tc Cert.ReferenceIdeal.main_v105)
      = Cert.KernelIdeal.Gen.W9 m ρ c (Proc.devRef .tc Cert.KernelIdeal.main_v71) := by
  show StableHlo.after Cert.ReferenceIdeal.RLayer3.chain3 Vp (Proc.devRef .tc Cert.ReferenceIdeal.main_v105)
      = StableHlo.after Cert.KernelIdeal.Gen.hostOps4 (Cert.KernelIdeal.Gen.W8 m ρ c) (Proc.devRef .tc Cert.KernelIdeal.main_v71)
  simp only [Cert.ReferenceIdeal.RLayer3.chain3, List.take_succ_cons, List.take_zero, List.drop_succ_cons, List.drop_zero, List.cons_append, List.nil_append]
  after_results_simp
  rw [hx]
  all_goals rfl

set_option maxHeartbeats 1000000 in
theorem agg_eq (Vp : Valuation Cert.ReferenceIdeal.τ Cert.ReferenceIdeal.sig (Elt Ideal)) (hx : Vp (Proc.devRef .tc Cert.ReferenceIdeal.main_v105) = Cert.KernelIdeal.Gen.W8 m ρ c (Proc.devRef .tc Cert.KernelIdeal.main_v71)) (hv1 : Vp (Proc.devRef .tc Cert.ReferenceIdeal.main_v1) = Cert.KernelIdeal.Gen.W8 m ρ c (Proc.devRef .tc Cert.KernelIdeal.main_v1)) (hv3 : Vp (Proc.devRef .tc Cert.ReferenceIdeal.main_v3) = Cert.KernelIdeal.Gen.W8 m ρ c (Proc.devRef .tc Cert.KernelIdeal.main_v3)) :
    StableHlo.after Cert.ReferenceIdeal.RLayer3.chain3 Vp (Proc.devRef .tc Cert.ReferenceIdeal.main_v127)
      = Cert.KernelIdeal.Gen.W9 m ρ c (Proc.devRef .tc Cert.KernelIdeal.main_v93) := by
  show StableHlo.after Cert.ReferenceIdeal.RLayer3.chain3 Vp (Proc.devRef .tc Cert.ReferenceIdeal.main_v127)
      = StableHlo.after Cert.KernelIdeal.Gen.hostOps4 (Cert.KernelIdeal.Gen.W8 m ρ c) (Proc.devRef .tc Cert.KernelIdeal.main_v93)
  simp only [Cert.ReferenceIdeal.RLayer3.chain3, List.take_succ_cons, List.take_zero, List.drop_succ_cons, List.drop_zero, List.cons_append, List.nil_append]
  after_results_simp
  rw [hx, hv1, hv3]
  all_goals rfl

set_option maxHeartbeats 1000000 in
theorem w1_eq (Vp : Valuation Cert.ReferenceIdeal.τ Cert.ReferenceIdeal.sig (Elt Ideal)) (h6 : Vp (Proc.devRef .tc Cert.ReferenceIdeal.main_arg6) = Cert.KernelIdeal.Gen.W8 m ρ c (Proc.devRef .tc Cert.KernelIdeal.main_arg6)) :
    StableHlo.after Cert.ReferenceIdeal.RLayer3.chain3 Vp (Proc.devRef .tc Cert.ReferenceIdeal.main_v107)
      = Cert.KernelIdeal.Gen.W9 m ρ c (Proc.devRef .tc Cert.KernelIdeal.main_v73) := by
  show StableHlo.after Cert.ReferenceIdeal.RLayer3.chain3 Vp (Proc.devRef .tc Cert.ReferenceIdeal.main_v107)
      = StableHlo.after Cert.KernelIdeal.Gen.hostOps4 (Cert.KernelIdeal.Gen.W8 m ρ c) (Proc.devRef .tc Cert.KernelIdeal.main_v73)
  simp only [Cert.ReferenceIdeal.RLayer3.chain3, List.take_succ_cons, List.take_zero, List.drop_succ_cons, List.drop_zero, List.cons_append, List.nil_append]
  after_results_simp
  rw [h6]
  all_goals rfl

set_option maxHeartbeats 1000000 in
theorem b1_eq (Vp : Valuation Cert.ReferenceIdeal.τ Cert.ReferenceIdeal.sig (Elt Ideal)) (h7 : Vp (Proc.devRef .tc Cert.ReferenceIdeal.main_arg7) = Cert.KernelIdeal.Gen.W8 m ρ c (Proc.devRef .tc Cert.KernelIdeal.main_arg7)) :
    StableHlo.after Cert.ReferenceIdeal.RLayer3.chain3 Vp (Proc.devRef .tc Cert.ReferenceIdeal.main_v109)
      = Cert.KernelIdeal.Gen.W9 m ρ c (Proc.devRef .tc Cert.KernelIdeal.main_v75) := by
  show StableHlo.after Cert.ReferenceIdeal.RLayer3.chain3 Vp (Proc.devRef .tc Cert.ReferenceIdeal.main_v109)
      = StableHlo.after Cert.KernelIdeal.Gen.hostOps4 (Cert.KernelIdeal.Gen.W8 m ρ c) (Proc.devRef .tc Cert.KernelIdeal.main_v75)
  simp only [Cert.ReferenceIdeal.RLayer3.chain3, List.take_succ_cons, List.take_zero, List.drop_succ_cons, List.drop_zero, List.cons_append, List.nil_append]
  after_results_simp
  rw [h7]
  all_goals rfl

set_option maxHeartbeats 1000000 in
theorem gamma_eq (Vp : Valuation Cert.ReferenceIdeal.τ Cert.ReferenceIdeal.sig (Elt Ideal)) (h8 : Vp (Proc.devRef .tc Cert.ReferenceIdeal.main_arg8) = Cert.KernelIdeal.Gen.W8 m ρ c (Proc.devRef .tc Cert.KernelIdeal.main_arg8)) :
    StableHlo.after Cert.ReferenceIdeal.RLayer3.chain3 Vp (Proc.devRef .tc Cert.ReferenceIdeal.main_v111)
      = Cert.KernelIdeal.Gen.W9 m ρ c (Proc.devRef .tc Cert.KernelIdeal.main_v77) := by
  show StableHlo.after Cert.ReferenceIdeal.RLayer3.chain3 Vp (Proc.devRef .tc Cert.ReferenceIdeal.main_v111)
      = StableHlo.after Cert.KernelIdeal.Gen.hostOps4 (Cert.KernelIdeal.Gen.W8 m ρ c) (Proc.devRef .tc Cert.KernelIdeal.main_v77)
  simp only [Cert.ReferenceIdeal.RLayer3.chain3, List.take_succ_cons, List.take_zero, List.drop_succ_cons, List.drop_zero, List.cons_append, List.nil_append]
  after_results_simp
  rw [h8]
  all_goals rfl

set_option maxHeartbeats 1000000 in
theorem beta_eq (Vp : Valuation Cert.ReferenceIdeal.τ Cert.ReferenceIdeal.sig (Elt Ideal)) (h9 : Vp (Proc.devRef .tc Cert.ReferenceIdeal.main_arg9) = Cert.KernelIdeal.Gen.W8 m ρ c (Proc.devRef .tc Cert.KernelIdeal.main_arg9)) :
    StableHlo.after Cert.ReferenceIdeal.RLayer3.chain3 Vp (Proc.devRef .tc Cert.ReferenceIdeal.main_v113)
      = Cert.KernelIdeal.Gen.W9 m ρ c (Proc.devRef .tc Cert.KernelIdeal.main_v79) := by
  show StableHlo.after Cert.ReferenceIdeal.RLayer3.chain3 Vp (Proc.devRef .tc Cert.ReferenceIdeal.main_v113)
      = StableHlo.after Cert.KernelIdeal.Gen.hostOps4 (Cert.KernelIdeal.Gen.W8 m ρ c) (Proc.devRef .tc Cert.KernelIdeal.main_v79)
  simp only [Cert.ReferenceIdeal.RLayer3.chain3, List.take_succ_cons, List.take_zero, List.drop_succ_cons, List.drop_zero, List.cons_append, List.nil_append]
  after_results_simp
  rw [h9]
  all_goals rfl

set_option maxHeartbeats 1000000 in
theorem w2_eq (Vp : Valuation Cert.ReferenceIdeal.τ Cert.ReferenceIdeal.sig (Elt Ideal)) (h10 : Vp (Proc.devRef .tc Cert.ReferenceIdeal.main_arg10) = Cert.KernelIdeal.Gen.W8 m ρ c (Proc.devRef .tc Cert.KernelIdeal.main_arg10)) :
    StableHlo.after Cert.ReferenceIdeal.RLayer3.chain3 Vp (Proc.devRef .tc Cert.ReferenceIdeal.main_v115)
      = Cert.KernelIdeal.Gen.W9 m ρ c (Proc.devRef .tc Cert.KernelIdeal.main_v81) := by
  show StableHlo.after Cert.ReferenceIdeal.RLayer3.chain3 Vp (Proc.devRef .tc Cert.ReferenceIdeal.main_v115)
      = StableHlo.after Cert.KernelIdeal.Gen.hostOps4 (Cert.KernelIdeal.Gen.W8 m ρ c) (Proc.devRef .tc Cert.KernelIdeal.main_v81)
  simp only [Cert.ReferenceIdeal.RLayer3.chain3, List.take_succ_cons, List.take_zero, List.drop_succ_cons, List.drop_zero, List.cons_append, List.nil_append]
  after_results_simp
  rw [h10]
  all_goals rfl

set_option maxHeartbeats 1000000 in
theorem b2_eq (Vp : Valuation Cert.ReferenceIdeal.τ Cert.ReferenceIdeal.sig (Elt Ideal)) (h11 : Vp (Proc.devRef .tc Cert.ReferenceIdeal.main_arg11) = Cert.KernelIdeal.Gen.W8 m ρ c (Proc.devRef .tc Cert.KernelIdeal.main_arg11)) :
    StableHlo.after Cert.ReferenceIdeal.RLayer3.chain3 Vp (Proc.devRef .tc Cert.ReferenceIdeal.main_v117)
      = Cert.KernelIdeal.Gen.W9 m ρ c (Proc.devRef .tc Cert.KernelIdeal.main_v83) := by
  show StableHlo.after Cert.ReferenceIdeal.RLayer3.chain3 Vp (Proc.devRef .tc Cert.ReferenceIdeal.main_v117)
      = StableHlo.after Cert.KernelIdeal.Gen.hostOps4 (Cert.KernelIdeal.Gen.W8 m ρ c) (Proc.devRef .tc Cert.KernelIdeal.main_v83)
  simp only [Cert.ReferenceIdeal.RLayer3.chain3, List.take_succ_cons, List.take_zero, List.drop_succ_cons, List.drop_zero, List.cons_append, List.nil_append]
  after_results_simp
  rw [h11]
  all_goals rfl

end Cert.Chain3

end
-- ==== Proof.ChainFin3.lean ====
/-
  What the reference's stretch before layer 3 leaves is finite when the previous layer's output and the arguments are.
-/
import proofs.«117235_j17583596110491_1_alg».proof.Proof.RefLayer3
import proofs.«117235_j17583596110491_1_alg».proof.Proof.ChainFin1

set_option maxRecDepth 65536

noncomputable section

namespace Cert.ChainFin3

open Idealize.ShloMosaic Idealize.ShloMosaic.TcCoe Idealize.SL.Sem Idealize.ShloMosaic.StableHlo
open Cert.LayerBridge Cert.ChainFin

variable (Vp : Valuation Cert.ReferenceIdeal.τ Cert.ReferenceIdeal.sig (Elt Ideal))

theorem fin_x (hx : FinArr (S := Cert.ReferenceIdeal.S90000x128) (Vp (Proc.devRef .tc Cert.ReferenceIdeal.main_v105))) :
    FinArr (S := Cert.ReferenceIdeal.S90000x128) (StableHlo.after Cert.ReferenceIdeal.RLayer3.chain3 Vp (Proc.devRef .tc Cert.ReferenceIdeal.main_v105)) := by
  simp only [Cert.ReferenceIdeal.RLayer3.chain3, List.take_succ_cons, List.take_zero, List.drop_succ_cons, List.drop_zero, List.cons_append, List.nil_append]
  after_results_simp
  exact hx

set_option maxHeartbeats 1000000 in
theorem fin_agg (hx : FinArr (S := Cert.ReferenceIdeal.S90000x128) (Vp (Proc.devRef .tc Cert.ReferenceIdeal.main_v105))) :
    FinArr (S := Cert.ReferenceIdeal.S90000x128) (StableHlo.after Cert.ReferenceIdeal.RLayer3.chain3 Vp (Proc.devRef .tc Cert.ReferenceIdeal.main_v127)) := by
  simp only [Cert.ReferenceIdeal.RLayer3.chain3, List.take_succ_cons, List.take_zero, List.drop_succ_cons, List.drop_zero, List.cons_append, List.nil_append]
  after_results_simp
  exact scatterAdd_fin _ _ _ _ (zeros_fin _) (gather_fin _ _ _ hx)

theorem fin_w1 (h : FinArr (S := Cert.ReferenceIdeal.S4x128x256) (Vp (Proc.devRef .tc Cert.ReferenceIdeal.main_arg6))) :
    FinArr (S := Cert.ReferenceIdeal.S128x256) (StableHlo.after Cert.ReferenceIdeal.RLayer3.chain3 Vp (Proc.devRef .tc Cert.ReferenceIdeal.main_v107)) := by
  simp only [Cert.ReferenceIdeal.RLayer3.chain3, List.take_succ_cons, List.take_zero, List.drop_succ_cons, List.drop_zero, List.cons_append, List.nil_append]
  after_results_simp
  exact shapeCast_fin _ _ (slice_fin _ _ _ h)

theorem fin_b1 (h : FinArr (S := Cert.ReferenceIdeal.S4x256) (Vp (Proc.devRef .tc Cert.ReferenceIdeal.main_arg7))) :
    FinArr (S := Cert.ReferenceIdeal.S256) (StableHlo.after Cert.ReferenceIdeal.RLayer3.chain3 Vp (Proc.devRef .tc Cert.ReferenceIdeal.main_v109)) := by
  simp only [Cert.ReferenceIdeal.RLayer3.chain3, List.take_succ_cons, List.take_zero, List.drop_succ_cons, List.drop_zero, List.cons_append, List.nil_append]
  after_results_simp
  exact shapeCast_fin _ _ (slice_fin _ _ _ h)

theorem fin_gamma (h : FinArr (S := Cert.ReferenceIdeal.S4x256) (Vp (Proc.devRef .tc Cert.ReferenceIdeal.main_arg8))) :
    FinArr (S := Cert.ReferenceIdeal.S256) (StableHlo.after Cert.ReferenceIdeal.RLayer3.chain3 Vp (Proc.devRef .tc Cert.ReferenceIdeal.main_v111)) := by
  simp only [Cert.ReferenceIdeal.RLayer3.chain3, List.take_succ_cons, List.take_zero, List.drop_succ_cons, List.drop_zero, List.cons_append, List.nil_append]
  after_results_simp
  exact shapeCast_fin _ _ (slice_fin _ _ _ h)

theorem fin_beta (h : FinArr (S := Cert.ReferenceIdeal.S4x256) (Vp (Proc.devRef .tc Cert.ReferenceIdeal.main_arg9))) :
    FinArr (S := Cert.ReferenceIdeal.S256) (StableHlo.after Cert.ReferenceIdeal.RLayer3.chain3 Vp (Proc.devRef .tc Cert.ReferenceIdeal.main_v113)) := by
  simp only [Cert.ReferenceIdeal.RLayer3.chain3, List.take_succ_cons, List.take_zero, List.drop_succ_cons, List.drop_zero, List.cons_append, List.nil_append]
  after_results_simp
  exact shapeCast_fin _ _ (slice_fin _ _ _ h)

theorem fin_w2 (h : FinArr (S := Cert.ReferenceIdeal.S4x256x128) (Vp (Proc.devRef .tc Cert.ReferenceIdeal.main_arg10))) :
    FinArr (S := Cert.ReferenceIdeal.S256x128) (StableHlo.after Cert.ReferenceIdeal.RLayer3.chain3 Vp (Proc.devRef .tc Cert.ReferenceIdeal.main_v115)) := by
  simp only [Cert.ReferenceIdeal.RLayer3.chain3, List.take_succ_cons, List.take_zero, List.drop_succ_cons, List.drop_zero, List.cons_append, List.nil_append]
  after_results_simp
  exact shapeCast_fin _ _ (slice_fin _ _ _ h)

theorem fin_b2 (h : FinArr (S := Cert.ReferenceIdeal.S4x128) (Vp (Proc.devRef .tc Cert.ReferenceIdeal.main_arg11))) :
    FinArr (S := Cert.ReferenceIdeal.S128) (StableHlo.after Cert.ReferenceIdeal.RLayer3.chain3 Vp (Proc.devRef .tc Cert.ReferenceIdeal.main_v117)) := by
  simp only [Cert.ReferenceIdeal.RLayer3.chain3, List.take_succ_cons, List.take_zero, List.drop_succ_cons, List.drop_zero, List.cons_append, List.nil_append]
  after_results_simp
  exact shapeCast_fin _ _ (slice_fin _ _ _ h)

end Cert.ChainFin3

end
-- ==== Proof.Layer3Sim.lean ====
/-
  Layer 3: the two programs' outputs agree.

  From valuations at the previous layer boundary that agree on the previous layer's output, on the edge-index vectors and
  on the parameters, and whose previous output and parameters are finite: the reference's output buffer holds its printed
  layer of what its stretch left, which on a finite h is the specification's layer at the rows the kernel program forms
  (the variance identity); the kernel program's output buffer holds the specification's layer of what its stretch left;
  and the two stretches agree buffer by buffer.
-/
import proofs.«117235_j17583596110491_1_alg».proof.Proof.KernelLayer3a
import proofs.«117235_j17583596110491_1_alg».proof.Proof.RefLayer3
import proofs.«117235_j17583596110491_1_alg».proof.Proof.Chain3
import proofs.«117235_j17583596110491_1_alg».proof.Proof.ChainFin3
import proofs.«117235_j17583596110491_1_alg».proof.Proof.LayerEq

set_option maxRecDepth 65536

noncomputable section

namespace Cert.Layer3Sim

open Idealize.ShloMosaic Idealize.ShloMosaic.TcCoe Idealize.SL.Sem Idealize.ShloMosaic.StableHlo
open Cert.LayerSpec Cert.LayerBridge Cert.RefLayer Cert.LayerEq

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option maxHeartbeats 2000000 in
theorem sim (Vp : Valuation Cert.ReferenceIdeal.τ Cert.ReferenceIdeal.sig (Elt Ideal))
    (hx : Vp (Proc.devRef .tc Cert.ReferenceIdeal.main_v105) = Cert.KernelIdeal.Gen.W8 m ρ c (Proc.devRef .tc Cert.KernelIdeal.main_v71))
    (hv1 : Vp (Proc.devRef .tc Cert.ReferenceIdeal.main_v1) = Cert.KernelIdeal.Gen.W8 m ρ c (Proc.devRef .tc Cert.KernelIdeal.main_v1))
    (hv3 : Vp (Proc.devRef .tc Cert.ReferenceIdeal.main_v3) = Cert.KernelIdeal.Gen.W8 m ρ c (Proc.devRef .tc Cert.KernelIdeal.main_v3))
    (h6 : Vp (Proc.devRef .tc Cert.ReferenceIdeal.main_arg6) = Cert.KernelIdeal.Gen.W8 m ρ c (Proc.devRef .tc Cert.KernelIdeal.main_arg6))
    (h7 : Vp (Proc.devRef .tc Cert.ReferenceIdeal.main_arg7) = Cert.KernelIdeal.Gen.W8 m ρ c (Proc.devRef .tc Cert.KernelIdeal.main_arg7))
    (h8 : Vp (Proc.devRef .tc Cert.ReferenceIdeal.main_arg8) = Cert.KernelIdeal.Gen.W8 m ρ c (Proc.devRef .tc Cert.KernelIdeal.main_arg8))
    (h9 : Vp (Proc.devRef .tc Cert.ReferenceIdeal.main_arg9) = Cert.KernelIdeal.Gen.W8 m ρ c (Proc.devRef .tc Cert.KernelIdeal.main_arg9))
    (h10 : Vp (Proc.devRef .tc Cert.ReferenceIdeal.main_arg10) = Cert.KernelIdeal.Gen.W8 m ρ c (Proc.devRef .tc Cert.KernelIdeal.main_arg10))
    (h11 : Vp (Proc.devRef .tc Cert.ReferenceIdeal.main_arg11) = Cert.KernelIdeal.Gen.W8 m ρ c (Proc.devRef .tc Cert.KernelIdeal.main_arg11))
    (fx : FinArr (S := Cert.ReferenceIdeal.S90000x128) (Vp (Proc.devRef .tc Cert.ReferenceIdeal.main_v105)))
    (f6 : FinArr (S := Cert.ReferenceIdeal.S4x128x256) (Vp (Proc.devRef .tc Cert.ReferenceIdeal.main_arg6)))
    (f7 : FinArr (S := Cert.ReferenceIdeal.S4x256) (Vp (Proc.devRef .tc Cert.ReferenceIdeal.main_arg7)))
    (f8 : FinArr (S := Cert.ReferenceIdeal.S4x256) (Vp (Proc.devRef .tc Cert.ReferenceIdeal.main_arg8)))
    (f9 : FinArr (S := Cert.ReferenceIdeal.S4x256) (Vp (Proc.devRef .tc Cert.ReferenceIdeal.main_arg9)))
    (f10 : FinArr (S := Cert.ReferenceIdeal.S4x256x128) (Vp (Proc.devRef .tc Cert.ReferenceIdeal.main_arg10)))
    (f11 : FinArr (S := Cert.ReferenceIdeal.S4x128) (Vp (Proc.devRef .tc Cert.ReferenceIdeal.main_arg11))) :
    StableHlo.after Cert.ReferenceIdeal.RLayer3.core3 (StableHlo.after Cert.ReferenceIdeal.RLayer3.chain3 Vp) (Proc.devRef .tc Cert.ReferenceIdeal.main_v155)
        = Cert.KernelIdeal.Gen.W12 m ρ c (Proc.devRef .tc Cert.KernelIdeal.main_v105)
      ∧ FinArr (S := Cert.KernelIdeal.S90000x128) (Cert.KernelIdeal.Gen.W12 m ρ c (Proc.devRef .tc Cert.KernelIdeal.main_v105)) := by
  have hr : (⟨2, ![90000, 256]⟩ : Shape).Reduces [0] ⟨1, ![256]⟩ := by decide
  have fx' := Cert.ChainFin3.fin_x Vp fx
  have fagg := Cert.ChainFin3.fin_agg Vp fx
  have fw1 := Cert.ChainFin3.fin_w1 Vp f6
  have fb1 := Cert.ChainFin3.fin_b1 Vp f7
  have fg := Cert.ChainFin3.fin_gamma Vp f8
  have fb := Cert.ChainFin3.fin_beta Vp f9
  have fw2 := Cert.ChainFin3.fin_w2 Vp f10
  have fb2 := Cert.ChainFin3.fin_b2 Vp f11
  have eH : Cert.ReferenceIdeal.RLayer3.H3 (StableHlo.after Cert.ReferenceIdeal.RLayer3.chain3 Vp)
      = lin1 ((StableHlo.after Cert.ReferenceIdeal.RLayer3.chain3 Vp) (Proc.devRef .tc Cert.ReferenceIdeal.main_v105)) ((StableHlo.after Cert.ReferenceIdeal.RLayer3.chain3 Vp) (Proc.devRef .tc Cert.ReferenceIdeal.main_v127))
          ((StableHlo.after Cert.ReferenceIdeal.RLayer3.chain3 Vp) (Proc.devRef .tc Cert.ReferenceIdeal.main_v107)) (rowOf ((StableHlo.after Cert.ReferenceIdeal.RLayer3.chain3 Vp) (Proc.devRef .tc Cert.ReferenceIdeal.main_v109))) :=
    refLin_eq_lin1 _ _ _ _ _ _ _
  have fH : FinArr (S := ⟨2, ![90000, 256]⟩) (Cert.ReferenceIdeal.RLayer3.H3 (StableHlo.after Cert.ReferenceIdeal.RLayer3.chain3 Vp)) := by
    rw [eH]
    exact lin1_fin _ _ _ _ fx' fagg fw1 (fun i => fb1 _)
  have eR : StableHlo.after Cert.ReferenceIdeal.RLayer3.core3 (StableHlo.after Cert.ReferenceIdeal.RLayer3.chain3 Vp) (Proc.devRef .tc Cert.ReferenceIdeal.main_v155)
      = norm2 false (Cert.ReferenceIdeal.RLayer3.H3 (StableHlo.after Cert.ReferenceIdeal.RLayer3.chain3 Vp)) (meanK (colSum (Cert.ReferenceIdeal.RLayer3.H3 (StableHlo.after Cert.ReferenceIdeal.RLayer3.chain3 Vp))))
          (varK (colSum (Cert.ReferenceIdeal.RLayer3.H3 (StableHlo.after Cert.ReferenceIdeal.RLayer3.chain3 Vp))) (colSumSq (Cert.ReferenceIdeal.RLayer3.H3 (StableHlo.after Cert.ReferenceIdeal.RLayer3.chain3 Vp))))
          (rowOf ((StableHlo.after Cert.ReferenceIdeal.RLayer3.chain3 Vp) (Proc.devRef .tc Cert.ReferenceIdeal.main_v111))) (rowOf ((StableHlo.after Cert.ReferenceIdeal.RLayer3.chain3 Vp) (Proc.devRef .tc Cert.ReferenceIdeal.main_v113)))
          ((StableHlo.after Cert.ReferenceIdeal.RLayer3.chain3 Vp) (Proc.devRef .tc Cert.ReferenceIdeal.main_v115)) (rowOf ((StableHlo.after Cert.ReferenceIdeal.RLayer3.chain3 Vp) (Proc.devRef .tc Cert.ReferenceIdeal.main_v117))) := by
    rw [Cert.ReferenceIdeal.RLayer3.layer3]
    exact refOutLin_eq _ _ _ _ _ _ _ _ _ _ _ _ _ _ hr fH
  have fout : FinArr (norm2 false (Cert.ReferenceIdeal.RLayer3.H3 (StableHlo.after Cert.ReferenceIdeal.RLayer3.chain3 Vp)) (meanK (colSum (Cert.ReferenceIdeal.RLayer3.H3 (StableHlo.after Cert.ReferenceIdeal.RLayer3.chain3 Vp))))
          (varK (colSum (Cert.ReferenceIdeal.RLayer3.H3 (StableHlo.after Cert.ReferenceIdeal.RLayer3.chain3 Vp))) (colSumSq (Cert.ReferenceIdeal.RLayer3.H3 (StableHlo.after Cert.ReferenceIdeal.RLayer3.chain3 Vp))))
          (rowOf ((StableHlo.after Cert.ReferenceIdeal.RLayer3.chain3 Vp) (Proc.devRef .tc Cert.ReferenceIdeal.main_v111))) (rowOf ((StableHlo.after Cert.ReferenceIdeal.RLayer3.chain3 Vp) (Proc.devRef .tc Cert.ReferenceIdeal.main_v113)))
          ((StableHlo.after Cert.ReferenceIdeal.RLayer3.chain3 Vp) (Proc.devRef .tc Cert.ReferenceIdeal.main_v115)) (rowOf ((StableHlo.after Cert.ReferenceIdeal.RLayer3.chain3 Vp) (Proc.devRef .tc Cert.ReferenceIdeal.main_v117)))) :=
    layer_fin _ _ _ _ _ false fH fg fb fw2 fb2
  have eK : norm2 false (Cert.ReferenceIdeal.RLayer3.H3 (StableHlo.after Cert.ReferenceIdeal.RLayer3.chain3 Vp)) (meanK (colSum (Cert.ReferenceIdeal.RLayer3.H3 (StableHlo.after Cert.ReferenceIdeal.RLayer3.chain3 Vp))))
          (varK (colSum (Cert.ReferenceIdeal.RLayer3.H3 (StableHlo.after Cert.ReferenceIdeal.RLayer3.chain3 Vp))) (colSumSq (Cert.ReferenceIdeal.RLayer3.H3 (StableHlo.after Cert.ReferenceIdeal.RLayer3.chain3 Vp))))
          (rowOf ((StableHlo.after Cert.ReferenceIdeal.RLayer3.chain3 Vp) (Proc.devRef .tc Cert.ReferenceIdeal.main_v111))) (rowOf ((StableHlo.after Cert.ReferenceIdeal.RLayer3.chain3 Vp) (Proc.devRef .tc Cert.ReferenceIdeal.main_v113)))
          ((StableHlo.after Cert.ReferenceIdeal.RLayer3.chain3 Vp) (Proc.devRef .tc Cert.ReferenceIdeal.main_v115)) (rowOf ((StableHlo.after Cert.ReferenceIdeal.RLayer3.chain3 Vp) (Proc.devRef .tc Cert.ReferenceIdeal.main_v117)))
      = Cert.KernelIdeal.Gen.W12 m ρ c (Proc.devRef .tc Cert.KernelIdeal.main_v105) := by
    rw [Cert.KernelIdeal.KLayer3.layer3, eH, Cert.Chain3.x_eq m ρ c Vp hx, Cert.Chain3.agg_eq m ρ c Vp hx hv1 hv3, Cert.Chain3.w1_eq m ρ c Vp h6,
      Cert.Chain3.b1_eq m ρ c Vp h7, Cert.Chain3.gamma_eq m ρ c Vp h8, Cert.Chain3.beta_eq m ρ c Vp h9,
      Cert.Chain3.w2_eq m ρ c Vp h10, Cert.Chain3.b2_eq m ρ c Vp h11]
  exact ⟨eR.trans eK, eK ▸ fout⟩

end Cert.Layer3Sim

end
-- ==== Proof.Region6Payload.lean ====
/-
  The arithmetic of one grid point of the layer's first kernel, read entry by entry on the extended reals. The point
  holds a block of 3600 rows of x and of agg, the whole of W₁ and of b₁. It computes the block of h = (x + agg)·W₁ + b₁:
  entry (p, q) is Σ_j (x[p, j] + agg[p, j]) · W₁[j, q] + b₁[0, q]. It adds to the running column sums, in column q,
  Σ_p h[p, q] over the block's rows, and to the running column sums of squares Σ_p h[p, q]·h[p, q]. When the blocks of x
  and agg are rows r(p) of the arrays, the block of h is rows r(p) of the affine map of the whole arrays.
-/
import proofs.«117235_j17583596110491_1_alg».proof.Proof.Gen.KernelIdeal.Skeleton
import proofs.«117235_j17583596110491_1_alg».proof.Proof.LayerSpec
import proofs.«117235_j17583596110491_1_alg».proof.Proof.LibStatsOps
import Idealize.ShloMosaic.PureOps.Ideal.Laws
import Idealize.ShloMosaic.Lib.ValueIdx
import Idealize.ShloMosaic.Lib.ValueLayout

noncomputable section

open scoped BigOperators

namespace Cert.KernelIdeal.Region6

open Cert.KernelIdeal Cert.KernelIdeal.Gen Idealize.ShloMosaic Idealize.ShloMosaic.ValueIdx Cert.LayerSpec

/-- The f32 zero word denotes the extended real zero. -/
theorem zeroWord : (FloatOps.ofBits (F := Ideal) .f32 0x00000000#32 : EReal) = 0 := Ideal.ofBits_zero_f32

/-- The block of h a point computes, entry (p, q): the affine map of the point's row p. -/
theorem pay3_apply (v3 v4 : Vec Ideal S3600x128 .f32) (v7 : Vec Ideal S128x256 .f32) (v10 : Vec Ideal S1x256 .f32)
    (p : Fin 3600) (q : Fin 256) :
    k6_pay3 (F := Ideal) v3 v4 v7 v10 (ix2 p q)
      = (∑ j : Fin 128, (v3 (ix2 p j) + v4 (ix2 p j)) * v7 (ix2 j q)) + v10 (ix2 (0 : Fin 1) q) := by
  unfold k6_pay3
  refine (addf_apply _ _ (ix2 p q)).trans ?_
  refine congrArg₂ (· + ·) ?_ ?_
  · refine (Cert.LibStatsOps.matmul_plain_zero_apply _ none _ _ p q).trans ?_
    refine Finset.sum_congr rfl fun j _ => ?_
    repeat rw [shapeCast_self]
    rfl
  · refine (broadcastTo_1b_ab_apply _ _ p q).trans ?_
    rw [shapeCast_self]

/-- When the point's blocks of x and agg are the rows r(p) of the arrays and its blocks of W₁ and b₁ are the arrays, the
    block of h is the rows r(p) of the affine map of the arrays. -/
theorem pay3_rows (X A : Arr 90000 128) (W : Arr 128 256) (B : Arr 1 256)
    (x0 x1 : Vec Ideal S3600x128 .f32) (x2 : Vec Ideal S128x256 .f32) (x3 : Vec Ideal S1x256 .f32)
    (r : Fin 3600 → Fin 90000)
    (h0 : ∀ (p : Fin 3600) (j : Fin 128), x0 (ix2 p j) = X (ix2 (r p) j))
    (h1 : ∀ (p : Fin 3600) (j : Fin 128), x1 (ix2 p j) = A (ix2 (r p) j))
    (h2 : ∀ (j : Fin 128) (q : Fin 256), x2 (ix2 j q) = W (ix2 j q))
    (h3 : ∀ q : Fin 256, x3 (ix2 (0 : Fin 1) q) = B (ix2 (0 : Fin 1) q))
    (p : Fin 3600) (q : Fin 256) :
    k6_pay3 (F := Ideal) x0 x1 x2 x3 (ix2 p q) = lin1 X A W B (ix2 (r p) q) := by
  refine (pay3_apply x0 x1 x2 x3 p q).trans ?_
  rw [lin1_apply]
  unfold lin1At
  refine congrArg₂ (· + ·) (Finset.sum_congr rfl fun j _ => ?_) (h3 q)
  rw [h0, h1, h2]

/-- The running column sums after a point, entry (z, q): what they held plus the sum of the point's block of h over
    its rows. -/
theorem pay4_apply (v3 v4 : Vec Ideal S3600x128 .f32) (v7 : Vec Ideal S128x256 .f32) (v10 v15 : Vec Ideal S1x256 .f32)
    (z : Fin 1) (q : Fin 256) :
    k6_pay4 (F := Ideal) v3 v4 v7 v10 v15 (ix2 z q)
      = v15 (ix2 z q) + ∑ p : Fin 3600, k6_pay3 (F := Ideal) v3 v4 v7 v10 (ix2 p q) := by
  unfold k6_pay4
  refine (addf_apply _ _ (ix2 z q)).trans ?_
  refine congrArg₂ (· + ·) ?_ ?_
  · rw [shapeCast_self]
  · refine (shapeCast_a_1a_apply _ _ z q).trans ?_
    exact Cert.LibStatsOps.rowsum_apply _ _ _ _ q

/-- The running column sums of squares after a point, entry (z, q): what they held plus the sum of the squares of the
    point's block of h over its rows. -/
theorem pay5_apply (v3 v4 : Vec Ideal S3600x128 .f32) (v7 : Vec Ideal S128x256 .f32) (v10 v21 : Vec Ideal S1x256 .f32)
    (z : Fin 1) (q : Fin 256) :
    k6_pay5 (F := Ideal) v3 v4 v7 v10 v21 (ix2 z q)
      = v21 (ix2 z q) + ∑ p : Fin 3600, k6_pay3 (F := Ideal) v3 v4 v7 v10 (ix2 p q) * k6_pay3 (F := Ideal) v3 v4 v7 v10 (ix2 p q) := by
  unfold k6_pay5
  refine (addf_apply _ _ (ix2 z q)).trans ?_
  refine congrArg₂ (· + ·) ?_ ?_
  · rw [shapeCast_self]
  · refine (shapeCast_a_1a_apply _ _ z q).trans ?_
    refine (Cert.LibStatsOps.rowsum_apply _ _ _ _ q).trans ?_
    rfl

/-- The two zero blocks the first point stores, at any entry. -/
theorem pay1_apply (i : S1x256.Idx) : k6_pay1 (F := Ideal) i = 0 := zeroWord
theorem pay2_apply (i : S1x256.Idx) : k6_pay2 (F := Ideal) i = 0 := zeroWord

end Cert.KernelIdeal.Region6

end
-- ==== Proof.Region6Pieces.lean ====
/-
  What one grid point of the layer's first kernel leaves in its three output blocks, as the kernel's arithmetic applied to
  the blocks the point holds. Every load and every store of the body moves a whole block. At the first point the two
  statistics blocks are first set to zero and then read back, so they end at the zero block plus the point's sums; at
  every other point they are read as the point before left them.
-/
import proofs.«117235_j17583596110491_1_alg».proof.Proof.Gen.KernelIdeal.Frame
import Idealize.ShloMosaic.Lib.Pipeline.Value
import Idealize.ShloMosaic.Lib.Tactic

set_option maxRecDepth 16384

noncomputable section

namespace Cert.KernelIdeal.Region6

open Cert.KernelIdeal Cert.KernelIdeal.Gen Idealize.ShloMosaic Idealize.ShloMosaic.TcCoe Idealize.ShloMosaic.Tactic Idealize.SL.Sem

variable {F : FTy → Type} [FloatOps F]

/-- The literal zero offset of a rank-two block is the constant-zero function. -/
theorem hz : (![0, 0] : Fin 2 → Nat) = fun _ => 0 := funext fun a => by fin_cases a <;> rfl

/-- At the first point the block of h is the affine map of the point's blocks. -/
theorem outA4_eq (c : Dev nD) (i : grid6.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond6_0 i)
    (x0 : Vec F S3600x128 .f32) (x1 : Vec F S3600x128 .f32) (x2 : Vec F S128x256 .f32) (x3 : Vec F S1x256 .f32) :
    out6_A_4 c i arg1 harg1 arg2 harg2 arg3 harg3 arg4 harg4 arg5 harg5 arg6 harg6 arg7 harg7 hc0 x0 x1 x2 x3 = k6_pay3 x0 x1 x2 x3 := by
  unfold out6_A_4
  rw [View.read_writes_eq_canon _ _ _ (cover6_A_4 c i arg1 harg1 arg2 harg2 arg3 harg3 arg4 harg4 arg5 harg5 arg6 harg6 arg7 harg7 hc0 x0 x1 x2 x3)]
  unfold kernelRun6_A
  dsimp only
  try sl_unfold_words
  rw [View.canon_unit_zero hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At the first point the column sums are the zero block plus the sums of the point's block of h. -/
theorem outA5_eq (c : Dev nD) (i : grid6.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond6_0 i)
    (x0 : Vec F S3600x128 .f32) (x1 : Vec F S3600x128 .f32) (x2 : Vec F S128x256 .f32) (x3 : Vec F S1x256 .f32) :
    out6_A_5 c i arg1 harg1 arg2 harg2 arg3 harg3 arg4 harg4 arg5 harg5 arg6 harg6 arg7 harg7 hc0 x0 x1 x2 x3 = k6_pay4 x0 x1 x2 x3 (k6_pay1 (F := F)) := by
  unfold out6_A_5
  rw [View.read_writes_eq_canon _ _ _ (cover6_A_5 c i arg1 harg1 arg2 harg2 arg3 harg3 arg4 harg4 arg5 harg5 arg6 harg6 arg7 harg7 hc0 x0 x1 x2 x3)]
  unfold kernelRun6_A
  dsimp only
  try sl_unfold_words
  rw [View.canon_cons_unit_zero (S := S1x256) hz, View.readCov_unit_zero (S := S1x256) _ hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At the first point the column sums of squares are the zero block plus the sums of squares of the point's block of h. -/
theorem outA6_eq (c : Dev nD) (i : grid6.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : cond6_0 i)
    (x0 : Vec F S3600x128 .f32) (x1 : Vec F S3600x128 .f32) (x2 : Vec F S128x256 .f32) (x3 : Vec F S1x256 .f32) :
    out6_A_6 c i arg1 harg1 arg2 harg2 arg3 harg3 arg4 harg4 arg5 harg5 arg6 harg6 arg7 harg7 hc0 x0 x1 x2 x3 = k6_pay5 x0 x1 x2 x3 (k6_pay2 (F := F)) := by
  unfold out6_A_6
  rw [View.read_writes_eq_canon _ _ _ (cover6_A_6 c i arg1 harg1 arg2 harg2 arg3 harg3 arg4 harg4 arg5 harg5 arg6 harg6 arg7 harg7 hc0 x0 x1 x2 x3)]
  unfold kernelRun6_A
  dsimp only
  try sl_unfold_words
  rw [View.canon_cons_unit_zero (S := S1x256) hz, View.readCov_unit_zero (S := S1x256) _ hz]
  simp only [View.readAt_eq_ld, harg1.read_unread, harg2.read_unread, harg3.read_unread, harg4.read_unread,
    View.ld_unit_zero (S := S3600x128) hz, View.ld_unit_zero (S := S128x256) hz, View.ld_unit_zero (S := S1x256) hz]

/-- At a later point the block of h is the affine map of the point's blocks. -/
theorem outB4_eq (c : Dev nD) (i : grid6.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond6_0 i)
    (x0 : Vec F S3600x128 .f32) (x1 : Vec F S3600x128 .f32) (x2 : Vec F S128x256 .f32) (x3 : Vec F S1x256 .f32) (xo5 : Vec F S1x256 .f32) (xo6 : Vec F S1x256 .f32) :
    out6_B_4 c i arg1 harg1 arg2 harg2 arg3 harg3 arg4 harg4 arg5 harg5 arg6 harg6 arg7 harg7 hc0 x0 x1 x2 x3 xo5 xo6 = k6_pay3 x0 x1 x2 x3 := by
  unfold out6_B_4
  rw [View.read_writes_eq_canon _ _ _ (cover6_B_4 c i arg1 harg1 arg2 harg2 arg3 harg3 arg4 harg4 arg5 harg5 arg6 harg6 arg7 harg7 hc0 x0 x1 x2 x3 xo5 xo6)]
  unfold kernelRun6_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

/-- At a later point the column sums are what the point before left plus the sums of the point's block of h. -/
theorem outB5_eq (c : Dev nD) (i : grid6.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond6_0 i)
    (x0 : Vec F S3600x128 .f32) (x1 : Vec F S3600x128 .f32) (x2 : Vec F S128x256 .f32) (x3 : Vec F S1x256 .f32) (xo5 : Vec F S1x256 .f32) (xo6 : Vec F S1x256 .f32) :
    out6_B_5 c i arg1 harg1 arg2 harg2 arg3 harg3 arg4 harg4 arg5 harg5 arg6 harg6 arg7 harg7 hc0 x0 x1 x2 x3 xo5 xo6 = k6_pay4 x0 x1 x2 x3 xo5 := by
  unfold out6_B_5
  rw [View.read_writes_eq_canon _ _ _ (cover6_B_5 c i arg1 harg1 arg2 harg2 arg3 harg3 arg4 harg4 arg5 harg5 arg6 harg6 arg7 harg7 hc0 x0 x1 x2 x3 xo5 xo6)]
  unfold kernelRun6_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

/-- At a later point the column sums of squares are what the point before left plus the sums of squares of the point's
    block of h. -/
theorem outB6_eq (c : Dev nD) (i : grid6.Coords) (arg1 : Memref sig .tc .vmem S3600x128 .f32) (harg1 : arg1.IsWhole) (arg2 : Memref sig .tc .vmem S3600x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S3600x256 .f32) (harg5 : arg5.IsWhole) (arg6 : Memref sig .tc .vmem S1x256 .f32) (harg6 : arg6.IsWhole) (arg7 : Memref sig .tc .vmem S1x256 .f32) (harg7 : arg7.IsWhole) (hc0 : ¬cond6_0 i)
    (x0 : Vec F S3600x128 .f32) (x1 : Vec F S3600x128 .f32) (x2 : Vec F S128x256 .f32) (x3 : Vec F S1x256 .f32) (xo5 : Vec F S1x256 .f32) (xo6 : Vec F S1x256 .f32) :
    out6_B_6 c i arg1 harg1 arg2 harg2 arg3 harg3 arg4 harg4 arg5 harg5 arg6 harg6 arg7 harg7 hc0 x0 x1 x2 x3 xo5 xo6 = k6_pay5 x0 x1 x2 x3 xo6 := by
  unfold out6_B_6
  rw [View.read_writes_eq_canon _ _ _ (cover6_B_6 c i arg1 harg1 arg2 harg2 arg3 harg3 arg4 harg4 arg5 harg5 arg6 harg6 arg7 harg7 hc0 x0 x1 x2 x3 xo5 xo6)]
  unfold kernelRun6_B
  dsimp only
  try sl_unfold_words
  rw [View.canon_unit_zero hz]
  simp only [View.readAt_eq_ld, harg1.read_unread, harg2.read_unread, harg3.read_unread, harg4.read_unread, harg6.read_unread, harg7.read_unread,
    View.ld_unit_zero (S := S3600x128) hz, View.ld_unit_zero (S := S128x256) hz, View.ld_unit_zero (S := S1x256) hz]

end Cert.KernelIdeal.Region6

end
-- ==== Proof.Region6Value.lean ====
/-
  The three arrays the layer's first kernel leaves, as whole-array functions of the four arrays it finds.
  The grid has 25 points; point t holds rows 3600·t … 3600·t + 3599 of x and of agg, the whole of W₁ and of b₁, and writes
  rows 3600·t … 3600·t + 3599 of h. The two statistics arrays are one block each, revisited by every point and written
  back after the last one: after point n they hold the column sums (of h, of h·h) over the rows of blocks 0 … n, so
  after the last point the sums over all 90000 rows.
-/
import proofs.«117235_j17583596110491_1_alg».proof.Proof.Gen.KernelIdeal.Frame
import proofs.«117235_j17583596110491_1_alg».proof.Proof.Region6Payload
import proofs.«117235_j17583596110491_1_alg».proof.Proof.Region6Pieces
import proofs.«117235_j17583596110491_1_alg».proof.Proof.LibBlockedRows
import proofs.«117235_j17583596110491_1_alg».proof.Proof.LayerSpec
import Idealize.ShloMosaic.Lib.Pipeline.Value
import Idealize.ShloMosaic.Lib.Tactic

set_option maxRecDepth 16384

noncomputable section

open scoped BigOperators

namespace Cert.KernelIdeal.Region6

open Cert.KernelIdeal Cert.KernelIdeal.Gen Idealize.ShloMosaic Idealize.ShloMosaic.TcCoe Idealize.SL.Sem
open Idealize.ShloMosaic.ValueIdx Cert.LayerSpec Cert.LibBlockedRows
open Idealize.ShloMosaic.Pipeline (Dat)

variable (V : (c : Dev nD) → (b : Ref sig .tc) → Buf (Elt Ideal) ((c : Thread nD τ).loc b))

/-- The affine map (x + agg)·W₁ + b₁ of the four arrays the region finds. -/
def hOf (c : Dev nD) : Arr 90000 256 :=
  lin1 (V c (Pipeline.arrRef spec6 0)) (V c (Pipeline.arrRef spec6 1)) (V c (Pipeline.arrRef spec6 2)) (V c (Pipeline.arrRef spec6 3))

/-- The three output blocks a point leaves: h's block, the column sums, the column sums of squares. -/
abbrev Outs : Type := Vec Ideal S3600x256 .f32 × Vec Ideal S1x256 .f32 × Vec Ideal S1x256 .f32

/-! ## Where each window's block sits -/

/-- The block indices at point t: the row-blocked windows (x, agg, h) are at block row t, every other window at its one block. -/
theorem idx_facts : ∀ t : Fin cfg6.N,
    win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0 :=
  (by decide +kernel : ∀ t : Fin grid6.N, _)

/-- The grid has 25 points. -/
theorem lt25 (t : Fin cfg6.N) : t.val < 25 := lt_of_lt_of_eq t.isLt (show cfg6.N = 25 from N_6)

/-- Row p of the block of point t, among the 90000 rows. -/
abbrev rowAt (t : Fin cfg6.N) (p : Fin 3600) : Fin 90000 := blockRow ⟨t.val, lt25 t⟩ p

/-- The block of x at point t, entry (p, j), is x at row 3600·t + p. -/
theorem iblk_0_apply (c : Dev nD) (t : Fin cfg6.N) (p : Fin 3600) (j : Fin 128) :
    (iblk6 V c 0 t : Vec Ideal S3600x128 .f32) (ix2 p j)
      = (V c (Pipeline.arrRef spec6 0) : Arr 90000 128) (ix2 (rowAt t p) j) := by
  obtain ⟨e00, e01, e10, e11, e20, e21, e30, e31, e40, e41, e50, e51, e60, e61⟩ := idx_facts t
  unfold iblk6
  rw [View.read_apply]
  show (V c (Pipeline.arrRef spec6 0) : Arr 90000 128) _ = _
  refine congrArg _ (funext fun a => Fin.ext ?_)
  match a with
  | ⟨0, _⟩ => show win6_0.index t (0 : Fin 2) * 3600 + 1 * p.val = t.val * 3600 + p.val; first | omega | (rw [e00] <;> omega)
  | ⟨1, _⟩ => show win6_0.index t (1 : Fin 2) * 128 + 1 * j.val = j.val; first | omega | (rw [e01] <;> omega)

/-- The block of agg at point t, entry (p, j), is agg at row 3600·t + p. -/
theorem iblk_1_apply (c : Dev nD) (t : Fin cfg6.N) (p : Fin 3600) (j : Fin 128) :
    (iblk6 V c 1 t : Vec Ideal S3600x128 .f32) (ix2 p j)
      = (V c (Pipeline.arrRef spec6 1) : Arr 90000 128) (ix2 (rowAt t p) j) := by
  obtain ⟨e00, e01, e10, e11, e20, e21, e30, e31, e40, e41, e50, e51, e60, e61⟩ := idx_facts t
  unfold iblk6
  rw [View.read_apply]
  show (V c (Pipeline.arrRef spec6 1) : Arr 90000 128) _ = _
  refine congrArg _ (funext fun a => Fin.ext ?_)
  match a with
  | ⟨0, _⟩ => show win6_1.index t (0 : Fin 2) * 3600 + 1 * p.val = t.val * 3600 + p.val; first | omega | (rw [e10] <;> omega)
  | ⟨1, _⟩ => show win6_1.index t (1 : Fin 2) * 128 + 1 * j.val = j.val; first | omega | (rw [e11] <;> omega)

/-- The block of W₁ at any point is W₁. -/
theorem iblk_2_apply (c : Dev nD) (t : Fin cfg6.N) (j : Fin 128) (q : Fin 256) :
    (iblk6 V c 2 t : Vec Ideal S128x256 .f32) (ix2 j q)
      = (V c (Pipeline.arrRef spec6 2) : Arr 128 256) (ix2 j q) := by
  obtain ⟨e00, e01, e10, e11, e20, e21, e30, e31, e40, e41, e50, e51, e60, e61⟩ := idx_facts t
  unfold iblk6
  rw [View.read_apply]
  show (V c (Pipeline.arrRef spec6 2) : Arr 128 256) _ = _
  refine congrArg _ (funext fun a => Fin.ext ?_)
  match a with
  | ⟨0, _⟩ => show win6_2.index t (0 : Fin 2) * 128 + 1 * j.val = j.val; first | omega | (rw [e20] <;> omega)
  | ⟨1, _⟩ => show win6_2.index t (1 : Fin 2) * 256 + 1 * q.val = q.val; first | omega | (rw [e21] <;> omega)

/-- The block of b₁ at any point is b₁. -/
theorem iblk_3_apply (c : Dev nD) (t : Fin cfg6.N) (z : Fin 1) (q : Fin 256) :
    (iblk6 V c 3 t : Vec Ideal S1x256 .f32) (ix2 z q)
      = (V c (Pipeline.arrRef spec6 3) : Arr 1 256) (ix2 z q) := by
  obtain ⟨e00, e01, e10, e11, e20, e21, e30, e31, e40, e41, e50, e51, e60, e61⟩ := idx_facts t
  unfold iblk6
  rw [View.read_apply]
  show (V c (Pipeline.arrRef spec6 3) : Arr 1 256) _ = _
  refine congrArg _ (funext fun a => Fin.ext ?_)
  match a with
  | ⟨0, _⟩ => show win6_3.index t (0 : Fin 2) * 1 + 1 * z.val = z.val; first | omega | (rw [e30] <;> omega)
  | ⟨1, _⟩ => show win6_3.index t (1 : Fin 2) * 256 + 1 * q.val = q.val; first | omega | (rw [e31] <;> omega)

/-! ## The block of h a point computes -/

/-- The affine map of the blocks of point t, entry (p, q), is h at row 3600·t + p. -/
theorem hblock_apply (c : Dev nD) (t : Fin cfg6.N) (p : Fin 3600) (q : Fin 256) :
    k6_pay3 (F := Ideal) (iblk6 V c 0 t) (iblk6 V c 1 t) (iblk6 V c 2 t) (iblk6 V c 3 t) (ix2 p q) = hOf V c (ix2 (rowAt t p) q) :=
  pay3_rows (V c (Pipeline.arrRef spec6 0)) (V c (Pipeline.arrRef spec6 1)) (V c (Pipeline.arrRef spec6 2)) (V c (Pipeline.arrRef spec6 3))
    (iblk6 V c 0 t) (iblk6 V c 1 t) (iblk6 V c 2 t) (iblk6 V c 3 t) (rowAt t)
    (iblk_0_apply V c t) (iblk_1_apply V c t) (iblk_2_apply V c t) (fun q => iblk_3_apply V c t 0 q) p q

/-- Summed over the rows of the block, column q: the block's share of the column sum of h. -/
theorem block_colsum (c : Dev nD) (t : Fin cfg6.N) (q : Fin 256) :
    ∑ p : Fin 3600, k6_pay3 (F := Ideal) (iblk6 V c 0 t) (iblk6 V c 1 t) (iblk6 V c 2 t) (iblk6 V c 3 t) (ix2 p q)
      = blockSum (fun r => hOf V c (ix2 r q)) t.val :=
  Eq.trans (Finset.sum_congr rfl fun p _ => hblock_apply V c t p q)
    (blockSum_of_lt (fun r => hOf V c (ix2 r q)) ⟨t.val, lt25 t⟩).symm

/-- The same for the squares. -/
theorem block_colsumsq (c : Dev nD) (t : Fin cfg6.N) (q : Fin 256) :
    ∑ p : Fin 3600, k6_pay3 (F := Ideal) (iblk6 V c 0 t) (iblk6 V c 1 t) (iblk6 V c 2 t) (iblk6 V c 3 t) (ix2 p q)
        * k6_pay3 (F := Ideal) (iblk6 V c 0 t) (iblk6 V c 1 t) (iblk6 V c 2 t) (iblk6 V c 3 t) (ix2 p q)
      = blockSum (fun r => hOf V c (ix2 r q) * hOf V c (ix2 r q)) t.val :=
  Eq.trans (Finset.sum_congr rfl fun p _ => by rw [hblock_apply V c t p q])
    (blockSum_of_lt (fun r => hOf V c (ix2 r q) * hOf V c (ix2 r q)) ⟨t.val, lt25 t⟩).symm

/-! ## What the outputs hold after each point -/

/-- After any point the block of h is the affine map of the point's blocks. -/
theorem outs4_eq (c : Dev nD) (t : Fin cfg6.N) :
    (outsAt6 V c t.val t.isLt).1 = k6_pay3 (F := Ideal) (iblk6 V c 0 t) (iblk6 V c 1 t) (iblk6 V c 2 t) (iblk6 V c 3 t) := by
  by_cases h0 : t.val % 25 = 0
  · rw [outsAt6_A V c t h0]
    dsimp only
    exact outA4_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t)
  · rw [outsAt6_B V c t h0]
    dsimp only
    exact outB4_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2

/-- After the point n, column q of the running column sums holds the sum, over the blocks 0 … n, of the block's sums of h in column q:
    at the first point the zero block plus the first block's, at a later point what the point before left plus this block's. -/
theorem outs5_inv (c : Dev nD) : ∀ (n : ℕ) (hn : n < cfg6.N) (z : Fin 1) (q : Fin 256),
    (outsAt6 V c n hn).2.1 (ix2 z q) = ∑ s ∈ Finset.range (n + 1), blockSum (fun r => hOf V c (ix2 r q)) s
  | 0, hn, z, q => by
    have h0 : (⟨0, hn⟩ : Fin cfg6.N).val % 25 = 0 := rfl
    refine (congrArg (fun o : Outs => o.2.1 (ix2 z q)) (outsAt6_A V c ⟨0, hn⟩ h0)).trans ?_
    dsimp only
    refine (congrFun (outA5_eq (F := Ideal) c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) ((hcond6_0 ⟨0, hn⟩).mpr h0) (iblk6 V c 0 ⟨0, hn⟩) (iblk6 V c 1 ⟨0, hn⟩) (iblk6 V c 2 ⟨0, hn⟩) (iblk6 V c 3 ⟨0, hn⟩)) (ix2 z q)).trans ?_
    refine (pay4_apply (iblk6 V c 0 ⟨0, hn⟩) (iblk6 V c 1 ⟨0, hn⟩) (iblk6 V c 2 ⟨0, hn⟩) (iblk6 V c 3 ⟨0, hn⟩) _ z q).trans ?_
    rw [pay1_apply]
    refine (zero_add _).trans ?_
    refine (block_colsum V c ⟨0, hn⟩ q).trans ?_
    exact (Finset.sum_range_one (blockSum (fun r => hOf V c (ix2 r q)))).symm
  | n + 1, hn, z, q => by
    have hN : cfg6.N = 25 := N_6
    have hB : ¬(⟨n + 1, hn⟩ : Fin cfg6.N).val % 25 = 0 := by dsimp only; omega
    refine (congrArg (fun o : Outs => o.2.1 (ix2 z q)) (outsAt6_B V c ⟨n + 1, hn⟩ hB)).trans ?_
    dsimp only
    refine (congrFun (outB5_eq (F := Ideal) c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (fun h => hB ((hcond6_0 (⟨n + 1, hn⟩ : Fin cfg6.N)).mp h)) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.1 (outsAt6 V c ((⟨n + 1, hn⟩ : Fin cfg6.N).val - 1) (Nat.lt_of_le_of_lt (Nat.sub_le _ _) (⟨n + 1, hn⟩ : Fin cfg6.N).isLt)).2.2) (ix2 z q)).trans ?_
    refine (pay4_apply (iblk6 V c 0 ⟨n + 1, hn⟩) (iblk6 V c 1 ⟨n + 1, hn⟩) (iblk6 V c 2 ⟨n + 1, hn⟩) (iblk6 V c 3 ⟨n + 1, hn⟩) _ z q).trans ?_
    rw [Finset.sum_range_succ]
    exact congrArg₂ (· + ·) (outs5_inv c n (Nat.lt_of_succ_lt hn) z q) (block_colsum V c ⟨n + 1, hn⟩ q)

/-- After the point n, column q of the running column sums of squares holds the sum, over the blocks 0 … n, of the block's sums of squares of h in column q:
    at the first point the zero block plus the first block's, at a later point what the point before left plus this block's. -/
theorem outs6_inv (c : Dev nD) : ∀ (n : ℕ) (hn : n < cfg6.N) (z : Fin 1) (q : Fin 256),
    (outsAt6 V c n hn).2.2 (ix2 z q) = ∑ s ∈ Finset.range (n + 1), blockSum (fun r => hOf V c (ix2 r q) * hOf V c (ix2 r q)) s
  | 0, hn, z, q => by
    have h0 : (⟨0, hn⟩ : Fin cfg6.N).val % 25 = 0 := rfl
    refine (congrArg (fun o : Outs => o.2.2 (ix2 z q)) (outsAt6_A V c ⟨0, hn⟩ h0)).trans ?_
    dsimp only
    refine (congrFun (outA6_eq (F := Ideal) c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) ((hcond6_0 ⟨0, hn⟩).mpr h0) (iblk6 V c 0 ⟨0, hn⟩) (iblk6 V c 1 ⟨0, hn⟩) (iblk6 V c 2 ⟨0, hn⟩) (iblk6 V c 3 ⟨0, hn⟩)) (ix2 z q)).trans ?_
    refine (pay5_apply (iblk6 V c 0 ⟨0, hn⟩) (iblk6 V c 1 ⟨0, hn⟩) (iblk6 V c 2 ⟨0, hn⟩) (iblk6 V c 3 ⟨0, hn⟩) _ z q).trans ?_
    rw [pay2_apply]
    refine (zero_add _).trans ?_
    refine (block_colsumsq V c ⟨0, hn⟩ q).trans ?_
    exact (Finset.sum_range_one (blockSum (fun r => hOf V c (ix2 r q) * hOf V c (ix2 r q)))).symm
  | n + 1, hn, z, q => by
    have hN : cfg6.N = 25 := N_6
    have hB : ¬(⟨n + 1, hn⟩ : Fin cfg6.N).val % 25 = 0 := by dsimp only; omega
    refine (congrArg (fun o : Outs => o.2.2 (ix2 z q)) (outsAt6_B V c ⟨n + 1, hn⟩ hB)).trans ?_
    dsimp only
    refine (congrFun (outB6_eq (F := Ideal) c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (fun h => hB ((hcond6_0 (⟨n + 1, hn⟩ : Fin cfg6.N)).mp h)) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.1 (outsAt6 V c ((⟨n + 1, hn⟩ : Fin cfg6.N).val - 1) (Nat.lt_of_le_of_lt (Nat.sub_le _ _) (⟨n + 1, hn⟩ : Fin cfg6.N).isLt)).2.2) (ix2 z q)).trans ?_
    refine (pay5_apply (iblk6 V c 0 ⟨n + 1, hn⟩) (iblk6 V c 1 ⟨n + 1, hn⟩) (iblk6 V c 2 ⟨n + 1, hn⟩) (iblk6 V c 3 ⟨n + 1, hn⟩) _ z q).trans ?_
    rw [Finset.sum_range_succ]
    exact congrArg₂ (· + ·) (outs6_inv c n (Nat.lt_of_succ_lt hn) z q) (block_colsumsq V c ⟨n + 1, hn⟩ q)

/-! ## The array of h: every point writes its own block of rows -/

/-- What point t writes back to the array of h is block t of the affine map of the arrays. -/
theorem flushed4_eq (c : Dev nD) (t : Fin cfg6.N) :
    (dat6 V c).flushed 4 t = ((cfg6.win 4).blk t).view.read (Elt Ideal) (hOf V c) := by
  show (cfg6.win 4).cut (grid6.coords t) ((dat6 V c).after 4 t) = _
  rw [after6_4, outs4_eq V c t]
  obtain ⟨e00, e01, e10, e11, e20, e21, e30, e31, e40, e41, e50, e51, e60, e61⟩ := idx_facts t
  funext y
  show k6_pay3 (F := Ideal) (iblk6 V c 0 t) (iblk6 V c 1 t) (iblk6 V c 2 t) (iblk6 V c 3 t) y = hOf V c (((cfg6.win 4).blk t).view.emb y)
  have hy : (y : S3600x256.Idx) = ix2 (y 0) (y 1) := eq_ix2 (n0 := 3600) (n1 := 256) y
  have he : (((cfg6.win 4).blk t).view.emb y : S90000x256.Idx) = ix2 (rowAt t (y 0)) (y 1) := by
    funext a; apply Fin.ext
    match a with
    | ⟨0, _⟩ => show win6_4.index t (0 : Fin 2) * 3600 + 1 * (y 0).val = t.val * 3600 + (y 0).val; first | omega | (rw [e40] <;> omega)
    | ⟨1, _⟩ => show win6_4.index t (1 : Fin 2) * 256 + 1 * (y 1).val = (y 1).val; first | omega | (rw [e41] <;> omega)
  exact (congrArg (k6_pay3 (F := Ideal) (iblk6 V c 0 t) (iblk6 V c 1 t) (iblk6 V c 2 t) (iblk6 V c 3 t)) hy).trans
    ((hblock_apply V c t (y 0) (y 1)).trans (congrArg (hOf V c) he.symm))

/-- A row index is in point t's block of h iff each coordinate is in the block's range on its axis. -/
theorem mem_blk4 (t : Fin cfg6.N) (i : S90000x256.Idx) :
    i ∈ ((cfg6.win 4).blk t).view.set ↔ ∀ a : Fin 2, win6_4.index t a * S3600x256.size a ≤ (i a).val ∧ (i a).val < win6_4.index t a * S3600x256.size a + S3600x256.size a := by
  show i ∈ ((View.whole main_v129_0).slice (win6_4.rect t)).set ↔ _
  rw [View.set_slice_whole, Rect.mem_set_unit]
  exact Iff.rfl

/-- Row r of h is in the block of point r / 3600. -/
theorem cover4 (i : S90000x256.Idx) :
    ∃ t : Fin cfg6.N, (cfg6.win 4).flush t = true ∧ i ∈ ((cfg6.win 4).blk t).view.set := by
  have hi0 : (i 0).val < 90000 := (i 0).isLt
  have hi1 : (i 1).val < 256 := (i 1).isLt
  have hN : cfg6.N = 25 := N_6
  obtain ⟨t, ht⟩ : ∃ t : Fin cfg6.N, t.val = (i 0).val / 3600 := ⟨⟨(i 0).val / 3600, by rw [hN]; omega⟩, rfl⟩
  obtain ⟨e00, e01, e10, e11, e20, e21, e30, e31, e40, e41, e50, e51, e60, e61⟩ := idx_facts t
  refine ⟨t, flush6_4 t, ?_⟩
  rw [mem_blk4]
  intro a
  match a with
  | ⟨0, _⟩ => show win6_4.index t (0 : Fin 2) * 3600 ≤ (i 0).val ∧ (i 0).val < win6_4.index t (0 : Fin 2) * 3600 + 3600; first | omega | (rw [e40, ht] <;> omega)
  | ⟨1, _⟩ => show win6_4.index t (1 : Fin 2) * 256 ≤ (i 1).val ∧ (i 1).val < win6_4.index t (1 : Fin 2) * 256 + 256; first | omega | (rw [e41] <;> omega)

/-- The array of h after the run is the affine map of the four arrays the region finds. -/
theorem final6_4 (c : Dev nD) : (dat6 V c).arrAt 4 cfg6.N
    = lin1 (V c (Pipeline.arrRef spec6 0)) (V c (Pipeline.arrRef spec6 1)) (V c (Pipeline.arrRef spec6 2)) (V c (Pipeline.arrRef spec6 3)) :=
  (dat6 V c).arrAt_eq_of_cover 4 (hOf V c) (fun t _ => flushed4_eq V c t) cover4

/-! ## The two statistics arrays: one block, written back after the last point -/

/-- The last point. -/
abbrev tLast : Fin cfg6.N := ⟨24, by rw [show cfg6.N = 25 from N_6]; decide⟩

/-- What the column sums' block holds after the last point, as contents of its array (the block is the whole array). -/
abbrev result5 (c : Dev nD) : Buf (Elt Ideal) ((c : Thread nD τ).loc main_v129_1) := (outsAt6 V c tLast.val tLast.isLt).2.1

/-- What the column sums of squares' block holds after the last point, as contents of its array. -/
abbrev result6 (c : Dev nD) : Buf (Elt Ideal) ((c : Thread nD τ).loc main_v129_2) := (outsAt6 V c tLast.val tLast.isLt).2.2

/-- The one write-back of the column sums, after the last point, writes that block: block (0, 0) of the [1, 256] array
    read through zero offsets is the array. -/
theorem flushed5_eq (c : Dev nD) (t : Fin cfg6.N) (hf : (cfg6.win 5).flush t = true) :
    (dat6 V c).flushed 5 t = ((cfg6.win 5).blk t).view.read (Elt Ideal) (result5 V c) := by
  have hN : cfg6.N = 25 := N_6
  have h24 : t.val = 24 := by have := (flush6_5 t).mp hf; have := t.isLt; omega
  obtain rfl : t = tLast := Fin.ext h24
  show (cfg6.win 5).cut (grid6.coords tLast) ((dat6 V c).after 5 tLast) = _
  rw [after6_5]
  have hz' : (fun a => win6_5.index tLast a * main_v129_1.ty.shape.size a) = fun _ => 0 := funext fun a => by fin_cases a <;> decide +kernel
  exact (Memref.read_access_unit_zero (Elt Ideal) main_v129_1 hz' (fun a => by rw [congrFun hz' a]; simp) (result5 V c)).symm

/-- The same for the column sums of squares. -/
theorem flushed6_eq (c : Dev nD) (t : Fin cfg6.N) (hf : (cfg6.win 6).flush t = true) :
    (dat6 V c).flushed 6 t = ((cfg6.win 6).blk t).view.read (Elt Ideal) (result6 V c) := by
  have hN : cfg6.N = 25 := N_6
  have h24 : t.val = 24 := by have := (flush6_6 t).mp hf; have := t.isLt; omega
  obtain rfl : t = tLast := Fin.ext h24
  show (cfg6.win 6).cut (grid6.coords tLast) ((dat6 V c).after 6 tLast) = _
  rw [after6_6]
  have hz' : (fun a => win6_6.index tLast a * main_v129_2.ty.shape.size a) = fun _ => 0 := funext fun a => by fin_cases a <;> decide +kernel
  exact (Memref.read_access_unit_zero (Elt Ideal) main_v129_2 hz' (fun a => by rw [congrFun hz' a]; simp) (result6 V c)).symm

/-- So the array of column sums ends holding the block the last point left (the last point's block covers it). -/
theorem final5_block (c : Dev nD) : (dat6 V c).arrAt 5 cfg6.N = result5 V c :=
  (dat6 V c).arrAt_eq_of_cover 5 (result5 V c) (flushed5_eq V c) fun i =>
    ⟨tLast, (flush6_5 tLast).mpr rfl, by
      show i ∈ ((View.whole main_v129_1).slice (win6_5.rect tLast)).set
      rw [View.set_slice_whole, Rect.mem_set_unit]
      intro a
      have h0 : (i 0 : Nat) < 1 := (i 0).isLt
      have h1 : (i 1 : Nat) < 256 := (i 1).isLt
      match a with
      | ⟨0, _⟩ => show win6_5.index tLast 0 * win6_5.size 0 ≤ (i 0 : Nat) ∧ (i 0 : Nat) < win6_5.index tLast 0 * win6_5.size 0 + win6_5.xsize (grid6.coords tLast) 0
                  rw [show win6_5.index tLast 0 * win6_5.size 0 = 0 from by decide +kernel, show win6_5.xsize (grid6.coords tLast) 0 = 1 from by decide +kernel]; omega
      | ⟨1, _⟩ => show win6_5.index tLast 1 * win6_5.size 1 ≤ (i 1 : Nat) ∧ (i 1 : Nat) < win6_5.index tLast 1 * win6_5.size 1 + win6_5.xsize (grid6.coords tLast) 1
                  rw [show win6_5.index tLast 1 * win6_5.size 1 = 0 from by decide +kernel, show win6_5.xsize (grid6.coords tLast) 1 = 256 from by decide +kernel]; omega⟩

/-- The same for the column sums of squares. -/
theorem final6_block (c : Dev nD) : (dat6 V c).arrAt 6 cfg6.N = result6 V c :=
  (dat6 V c).arrAt_eq_of_cover 6 (result6 V c) (flushed6_eq V c) fun i =>
    ⟨tLast, (flush6_6 tLast).mpr rfl, by
      show i ∈ ((View.whole main_v129_2).slice (win6_6.rect tLast)).set
      rw [View.set_slice_whole, Rect.mem_set_unit]
      intro a
      have h0 : (i 0 : Nat) < 1 := (i 0).isLt
      have h1 : (i 1 : Nat) < 256 := (i 1).isLt
      match a with
      | ⟨0, _⟩ => show win6_6.index tLast 0 * win6_6.size 0 ≤ (i 0 : Nat) ∧ (i 0 : Nat) < win6_6.index tLast 0 * win6_6.size 0 + win6_6.xsize (grid6.coords tLast) 0
                  rw [show win6_6.index tLast 0 * win6_6.size 0 = 0 from by decide +kernel, show win6_6.xsize (grid6.coords tLast) 0 = 1 from by decide +kernel]; omega
      | ⟨1, _⟩ => show win6_6.index tLast 1 * win6_6.size 1 ≤ (i 1 : Nat) ∧ (i 1 : Nat) < win6_6.index tLast 1 * win6_6.size 1 + win6_6.xsize (grid6.coords tLast) 1
                  rw [show win6_6.index tLast 1 * win6_6.size 1 = 0 from by decide +kernel, show win6_6.xsize (grid6.coords tLast) 1 = 256 from by decide +kernel]; omega⟩

/-- The array of column sums after the run: the sums of h over all 90000 rows. -/
theorem final6_5 (c : Dev nD) : (dat6 V c).arrAt 5 cfg6.N
    = colSum (lin1 (V c (Pipeline.arrRef spec6 0)) (V c (Pipeline.arrRef spec6 1)) (V c (Pipeline.arrRef spec6 2)) (V c (Pipeline.arrRef spec6 3))) := by
  refine (final5_block V c).trans ?_
  funext i
  obtain ⟨z, q, rfl⟩ : ∃ (z : Fin 1) (q : Fin 256), i = ix2 z q := ⟨i 0, i 1, eq_ix2 (n0 := 1) (n1 := 256) i⟩
  refine Eq.trans ?_ (colSum_apply (hOf V c) z q).symm
  exact (outs5_inv V c 24 tLast.isLt z q).trans (sum_blockSum (fun r => hOf V c (ix2 r q)))

/-- The array of column sums of squares after the run: the sums of h·h over all 90000 rows. -/
theorem final6_6 (c : Dev nD) : (dat6 V c).arrAt 6 cfg6.N
    = colSumSq (lin1 (V c (Pipeline.arrRef spec6 0)) (V c (Pipeline.arrRef spec6 1)) (V c (Pipeline.arrRef spec6 2)) (V c (Pipeline.arrRef spec6 3))) := by
  refine (final6_block V c).trans ?_
  funext i
  obtain ⟨z, q, rfl⟩ : ∃ (z : Fin 1) (q : Fin 256), i = ix2 z q := ⟨i 0, i 1, eq_ix2 (n0 := 1) (n1 := 256) i⟩
  refine Eq.trans ?_ (colSumSq_apply (hOf V c) z q).symm
  exact (outs6_inv V c 24 tLast.isLt z q).trans (sum_blockSum (fun r => hOf V c (ix2 r q) * hOf V c (ix2 r q)))

end Cert.KernelIdeal.Region6

end
-- ==== Proof.Region7Payload.lean ====
/-
  One entry of what the body of kernel region 7 computes from the blocks it loads, and the same for a block of rows of
  the whole arrays.

  The body takes a block X of 3600 rows of h (256 columns), the rows μ, v, γ, β (one row of 256 columns each), the
  weights W (256 × 128) and the row b (128 columns), and forms
      out[r, j] = Σ_k act(((X[r, k] − μ[0, k]) · rsqrt(v[0, k] + ε)) · γ[0, k] + β[0, k]) · W[k, j] + b[0, j],
  with act = the identity: the normalisation is pointwise in (r, k) once the four rows are read at their one row, the
  product with W accumulates into the zero array, so it is the bare sum over k, and b is added at column j.
  Row r of the result depends on row r of X only. Hence, when X is rows q·3600 … q·3600 + 3599 of a 90000-row array A,
  entry (r, j) of the result is entry (q·3600 + r, j) of the closed form `Cert.LayerSpec.norm2 false` of A.
-/
import proofs.«117235_j17583596110491_1_alg».proof.Proof.Gen.KernelIdeal.Skeleton
import proofs.«117235_j17583596110491_1_alg».proof.Proof.LayerSpec
import proofs.«117235_j17583596110491_1_alg».proof.Proof.LibNormMatmul

noncomputable section

open scoped BigOperators

namespace Cert.KernelIdeal.Region7

open Idealize.ShloMosaic Idealize.ShloMosaic.ValueIdx
open Cert.KernelIdeal Cert.KernelIdeal.Gen Cert.LibNormMatmul Cert.LayerSpec

/-- The body's result at entry (r, j), as a sum over the 256 columns of the loaded block of h. -/
theorem pay_apply (x0 : Vec Ideal S3600x256 .f32) (x1 x2 x3 x4 : Vec Ideal S1x256 .f32) (x5 : Vec Ideal S256x128 .f32)
    (x6 : Vec Ideal S1x128 .f32) (r : Fin 3600) (j : Fin 128) :
    k7_pay1 (F := Ideal) x0 x1 x2 x3 x4 x5 x6 (ix2 r j)
      = (∑ k : Fin 256, (((x0 (ix2 r k) - x1 (ix2 (0 : Fin 1) k)) * Ideal.rsqrt (x2 (ix2 (0 : Fin 1) k) + Ideal.ofBits .f32 0x3727C5AC#32))
            * x3 (ix2 (0 : Fin 1) k) + x4 (ix2 (0 : Fin 1) k)) * x5 (ix2 k j)) + x6 (ix2 (0 : Fin 1) j) := by
  unfold k7_pay1
  simp only [shapeCast_self]
  refine (addf_apply _ _ _).trans ?_
  refine congrArg₂ (· + ·) ?_ (broadcastTo_1b_ab_apply x6 _ r j)
  refine (matmul_zero_apply _ none _ x5 r j).trans ?_
  refine Finset.sum_congr rfl fun k _ => ?_
  exact congrArg (· * x5 (ix2 k j)) (norm_affine_apply x0 x1 x2 x3 x4 _ _ r k)

/-- Row r of the result computed from rows q·3600 … of A is row q·3600 + r of the closed form of A. -/
theorem pay_rows (A0 : Arr 90000 256) (A1 A2 A3 A4 : Arr 1 256) (A5 : Arr 256 128) (A6 : Arr 1 128)
    (x0 : Vec Ideal S3600x256 .f32) (q : ℕ)
    (h0 : ∀ (r : Fin 3600) (k : Fin 256) (n : Fin 90000), n.val = q * 3600 + r.val → x0 (ix2 r k) = A0 (ix2 n k))
    (r : Fin 3600) (j : Fin 128) (n : Fin 90000) (hn : n.val = q * 3600 + r.val) :
    k7_pay1 (F := Ideal) x0 A1 A2 A3 A4 A5 A6 (ix2 r j) = norm2 false A0 A1 A2 A3 A4 A5 A6 (ix2 n j) := by
  rw [pay_apply, norm2_apply]
  unfold norm2At
  refine congrArg (· + A6 (ix2 0 j)) (Finset.sum_congr rfl fun k _ => ?_)
  rw [h0 r k n hn]
  rfl

/-- The same at any index y of the block and any index i of the array with i = (q·3600 + y₀, y₁), the six whole-array
    inputs given by equations. -/
theorem pay_block (A0 : Arr 90000 256) (A1 A2 A3 A4 : Arr 1 256) (A5 : Arr 256 128) (A6 : Arr 1 128)
    (x0 : Vec Ideal S3600x256 .f32) (x1 x2 x3 x4 : Vec Ideal S1x256 .f32) (x5 : Vec Ideal S256x128 .f32)
    (x6 : Vec Ideal S1x128 .f32) (q : ℕ)
    (h0 : ∀ (r : Fin 3600) (k : Fin 256) (n : Fin 90000), n.val = q * 3600 + r.val → x0 (ix2 r k) = A0 (ix2 n k))
    (h1 : x1 = A1) (h2 : x2 = A2) (h3 : x3 = A3) (h4 : x4 = A4) (h5 : x5 = A5) (h6 : x6 = A6)
    (y : S3600x128.Idx) (i : S90000x128.Idx)
    (hi0 : (i 0).val = q * 3600 + (y 0).val) (hi1 : (i 1).val = (y 1).val) :
    k7_pay1 (F := Ideal) x0 x1 x2 x3 x4 x5 x6 y = norm2 false A0 A1 A2 A3 A4 A5 A6 i := by
  subst h1 h2 h3 h4 h5 h6
  obtain ⟨r, j, rfl⟩ : ∃ (r : Fin 3600) (j : Fin 128), y = ix2 r j := ⟨y 0, y 1, eq_ix2 y⟩
  obtain ⟨n, j', rfl⟩ : ∃ (n : Fin 90000) (j' : Fin 128), i = ix2 n j' := ⟨i 0, i 1, eq_ix2 i⟩
  obtain rfl : j' = j := Fin.ext hi1
  exact pay_rows A0 x1 x2 x3 x4 x5 x6 x0 q h0 r j' n hi0

end Cert.KernelIdeal.Region7

end
-- ==== Proof.Region7.lean ====
/-
  Kernel region 7 read as one array: after its 25 grid points the region's output array is the closed form
  `Cert.LayerSpec.norm2 false` of the seven arrays the region finds.

  Point t of the grid loads rows 3600·t … 3600·t + 3599 of h (window 0, block index (t, 0)) and the whole of the six
  small arrays μ, v, γ, β, W, b (windows 1–6, block index (0, 0), blocks of the arrays' own extents), and writes back rows
  3600·t … 3600·t + 3599 of the output (window 7, block index (t, 0)). A block's element with coordinates (y₀, y₁) sits in
  its array at (block index₀ · block rows + y₀, block index₁ · block columns + y₁). What point t writes back is the
  body's result on those blocks, and that is rows 3600·t … of the closed form, because row n of the closed form depends on
  row n of h only. Row n of the output is covered by point n / 3600, so the 25 write-backs fill the array.
-/
import proofs.«117235_j17583596110491_1_alg».proof.Proof.Gen.KernelIdeal.Frame
import proofs.«117235_j17583596110491_1_alg».proof.Proof.Region7Payload
import proofs.«117235_j17583596110491_1_alg».proof.Proof.LibWholeRect
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region7

open Cert.KernelIdeal Cert.KernelIdeal.Gen Cert.LayerSpec Cert.LibWholeRect

variable (V : (c : Dev nD) → (b : Ref sig .tc) → Buf (Elt Ideal) ((c : Thread nD τ).loc b))

/-- The closed form of the region's output: the normalised second affine map of the seven arrays the region finds. -/
abbrev closed (c : Dev nD) : Arr 90000 128 :=
  norm2 false (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))

/-- The block indices at every point of the grid: windows 0 and 7 are at block (t, 0), windows 1–6 at block (0, 0). -/
theorem idx_facts : ∀ t : Fin cfg7.N,
    win7_0.index t (0 : Fin 2) = t.val ∧ win7_0.index t (1 : Fin 2) = 0
    ∧ win7_7.index t (0 : Fin 2) = t.val ∧ win7_7.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- Window 0's block at point t is rows (block index of the output)·3600 … of h: entry (r, k) of the block is entry
    (n, k) of the array for n = index · 3600 + r. -/
theorem iblk0_apply (c : Dev nD) (t : Fin cfg7.N) (r : Fin 3600) (k : Fin 256) (n : Fin 90000)
    (hn : n.val = win7_7.index t (0 : Fin 2) * 3600 + r.val) :
    (iblk7 V c 0 t : Vec Ideal S3600x256 .f32) (ix2 r k) = (V c (Pipeline.arrRef spec7 0) : Arr 90000 256) (ix2 n k) := by
  obtain ⟨e00, e01, e70, e71, e10, e11, e20, e21, e30, e31, e40, e41, e50, e51, e60, e61⟩ := idx_facts t
  unfold iblk7
  rw [View.read_apply]
  show (V c (Pipeline.arrRef spec7 0) : Arr 90000 256) (((cfg7.win 0).blk t).view.emb (ix2 r k)) = _
  have h : ((cfg7.win 0).blk t).view.emb (ix2 r k) = (ix2 n k : S90000x256.Idx) := by
    funext a; apply Fin.ext
    match a with
    | ⟨0, _⟩ => show win7_0.index t (0 : Fin 2) * 3600 + 1 * r.val = n.val; omega
    | ⟨1, _⟩ => show win7_0.index t (1 : Fin 2) * 256 + 1 * k.val = k.val; omega
  rw [h]

/-- Window 1's block at every point is its whole array: the block index is (0, 0) and the block has the array's extents. -/
theorem iblk_whole1 (c : Dev nD) (t : Fin cfg7.N) :
    (iblk7 V c 1 t : Vec Ideal S1x256 .f32) = (V c (Pipeline.arrRef spec7 1) : Arr 1 256) := by
  obtain ⟨e00, e01, e70, e71, e10, e11, e20, e21, e30, e31, e40, e41, e50, e51, e60, e61⟩ := idx_facts t
  funext y
  unfold iblk7
  rw [View.read_apply]
  show (V c (Pipeline.arrRef spec7 1) : Arr 1 256) (((cfg7.win 1).blk t).view.emb y) = _
  have h : ((cfg7.win 1).blk t).view.emb y = y := by
    funext a; apply Fin.ext
    match a with
    | ⟨0, _⟩ => show win7_1.index t (0 : Fin 2) * 1 + 1 * (y 0).val = (y 0).val; omega
    | ⟨1, _⟩ => show win7_1.index t (1 : Fin 2) * 256 + 1 * (y 1).val = (y 1).val; omega
  rw [h]

/-- Window 2's block at every point is its whole array: the block index is (0, 0) and the block has the array's extents. -/
theorem iblk_whole2 (c : Dev nD) (t : Fin cfg7.N) :
    (iblk7 V c 2 t : Vec Ideal S1x256 .f32) = (V c (Pipeline.arrRef spec7 2) : Arr 1 256) := by
  obtain ⟨e00, e01, e70, e71, e10, e11, e20, e21, e30, e31, e40, e41, e50, e51, e60, e61⟩ := idx_facts t
  funext y
  unfold iblk7
  rw [View.read_apply]
  show (V c (Pipeline.arrRef spec7 2) : Arr 1 256) (((cfg7.win 2).blk t).view.emb y) = _
  have h : ((cfg7.win 2).blk t).view.emb y = y := by
    funext a; apply Fin.ext
    match a with
    | ⟨0, _⟩ => show win7_2.index t (0 : Fin 2) * 1 + 1 * (y 0).val = (y 0).val; omega
    | ⟨1, _⟩ => show win7_2.index t (1 : Fin 2) * 256 + 1 * (y 1).val = (y 1).val; omega
  rw [h]

/-- Window 3's block at every point is its whole array: the block index is (0, 0) and the block has the array's extents. -/
theorem iblk_whole3 (c : Dev nD) (t : Fin cfg7.N) :
    (iblk7 V c 3 t : Vec Ideal S1x256 .f32) = (V c (Pipeline.arrRef spec7 3) : Arr 1 256) := by
  obtain ⟨e00, e01, e70, e71, e10, e11, e20, e21, e30, e31, e40, e41, e50, e51, e60, e61⟩ := idx_facts t
  funext y
  unfold iblk7
  rw [View.read_apply]
  show (V c (Pipeline.arrRef spec7 3) : Arr 1 256) (((cfg7.win 3).blk t).view.emb y) = _
  have h : ((cfg7.win 3).blk t).view.emb y = y := by
    funext a; apply Fin.ext
    match a with
    | ⟨0, _⟩ => show win7_3.index t (0 : Fin 2) * 1 + 1 * (y 0).val = (y 0).val; omega
    | ⟨1, _⟩ => show win7_3.index t (1 : Fin 2) * 256 + 1 * (y 1).val = (y 1).val; omega
  rw [h]

/-- Window 4's block at every point is its whole array: the block index is (0, 0) and the block has the array's extents. -/
theorem iblk_whole4 (c : Dev nD) (t : Fin cfg7.N) :
    (iblk7 V c 4 t : Vec Ideal S1x256 .f32) = (V c (Pipeline.arrRef spec7 4) : Arr 1 256) := by
  obtain ⟨e00, e01, e70, e71, e10, e11, e20, e21, e30, e31, e40, e41, e50, e51, e60, e61⟩ := idx_facts t
  funext y
  unfold iblk7
  rw [View.read_apply]
  show (V c (Pipeline.arrRef spec7 4) : Arr 1 256) (((cfg7.win 4).blk t).view.emb y) = _
  have h : ((cfg7.win 4).blk t).view.emb y = y := by
    funext a; apply Fin.ext
    match a with
    | ⟨0, _⟩ => show win7_4.index t (0 : Fin 2) * 1 + 1 * (y 0).val = (y 0).val; omega
    | ⟨1, _⟩ => show win7_4.index t (1 : Fin 2) * 256 + 1 * (y 1).val = (y 1).val; omega
  rw [h]

/-- Window 5's block at every point is its whole array: the block index is (0, 0) and the block has the array's extents. -/
theorem iblk_whole5 (c : Dev nD) (t : Fin cfg7.N) :
    (iblk7 V c 5 t : Vec Ideal S256x128 .f32) = (V c (Pipeline.arrRef spec7 5) : Arr 256 128) := by
  obtain ⟨e00, e01, e70, e71, e10, e11, e20, e21, e30, e31, e40, e41, e50, e51, e60, e61⟩ := idx_facts t
  funext y
  unfold iblk7
  rw [View.read_apply]
  show (V c (Pipeline.arrRef spec7 5) : Arr 256 128) (((cfg7.win 5).blk t).view.emb y) = _
  have h : ((cfg7.win 5).blk t).view.emb y = y := by
    funext a; apply Fin.ext
    match a with
    | ⟨0, _⟩ => show win7_5.index t (0 : Fin 2) * 256 + 1 * (y 0).val = (y 0).val; omega
    | ⟨1, _⟩ => show win7_5.index t (1 : Fin 2) * 128 + 1 * (y 1).val = (y 1).val; omega
  rw [h]

/-- Window 6's block at every point is its whole array: the block index is (0, 0) and the block has the array's extents. -/
theorem iblk_whole6 (c : Dev nD) (t : Fin cfg7.N) :
    (iblk7 V c 6 t : Vec Ideal S1x128 .f32) = (V c (Pipeline.arrRef spec7 6) : Arr 1 128) := by
  obtain ⟨e00, e01, e70, e71, e10, e11, e20, e21, e30, e31, e40, e41, e50, e51, e60, e61⟩ := idx_facts t
  funext y
  unfold iblk7
  rw [View.read_apply]
  show (V c (Pipeline.arrRef spec7 6) : Arr 1 128) (((cfg7.win 6).blk t).view.emb y) = _
  have h : ((cfg7.win 6).blk t).view.emb y = y := by
    funext a; apply Fin.ext
    match a with
    | ⟨0, _⟩ => show win7_6.index t (0 : Fin 2) * 1 + 1 * (y 0).val = (y 0).val; omega
    | ⟨1, _⟩ => show win7_6.index t (1 : Fin 2) * 128 + 1 * (y 1).val = (y 1).val; omega
  rw [h]

/-- WHAT POINT t WRITES BACK is block t of the closed form: the body's result on the blocks point t loads is rows
    3600·t … 3600·t + 3599 of the closed form. -/
theorem flushed7_eq (c : Dev nD) (t : Fin cfg7.N) :
    (dat7 V c).flushed 7 t = ((cfg7.win 7).blk t).view.read (Elt Ideal) (closed V c) := by
  show (cfg7.win 7).cut (grid7.coords t) ((dat7 V c).after 7 t) = _
  rw [after7_7]
  unfold out7_7
  rw [View.canon_unit_zero hz2]
  simp only [View.ld_unit_zero (S := S3600x256) hz2, View.ld_unit_zero (S := S1x256) hz2,
    View.ld_unit_zero (S := S256x128) hz2, View.ld_unit_zero (S := S1x128) hz2]
  obtain ⟨e00, e01, e70, e71, e10, e11, e20, e21, e30, e31, e40, e41, e50, e51, e60, e61⟩ := idx_facts t
  refine funext fun (y : S3600x128.Idx) => ?_
  refine pay_block (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))
    (iblk7 V c 0 t) (iblk7 V c 1 t) (iblk7 V c 2 t) (iblk7 V c 3 t) (iblk7 V c 4 t) (iblk7 V c 5 t) (iblk7 V c 6 t)
    (win7_7.index t (0 : Fin 2)) (fun r k n hn => iblk0_apply V c t r k n hn)
    (iblk_whole1 V c t) (iblk_whole2 V c t) (iblk_whole3 V c t) (iblk_whole4 V c t) (iblk_whole5 V c t) (iblk_whole6 V c t)
    y (((cfg7.win 7).blk t).view.emb y) ?_ ?_
  · show win7_7.index t (0 : Fin 2) * 3600 + 1 * (y 0).val = win7_7.index t (0 : Fin 2) * 3600 + (y 0).val
    omega
  · show win7_7.index t (1 : Fin 2) * 128 + 1 * (y 1).val = (y 1).val
    omega

/-- An index of the output array is in point t's block iff each coordinate is in the block's range on its axis. -/
theorem mem_blk7 (t : Fin cfg7.N) (i : S90000x128.Idx) :
    i ∈ ((cfg7.win 7).blk t).view.set ↔ ∀ a : Fin 2, win7_7.index t a * S3600x128.size a ≤ (i a).val
      ∧ (i a).val < win7_7.index t a * S3600x128.size a + S3600x128.size a := by
  show i ∈ ((View.whole main_v139).slice (win7_7.rect t)).set ↔ _
  rw [View.set_slice_whole, Rect.mem_set_unit]
  exact Iff.rfl

/-- Every index of the output array is in the block of a point that writes back: row n is in point n / 3600's. -/
theorem cover7 (i : S90000x128.Idx) :
    ∃ t : Fin cfg7.N, (cfg7.win 7).flush t = true ∧ i ∈ ((cfg7.win 7).blk t).view.set := by
  have hi0 : (i 0).val < 90000 := (i 0).isLt
  have hi1 : (i 1).val < 128 := (i 1).isLt
  have hlt : (i 0).val / 3600 < cfg7.N := Nat.lt_of_lt_of_eq (by omega : (i 0).val / 3600 < 25) N_7.symm
  obtain ⟨t, ht⟩ : ∃ t : Fin cfg7.N, t.val = (i 0).val / 3600 := ⟨⟨(i 0).val / 3600, hlt⟩, rfl⟩
  obtain ⟨e00, e01, e70, e71, e10, e11, e20, e21, e30, e31, e40, e41, e50, e51, e60, e61⟩ := idx_facts t
  refine ⟨t, flush7_7 t, ?_⟩
  rw [mem_blk7]
  intro a
  match a with
  | ⟨0, _⟩ =>
    show win7_7.index t (0 : Fin 2) * 3600 ≤ (i 0).val ∧ (i 0).val < win7_7.index t (0 : Fin 2) * 3600 + 3600
    omega
  | ⟨1, _⟩ =>
    show win7_7.index t (1 : Fin 2) * 128 ≤ (i 1).val ∧ (i 1).val < win7_7.index t (1 : Fin 2) * 128 + 128
    omega

/-- THE OUTPUT ARRAY after the region's 25 points is the closed form of the arrays the region finds. -/
theorem final7_7 (c : Dev nD) :
    (dat7 V c).arrAt 7 cfg7.N = norm2 false (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) :=
  (dat7 V c).arrAt_eq_of_cover 7 (closed V c) (fun t _ => flushed7_eq V c t) (cover7)

end Cert.KernelIdeal.Region7

end
-- ==== Proof.KernelLayer4b.lean ====
/-
  The idealized kernel program's fourth layer, second half, read through its run.

  After the layer's statistics kernel the host divides the column sums by the row count (the mean row), forms mean of
  squares minus the squared mean (the variance row), and reshapes the scale, shift and second bias to one row each.
  The layer's normalising kernel finds these with h and the second weight, and leaves the normalised second affine map with no activation:
  so the layer's output buffer holds the specification's norm2 of what the statistics kernel and the host stretch
  before it left.
-/
import proofs.«117235_j17583596110491_1_alg».proof.Proof.Gen.KernelIdeal.Frame
import proofs.«117235_j17583596110491_1_alg».proof.Proof.LayerSpec
import proofs.«117235_j17583596110491_1_alg».proof.Proof.LayerBridge
import proofs.«117235_j17583596110491_1_alg».proof.Proof.RefLayer
import proofs.«117235_j17583596110491_1_alg».proof.Proof.KernelGlue
import proofs.«117235_j17583596110491_1_alg».proof.Proof.Region7
import Idealize.ShloMosaic.Lib.StableHlo.Run

set_option maxRecDepth 16384

noncomputable section

namespace Cert.KernelIdeal.KLayer4

open Cert.KernelIdeal Cert.KernelIdeal.Gen
open Idealize.ShloMosaic Idealize.ShloMosaic.TcCoe Idealize.ShloMosaic.ValueIdx Idealize.SL.Sem Idealize.ShloMosaic.StableHlo
open Cert.LayerSpec Cert.LayerBridge Cert.RefLayer Cert.KernelGlue

variable (m : (ℓ : Loc nD τ sig) → Buf (Elt Ideal) ℓ) (ρ : Dev nD → PrngReg)

/-- No operation of the host stretch writes h: it keeps its contents through the stretch. -/
theorem in0 (c : Dev nD) : W15 m ρ c (Proc.devRef .tc main_v129_0) = W14 m ρ c (Proc.devRef .tc main_v129_0) := by
  exact StableHlo.after_of_forall_not_mem _ _ (List.forall_iff_forall_mem.mp (by
    simp only [hostOps7, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation of the host stretch writes the second weight: it keeps its contents through the stretch. -/
theorem in5 (c : Dev nD) : W15 m ρ c (Proc.devRef .tc main_v115) = W14 m ρ c (Proc.devRef .tc main_v115) := by
  exact StableHlo.after_of_forall_not_mem _ _ (List.forall_iff_forall_mem.mp (by
    simp only [hostOps7, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The mean row: the column sums divided by the row count. -/
theorem in1 (c : Dev nD) : W15 m ρ c (Proc.devRef .tc main_v131) = meanK (W14 m ρ c (Proc.devRef .tc main_v129_1)) := by
  show StableHlo.after hostOps7 (W14 m ρ c) (Proc.devRef .tc main_v131) = _
  after_results
  exact meanRow_eq _ _

/-- The variance row: the mean of squares minus the squared mean. -/
theorem in2 (c : Dev nD) :
    W15 m ρ c (Proc.devRef .tc main_v135) = varK (W14 m ρ c (Proc.devRef .tc main_v129_1)) (W14 m ρ c (Proc.devRef .tc main_v129_2)) := by
  show StableHlo.after hostOps7 (W14 m ρ c) (Proc.devRef .tc main_v135) = _
  after_results
  exact varRow_eq _ _ _ _

/-- The scale vector as one row. -/
theorem in3 (c : Dev nD) : W15 m ρ c (Proc.devRef .tc main_v136) = rowOf (W14 m ρ c (Proc.devRef .tc main_v111)) := by
  show StableHlo.after hostOps7 (W14 m ρ c) (Proc.devRef .tc main_v136) = _
  after_results
  exact rowCast_eq _ _

/-- The shift vector as one row. -/
theorem in4 (c : Dev nD) : W15 m ρ c (Proc.devRef .tc main_v137) = rowOf (W14 m ρ c (Proc.devRef .tc main_v113)) := by
  show StableHlo.after hostOps7 (W14 m ρ c) (Proc.devRef .tc main_v137) = _
  after_results
  exact rowCast_eq _ _

/-- The second bias vector as one row. -/
theorem in6 (c : Dev nD) : W15 m ρ c (Proc.devRef .tc main_v138) = rowOf (W14 m ρ c (Proc.devRef .tc main_v117)) := by
  show StableHlo.after hostOps7 (W14 m ρ c) (Proc.devRef .tc main_v138) = _
  after_results
  exact rowCast_eq _ _

/-- The fourth layer's output buffer after its normalising kernel. -/
theorem out_eq (c : Dev nD) :
    W16 m ρ c (Proc.devRef .tc main_v139)
      = norm2 false (W14 m ρ c (Proc.devRef .tc main_v129_0)) (meanK (W14 m ρ c (Proc.devRef .tc main_v129_1)))
          (varK (W14 m ρ c (Proc.devRef .tc main_v129_1)) (W14 m ρ c (Proc.devRef .tc main_v129_2)))
          (rowOf (W14 m ρ c (Proc.devRef .tc main_v111))) (rowOf (W14 m ρ c (Proc.devRef .tc main_v113)))
          (W14 m ρ c (Proc.devRef .tc main_v115)) (rowOf (W14 m ρ c (Proc.devRef .tc main_v117))) := by
  refine ((W16_arr m ρ c 7).trans (Cert.KernelIdeal.Region7.final7_7 (V15 m ρ) c)).trans ?_
  show norm2 false (W15 m ρ c (Proc.devRef .tc main_v129_0)) (W15 m ρ c (Proc.devRef .tc main_v131)) (W15 m ρ c (Proc.devRef .tc main_v135))
    (W15 m ρ c (Proc.devRef .tc main_v136)) (W15 m ρ c (Proc.devRef .tc main_v137)) (W15 m ρ c (Proc.devRef .tc main_v115))
    (W15 m ρ c (Proc.devRef .tc main_v138)) = _
  rw [in0, in1, in2, in3, in4, in5, in6]

end Cert.KernelIdeal.KLayer4

end
-- ==== Proof.KernelLayer4a.lean ====
/-
  The idealized kernel program's fourth layer, read through its run.

  The layer's statistics kernel finds x (the layer before's output), the aggregated neighbours, the first weight and the
  bias row, and leaves h = (x + agg)·W₁ + b₁ with its column sums and column sums of squares.  The host then divides
  the sums by the row count (the mean row and the variance row) and reshapes the scale, shift and second bias to one
  row each.  The normalising kernel finds these and leaves the normalised second affine map.  So the layer's output
  buffer holds the specification's layer of the buffers the host stretch before the statistics kernel computed.
-/
import proofs.«117235_j17583596110491_1_alg».proof.Proof.Gen.KernelIdeal.Frame
import proofs.«117235_j17583596110491_1_alg».proof.Proof.LayerSpec
import proofs.«117235_j17583596110491_1_alg».proof.Proof.LayerBridge
import proofs.«117235_j17583596110491_1_alg».proof.Proof.RefLayer
import proofs.«117235_j17583596110491_1_alg».proof.Proof.KernelGlue
import proofs.«117235_j17583596110491_1_alg».proof.Proof.Region6Value
import proofs.«117235_j17583596110491_1_alg».proof.Proof.KernelLayer4b
import Idealize.ShloMosaic.Lib.StableHlo.Run

set_option maxRecDepth 16384

noncomputable section

namespace Cert.KernelIdeal.KLayer4

open Cert.KernelIdeal Cert.KernelIdeal.Gen
open Idealize.ShloMosaic Idealize.ShloMosaic.TcCoe Idealize.ShloMosaic.ValueIdx Idealize.SL.Sem Idealize.ShloMosaic.StableHlo
open Cert.LayerSpec Cert.LayerBridge Cert.RefLayer Cert.KernelGlue

variable (m : (ℓ : Loc nD τ sig) → Buf (Elt Ideal) ℓ) (ρ : Dev nD → PrngReg)

/-- h after the statistics kernel: the first affine map of what the host stretch before it left. -/
theorem h_eq (c : Dev nD) :
    W14 m ρ c (Proc.devRef .tc main_v129_0)
      = lin1 (W13 m ρ c (Proc.devRef .tc main_v71)) (W13 m ρ c (Proc.devRef .tc main_v127)) (W13 m ρ c (Proc.devRef .tc main_v107))
          (W13 m ρ c (Proc.devRef .tc main_v128)) :=
  (W14_arr m ρ c 4).trans (Cert.KernelIdeal.Region6.final6_4 (V13 m ρ) c)

/-- The column sums after the statistics kernel. -/
theorem s_eq (c : Dev nD) :
    W14 m ρ c (Proc.devRef .tc main_v129_1)
      = colSum (lin1 (W13 m ρ c (Proc.devRef .tc main_v71)) (W13 m ρ c (Proc.devRef .tc main_v127)) (W13 m ρ c (Proc.devRef .tc main_v107))
          (W13 m ρ c (Proc.devRef .tc main_v128))) :=
  (W14_arr m ρ c 5).trans (Cert.KernelIdeal.Region6.final6_5 (V13 m ρ) c)

/-- The column sums of squares after the statistics kernel. -/
theorem ss_eq (c : Dev nD) :
    W14 m ρ c (Proc.devRef .tc main_v129_2)
      = colSumSq (lin1 (W13 m ρ c (Proc.devRef .tc main_v71)) (W13 m ρ c (Proc.devRef .tc main_v127)) (W13 m ρ c (Proc.devRef .tc main_v107))
          (W13 m ρ c (Proc.devRef .tc main_v128))) :=
  (W14_arr m ρ c 6).trans (Cert.KernelIdeal.Region6.final6_6 (V13 m ρ) c)

/-- Buffers the statistics kernel does not touch keep their contents through it. -/
theorem keep111 (c : Dev nD) : W14 m ρ c (Proc.devRef .tc main_v111) = W13 m ρ c (Proc.devRef .tc main_v111) := W14_of_ne m ρ c main_v111 (by decide)
theorem keep113 (c : Dev nD) : W14 m ρ c (Proc.devRef .tc main_v113) = W13 m ρ c (Proc.devRef .tc main_v113) := W14_of_ne m ρ c main_v113 (by decide)
theorem keep115 (c : Dev nD) : W14 m ρ c (Proc.devRef .tc main_v115) = W13 m ρ c (Proc.devRef .tc main_v115) := W14_of_ne m ρ c main_v115 (by decide)
theorem keep117 (c : Dev nD) : W14 m ρ c (Proc.devRef .tc main_v117) = W13 m ρ c (Proc.devRef .tc main_v117) := W14_of_ne m ρ c main_v117 (by decide)

set_option maxHeartbeats 2000000 in
/-- The first bias as the statistics kernel finds it is the bias vector as one row. -/
theorem b1row (c : Dev nD) : W13 m ρ c (Proc.devRef .tc main_v128) = rowOf (W13 m ρ c (Proc.devRef .tc main_v109)) := by
  show StableHlo.after hostOps6 (W12 m ρ c) (Proc.devRef .tc main_v128) = rowOf (StableHlo.after hostOps6 (W12 m ρ c) (Proc.devRef .tc main_v109))
  after_results_simp
  exact rowCast_eq _ _

/-- THE KERNEL PROGRAM'S FOURTH LAYER: its output buffer holds the specification's layer of what the host stretch
    before the layer's statistics kernel left. -/
theorem layer4 (c : Dev nD) :
    W16 m ρ c (Proc.devRef .tc main_v139)
      = norm2 false
          (lin1 (W13 m ρ c (Proc.devRef .tc main_v71)) (W13 m ρ c (Proc.devRef .tc main_v127)) (W13 m ρ c (Proc.devRef .tc main_v107))
          (rowOf (W13 m ρ c (Proc.devRef .tc main_v109))))
          (meanK (colSum (lin1 (W13 m ρ c (Proc.devRef .tc main_v71)) (W13 m ρ c (Proc.devRef .tc main_v127)) (W13 m ρ c (Proc.devRef .tc main_v107))
          (rowOf (W13 m ρ c (Proc.devRef .tc main_v109))))))
          (varK (colSum (lin1 (W13 m ρ c (Proc.devRef .tc main_v71)) (W13 m ρ c (Proc.devRef .tc main_v127)) (W13 m ρ c (Proc.devRef .tc main_v107))
          (rowOf (W13 m ρ c (Proc.devRef .tc main_v109)))))
            (colSumSq (lin1 (W13 m ρ c (Proc.devRef .tc main_v71)) (W13 m ρ c (Proc.devRef .tc main_v127)) (W13 m ρ c (Proc.devRef .tc main_v107))
          (rowOf (W13 m ρ c (Proc.devRef .tc main_v109))))))
          (rowOf (W13 m ρ c (Proc.devRef .tc main_v111))) (rowOf (W13 m ρ c (Proc.devRef .tc main_v113)))
          (W13 m ρ c (Proc.devRef .tc main_v115)) (rowOf (W13 m ρ c (Proc.devRef .tc main_v117))) := by
  rw [out_eq, h_eq, s_eq, ss_eq, keep111, keep113, keep115, keep117, b1row]

end Cert.KernelIdeal.KLayer4

end
-- ==== Proof.RefLayer4.lean ====
/-
  The reference's fourth layer, read through its run.

  The third window's last three operations and the fourth window's first 22 slice the fourth layer's parameters out
  of the stacked arrays and aggregate the neighbours of the second layer's output (a clamped gather and a scatter-add);
  the fourth window's next 53 are the layer itself, with no activation: x + agg, the first affine map, the column
  means, the variance function, the normalisation and the second affine map; what follows is the program's tail.  So the
  layer's output buffer holds the printed layer of what those 25 operations left, and nothing later writes it.
-/
import proofs.«117235_j17583596110491_1_alg».proof.Proof.RefRun
import proofs.«117235_j17583596110491_1_alg».proof.Proof.RefLayer
import Idealize.ShloMosaic.Lib.StableHlo.Run

set_option maxRecDepth 65536

noncomputable section

namespace Cert.ReferenceIdeal.RLayer4

open Cert.ReferenceIdeal Cert.ReferenceIdeal.Gen Cert.ReferenceIdeal.RefRun
open Idealize.ShloMosaic Idealize.ShloMosaic.TcCoe Idealize.SL.Sem Idealize.ShloMosaic.StableHlo
open Cert.RefLayer

/-- The third window up to the fourth layer's first slices: everything of it but its last three operations. -/
abbrev pre4 : List (HloOp τ sig (Elt Ideal)) := (ops2 (F := Ideal)).take 78
/-- The operations before the fourth layer proper: the slices of its parameters and the aggregation. -/
abbrev chain4 : List (HloOp τ sig (Elt Ideal)) := (ops2 (F := Ideal)).drop 78 ++ (ops3 (F := Ideal)).take 22
/-- The fourth layer's own operations. -/
abbrev core4 : List (HloOp τ sig (Elt Ideal)) := ((ops3 (F := Ideal)).drop 22).take 53
/-- The rest of the fourth window: the beginning of the program's tail. -/
abbrev post4 : List (HloOp τ sig (Elt Ideal)) := (ops3 (F := Ideal)).drop 75

/-- The fourth window is its first 22 operations, the layer, and the rest. -/
theorem ops3_split : (ops3 (F := Ideal)) = (ops3 (F := Ideal)).take 22 ++ (core4 ++ post4) := by
  have h : post4 = ((ops3 (F := Ideal)).drop 22).drop 53 := by
    show (ops3 (F := Ideal)).drop 75 = _
    rw [List.drop_drop]
  rw [h, List.take_append_drop, List.take_append_drop]

/-- The third and fourth windows run one after the other are: the third up to the fourth layer's slices, the slices
    and the aggregation, the layer, the rest. -/
theorem after_ops3_ops2 (V : Valuation τ sig (Elt Ideal)) :
    after (ops3 (F := Ideal)) (after (ops2 (F := Ideal)) V) = after post4 (after core4 (after chain4 (after pre4 V))) := by
  rw [← StableHlo.after_append core4 post4, StableHlo.after_append ((ops2 (F := Ideal)).drop 78) ((ops3 (F := Ideal)).take 22),
    ← StableHlo.after_append ((ops3 (F := Ideal)).take 22) (core4 ++ post4), ← ops3_split,
    ← StableHlo.after_append pre4 ((ops2 (F := Ideal)).drop 78), List.take_append_drop]

/-- The references the rest of the fourth window writes. -/
abbrev Wpost4 : List (Ref sig .tc) := [main_v206, main_v207, main_v208, main_cst_26, main_v209, main_cst_27]

theorem post4_writes : post4.Forall fun op =>
    op.writes ⊆ ((Wpost4.map (Proc.devRef (τ := τ) .tc)).toFinset : Finset (DevRef τ sig)) := by
  simp only [post4, List.drop_succ_cons, List.drop_zero]
  exact ⟨writes_sub_at Wpost4 0 rfl rfl, writes_sub_at Wpost4 1 rfl rfl, writes_sub_at Wpost4 2 rfl rfl,
    writes_sub_at Wpost4 3 rfl rfl, writes_sub_at Wpost4 4 rfl rfl, writes_sub_at Wpost4 5 rfl rfl⟩

/-- The layer's output is written by the last of its own operations and by nothing later. -/
theorem out_eq4 (V : Valuation τ sig (Elt Ideal)) :
    after (ops (F := Ideal)) V (main_v205 : DevRef τ sig)
      = after core4 (after chain4 (after pre4 (after (ops1 (F := Ideal)) (after (ops0 (F := Ideal)) V)))) (main_v205 : DevRef τ sig) := by
  rw [after_ops]
  rw [StableHlo.after_of_writes_sub ops5 _ ops5_writes (by decide), StableHlo.after_of_writes_sub ops4 _ ops4_writes (by decide),
    after_ops3_ops2, StableHlo.after_of_writes_sub post4 _ post4_writes (by decide)]

/-- The fourth layer's h, as the reference prints it, of what the slices and the aggregation left. -/
abbrev H4 (W : Valuation τ sig (Elt Ideal)) : FVec Ideal ⟨2, ![90000, 256]⟩ .f32 :=
  refLin (addf (W (main_v105 : DevRef τ sig)) (W (main_v177 : DevRef τ sig))) (W (main_v157 : DevRef τ sig)) (W (main_v159 : DevRef τ sig))
    dot_S90000x128_S128x256_S90000x256_1_0_0_1_n_n_wf bcast_S256_S1x256_1 bcast_S1x256_S90000x256_0_1

set_option maxHeartbeats 4000000 in
/-- THE REFERENCE'S FOURTH LAYER: its output buffer holds the printed layer of what the slices and the aggregation left. -/
theorem layer4 (W : Valuation τ sig (Elt Ideal)) :
    after core4 W (main_v205 : DevRef τ sig)
      = refOutLin (H4 W) (refMean (H4 W) reducesTo_S90000x256_S256_d0 h_S_ bcast_S_S256)
          (refVar (H4 W) reducesTo_S90000x256_S256_d0 h_S_ bcast_S_S256 bcast_S_S1x256 bcast_S256_S1x256_1 bcast_S1x256_S90000x256_0_1)
          (W (main_v161 : DevRef τ sig)) (W (main_v163 : DevRef τ sig)) (W (main_v165 : DevRef τ sig)) (W (main_v167 : DevRef τ sig))
          dot_S90000x256_S256x128_S90000x128_1_0_0_1_n_n_wf bcast_S_S256 bcast_S256_S1x256_1
          bcast_S1x256_S90000x256_0_1 bcast_S128_S1x128_1 bcast_S1x128_S90000x128_0_1 := by
  simp only [core4, List.drop_succ_cons, List.drop_zero, List.take_succ_cons, List.take_zero]
  after_results_simp
  rfl

end Cert.ReferenceIdeal.RLayer4

end
-- ==== Proof.Chain4.lean ====
/-
  The two programs' stretches before layer 4 agree.

  Before the layer's first kernel the kernel program slices the layer's parameters and aggregates the neighbours of the
  previous layer's output; the reference's corresponding operations are the same operations in the same order.  From
  valuations that agree on the previous layer's output and on the arguments, each buffer these operations write holds
  the same array in both programs.
-/
import proofs.«117235_j17583596110491_1_alg».proof.Proof.Gen.KernelIdeal.Frame
import proofs.«117235_j17583596110491_1_alg».proof.Proof.RefLayer4
import Idealize.ShloMosaic.Lib.StableHlo.Run

set_option maxRecDepth 65536

noncomputable section

namespace Cert.Chain4

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option maxHeartbeats 1000000 in
theorem x_eq (Vp : Valuation Cert.ReferenceIdeal.τ Cert.ReferenceIdeal.sig (Elt Ideal)) (hx : Vp (Proc.devRef .tc Cert.ReferenceIdeal.main_v105) = Cert.KernelIdeal.Gen.W12 m ρ c (Proc.devRef .tc Cert.KernelIdeal.main_v71)) :
    StableHlo.after Cert.ReferenceIdeal.RLayer4.chain4 Vp (Proc.devRef .tc Cert.ReferenceIdeal.main_v105)
      = Cert.KernelIdeal.Gen.W13 m ρ c (Proc.devRef .tc Cert.KernelIdeal.main_v71) := by
  show StableHlo.after Cert.ReferenceIdeal.RLayer4.chain4 Vp (Proc.devRef .tc Cert.ReferenceIdeal.main_v105)
      = StableHlo.after Cert.KernelIdeal.Gen.hostOps6 (Cert.KernelIdeal.Gen.W12 m ρ c) (Proc.devRef .tc Cert.KernelIdeal.main_v71)
  simp only [Cert.ReferenceIdeal.RLayer4.chain4, List.take_succ_cons, List.take_zero, List.drop_succ_cons, List.drop_zero, List.cons_append, List.nil_append]
  after_results_simp
  rw [hx]
  all_goals rfl

set_option maxHeartbeats 1000000 in
theorem agg_eq (Vp : Valuation Cert.ReferenceIdeal.τ Cert.ReferenceIdeal.sig (Elt Ideal)) (hx : Vp (Proc.devRef .tc Cert.ReferenceIdeal.main_v105) = Cert.KernelIdeal.Gen.W12 m ρ c (Proc.devRef .tc Cert.KernelIdeal.main_v71)) (hv1 : Vp (Proc.devRef .tc Cert.ReferenceIdeal.main_v1) = Cert.KernelIdeal.Gen.W12 m ρ c (Proc.devRef .tc Cert.KernelIdeal.main_v1)) (hv3 : Vp (Proc.devRef .tc Cert.ReferenceIdeal.main_v3) = Cert.KernelIdeal.Gen.W12 m ρ c (Proc.devRef .tc Cert.KernelIdeal.main_v3)) :
    StableHlo.after Cert.ReferenceIdeal.RLayer4.chain4 Vp (Proc.devRef .tc Cert.ReferenceIdeal.main_v177)
      = Cert.KernelIdeal.Gen.W13 m ρ c (Proc.devRef .tc Cert.KernelIdeal.main_v127) := by
  show StableHlo.after Cert.ReferenceIdeal.RLayer4.chain4 Vp (Proc.devRef .tc Cert.ReferenceIdeal.main_v177)
      = StableHlo.after Cert.KernelIdeal.Gen.hostOps6 (Cert.KernelIdeal.Gen.W12 m ρ c) (Proc.devRef .tc Cert.KernelIdeal.main_v127)
  simp only [Cert.ReferenceIdeal.RLayer4.chain4, List.take_succ_cons, List.take_zero, List.drop_succ_cons, List.drop_zero, List.cons_append, List.nil_append]
  after_results_simp
  rw [hx, hv1, hv3]
  all_goals rfl

set_option maxHeartbeats 1000000 in
theorem w1_eq (Vp : Valuation Cert.ReferenceIdeal.τ Cert.ReferenceIdeal.sig (Elt Ideal)) (h6 : Vp (Proc.devRef .tc Cert.ReferenceIdeal.main_arg6) = Cert.KernelIdeal.Gen.W12 m ρ c (Proc.devRef .tc Cert.KernelIdeal.main_arg6)) :
    StableHlo.after Cert.ReferenceIdeal.RLayer4.chain4 Vp (Proc.devRef .tc Cert.ReferenceIdeal.main_v157)
      = Cert.KernelIdeal.Gen.W13 m ρ c (Proc.devRef .tc Cert.KernelIdeal.main_v107) := by
  show StableHlo.after Cert.ReferenceIdeal.RLayer4.chain4 Vp (Proc.devRef .tc Cert.ReferenceIdeal.main_v157)
      = StableHlo.after Cert.KernelIdeal.Gen.hostOps6 (Cert.KernelIdeal.Gen.W12 m ρ c) (Proc.devRef .tc Cert.KernelIdeal.main_v107)
  simp only [Cert.ReferenceIdeal.RLayer4.chain4, List.take_succ_cons, List.take_zero, List.drop_succ_cons, List.drop_zero, List.cons_append, List.nil_append]
  after_results_simp
  rw [h6]
  all_goals rfl

set_option maxHeartbeats 1000000 in
theorem b1_eq (Vp : Valuation Cert.ReferenceIdeal.τ Cert.ReferenceIdeal.sig (Elt Ideal)) (h7 : Vp (Proc.devRef .tc Cert.ReferenceIdeal.main_arg7) = Cert.KernelIdeal.Gen.W12 m ρ c (Proc.devRef .tc Cert.KernelIdeal.main_arg7)) :
    StableHlo.after Cert.ReferenceIdeal.RLayer4.chain4 Vp (Proc.devRef .tc Cert.ReferenceIdeal.main_v159)
      = Cert.KernelIdeal.Gen.W13 m ρ c (Proc.devRef .tc Cert.KernelIdeal.main_v109) := by
  show StableHlo.after Cert.ReferenceIdeal.RLayer4.chain4 Vp (Proc.devRef .tc Cert.ReferenceIdeal.main_v159)
      = StableHlo.after Cert.KernelIdeal.Gen.hostOps6 (Cert.KernelIdeal.Gen.W12 m ρ c) (Proc.devRef .tc Cert.KernelIdeal.main_v109)
  simp only [Cert.ReferenceIdeal.RLayer4.chain4, List.take_succ_cons, List.take_zero, List.drop_succ_cons, List.drop_zero, List.cons_append, List.nil_append]
  after_results_simp
  rw [h7]
  all_goals rfl

set_option maxHeartbeats 1000000 in
theorem gamma_eq (Vp : Valuation Cert.ReferenceIdeal.τ Cert.ReferenceIdeal.sig (Elt Ideal)) (h8 : Vp (Proc.devRef .tc Cert.ReferenceIdeal.main_arg8) = Cert.KernelIdeal.Gen.W12 m ρ c (Proc.devRef .tc Cert.KernelIdeal.main_arg8)) :
    StableHlo.after Cert.ReferenceIdeal.RLayer4.chain4 Vp (Proc.devRef .tc Cert.ReferenceIdeal.main_v161)
      = Cert.KernelIdeal.Gen.W13 m ρ c (Proc.devRef .tc Cert.KernelIdeal.main_v111) := by
  show StableHlo.after Cert.ReferenceIdeal.RLayer4.chain4 Vp (Proc.devRef .tc Cert.ReferenceIdeal.main_v161)
      = StableHlo.after Cert.KernelIdeal.Gen.hostOps6 (Cert.KernelIdeal.Gen.W12 m ρ c) (Proc.devRef .tc Cert.KernelIdeal.main_v111)
  simp only [Cert.ReferenceIdeal.RLayer4.chain4, List.take_succ_cons, List.take_zero, List.drop_succ_cons, List.drop_zero, List.cons_append, List.nil_append]
  after_results_simp
  rw [h8]
  all_goals rfl

set_option maxHeartbeats 1000000 in
theorem beta_eq (Vp : Valuation Cert.ReferenceIdeal.τ Cert.ReferenceIdeal.sig (Elt Ideal)) (h9 : Vp (Proc.devRef .tc Cert.ReferenceIdeal.main_arg9) = Cert.KernelIdeal.Gen.W12 m ρ c (Proc.devRef .tc Cert.KernelIdeal.main_arg9)) :
    StableHlo.after Cert.ReferenceIdeal.RLayer4.chain4 Vp (Proc.devRef .tc Cert.ReferenceIdeal.main_v163)
      = Cert.KernelIdeal.Gen.W13 m ρ c (Proc.devRef .tc Cert.KernelIdeal.main_v113) := by
  show StableHlo.after Cert.ReferenceIdeal.RLayer4.chain4 Vp (Proc.devRef .tc Cert.ReferenceIdeal.main_v163)
      = StableHlo.after Cert.KernelIdeal.Gen.hostOps6 (Cert.KernelIdeal.Gen.W12 m ρ c) (Proc.devRef .tc Cert.KernelIdeal.main_v113)
  simp only [Cert.ReferenceIdeal.RLayer4.chain4, List.take_succ_cons, List.take_zero, List.drop_succ_cons, List.drop_zero, List.cons_append, List.nil_append]
  after_results_simp
  rw [h9]
  all_goals rfl

set_option maxHeartbeats 1000000 in
theorem w2_eq (Vp : Valuation Cert.ReferenceIdeal.τ Cert.ReferenceIdeal.sig (Elt Ideal)) (h10 : Vp (Proc.devRef .tc Cert.ReferenceIdeal.main_arg10) = Cert.KernelIdeal.Gen.W12 m ρ c (Proc.devRef .tc Cert.KernelIdeal.main_arg10)) :
    StableHlo.after Cert.ReferenceIdeal.RLayer4.chain4 Vp (Proc.devRef .tc Cert.ReferenceIdeal.main_v165)
      = Cert.KernelIdeal.Gen.W13 m ρ c (Proc.devRef .tc Cert.KernelIdeal.main_v115) := by
  show StableHlo.after Cert.ReferenceIdeal.RLayer4.chain4 Vp (Proc.devRef .tc Cert.ReferenceIdeal.main_v165)
      = StableHlo.after Cert.KernelIdeal.Gen.hostOps6 (Cert.KernelIdeal.Gen.W12 m ρ c) (Proc.devRef .tc Cert.KernelIdeal.main_v115)
  simp only [Cert.ReferenceIdeal.RLayer4.chain4, List.take_succ_cons, List.take_zero, List.drop_succ_cons, List.drop_zero, List.cons_append, List.nil_append]
  after_results_simp
  rw [h10]
  all_goals rfl

set_option maxHeartbeats 1000000 in
theorem b2_eq (Vp : Valuation Cert.ReferenceIdeal.τ Cert.ReferenceIdeal.sig (Elt Ideal)) (h11 : Vp (Proc.devRef .tc Cert.ReferenceIdeal.main_arg11) = Cert.KernelIdeal.Gen.W12 m ρ c (Proc.devRef .tc Cert.KernelIdeal.main_arg11)) :
    StableHlo.after Cert.ReferenceIdeal.RLayer4.chain4 Vp (Proc.devRef .tc Cert.ReferenceIdeal.main_v167)
      = Cert.KernelIdeal.Gen.W13 m ρ c (Proc.devRef .tc Cert.KernelIdeal.main_v117) := by
  show StableHlo.after Cert.ReferenceIdeal.RLayer4.chain4 Vp (Proc.devRef .tc Cert.ReferenceIdeal.main_v167)
      = StableHlo.after Cert.KernelIdeal.Gen.hostOps6 (Cert.KernelIdeal.Gen.W12 m ρ c) (Proc.devRef .tc Cert.KernelIdeal.main_v117)
  simp only [Cert.ReferenceIdeal.RLayer4.chain4, List.take_succ_cons, List.take_zero, List.drop_succ_cons, List.drop_zero, List.cons_append, List.nil_append]
  after_results_simp
  rw [h11]
  all_goals rfl

end Cert.Chain4

end
-- ==== Proof.ChainFin4.lean ====
/-
  What the reference's stretch before layer 4 leaves is finite when the previous layer's output and the arguments are.
-/
import proofs.«117235_j17583596110491_1_alg».proof.Proof.RefLayer4
import proofs.«117235_j17583596110491_1_alg».proof.Proof.ChainFin1

set_option maxRecDepth 65536

noncomputable section

namespace Cert.ChainFin4

open Idealize.ShloMosaic Idealize.ShloMosaic.TcCoe Idealize.SL.Sem Idealize.ShloMosaic.StableHlo
open Cert.LayerBridge Cert.ChainFin

variable (Vp : Valuation Cert.ReferenceIdeal.τ Cert.ReferenceIdeal.sig (Elt Ideal))

theorem fin_x (hx : FinArr (S := Cert.ReferenceIdeal.S90000x128) (Vp (Proc.devRef .tc Cert.ReferenceIdeal.main_v105))) :
    FinArr (S := Cert.ReferenceIdeal.S90000x128) (StableHlo.after Cert.ReferenceIdeal.RLayer4.chain4 Vp (Proc.devRef .tc Cert.ReferenceIdeal.main_v105)) := by
  simp only [Cert.ReferenceIdeal.RLayer4.chain4, List.take_succ_cons, List.take_zero, List.drop_succ_cons, List.drop_zero, List.cons_append, List.nil_append]
  after_results_simp
  exact hx

set_option maxHeartbeats 1000000 in
theorem fin_agg (hx : FinArr (S := Cert.ReferenceIdeal.S90000x128) (Vp (Proc.devRef .tc Cert.ReferenceIdeal.main_v105))) :
    FinArr (S := Cert.ReferenceIdeal.S90000x128) (StableHlo.after Cert.ReferenceIdeal.RLayer4.chain4 Vp (Proc.devRef .tc Cert.ReferenceIdeal.main_v177)) := by
  simp only [Cert.ReferenceIdeal.RLayer4.chain4, List.take_succ_cons, List.take_zero, List.drop_succ_cons, List.drop_zero, List.cons_append, List.nil_append]
  after_results_simp
  exact scatterAdd_fin _ _ _ _ (zeros_fin _) (gather_fin _ _ _ hx)

theorem fin_w1 (h : FinArr (S := Cert.ReferenceIdeal.S4x128x256) (Vp (Proc.devRef .tc Cert.ReferenceIdeal.main_arg6))) :
    FinArr (S := Cert.ReferenceIdeal.S128x256) (StableHlo.after Cert.ReferenceIdeal.RLayer4.chain4 Vp (Proc.devRef .tc Cert.ReferenceIdeal.main_v157)) := by
  simp only [Cert.ReferenceIdeal.RLayer4.chain4, List.take_succ_cons, List.take_zero, List.drop_succ_cons, List.drop_zero, List.cons_append, List.nil_append]
  after_results_simp
  exact shapeCast_fin _ _ (slice_fin _ _ _ h)

theorem fin_b1 (h : FinArr (S := Cert.ReferenceIdeal.S4x256) (Vp (Proc.devRef .tc Cert.ReferenceIdeal.main_arg7))) :
    FinArr (S := Cert.ReferenceIdeal.S256) (StableHlo.after Cert.ReferenceIdeal.RLayer4.chain4 Vp (Proc.devRef .tc Cert.ReferenceIdeal.main_v159)) := by
  simp only [Cert.ReferenceIdeal.RLayer4.chain4, List.take_succ_cons, List.take_zero, List.drop_succ_cons, List.drop_zero, List.cons_append, List.nil_append]
  after_results_simp
  exact shapeCast_fin _ _ (slice_fin _ _ _ h)

theorem fin_gamma (h : FinArr (S := Cert.ReferenceIdeal.S4x256) (Vp (Proc.devRef .tc Cert.ReferenceIdeal.main_arg8))) :
    FinArr (S := Cert.ReferenceIdeal.S256) (StableHlo.after Cert.ReferenceIdeal.RLayer4.chain4 Vp (Proc.devRef .tc Cert.ReferenceIdeal.main_v161)) := by
  simp only [Cert.ReferenceIdeal.RLayer4.chain4, List.take_succ_cons, List.take_zero, List.drop_succ_cons, List.drop_zero, List.cons_append, List.nil_append]
  after_results_simp
  exact shapeCast_fin _ _ (slice_fin _ _ _ h)

theorem fin_beta (h : FinArr (S := Cert.ReferenceIdeal.S4x256) (Vp (Proc.devRef .tc Cert.ReferenceIdeal.main_arg9))) :
    FinArr (S := Cert.ReferenceIdeal.S256) (StableHlo.after Cert.ReferenceIdeal.RLayer4.chain4 Vp (Proc.devRef .tc Cert.ReferenceIdeal.main_v163)) := by
  simp only [Cert.ReferenceIdeal.RLayer4.chain4, List.take_succ_cons, List.take_zero, List.drop_succ_cons, List.drop_zero, List.cons_append, List.nil_append]
  after_results_simp
  exact shapeCast_fin _ _ (slice_fin _ _ _ h)

theorem fin_w2 (h : FinArr (S := Cert.ReferenceIdeal.S4x256x128) (Vp (Proc.devRef .tc Cert.ReferenceIdeal.main_arg10))) :
    FinArr (S := Cert.ReferenceIdeal.S256x128) (StableHlo.after Cert.ReferenceIdeal.RLayer4.chain4 Vp (Proc.devRef .tc Cert.ReferenceIdeal.main_v165)) := by
  simp only [Cert.ReferenceIdeal.RLayer4.chain4, List.take_succ_cons, List.take_zero, List.drop_succ_cons, List.drop_zero, List.cons_append, List.nil_append]
  after_results_simp
  exact shapeCast_fin _ _ (slice_fin _ _ _ h)

theorem fin_b2 (h : FinArr (S := Cert.ReferenceIdeal.S4x128) (Vp (Proc.devRef .tc Cert.ReferenceIdeal.main_arg11))) :
    FinArr (S := Cert.ReferenceIdeal.S128) (StableHlo.after Cert.ReferenceIdeal.RLayer4.chain4 Vp (Proc.devRef .tc Cert.ReferenceIdeal.main_v167)) := by
  simp only [Cert.ReferenceIdeal.RLayer4.chain4, List.take_succ_cons, List.take_zero, List.drop_succ_cons, List.drop_zero, List.cons_append, List.nil_append]
  after_results_simp
  exact shapeCast_fin _ _ (slice_fin _ _ _ h)

end Cert.ChainFin4

end
-- ==== Proof.Layer4Sim.lean ====
/-
  Layer 4: the two programs' outputs agree.

  From valuations at the previous layer boundary that agree on the previous layer's output, on the edge-index vectors and
  on the parameters, and whose previous output and parameters are finite: the reference's output buffer holds its printed
  layer of what its stretch left, which on a finite h is the specification's layer at the rows the kernel program forms
  (the variance identity); the kernel program's output buffer holds the specification's layer of what its stretch left;
  and the two stretches agree buffer by buffer.
-/
import proofs.«117235_j17583596110491_1_alg».proof.Proof.KernelLayer4a
import proofs.«117235_j17583596110491_1_alg».proof.Proof.RefLayer4
import proofs.«117235_j17583596110491_1_alg».proof.Proof.Chain4
import proofs.«117235_j17583596110491_1_alg».proof.Proof.ChainFin4
import proofs.«117235_j17583596110491_1_alg».proof.Proof.LayerEq

set_option maxRecDepth 65536

noncomputable section

namespace Cert.Layer4Sim

open Idealize.ShloMosaic Idealize.ShloMosaic.TcCoe Idealize.SL.Sem Idealize.ShloMosaic.StableHlo
open Cert.LayerSpec Cert.LayerBridge Cert.RefLayer Cert.LayerEq

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option maxHeartbeats 2000000 in
theorem sim (Vp : Valuation Cert.ReferenceIdeal.τ Cert.ReferenceIdeal.sig (Elt Ideal))
    (hx : Vp (Proc.devRef .tc Cert.ReferenceIdeal.main_v105) = Cert.KernelIdeal.Gen.W12 m ρ c (Proc.devRef .tc Cert.KernelIdeal.main_v71))
    (hv1 : Vp (Proc.devRef .tc Cert.ReferenceIdeal.main_v1) = Cert.KernelIdeal.Gen.W12 m ρ c (Proc.devRef .tc Cert.KernelIdeal.main_v1))
    (hv3 : Vp (Proc.devRef .tc Cert.ReferenceIdeal.main_v3) = Cert.KernelIdeal.Gen.W12 m ρ c (Proc.devRef .tc Cert.KernelIdeal.main_v3))
    (h6 : Vp (Proc.devRef .tc Cert.ReferenceIdeal.main_arg6) = Cert.KernelIdeal.Gen.W12 m ρ c (Proc.devRef .tc Cert.KernelIdeal.main_arg6))
    (h7 : Vp (Proc.devRef .tc Cert.ReferenceIdeal.main_arg7) = Cert.KernelIdeal.Gen.W12 m ρ c (Proc.devRef .tc Cert.KernelIdeal.main_arg7))
    (h8 : Vp (Proc.devRef .tc Cert.ReferenceIdeal.main_arg8) = Cert.KernelIdeal.Gen.W12 m ρ c (Proc.devRef .tc Cert.KernelIdeal.main_arg8))
    (h9 : Vp (Proc.devRef .tc Cert.ReferenceIdeal.main_arg9) = Cert.KernelIdeal.Gen.W12 m ρ c (Proc.devRef .tc Cert.KernelIdeal.main_arg9))
    (h10 : Vp (Proc.devRef .tc Cert.ReferenceIdeal.main_arg10) = Cert.KernelIdeal.Gen.W12 m ρ c (Proc.devRef .tc Cert.KernelIdeal.main_arg10))
    (h11 : Vp (Proc.devRef .tc Cert.ReferenceIdeal.main_arg11) = Cert.KernelIdeal.Gen.W12 m ρ c (Proc.devRef .tc Cert.KernelIdeal.main_arg11))
    (fx : FinArr (S := Cert.ReferenceIdeal.S90000x128) (Vp (Proc.devRef .tc Cert.ReferenceIdeal.main_v105)))
    (f6 : FinArr (S := Cert.ReferenceIdeal.S4x128x256) (Vp (Proc.devRef .tc Cert.ReferenceIdeal.main_arg6)))
    (f7 : FinArr (S := Cert.ReferenceIdeal.S4x256) (Vp (Proc.devRef .tc Cert.ReferenceIdeal.main_arg7)))
    (f8 : FinArr (S := Cert.ReferenceIdeal.S4x256) (Vp (Proc.devRef .tc Cert.ReferenceIdeal.main_arg8)))
    (f9 : FinArr (S := Cert.ReferenceIdeal.S4x256) (Vp (Proc.devRef .tc Cert.ReferenceIdeal.main_arg9)))
    (f10 : FinArr (S := Cert.ReferenceIdeal.S4x256x128) (Vp (Proc.devRef .tc Cert.ReferenceIdeal.main_arg10)))
    (f11 : FinArr (S := Cert.ReferenceIdeal.S4x128) (Vp (Proc.devRef .tc Cert.ReferenceIdeal.main_arg11))) :
    StableHlo.after Cert.ReferenceIdeal.RLayer4.core4 (StableHlo.after Cert.ReferenceIdeal.RLayer4.chain4 Vp) (Proc.devRef .tc Cert.ReferenceIdeal.main_v205)
        = Cert.KernelIdeal.Gen.W16 m ρ c (Proc.devRef .tc Cert.KernelIdeal.main_v139)
      ∧ FinArr (S := Cert.KernelIdeal.S90000x128) (Cert.KernelIdeal.Gen.W16 m ρ c (Proc.devRef .tc Cert.KernelIdeal.main_v139)) := by
  have hr : (⟨2, ![90000, 256]⟩ : Shape).Reduces [0] ⟨1, ![256]⟩ := by decide
  have fx' := Cert.ChainFin4.fin_x Vp fx
  have fagg := Cert.ChainFin4.fin_agg Vp fx
  have fw1 := Cert.ChainFin4.fin_w1 Vp f6
  have fb1 := Cert.ChainFin4.fin_b1 Vp f7
  have fg := Cert.ChainFin4.fin_gamma Vp f8
  have fb := Cert.ChainFin4.fin_beta Vp f9
  have fw2 := Cert.ChainFin4.fin_w2 Vp f10
  have fb2 := Cert.ChainFin4.fin_b2 Vp f11
  have eH : Cert.ReferenceIdeal.RLayer4.H4 (StableHlo.after Cert.ReferenceIdeal.RLayer4.chain4 Vp)
      = lin1 ((StableHlo.after Cert.ReferenceIdeal.RLayer4.chain4 Vp) (Proc.devRef .tc Cert.ReferenceIdeal.main_v105)) ((StableHlo.after Cert.ReferenceIdeal.RLayer4.chain4 Vp) (Proc.devRef .tc Cert.ReferenceIdeal.main_v177))
          ((StableHlo.after Cert.ReferenceIdeal.RLayer4.chain4 Vp) (Proc.devRef .tc Cert.ReferenceIdeal.main_v157)) (rowOf ((StableHlo.after Cert.ReferenceIdeal.RLayer4.chain4 Vp) (Proc.devRef .tc Cert.ReferenceIdeal.main_v159))) :=
    refLin_eq_lin1 _ _ _ _ _ _ _
  have fH : FinArr (S := ⟨2, ![90000, 256]⟩) (Cert.ReferenceIdeal.RLayer4.H4 (StableHlo.after Cert.ReferenceIdeal.RLayer4.chain4 Vp)) := by
    rw [eH]
    exact lin1_fin _ _ _ _ fx' fagg fw1 (fun i => fb1 _)
  have eR : StableHlo.after Cert.ReferenceIdeal.RLayer4.core4 (StableHlo.after Cert.ReferenceIdeal.RLayer4.chain4 Vp) (Proc.devRef .tc Cert.ReferenceIdeal.main_v205)
      = norm2 false (Cert.ReferenceIdeal.RLayer4.H4 (StableHlo.after Cert.ReferenceIdeal.RLayer4.chain4 Vp)) (meanK (colSum (Cert.ReferenceIdeal.RLayer4.H4 (StableHlo.after Cert.ReferenceIdeal.RLayer4.chain4 Vp))))
          (varK (colSum (Cert.ReferenceIdeal.RLayer4.H4 (StableHlo.after Cert.ReferenceIdeal.RLayer4.chain4 Vp))) (colSumSq (Cert.ReferenceIdeal.RLayer4.H4 (StableHlo.after Cert.ReferenceIdeal.RLayer4.chain4 Vp))))
          (rowOf ((StableHlo.after Cert.ReferenceIdeal.RLayer4.chain4 Vp) (Proc.devRef .tc Cert.ReferenceIdeal.main_v161))) (rowOf ((StableHlo.after Cert.ReferenceIdeal.RLayer4.chain4 Vp) (Proc.devRef .tc Cert.ReferenceIdeal.main_v163)))
          ((StableHlo.after Cert.ReferenceIdeal.RLayer4.chain4 Vp) (Proc.devRef .tc Cert.ReferenceIdeal.main_v165)) (rowOf ((StableHlo.after Cert.ReferenceIdeal.RLayer4.chain4 Vp) (Proc.devRef .tc Cert.ReferenceIdeal.main_v167))) := by
    rw [Cert.ReferenceIdeal.RLayer4.layer4]
    exact refOutLin_eq _ _ _ _ _ _ _ _ _ _ _ _ _ _ hr fH
  have fout : FinArr (norm2 false (Cert.ReferenceIdeal.RLayer4.H4 (StableHlo.after Cert.ReferenceIdeal.RLayer4.chain4 Vp)) (meanK (colSum (Cert.ReferenceIdeal.RLayer4.H4 (StableHlo.after Cert.ReferenceIdeal.RLayer4.chain4 Vp))))
          (varK (colSum (Cert.ReferenceIdeal.RLayer4.H4 (StableHlo.after Cert.ReferenceIdeal.RLayer4.chain4 Vp))) (colSumSq (Cert.ReferenceIdeal.RLayer4.H4 (StableHlo.after Cert.ReferenceIdeal.RLayer4.chain4 Vp))))
          (rowOf ((StableHlo.after Cert.ReferenceIdeal.RLayer4.chain4 Vp) (Proc.devRef .tc Cert.ReferenceIdeal.main_v161))) (rowOf ((StableHlo.after Cert.ReferenceIdeal.RLayer4.chain4 Vp) (Proc.devRef .tc Cert.ReferenceIdeal.main_v163)))
          ((StableHlo.after Cert.ReferenceIdeal.RLayer4.chain4 Vp) (Proc.devRef .tc Cert.ReferenceIdeal.main_v165)) (rowOf ((StableHlo.after Cert.ReferenceIdeal.RLayer4.chain4 Vp) (Proc.devRef .tc Cert.ReferenceIdeal.main_v167)))) :=
    layer_fin _ _ _ _ _ false fH fg fb fw2 fb2
  have eK : norm2 false (Cert.ReferenceIdeal.RLayer4.H4 (StableHlo.after Cert.ReferenceIdeal.RLayer4.chain4 Vp)) (meanK (colSum (Cert.ReferenceIdeal.RLayer4.H4 (StableHlo.after Cert.ReferenceIdeal.RLayer4.chain4 Vp))))
          (varK (colSum (Cert.ReferenceIdeal.RLayer4.H4 (StableHlo.after Cert.ReferenceIdeal.RLayer4.chain4 Vp))) (colSumSq (Cert.ReferenceIdeal.RLayer4.H4 (StableHlo.after Cert.ReferenceIdeal.RLayer4.chain4 Vp))))
          (rowOf ((StableHlo.after Cert.ReferenceIdeal.RLayer4.chain4 Vp) (Proc.devRef .tc Cert.ReferenceIdeal.main_v161))) (rowOf ((StableHlo.after Cert.ReferenceIdeal.RLayer4.chain4 Vp) (Proc.devRef .tc Cert.ReferenceIdeal.main_v163)))
          ((StableHlo.after Cert.ReferenceIdeal.RLayer4.chain4 Vp) (Proc.devRef .tc Cert.ReferenceIdeal.main_v165)) (rowOf ((StableHlo.after Cert.ReferenceIdeal.RLayer4.chain4 Vp) (Proc.devRef .tc Cert.ReferenceIdeal.main_v167)))
      = Cert.KernelIdeal.Gen.W16 m ρ c (Proc.devRef .tc Cert.KernelIdeal.main_v139) := by
    rw [Cert.KernelIdeal.KLayer4.layer4, eH, Cert.Chain4.x_eq m ρ c Vp hx, Cert.Chain4.agg_eq m ρ c Vp hx hv1 hv3, Cert.Chain4.w1_eq m ρ c Vp h6,
      Cert.Chain4.b1_eq m ρ c Vp h7, Cert.Chain4.gamma_eq m ρ c Vp h8, Cert.Chain4.beta_eq m ρ c Vp h9,
      Cert.Chain4.w2_eq m ρ c Vp h10, Cert.Chain4.b2_eq m ρ c Vp h11]
  exact ⟨eR.trans eK, eK ▸ fout⟩

end Cert.Layer4Sim

end
-- ==== Proof.RefTail.lean ====
import proofs.«117235_j17583596110491_1_alg».proof.Proof.RefRunFold
import proofs.«117235_j17583596110491_1_alg».proof.Proof.RefRun3
import proofs.«117235_j17583596110491_1_alg».proof.Proof.RefRun4
import proofs.«117235_j17583596110491_1_alg».proof.Proof.RefRun5

/-! # The reference's last stretch

After the fourth layer's last operation — the sum that gives the log-deviations, `main_v205` — the reference runs 81
more operations: the sample `noise · exp(logstd) + mean`, the per-graph pooled means and the count head with its loss,
the bridge features and their sigmoid, the divergence term. `tailR` lists them: the last six operations of window 3,
then windows 4 and 5 whole. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The last six operations of window 3: the sample, and the pooling's first constants. -/
abbrev tail3 : List (HloOp τ sig (Elt F)) :=
  [ StableHlo.unary main_v205 main_v206 (Host.exp : (⟨S90000x128, .f32⟩ : BufTy).Contents (Elt F) → (⟨S90000x128, .f32⟩ : BufTy).Contents (Elt F)),
    StableHlo.binary main_arg5 main_v206 main_v207 (mulf : (⟨S90000x128, .f32⟩ : BufTy).Contents (Elt F) → (⟨S90000x128, .f32⟩ : BufTy).Contents (Elt F) → (⟨S90000x128, .f32⟩ : BufTy).Contents (Elt F)),
    StableHlo.binary main_v207 main_v155 main_v208 (addf : (⟨S90000x128, .f32⟩ : BufTy).Contents (Elt F) → (⟨S90000x128, .f32⟩ : BufTy).Contents (Elt F) → (⟨S90000x128, .f32⟩ : BufTy).Contents (Elt F)),
    StableHlo.nullary main_cst_26 (constant S_ .f32 0x3F800000#32),
    StableHlo.unary main_cst_26 main_v209 (broadcastInDim S90000 ![] bcast_S_S90000 : (⟨S_, .f32⟩ : BufTy).Contents (Elt F) → (⟨S90000, .f32⟩ : BufTy).Contents (Elt F)),
    StableHlo.nullary main_cst_27 (constant S_ .f32 0x00000000#32) ]

/-- Window 3 is its first 75 operations, then those six. -/
theorem ops3_split : (ops3 : List (HloOp τ sig (Elt F))) = ops3.take 75 ++ tail3 := rfl

/-- The 81 operations after the fourth layer, in order. -/
abbrev tailR : List (HloOp τ sig (Elt F)) := tail3 ++ (ops4 ++ ops5)

/-- Their fold: window 5's over window 4's over the six's. -/
theorem after_tailR (V : Valuation τ sig (Elt F)) : after tailR V = after ops5 (after ops4 (after tail3 V)) := by
  show after (tail3 ++ (ops4 ++ ops5)) V = _
  rw [after_append, after_append]

end Cert.ReferenceIdeal.RefRun

end
-- ==== Proof.TailSim.lean ====
import proofs.«117235_j17583596110491_1_alg».proof.Proof.Gen.KernelIdeal.Launch
import proofs.«117235_j17583596110491_1_alg».proof.Proof.RefTail

/-! # The last stretch, simulated

After the fourth layer both programs run the same 81 host operations — the sample `noise · exp(logstd) + mean`, the
per-graph pooled means, the count head and its loss, the bridge features and their sigmoid, the divergence term —,
the kernel program as the operations after its last region (`KernelIdeal.Gen.hostOps8`), the reference as the end of
its line (`ReferenceIdeal.RefRun.tailR`). Line for line the two lists are one text over two sets of buffers. So from
two memories that agree where the stretch reads — the mean, the log-deviations, and the arguments 2, 3, 4, 5, 12, 13,
14, 15 — the two folds agree at the four results. Each fold at a result is the composed term of the operations over
what the stretch reads; the two terms are one term once the agreements are rewritten (each program's own records of
side conditions are equal by unfolding, and the gathers, scatters, reductions and products are never opened). -/

noncomputable section

namespace Cert.TailSim

open Cert Idealize.ShloMosaic Idealize.ShloMosaic.TcCoe Idealize.SL.Sem Idealize.ShloMosaic.StableHlo

variable {F : FTy → Type} [FloatOps F]

/-- The reference's memory `Vr` and the kernel program's `Wk` agree where the last stretch reads. -/
structure Agree (Wk : Valuation KernelIdeal.τ KernelIdeal.sig (Elt F)) (Vr : Valuation ReferenceIdeal.τ ReferenceIdeal.sig (Elt F)) : Prop where
  /-- the third layer's output, the mean -/
  mean : Vr (ReferenceIdeal.main_v155 : DevRef ReferenceIdeal.τ ReferenceIdeal.sig) = Wk (KernelIdeal.main_v105 : DevRef KernelIdeal.τ KernelIdeal.sig)
  /-- the fourth layer's output, the log-deviations -/
  logstd : Vr (ReferenceIdeal.main_v205 : DevRef ReferenceIdeal.τ ReferenceIdeal.sig) = Wk (KernelIdeal.main_v139 : DevRef KernelIdeal.τ KernelIdeal.sig)
  arg2 : Vr (ReferenceIdeal.main_arg2 : DevRef ReferenceIdeal.τ ReferenceIdeal.sig) = Wk (KernelIdeal.main_arg2 : DevRef KernelIdeal.τ KernelIdeal.sig)
  arg3 : Vr (ReferenceIdeal.main_arg3 : DevRef ReferenceIdeal.τ ReferenceIdeal.sig) = Wk (KernelIdeal.main_arg3 : DevRef KernelIdeal.τ KernelIdeal.sig)
  arg4 : Vr (ReferenceIdeal.main_arg4 : DevRef ReferenceIdeal.τ ReferenceIdeal.sig) = Wk (KernelIdeal.main_arg4 : DevRef KernelIdeal.τ KernelIdeal.sig)
  arg5 : Vr (ReferenceIdeal.main_arg5 : DevRef ReferenceIdeal.τ ReferenceIdeal.sig) = Wk (KernelIdeal.main_arg5 : DevRef KernelIdeal.τ KernelIdeal.sig)
  arg12 : Vr (ReferenceIdeal.main_arg12 : DevRef ReferenceIdeal.τ ReferenceIdeal.sig) = Wk (KernelIdeal.main_arg12 : DevRef KernelIdeal.τ KernelIdeal.sig)
  arg13 : Vr (ReferenceIdeal.main_arg13 : DevRef ReferenceIdeal.τ ReferenceIdeal.sig) = Wk (KernelIdeal.main_arg13 : DevRef KernelIdeal.τ KernelIdeal.sig)
  arg14 : Vr (ReferenceIdeal.main_arg14 : DevRef ReferenceIdeal.τ ReferenceIdeal.sig) = Wk (KernelIdeal.main_arg14 : DevRef KernelIdeal.τ KernelIdeal.sig)
  arg15 : Vr (ReferenceIdeal.main_arg15 : DevRef ReferenceIdeal.τ ReferenceIdeal.sig) = Wk (KernelIdeal.main_arg15 : DevRef KernelIdeal.τ KernelIdeal.sig)

variable {Wk : Valuation KernelIdeal.τ KernelIdeal.sig (Elt F)} {Vr : Valuation ReferenceIdeal.τ ReferenceIdeal.sig (Elt F)}

/-- Two vectors joined along an axis: the join of equal vectors is the same join (the side condition reads the shapes
    only, so it stands when the vectors are replaced). -/
theorem concatenate_pair_congr {α : Type} {t : Shape} {d : Fin t.rank} {S1 S2 : Shape} {a a' : S1.Idx → α} {b b' : S2.Idx → α}
    {h : Shape.Concatenates (([⟨S1, a⟩, ⟨S2, b⟩] : List ((s : Shape) × (s.Idx → α))).map (·.1)) t d} (ha : a = a') (hb : b = b') :
    concatenate t d [⟨S1, a⟩, ⟨S2, b⟩] h = concatenate t d [⟨S1, a'⟩, ⟨S2, b'⟩] h := by
  subst ha hb; rfl

attribute [local congr] concatenate_pair_congr
attribute [local irreducible] Host.gather Host.scatterAdd Host.reduceAdd

set_option maxRecDepth 65536 in
set_option maxHeartbeats 4000000 in
theorem sim_v256 (h : Agree Wk Vr) :
    after ReferenceIdeal.RefRun.tailR Vr (ReferenceIdeal.main_v256 : DevRef ReferenceIdeal.τ ReferenceIdeal.sig) = after KernelIdeal.Gen.hostOps8 Wk (KernelIdeal.main_v190 : DevRef KernelIdeal.τ KernelIdeal.sig) := by
  rw [ReferenceIdeal.RefRun.after_tailR]
  after_results_simp
  simp only [h.mean, h.logstd, h.arg2, h.arg3, h.arg4, h.arg5, h.arg12, h.arg13, h.arg14, h.arg15] <;> rfl

set_option maxRecDepth 65536 in
set_option maxHeartbeats 4000000 in
theorem sim_v269 (h : Agree Wk Vr) :
    after ReferenceIdeal.RefRun.tailR Vr (ReferenceIdeal.main_v269 : DevRef ReferenceIdeal.τ ReferenceIdeal.sig) = after KernelIdeal.Gen.hostOps8 Wk (KernelIdeal.main_v203 : DevRef KernelIdeal.τ KernelIdeal.sig) := by
  rw [ReferenceIdeal.RefRun.after_tailR]
  after_results_simp
  simp only [h.mean, h.logstd, h.arg2, h.arg3, h.arg4, h.arg5, h.arg12, h.arg13, h.arg14, h.arg15] <;> rfl

set_option maxRecDepth 65536 in
set_option maxHeartbeats 4000000 in
theorem sim_v227 (h : Agree Wk Vr) :
    after ReferenceIdeal.RefRun.tailR Vr (ReferenceIdeal.main_v227 : DevRef ReferenceIdeal.τ ReferenceIdeal.sig) = after KernelIdeal.Gen.hostOps8 Wk (KernelIdeal.main_v161 : DevRef KernelIdeal.τ KernelIdeal.sig) := by
  rw [ReferenceIdeal.RefRun.after_tailR]
  after_results_simp
  simp only [h.mean, h.logstd, h.arg2, h.arg3, h.arg4, h.arg5, h.arg12, h.arg13, h.arg14, h.arg15] <;> rfl

set_option maxRecDepth 65536 in
set_option maxHeartbeats 4000000 in
theorem sim_v222 (h : Agree Wk Vr) :
    after ReferenceIdeal.RefRun.tailR Vr (ReferenceIdeal.main_v222 : DevRef ReferenceIdeal.τ ReferenceIdeal.sig) = after KernelIdeal.Gen.hostOps8 Wk (KernelIdeal.main_v156 : DevRef KernelIdeal.τ KernelIdeal.sig) := by
  rw [ReferenceIdeal.RefRun.after_tailR]
  after_results_simp
  simp only [h.mean, h.logstd, h.arg2, h.arg3, h.arg4, h.arg5, h.arg12, h.arg13, h.arg14, h.arg15] <;> rfl

end Cert.TailSim

end
-- ==== Proof.RefSplit.lean ====
import proofs.«117235_j17583596110491_1_alg».proof.Proof.RefRun
import proofs.«117235_j17583596110491_1_alg».proof.Proof.RefTail

/-! # The reference's line, cut after the fourth layer

@main's operations are the layers' (`layersR`: windows 0, 1, 2 and the first 75 operations of window 3, the last of them
the sum that gives the log-deviations) followed by the last stretch (`tailR`). So the fold of the whole line is the last
stretch's fold over the layers' fold, and the layers, like the whole line, write no argument. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to the fourth layer's last, in order. -/
abbrev layersR : List (HloOp τ sig (Elt F)) := ops0 ++ (ops1 ++ (ops2 ++ ops3.take 75))

/-- @main's operations are the layers' and then the last stretch's. -/
theorem ops_split : (ops : List (HloOp τ sig (Elt F))) = layersR ++ tailR := by
  show ops0 ++ (ops1 ++ (ops2 ++ (ops3 ++ (ops4 ++ ops5))))
    = (ops0 ++ (ops1 ++ (ops2 ++ ops3.take 75))) ++ (tail3 ++ (ops4 ++ ops5))
  rw [List.append_assoc ops0, List.append_assoc ops1, List.append_assoc ops2,
    ← List.append_assoc (ops3.take 75) tail3, ← ops3_split]

/-- The whole line's fold is the last stretch's over the layers'. -/
theorem after_ops_split (V : Valuation τ sig (Elt F)) : after ops V = after tailR (after layersR V) := by
  rw [ops_split, after_append]

/-- The references the layers' operations write are among windows 0–3's. -/
theorem layersR_writes : (layersR : List (HloOp τ sig (Elt F))).Forall fun op =>
    op.writes ⊆ (((W0 ++ (W1 ++ (W2 ++ W3))).map (Proc.devRef (τ := τ) .tc)).toFinset : Finset (DevRef τ sig)) :=
  writes_sub_append ops0_writes (writes_sub_append ops1_writes (writes_sub_append ops2_writes
    (List.forall_iff_forall_mem.2 fun op hop => List.forall_iff_forall_mem.1 ops3_writes op (List.mem_of_mem_take hop))))

/-! ## The layers keep the arguments -/

theorem layers_arg0_kept (V : Valuation τ sig (Elt F)) :
    after layersR V (main_arg0 : DevRef τ sig) = V (main_arg0 : DevRef τ sig) :=
  after_of_writes_sub layersR V layersR_writes (by decide)

theorem layers_arg1_kept (V : Valuation τ sig (Elt F)) :
    after layersR V (main_arg1 : DevRef τ sig) = V (main_arg1 : DevRef τ sig) :=
  after_of_writes_sub layersR V layersR_writes (by decide)

theorem layers_arg2_kept (V : Valuation τ sig (Elt F)) :
    after layersR V (main_arg2 : DevRef τ sig) = V (main_arg2 : DevRef τ sig) :=
  after_of_writes_sub layersR V layersR_writes (by decide)

theorem layers_arg3_kept (V : Valuation τ sig (Elt F)) :
    after layersR V (main_arg3 : DevRef τ sig) = V (main_arg3 : DevRef τ sig) :=
  after_of_writes_sub layersR V layersR_writes (by decide)

theorem layers_arg4_kept (V : Valuation τ sig (Elt F)) :
    after layersR V (main_arg4 : DevRef τ sig) = V (main_arg4 : DevRef τ sig) :=
  after_of_writes_sub layersR V layersR_writes (by decide)

theorem layers_arg5_kept (V : Valuation τ sig (Elt F)) :
    after layersR V (main_arg5 : DevRef τ sig) = V (main_arg5 : DevRef τ sig) :=
  after_of_writes_sub layersR V layersR_writes (by decide)

theorem layers_arg6_kept (V : Valuation τ sig (Elt F)) :
    after layersR V (main_arg6 : DevRef τ sig) = V (main_arg6 : DevRef τ sig) :=
  after_of_writes_sub layersR V layersR_writes (by decide)

theorem layers_arg7_kept (V : Valuation τ sig (Elt F)) :
    after layersR V (main_arg7 : DevRef τ sig) = V (main_arg7 : DevRef τ sig) :=
  after_of_writes_sub layersR V layersR_writes (by decide)

theorem layers_arg8_kept (V : Valuation τ sig (Elt F)) :
    after layersR V (main_arg8 : DevRef τ sig) = V (main_arg8 : DevRef τ sig) :=
  after_of_writes_sub layersR V layersR_writes (by decide)

theorem layers_arg9_kept (V : Valuation τ sig (Elt F)) :
    after layersR V (main_arg9 : DevRef τ sig) = V (main_arg9 : DevRef τ sig) :=
  after_of_writes_sub layersR V layersR_writes (by decide)

theorem layers_arg10_kept (V : Valuation τ sig (Elt F)) :
    after layersR V (main_arg10 : DevRef τ sig) = V (main_arg10 : DevRef τ sig) :=
  after_of_writes_sub layersR V layersR_writes (by decide)

theorem layers_arg11_kept (V : Valuation τ sig (Elt F)) :
    after layersR V (main_arg11 : DevRef τ sig) = V (main_arg11 : DevRef τ sig) :=
  after_of_writes_sub layersR V layersR_writes (by decide)

theorem layers_arg12_kept (V : Valuation τ sig (Elt F)) :
    after layersR V (main_arg12 : DevRef τ sig) = V (main_arg12 : DevRef τ sig) :=
  after_of_writes_sub layersR V layersR_writes (by decide)

theorem layers_arg13_kept (V : Valuation τ sig (Elt F)) :
    after layersR V (main_arg13 : DevRef τ sig) = V (main_arg13 : DevRef τ sig) :=
  after_of_writes_sub layersR V layersR_writes (by decide)

theorem layers_arg14_kept (V : Valuation τ sig (Elt F)) :
    after layersR V (main_arg14 : DevRef τ sig) = V (main_arg14 : DevRef τ sig) :=
  after_of_writes_sub layersR V layersR_writes (by decide)

theorem layers_arg15_kept (V : Valuation τ sig (Elt F)) :
    after layersR V (main_arg15 : DevRef τ sig) = V (main_arg15 : DevRef τ sig) :=
  after_of_writes_sub layersR V layersR_writes (by decide)

end Cert.ReferenceIdeal.RefRun

end
-- ==== Proof.RefBoundaries.lean ====
import proofs.«117235_j17583596110491_1_alg».proof.Proof.RefSplit
import proofs.«117235_j17583596110491_1_alg».proof.Proof.RefLayer1
import proofs.«117235_j17583596110491_1_alg».proof.Proof.RefLayer2
import proofs.«117235_j17583596110491_1_alg».proof.Proof.RefLayer3
import proofs.«117235_j17583596110491_1_alg».proof.Proof.RefLayer4

/-! # The reference's contents at the layer boundaries

The reference's line is cut at the ends of its four layers: `V1 V` after the first layer's last operation (the first
two operations of window 1), `V2 V` after the second layer (the end of window 1), `V3 V` after the third layer's own
operations, `V4 V` after the fourth layer's. Each is a fold of consecutive stretches, so the folds compose: `V2` is
windows 0 and 1 run whole, and `V4` is the fold of everything before the last stretch, whence the whole line's fold
is the last stretch's over `V4`. A buffer that the stretches between two boundaries do not write holds at the later
boundary what it held at the earlier one: the arguments throughout, each layer's output until it is read. -/

noncomputable section

namespace Cert.ReferenceIdeal.RBound

open Cert.ReferenceIdeal Cert.ReferenceIdeal.Gen Cert.ReferenceIdeal.RefRun
open Idealize.ShloMosaic Idealize.ShloMosaic.TcCoe Idealize.SL.Sem Idealize.ShloMosaic.StableHlo

/-- After the first layer: window 0, then the first two operations of window 1. -/
abbrev V1 (V : Valuation τ sig (Elt Ideal)) : Valuation τ sig (Elt Ideal) := after RLayer2.pre2 (after (ops0 (F := Ideal)) V)
/-- After the second layer: the rest of window 1. -/
abbrev V2 (V : Valuation τ sig (Elt Ideal)) : Valuation τ sig (Elt Ideal) := after RLayer2.core2 (after RLayer2.chain2 (V1 V))
/-- After the third layer's own operations. -/
abbrev V3 (V : Valuation τ sig (Elt Ideal)) : Valuation τ sig (Elt Ideal) := after RLayer3.core3 (after RLayer3.chain3 (V2 V))
/-- After the fourth layer's own operations. -/
abbrev V4 (V : Valuation τ sig (Elt Ideal)) : Valuation τ sig (Elt Ideal) := after RLayer4.core4 (after RLayer4.chain4 (V3 V))

/-! ## What each stretch writes: a part of a window writes among the window's references -/

theorem forall_take {α : Type} {p : α → Prop} {l : List α} (n : Nat) (h : l.Forall p) : (l.take n).Forall p :=
  List.forall_iff_forall_mem.2 fun x hx => List.forall_iff_forall_mem.1 h x (List.mem_of_mem_take hx)

theorem forall_drop {α : Type} {p : α → Prop} {l : List α} (n : Nat) (h : l.Forall p) : (l.drop n).Forall p :=
  List.forall_iff_forall_mem.2 fun x hx => List.forall_iff_forall_mem.1 h x (List.mem_of_mem_drop hx)

theorem pre2_writes : RLayer2.pre2.Forall fun op => op.writes ⊆ (((W1).map (Proc.devRef (τ := τ) .tc)).toFinset : Finset (DevRef τ sig)) := forall_take 2 (ops1_writes (F := Ideal))
theorem chain2_writes : RLayer2.chain2.Forall fun op => op.writes ⊆ (((W1).map (Proc.devRef (τ := τ) .tc)).toFinset : Finset (DevRef τ sig)) :=
  forall_take 25 (forall_drop 2 (ops1_writes (F := Ideal)))
theorem core2_writes : RLayer2.core2.Forall fun op => op.writes ⊆ (((W1).map (Proc.devRef (τ := τ) .tc)).toFinset : Finset (DevRef τ sig)) := forall_drop 27 (ops1_writes (F := Ideal))
theorem chain3_writes : RLayer3.chain3.Forall fun op => op.writes ⊆ (((W2).map (Proc.devRef (τ := τ) .tc)).toFinset : Finset (DevRef τ sig)) := forall_take 25 (ops2_writes (F := Ideal))
theorem core3_writes : RLayer3.core3.Forall fun op => op.writes ⊆ (((W2).map (Proc.devRef (τ := τ) .tc)).toFinset : Finset (DevRef τ sig)) :=
  forall_take 53 (forall_drop 25 (ops2_writes (F := Ideal)))
theorem chain4_writes : RLayer4.chain4.Forall fun op => op.writes ⊆ (((RLayer3.Wpost3 ++ W3).map (Proc.devRef (τ := τ) .tc)).toFinset : Finset (DevRef τ sig)) :=
  writes_sub_append RLayer3.post3_writes (forall_take 22 (ops3_writes (F := Ideal)))
theorem core4_writes : RLayer4.core4.Forall fun op => op.writes ⊆ (((W3).map (Proc.devRef (τ := τ) .tc)).toFinset : Finset (DevRef τ sig)) :=
  forall_take 53 (forall_drop 22 (ops3_writes (F := Ideal)))

/-! ## A reference the stretches do not write is kept -/

theorem V1_kept (V : Valuation τ sig (Elt Ideal)) {r : Ref sig .tc} (h0 : r ∉ W0) (h1 : r ∉ W1) :
    V1 V (Proc.devRef .tc r) = V (Proc.devRef .tc r) := by
  show after RLayer2.pre2 (after (ops0 (F := Ideal)) V) _ = _
  rw [after_of_writes_sub RLayer2.pre2 _ pre2_writes h1, after_of_writes_sub ops0 _ ops0_writes h0]

theorem V2_of_V1 (V : Valuation τ sig (Elt Ideal)) {r : Ref sig .tc} (h1 : r ∉ W1) : V2 V (Proc.devRef .tc r) = V1 V (Proc.devRef .tc r) := by
  show after RLayer2.core2 (after RLayer2.chain2 (V1 V)) _ = _
  rw [after_of_writes_sub RLayer2.core2 _ core2_writes h1, after_of_writes_sub RLayer2.chain2 _ chain2_writes h1]

theorem V3_of_V2 (V : Valuation τ sig (Elt Ideal)) {r : Ref sig .tc} (h2 : r ∉ W2) : V3 V (Proc.devRef .tc r) = V2 V (Proc.devRef .tc r) := by
  show after RLayer3.core3 (after RLayer3.chain3 (V2 V)) _ = _
  rw [after_of_writes_sub RLayer3.core3 _ core3_writes h2, after_of_writes_sub RLayer3.chain3 _ chain3_writes h2]

theorem V4_of_V3 (V : Valuation τ sig (Elt Ideal)) {r : Ref sig .tc} (hp : r ∉ RLayer3.Wpost3 ++ W3) (h3 : r ∉ W3) :
    V4 V (Proc.devRef .tc r) = V3 V (Proc.devRef .tc r) := by
  show after RLayer4.core4 (after RLayer4.chain4 (V3 V)) _ = _
  rw [after_of_writes_sub RLayer4.core4 _ core4_writes h3, after_of_writes_sub RLayer4.chain4 _ chain4_writes hp]

/-! ## (B1) The first layer's output at the first boundary is the whole line's -/

set_option maxRecDepth 65536 in
theorem V1_v54 (V : Valuation τ sig (Elt Ideal)) : V1 V (main_v54 : DevRef τ sig) = after (ops (F := Ideal)) V (main_v54 : DevRef τ sig) := by
  rw [RLayer1.out_eq, ← RLayer1.after_ops0, RLayer2.after_ops1]
  show after RLayer2.pre2 (after (ops0 (F := Ideal)) V) _ = _
  generalize after RLayer2.pre2 (after (ops0 (F := Ideal)) V) = Y
  simp only [RLayer2.core2, RLayer2.chain2, ops1, List.drop_succ_cons, List.drop_zero, List.take_succ_cons, List.take_zero]
  after_results_simp

/-! ## (B2) The arguments at every boundary -/

theorem V1_arg1 (V : Valuation τ sig (Elt Ideal)) : V1 V (main_arg1 : DevRef τ sig) = V (main_arg1 : DevRef τ sig) :=
  V1_kept V (by decide) (by decide)
theorem V2_arg1 (V : Valuation τ sig (Elt Ideal)) : V2 V (main_arg1 : DevRef τ sig) = V (main_arg1 : DevRef τ sig) :=
  (V2_of_V1 V (by decide)).trans (V1_arg1 V)
theorem V3_arg1 (V : Valuation τ sig (Elt Ideal)) : V3 V (main_arg1 : DevRef τ sig) = V (main_arg1 : DevRef τ sig) :=
  (V3_of_V2 V (by decide)).trans (V2_arg1 V)
theorem V4_arg1 (V : Valuation τ sig (Elt Ideal)) : V4 V (main_arg1 : DevRef τ sig) = V (main_arg1 : DevRef τ sig) :=
  (V4_of_V3 V (by decide) (by decide)).trans (V3_arg1 V)
theorem V1_arg2 (V : Valuation τ sig (Elt Ideal)) : V1 V (main_arg2 : DevRef τ sig) = V (main_arg2 : DevRef τ sig) :=
  V1_kept V (by decide) (by decide)
theorem V2_arg2 (V : Valuation τ sig (Elt Ideal)) : V2 V (main_arg2 : DevRef τ sig) = V (main_arg2 : DevRef τ sig) :=
  (V2_of_V1 V (by decide)).trans (V1_arg2 V)
theorem V3_arg2 (V : Valuation τ sig (Elt Ideal)) : V3 V (main_arg2 : DevRef τ sig) = V (main_arg2 : DevRef τ sig) :=
  (V3_of_V2 V (by decide)).trans (V2_arg2 V)
theorem V4_arg2 (V : Valuation τ sig (Elt Ideal)) : V4 V (main_arg2 : DevRef τ sig) = V (main_arg2 : DevRef τ sig) :=
  (V4_of_V3 V (by decide) (by decide)).trans (V3_arg2 V)
theorem V1_arg3 (V : Valuation τ sig (Elt Ideal)) : V1 V (main_arg3 : DevRef τ sig) = V (main_arg3 : DevRef τ sig) :=
  V1_kept V (by decide) (by decide)
theorem V2_arg3 (V : Valuation τ sig (Elt Ideal)) : V2 V (main_arg3 : DevRef τ sig) = V (main_arg3 : DevRef τ sig) :=
  (V2_of_V1 V (by decide)).trans (V1_arg3 V)
theorem V3_arg3 (V : Valuation τ sig (Elt Ideal)) : V3 V (main_arg3 : DevRef τ sig) = V (main_arg3 : DevRef τ sig) :=
  (V3_of_V2 V (by decide)).trans (V2_arg3 V)
theorem V4_arg3 (V : Valuation τ sig (Elt Ideal)) : V4 V (main_arg3 : DevRef τ sig) = V (main_arg3 : DevRef τ sig) :=
  (V4_of_V3 V (by decide) (by decide)).trans (V3_arg3 V)
theorem V1_arg4 (V : Valuation τ sig (Elt Ideal)) : V1 V (main_arg4 : DevRef τ sig) = V (main_arg4 : DevRef τ sig) :=
  V1_kept V (by decide) (by decide)
theorem V2_arg4 (V : Valuation τ sig (Elt Ideal)) : V2 V (main_arg4 : DevRef τ sig) = V (main_arg4 : DevRef τ sig) :=
  (V2_of_V1 V (by decide)).trans (V1_arg4 V)
theorem V3_arg4 (V : Valuation τ sig (Elt Ideal)) : V3 V (main_arg4 : DevRef τ sig) = V (main_arg4 : DevRef τ sig) :=
  (V3_of_V2 V (by decide)).trans (V2_arg4 V)
theorem V4_arg4 (V : Valuation τ sig (Elt Ideal)) : V4 V (main_arg4 : DevRef τ sig) = V (main_arg4 : DevRef τ sig) :=
  (V4_of_V3 V (by decide) (by decide)).trans (V3_arg4 V)
theorem V1_arg5 (V : Valuation τ sig (Elt Ideal)) : V1 V (main_arg5 : DevRef τ sig) = V (main_arg5 : DevRef τ sig) :=
  V1_kept V (by decide) (by decide)
theorem V2_arg5 (V : Valuation τ sig (Elt Ideal)) : V2 V (main_arg5 : DevRef τ sig) = V (main_arg5 : DevRef τ sig) :=
  (V2_of_V1 V (by decide)).trans (V1_arg5 V)
theorem V3_arg5 (V : Valuation τ sig (Elt Ideal)) : V3 V (main_arg5 : DevRef τ sig) = V (main_arg5 : DevRef τ sig) :=
  (V3_of_V2 V (by decide)).trans (V2_arg5 V)
theorem V4_arg5 (V : Valuation τ sig (Elt Ideal)) : V4 V (main_arg5 : DevRef τ sig) = V (main_arg5 : DevRef τ sig) :=
  (V4_of_V3 V (by decide) (by decide)).trans (V3_arg5 V)
theorem V1_arg6 (V : Valuation τ sig (Elt Ideal)) : V1 V (main_arg6 : DevRef τ sig) = V (main_arg6 : DevRef τ sig) :=
  V1_kept V (by decide) (by decide)
theorem V2_arg6 (V : Valuation τ sig (Elt Ideal)) : V2 V (main_arg6 : DevRef τ sig) = V (main_arg6 : DevRef τ sig) :=
  (V2_of_V1 V (by decide)).trans (V1_arg6 V)
theorem V3_arg6 (V : Valuation τ sig (Elt Ideal)) : V3 V (main_arg6 : DevRef τ sig) = V (main_arg6 : DevRef τ sig) :=
  (V3_of_V2 V (by decide)).trans (V2_arg6 V)
theorem V4_arg6 (V : Valuation τ sig (Elt Ideal)) : V4 V (main_arg6 : DevRef τ sig) = V (main_arg6 : DevRef τ sig) :=
  (V4_of_V3 V (by decide) (by decide)).trans (V3_arg6 V)
theorem V1_arg7 (V : Valuation τ sig (Elt Ideal)) : V1 V (main_arg7 : DevRef τ sig) = V (main_arg7 : DevRef τ sig) :=
  V1_kept V (by decide) (by decide)
theorem V2_arg7 (V : Valuation τ sig (Elt Ideal)) : V2 V (main_arg7 : DevRef τ sig) = V (main_arg7 : DevRef τ sig) :=
  (V2_of_V1 V (by decide)).trans (V1_arg7 V)
theorem V3_arg7 (V : Valuation τ sig (Elt Ideal)) : V3 V (main_arg7 : DevRef τ sig) = V (main_arg7 : DevRef τ sig) :=
  (V3_of_V2 V (by decide)).trans (V2_arg7 V)
theorem V4_arg7 (V : Valuation τ sig (Elt Ideal)) : V4 V (main_arg7 : DevRef τ sig) = V (main_arg7 : DevRef τ sig) :=
  (V4_of_V3 V (by decide) (by decide)).trans (V3_arg7 V)
theorem V1_arg8 (V : Valuation τ sig (Elt Ideal)) : V1 V (main_arg8 : DevRef τ sig) = V (main_arg8 : DevRef τ sig) :=
  V1_kept V (by decide) (by decide)
theorem V2_arg8 (V : Valuation τ sig (Elt Ideal)) : V2 V (main_arg8 : DevRef τ sig) = V (main_arg8 : DevRef τ sig) :=
  (V2_of_V1 V (by decide)).trans (V1_arg8 V)
theorem V3_arg8 (V : Valuation τ sig (Elt Ideal)) : V3 V (main_arg8 : DevRef τ sig) = V (main_arg8 : DevRef τ sig) :=
  (V3_of_V2 V (by decide)).trans (V2_arg8 V)
theorem V4_arg8 (V : Valuation τ sig (Elt Ideal)) : V4 V (main_arg8 : DevRef τ sig) = V (main_arg8 : DevRef τ sig) :=
  (V4_of_V3 V (by decide) (by decide)).trans (V3_arg8 V)
theorem V1_arg9 (V : Valuation τ sig (Elt Ideal)) : V1 V (main_arg9 : DevRef τ sig) = V (main_arg9 : DevRef τ sig) :=
  V1_kept V (by decide) (by decide)
theorem V2_arg9 (V : Valuation τ sig (Elt Ideal)) : V2 V (main_arg9 : DevRef τ sig) = V (main_arg9 : DevRef τ sig) :=
  (V2_of_V1 V (by decide)).trans (V1_arg9 V)
theorem V3_arg9 (V : Valuation τ sig (Elt Ideal)) : V3 V (main_arg9 : DevRef τ sig) = V (main_arg9 : DevRef τ sig) :=
  (V3_of_V2 V (by decide)).trans (V2_arg9 V)
theorem V4_arg9 (V : Valuation τ sig (Elt Ideal)) : V4 V (main_arg9 : DevRef τ sig) = V (main_arg9 : DevRef τ sig) :=
  (V4_of_V3 V (by decide) (by decide)).trans (V3_arg9 V)
theorem V1_arg10 (V : Valuation τ sig (Elt Ideal)) : V1 V (main_arg10 : DevRef τ sig) = V (main_arg10 : DevRef τ sig) :=
  V1_kept V (by decide) (by decide)
theorem V2_arg10 (V : Valuation τ sig (Elt Ideal)) : V2 V (main_arg10 : DevRef τ sig) = V (main_arg10 : DevRef τ sig) :=
  (V2_of_V1 V (by decide)).trans (V1_arg10 V)
theorem V3_arg10 (V : Valuation τ sig (Elt Ideal)) : V3 V (main_arg10 : DevRef τ sig) = V (main_arg10 : DevRef τ sig) :=
  (V3_of_V2 V (by decide)).trans (V2_arg10 V)
theorem V4_arg10 (V : Valuation τ sig (Elt Ideal)) : V4 V (main_arg10 : DevRef τ sig) = V (main_arg10 : DevRef τ sig) :=
  (V4_of_V3 V (by decide) (by decide)).trans (V3_arg10 V)
theorem V1_arg11 (V : Valuation τ sig (Elt Ideal)) : V1 V (main_arg11 : DevRef τ sig) = V (main_arg11 : DevRef τ sig) :=
  V1_kept V (by decide) (by decide)
theorem V2_arg11 (V : Valuation τ sig (Elt Ideal)) : V2 V (main_arg11 : DevRef τ sig) = V (main_arg11 : DevRef τ sig) :=
  (V2_of_V1 V (by decide)).trans (V1_arg11 V)
theorem V3_arg11 (V : Valuation τ sig (Elt Ideal)) : V3 V (main_arg11 : DevRef τ sig) = V (main_arg11 : DevRef τ sig) :=
  (V3_of_V2 V (by decide)).trans (V2_arg11 V)
theorem V4_arg11 (V : Valuation τ sig (Elt Ideal)) : V4 V (main_arg11 : DevRef τ sig) = V (main_arg11 : DevRef τ sig) :=
  (V4_of_V3 V (by decide) (by decide)).trans (V3_arg11 V)
theorem V1_arg12 (V : Valuation τ sig (Elt Ideal)) : V1 V (main_arg12 : DevRef τ sig) = V (main_arg12 : DevRef τ sig) :=
  V1_kept V (by decide) (by decide)
theorem V2_arg12 (V : Valuation τ sig (Elt Ideal)) : V2 V (main_arg12 : DevRef τ sig) = V (main_arg12 : DevRef τ sig) :=
  (V2_of_V1 V (by decide)).trans (V1_arg12 V)
theorem V3_arg12 (V : Valuation τ sig (Elt Ideal)) : V3 V (main_arg12 : DevRef τ sig) = V (main_arg12 : DevRef τ sig) :=
  (V3_of_V2 V (by decide)).trans (V2_arg12 V)
theorem V4_arg12 (V : Valuation τ sig (Elt Ideal)) : V4 V (main_arg12 : DevRef τ sig) = V (main_arg12 : DevRef τ sig) :=
  (V4_of_V3 V (by decide) (by decide)).trans (V3_arg12 V)
theorem V1_arg13 (V : Valuation τ sig (Elt Ideal)) : V1 V (main_arg13 : DevRef τ sig) = V (main_arg13 : DevRef τ sig) :=
  V1_kept V (by decide) (by decide)
theorem V2_arg13 (V : Valuation τ sig (Elt Ideal)) : V2 V (main_arg13 : DevRef τ sig) = V (main_arg13 : DevRef τ sig) :=
  (V2_of_V1 V (by decide)).trans (V1_arg13 V)
theorem V3_arg13 (V : Valuation τ sig (Elt Ideal)) : V3 V (main_arg13 : DevRef τ sig) = V (main_arg13 : DevRef τ sig) :=
  (V3_of_V2 V (by decide)).trans (V2_arg13 V)
theorem V4_arg13 (V : Valuation τ sig (Elt Ideal)) : V4 V (main_arg13 : DevRef τ sig) = V (main_arg13 : DevRef τ sig) :=
  (V4_of_V3 V (by decide) (by decide)).trans (V3_arg13 V)
theorem V1_arg14 (V : Valuation τ sig (Elt Ideal)) : V1 V (main_arg14 : DevRef τ sig) = V (main_arg14 : DevRef τ sig) :=
  V1_kept V (by decide) (by decide)
theorem V2_arg14 (V : Valuation τ sig (Elt Ideal)) : V2 V (main_arg14 : DevRef τ sig) = V (main_arg14 : DevRef τ sig) :=
  (V2_of_V1 V (by decide)).trans (V1_arg14 V)
theorem V3_arg14 (V : Valuation τ sig (Elt Ideal)) : V3 V (main_arg14 : DevRef τ sig) = V (main_arg14 : DevRef τ sig) :=
  (V3_of_V2 V (by decide)).trans (V2_arg14 V)
theorem V4_arg14 (V : Valuation τ sig (Elt Ideal)) : V4 V (main_arg14 : DevRef τ sig) = V (main_arg14 : DevRef τ sig) :=
  (V4_of_V3 V (by decide) (by decide)).trans (V3_arg14 V)
theorem V1_arg15 (V : Valuation τ sig (Elt Ideal)) : V1 V (main_arg15 : DevRef τ sig) = V (main_arg15 : DevRef τ sig) :=
  V1_kept V (by decide) (by decide)
theorem V2_arg15 (V : Valuation τ sig (Elt Ideal)) : V2 V (main_arg15 : DevRef τ sig) = V (main_arg15 : DevRef τ sig) :=
  (V2_of_V1 V (by decide)).trans (V1_arg15 V)
theorem V3_arg15 (V : Valuation τ sig (Elt Ideal)) : V3 V (main_arg15 : DevRef τ sig) = V (main_arg15 : DevRef τ sig) :=
  (V3_of_V2 V (by decide)).trans (V2_arg15 V)
theorem V4_arg15 (V : Valuation τ sig (Elt Ideal)) : V4 V (main_arg15 : DevRef τ sig) = V (main_arg15 : DevRef τ sig) :=
  (V4_of_V3 V (by decide) (by decide)).trans (V3_arg15 V)

/-! ## (B3) The second boundary is windows 0 and 1 run whole -/

theorem V2_eq (V : Valuation τ sig (Elt Ideal)) : V2 V = after (ops1 (F := Ideal)) (after (ops0 (F := Ideal)) V) :=
  (RLayer2.after_ops1 _).symm

/-! ## (B4) A layer's output is still there when the next layer has run -/

theorem V3_v105 (V : Valuation τ sig (Elt Ideal)) : V3 V (main_v105 : DevRef τ sig) = V2 V (main_v105 : DevRef τ sig) :=
  V3_of_V2 V (by decide)

theorem V4_v155 (V : Valuation τ sig (Elt Ideal)) : V4 V (main_v155 : DevRef τ sig) = V3 V (main_v155 : DevRef τ sig) :=
  V4_of_V3 V (by decide) (by decide)

/-! ## The edge-index vectors

The first 29 operations of window 0 write the two edge-index vectors (`main_v1`, `main_v3`); nothing later writes them,
so the first three boundaries hold them as those 29 operations left them. -/

set_option maxRecDepth 65536 in
theorem core1_v1 (Y : Valuation τ sig (Elt Ideal)) : after RLayer1.core1 Y (main_v1 : DevRef τ sig) = Y (main_v1 : DevRef τ sig) := by
  simp only [RLayer1.core1, ops0, List.drop_succ_cons, List.drop_zero]
  after_results_simp

theorem V1_v1 (V : Valuation τ sig (Elt Ideal)) : V1 V (main_v1 : DevRef τ sig) = after RLayer1.chain1 V (main_v1 : DevRef τ sig) := by
  show after RLayer2.pre2 (after (ops0 (F := Ideal)) V) _ = _
  rw [after_of_writes_sub RLayer2.pre2 _ pre2_writes (by decide), RLayer1.after_ops0, core1_v1]
theorem V2_v1 (V : Valuation τ sig (Elt Ideal)) : V2 V (main_v1 : DevRef τ sig) = after RLayer1.chain1 V (main_v1 : DevRef τ sig) :=
  (V2_of_V1 V (by decide)).trans (V1_v1 V)
theorem V3_v1 (V : Valuation τ sig (Elt Ideal)) : V3 V (main_v1 : DevRef τ sig) = after RLayer1.chain1 V (main_v1 : DevRef τ sig) :=
  (V3_of_V2 V (by decide)).trans (V2_v1 V)

set_option maxRecDepth 65536 in
theorem core1_v3 (Y : Valuation τ sig (Elt Ideal)) : after RLayer1.core1 Y (main_v3 : DevRef τ sig) = Y (main_v3 : DevRef τ sig) := by
  simp only [RLayer1.core1, ops0, List.drop_succ_cons, List.drop_zero]
  after_results_simp

theorem V1_v3 (V : Valuation τ sig (Elt Ideal)) : V1 V (main_v3 : DevRef τ sig) = after RLayer1.chain1 V (main_v3 : DevRef τ sig) := by
  show after RLayer2.pre2 (after (ops0 (F := Ideal)) V) _ = _
  rw [after_of_writes_sub RLayer2.pre2 _ pre2_writes (by decide), RLayer1.after_ops0, core1_v3]
theorem V2_v3 (V : Valuation τ sig (Elt Ideal)) : V2 V (main_v3 : DevRef τ sig) = after RLayer1.chain1 V (main_v3 : DevRef τ sig) :=
  (V2_of_V1 V (by decide)).trans (V1_v3 V)
theorem V3_v3 (V : Valuation τ sig (Elt Ideal)) : V3 V (main_v3 : DevRef τ sig) = after RLayer1.chain1 V (main_v3 : DevRef τ sig) :=
  (V3_of_V2 V (by decide)).trans (V2_v3 V)

/-! ## (B5) The fourth boundary is the fold of everything before the last stretch -/

/-- The first 75 operations of window 3 are its first 22, then the fourth layer's own 53. -/
theorem take75 : (ops3 (F := Ideal)).take 75 = (ops3 (F := Ideal)).take 22 ++ RLayer4.core4 :=
  List.take_add (l := ops3 (F := Ideal)) (i := 22) (j := 53)

theorem after_layersR (V : Valuation τ sig (Elt Ideal)) : after (layersR (F := Ideal)) V = V4 V := by
  show after (ops0 ++ (ops1 ++ (ops2 ++ (ops3 (F := Ideal)).take 75))) V
    = after RLayer4.core4 (after (RLayer3.post3 ++ (ops3 (F := Ideal)).take 22) (after RLayer3.core3 (after RLayer3.chain3 (V2 V))))
  rw [StableHlo.after_append, StableHlo.after_append, StableHlo.after_append, take75, StableHlo.after_append,
    StableHlo.after_append RLayer3.post3, ← RLayer3.after_ops2, V2_eq]

/-- The whole line's fold is the last stretch's over the fourth boundary. -/
theorem after_ops_V4 (V : Valuation τ sig (Elt Ideal)) : after (ops (F := Ideal)) V = after (tailR (F := Ideal)) (V4 V) := by
  rw [after_ops_split, after_layersR]

end Cert.ReferenceIdeal.RBound

end
-- ==== Proof.KernelArgs.lean ====
import proofs.«117235_j17583596110491_1_alg».proof.Proof.Gen.KernelIdeal.Frame

/-! # The arguments, and the layers' outputs, at the layer boundaries

The kernel program's buffer contents at each boundary of @main — `W0` at launch, `W(2j+1)` after the host operations
before region `j`, `W(2j+2)` at region `j`'s exit — are a fold through @main. No host operation writes an argument,
and a region leaves every buffer that is not one of its arrays as it was (and its input arrays too). So at the end of
each layer (after regions 1, 3, 5, 7: `W4`, `W8`, `W12`, `W16`) an argument's buffer holds the launch memory's
contents: the fold walks back one boundary at a time, through a host stretch because none of its operations writes
the buffer, through a region because the buffer is not one of its arrays. The same walk shows that the second layer's
output (`main_v71`) is still there at the ends of the third and fourth layers — it is an input array of regions 4 and
6, which a region leaves as entered —, and the third layer's output (`main_v105`) at the end of the fourth. -/

set_option maxRecDepth 16384

noncomputable section

namespace Cert.KernelIdeal.KArgs

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W8_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W4_arg1 m ρ c
theorem W12_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W8_arg1 m ρ c
theorem W16_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := StableHlo.after_of_forall_not_mem (b := Proc.devRef .tc main_arg1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg1) := W14_of_ne m ρ c main_arg1 (by decide)
    _ = W12 m ρ c (Proc.devRef .tc main_arg1) := StableHlo.after_of_forall_not_mem (b := Proc.devRef .tc main_arg1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W12_arg1 m ρ c

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W4_arg2 m ρ c
theorem W12_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W8_arg2 m ρ c
theorem W16_arg2 (c : Dev nD) : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W12_arg2 m ρ c

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W4_arg3 m ρ c
theorem W12_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W8_arg3 m ρ c
theorem W16_arg3 (c : Dev nD) : W16 m ρ c (Proc.devRef .tc main_arg3) = m ((c : Thread nD τ).loc main_arg3) :=
  calc W16 m ρ c (Proc.devRef .tc main_arg3)
    _ = W15 m ρ c (Proc.devRef .tc main_arg3) := W16_of_ne m ρ c main_arg3 (by decide)
    _ = W14 m ρ c (Proc.devRef .tc main_arg3) := StableHlo.after_of_forall_not_mem (b := Proc.devRef .tc main_arg3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg3) := W14_of_ne m ρ c main_arg3 (by decide)
    _ = W12 m ρ c (Proc.devRef .tc main_arg3) := StableHlo.after_of_forall_not_mem (b := Proc.devRef .tc main_arg3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W12_arg3 m ρ c

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W4_arg4 m ρ c
theorem W12_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W8_arg4 m ρ c
theorem W16_arg4 (c : Dev nD) : W16 m ρ c (Proc.devRef .tc main_arg4) = m ((c : Thread nD τ).loc main_arg4) :=
  calc W16 m ρ c (Proc.devRef .tc main_arg4)
    _ = W15 m ρ c (Proc.devRef .tc main_arg4) := W16_of_ne m ρ c main_arg4 (by decide)
    _ = W14 m ρ c (Proc.devRef .tc main_arg4) := StableHlo.after_of_forall_not_mem (b := Proc.devRef .tc main_arg4) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg4) := W14_of_ne m ρ c main_arg4 (by decide)
    _ = W12 m ρ c (Proc.devRef .tc main_arg4) := StableHlo.after_of_forall_not_mem (b := Proc.devRef .tc main_arg4) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W12_arg4 m ρ c

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W4_arg5 m ρ c
theorem W12_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W8_arg5 m ρ c
theorem W16_arg5 (c : Dev nD) : W16 m ρ c (Proc.devRef .tc main_arg5) = m ((c : Thread nD τ).loc main_arg5) :=
  calc W16 m ρ c (Proc.devRef .tc main_arg5)
    _ = W15 m ρ c (Proc.devRef .tc main_arg5) := W16_of_ne m ρ c main_arg5 (by decide)
    _ = W14 m ρ c (Proc.devRef .tc main_arg5) := StableHlo.after_of_forall_not_mem (b := Proc.devRef .tc main_arg5) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg5) := W14_of_ne m ρ c main_arg5 (by decide)
    _ = W12 m ρ c (Proc.devRef .tc main_arg5) := StableHlo.after_of_forall_not_mem (b := Proc.devRef .tc main_arg5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W12_arg5 m ρ c

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W4_arg6 m ρ c
theorem W12_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W8_arg6 m ρ c
theorem W16_arg6 (c : Dev nD) : W16 m ρ c (Proc.devRef .tc main_arg6) = m ((c : Thread nD τ).loc main_arg6) :=
  calc W16 m ρ c (Proc.devRef .tc main_arg6)
    _ = W15 m ρ c (Proc.devRef .tc main_arg6) := W16_of_ne m ρ c main_arg6 (by decide)
    _ = W14 m ρ c (Proc.devRef .tc main_arg6) := StableHlo.after_of_forall_not_mem (b := Proc.devRef .tc main_arg6) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg6) := W14_of_ne m ρ c main_arg6 (by decide)
    _ = W12 m ρ c (Proc.devRef .tc main_arg6) := StableHlo.after_of_forall_not_mem (b := Proc.devRef .tc main_arg6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W12_arg6 m ρ c

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W4_arg7 m ρ c
theorem W12_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W8_arg7 m ρ c
theorem W16_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := StableHlo.after_of_forall_not_mem (b := Proc.devRef .tc main_arg7) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W12_arg7 m ρ c

theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W4_arg8 m ρ c
theorem W12_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W8_arg8 m ρ c
theorem W16_arg8 (c : Dev nD) : W16 m ρ c (Proc.devRef .tc main_arg8) = m ((c : Thread nD τ).loc main_arg8) :=
  calc W16 m ρ c (Proc.devRef .tc main_arg8)
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W12_arg8 m ρ c

theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W8_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W4_arg9 m ρ c
theorem W12_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W8_arg9 m ρ c
theorem W16_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W12_arg9 m ρ c

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W8_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W4_arg10 m ρ c
theorem W12_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W8_arg10 m ρ c
theorem W16_arg10 (c : Dev nD) : W16 m ρ c (Proc.devRef .tc main_arg10) = m ((c : Thread nD τ).loc main_arg10) :=
  calc W16 m ρ c (Proc.devRef .tc main_arg10)
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W12_arg10 m ρ c

theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
theorem W8_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W4_arg11 m ρ c
theorem W12_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W8_arg11 m ρ c
theorem W16_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W12_arg11 m ρ c

theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
theorem W8_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W4_arg12 m ρ c
theorem W12_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W8_arg12 m ρ c
theorem W16_arg12 (c : Dev nD) : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W12_arg12 m ρ c

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
theorem W8_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W4_arg13 m ρ c
theorem W12_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W8_arg13 m ρ c
theorem W16_arg13 (c : Dev nD) : W16 m ρ c (Proc.devRef .tc main_arg13) = m ((c : Thread nD τ).loc main_arg13) :=
  calc W16 m ρ c (Proc.devRef .tc main_arg13)
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W12_arg13 m ρ c

theorem W4_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl
theorem W8_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W4_arg14 m ρ c
theorem W12_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W8_arg14 m ρ c
theorem W16_arg14 (c : Dev nD) : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W12_arg14 m ρ c

theorem W4_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl
theorem W8_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := W4_arg15 m ρ c
theorem W12_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := W8_arg15 m ρ c
theorem W16_arg15 (c : Dev nD) : W16 m ρ c (Proc.devRef .tc main_arg15) = m ((c : Thread nD τ).loc main_arg15) :=
  calc W16 m ρ c (Proc.devRef .tc main_arg15)
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := W12_arg15 m ρ c

/-! ## The layers' outputs that later layers read again -/

/-- The second layer's output is still there at the end of the third layer: region 4 reads it through an input
    window, region 5 does not name it, and no host operation between writes it. -/
theorem W12_v71 (c : Dev nD) : W12 m ρ c (Proc.devRef .tc main_v71) = W8 m ρ c (Proc.devRef .tc main_v71) :=
  calc W12 m ρ c (Proc.devRef .tc main_v71)
    _ = W11 m ρ c (Proc.devRef .tc main_v71) := W12_of_ne m ρ c main_v71 (by decide)
    _ = W10 m ρ c (Proc.devRef .tc main_v71) := StableHlo.after_of_forall_not_mem (b := Proc.devRef .tc main_v71) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v71) := (W10_arr m ρ c 0).trans (((dat4 (V9 m ρ) c).arrAt_in 0 rfl _).trans (A_eq4 (V9 m ρ) c 0))
    _ = W8 m ρ c (Proc.devRef .tc main_v71) := StableHlo.after_of_forall_not_mem (b := Proc.devRef .tc main_v71) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- And at the end of the fourth layer: region 6 reads it through an input window, region 7 does not name it. -/
theorem W16_v71 (c : Dev nD) : W16 m ρ c (Proc.devRef .tc main_v71) = W8 m ρ c (Proc.devRef .tc main_v71) :=
  calc W16 m ρ c (Proc.devRef .tc main_v71)
    _ = W15 m ρ c (Proc.devRef .tc main_v71) := W16_of_ne m ρ c main_v71 (by decide)
    _ = W14 m ρ c (Proc.devRef .tc main_v71) := StableHlo.after_of_forall_not_mem (b := Proc.devRef .tc main_v71) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v71) := (W14_arr m ρ c 0).trans (((dat6 (V13 m ρ) c).arrAt_in 0 rfl _).trans (A_eq6 (V13 m ρ) c 0))
    _ = W12 m ρ c (Proc.devRef .tc main_v71) := StableHlo.after_of_forall_not_mem (b := Proc.devRef .tc main_v71) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v71) := W12_v71 m ρ c

/-- The third layer's output is still there at the end of the fourth layer: regions 6 and 7 do not name it. -/
theorem W16_v105 (c : Dev nD) : W16 m ρ c (Proc.devRef .tc main_v105) = W12 m ρ c (Proc.devRef .tc main_v105) :=
  calc W16 m ρ c (Proc.devRef .tc main_v105)
    _ = W15 m ρ c (Proc.devRef .tc main_v105) := W16_of_ne m ρ c main_v105 (by decide)
    _ = W14 m ρ c (Proc.devRef .tc main_v105) := StableHlo.after_of_forall_not_mem (b := Proc.devRef .tc main_v105) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v105) := W14_of_ne m ρ c main_v105 (by decide)
    _ = W12 m ρ c (Proc.devRef .tc main_v105) := StableHlo.after_of_forall_not_mem (b := Proc.devRef .tc main_v105) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KArgs

end
-- ==== Proof.KernelArgs2.lean ====
import proofs.«117235_j17583596110491_1_alg».proof.Proof.Gen.KernelIdeal.Frame

/-! # The edge-index vectors at the layer boundaries

The first host stretch writes the two edge-index vectors (`main_v1`, the sources; `main_v3`, the destinations) once.
No later host operation writes them and they are no region's array, so at the ends of the first three layers
(`W4`, `W8`, `W12`) they hold what they held at region 0's entry (`W1`): the fold walks back one boundary at a time,
through a host stretch because none of its operations writes the buffer, through a region because the buffer is not
one of its arrays. -/

set_option maxRecDepth 16384

noncomputable section

namespace Cert.KernelIdeal.KArgs

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W8_v1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W4_v1 m ρ c

theorem W12_v1 (c : Dev nD) : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W8_v1 m ρ c

theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W8_v3 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W4_v3 m ρ c

theorem W12_v3 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W8_v3 m ρ c

end Cert.KernelIdeal.KArgs

end
-- ==== Proof.PreFinite.lean ====
/-
  The precondition read back: every float argument array holds real numbers.

  The precondition is the conjunction, over the thirteen float arguments, of "all entries x satisfy |x| < +∞".
  On the extended reals |x| = max x (−x) and the word 0x7F800000 denotes +∞ = ⊤, so |x| < ⊤ says x is neither
  ⊤ nor ⊥: x is a real.  A reduction by "and" over every axis that comes out 1 had a 1 at every entry.
-/
import proofs.«117235_j17583596110491_1_alg».proof.Pre_finite_inputs
import proofs.«117235_j17583596110491_1_alg».proof.Proof.LibERealMatmul
import Idealize.ShloMosaic.PureOps.Ideal
import Idealize.ShloMosaic.Lib.ReduceAll
import Idealize.ShloMosaic.Lib.ValueIdx

noncomputable section

namespace Cert.PreFinite

open Idealize.ShloMosaic Idealize.ShloMosaic.ValueIdx Cert.LibERealMatmul Cert.Pre_finite_inputs

variable [Cert.Pre_finite_inputs.Facts]

/-- The word of +∞ denotes the top element. -/
theorem ofBits_inf : Ideal.ofBits .f32 0x7F800000#32 = ⊤ := by
  simp [Ideal.ofBits, Ideal.ieee]

/-- An extended real whose absolute value is below +∞ is a real. -/
theorem isFin_of_abs_lt_inf (x : EReal)
    (h : Ideal.cmp .olt (max x (-x)) (Ideal.ofBits .f32 0x7F800000#32) = 1#1) : IsFin x := by
  rw [ofBits_inf] at h
  have hlt : max x (-x) < ⊤ := by
    by_contra hn
    simp [Ideal.cmp, hn] at h
  rw [isFin_iff]
  constructor
  · rintro rfl; simp at hlt
  · rintro rfl; simp at hlt

instance : Subsingleton S_.Idx := ⟨fun a b => funext fun d => d.elim0⟩

/-- One conjunct of the precondition: "all |x| < +∞" came out 1, so every entry of x is a real. -/
theorem finite_of_all {S : Shape} {axes : List (Fin S.rank)} (x : FVec Ideal S .f32) (hb : S_.BroadcastsInDim S ![])
    (hr : S.ReducesTo axes S_) (hu : 0 < S_.numel)
    (e : (fun (p : IVec S 1) (v : IVec S_ 1) => Host.reduce IntOp.andi p v hr hu)
          (cmpf .olt (Host.absf x) (broadcastInDim S ![] hb (constant S_ .f32 0x7F800000#32))) (constantI S_ 1 1#1) ix0 = 1#1)
    (i : S.Idx) : IsFin (x i) :=
  isFin_of_abs_lt_inf (x i) (Host.reduce_andi_all _ _ hr hu ix0 e i)

/-- THE PRECONDITION READ BACK: when the printed predicate is all ones, each float argument is finite. -/
theorem finite_args (a0 : FVec Ideal S90000x128 .f32) (a1 : IVec S2x1440000 32) (a2 : IVec S90000 32) (a3 : FVec Ideal S3000 .f32)
    (a4 : IVec S2x675000 32) (a5 : FVec Ideal S90000x128 .f32) (a6 : FVec Ideal S4x128x256 .f32) (a7 a8 a9 : FVec Ideal S4x256 .f32)
    (a10 : FVec Ideal S4x256x128 .f32) (a11 : FVec Ideal S4x128 .f32) (a12 : FVec Ideal S128x1 .f32) (a13 : FVec Ideal S1 .f32)
    (a14 : FVec Ideal S256x1 .f32) (a15 : FVec Ideal S1 .f32)
    (h : fn (F := Ideal) a0 a1 a2 a3 a4 a5 a6 a7 a8 a9 a10 a11 a12 a13 a14 a15 = fun _ => 1#1) :
    (∀ i, IsFin (a0 i)) ∧ (∀ i, IsFin (a3 i)) ∧ (∀ i, IsFin (a5 i)) ∧ (∀ i, IsFin (a6 i)) ∧ (∀ i, IsFin (a7 i))
      ∧ (∀ i, IsFin (a8 i)) ∧ (∀ i, IsFin (a9 i)) ∧ (∀ i, IsFin (a10 i)) ∧ (∀ i, IsFin (a11 i)) ∧ (∀ i, IsFin (a12 i))
      ∧ (∀ i, IsFin (a13 i)) ∧ (∀ i, IsFin (a14 i)) ∧ (∀ i, IsFin (a15 i)) := by
  have h0 := congrFun h ix0
  dsimp only [fn, fn_part1, fn_part2, fn_part3, andi] at h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨e0, e3⟩ := IntOp.andi_eq_one.1 h0
  exact ⟨finite_of_all a0 _ _ _ e0, finite_of_all a3 _ _ _ e3, finite_of_all a5 _ _ _ e5, finite_of_all a6 _ _ _ e6,
    finite_of_all a7 _ _ _ e7, finite_of_all a8 _ _ _ e8, finite_of_all a9 _ _ _ e9, finite_of_all a10 _ _ _ e10,
    finite_of_all a11 _ _ _ e11, finite_of_all a12 _ _ _ e12, finite_of_all a13 _ _ _ e13, finite_of_all a14 _ _ _ e14,
    finite_of_all a15 _ _ _ e15⟩

end Cert.PreFinite

end
-- ==== Proof.Assemble.lean ====
/-
  The four results agree.

  The precondition makes every float argument finite.  Layer by layer the two programs' output buffers agree and stay
  finite: each layer's simulation takes the previous one's agreement as its x, the edge-index vectors and the sliced
  parameters agree because both programs compute them by the same operations from agreeing arguments, and the arguments
  themselves are never written.  After the fourth layer both programs apply the same operations to the agreeing mean,
  log-deviation and arguments, so the four results agree.
-/
import proofs.«117235_j17583596110491_1_alg».proof.Proof.Layer1Sim
import proofs.«117235_j17583596110491_1_alg».proof.Proof.Layer2Sim
import proofs.«117235_j17583596110491_1_alg».proof.Proof.Layer3Sim
import proofs.«117235_j17583596110491_1_alg».proof.Proof.Layer4Sim
import proofs.«117235_j17583596110491_1_alg».proof.Proof.TailSim
import proofs.«117235_j17583596110491_1_alg».proof.Proof.RefBoundaries
import proofs.«117235_j17583596110491_1_alg».proof.Proof.KernelArgs
import proofs.«117235_j17583596110491_1_alg».proof.Proof.KernelArgs2
import proofs.«117235_j17583596110491_1_alg».proof.Proof.PreFinite

set_option maxRecDepth 65536

noncomputable section

namespace Cert.Assemble

open Idealize.ShloMosaic Idealize.ShloMosaic.TcCoe Idealize.SL.Sem Idealize.ShloMosaic.StableHlo
open Cert.LayerBridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
theorem results_eq [Cert.Pre_finite_inputs.Facts]
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    StableHlo.after Cert.ReferenceIdeal.RefRun.ops (StableHlo.launchContents m' c) (Proc.devRef .tc Cert.ReferenceIdeal.main_v256) = Cert.KernelIdeal.Gen.W17 m ρ c (Proc.devRef .tc Cert.KernelIdeal.main_v190)
    ∧ StableHlo.after Cert.ReferenceIdeal.RefRun.ops (StableHlo.launchContents m' c) (Proc.devRef .tc Cert.ReferenceIdeal.main_v269) = Cert.KernelIdeal.Gen.W17 m ρ c (Proc.devRef .tc Cert.KernelIdeal.main_v203)
    ∧ StableHlo.after Cert.ReferenceIdeal.RefRun.ops (StableHlo.launchContents m' c) (Proc.devRef .tc Cert.ReferenceIdeal.main_v227) = Cert.KernelIdeal.Gen.W17 m ρ c (Proc.devRef .tc Cert.KernelIdeal.main_v161)
    ∧ StableHlo.after Cert.ReferenceIdeal.RefRun.ops (StableHlo.launchContents m' c) (Proc.devRef .tc Cert.ReferenceIdeal.main_v222) = Cert.KernelIdeal.Gen.W17 m ρ c (Proc.devRef .tc Cert.KernelIdeal.main_v156) := by
  obtain ⟨g0, -, -, g6, g7, g8, g9, g10, g11, -, -, -, -⟩ := Cert.PreFinite.finite_args _ _ _ _ _ _ _ _ _ _ _ _ _ _ _ _ hpre
  have f0 : FinArr (S := Cert.ReferenceIdeal.S90000x128) ((StableHlo.launchContents m' c) (Proc.devRef .tc Cert.ReferenceIdeal.main_arg0)) := by
    show FinArr (S := Cert.ReferenceIdeal.S90000x128) (m' ((c.tc : Thread Cert.ReferenceIdeal.nD Cert.ReferenceIdeal.τ).loc Cert.ReferenceIdeal.main_arg0))
    rw [h0]; exact g0
  have f6 : FinArr (S := Cert.ReferenceIdeal.S4x128x256) ((StableHlo.launchContents m' c) (Proc.devRef .tc Cert.ReferenceIdeal.main_arg6)) := by
    show FinArr (S := Cert.ReferenceIdeal.S4x128x256) (m' ((c.tc : Thread Cert.ReferenceIdeal.nD Cert.ReferenceIdeal.τ).loc Cert.ReferenceIdeal.main_arg6))
    rw [h6]; exact g6
  have f7 : FinArr (S := Cert.ReferenceIdeal.S4x256) ((StableHlo.launchContents m' c) (Proc.devRef .tc Cert.ReferenceIdeal.main_arg7)) := by
    show FinArr (S := Cert.ReferenceIdeal.S4x256) (m' ((c.tc : Thread Cert.ReferenceIdeal.nD Cert.ReferenceIdeal.τ).loc Cert.ReferenceIdeal.main_arg7))
    rw [h7]; exact g7
  have f8 : FinArr (S := Cert.ReferenceIdeal.S4x256) ((StableHlo.launchContents m' c) (Proc.devRef .tc Cert.ReferenceIdeal.main_arg8)) := by
    show FinArr (S := Cert.ReferenceIdeal.S4x256) (m' ((c.tc : Thread Cert.ReferenceIdeal.nD Cert.ReferenceIdeal.τ).loc Cert.ReferenceIdeal.main_arg8))
    rw [h8]; exact g8
  have f9 : FinArr (S := Cert.ReferenceIdeal.S4x256) ((StableHlo.launchContents m' c) (Proc.devRef .tc Cert.ReferenceIdeal.main_arg9)) := by
    show FinArr (S := Cert.ReferenceIdeal.S4x256) (m' ((c.tc : Thread Cert.ReferenceIdeal.nD Cert.ReferenceIdeal.τ).loc Cert.ReferenceIdeal.main_arg9))
    rw [h9]; exact g9
  have f10 : FinArr (S := Cert.ReferenceIdeal.S4x256x128) ((StableHlo.launchContents m' c) (Proc.devRef .tc Cert.ReferenceIdeal.main_arg10)) := by
    show FinArr (S := Cert.ReferenceIdeal.S4x256x128) (m' ((c.tc : Thread Cert.ReferenceIdeal.nD Cert.ReferenceIdeal.τ).loc Cert.ReferenceIdeal.main_arg10))
    rw [h10]; exact g10
  have f11 : FinArr (S := Cert.ReferenceIdeal.S4x128) ((StableHlo.launchContents m' c) (Proc.devRef .tc Cert.ReferenceIdeal.main_arg11)) := by
    show FinArr (S := Cert.ReferenceIdeal.S4x128) (m' ((c.tc : Thread Cert.ReferenceIdeal.nD Cert.ReferenceIdeal.τ).loc Cert.ReferenceIdeal.main_arg11))
    rw [h11]; exact g11
  -- layer 1
  obtain ⟨e1, fin1⟩ := Cert.Layer1Sim.sim m ρ m' c h0 h1 h6 h7 h8 h9 h10 h11 f0 f6 f7 f8 f9 f10 f11
  have hx2 : Cert.ReferenceIdeal.RBound.V1 (StableHlo.launchContents m' c) (Proc.devRef .tc Cert.ReferenceIdeal.main_v54) = Cert.KernelIdeal.Gen.W4 m ρ c (Proc.devRef .tc Cert.KernelIdeal.main_v37) :=
    (Cert.ReferenceIdeal.RBound.V1_v54 (StableHlo.launchContents m' c)).trans e1
  have fx2 : FinArr (S := Cert.ReferenceIdeal.S90000x128) (Cert.ReferenceIdeal.RBound.V1 (StableHlo.launchContents m' c) (Proc.devRef .tc Cert.ReferenceIdeal.main_v54)) := by rw [hx2]; exact fin1
  have h6_2 : Cert.ReferenceIdeal.RBound.V1 (StableHlo.launchContents m' c) (Proc.devRef .tc Cert.ReferenceIdeal.main_arg6) = Cert.KernelIdeal.Gen.W4 m ρ c (Proc.devRef .tc Cert.KernelIdeal.main_arg6) :=
    (Cert.ReferenceIdeal.RBound.V1_arg6 (StableHlo.launchContents m' c)).trans ((show (StableHlo.launchContents m' c) (Proc.devRef .tc Cert.ReferenceIdeal.main_arg6) = m ((c.tc : Thread Cert.KernelIdeal.nD Cert.KernelIdeal.τ).loc Cert.KernelIdeal.main_arg6) from h6).trans (Cert.KernelIdeal.KArgs.W4_arg6 m ρ c).symm)
  have f6_2 : FinArr (S := Cert.ReferenceIdeal.S4x128x256) (Cert.ReferenceIdeal.RBound.V1 (StableHlo.launchContents m' c) (Proc.devRef .tc Cert.ReferenceIdeal.main_arg6)) := by
    rw [Cert.ReferenceIdeal.RBound.V1_arg6 (StableHlo.launchContents m' c)]; exact f6
  have h7_2 : Cert.ReferenceIdeal.RBound.V1 (StableHlo.launchContents m' c) (Proc.devRef .tc Cert.ReferenceIdeal.main_arg7) = Cert.KernelIdeal.Gen.W4 m ρ c (Proc.devRef .tc Cert.KernelIdeal.main_arg7) :=
    (Cert.ReferenceIdeal.RBound.V1_arg7 (StableHlo.launchContents m' c)).trans ((show (StableHlo.launchContents m' c) (Proc.devRef .tc Cert.ReferenceIdeal.main_arg7) = m ((c.tc : Thread Cert.KernelIdeal.nD Cert.KernelIdeal.τ).loc Cert.KernelIdeal.main_arg7) from h7).trans (Cert.KernelIdeal.KArgs.W4_arg7 m ρ c).symm)
  have f7_2 : FinArr (S := Cert.ReferenceIdeal.S4x256) (Cert.ReferenceIdeal.RBound.V1 (StableHlo.launchContents m' c) (Proc.devRef .tc Cert.ReferenceIdeal.main_arg7)) := by
    rw [Cert.ReferenceIdeal.RBound.V1_arg7 (StableHlo.launchContents m' c)]; exact f7
  have h8_2 : Cert.ReferenceIdeal.RBound.V1 (StableHlo.launchContents m' c) (Proc.devRef .tc Cert.ReferenceIdeal.main_arg8) = Cert.KernelIdeal.Gen.W4 m ρ c (Proc.devRef .tc Cert.KernelIdeal.main_arg8) :=
    (Cert.ReferenceIdeal.RBound.V1_arg8 (StableHlo.launchContents m' c)).trans ((show (StableHlo.launchContents m' c) (Proc.devRef .tc Cert.ReferenceIdeal.main_arg8) = m ((c.tc : Thread Cert.KernelIdeal.nD Cert.KernelIdeal.τ).loc Cert.KernelIdeal.main_arg8) from h8).trans (Cert.KernelIdeal.KArgs.W4_arg8 m ρ c).symm)
  have f8_2 : FinArr (S := Cert.ReferenceIdeal.S4x256) (Cert.ReferenceIdeal.RBound.V1 (StableHlo.launchContents m' c) (Proc.devRef .tc Cert.ReferenceIdeal.main_arg8)) := by
    rw [Cert.ReferenceIdeal.RBound.V1_arg8 (StableHlo.launchContents m' c)]; exact f8
  have h9_2 : Cert.ReferenceIdeal.RBound.V1 (StableHlo.launchContents m' c) (Proc.devRef .tc Cert.ReferenceIdeal.main_arg9) = Cert.KernelIdeal.Gen.W4 m ρ c (Proc.devRef .tc Cert.KernelIdeal.main_arg9) :=
    (Cert.ReferenceIdeal.RBound.V1_arg9 (StableHlo.launchContents m' c)).trans ((show (StableHlo.launchContents m' c) (Proc.devRef .tc Cert.ReferenceIdeal.main_arg9) = m ((c.tc : Thread Cert.KernelIdeal.nD Cert.KernelIdeal.τ).loc Cert.KernelIdeal.main_arg9) from h9).trans (Cert.KernelIdeal.KArgs.W4_arg9 m ρ c).symm)
  have f9_2 : FinArr (S := Cert.ReferenceIdeal.S4x256) (Cert.ReferenceIdeal.RBound.V1 (StableHlo.launchContents m' c) (Proc.devRef .tc Cert.ReferenceIdeal.main_arg9)) := by
    rw [Cert.ReferenceIdeal.RBound.V1_arg9 (StableHlo.launchContents m' c)]; exact f9
  have h10_2 : Cert.ReferenceIdeal.RBound.V1 (StableHlo.launchContents m' c) (Proc.devRef .tc Cert.ReferenceIdeal.main_arg10) = Cert.KernelIdeal.Gen.W4 m ρ c (Proc.devRef .tc Cert.KernelIdeal.main_arg10) :=
    (Cert.ReferenceIdeal.RBound.V1_arg10 (StableHlo.launchContents m' c)).trans ((show (StableHlo.launchContents m' c) (Proc.devRef .tc Cert.ReferenceIdeal.main_arg10) = m ((c.tc : Thread Cert.KernelIdeal.nD Cert.KernelIdeal.τ).loc Cert.KernelIdeal.main_arg10) from h10).trans (Cert.KernelIdeal.KArgs.W4_arg10 m ρ c).symm)
  have f10_2 : FinArr (S := Cert.ReferenceIdeal.S4x256x128) (Cert.ReferenceIdeal.RBound.V1 (StableHlo.launchContents m' c) (Proc.devRef .tc Cert.ReferenceIdeal.main_arg10)) := by
    rw [Cert.ReferenceIdeal.RBound.V1_arg10 (StableHlo.launchContents m' c)]; exact f10
  have h11_2 : Cert.ReferenceIdeal.RBound.V1 (StableHlo.launchContents m' c) (Proc.devRef .tc Cert.ReferenceIdeal.main_arg11) = Cert.KernelIdeal.Gen.W4 m ρ c (Proc.devRef .tc Cert.KernelIdeal.main_arg11) :=
    (Cert.ReferenceIdeal.RBound.V1_arg11 (StableHlo.launchContents m' c)).trans ((show (StableHlo.launchContents m' c) (Proc.devRef .tc Cert.ReferenceIdeal.main_arg11) = m ((c.tc : Thread Cert.KernelIdeal.nD Cert.KernelIdeal.τ).loc Cert.KernelIdeal.main_arg11) from h11).trans (Cert.KernelIdeal.KArgs.W4_arg11 m ρ c).symm)
  have f11_2 : FinArr (S := Cert.ReferenceIdeal.S4x128) (Cert.ReferenceIdeal.RBound.V1 (StableHlo.launchContents m' c) (Proc.devRef .tc Cert.ReferenceIdeal.main_arg11)) := by
    rw [Cert.ReferenceIdeal.RBound.V1_arg11 (StableHlo.launchContents m' c)]; exact f11
  have hv1_2 : Cert.ReferenceIdeal.RBound.V1 (StableHlo.launchContents m' c) (Proc.devRef .tc Cert.ReferenceIdeal.main_v1) = Cert.KernelIdeal.Gen.W4 m ρ c (Proc.devRef .tc Cert.KernelIdeal.main_v1) :=
    (Cert.ReferenceIdeal.RBound.V1_v1 (StableHlo.launchContents m' c)).trans ((Cert.Chain1.src_eq m ρ m' c h1).trans (Cert.KernelIdeal.KArgs.W4_v1 m ρ c).symm)
  have hv3_2 : Cert.ReferenceIdeal.RBound.V1 (StableHlo.launchContents m' c) (Proc.devRef .tc Cert.ReferenceIdeal.main_v3) = Cert.KernelIdeal.Gen.W4 m ρ c (Proc.devRef .tc Cert.KernelIdeal.main_v3) :=
    (Cert.ReferenceIdeal.RBound.V1_v3 (StableHlo.launchContents m' c)).trans ((Cert.Chain1.dst_eq m ρ m' c h1).trans (Cert.KernelIdeal.KArgs.W4_v3 m ρ c).symm)
  -- layer 2
  obtain ⟨e2, fin2⟩ := Cert.Layer2Sim.sim m ρ c (Cert.ReferenceIdeal.RBound.V1 (StableHlo.launchContents m' c)) hx2 hv1_2 hv3_2 h6_2 h7_2 h8_2 h9_2 h10_2 h11_2 fx2 f6_2 f7_2 f8_2 f9_2 f10_2 f11_2
  have hx3 : Cert.ReferenceIdeal.RBound.V2 (StableHlo.launchContents m' c) (Proc.devRef .tc Cert.ReferenceIdeal.main_v105) = Cert.KernelIdeal.Gen.W8 m ρ c (Proc.devRef .tc Cert.KernelIdeal.main_v71) := e2
  have fx3 : FinArr (S := Cert.ReferenceIdeal.S90000x128) (Cert.ReferenceIdeal.RBound.V2 (StableHlo.launchContents m' c) (Proc.devRef .tc Cert.ReferenceIdeal.main_v105)) := by rw [hx3]; exact fin2
  have h6_3 : Cert.ReferenceIdeal.RBound.V2 (StableHlo.launchContents m' c) (Proc.devRef .tc Cert.ReferenceIdeal.main_arg6) = Cert.KernelIdeal.Gen.W8 m ρ c (Proc.devRef .tc Cert.KernelIdeal.main_arg6) :=
    (Cert.ReferenceIdeal.RBound.V2_arg6 (StableHlo.launchContents m' c)).trans ((show (StableHlo.launchContents m' c) (Proc.devRef .tc Cert.ReferenceIdeal.main_arg6) = m ((c.tc : Thread Cert.KernelIdeal.nD Cert.KernelIdeal.τ).loc Cert.KernelIdeal.main_arg6) from h6).trans (Cert.KernelIdeal.KArgs.W8_arg6 m ρ c).symm)
  have f6_3 : FinArr (S := Cert.ReferenceIdeal.S4x128x256) (Cert.ReferenceIdeal.RBound.V2 (StableHlo.launchContents m' c) (Proc.devRef .tc Cert.ReferenceIdeal.main_arg6)) := by
    rw [Cert.ReferenceIdeal.RBound.V2_arg6 (StableHlo.launchContents m' c)]; exact f6
  have h7_3 : Cert.ReferenceIdeal.RBound.V2 (StableHlo.launchContents m' c) (Proc.devRef .tc Cert.ReferenceIdeal.main_arg7) = Cert.KernelIdeal.Gen.W8 m ρ c (Proc.devRef .tc Cert.KernelIdeal.main_arg7) :=
    (Cert.ReferenceIdeal.RBound.V2_arg7 (StableHlo.launchContents m' c)).trans ((show (StableHlo.launchContents m' c) (Proc.devRef .tc Cert.ReferenceIdeal.main_arg7) = m ((c.tc : Thread Cert.KernelIdeal.nD Cert.KernelIdeal.τ).loc Cert.KernelIdeal.main_arg7) from h7).trans (Cert.KernelIdeal.KArgs.W8_arg7 m ρ c).symm)
  have f7_3 : FinArr (S := Cert.ReferenceIdeal.S4x256) (Cert.ReferenceIdeal.RBound.V2 (StableHlo.launchContents m' c) (Proc.devRef .tc Cert.ReferenceIdeal.main_arg7)) := by
    rw [Cert.ReferenceIdeal.RBound.V2_arg7 (StableHlo.launchContents m' c)]; exact f7
  have h8_3 : Cert.ReferenceIdeal.RBound.V2 (StableHlo.launchContents m' c) (Proc.devRef .tc Cert.ReferenceIdeal.main_arg8) = Cert.KernelIdeal.Gen.W8 m ρ c (Proc.devRef .tc Cert.KernelIdeal.main_arg8) :=
    (Cert.ReferenceIdeal.RBound.V2_arg8 (StableHlo.launchContents m' c)).trans ((show (StableHlo.launchContents m' c) (Proc.devRef .tc Cert.ReferenceIdeal.main_arg8) = m ((c.tc : Thread Cert.KernelIdeal.nD Cert.KernelIdeal.τ).loc Cert.KernelIdeal.main_arg8) from h8).trans (Cert.KernelIdeal.KArgs.W8_arg8 m ρ c).symm)
  have f8_3 : FinArr (S := Cert.ReferenceIdeal.S4x256) (Cert.ReferenceIdeal.RBound.V2 (StableHlo.launchContents m' c) (Proc.devRef .tc Cert.ReferenceIdeal.main_arg8)) := by
    rw [Cert.ReferenceIdeal.RBound.V2_arg8 (StableHlo.launchContents m' c)]; exact f8
  have h9_3 : Cert.ReferenceIdeal.RBound.V2 (StableHlo.launchContents m' c) (Proc.devRef .tc Cert.ReferenceIdeal.main_arg9) = Cert.KernelIdeal.Gen.W8 m ρ c (Proc.devRef .tc Cert.KernelIdeal.main_arg9) :=
    (Cert.ReferenceIdeal.RBound.V2_arg9 (StableHlo.launchContents m' c)).trans ((show (StableHlo.launchContents m' c) (Proc.devRef .tc Cert.ReferenceIdeal.main_arg9) = m ((c.tc : Thread Cert.KernelIdeal.nD Cert.KernelIdeal.τ).loc Cert.KernelIdeal.main_arg9) from h9).trans (Cert.KernelIdeal.KArgs.W8_arg9 m ρ c).symm)
  have f9_3 : FinArr (S := Cert.ReferenceIdeal.S4x256) (Cert.ReferenceIdeal.RBound.V2 (StableHlo.launchContents m' c) (Proc.devRef .tc Cert.ReferenceIdeal.main_arg9)) := by
    rw [Cert.ReferenceIdeal.RBound.V2_arg9 (StableHlo.launchContents m' c)]; exact f9
  have h10_3 : Cert.ReferenceIdeal.RBound.V2 (StableHlo.launchContents m' c) (Proc.devRef .tc Cert.ReferenceIdeal.main_arg10) = Cert.KernelIdeal.Gen.W8 m ρ c (Proc.devRef .tc Cert.KernelIdeal.main_arg10) :=
    (Cert.ReferenceIdeal.RBound.V2_arg10 (StableHlo.launchContents m' c)).trans ((show (StableHlo.launchContents m' c) (Proc.devRef .tc Cert.ReferenceIdeal.main_arg10) = m ((c.tc : Thread Cert.KernelIdeal.nD Cert.KernelIdeal.τ).loc Cert.KernelIdeal.main_arg10) from h10).trans (Cert.KernelIdeal.KArgs.W8_arg10 m ρ c).symm)
  have f10_3 : FinArr (S := Cert.ReferenceIdeal.S4x256x128) (Cert.ReferenceIdeal.RBound.V2 (StableHlo.launchContents m' c) (Proc.devRef .tc Cert.ReferenceIdeal.main_arg10)) := by
    rw [Cert.ReferenceIdeal.RBound.V2_arg10 (StableHlo.launchContents m' c)]; exact f10
  have h11_3 : Cert.ReferenceIdeal.RBound.V2 (StableHlo.launchContents m' c) (Proc.devRef .tc Cert.ReferenceIdeal.main_arg11) = Cert.KernelIdeal.Gen.W8 m ρ c (Proc.devRef .tc Cert.KernelIdeal.main_arg11) :=
    (Cert.ReferenceIdeal.RBound.V2_arg11 (StableHlo.launchContents m' c)).trans ((show (StableHlo.launchContents m' c) (Proc.devRef .tc Cert.ReferenceIdeal.main_arg11) = m ((c.tc : Thread Cert.KernelIdeal.nD Cert.KernelIdeal.τ).loc Cert.KernelIdeal.main_arg11) from h11).trans (Cert.KernelIdeal.KArgs.W8_arg11 m ρ c).symm)
  have f11_3 : FinArr (S := Cert.ReferenceIdeal.S4x128) (Cert.ReferenceIdeal.RBound.V2 (StableHlo.launchContents m' c) (Proc.devRef .tc Cert.ReferenceIdeal.main_arg11)) := by
    rw [Cert.ReferenceIdeal.RBound.V2_arg11 (StableHlo.launchContents m' c)]; exact f11
  have hv1_3 : Cert.ReferenceIdeal.RBound.V2 (StableHlo.launchContents m' c) (Proc.devRef .tc Cert.ReferenceIdeal.main_v1) = Cert.KernelIdeal.Gen.W8 m ρ c (Proc.devRef .tc Cert.KernelIdeal.main_v1) :=
    (Cert.ReferenceIdeal.RBound.V2_v1 (StableHlo.launchContents m' c)).trans ((Cert.Chain1.src_eq m ρ m' c h1).trans (Cert.KernelIdeal.KArgs.W8_v1 m ρ c).symm)
  have hv3_3 : Cert.ReferenceIdeal.RBound.V2 (StableHlo.launchContents m' c) (Proc.devRef .tc Cert.ReferenceIdeal.main_v3) = Cert.KernelIdeal.Gen.W8 m ρ c (Proc.devRef .tc Cert.KernelIdeal.main_v3) :=
    (Cert.ReferenceIdeal.RBound.V2_v3 (StableHlo.launchContents m' c)).trans ((Cert.Chain1.dst_eq m ρ m' c h1).trans (Cert.KernelIdeal.KArgs.W8_v3 m ρ c).symm)
  -- layer 3
  obtain ⟨e3, -⟩ := Cert.Layer3Sim.sim m ρ c (Cert.ReferenceIdeal.RBound.V2 (StableHlo.launchContents m' c)) hx3 hv1_3 hv3_3 h6_3 h7_3 h8_3 h9_3 h10_3 h11_3 fx3 f6_3 f7_3 f8_3 f9_3 f10_3 f11_3
  have hx4 : Cert.ReferenceIdeal.RBound.V3 (StableHlo.launchContents m' c) (Proc.devRef .tc Cert.ReferenceIdeal.main_v105) = Cert.KernelIdeal.Gen.W12 m ρ c (Proc.devRef .tc Cert.KernelIdeal.main_v71) :=
    (Cert.ReferenceIdeal.RBound.V3_v105 (StableHlo.launchContents m' c)).trans (e2.trans (Cert.KernelIdeal.KArgs.W12_v71 m ρ c).symm)
  have fx4 : FinArr (S := Cert.ReferenceIdeal.S90000x128) (Cert.ReferenceIdeal.RBound.V3 (StableHlo.launchContents m' c) (Proc.devRef .tc Cert.ReferenceIdeal.main_v105)) := by rw [hx4, Cert.KernelIdeal.KArgs.W12_v71 m ρ c]; exact fin2
  have h6_4 : Cert.ReferenceIdeal.RBound.V3 (StableHlo.launchContents m' c) (Proc.devRef .tc Cert.ReferenceIdeal.main_arg6) = Cert.KernelIdeal.Gen.W12 m ρ c (Proc.devRef .tc Cert.KernelIdeal.main_arg6) :=
    (Cert.ReferenceIdeal.RBound.V3_arg6 (StableHlo.launchContents m' c)).trans ((show (StableHlo.launchContents m' c) (Proc.devRef .tc Cert.ReferenceIdeal.main_arg6) = m ((c.tc : Thread Cert.KernelIdeal.nD Cert.KernelIdeal.τ).loc Cert.KernelIdeal.main_arg6) from h6).trans (Cert.KernelIdeal.KArgs.W12_arg6 m ρ c).symm)
  have f6_4 : FinArr (S := Cert.ReferenceIdeal.S4x128x256) (Cert.ReferenceIdeal.RBound.V3 (StableHlo.launchContents m' c) (Proc.devRef .tc Cert.ReferenceIdeal.main_arg6)) := by
    rw [Cert.ReferenceIdeal.RBound.V3_arg6 (StableHlo.launchContents m' c)]; exact f6
  have h7_4 : Cert.ReferenceIdeal.RBound.V3 (StableHlo.launchContents m' c) (Proc.devRef .tc Cert.ReferenceIdeal.main_arg7) = Cert.KernelIdeal.Gen.W12 m ρ c (Proc.devRef .tc Cert.KernelIdeal.main_arg7) :=
    (Cert.ReferenceIdeal.RBound.V3_arg7 (StableHlo.launchContents m' c)).trans ((show (StableHlo.launchContents m' c) (Proc.devRef .tc Cert.ReferenceIdeal.main_arg7) = m ((c.tc : Thread Cert.KernelIdeal.nD Cert.KernelIdeal.τ).loc Cert.KernelIdeal.main_arg7) from h7).trans (Cert.KernelIdeal.KArgs.W12_arg7 m ρ c).symm)
  have f7_4 : FinArr (S := Cert.ReferenceIdeal.S4x256) (Cert.ReferenceIdeal.RBound.V3 (StableHlo.launchContents m' c) (Proc.devRef .tc Cert.ReferenceIdeal.main_arg7)) := by
    rw [Cert.ReferenceIdeal.RBound.V3_arg7 (StableHlo.launchContents m' c)]; exact f7
  have h8_4 : Cert.ReferenceIdeal.RBound.V3 (StableHlo.launchContents m' c) (Proc.devRef .tc Cert.ReferenceIdeal.main_arg8) = Cert.KernelIdeal.Gen.W12 m ρ c (Proc.devRef .tc Cert.KernelIdeal.main_arg8) :=
    (Cert.ReferenceIdeal.RBound.V3_arg8 (StableHlo.launchContents m' c)).trans ((show (StableHlo.launchContents m' c) (Proc.devRef .tc Cert.ReferenceIdeal.main_arg8) = m ((c.tc : Thread Cert.KernelIdeal.nD Cert.KernelIdeal.τ).loc Cert.KernelIdeal.main_arg8) from h8).trans (Cert.KernelIdeal.KArgs.W12_arg8 m ρ c).symm)
  have f8_4 : FinArr (S := Cert.ReferenceIdeal.S4x256) (Cert.ReferenceIdeal.RBound.V3 (StableHlo.launchContents m' c) (Proc.devRef .tc Cert.ReferenceIdeal.main_arg8)) := by
    rw [Cert.ReferenceIdeal.RBound.V3_arg8 (StableHlo.launchContents m' c)]; exact f8
  have h9_4 : Cert.ReferenceIdeal.RBound.V3 (StableHlo.launchContents m' c) (Proc.devRef .tc Cert.ReferenceIdeal.main_arg9) = Cert.KernelIdeal.Gen.W12 m ρ c (Proc.devRef .tc Cert.KernelIdeal.main_arg9) :=
    (Cert.ReferenceIdeal.RBound.V3_arg9 (StableHlo.launchContents m' c)).trans ((show (StableHlo.launchContents m' c) (Proc.devRef .tc Cert.ReferenceIdeal.main_arg9) = m ((c.tc : Thread Cert.KernelIdeal.nD Cert.KernelIdeal.τ).loc Cert.KernelIdeal.main_arg9) from h9).trans (Cert.KernelIdeal.KArgs.W12_arg9 m ρ c).symm)
  have f9_4 : FinArr (S := Cert.ReferenceIdeal.S4x256) (Cert.ReferenceIdeal.RBound.V3 (StableHlo.launchContents m' c) (Proc.devRef .tc Cert.ReferenceIdeal.main_arg9)) := by
    rw [Cert.ReferenceIdeal.RBound.V3_arg9 (StableHlo.launchContents m' c)]; exact f9
  have h10_4 : Cert.ReferenceIdeal.RBound.V3 (StableHlo.launchContents m' c) (Proc.devRef .tc Cert.ReferenceIdeal.main_arg10) = Cert.KernelIdeal.Gen.W12 m ρ c (Proc.devRef .tc Cert.KernelIdeal.main_arg10) :=
    (Cert.ReferenceIdeal.RBound.V3_arg10 (StableHlo.launchContents m' c)).trans ((show (StableHlo.launchContents m' c) (Proc.devRef .tc Cert.ReferenceIdeal.main_arg10) = m ((c.tc : Thread Cert.KernelIdeal.nD Cert.KernelIdeal.τ).loc Cert.KernelIdeal.main_arg10) from h10).trans (Cert.KernelIdeal.KArgs.W12_arg10 m ρ c).symm)
  have f10_4 : FinArr (S := Cert.ReferenceIdeal.S4x256x128) (Cert.ReferenceIdeal.RBound.V3 (StableHlo.launchContents m' c) (Proc.devRef .tc Cert.ReferenceIdeal.main_arg10)) := by
    rw [Cert.ReferenceIdeal.RBound.V3_arg10 (StableHlo.launchContents m' c)]; exact f10
  have h11_4 : Cert.ReferenceIdeal.RBound.V3 (StableHlo.launchContents m' c) (Proc.devRef .tc Cert.ReferenceIdeal.main_arg11) = Cert.KernelIdeal.Gen.W12 m ρ c (Proc.devRef .tc Cert.KernelIdeal.main_arg11) :=
    (Cert.ReferenceIdeal.RBound.V3_arg11 (StableHlo.launchContents m' c)).trans ((show (StableHlo.launchContents m' c) (Proc.devRef .tc Cert.ReferenceIdeal.main_arg11) = m ((c.tc : Thread Cert.KernelIdeal.nD Cert.KernelIdeal.τ).loc Cert.KernelIdeal.main_arg11) from h11).trans (Cert.KernelIdeal.KArgs.W12_arg11 m ρ c).symm)
  have f11_4 : FinArr (S := Cert.ReferenceIdeal.S4x128) (Cert.ReferenceIdeal.RBound.V3 (StableHlo.launchContents m' c) (Proc.devRef .tc Cert.ReferenceIdeal.main_arg11)) := by
    rw [Cert.ReferenceIdeal.RBound.V3_arg11 (StableHlo.launchContents m' c)]; exact f11
  have hv1_4 : Cert.ReferenceIdeal.RBound.V3 (StableHlo.launchContents m' c) (Proc.devRef .tc Cert.ReferenceIdeal.main_v1) = Cert.KernelIdeal.Gen.W12 m ρ c (Proc.devRef .tc Cert.KernelIdeal.main_v1) :=
    (Cert.ReferenceIdeal.RBound.V3_v1 (StableHlo.launchContents m' c)).trans ((Cert.Chain1.src_eq m ρ m' c h1).trans (Cert.KernelIdeal.KArgs.W12_v1 m ρ c).symm)
  have hv3_4 : Cert.ReferenceIdeal.RBound.V3 (StableHlo.launchContents m' c) (Proc.devRef .tc Cert.ReferenceIdeal.main_v3) = Cert.KernelIdeal.Gen.W12 m ρ c (Proc.devRef .tc Cert.KernelIdeal.main_v3) :=
    (Cert.ReferenceIdeal.RBound.V3_v3 (StableHlo.launchContents m' c)).trans ((Cert.Chain1.dst_eq m ρ m' c h1).trans (Cert.KernelIdeal.KArgs.W12_v3 m ρ c).symm)
  -- layer 4
  obtain ⟨e4, -⟩ := Cert.Layer4Sim.sim m ρ c (Cert.ReferenceIdeal.RBound.V3 (StableHlo.launchContents m' c)) hx4 hv1_4 hv3_4 h6_4 h7_4 h8_4 h9_4 h10_4 h11_4 fx4 f6_4 f7_4 f8_4 f9_4 f10_4 f11_4
  -- the tail
  have hA : Cert.TailSim.Agree (Cert.KernelIdeal.Gen.W16 m ρ c) (Cert.ReferenceIdeal.RBound.V4 (StableHlo.launchContents m' c)) :=
    ⟨(Cert.ReferenceIdeal.RBound.V4_v155 (StableHlo.launchContents m' c)).trans (e3.trans (Cert.KernelIdeal.KArgs.W16_v105 m ρ c).symm), e4,
     (Cert.ReferenceIdeal.RBound.V4_arg2 (StableHlo.launchContents m' c)).trans ((show (StableHlo.launchContents m' c) (Proc.devRef .tc Cert.ReferenceIdeal.main_arg2) = m ((c.tc : Thread Cert.KernelIdeal.nD Cert.KernelIdeal.τ).loc Cert.KernelIdeal.main_arg2) from h2).trans (Cert.KernelIdeal.KArgs.W16_arg2 m ρ c).symm),
     (Cert.ReferenceIdeal.RBound.V4_arg3 (StableHlo.launchContents m' c)).trans ((show (StableHlo.launchContents m' c) (Proc.devRef .tc Cert.ReferenceIdeal.main_arg3) = m ((c.tc : Thread Cert.KernelIdeal.nD Cert.KernelIdeal.τ).loc Cert.KernelIdeal.main_arg3) from h3).trans (Cert.KernelIdeal.KArgs.W16_arg3 m ρ c).symm),
     (Cert.ReferenceIdeal.RBound.V4_arg4 (StableHlo.launchContents m' c)).trans ((show (StableHlo.launchContents m' c) (Proc.devRef .tc Cert.ReferenceIdeal.main_arg4) = m ((c.tc : Thread Cert.KernelIdeal.nD Cert.KernelIdeal.τ).loc Cert.KernelIdeal.main_arg4) from h4).trans (Cert.KernelIdeal.KArgs.W16_arg4 m ρ c).symm),
     (Cert.ReferenceIdeal.RBound.V4_arg5 (StableHlo.launchContents m' c)).trans ((show (StableHlo.launchContents m' c) (Proc.devRef .tc Cert.ReferenceIdeal.main_arg5) = m ((c.tc : Thread Cert.KernelIdeal.nD Cert.KernelIdeal.τ).loc Cert.KernelIdeal.main_arg5) from h5).trans (Cert.KernelIdeal.KArgs.W16_arg5 m ρ c).symm),
     (Cert.ReferenceIdeal.RBound.V4_arg12 (StableHlo.launchContents m' c)).trans ((show (StableHlo.launchContents m' c) (Proc.devRef .tc Cert.ReferenceIdeal.main_arg12) = m ((c.tc : Thread Cert.KernelIdeal.nD Cert.KernelIdeal.τ).loc Cert.KernelIdeal.main_arg12) from h12).trans (Cert.KernelIdeal.KArgs.W16_arg12 m ρ c).symm),
     (Cert.ReferenceIdeal.RBound.V4_arg13 (StableHlo.launchContents m' c)).trans ((show (StableHlo.launchContents m' c) (Proc.devRef .tc Cert.ReferenceIdeal.main_arg13) = m ((c.tc : Thread Cert.KernelIdeal.nD Cert.KernelIdeal.τ).loc Cert.KernelIdeal.main_arg13) from h13).trans (Cert.KernelIdeal.KArgs.W16_arg13 m ρ c).symm),
     (Cert.ReferenceIdeal.RBound.V4_arg14 (StableHlo.launchContents m' c)).trans ((show (StableHlo.launchContents m' c) (Proc.devRef .tc Cert.ReferenceIdeal.main_arg14) = m ((c.tc : Thread Cert.KernelIdeal.nD Cert.KernelIdeal.τ).loc Cert.KernelIdeal.main_arg14) from h14).trans (Cert.KernelIdeal.KArgs.W16_arg14 m ρ c).symm),
     (Cert.ReferenceIdeal.RBound.V4_arg15 (StableHlo.launchContents m' c)).trans ((show (StableHlo.launchContents m' c) (Proc.devRef .tc Cert.ReferenceIdeal.main_arg15) = m ((c.tc : Thread Cert.KernelIdeal.nD Cert.KernelIdeal.τ).loc Cert.KernelIdeal.main_arg15) from h15).trans (Cert.KernelIdeal.KArgs.W16_arg15 m ρ c).symm)⟩
  have hT := Cert.ReferenceIdeal.RBound.after_ops_V4 (StableHlo.launchContents m' c)
  refine ⟨?_, ?_, ?_, ?_⟩
  · rw [hT]; exact Cert.TailSim.sim_v256 hA
  · rw [hT]; exact Cert.TailSim.sim_v269 hA
  · rw [hT]; exact Cert.TailSim.sim_v227 hA
  · rw [hT]; exact Cert.TailSim.sim_v222 hA

end Cert.Assemble

end
-- ==== Proof.lean ====
/-
  The certificate's five claims.

  The three frames: the word-level kernel program and its idealization run, fault-free, with their argument
  arrays unchanged — the generated frame proofs; the reference is a host program, whose run over its list of
  operations terminates with every buffer at the operations' fold over the launch contents, and no operation
  writes an argument.  The idealization rewrote nothing, so it preserves the kernel program by its own text.
  The algebraic claim: at the ideal values both programs compute, layer by layer, the same arrays — the two
  programs differ only in how a layer's batch statistics are formed (mean of squares minus squared mean, against
  mean of squared deviations), and on finite inputs these agree.
-/
import proofs.«117235_j17583596110491_1_alg».proof.Defs
import proofs.«117235_j17583596110491_1_alg».proof.Proof.Gen.Kernel
import proofs.«117235_j17583596110491_1_alg».proof.Proof.Gen.Kernel.Skeleton
import proofs.«117235_j17583596110491_1_alg».proof.Proof.Gen.Kernel.Launch
import proofs.«117235_j17583596110491_1_alg».proof.Proof.Gen.Kernel.Points
import proofs.«117235_j17583596110491_1_alg».proof.Proof.Gen.Kernel.Frame
import proofs.«117235_j17583596110491_1_alg».proof.Proof.Gen.KernelIdeal
import proofs.«117235_j17583596110491_1_alg».proof.Proof.Gen.KernelIdeal.Skeleton
import proofs.«117235_j17583596110491_1_alg».proof.Proof.Gen.KernelIdeal.Launch
import proofs.«117235_j17583596110491_1_alg».proof.Proof.Gen.KernelIdeal.Points
import proofs.«117235_j17583596110491_1_alg».proof.Proof.Gen.KernelIdeal.Frame
import proofs.«117235_j17583596110491_1_alg».proof.Proof.Gen.ReferenceIdeal
import proofs.«117235_j17583596110491_1_alg».proof.Proof.Gen.Pre_finite_inputs
import proofs.«117235_j17583596110491_1_alg».proof.Proof.RefRun
import proofs.«117235_j17583596110491_1_alg».proof.Proof.KernelRun
import proofs.«117235_j17583596110491_1_alg».proof.Proof.Assemble
import Idealize.ShloMosaic.Adequacy
import Idealize.ShloMosaic.Init

noncomputable section

namespace Cert.Proof

open Idealize.ShloMosaic Idealize.SL.Sem Cert.Kernel

/-- The word-level kernel program runs with its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs with its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs, and no operation of it writes an argument array. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c _).trans (Cert.ReferenceIdeal.RefRun.arg0_kept _), (h c _).trans (Cert.ReferenceIdeal.RefRun.arg1_kept _),
     (h c _).trans (Cert.ReferenceIdeal.RefRun.arg2_kept _), (h c _).trans (Cert.ReferenceIdeal.RefRun.arg3_kept _),
     (h c _).trans (Cert.ReferenceIdeal.RefRun.arg4_kept _), (h c _).trans (Cert.ReferenceIdeal.RefRun.arg5_kept _),
     (h c _).trans (Cert.ReferenceIdeal.RefRun.arg6_kept _), (h c _).trans (Cert.ReferenceIdeal.RefRun.arg7_kept _),
     (h c _).trans (Cert.ReferenceIdeal.RefRun.arg8_kept _), (h c _).trans (Cert.ReferenceIdeal.RefRun.arg9_kept _),
     (h c _).trans (Cert.ReferenceIdeal.RefRun.arg10_kept _), (h c _).trans (Cert.ReferenceIdeal.RefRun.arg11_kept _),
     (h c _).trans (Cert.ReferenceIdeal.RefRun.arg12_kept _), (h c _).trans (Cert.ReferenceIdeal.RefRun.arg13_kept _),
     (h c _).trans (Cert.ReferenceIdeal.RefRun.arg14_kept _), (h c _).trans (Cert.ReferenceIdeal.RefRun.arg15_kept _)⟩)
    (Cert.ReferenceIdeal.RefRun.run_main (F := Ideal) m ρ)

/-- The ideal pass rewrote no operation. -/
theorem preserves : Cert.preserves_Kernel_KernelIdeal := trivial

/-- At the ideal values the two programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hag
  refine ⟨fun c => Cert.KernelIdeal.Gen.W17 m ρ c (Proc.devRef .tc Cert.KernelIdeal.main_v190),
    fun c => Cert.KernelIdeal.Gen.W17 m ρ c (Proc.devRef .tc Cert.KernelIdeal.main_v203),
    fun c => Cert.KernelIdeal.Gen.W17 m ρ c (Proc.devRef .tc Cert.KernelIdeal.main_v161),
    fun c => Cert.KernelIdeal.Gen.W17 m ρ c (Proc.devRef .tc Cert.KernelIdeal.main_v156),
    Cert.KernelIdeal.KRun.run_values m ρ, ?_⟩
  refine (θ_run Cert.ReferenceIdeal.defs _ _).mono (fun r h c => ?_) (Cert.ReferenceIdeal.RefRun.run_main (F := Ideal) m' ρ')
  obtain ⟨a0, a1, a2, a3, a4, a5, a6, a7, a8, a9, a10, a11, a12, a13, a14, a15⟩ := hag c
  obtain ⟨r0, r1, r2, r3⟩ := @Cert.Assemble.results_eq m ρ m' c Cert.Pre_finite_inputs.Gen.facts (hpre c)
    a0 a1 a2 a3 a4 a5 a6 a7 a8 a9 a10 a11 a12 a13 a14 a15
  exact ⟨(h c _).trans r0, (h c _).trans r1, (h c _).trans r2, (h c _).trans r3,
    (h c _).trans (Cert.ReferenceIdeal.RefRun.arg0_kept _), (h c _).trans (Cert.ReferenceIdeal.RefRun.arg1_kept _),
    (h c _).trans (Cert.ReferenceIdeal.RefRun.arg2_kept _), (h c _).trans (Cert.ReferenceIdeal.RefRun.arg3_kept _),
    (h c _).trans (Cert.ReferenceIdeal.RefRun.arg4_kept _), (h c _).trans (Cert.ReferenceIdeal.RefRun.arg5_kept _),
    (h c _).trans (Cert.ReferenceIdeal.RefRun.arg6_kept _), (h c _).trans (Cert.ReferenceIdeal.RefRun.arg7_kept _),
    (h c _).trans (Cert.ReferenceIdeal.RefRun.arg8_kept _), (h c _).trans (Cert.ReferenceIdeal.RefRun.arg9_kept _),
    (h c _).trans (Cert.ReferenceIdeal.RefRun.arg10_kept _), (h c _).trans (Cert.ReferenceIdeal.RefRun.arg11_kept _),
    (h c _).trans (Cert.ReferenceIdeal.RefRun.arg12_kept _), (h c _).trans (Cert.ReferenceIdeal.RefRun.arg13_kept _),
    (h c _).trans (Cert.ReferenceIdeal.RefRun.arg14_kept _), (h c _).trans (Cert.ReferenceIdeal.RefRun.arg15_kept _)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
